-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x128 : Shape := ⟨4, ![1, 16, 2048, 128]⟩
abbrev S1x16x2048x2048 : Shape := ⟨4, ![1, 16, 2048, 2048]⟩
abbrev S_ : Shape := ⟨0, ![]⟩

class Facts : Prop where
  bcast_S_S1x16x2048x128 : S_.BroadcastsInDim S1x16x2048x128 (![] : Fin 0 → Fin S1x16x2048x128.rank)
  reducesTo_S1x16x2048x128_S_d0_1_2_3 : S1x16x2048x128.ReducesTo [0, 1, 2, 3] S_
  h_S_ : 0 < S_.numel
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_

variable [Facts]

def fn {F : FTy → Type} [FloatOps F] (main_arg0 : FVec F S1x16x2048x128 .f32) (main_arg1 : FVec F S1x16x2048x128 .f32) (main_arg2 : FVec F S1x16x2048x2048 .f32) : IVec S_ 1 :=
  let main_v0 : FVec F S1x16x2048x128 .f32 := Host.absf main_arg0
  let main_cst : FVec F S_ .f32 := constant S_ .f32 0x7F800000#32
  let main_v1 : FVec F S1x16x2048x128 .f32 := broadcastInDim S1x16x2048x128 ![] bcast_S_S1x16x2048x128 main_cst
  let main_v2 : IVec S1x16x2048x128 1 := cmpf .olt main_v0 main_v1
  let main_c : IVec S_ 1 := constantI S_ 1 1#1
  let main_v3 : IVec S_ 1 := (fun x v => Host.reduce IntOp.andi x v reducesTo_S1x16x2048x128_S_d0_1_2_3 h_S_) main_v2 main_c
  let main_v4 : FVec F S1x16x2048x128 .f32 := Host.absf main_arg1
  let main_cst_0 : FVec F S_ .f32 := constant S_ .f32 0x7F800000#32
  let main_v5 : FVec F S1x16x2048x128 .f32 := broadcastInDim S1x16x2048x128 ![] bcast_S_S1x16x2048x128 main_cst_0
  let main_v6 : IVec S1x16x2048x128 1 := cmpf .olt main_v4 main_v5
  let main_c_1 : IVec S_ 1 := constantI S_ 1 1#1
  let main_v7 : IVec S_ 1 := (fun x v => Host.reduce IntOp.andi x v reducesTo_S1x16x2048x128_S_d0_1_2_3 h_S_) main_v6 main_c_1
  let main_v8 : IVec S_ 1 := andi main_v3 main_v7
  let main_v9 : FVec F S1x16x2048x2048 .f32 := Host.absf main_arg2
  let main_cst_2 : FVec F S_ .f32 := constant S_ .f32 0x7F800000#32
  let main_v10 : FVec F S1x16x2048x2048 .f32 := broadcastInDim S1x16x2048x2048 ![] bcast_S_S1x16x2048x2048 main_cst_2
  let main_v11 : IVec S1x16x2048x2048 1 := cmpf .olt main_v9 main_v10
  let main_c_3 : IVec S_ 1 := constantI S_ 1 1#1
  let main_v12 : IVec S_ 1 := (fun x v => Host.reduce IntOp.andi x v reducesTo_S1x16x2048x2048_S_d0_1_2_3 h_S_) main_v11 main_c_3
  let main_v13 : IVec S_ 1 := andi main_v8 main_v12
  main_v13
-- ==== Kernel.lean ====
abbrev S1x16x2048x128 : Shape := ⟨4, ![1, 16, 2048, 128]⟩
abbrev S1x16x2048x2048 : Shape := ⟨4, ![1, 16, 2048, 2048]⟩
abbrev S16x2048x2048 : Shape := ⟨3, ![16, 2048, 2048]⟩
abbrev S114688 : Shape := ⟨1, ![114688]⟩
abbrev S64x512 : Shape := ⟨2, ![64, 512]⟩
abbrev S512 : Shape := ⟨1, ![512]⟩
abbrev S_ : Shape := ⟨0, ![]⟩
abbrev S1x64x512 : Shape := ⟨3, ![1, 64, 512]⟩
abbrev S16 : Shape := ⟨1, ![16]⟩
abbrev S1x16 : Shape := ⟨2, ![1, 16]⟩
abbrev S9x128 : Shape := ⟨2, ![9, 128]⟩
abbrev S1x1024x2048 : Shape := ⟨3, ![1, 1024, 2048]⟩
abbrev S1x2048 : Shape := ⟨2, ![1, 2048]⟩
abbrev S1024x2048 : Shape := ⟨2, ![1024, 2048]⟩
abbrev S2048 : Shape := ⟨1, ![2048]⟩
abbrev S2048x128 : Shape := ⟨2, ![2048, 128]⟩
abbrev S1x128 : Shape := ⟨2, ![1, 128]⟩
abbrev S3x16x30000 : Shape := ⟨3, ![3, 16, 30000]⟩
abbrev S7x8x2048 : Shape := ⟨3, ![7, 8, 2048]⟩
abbrev S7x2048 : Shape := ⟨2, ![7, 2048]⟩
abbrev S7x128 : Shape := ⟨2, ![7, 128]⟩
abbrev S16x128 : Shape := ⟨2, ![16, 128]⟩
abbrev S16x30000 : Shape := ⟨2, ![16, 30000]⟩
abbrev S16x29872 : Shape := ⟨2, ![16, 29872]⟩
abbrev S1x16x30000 : Shape := ⟨3, ![1, 16, 30000]⟩
abbrev S16x30000x3 : Shape := ⟨3, ![16, 30000, 3]⟩

abbrev nBuf : Table → Nat
  | .hbm => 8
  | .local .tc .vmem => 7
  | .local .scVector .vmem => 3
  | _ => 0

abbrev bufTy : (tb : Table) → Fin (nBuf tb) → BufTy
  | .hbm, ⟨0, _⟩ => ⟨S1x16x2048x128, .f32⟩
  | .hbm, ⟨1, _⟩ => ⟨S1x16x2048x128, .f32⟩
  | .hbm, ⟨2, _⟩ => ⟨S1x16x2048x2048, .f32⟩
  | .hbm, ⟨3, _⟩ => ⟨S16x2048x2048, .f32⟩
  | .hbm, ⟨4, _⟩ => ⟨S114688, .f32⟩
  | .hbm, ⟨5, _⟩ => ⟨S9x128, .f32⟩
  | .hbm, ⟨6, _⟩ => ⟨S3x16x30000, .f32⟩
  | .hbm, ⟨7, _⟩ => ⟨S16x30000x3, .f32⟩
  | .local .tc .vmem, ⟨0, _⟩ => ⟨S1x1024x2048, .f32⟩
  | .local .tc .vmem, ⟨1, _⟩ => ⟨S1x1024x2048, .f32⟩
  | .local .tc .vmem, ⟨2, _⟩ => ⟨S9x128, .f32⟩
  | .local .tc .vmem, ⟨3, _⟩ => ⟨S1x2048, .f32⟩
  | .local .tc .vmem, ⟨4, _⟩ => ⟨S9x128, .f32⟩
  | .local .tc .vmem, ⟨5, _⟩ => ⟨S114688, .f32⟩
  | .local .tc .vmem, ⟨6, _⟩ => ⟨S3x16x30000, .f32⟩
  | .local .scVector .vmem, ⟨0, _⟩ => ⟨S64x512, .f32⟩
  | .local .scVector .vmem, ⟨1, _⟩ => ⟨S64x512, .f32⟩
  | .local .scVector .vmem, ⟨2, _⟩ => ⟨S512, .f32⟩
  | _, _ => ⟨S1x16x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_scratch0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 9
abbrev cc1_sem0_1 : DmaSem sig := 10
abbrev cc1_sem1_0 : DmaSem sig := 11
abbrev cc2_sem0_0 : DmaSem sig := 12
abbrev cc2_sem1_0 : DmaSem sig := 13
abbrev cc2_sem2_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let c256_i32 : BitVec 32 := 256#32
  let v30 : BitVec 32 := Scalar.muli v29 c256_i32
  let v31 : BitVec 32 := Scalar.addi v30 c0_i32_10
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![9, v31.toNat, v12.toNat]
@[reducible] def k0_t1_loop : Scf.Loop 32 :=
  let c0_i32_16 : BitVec 32 := 0#32
  let c64_i32_17 : BitVec 32 := 64#32
  let v49 : BitVec 32 := Scalar.addi c0_i32_16 c64_i32_17
  let c1_i32_18 : BitVec 32 := 1#32
  ⟨c0_i32_16, v49, c1_i32_18⟩
def k0_off2 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1130 : Index := Scalar.indexCast arg9
  let c0_485 : Index := 0#32
  ![v1130.toNat, 0]
def k0_off3 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1134 : Index := Scalar.indexCast arg9
  let c16_486 : Index := 16#32
  ![v1134.toNat, 16]
def k0_off4 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1138 : Index := Scalar.indexCast arg9
  let c32_487 : Index := 32#32
  ![v1138.toNat, 32]
def k0_off5 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1142 : Index := Scalar.indexCast arg9
  let c48_488 : Index := 48#32
  ![v1142.toNat, 48]
def k0_off6 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1146 : Index := Scalar.indexCast arg9
  let c64_489 : Index := 64#32
  ![v1146.toNat, 64]
def k0_off7 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1150 : Index := Scalar.indexCast arg9
  let c80_490 : Index := 80#32
  ![v1150.toNat, 80]
def k0_off8 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1154 : Index := Scalar.indexCast arg9
  let c96_491 : Index := 96#32
  ![v1154.toNat, 96]
def k0_off9 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1158 : Index := Scalar.indexCast arg9
  let c112_492 : Index := 112#32
  ![v1158.toNat, 112]
def k0_off10 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1162 : Index := Scalar.indexCast arg9
  let c128_493 : Index := 128#32
  ![v1162.toNat, 128]
def k0_off11 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1166 : Index := Scalar.indexCast arg9
  let c144_494 : Index := 144#32
  ![v1166.toNat, 144]
def k0_off12 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1170 : Index := Scalar.indexCast arg9
  let c160_495 : Index := 160#32
  ![v1170.toNat, 160]
def k0_off13 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1174 : Index := Scalar.indexCast arg9
  let c176_496 : Index := 176#32
  ![v1174.toNat, 176]
def k0_off14 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1178 : Index := Scalar.indexCast arg9
  let c192_497 : Index := 192#32
  ![v1178.toNat, 192]
def k0_off15 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1182 : Index := Scalar.indexCast arg9
  let c208_498 : Index := 208#32
  ![v1182.toNat, 208]
def k0_off16 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1186 : Index := Scalar.indexCast arg9
  let c224_499 : Index := 224#32
  ![v1186.toNat, 224]
def k0_off17 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1190 : Index := Scalar.indexCast arg9
  let c240_500 : Index := 240#32
  ![v1190.toNat, 240]
def k0_off18 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1194 : Index := Scalar.indexCast arg9
  let c256_501 : Index := 256#32
  ![v1194.toNat, 256]
def k0_off19 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1198 : Index := Scalar.indexCast arg9
  let c272_502 : Index := 272#32
  ![v1198.toNat, 272]
def k0_off20 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1202 : Index := Scalar.indexCast arg9
  let c288_503 : Index := 288#32
  ![v1202.toNat, 288]
def k0_off21 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1206 : Index := Scalar.indexCast arg9
  let c304_504 : Index := 304#32
  ![v1206.toNat, 304]
def k0_off22 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1210 : Index := Scalar.indexCast arg9
  let c320_505 : Index := 320#32
  ![v1210.toNat, 320]
def k0_off23 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1214 : Index := Scalar.indexCast arg9
  let c336_506 : Index := 336#32
  ![v1214.toNat, 336]
def k0_off24 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1218 : Index := Scalar.indexCast arg9
  let c352_507 : Index := 352#32
  ![v1218.toNat, 352]
def k0_off25 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1222 : Index := Scalar.indexCast arg9
  let c368_508 : Index := 368#32
  ![v1222.toNat, 368]
def k0_off26 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1226 : Index := Scalar.indexCast arg9
  let c384_509 : Index := 384#32
  ![v1226.toNat, 384]
def k0_off27 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1230 : Index := Scalar.indexCast arg9
  let c400_510 : Index := 400#32
  ![v1230.toNat, 400]
def k0_off28 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1234 : Index := Scalar.indexCast arg9
  let c416_511 : Index := 416#32
  ![v1234.toNat, 416]
def k0_off29 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1238 : Index := Scalar.indexCast arg9
  let c432_512 : Index := 432#32
  ![v1238.toNat, 432]
def k0_off30 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1242 : Index := Scalar.indexCast arg9
  let c448_513 : Index := 448#32
  ![v1242.toNat, 448]
def k0_off31 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1246 : Index := Scalar.indexCast arg9
  let c464_514 : Index := 464#32
  ![v1246.toNat, 464]
def k0_off32 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1250 : Index := Scalar.indexCast arg9
  let c480_515 : Index := 480#32
  ![v1250.toNat, 480]
def k0_off33 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let v1254 : Index := Scalar.indexCast arg9
  let c496_516 : Index := 496#32
  ![v1254.toNat, 496]
@[reducible] def k0_t2_loop : Scf.Loop 32 :=
  let c0_i32_25 : BitVec 32 := 0#32
  let c64_i32_26 : BitVec 32 := 64#32
  let v63 : BitVec 32 := Scalar.addi c0_i32_25 c64_i32_26
  let c1_i32_27 : BitVec 32 := 1#32
  ⟨c0_i32_25, v63, c1_i32_27⟩
def k0_off34 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1130 : Index := Scalar.indexCast arg9
  let c0_485 : Index := 0#32
  ![v1130.toNat, 0]
def k0_off35 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1134 : Index := Scalar.indexCast arg9
  let c16_486 : Index := 16#32
  ![v1134.toNat, 16]
def k0_off36 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1138 : Index := Scalar.indexCast arg9
  let c32_487 : Index := 32#32
  ![v1138.toNat, 32]
def k0_off37 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1142 : Index := Scalar.indexCast arg9
  let c48_488 : Index := 48#32
  ![v1142.toNat, 48]
def k0_off38 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1146 : Index := Scalar.indexCast arg9
  let c64_489 : Index := 64#32
  ![v1146.toNat, 64]
def k0_off39 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1150 : Index := Scalar.indexCast arg9
  let c80_490 : Index := 80#32
  ![v1150.toNat, 80]
def k0_off40 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1154 : Index := Scalar.indexCast arg9
  let c96_491 : Index := 96#32
  ![v1154.toNat, 96]
def k0_off41 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1158 : Index := Scalar.indexCast arg9
  let c112_492 : Index := 112#32
  ![v1158.toNat, 112]
def k0_off42 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1162 : Index := Scalar.indexCast arg9
  let c128_493 : Index := 128#32
  ![v1162.toNat, 128]
def k0_off43 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1166 : Index := Scalar.indexCast arg9
  let c144_494 : Index := 144#32
  ![v1166.toNat, 144]
def k0_off44 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1170 : Index := Scalar.indexCast arg9
  let c160_495 : Index := 160#32
  ![v1170.toNat, 160]
def k0_off45 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1174 : Index := Scalar.indexCast arg9
  let c176_496 : Index := 176#32
  ![v1174.toNat, 176]
def k0_off46 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1178 : Index := Scalar.indexCast arg9
  let c192_497 : Index := 192#32
  ![v1178.toNat, 192]
def k0_off47 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1182 : Index := Scalar.indexCast arg9
  let c208_498 : Index := 208#32
  ![v1182.toNat, 208]
def k0_off48 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1186 : Index := Scalar.indexCast arg9
  let c224_499 : Index := 224#32
  ![v1186.toNat, 224]
def k0_off49 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1190 : Index := Scalar.indexCast arg9
  let c240_500 : Index := 240#32
  ![v1190.toNat, 240]
def k0_off50 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1194 : Index := Scalar.indexCast arg9
  let c256_501 : Index := 256#32
  ![v1194.toNat, 256]
def k0_off51 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1198 : Index := Scalar.indexCast arg9
  let c272_502 : Index := 272#32
  ![v1198.toNat, 272]
def k0_off52 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1202 : Index := Scalar.indexCast arg9
  let c288_503 : Index := 288#32
  ![v1202.toNat, 288]
def k0_off53 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1206 : Index := Scalar.indexCast arg9
  let c304_504 : Index := 304#32
  ![v1206.toNat, 304]
def k0_off54 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1210 : Index := Scalar.indexCast arg9
  let c320_505 : Index := 320#32
  ![v1210.toNat, 320]
def k0_off55 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1214 : Index := Scalar.indexCast arg9
  let c336_506 : Index := 336#32
  ![v1214.toNat, 336]
def k0_off56 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1218 : Index := Scalar.indexCast arg9
  let c352_507 : Index := 352#32
  ![v1218.toNat, 352]
def k0_off57 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1222 : Index := Scalar.indexCast arg9
  let c368_508 : Index := 368#32
  ![v1222.toNat, 368]
def k0_off58 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1226 : Index := Scalar.indexCast arg9
  let c384_509 : Index := 384#32
  ![v1226.toNat, 384]
def k0_off59 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1230 : Index := Scalar.indexCast arg9
  let c400_510 : Index := 400#32
  ![v1230.toNat, 400]
def k0_off60 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1234 : Index := Scalar.indexCast arg9
  let c416_511 : Index := 416#32
  ![v1234.toNat, 416]
def k0_off61 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1238 : Index := Scalar.indexCast arg9
  let c432_512 : Index := 432#32
  ![v1238.toNat, 432]
def k0_off62 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1242 : Index := Scalar.indexCast arg9
  let c448_513 : Index := 448#32
  ![v1242.toNat, 448]
def k0_off63 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1246 : Index := Scalar.indexCast arg9
  let c464_514 : Index := 464#32
  ![v1246.toNat, 464]
def k0_off64 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1250 : Index := Scalar.indexCast arg9
  let c480_515 : Index := 480#32
  ![v1250.toNat, 480]
def k0_off65 (k0_t2 : Fin k0_t2_loop.trips) : Fin 2 → Nat :=
  let c0_i32_25 : BitVec 32 := 0#32
  let c1_i32_27 : BitVec 32 := 1#32
  let arg9 : BitVec 32 := Scf.iv c0_i32_25 c1_i32_27 k0_t2
  let v1254 : Index := Scalar.indexCast arg9
  let c496_516 : Index := 496#32
  ![v1254.toNat, 496]
@[reducible] def k0_t3_loop : Scf.Loop 32 :=
  let c0_i32_34 : BitVec 32 := 0#32
  let c64_i32_35 : BitVec 32 := 64#32
  let v77 : BitVec 32 := Scalar.addi c0_i32_34 c64_i32_35
  let c1_i32_36 : BitVec 32 := 1#32
  ⟨c0_i32_34, v77, c1_i32_36⟩
def k0_off66 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1130 : Index := Scalar.indexCast arg9
  let c0_485 : Index := 0#32
  ![v1130.toNat, 0]
def k0_off67 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1134 : Index := Scalar.indexCast arg9
  let c16_486 : Index := 16#32
  ![v1134.toNat, 16]
def k0_off68 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1138 : Index := Scalar.indexCast arg9
  let c32_487 : Index := 32#32
  ![v1138.toNat, 32]
def k0_off69 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1142 : Index := Scalar.indexCast arg9
  let c48_488 : Index := 48#32
  ![v1142.toNat, 48]
def k0_off70 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1146 : Index := Scalar.indexCast arg9
  let c64_489 : Index := 64#32
  ![v1146.toNat, 64]
def k0_off71 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1150 : Index := Scalar.indexCast arg9
  let c80_490 : Index := 80#32
  ![v1150.toNat, 80]
def k0_off72 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1154 : Index := Scalar.indexCast arg9
  let c96_491 : Index := 96#32
  ![v1154.toNat, 96]
def k0_off73 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1158 : Index := Scalar.indexCast arg9
  let c112_492 : Index := 112#32
  ![v1158.toNat, 112]
def k0_off74 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1162 : Index := Scalar.indexCast arg9
  let c128_493 : Index := 128#32
  ![v1162.toNat, 128]
def k0_off75 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1166 : Index := Scalar.indexCast arg9
  let c144_494 : Index := 144#32
  ![v1166.toNat, 144]
def k0_off76 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1170 : Index := Scalar.indexCast arg9
  let c160_495 : Index := 160#32
  ![v1170.toNat, 160]
def k0_off77 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1174 : Index := Scalar.indexCast arg9
  let c176_496 : Index := 176#32
  ![v1174.toNat, 176]
def k0_off78 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1178 : Index := Scalar.indexCast arg9
  let c192_497 : Index := 192#32
  ![v1178.toNat, 192]
def k0_off79 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1182 : Index := Scalar.indexCast arg9
  let c208_498 : Index := 208#32
  ![v1182.toNat, 208]
def k0_off80 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1186 : Index := Scalar.indexCast arg9
  let c224_499 : Index := 224#32
  ![v1186.toNat, 224]
def k0_off81 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1190 : Index := Scalar.indexCast arg9
  let c240_500 : Index := 240#32
  ![v1190.toNat, 240]
def k0_off82 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1194 : Index := Scalar.indexCast arg9
  let c256_501 : Index := 256#32
  ![v1194.toNat, 256]
def k0_off83 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1198 : Index := Scalar.indexCast arg9
  let c272_502 : Index := 272#32
  ![v1198.toNat, 272]
def k0_off84 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1202 : Index := Scalar.indexCast arg9
  let c288_503 : Index := 288#32
  ![v1202.toNat, 288]
def k0_off85 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1206 : Index := Scalar.indexCast arg9
  let c304_504 : Index := 304#32
  ![v1206.toNat, 304]
def k0_off86 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1210 : Index := Scalar.indexCast arg9
  let c320_505 : Index := 320#32
  ![v1210.toNat, 320]
def k0_off87 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1214 : Index := Scalar.indexCast arg9
  let c336_506 : Index := 336#32
  ![v1214.toNat, 336]
def k0_off88 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1218 : Index := Scalar.indexCast arg9
  let c352_507 : Index := 352#32
  ![v1218.toNat, 352]
def k0_off89 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1222 : Index := Scalar.indexCast arg9
  let c368_508 : Index := 368#32
  ![v1222.toNat, 368]
def k0_off90 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1226 : Index := Scalar.indexCast arg9
  let c384_509 : Index := 384#32
  ![v1226.toNat, 384]
def k0_off91 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1230 : Index := Scalar.indexCast arg9
  let c400_510 : Index := 400#32
  ![v1230.toNat, 400]
def k0_off92 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1234 : Index := Scalar.indexCast arg9
  let c416_511 : Index := 416#32
  ![v1234.toNat, 416]
def k0_off93 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1238 : Index := Scalar.indexCast arg9
  let c432_512 : Index := 432#32
  ![v1238.toNat, 432]
def k0_off94 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1242 : Index := Scalar.indexCast arg9
  let c448_513 : Index := 448#32
  ![v1242.toNat, 448]
def k0_off95 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1246 : Index := Scalar.indexCast arg9
  let c464_514 : Index := 464#32
  ![v1246.toNat, 464]
def k0_off96 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1250 : Index := Scalar.indexCast arg9
  let c480_515 : Index := 480#32
  ![v1250.toNat, 480]
def k0_off97 (k0_t3 : Fin k0_t3_loop.trips) : Fin 2 → Nat :=
  let c0_i32_34 : BitVec 32 := 0#32
  let c1_i32_36 : BitVec 32 := 1#32
  let arg9 : BitVec 32 := Scf.iv c0_i32_34 c1_i32_36 k0_t3
  let v1254 : Index := Scalar.indexCast arg9
  let c496_516 : Index := 496#32
  ![v1254.toNat, 496]
def k0_off98 (i : grid0.Coords) (c0_i32_39 : BitVec 32) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let c256_i32_38 : BitVec 32 := 256#32
  let v79 : BitVec 32 := Scalar.muli v29 c256_i32_38
  let v80 : BitVec 32 := Scalar.addi v79 c0_i32_39
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![10, v80.toNat, v12.toNat]
@[reducible] def k0_t4_loop : Scf.Loop 32 :=
  let c0_i32_43 : BitVec 32 := 0#32
  let c64_i32_44 : BitVec 32 := 64#32
  let v91 : BitVec 32 := Scalar.addi c0_i32_43 c64_i32_44
  let c1_i32_45 : BitVec 32 := 1#32
  ⟨c0_i32_43, v91, c1_i32_45⟩
def k0_off99 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1130 : Index := Scalar.indexCast arg9
  let c0_485 : Index := 0#32
  ![v1130.toNat, 0]
def k0_off100 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1134 : Index := Scalar.indexCast arg9
  let c16_486 : Index := 16#32
  ![v1134.toNat, 16]
def k0_off101 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1138 : Index := Scalar.indexCast arg9
  let c32_487 : Index := 32#32
  ![v1138.toNat, 32]
def k0_off102 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1142 : Index := Scalar.indexCast arg9
  let c48_488 : Index := 48#32
  ![v1142.toNat, 48]
def k0_off103 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1146 : Index := Scalar.indexCast arg9
  let c64_489 : Index := 64#32
  ![v1146.toNat, 64]
def k0_off104 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1150 : Index := Scalar.indexCast arg9
  let c80_490 : Index := 80#32
  ![v1150.toNat, 80]
def k0_off105 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1154 : Index := Scalar.indexCast arg9
  let c96_491 : Index := 96#32
  ![v1154.toNat, 96]
def k0_off106 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1158 : Index := Scalar.indexCast arg9
  let c112_492 : Index := 112#32
  ![v1158.toNat, 112]
def k0_off107 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1162 : Index := Scalar.indexCast arg9
  let c128_493 : Index := 128#32
  ![v1162.toNat, 128]
def k0_off108 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1166 : Index := Scalar.indexCast arg9
  let c144_494 : Index := 144#32
  ![v1166.toNat, 144]
def k0_off109 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1170 : Index := Scalar.indexCast arg9
  let c160_495 : Index := 160#32
  ![v1170.toNat, 160]
def k0_off110 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1174 : Index := Scalar.indexCast arg9
  let c176_496 : Index := 176#32
  ![v1174.toNat, 176]
def k0_off111 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1178 : Index := Scalar.indexCast arg9
  let c192_497 : Index := 192#32
  ![v1178.toNat, 192]
def k0_off112 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1182 : Index := Scalar.indexCast arg9
  let c208_498 : Index := 208#32
  ![v1182.toNat, 208]
def k0_off113 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1186 : Index := Scalar.indexCast arg9
  let c224_499 : Index := 224#32
  ![v1186.toNat, 224]
def k0_off114 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1190 : Index := Scalar.indexCast arg9
  let c240_500 : Index := 240#32
  ![v1190.toNat, 240]
def k0_off115 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1194 : Index := Scalar.indexCast arg9
  let c256_501 : Index := 256#32
  ![v1194.toNat, 256]
def k0_off116 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1198 : Index := Scalar.indexCast arg9
  let c272_502 : Index := 272#32
  ![v1198.toNat, 272]
def k0_off117 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1202 : Index := Scalar.indexCast arg9
  let c288_503 : Index := 288#32
  ![v1202.toNat, 288]
def k0_off118 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1206 : Index := Scalar.indexCast arg9
  let c304_504 : Index := 304#32
  ![v1206.toNat, 304]
def k0_off119 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1210 : Index := Scalar.indexCast arg9
  let c320_505 : Index := 320#32
  ![v1210.toNat, 320]
def k0_off120 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1214 : Index := Scalar.indexCast arg9
  let c336_506 : Index := 336#32
  ![v1214.toNat, 336]
def k0_off121 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1218 : Index := Scalar.indexCast arg9
  let c352_507 : Index := 352#32
  ![v1218.toNat, 352]
def k0_off122 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1222 : Index := Scalar.indexCast arg9
  let c368_508 : Index := 368#32
  ![v1222.toNat, 368]
def k0_off123 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1226 : Index := Scalar.indexCast arg9
  let c384_509 : Index := 384#32
  ![v1226.toNat, 384]
def k0_off124 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1230 : Index := Scalar.indexCast arg9
  let c400_510 : Index := 400#32
  ![v1230.toNat, 400]
def k0_off125 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1234 : Index := Scalar.indexCast arg9
  let c416_511 : Index := 416#32
  ![v1234.toNat, 416]
def k0_off126 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1238 : Index := Scalar.indexCast arg9
  let c432_512 : Index := 432#32
  ![v1238.toNat, 432]
def k0_off127 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1242 : Index := Scalar.indexCast arg9
  let c448_513 : Index := 448#32
  ![v1242.toNat, 448]
def k0_off128 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1246 : Index := Scalar.indexCast arg9
  let c464_514 : Index := 464#32
  ![v1246.toNat, 464]
def k0_off129 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1250 : Index := Scalar.indexCast arg9
  let c480_515 : Index := 480#32
  ![v1250.toNat, 480]
def k0_off130 (k0_t4 : Fin k0_t4_loop.trips) : Fin 2 → Nat :=
  let c0_i32_43 : BitVec 32 := 0#32
  let c1_i32_45 : BitVec 32 := 1#32
  let arg9 : BitVec 32 := Scf.iv c0_i32_43 c1_i32_45 k0_t4
  let v1254 : Index := Scalar.indexCast arg9
  let c496_516 : Index := 496#32
  ![v1254.toNat, 496]
def k0_mult1 (i : grid0.Coords) : BitVec 32 :=
  let c0_i32_50 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let v195 : BitVec 32 := Scalar.addi c0_i32_50 v29
  let c2048_i32 : BitVec 32 := 2048#32
  let v196 : BitVec 32 := Scalar.muli v195 c2048_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  let v197 : BitVec 32 := Scalar.addi v196 v12
  v197
def k0_off131 (i : grid0.Coords) (c0_i32_50 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let v195 : BitVec 32 := Scalar.addi c0_i32_50 v29
  let c2048_i32 : BitVec 32 := 2048#32
  let v196 : BitVec 32 := Scalar.muli v195 c2048_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  let v197 : BitVec 32 := Scalar.addi v196 v12
  let v198 : BitVec 32 := v197
  ![v198.toNat]
@[reducible] def k0_t5_loop : Scf.Loop 32 :=
  let c0_i32_55 : BitVec 32 := 0#32
  let c64_i32_56 : BitVec 32 := 64#32
  let v206 : BitVec 32 := Scalar.addi c0_i32_55 c64_i32_56
  let c1_i32_57 : BitVec 32 := 1#32
  ⟨c0_i32_55, v206, c1_i32_57⟩
def k0_off132 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1130 : Index := Scalar.indexCast arg9
  let c0_485 : Index := 0#32
  ![v1130.toNat, 0]
def k0_off133 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1134 : Index := Scalar.indexCast arg9
  let c16_486 : Index := 16#32
  ![v1134.toNat, 16]
def k0_off134 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1138 : Index := Scalar.indexCast arg9
  let c32_487 : Index := 32#32
  ![v1138.toNat, 32]
def k0_off135 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1142 : Index := Scalar.indexCast arg9
  let c48_488 : Index := 48#32
  ![v1142.toNat, 48]
def k0_off136 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1146 : Index := Scalar.indexCast arg9
  let c64_489 : Index := 64#32
  ![v1146.toNat, 64]
def k0_off137 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1150 : Index := Scalar.indexCast arg9
  let c80_490 : Index := 80#32
  ![v1150.toNat, 80]
def k0_off138 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1154 : Index := Scalar.indexCast arg9
  let c96_491 : Index := 96#32
  ![v1154.toNat, 96]
def k0_off139 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1158 : Index := Scalar.indexCast arg9
  let c112_492 : Index := 112#32
  ![v1158.toNat, 112]
def k0_off140 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1162 : Index := Scalar.indexCast arg9
  let c128_493 : Index := 128#32
  ![v1162.toNat, 128]
def k0_off141 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1166 : Index := Scalar.indexCast arg9
  let c144_494 : Index := 144#32
  ![v1166.toNat, 144]
def k0_off142 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1170 : Index := Scalar.indexCast arg9
  let c160_495 : Index := 160#32
  ![v1170.toNat, 160]
def k0_off143 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1174 : Index := Scalar.indexCast arg9
  let c176_496 : Index := 176#32
  ![v1174.toNat, 176]
def k0_off144 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1178 : Index := Scalar.indexCast arg9
  let c192_497 : Index := 192#32
  ![v1178.toNat, 192]
def k0_off145 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1182 : Index := Scalar.indexCast arg9
  let c208_498 : Index := 208#32
  ![v1182.toNat, 208]
def k0_off146 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1186 : Index := Scalar.indexCast arg9
  let c224_499 : Index := 224#32
  ![v1186.toNat, 224]
def k0_off147 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1190 : Index := Scalar.indexCast arg9
  let c240_500 : Index := 240#32
  ![v1190.toNat, 240]
def k0_off148 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1194 : Index := Scalar.indexCast arg9
  let c256_501 : Index := 256#32
  ![v1194.toNat, 256]
def k0_off149 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1198 : Index := Scalar.indexCast arg9
  let c272_502 : Index := 272#32
  ![v1198.toNat, 272]
def k0_off150 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1202 : Index := Scalar.indexCast arg9
  let c288_503 : Index := 288#32
  ![v1202.toNat, 288]
def k0_off151 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1206 : Index := Scalar.indexCast arg9
  let c304_504 : Index := 304#32
  ![v1206.toNat, 304]
def k0_off152 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1210 : Index := Scalar.indexCast arg9
  let c320_505 : Index := 320#32
  ![v1210.toNat, 320]
def k0_off153 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1214 : Index := Scalar.indexCast arg9
  let c336_506 : Index := 336#32
  ![v1214.toNat, 336]
def k0_off154 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1218 : Index := Scalar.indexCast arg9
  let c352_507 : Index := 352#32
  ![v1218.toNat, 352]
def k0_off155 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1222 : Index := Scalar.indexCast arg9
  let c368_508 : Index := 368#32
  ![v1222.toNat, 368]
def k0_off156 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1226 : Index := Scalar.indexCast arg9
  let c384_509 : Index := 384#32
  ![v1226.toNat, 384]
def k0_off157 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1230 : Index := Scalar.indexCast arg9
  let c400_510 : Index := 400#32
  ![v1230.toNat, 400]
def k0_off158 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1234 : Index := Scalar.indexCast arg9
  let c416_511 : Index := 416#32
  ![v1234.toNat, 416]
def k0_off159 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1238 : Index := Scalar.indexCast arg9
  let c432_512 : Index := 432#32
  ![v1238.toNat, 432]
def k0_off160 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1242 : Index := Scalar.indexCast arg9
  let c448_513 : Index := 448#32
  ![v1242.toNat, 448]
def k0_off161 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1246 : Index := Scalar.indexCast arg9
  let c464_514 : Index := 464#32
  ![v1246.toNat, 464]
def k0_off162 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1250 : Index := Scalar.indexCast arg9
  let c480_515 : Index := 480#32
  ![v1250.toNat, 480]
def k0_off163 (k0_t5 : Fin k0_t5_loop.trips) : Fin 2 → Nat :=
  let c0_i32_55 : BitVec 32 := 0#32
  let c1_i32_57 : BitVec 32 := 1#32
  let arg9 : BitVec 32 := Scf.iv c0_i32_55 c1_i32_57 k0_t5
  let v1254 : Index := Scalar.indexCast arg9
  let c496_516 : Index := 496#32
  ![v1254.toNat, 496]
@[reducible] def k0_t6_loop : Scf.Loop 32 :=
  let c0_i32_65 : BitVec 32 := 0#32
  let c64_i32_66 : BitVec 32 := 64#32
  let v220 : BitVec 32 := Scalar.addi c0_i32_65 c64_i32_66
  let c1_i32_67 : BitVec 32 := 1#32
  ⟨c0_i32_65, v220, c1_i32_67⟩
def k0_off164 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1130 : Index := Scalar.indexCast arg9
  let c0_485 : Index := 0#32
  ![v1130.toNat, 0]
def k0_off165 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1134 : Index := Scalar.indexCast arg9
  let c16_486 : Index := 16#32
  ![v1134.toNat, 16]
def k0_off166 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1138 : Index := Scalar.indexCast arg9
  let c32_487 : Index := 32#32
  ![v1138.toNat, 32]
def k0_off167 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1142 : Index := Scalar.indexCast arg9
  let c48_488 : Index := 48#32
  ![v1142.toNat, 48]
def k0_off168 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1146 : Index := Scalar.indexCast arg9
  let c64_489 : Index := 64#32
  ![v1146.toNat, 64]
def k0_off169 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1150 : Index := Scalar.indexCast arg9
  let c80_490 : Index := 80#32
  ![v1150.toNat, 80]
def k0_off170 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1154 : Index := Scalar.indexCast arg9
  let c96_491 : Index := 96#32
  ![v1154.toNat, 96]
def k0_off171 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1158 : Index := Scalar.indexCast arg9
  let c112_492 : Index := 112#32
  ![v1158.toNat, 112]
def k0_off172 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1162 : Index := Scalar.indexCast arg9
  let c128_493 : Index := 128#32
  ![v1162.toNat, 128]
def k0_off173 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1166 : Index := Scalar.indexCast arg9
  let c144_494 : Index := 144#32
  ![v1166.toNat, 144]
def k0_off174 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1170 : Index := Scalar.indexCast arg9
  let c160_495 : Index := 160#32
  ![v1170.toNat, 160]
def k0_off175 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1174 : Index := Scalar.indexCast arg9
  let c176_496 : Index := 176#32
  ![v1174.toNat, 176]
def k0_off176 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1178 : Index := Scalar.indexCast arg9
  let c192_497 : Index := 192#32
  ![v1178.toNat, 192]
def k0_off177 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1182 : Index := Scalar.indexCast arg9
  let c208_498 : Index := 208#32
  ![v1182.toNat, 208]
def k0_off178 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1186 : Index := Scalar.indexCast arg9
  let c224_499 : Index := 224#32
  ![v1186.toNat, 224]
def k0_off179 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1190 : Index := Scalar.indexCast arg9
  let c240_500 : Index := 240#32
  ![v1190.toNat, 240]
def k0_off180 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1194 : Index := Scalar.indexCast arg9
  let c256_501 : Index := 256#32
  ![v1194.toNat, 256]
def k0_off181 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1198 : Index := Scalar.indexCast arg9
  let c272_502 : Index := 272#32
  ![v1198.toNat, 272]
def k0_off182 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1202 : Index := Scalar.indexCast arg9
  let c288_503 : Index := 288#32
  ![v1202.toNat, 288]
def k0_off183 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1206 : Index := Scalar.indexCast arg9
  let c304_504 : Index := 304#32
  ![v1206.toNat, 304]
def k0_off184 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1210 : Index := Scalar.indexCast arg9
  let c320_505 : Index := 320#32
  ![v1210.toNat, 320]
def k0_off185 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1214 : Index := Scalar.indexCast arg9
  let c336_506 : Index := 336#32
  ![v1214.toNat, 336]
def k0_off186 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1218 : Index := Scalar.indexCast arg9
  let c352_507 : Index := 352#32
  ![v1218.toNat, 352]
def k0_off187 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1222 : Index := Scalar.indexCast arg9
  let c368_508 : Index := 368#32
  ![v1222.toNat, 368]
def k0_off188 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1226 : Index := Scalar.indexCast arg9
  let c384_509 : Index := 384#32
  ![v1226.toNat, 384]
def k0_off189 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1230 : Index := Scalar.indexCast arg9
  let c400_510 : Index := 400#32
  ![v1230.toNat, 400]
def k0_off190 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1234 : Index := Scalar.indexCast arg9
  let c416_511 : Index := 416#32
  ![v1234.toNat, 416]
def k0_off191 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1238 : Index := Scalar.indexCast arg9
  let c432_512 : Index := 432#32
  ![v1238.toNat, 432]
def k0_off192 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1242 : Index := Scalar.indexCast arg9
  let c448_513 : Index := 448#32
  ![v1242.toNat, 448]
def k0_off193 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1246 : Index := Scalar.indexCast arg9
  let c464_514 : Index := 464#32
  ![v1246.toNat, 464]
def k0_off194 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1250 : Index := Scalar.indexCast arg9
  let c480_515 : Index := 480#32
  ![v1250.toNat, 480]
def k0_off195 (k0_t6 : Fin k0_t6_loop.trips) : Fin 2 → Nat :=
  let c0_i32_65 : BitVec 32 := 0#32
  let c1_i32_67 : BitVec 32 := 1#32
  let arg9 : BitVec 32 := Scf.iv c0_i32_65 c1_i32_67 k0_t6
  let v1254 : Index := Scalar.indexCast arg9
  let c496_516 : Index := 496#32
  ![v1254.toNat, 496]
@[reducible] def k0_t7_loop : Scf.Loop 32 :=
  let c0_i32_75 : BitVec 32 := 0#32
  let c64_i32_76 : BitVec 32 := 64#32
  let v234 : BitVec 32 := Scalar.addi c0_i32_75 c64_i32_76
  let c1_i32_77 : BitVec 32 := 1#32
  ⟨c0_i32_75, v234, c1_i32_77⟩
def k0_off196 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1130 : Index := Scalar.indexCast arg9
  let c0_485 : Index := 0#32
  ![v1130.toNat, 0]
def k0_off197 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1134 : Index := Scalar.indexCast arg9
  let c16_486 : Index := 16#32
  ![v1134.toNat, 16]
def k0_off198 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1138 : Index := Scalar.indexCast arg9
  let c32_487 : Index := 32#32
  ![v1138.toNat, 32]
def k0_off199 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1142 : Index := Scalar.indexCast arg9
  let c48_488 : Index := 48#32
  ![v1142.toNat, 48]
def k0_off200 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1146 : Index := Scalar.indexCast arg9
  let c64_489 : Index := 64#32
  ![v1146.toNat, 64]
def k0_off201 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1150 : Index := Scalar.indexCast arg9
  let c80_490 : Index := 80#32
  ![v1150.toNat, 80]
def k0_off202 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1154 : Index := Scalar.indexCast arg9
  let c96_491 : Index := 96#32
  ![v1154.toNat, 96]
def k0_off203 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1158 : Index := Scalar.indexCast arg9
  let c112_492 : Index := 112#32
  ![v1158.toNat, 112]
def k0_off204 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1162 : Index := Scalar.indexCast arg9
  let c128_493 : Index := 128#32
  ![v1162.toNat, 128]
def k0_off205 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1166 : Index := Scalar.indexCast arg9
  let c144_494 : Index := 144#32
  ![v1166.toNat, 144]
def k0_off206 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1170 : Index := Scalar.indexCast arg9
  let c160_495 : Index := 160#32
  ![v1170.toNat, 160]
def k0_off207 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1174 : Index := Scalar.indexCast arg9
  let c176_496 : Index := 176#32
  ![v1174.toNat, 176]
def k0_off208 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1178 : Index := Scalar.indexCast arg9
  let c192_497 : Index := 192#32
  ![v1178.toNat, 192]
def k0_off209 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1182 : Index := Scalar.indexCast arg9
  let c208_498 : Index := 208#32
  ![v1182.toNat, 208]
def k0_off210 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1186 : Index := Scalar.indexCast arg9
  let c224_499 : Index := 224#32
  ![v1186.toNat, 224]
def k0_off211 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1190 : Index := Scalar.indexCast arg9
  let c240_500 : Index := 240#32
  ![v1190.toNat, 240]
def k0_off212 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1194 : Index := Scalar.indexCast arg9
  let c256_501 : Index := 256#32
  ![v1194.toNat, 256]
def k0_off213 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1198 : Index := Scalar.indexCast arg9
  let c272_502 : Index := 272#32
  ![v1198.toNat, 272]
def k0_off214 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1202 : Index := Scalar.indexCast arg9
  let c288_503 : Index := 288#32
  ![v1202.toNat, 288]
def k0_off215 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1206 : Index := Scalar.indexCast arg9
  let c304_504 : Index := 304#32
  ![v1206.toNat, 304]
def k0_off216 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1210 : Index := Scalar.indexCast arg9
  let c320_505 : Index := 320#32
  ![v1210.toNat, 320]
def k0_off217 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1214 : Index := Scalar.indexCast arg9
  let c336_506 : Index := 336#32
  ![v1214.toNat, 336]
def k0_off218 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1218 : Index := Scalar.indexCast arg9
  let c352_507 : Index := 352#32
  ![v1218.toNat, 352]
def k0_off219 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1222 : Index := Scalar.indexCast arg9
  let c368_508 : Index := 368#32
  ![v1222.toNat, 368]
def k0_off220 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1226 : Index := Scalar.indexCast arg9
  let c384_509 : Index := 384#32
  ![v1226.toNat, 384]
def k0_off221 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1230 : Index := Scalar.indexCast arg9
  let c400_510 : Index := 400#32
  ![v1230.toNat, 400]
def k0_off222 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1234 : Index := Scalar.indexCast arg9
  let c416_511 : Index := 416#32
  ![v1234.toNat, 416]
def k0_off223 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1238 : Index := Scalar.indexCast arg9
  let c432_512 : Index := 432#32
  ![v1238.toNat, 432]
def k0_off224 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1242 : Index := Scalar.indexCast arg9
  let c448_513 : Index := 448#32
  ![v1242.toNat, 448]
def k0_off225 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1246 : Index := Scalar.indexCast arg9
  let c464_514 : Index := 464#32
  ![v1246.toNat, 464]
def k0_off226 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1250 : Index := Scalar.indexCast arg9
  let c480_515 : Index := 480#32
  ![v1250.toNat, 480]
def k0_off227 (k0_t7 : Fin k0_t7_loop.trips) : Fin 2 → Nat :=
  let c0_i32_75 : BitVec 32 := 0#32
  let c1_i32_77 : BitVec 32 := 1#32
  let arg9 : BitVec 32 := Scf.iv c0_i32_75 c1_i32_77 k0_t7
  let v1254 : Index := Scalar.indexCast arg9
  let c496_516 : Index := 496#32
  ![v1254.toNat, 496]
def k0_off228 (i : grid0.Coords) (c0_i32_80 : BitVec 32) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let c256_i32_79 : BitVec 32 := 256#32
  let v236 : BitVec 32 := Scalar.muli v29 c256_i32_79
  let v237 : BitVec 32 := Scalar.addi v236 c0_i32_80
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![11, v237.toNat, v12.toNat]
@[reducible] def k0_t8_loop : Scf.Loop 32 :=
  let c0_i32_84 : BitVec 32 := 0#32
  let c64_i32_85 : BitVec 32 := 64#32
  let v248 : BitVec 32 := Scalar.addi c0_i32_84 c64_i32_85
  let c1_i32_86 : BitVec 32 := 1#32
  ⟨c0_i32_84, v248, c1_i32_86⟩
def k0_off229 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1130 : Index := Scalar.indexCast arg9
  let c0_485 : Index := 0#32
  ![v1130.toNat, 0]
def k0_off230 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1134 : Index := Scalar.indexCast arg9
  let c16_486 : Index := 16#32
  ![v1134.toNat, 16]
def k0_off231 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1138 : Index := Scalar.indexCast arg9
  let c32_487 : Index := 32#32
  ![v1138.toNat, 32]
def k0_off232 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1142 : Index := Scalar.indexCast arg9
  let c48_488 : Index := 48#32
  ![v1142.toNat, 48]
def k0_off233 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1146 : Index := Scalar.indexCast arg9
  let c64_489 : Index := 64#32
  ![v1146.toNat, 64]
def k0_off234 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1150 : Index := Scalar.indexCast arg9
  let c80_490 : Index := 80#32
  ![v1150.toNat, 80]
def k0_off235 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1154 : Index := Scalar.indexCast arg9
  let c96_491 : Index := 96#32
  ![v1154.toNat, 96]
def k0_off236 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1158 : Index := Scalar.indexCast arg9
  let c112_492 : Index := 112#32
  ![v1158.toNat, 112]
def k0_off237 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1162 : Index := Scalar.indexCast arg9
  let c128_493 : Index := 128#32
  ![v1162.toNat, 128]
def k0_off238 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1166 : Index := Scalar.indexCast arg9
  let c144_494 : Index := 144#32
  ![v1166.toNat, 144]
def k0_off239 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1170 : Index := Scalar.indexCast arg9
  let c160_495 : Index := 160#32
  ![v1170.toNat, 160]
def k0_off240 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1174 : Index := Scalar.indexCast arg9
  let c176_496 : Index := 176#32
  ![v1174.toNat, 176]
def k0_off241 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1178 : Index := Scalar.indexCast arg9
  let c192_497 : Index := 192#32
  ![v1178.toNat, 192]
def k0_off242 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1182 : Index := Scalar.indexCast arg9
  let c208_498 : Index := 208#32
  ![v1182.toNat, 208]
def k0_off243 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1186 : Index := Scalar.indexCast arg9
  let c224_499 : Index := 224#32
  ![v1186.toNat, 224]
def k0_off244 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1190 : Index := Scalar.indexCast arg9
  let c240_500 : Index := 240#32
  ![v1190.toNat, 240]
def k0_off245 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1194 : Index := Scalar.indexCast arg9
  let c256_501 : Index := 256#32
  ![v1194.toNat, 256]
def k0_off246 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1198 : Index := Scalar.indexCast arg9
  let c272_502 : Index := 272#32
  ![v1198.toNat, 272]
def k0_off247 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1202 : Index := Scalar.indexCast arg9
  let c288_503 : Index := 288#32
  ![v1202.toNat, 288]
def k0_off248 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1206 : Index := Scalar.indexCast arg9
  let c304_504 : Index := 304#32
  ![v1206.toNat, 304]
def k0_off249 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1210 : Index := Scalar.indexCast arg9
  let c320_505 : Index := 320#32
  ![v1210.toNat, 320]
def k0_off250 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1214 : Index := Scalar.indexCast arg9
  let c336_506 : Index := 336#32
  ![v1214.toNat, 336]
def k0_off251 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1218 : Index := Scalar.indexCast arg9
  let c352_507 : Index := 352#32
  ![v1218.toNat, 352]
def k0_off252 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1222 : Index := Scalar.indexCast arg9
  let c368_508 : Index := 368#32
  ![v1222.toNat, 368]
def k0_off253 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1226 : Index := Scalar.indexCast arg9
  let c384_509 : Index := 384#32
  ![v1226.toNat, 384]
def k0_off254 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1230 : Index := Scalar.indexCast arg9
  let c400_510 : Index := 400#32
  ![v1230.toNat, 400]
def k0_off255 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1234 : Index := Scalar.indexCast arg9
  let c416_511 : Index := 416#32
  ![v1234.toNat, 416]
def k0_off256 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1238 : Index := Scalar.indexCast arg9
  let c432_512 : Index := 432#32
  ![v1238.toNat, 432]
def k0_off257 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1242 : Index := Scalar.indexCast arg9
  let c448_513 : Index := 448#32
  ![v1242.toNat, 448]
def k0_off258 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1246 : Index := Scalar.indexCast arg9
  let c464_514 : Index := 464#32
  ![v1246.toNat, 464]
def k0_off259 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1250 : Index := Scalar.indexCast arg9
  let c480_515 : Index := 480#32
  ![v1250.toNat, 480]
def k0_off260 (k0_t8 : Fin k0_t8_loop.trips) : Fin 2 → Nat :=
  let c0_i32_84 : BitVec 32 := 0#32
  let c1_i32_86 : BitVec 32 := 1#32
  let arg9 : BitVec 32 := Scf.iv c0_i32_84 c1_i32_86 k0_t8
  let v1254 : Index := Scalar.indexCast arg9
  let c496_516 : Index := 496#32
  ![v1254.toNat, 496]
def k0_mult2 (i : grid0.Coords) : BitVec 32 :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let v352 : BitVec 32 := Scalar.addi c8_i32 v29
  let c2048_i32_123 : BitVec 32 := 2048#32
  let v353 : BitVec 32 := Scalar.muli v352 c2048_i32_123
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  let v354 : BitVec 32 := Scalar.addi v353 v12
  v354
@[reducible] def k0_t9_loop : Scf.Loop 32 :=
  let c0_i32_128 : BitVec 32 := 0#32
  let c64_i32_129 : BitVec 32 := 64#32
  let v363 : BitVec 32 := Scalar.addi c0_i32_128 c64_i32_129
  let c1_i32_130 : BitVec 32 := 1#32
  ⟨c0_i32_128, v363, c1_i32_130⟩
def k0_off261 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1130 : Index := Scalar.indexCast arg9
  let c0_485 : Index := 0#32
  ![v1130.toNat, 0]
def k0_off262 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1134 : Index := Scalar.indexCast arg9
  let c16_486 : Index := 16#32
  ![v1134.toNat, 16]
def k0_off263 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1138 : Index := Scalar.indexCast arg9
  let c32_487 : Index := 32#32
  ![v1138.toNat, 32]
def k0_off264 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1142 : Index := Scalar.indexCast arg9
  let c48_488 : Index := 48#32
  ![v1142.toNat, 48]
def k0_off265 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1146 : Index := Scalar.indexCast arg9
  let c64_489 : Index := 64#32
  ![v1146.toNat, 64]
def k0_off266 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1150 : Index := Scalar.indexCast arg9
  let c80_490 : Index := 80#32
  ![v1150.toNat, 80]
def k0_off267 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1154 : Index := Scalar.indexCast arg9
  let c96_491 : Index := 96#32
  ![v1154.toNat, 96]
def k0_off268 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1158 : Index := Scalar.indexCast arg9
  let c112_492 : Index := 112#32
  ![v1158.toNat, 112]
def k0_off269 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1162 : Index := Scalar.indexCast arg9
  let c128_493 : Index := 128#32
  ![v1162.toNat, 128]
def k0_off270 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1166 : Index := Scalar.indexCast arg9
  let c144_494 : Index := 144#32
  ![v1166.toNat, 144]
def k0_off271 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1170 : Index := Scalar.indexCast arg9
  let c160_495 : Index := 160#32
  ![v1170.toNat, 160]
def k0_off272 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1174 : Index := Scalar.indexCast arg9
  let c176_496 : Index := 176#32
  ![v1174.toNat, 176]
def k0_off273 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1178 : Index := Scalar.indexCast arg9
  let c192_497 : Index := 192#32
  ![v1178.toNat, 192]
def k0_off274 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1182 : Index := Scalar.indexCast arg9
  let c208_498 : Index := 208#32
  ![v1182.toNat, 208]
def k0_off275 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1186 : Index := Scalar.indexCast arg9
  let c224_499 : Index := 224#32
  ![v1186.toNat, 224]
def k0_off276 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1190 : Index := Scalar.indexCast arg9
  let c240_500 : Index := 240#32
  ![v1190.toNat, 240]
def k0_off277 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1194 : Index := Scalar.indexCast arg9
  let c256_501 : Index := 256#32
  ![v1194.toNat, 256]
def k0_off278 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1198 : Index := Scalar.indexCast arg9
  let c272_502 : Index := 272#32
  ![v1198.toNat, 272]
def k0_off279 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1202 : Index := Scalar.indexCast arg9
  let c288_503 : Index := 288#32
  ![v1202.toNat, 288]
def k0_off280 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1206 : Index := Scalar.indexCast arg9
  let c304_504 : Index := 304#32
  ![v1206.toNat, 304]
def k0_off281 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1210 : Index := Scalar.indexCast arg9
  let c320_505 : Index := 320#32
  ![v1210.toNat, 320]
def k0_off282 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1214 : Index := Scalar.indexCast arg9
  let c336_506 : Index := 336#32
  ![v1214.toNat, 336]
def k0_off283 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1218 : Index := Scalar.indexCast arg9
  let c352_507 : Index := 352#32
  ![v1218.toNat, 352]
def k0_off284 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1222 : Index := Scalar.indexCast arg9
  let c368_508 : Index := 368#32
  ![v1222.toNat, 368]
def k0_off285 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1226 : Index := Scalar.indexCast arg9
  let c384_509 : Index := 384#32
  ![v1226.toNat, 384]
def k0_off286 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1230 : Index := Scalar.indexCast arg9
  let c400_510 : Index := 400#32
  ![v1230.toNat, 400]
def k0_off287 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1234 : Index := Scalar.indexCast arg9
  let c416_511 : Index := 416#32
  ![v1234.toNat, 416]
def k0_off288 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1238 : Index := Scalar.indexCast arg9
  let c432_512 : Index := 432#32
  ![v1238.toNat, 432]
def k0_off289 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1242 : Index := Scalar.indexCast arg9
  let c448_513 : Index := 448#32
  ![v1242.toNat, 448]
def k0_off290 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1246 : Index := Scalar.indexCast arg9
  let c464_514 : Index := 464#32
  ![v1246.toNat, 464]
def k0_off291 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1250 : Index := Scalar.indexCast arg9
  let c480_515 : Index := 480#32
  ![v1250.toNat, 480]
def k0_off292 (k0_t9 : Fin k0_t9_loop.trips) : Fin 2 → Nat :=
  let c0_i32_128 : BitVec 32 := 0#32
  let c1_i32_130 : BitVec 32 := 1#32
  let arg9 : BitVec 32 := Scf.iv c0_i32_128 c1_i32_130 k0_t9
  let v1254 : Index := Scalar.indexCast arg9
  let c496_516 : Index := 496#32
  ![v1254.toNat, 496]
@[reducible] def k0_t10_loop : Scf.Loop 32 :=
  let c0_i32_138 : BitVec 32 := 0#32
  let c64_i32_139 : BitVec 32 := 64#32
  let v377 : BitVec 32 := Scalar.addi c0_i32_138 c64_i32_139
  let c1_i32_140 : BitVec 32 := 1#32
  ⟨c0_i32_138, v377, c1_i32_140⟩
def k0_off293 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1130 : Index := Scalar.indexCast arg9
  let c0_485 : Index := 0#32
  ![v1130.toNat, 0]
def k0_off294 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1134 : Index := Scalar.indexCast arg9
  let c16_486 : Index := 16#32
  ![v1134.toNat, 16]
def k0_off295 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1138 : Index := Scalar.indexCast arg9
  let c32_487 : Index := 32#32
  ![v1138.toNat, 32]
def k0_off296 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1142 : Index := Scalar.indexCast arg9
  let c48_488 : Index := 48#32
  ![v1142.toNat, 48]
def k0_off297 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1146 : Index := Scalar.indexCast arg9
  let c64_489 : Index := 64#32
  ![v1146.toNat, 64]
def k0_off298 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1150 : Index := Scalar.indexCast arg9
  let c80_490 : Index := 80#32
  ![v1150.toNat, 80]
def k0_off299 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1154 : Index := Scalar.indexCast arg9
  let c96_491 : Index := 96#32
  ![v1154.toNat, 96]
def k0_off300 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1158 : Index := Scalar.indexCast arg9
  let c112_492 : Index := 112#32
  ![v1158.toNat, 112]
def k0_off301 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1162 : Index := Scalar.indexCast arg9
  let c128_493 : Index := 128#32
  ![v1162.toNat, 128]
def k0_off302 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1166 : Index := Scalar.indexCast arg9
  let c144_494 : Index := 144#32
  ![v1166.toNat, 144]
def k0_off303 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1170 : Index := Scalar.indexCast arg9
  let c160_495 : Index := 160#32
  ![v1170.toNat, 160]
def k0_off304 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1174 : Index := Scalar.indexCast arg9
  let c176_496 : Index := 176#32
  ![v1174.toNat, 176]
def k0_off305 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1178 : Index := Scalar.indexCast arg9
  let c192_497 : Index := 192#32
  ![v1178.toNat, 192]
def k0_off306 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1182 : Index := Scalar.indexCast arg9
  let c208_498 : Index := 208#32
  ![v1182.toNat, 208]
def k0_off307 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1186 : Index := Scalar.indexCast arg9
  let c224_499 : Index := 224#32
  ![v1186.toNat, 224]
def k0_off308 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1190 : Index := Scalar.indexCast arg9
  let c240_500 : Index := 240#32
  ![v1190.toNat, 240]
def k0_off309 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1194 : Index := Scalar.indexCast arg9
  let c256_501 : Index := 256#32
  ![v1194.toNat, 256]
def k0_off310 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1198 : Index := Scalar.indexCast arg9
  let c272_502 : Index := 272#32
  ![v1198.toNat, 272]
def k0_off311 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1202 : Index := Scalar.indexCast arg9
  let c288_503 : Index := 288#32
  ![v1202.toNat, 288]
def k0_off312 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1206 : Index := Scalar.indexCast arg9
  let c304_504 : Index := 304#32
  ![v1206.toNat, 304]
def k0_off313 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1210 : Index := Scalar.indexCast arg9
  let c320_505 : Index := 320#32
  ![v1210.toNat, 320]
def k0_off314 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1214 : Index := Scalar.indexCast arg9
  let c336_506 : Index := 336#32
  ![v1214.toNat, 336]
def k0_off315 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1218 : Index := Scalar.indexCast arg9
  let c352_507 : Index := 352#32
  ![v1218.toNat, 352]
def k0_off316 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1222 : Index := Scalar.indexCast arg9
  let c368_508 : Index := 368#32
  ![v1222.toNat, 368]
def k0_off317 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1226 : Index := Scalar.indexCast arg9
  let c384_509 : Index := 384#32
  ![v1226.toNat, 384]
def k0_off318 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1230 : Index := Scalar.indexCast arg9
  let c400_510 : Index := 400#32
  ![v1230.toNat, 400]
def k0_off319 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1234 : Index := Scalar.indexCast arg9
  let c416_511 : Index := 416#32
  ![v1234.toNat, 416]
def k0_off320 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1238 : Index := Scalar.indexCast arg9
  let c432_512 : Index := 432#32
  ![v1238.toNat, 432]
def k0_off321 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1242 : Index := Scalar.indexCast arg9
  let c448_513 : Index := 448#32
  ![v1242.toNat, 448]
def k0_off322 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1246 : Index := Scalar.indexCast arg9
  let c464_514 : Index := 464#32
  ![v1246.toNat, 464]
def k0_off323 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1250 : Index := Scalar.indexCast arg9
  let c480_515 : Index := 480#32
  ![v1250.toNat, 480]
def k0_off324 (k0_t10 : Fin k0_t10_loop.trips) : Fin 2 → Nat :=
  let c0_i32_138 : BitVec 32 := 0#32
  let c1_i32_140 : BitVec 32 := 1#32
  let arg9 : BitVec 32 := Scf.iv c0_i32_138 c1_i32_140 k0_t10
  let v1254 : Index := Scalar.indexCast arg9
  let c496_516 : Index := 496#32
  ![v1254.toNat, 496]
@[reducible] def k0_t11_loop : Scf.Loop 32 :=
  let c0_i32_148 : BitVec 32 := 0#32
  let c64_i32_149 : BitVec 32 := 64#32
  let v391 : BitVec 32 := Scalar.addi c0_i32_148 c64_i32_149
  let c1_i32_150 : BitVec 32 := 1#32
  ⟨c0_i32_148, v391, c1_i32_150⟩
def k0_off325 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1130 : Index := Scalar.indexCast arg9
  let c0_485 : Index := 0#32
  ![v1130.toNat, 0]
def k0_off326 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1134 : Index := Scalar.indexCast arg9
  let c16_486 : Index := 16#32
  ![v1134.toNat, 16]
def k0_off327 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1138 : Index := Scalar.indexCast arg9
  let c32_487 : Index := 32#32
  ![v1138.toNat, 32]
def k0_off328 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1142 : Index := Scalar.indexCast arg9
  let c48_488 : Index := 48#32
  ![v1142.toNat, 48]
def k0_off329 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1146 : Index := Scalar.indexCast arg9
  let c64_489 : Index := 64#32
  ![v1146.toNat, 64]
def k0_off330 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1150 : Index := Scalar.indexCast arg9
  let c80_490 : Index := 80#32
  ![v1150.toNat, 80]
def k0_off331 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1154 : Index := Scalar.indexCast arg9
  let c96_491 : Index := 96#32
  ![v1154.toNat, 96]
def k0_off332 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1158 : Index := Scalar.indexCast arg9
  let c112_492 : Index := 112#32
  ![v1158.toNat, 112]
def k0_off333 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1162 : Index := Scalar.indexCast arg9
  let c128_493 : Index := 128#32
  ![v1162.toNat, 128]
def k0_off334 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1166 : Index := Scalar.indexCast arg9
  let c144_494 : Index := 144#32
  ![v1166.toNat, 144]
def k0_off335 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1170 : Index := Scalar.indexCast arg9
  let c160_495 : Index := 160#32
  ![v1170.toNat, 160]
def k0_off336 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1174 : Index := Scalar.indexCast arg9
  let c176_496 : Index := 176#32
  ![v1174.toNat, 176]
def k0_off337 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1178 : Index := Scalar.indexCast arg9
  let c192_497 : Index := 192#32
  ![v1178.toNat, 192]
def k0_off338 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1182 : Index := Scalar.indexCast arg9
  let c208_498 : Index := 208#32
  ![v1182.toNat, 208]
def k0_off339 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1186 : Index := Scalar.indexCast arg9
  let c224_499 : Index := 224#32
  ![v1186.toNat, 224]
def k0_off340 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1190 : Index := Scalar.indexCast arg9
  let c240_500 : Index := 240#32
  ![v1190.toNat, 240]
def k0_off341 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1194 : Index := Scalar.indexCast arg9
  let c256_501 : Index := 256#32
  ![v1194.toNat, 256]
def k0_off342 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1198 : Index := Scalar.indexCast arg9
  let c272_502 : Index := 272#32
  ![v1198.toNat, 272]
def k0_off343 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1202 : Index := Scalar.indexCast arg9
  let c288_503 : Index := 288#32
  ![v1202.toNat, 288]
def k0_off344 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1206 : Index := Scalar.indexCast arg9
  let c304_504 : Index := 304#32
  ![v1206.toNat, 304]
def k0_off345 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1210 : Index := Scalar.indexCast arg9
  let c320_505 : Index := 320#32
  ![v1210.toNat, 320]
def k0_off346 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1214 : Index := Scalar.indexCast arg9
  let c336_506 : Index := 336#32
  ![v1214.toNat, 336]
def k0_off347 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1218 : Index := Scalar.indexCast arg9
  let c352_507 : Index := 352#32
  ![v1218.toNat, 352]
def k0_off348 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1222 : Index := Scalar.indexCast arg9
  let c368_508 : Index := 368#32
  ![v1222.toNat, 368]
def k0_off349 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1226 : Index := Scalar.indexCast arg9
  let c384_509 : Index := 384#32
  ![v1226.toNat, 384]
def k0_off350 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1230 : Index := Scalar.indexCast arg9
  let c400_510 : Index := 400#32
  ![v1230.toNat, 400]
def k0_off351 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1234 : Index := Scalar.indexCast arg9
  let c416_511 : Index := 416#32
  ![v1234.toNat, 416]
def k0_off352 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1238 : Index := Scalar.indexCast arg9
  let c432_512 : Index := 432#32
  ![v1238.toNat, 432]
def k0_off353 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1242 : Index := Scalar.indexCast arg9
  let c448_513 : Index := 448#32
  ![v1242.toNat, 448]
def k0_off354 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1246 : Index := Scalar.indexCast arg9
  let c464_514 : Index := 464#32
  ![v1246.toNat, 464]
def k0_off355 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1250 : Index := Scalar.indexCast arg9
  let c480_515 : Index := 480#32
  ![v1250.toNat, 480]
def k0_off356 (k0_t11 : Fin k0_t11_loop.trips) : Fin 2 → Nat :=
  let c0_i32_148 : BitVec 32 := 0#32
  let c1_i32_150 : BitVec 32 := 1#32
  let arg9 : BitVec 32 := Scf.iv c0_i32_148 c1_i32_150 k0_t11
  let v1254 : Index := Scalar.indexCast arg9
  let c496_516 : Index := 496#32
  ![v1254.toNat, 496]
def k0_off357 (i : grid0.Coords) (c0_i32_153 : BitVec 32) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let c256_i32_152 : BitVec 32 := 256#32
  let v393 : BitVec 32 := Scalar.muli v29 c256_i32_152
  let v394 : BitVec 32 := Scalar.addi v393 c0_i32_153
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![12, v394.toNat, v12.toNat]
@[reducible] def k0_t12_loop : Scf.Loop 32 :=
  let c0_i32_157 : BitVec 32 := 0#32
  let c64_i32_158 : BitVec 32 := 64#32
  let v405 : BitVec 32 := Scalar.addi c0_i32_157 c64_i32_158
  let c1_i32_159 : BitVec 32 := 1#32
  ⟨c0_i32_157, v405, c1_i32_159⟩
def k0_off358 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1130 : Index := Scalar.indexCast arg9
  let c0_485 : Index := 0#32
  ![v1130.toNat, 0]
def k0_off359 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1134 : Index := Scalar.indexCast arg9
  let c16_486 : Index := 16#32
  ![v1134.toNat, 16]
def k0_off360 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1138 : Index := Scalar.indexCast arg9
  let c32_487 : Index := 32#32
  ![v1138.toNat, 32]
def k0_off361 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1142 : Index := Scalar.indexCast arg9
  let c48_488 : Index := 48#32
  ![v1142.toNat, 48]
def k0_off362 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1146 : Index := Scalar.indexCast arg9
  let c64_489 : Index := 64#32
  ![v1146.toNat, 64]
def k0_off363 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1150 : Index := Scalar.indexCast arg9
  let c80_490 : Index := 80#32
  ![v1150.toNat, 80]
def k0_off364 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1154 : Index := Scalar.indexCast arg9
  let c96_491 : Index := 96#32
  ![v1154.toNat, 96]
def k0_off365 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1158 : Index := Scalar.indexCast arg9
  let c112_492 : Index := 112#32
  ![v1158.toNat, 112]
def k0_off366 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1162 : Index := Scalar.indexCast arg9
  let c128_493 : Index := 128#32
  ![v1162.toNat, 128]
def k0_off367 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1166 : Index := Scalar.indexCast arg9
  let c144_494 : Index := 144#32
  ![v1166.toNat, 144]
def k0_off368 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1170 : Index := Scalar.indexCast arg9
  let c160_495 : Index := 160#32
  ![v1170.toNat, 160]
def k0_off369 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1174 : Index := Scalar.indexCast arg9
  let c176_496 : Index := 176#32
  ![v1174.toNat, 176]
def k0_off370 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1178 : Index := Scalar.indexCast arg9
  let c192_497 : Index := 192#32
  ![v1178.toNat, 192]
def k0_off371 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1182 : Index := Scalar.indexCast arg9
  let c208_498 : Index := 208#32
  ![v1182.toNat, 208]
def k0_off372 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1186 : Index := Scalar.indexCast arg9
  let c224_499 : Index := 224#32
  ![v1186.toNat, 224]
def k0_off373 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1190 : Index := Scalar.indexCast arg9
  let c240_500 : Index := 240#32
  ![v1190.toNat, 240]
def k0_off374 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1194 : Index := Scalar.indexCast arg9
  let c256_501 : Index := 256#32
  ![v1194.toNat, 256]
def k0_off375 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1198 : Index := Scalar.indexCast arg9
  let c272_502 : Index := 272#32
  ![v1198.toNat, 272]
def k0_off376 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1202 : Index := Scalar.indexCast arg9
  let c288_503 : Index := 288#32
  ![v1202.toNat, 288]
def k0_off377 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1206 : Index := Scalar.indexCast arg9
  let c304_504 : Index := 304#32
  ![v1206.toNat, 304]
def k0_off378 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1210 : Index := Scalar.indexCast arg9
  let c320_505 : Index := 320#32
  ![v1210.toNat, 320]
def k0_off379 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1214 : Index := Scalar.indexCast arg9
  let c336_506 : Index := 336#32
  ![v1214.toNat, 336]
def k0_off380 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1218 : Index := Scalar.indexCast arg9
  let c352_507 : Index := 352#32
  ![v1218.toNat, 352]
def k0_off381 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1222 : Index := Scalar.indexCast arg9
  let c368_508 : Index := 368#32
  ![v1222.toNat, 368]
def k0_off382 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1226 : Index := Scalar.indexCast arg9
  let c384_509 : Index := 384#32
  ![v1226.toNat, 384]
def k0_off383 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1230 : Index := Scalar.indexCast arg9
  let c400_510 : Index := 400#32
  ![v1230.toNat, 400]
def k0_off384 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1234 : Index := Scalar.indexCast arg9
  let c416_511 : Index := 416#32
  ![v1234.toNat, 416]
def k0_off385 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1238 : Index := Scalar.indexCast arg9
  let c432_512 : Index := 432#32
  ![v1238.toNat, 432]
def k0_off386 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1242 : Index := Scalar.indexCast arg9
  let c448_513 : Index := 448#32
  ![v1242.toNat, 448]
def k0_off387 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1246 : Index := Scalar.indexCast arg9
  let c464_514 : Index := 464#32
  ![v1246.toNat, 464]
def k0_off388 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1250 : Index := Scalar.indexCast arg9
  let c480_515 : Index := 480#32
  ![v1250.toNat, 480]
def k0_off389 (k0_t12 : Fin k0_t12_loop.trips) : Fin 2 → Nat :=
  let c0_i32_157 : BitVec 32 := 0#32
  let c1_i32_159 : BitVec 32 := 1#32
  let arg9 : BitVec 32 := Scf.iv c0_i32_157 c1_i32_159 k0_t12
  let v1254 : Index := Scalar.indexCast arg9
  let c496_516 : Index := 496#32
  ![v1254.toNat, 496]
def k0_mult3 (i : grid0.Coords) : BitVec 32 :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let v509 : BitVec 32 := Scalar.addi c16_i32 v29
  let c2048_i32_196 : BitVec 32 := 2048#32
  let v510 : BitVec 32 := Scalar.muli v509 c2048_i32_196
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  let v511 : BitVec 32 := Scalar.addi v510 v12
  v511
@[reducible] def k0_t13_loop : Scf.Loop 32 :=
  let c0_i32_201 : BitVec 32 := 0#32
  let c64_i32_202 : BitVec 32 := 64#32
  let v520 : BitVec 32 := Scalar.addi c0_i32_201 c64_i32_202
  let c1_i32_203 : BitVec 32 := 1#32
  ⟨c0_i32_201, v520, c1_i32_203⟩
def k0_off390 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1130 : Index := Scalar.indexCast arg9
  let c0_485 : Index := 0#32
  ![v1130.toNat, 0]
def k0_off391 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1134 : Index := Scalar.indexCast arg9
  let c16_486 : Index := 16#32
  ![v1134.toNat, 16]
def k0_off392 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1138 : Index := Scalar.indexCast arg9
  let c32_487 : Index := 32#32
  ![v1138.toNat, 32]
def k0_off393 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1142 : Index := Scalar.indexCast arg9
  let c48_488 : Index := 48#32
  ![v1142.toNat, 48]
def k0_off394 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1146 : Index := Scalar.indexCast arg9
  let c64_489 : Index := 64#32
  ![v1146.toNat, 64]
def k0_off395 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1150 : Index := Scalar.indexCast arg9
  let c80_490 : Index := 80#32
  ![v1150.toNat, 80]
def k0_off396 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1154 : Index := Scalar.indexCast arg9
  let c96_491 : Index := 96#32
  ![v1154.toNat, 96]
def k0_off397 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1158 : Index := Scalar.indexCast arg9
  let c112_492 : Index := 112#32
  ![v1158.toNat, 112]
def k0_off398 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1162 : Index := Scalar.indexCast arg9
  let c128_493 : Index := 128#32
  ![v1162.toNat, 128]
def k0_off399 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1166 : Index := Scalar.indexCast arg9
  let c144_494 : Index := 144#32
  ![v1166.toNat, 144]
def k0_off400 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1170 : Index := Scalar.indexCast arg9
  let c160_495 : Index := 160#32
  ![v1170.toNat, 160]
def k0_off401 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1174 : Index := Scalar.indexCast arg9
  let c176_496 : Index := 176#32
  ![v1174.toNat, 176]
def k0_off402 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1178 : Index := Scalar.indexCast arg9
  let c192_497 : Index := 192#32
  ![v1178.toNat, 192]
def k0_off403 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1182 : Index := Scalar.indexCast arg9
  let c208_498 : Index := 208#32
  ![v1182.toNat, 208]
def k0_off404 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1186 : Index := Scalar.indexCast arg9
  let c224_499 : Index := 224#32
  ![v1186.toNat, 224]
def k0_off405 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1190 : Index := Scalar.indexCast arg9
  let c240_500 : Index := 240#32
  ![v1190.toNat, 240]
def k0_off406 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1194 : Index := Scalar.indexCast arg9
  let c256_501 : Index := 256#32
  ![v1194.toNat, 256]
def k0_off407 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1198 : Index := Scalar.indexCast arg9
  let c272_502 : Index := 272#32
  ![v1198.toNat, 272]
def k0_off408 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1202 : Index := Scalar.indexCast arg9
  let c288_503 : Index := 288#32
  ![v1202.toNat, 288]
def k0_off409 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1206 : Index := Scalar.indexCast arg9
  let c304_504 : Index := 304#32
  ![v1206.toNat, 304]
def k0_off410 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1210 : Index := Scalar.indexCast arg9
  let c320_505 : Index := 320#32
  ![v1210.toNat, 320]
def k0_off411 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1214 : Index := Scalar.indexCast arg9
  let c336_506 : Index := 336#32
  ![v1214.toNat, 336]
def k0_off412 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1218 : Index := Scalar.indexCast arg9
  let c352_507 : Index := 352#32
  ![v1218.toNat, 352]
def k0_off413 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1222 : Index := Scalar.indexCast arg9
  let c368_508 : Index := 368#32
  ![v1222.toNat, 368]
def k0_off414 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1226 : Index := Scalar.indexCast arg9
  let c384_509 : Index := 384#32
  ![v1226.toNat, 384]
def k0_off415 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1230 : Index := Scalar.indexCast arg9
  let c400_510 : Index := 400#32
  ![v1230.toNat, 400]
def k0_off416 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1234 : Index := Scalar.indexCast arg9
  let c416_511 : Index := 416#32
  ![v1234.toNat, 416]
def k0_off417 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1238 : Index := Scalar.indexCast arg9
  let c432_512 : Index := 432#32
  ![v1238.toNat, 432]
def k0_off418 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1242 : Index := Scalar.indexCast arg9
  let c448_513 : Index := 448#32
  ![v1242.toNat, 448]
def k0_off419 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1246 : Index := Scalar.indexCast arg9
  let c464_514 : Index := 464#32
  ![v1246.toNat, 464]
def k0_off420 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1250 : Index := Scalar.indexCast arg9
  let c480_515 : Index := 480#32
  ![v1250.toNat, 480]
def k0_off421 (k0_t13 : Fin k0_t13_loop.trips) : Fin 2 → Nat :=
  let c0_i32_201 : BitVec 32 := 0#32
  let c1_i32_203 : BitVec 32 := 1#32
  let arg9 : BitVec 32 := Scf.iv c0_i32_201 c1_i32_203 k0_t13
  let v1254 : Index := Scalar.indexCast arg9
  let c496_516 : Index := 496#32
  ![v1254.toNat, 496]
@[reducible] def k0_t14_loop : Scf.Loop 32 :=
  let c0_i32_211 : BitVec 32 := 0#32
  let c64_i32_212 : BitVec 32 := 64#32
  let v534 : BitVec 32 := Scalar.addi c0_i32_211 c64_i32_212
  let c1_i32_213 : BitVec 32 := 1#32
  ⟨c0_i32_211, v534, c1_i32_213⟩
def k0_off422 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1130 : Index := Scalar.indexCast arg9
  let c0_485 : Index := 0#32
  ![v1130.toNat, 0]
def k0_off423 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1134 : Index := Scalar.indexCast arg9
  let c16_486 : Index := 16#32
  ![v1134.toNat, 16]
def k0_off424 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1138 : Index := Scalar.indexCast arg9
  let c32_487 : Index := 32#32
  ![v1138.toNat, 32]
def k0_off425 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1142 : Index := Scalar.indexCast arg9
  let c48_488 : Index := 48#32
  ![v1142.toNat, 48]
def k0_off426 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1146 : Index := Scalar.indexCast arg9
  let c64_489 : Index := 64#32
  ![v1146.toNat, 64]
def k0_off427 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1150 : Index := Scalar.indexCast arg9
  let c80_490 : Index := 80#32
  ![v1150.toNat, 80]
def k0_off428 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1154 : Index := Scalar.indexCast arg9
  let c96_491 : Index := 96#32
  ![v1154.toNat, 96]
def k0_off429 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1158 : Index := Scalar.indexCast arg9
  let c112_492 : Index := 112#32
  ![v1158.toNat, 112]
def k0_off430 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1162 : Index := Scalar.indexCast arg9
  let c128_493 : Index := 128#32
  ![v1162.toNat, 128]
def k0_off431 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1166 : Index := Scalar.indexCast arg9
  let c144_494 : Index := 144#32
  ![v1166.toNat, 144]
def k0_off432 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1170 : Index := Scalar.indexCast arg9
  let c160_495 : Index := 160#32
  ![v1170.toNat, 160]
def k0_off433 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1174 : Index := Scalar.indexCast arg9
  let c176_496 : Index := 176#32
  ![v1174.toNat, 176]
def k0_off434 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1178 : Index := Scalar.indexCast arg9
  let c192_497 : Index := 192#32
  ![v1178.toNat, 192]
def k0_off435 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1182 : Index := Scalar.indexCast arg9
  let c208_498 : Index := 208#32
  ![v1182.toNat, 208]
def k0_off436 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1186 : Index := Scalar.indexCast arg9
  let c224_499 : Index := 224#32
  ![v1186.toNat, 224]
def k0_off437 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1190 : Index := Scalar.indexCast arg9
  let c240_500 : Index := 240#32
  ![v1190.toNat, 240]
def k0_off438 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1194 : Index := Scalar.indexCast arg9
  let c256_501 : Index := 256#32
  ![v1194.toNat, 256]
def k0_off439 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1198 : Index := Scalar.indexCast arg9
  let c272_502 : Index := 272#32
  ![v1198.toNat, 272]
def k0_off440 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1202 : Index := Scalar.indexCast arg9
  let c288_503 : Index := 288#32
  ![v1202.toNat, 288]
def k0_off441 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1206 : Index := Scalar.indexCast arg9
  let c304_504 : Index := 304#32
  ![v1206.toNat, 304]
def k0_off442 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1210 : Index := Scalar.indexCast arg9
  let c320_505 : Index := 320#32
  ![v1210.toNat, 320]
def k0_off443 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1214 : Index := Scalar.indexCast arg9
  let c336_506 : Index := 336#32
  ![v1214.toNat, 336]
def k0_off444 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1218 : Index := Scalar.indexCast arg9
  let c352_507 : Index := 352#32
  ![v1218.toNat, 352]
def k0_off445 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1222 : Index := Scalar.indexCast arg9
  let c368_508 : Index := 368#32
  ![v1222.toNat, 368]
def k0_off446 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1226 : Index := Scalar.indexCast arg9
  let c384_509 : Index := 384#32
  ![v1226.toNat, 384]
def k0_off447 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1230 : Index := Scalar.indexCast arg9
  let c400_510 : Index := 400#32
  ![v1230.toNat, 400]
def k0_off448 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1234 : Index := Scalar.indexCast arg9
  let c416_511 : Index := 416#32
  ![v1234.toNat, 416]
def k0_off449 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1238 : Index := Scalar.indexCast arg9
  let c432_512 : Index := 432#32
  ![v1238.toNat, 432]
def k0_off450 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1242 : Index := Scalar.indexCast arg9
  let c448_513 : Index := 448#32
  ![v1242.toNat, 448]
def k0_off451 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1246 : Index := Scalar.indexCast arg9
  let c464_514 : Index := 464#32
  ![v1246.toNat, 464]
def k0_off452 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1250 : Index := Scalar.indexCast arg9
  let c480_515 : Index := 480#32
  ![v1250.toNat, 480]
def k0_off453 (k0_t14 : Fin k0_t14_loop.trips) : Fin 2 → Nat :=
  let c0_i32_211 : BitVec 32 := 0#32
  let c1_i32_213 : BitVec 32 := 1#32
  let arg9 : BitVec 32 := Scf.iv c0_i32_211 c1_i32_213 k0_t14
  let v1254 : Index := Scalar.indexCast arg9
  let c496_516 : Index := 496#32
  ![v1254.toNat, 496]
@[reducible] def k0_t15_loop : Scf.Loop 32 :=
  let c0_i32_221 : BitVec 32 := 0#32
  let c64_i32_222 : BitVec 32 := 64#32
  let v548 : BitVec 32 := Scalar.addi c0_i32_221 c64_i32_222
  let c1_i32_223 : BitVec 32 := 1#32
  ⟨c0_i32_221, v548, c1_i32_223⟩
def k0_off454 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1130 : Index := Scalar.indexCast arg9
  let c0_485 : Index := 0#32
  ![v1130.toNat, 0]
def k0_off455 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1134 : Index := Scalar.indexCast arg9
  let c16_486 : Index := 16#32
  ![v1134.toNat, 16]
def k0_off456 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1138 : Index := Scalar.indexCast arg9
  let c32_487 : Index := 32#32
  ![v1138.toNat, 32]
def k0_off457 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1142 : Index := Scalar.indexCast arg9
  let c48_488 : Index := 48#32
  ![v1142.toNat, 48]
def k0_off458 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1146 : Index := Scalar.indexCast arg9
  let c64_489 : Index := 64#32
  ![v1146.toNat, 64]
def k0_off459 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1150 : Index := Scalar.indexCast arg9
  let c80_490 : Index := 80#32
  ![v1150.toNat, 80]
def k0_off460 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1154 : Index := Scalar.indexCast arg9
  let c96_491 : Index := 96#32
  ![v1154.toNat, 96]
def k0_off461 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1158 : Index := Scalar.indexCast arg9
  let c112_492 : Index := 112#32
  ![v1158.toNat, 112]
def k0_off462 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1162 : Index := Scalar.indexCast arg9
  let c128_493 : Index := 128#32
  ![v1162.toNat, 128]
def k0_off463 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1166 : Index := Scalar.indexCast arg9
  let c144_494 : Index := 144#32
  ![v1166.toNat, 144]
def k0_off464 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1170 : Index := Scalar.indexCast arg9
  let c160_495 : Index := 160#32
  ![v1170.toNat, 160]
def k0_off465 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1174 : Index := Scalar.indexCast arg9
  let c176_496 : Index := 176#32
  ![v1174.toNat, 176]
def k0_off466 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1178 : Index := Scalar.indexCast arg9
  let c192_497 : Index := 192#32
  ![v1178.toNat, 192]
def k0_off467 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1182 : Index := Scalar.indexCast arg9
  let c208_498 : Index := 208#32
  ![v1182.toNat, 208]
def k0_off468 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1186 : Index := Scalar.indexCast arg9
  let c224_499 : Index := 224#32
  ![v1186.toNat, 224]
def k0_off469 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1190 : Index := Scalar.indexCast arg9
  let c240_500 : Index := 240#32
  ![v1190.toNat, 240]
def k0_off470 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1194 : Index := Scalar.indexCast arg9
  let c256_501 : Index := 256#32
  ![v1194.toNat, 256]
def k0_off471 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1198 : Index := Scalar.indexCast arg9
  let c272_502 : Index := 272#32
  ![v1198.toNat, 272]
def k0_off472 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1202 : Index := Scalar.indexCast arg9
  let c288_503 : Index := 288#32
  ![v1202.toNat, 288]
def k0_off473 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1206 : Index := Scalar.indexCast arg9
  let c304_504 : Index := 304#32
  ![v1206.toNat, 304]
def k0_off474 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1210 : Index := Scalar.indexCast arg9
  let c320_505 : Index := 320#32
  ![v1210.toNat, 320]
def k0_off475 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1214 : Index := Scalar.indexCast arg9
  let c336_506 : Index := 336#32
  ![v1214.toNat, 336]
def k0_off476 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1218 : Index := Scalar.indexCast arg9
  let c352_507 : Index := 352#32
  ![v1218.toNat, 352]
def k0_off477 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1222 : Index := Scalar.indexCast arg9
  let c368_508 : Index := 368#32
  ![v1222.toNat, 368]
def k0_off478 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1226 : Index := Scalar.indexCast arg9
  let c384_509 : Index := 384#32
  ![v1226.toNat, 384]
def k0_off479 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1230 : Index := Scalar.indexCast arg9
  let c400_510 : Index := 400#32
  ![v1230.toNat, 400]
def k0_off480 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1234 : Index := Scalar.indexCast arg9
  let c416_511 : Index := 416#32
  ![v1234.toNat, 416]
def k0_off481 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1238 : Index := Scalar.indexCast arg9
  let c432_512 : Index := 432#32
  ![v1238.toNat, 432]
def k0_off482 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1242 : Index := Scalar.indexCast arg9
  let c448_513 : Index := 448#32
  ![v1242.toNat, 448]
def k0_off483 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1246 : Index := Scalar.indexCast arg9
  let c464_514 : Index := 464#32
  ![v1246.toNat, 464]
def k0_off484 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1250 : Index := Scalar.indexCast arg9
  let c480_515 : Index := 480#32
  ![v1250.toNat, 480]
def k0_off485 (k0_t15 : Fin k0_t15_loop.trips) : Fin 2 → Nat :=
  let c0_i32_221 : BitVec 32 := 0#32
  let c1_i32_223 : BitVec 32 := 1#32
  let arg9 : BitVec 32 := Scf.iv c0_i32_221 c1_i32_223 k0_t15
  let v1254 : Index := Scalar.indexCast arg9
  let c496_516 : Index := 496#32
  ![v1254.toNat, 496]
def k0_off486 (i : grid0.Coords) (c0_i32_226 : BitVec 32) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let c256_i32_225 : BitVec 32 := 256#32
  let v550 : BitVec 32 := Scalar.muli v29 c256_i32_225
  let v551 : BitVec 32 := Scalar.addi v550 c0_i32_226
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![13, v551.toNat, v12.toNat]
@[reducible] def k0_t16_loop : Scf.Loop 32 :=
  let c0_i32_230 : BitVec 32 := 0#32
  let c64_i32_231 : BitVec 32 := 64#32
  let v562 : BitVec 32 := Scalar.addi c0_i32_230 c64_i32_231
  let c1_i32_232 : BitVec 32 := 1#32
  ⟨c0_i32_230, v562, c1_i32_232⟩
def k0_off487 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1130 : Index := Scalar.indexCast arg9
  let c0_485 : Index := 0#32
  ![v1130.toNat, 0]
def k0_off488 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1134 : Index := Scalar.indexCast arg9
  let c16_486 : Index := 16#32
  ![v1134.toNat, 16]
def k0_off489 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1138 : Index := Scalar.indexCast arg9
  let c32_487 : Index := 32#32
  ![v1138.toNat, 32]
def k0_off490 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1142 : Index := Scalar.indexCast arg9
  let c48_488 : Index := 48#32
  ![v1142.toNat, 48]
def k0_off491 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1146 : Index := Scalar.indexCast arg9
  let c64_489 : Index := 64#32
  ![v1146.toNat, 64]
def k0_off492 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1150 : Index := Scalar.indexCast arg9
  let c80_490 : Index := 80#32
  ![v1150.toNat, 80]
def k0_off493 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1154 : Index := Scalar.indexCast arg9
  let c96_491 : Index := 96#32
  ![v1154.toNat, 96]
def k0_off494 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1158 : Index := Scalar.indexCast arg9
  let c112_492 : Index := 112#32
  ![v1158.toNat, 112]
def k0_off495 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1162 : Index := Scalar.indexCast arg9
  let c128_493 : Index := 128#32
  ![v1162.toNat, 128]
def k0_off496 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1166 : Index := Scalar.indexCast arg9
  let c144_494 : Index := 144#32
  ![v1166.toNat, 144]
def k0_off497 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1170 : Index := Scalar.indexCast arg9
  let c160_495 : Index := 160#32
  ![v1170.toNat, 160]
def k0_off498 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1174 : Index := Scalar.indexCast arg9
  let c176_496 : Index := 176#32
  ![v1174.toNat, 176]
def k0_off499 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1178 : Index := Scalar.indexCast arg9
  let c192_497 : Index := 192#32
  ![v1178.toNat, 192]
def k0_off500 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1182 : Index := Scalar.indexCast arg9
  let c208_498 : Index := 208#32
  ![v1182.toNat, 208]
def k0_off501 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1186 : Index := Scalar.indexCast arg9
  let c224_499 : Index := 224#32
  ![v1186.toNat, 224]
def k0_off502 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1190 : Index := Scalar.indexCast arg9
  let c240_500 : Index := 240#32
  ![v1190.toNat, 240]
def k0_off503 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1194 : Index := Scalar.indexCast arg9
  let c256_501 : Index := 256#32
  ![v1194.toNat, 256]
def k0_off504 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1198 : Index := Scalar.indexCast arg9
  let c272_502 : Index := 272#32
  ![v1198.toNat, 272]
def k0_off505 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1202 : Index := Scalar.indexCast arg9
  let c288_503 : Index := 288#32
  ![v1202.toNat, 288]
def k0_off506 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1206 : Index := Scalar.indexCast arg9
  let c304_504 : Index := 304#32
  ![v1206.toNat, 304]
def k0_off507 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1210 : Index := Scalar.indexCast arg9
  let c320_505 : Index := 320#32
  ![v1210.toNat, 320]
def k0_off508 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1214 : Index := Scalar.indexCast arg9
  let c336_506 : Index := 336#32
  ![v1214.toNat, 336]
def k0_off509 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1218 : Index := Scalar.indexCast arg9
  let c352_507 : Index := 352#32
  ![v1218.toNat, 352]
def k0_off510 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1222 : Index := Scalar.indexCast arg9
  let c368_508 : Index := 368#32
  ![v1222.toNat, 368]
def k0_off511 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1226 : Index := Scalar.indexCast arg9
  let c384_509 : Index := 384#32
  ![v1226.toNat, 384]
def k0_off512 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1230 : Index := Scalar.indexCast arg9
  let c400_510 : Index := 400#32
  ![v1230.toNat, 400]
def k0_off513 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1234 : Index := Scalar.indexCast arg9
  let c416_511 : Index := 416#32
  ![v1234.toNat, 416]
def k0_off514 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1238 : Index := Scalar.indexCast arg9
  let c432_512 : Index := 432#32
  ![v1238.toNat, 432]
def k0_off515 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1242 : Index := Scalar.indexCast arg9
  let c448_513 : Index := 448#32
  ![v1242.toNat, 448]
def k0_off516 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1246 : Index := Scalar.indexCast arg9
  let c464_514 : Index := 464#32
  ![v1246.toNat, 464]
def k0_off517 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1250 : Index := Scalar.indexCast arg9
  let c480_515 : Index := 480#32
  ![v1250.toNat, 480]
def k0_off518 (k0_t16 : Fin k0_t16_loop.trips) : Fin 2 → Nat :=
  let c0_i32_230 : BitVec 32 := 0#32
  let c1_i32_232 : BitVec 32 := 1#32
  let arg9 : BitVec 32 := Scf.iv c0_i32_230 c1_i32_232 k0_t16
  let v1254 : Index := Scalar.indexCast arg9
  let c496_516 : Index := 496#32
  ![v1254.toNat, 496]
def k0_mult4 (i : grid0.Coords) : BitVec 32 :=
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let v666 : BitVec 32 := Scalar.addi c24_i32 v29
  let c2048_i32_269 : BitVec 32 := 2048#32
  let v667 : BitVec 32 := Scalar.muli v666 c2048_i32_269
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  let v668 : BitVec 32 := Scalar.addi v667 v12
  v668
@[reducible] def k0_t17_loop : Scf.Loop 32 :=
  let c0_i32_274 : BitVec 32 := 0#32
  let c64_i32_275 : BitVec 32 := 64#32
  let v677 : BitVec 32 := Scalar.addi c0_i32_274 c64_i32_275
  let c1_i32_276 : BitVec 32 := 1#32
  ⟨c0_i32_274, v677, c1_i32_276⟩
def k0_off519 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1130 : Index := Scalar.indexCast arg9
  let c0_485 : Index := 0#32
  ![v1130.toNat, 0]
def k0_off520 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1134 : Index := Scalar.indexCast arg9
  let c16_486 : Index := 16#32
  ![v1134.toNat, 16]
def k0_off521 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1138 : Index := Scalar.indexCast arg9
  let c32_487 : Index := 32#32
  ![v1138.toNat, 32]
def k0_off522 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1142 : Index := Scalar.indexCast arg9
  let c48_488 : Index := 48#32
  ![v1142.toNat, 48]
def k0_off523 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1146 : Index := Scalar.indexCast arg9
  let c64_489 : Index := 64#32
  ![v1146.toNat, 64]
def k0_off524 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1150 : Index := Scalar.indexCast arg9
  let c80_490 : Index := 80#32
  ![v1150.toNat, 80]
def k0_off525 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1154 : Index := Scalar.indexCast arg9
  let c96_491 : Index := 96#32
  ![v1154.toNat, 96]
def k0_off526 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1158 : Index := Scalar.indexCast arg9
  let c112_492 : Index := 112#32
  ![v1158.toNat, 112]
def k0_off527 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1162 : Index := Scalar.indexCast arg9
  let c128_493 : Index := 128#32
  ![v1162.toNat, 128]
def k0_off528 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1166 : Index := Scalar.indexCast arg9
  let c144_494 : Index := 144#32
  ![v1166.toNat, 144]
def k0_off529 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1170 : Index := Scalar.indexCast arg9
  let c160_495 : Index := 160#32
  ![v1170.toNat, 160]
def k0_off530 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1174 : Index := Scalar.indexCast arg9
  let c176_496 : Index := 176#32
  ![v1174.toNat, 176]
def k0_off531 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1178 : Index := Scalar.indexCast arg9
  let c192_497 : Index := 192#32
  ![v1178.toNat, 192]
def k0_off532 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1182 : Index := Scalar.indexCast arg9
  let c208_498 : Index := 208#32
  ![v1182.toNat, 208]
def k0_off533 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1186 : Index := Scalar.indexCast arg9
  let c224_499 : Index := 224#32
  ![v1186.toNat, 224]
def k0_off534 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1190 : Index := Scalar.indexCast arg9
  let c240_500 : Index := 240#32
  ![v1190.toNat, 240]
def k0_off535 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1194 : Index := Scalar.indexCast arg9
  let c256_501 : Index := 256#32
  ![v1194.toNat, 256]
def k0_off536 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1198 : Index := Scalar.indexCast arg9
  let c272_502 : Index := 272#32
  ![v1198.toNat, 272]
def k0_off537 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1202 : Index := Scalar.indexCast arg9
  let c288_503 : Index := 288#32
  ![v1202.toNat, 288]
def k0_off538 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1206 : Index := Scalar.indexCast arg9
  let c304_504 : Index := 304#32
  ![v1206.toNat, 304]
def k0_off539 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1210 : Index := Scalar.indexCast arg9
  let c320_505 : Index := 320#32
  ![v1210.toNat, 320]
def k0_off540 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1214 : Index := Scalar.indexCast arg9
  let c336_506 : Index := 336#32
  ![v1214.toNat, 336]
def k0_off541 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1218 : Index := Scalar.indexCast arg9
  let c352_507 : Index := 352#32
  ![v1218.toNat, 352]
def k0_off542 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1222 : Index := Scalar.indexCast arg9
  let c368_508 : Index := 368#32
  ![v1222.toNat, 368]
def k0_off543 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1226 : Index := Scalar.indexCast arg9
  let c384_509 : Index := 384#32
  ![v1226.toNat, 384]
def k0_off544 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1230 : Index := Scalar.indexCast arg9
  let c400_510 : Index := 400#32
  ![v1230.toNat, 400]
def k0_off545 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1234 : Index := Scalar.indexCast arg9
  let c416_511 : Index := 416#32
  ![v1234.toNat, 416]
def k0_off546 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1238 : Index := Scalar.indexCast arg9
  let c432_512 : Index := 432#32
  ![v1238.toNat, 432]
def k0_off547 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1242 : Index := Scalar.indexCast arg9
  let c448_513 : Index := 448#32
  ![v1242.toNat, 448]
def k0_off548 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1246 : Index := Scalar.indexCast arg9
  let c464_514 : Index := 464#32
  ![v1246.toNat, 464]
def k0_off549 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1250 : Index := Scalar.indexCast arg9
  let c480_515 : Index := 480#32
  ![v1250.toNat, 480]
def k0_off550 (k0_t17 : Fin k0_t17_loop.trips) : Fin 2 → Nat :=
  let c0_i32_274 : BitVec 32 := 0#32
  let c1_i32_276 : BitVec 32 := 1#32
  let arg9 : BitVec 32 := Scf.iv c0_i32_274 c1_i32_276 k0_t17
  let v1254 : Index := Scalar.indexCast arg9
  let c496_516 : Index := 496#32
  ![v1254.toNat, 496]
@[reducible] def k0_t18_loop : Scf.Loop 32 :=
  let c0_i32_284 : BitVec 32 := 0#32
  let c64_i32_285 : BitVec 32 := 64#32
  let v691 : BitVec 32 := Scalar.addi c0_i32_284 c64_i32_285
  let c1_i32_286 : BitVec 32 := 1#32
  ⟨c0_i32_284, v691, c1_i32_286⟩
def k0_off551 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1130 : Index := Scalar.indexCast arg9
  let c0_485 : Index := 0#32
  ![v1130.toNat, 0]
def k0_off552 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1134 : Index := Scalar.indexCast arg9
  let c16_486 : Index := 16#32
  ![v1134.toNat, 16]
def k0_off553 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1138 : Index := Scalar.indexCast arg9
  let c32_487 : Index := 32#32
  ![v1138.toNat, 32]
def k0_off554 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1142 : Index := Scalar.indexCast arg9
  let c48_488 : Index := 48#32
  ![v1142.toNat, 48]
def k0_off555 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1146 : Index := Scalar.indexCast arg9
  let c64_489 : Index := 64#32
  ![v1146.toNat, 64]
def k0_off556 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1150 : Index := Scalar.indexCast arg9
  let c80_490 : Index := 80#32
  ![v1150.toNat, 80]
def k0_off557 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1154 : Index := Scalar.indexCast arg9
  let c96_491 : Index := 96#32
  ![v1154.toNat, 96]
def k0_off558 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1158 : Index := Scalar.indexCast arg9
  let c112_492 : Index := 112#32
  ![v1158.toNat, 112]
def k0_off559 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1162 : Index := Scalar.indexCast arg9
  let c128_493 : Index := 128#32
  ![v1162.toNat, 128]
def k0_off560 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1166 : Index := Scalar.indexCast arg9
  let c144_494 : Index := 144#32
  ![v1166.toNat, 144]
def k0_off561 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1170 : Index := Scalar.indexCast arg9
  let c160_495 : Index := 160#32
  ![v1170.toNat, 160]
def k0_off562 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1174 : Index := Scalar.indexCast arg9
  let c176_496 : Index := 176#32
  ![v1174.toNat, 176]
def k0_off563 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1178 : Index := Scalar.indexCast arg9
  let c192_497 : Index := 192#32
  ![v1178.toNat, 192]
def k0_off564 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1182 : Index := Scalar.indexCast arg9
  let c208_498 : Index := 208#32
  ![v1182.toNat, 208]
def k0_off565 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1186 : Index := Scalar.indexCast arg9
  let c224_499 : Index := 224#32
  ![v1186.toNat, 224]
def k0_off566 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1190 : Index := Scalar.indexCast arg9
  let c240_500 : Index := 240#32
  ![v1190.toNat, 240]
def k0_off567 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1194 : Index := Scalar.indexCast arg9
  let c256_501 : Index := 256#32
  ![v1194.toNat, 256]
def k0_off568 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1198 : Index := Scalar.indexCast arg9
  let c272_502 : Index := 272#32
  ![v1198.toNat, 272]
def k0_off569 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1202 : Index := Scalar.indexCast arg9
  let c288_503 : Index := 288#32
  ![v1202.toNat, 288]
def k0_off570 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1206 : Index := Scalar.indexCast arg9
  let c304_504 : Index := 304#32
  ![v1206.toNat, 304]
def k0_off571 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1210 : Index := Scalar.indexCast arg9
  let c320_505 : Index := 320#32
  ![v1210.toNat, 320]
def k0_off572 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1214 : Index := Scalar.indexCast arg9
  let c336_506 : Index := 336#32
  ![v1214.toNat, 336]
def k0_off573 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1218 : Index := Scalar.indexCast arg9
  let c352_507 : Index := 352#32
  ![v1218.toNat, 352]
def k0_off574 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1222 : Index := Scalar.indexCast arg9
  let c368_508 : Index := 368#32
  ![v1222.toNat, 368]
def k0_off575 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1226 : Index := Scalar.indexCast arg9
  let c384_509 : Index := 384#32
  ![v1226.toNat, 384]
def k0_off576 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1230 : Index := Scalar.indexCast arg9
  let c400_510 : Index := 400#32
  ![v1230.toNat, 400]
def k0_off577 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1234 : Index := Scalar.indexCast arg9
  let c416_511 : Index := 416#32
  ![v1234.toNat, 416]
def k0_off578 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1238 : Index := Scalar.indexCast arg9
  let c432_512 : Index := 432#32
  ![v1238.toNat, 432]
def k0_off579 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1242 : Index := Scalar.indexCast arg9
  let c448_513 : Index := 448#32
  ![v1242.toNat, 448]
def k0_off580 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1246 : Index := Scalar.indexCast arg9
  let c464_514 : Index := 464#32
  ![v1246.toNat, 464]
def k0_off581 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1250 : Index := Scalar.indexCast arg9
  let c480_515 : Index := 480#32
  ![v1250.toNat, 480]
def k0_off582 (k0_t18 : Fin k0_t18_loop.trips) : Fin 2 → Nat :=
  let c0_i32_284 : BitVec 32 := 0#32
  let c1_i32_286 : BitVec 32 := 1#32
  let arg9 : BitVec 32 := Scf.iv c0_i32_284 c1_i32_286 k0_t18
  let v1254 : Index := Scalar.indexCast arg9
  let c496_516 : Index := 496#32
  ![v1254.toNat, 496]
@[reducible] def k0_t19_loop : Scf.Loop 32 :=
  let c0_i32_294 : BitVec 32 := 0#32
  let c64_i32_295 : BitVec 32 := 64#32
  let v705 : BitVec 32 := Scalar.addi c0_i32_294 c64_i32_295
  let c1_i32_296 : BitVec 32 := 1#32
  ⟨c0_i32_294, v705, c1_i32_296⟩
def k0_off583 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1130 : Index := Scalar.indexCast arg9
  let c0_485 : Index := 0#32
  ![v1130.toNat, 0]
def k0_off584 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1134 : Index := Scalar.indexCast arg9
  let c16_486 : Index := 16#32
  ![v1134.toNat, 16]
def k0_off585 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1138 : Index := Scalar.indexCast arg9
  let c32_487 : Index := 32#32
  ![v1138.toNat, 32]
def k0_off586 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1142 : Index := Scalar.indexCast arg9
  let c48_488 : Index := 48#32
  ![v1142.toNat, 48]
def k0_off587 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1146 : Index := Scalar.indexCast arg9
  let c64_489 : Index := 64#32
  ![v1146.toNat, 64]
def k0_off588 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1150 : Index := Scalar.indexCast arg9
  let c80_490 : Index := 80#32
  ![v1150.toNat, 80]
def k0_off589 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1154 : Index := Scalar.indexCast arg9
  let c96_491 : Index := 96#32
  ![v1154.toNat, 96]
def k0_off590 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1158 : Index := Scalar.indexCast arg9
  let c112_492 : Index := 112#32
  ![v1158.toNat, 112]
def k0_off591 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1162 : Index := Scalar.indexCast arg9
  let c128_493 : Index := 128#32
  ![v1162.toNat, 128]
def k0_off592 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1166 : Index := Scalar.indexCast arg9
  let c144_494 : Index := 144#32
  ![v1166.toNat, 144]
def k0_off593 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1170 : Index := Scalar.indexCast arg9
  let c160_495 : Index := 160#32
  ![v1170.toNat, 160]
def k0_off594 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1174 : Index := Scalar.indexCast arg9
  let c176_496 : Index := 176#32
  ![v1174.toNat, 176]
def k0_off595 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1178 : Index := Scalar.indexCast arg9
  let c192_497 : Index := 192#32
  ![v1178.toNat, 192]
def k0_off596 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1182 : Index := Scalar.indexCast arg9
  let c208_498 : Index := 208#32
  ![v1182.toNat, 208]
def k0_off597 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1186 : Index := Scalar.indexCast arg9
  let c224_499 : Index := 224#32
  ![v1186.toNat, 224]
def k0_off598 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1190 : Index := Scalar.indexCast arg9
  let c240_500 : Index := 240#32
  ![v1190.toNat, 240]
def k0_off599 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1194 : Index := Scalar.indexCast arg9
  let c256_501 : Index := 256#32
  ![v1194.toNat, 256]
def k0_off600 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1198 : Index := Scalar.indexCast arg9
  let c272_502 : Index := 272#32
  ![v1198.toNat, 272]
def k0_off601 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1202 : Index := Scalar.indexCast arg9
  let c288_503 : Index := 288#32
  ![v1202.toNat, 288]
def k0_off602 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1206 : Index := Scalar.indexCast arg9
  let c304_504 : Index := 304#32
  ![v1206.toNat, 304]
def k0_off603 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1210 : Index := Scalar.indexCast arg9
  let c320_505 : Index := 320#32
  ![v1210.toNat, 320]
def k0_off604 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1214 : Index := Scalar.indexCast arg9
  let c336_506 : Index := 336#32
  ![v1214.toNat, 336]
def k0_off605 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1218 : Index := Scalar.indexCast arg9
  let c352_507 : Index := 352#32
  ![v1218.toNat, 352]
def k0_off606 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1222 : Index := Scalar.indexCast arg9
  let c368_508 : Index := 368#32
  ![v1222.toNat, 368]
def k0_off607 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1226 : Index := Scalar.indexCast arg9
  let c384_509 : Index := 384#32
  ![v1226.toNat, 384]
def k0_off608 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1230 : Index := Scalar.indexCast arg9
  let c400_510 : Index := 400#32
  ![v1230.toNat, 400]
def k0_off609 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1234 : Index := Scalar.indexCast arg9
  let c416_511 : Index := 416#32
  ![v1234.toNat, 416]
def k0_off610 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1238 : Index := Scalar.indexCast arg9
  let c432_512 : Index := 432#32
  ![v1238.toNat, 432]
def k0_off611 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1242 : Index := Scalar.indexCast arg9
  let c448_513 : Index := 448#32
  ![v1242.toNat, 448]
def k0_off612 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1246 : Index := Scalar.indexCast arg9
  let c464_514 : Index := 464#32
  ![v1246.toNat, 464]
def k0_off613 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1250 : Index := Scalar.indexCast arg9
  let c480_515 : Index := 480#32
  ![v1250.toNat, 480]
def k0_off614 (k0_t19 : Fin k0_t19_loop.trips) : Fin 2 → Nat :=
  let c0_i32_294 : BitVec 32 := 0#32
  let c1_i32_296 : BitVec 32 := 1#32
  let arg9 : BitVec 32 := Scf.iv c0_i32_294 c1_i32_296 k0_t19
  let v1254 : Index := Scalar.indexCast arg9
  let c496_516 : Index := 496#32
  ![v1254.toNat, 496]
def k0_off615 (i : grid0.Coords) (c0_i32_299 : BitVec 32) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let c256_i32_298 : BitVec 32 := 256#32
  let v707 : BitVec 32 := Scalar.muli v29 c256_i32_298
  let v708 : BitVec 32 := Scalar.addi v707 c0_i32_299
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![14, v708.toNat, v12.toNat]
@[reducible] def k0_t20_loop : Scf.Loop 32 :=
  let c0_i32_303 : BitVec 32 := 0#32
  let c64_i32_304 : BitVec 32 := 64#32
  let v719 : BitVec 32 := Scalar.addi c0_i32_303 c64_i32_304
  let c1_i32_305 : BitVec 32 := 1#32
  ⟨c0_i32_303, v719, c1_i32_305⟩
def k0_off616 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1130 : Index := Scalar.indexCast arg9
  let c0_485 : Index := 0#32
  ![v1130.toNat, 0]
def k0_off617 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1134 : Index := Scalar.indexCast arg9
  let c16_486 : Index := 16#32
  ![v1134.toNat, 16]
def k0_off618 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1138 : Index := Scalar.indexCast arg9
  let c32_487 : Index := 32#32
  ![v1138.toNat, 32]
def k0_off619 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1142 : Index := Scalar.indexCast arg9
  let c48_488 : Index := 48#32
  ![v1142.toNat, 48]
def k0_off620 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1146 : Index := Scalar.indexCast arg9
  let c64_489 : Index := 64#32
  ![v1146.toNat, 64]
def k0_off621 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1150 : Index := Scalar.indexCast arg9
  let c80_490 : Index := 80#32
  ![v1150.toNat, 80]
def k0_off622 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1154 : Index := Scalar.indexCast arg9
  let c96_491 : Index := 96#32
  ![v1154.toNat, 96]
def k0_off623 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1158 : Index := Scalar.indexCast arg9
  let c112_492 : Index := 112#32
  ![v1158.toNat, 112]
def k0_off624 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1162 : Index := Scalar.indexCast arg9
  let c128_493 : Index := 128#32
  ![v1162.toNat, 128]
def k0_off625 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1166 : Index := Scalar.indexCast arg9
  let c144_494 : Index := 144#32
  ![v1166.toNat, 144]
def k0_off626 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1170 : Index := Scalar.indexCast arg9
  let c160_495 : Index := 160#32
  ![v1170.toNat, 160]
def k0_off627 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1174 : Index := Scalar.indexCast arg9
  let c176_496 : Index := 176#32
  ![v1174.toNat, 176]
def k0_off628 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1178 : Index := Scalar.indexCast arg9
  let c192_497 : Index := 192#32
  ![v1178.toNat, 192]
def k0_off629 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1182 : Index := Scalar.indexCast arg9
  let c208_498 : Index := 208#32
  ![v1182.toNat, 208]
def k0_off630 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1186 : Index := Scalar.indexCast arg9
  let c224_499 : Index := 224#32
  ![v1186.toNat, 224]
def k0_off631 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1190 : Index := Scalar.indexCast arg9
  let c240_500 : Index := 240#32
  ![v1190.toNat, 240]
def k0_off632 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1194 : Index := Scalar.indexCast arg9
  let c256_501 : Index := 256#32
  ![v1194.toNat, 256]
def k0_off633 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1198 : Index := Scalar.indexCast arg9
  let c272_502 : Index := 272#32
  ![v1198.toNat, 272]
def k0_off634 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1202 : Index := Scalar.indexCast arg9
  let c288_503 : Index := 288#32
  ![v1202.toNat, 288]
def k0_off635 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1206 : Index := Scalar.indexCast arg9
  let c304_504 : Index := 304#32
  ![v1206.toNat, 304]
def k0_off636 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1210 : Index := Scalar.indexCast arg9
  let c320_505 : Index := 320#32
  ![v1210.toNat, 320]
def k0_off637 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1214 : Index := Scalar.indexCast arg9
  let c336_506 : Index := 336#32
  ![v1214.toNat, 336]
def k0_off638 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1218 : Index := Scalar.indexCast arg9
  let c352_507 : Index := 352#32
  ![v1218.toNat, 352]
def k0_off639 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1222 : Index := Scalar.indexCast arg9
  let c368_508 : Index := 368#32
  ![v1222.toNat, 368]
def k0_off640 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1226 : Index := Scalar.indexCast arg9
  let c384_509 : Index := 384#32
  ![v1226.toNat, 384]
def k0_off641 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1230 : Index := Scalar.indexCast arg9
  let c400_510 : Index := 400#32
  ![v1230.toNat, 400]
def k0_off642 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1234 : Index := Scalar.indexCast arg9
  let c416_511 : Index := 416#32
  ![v1234.toNat, 416]
def k0_off643 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1238 : Index := Scalar.indexCast arg9
  let c432_512 : Index := 432#32
  ![v1238.toNat, 432]
def k0_off644 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1242 : Index := Scalar.indexCast arg9
  let c448_513 : Index := 448#32
  ![v1242.toNat, 448]
def k0_off645 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1246 : Index := Scalar.indexCast arg9
  let c464_514 : Index := 464#32
  ![v1246.toNat, 464]
def k0_off646 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1250 : Index := Scalar.indexCast arg9
  let c480_515 : Index := 480#32
  ![v1250.toNat, 480]
def k0_off647 (k0_t20 : Fin k0_t20_loop.trips) : Fin 2 → Nat :=
  let c0_i32_303 : BitVec 32 := 0#32
  let c1_i32_305 : BitVec 32 := 1#32
  let arg9 : BitVec 32 := Scf.iv c0_i32_303 c1_i32_305 k0_t20
  let v1254 : Index := Scalar.indexCast arg9
  let c496_516 : Index := 496#32
  ![v1254.toNat, 496]
def k0_mult5 (i : grid0.Coords) : BitVec 32 :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let v823 : BitVec 32 := Scalar.addi c32_i32 v29
  let c2048_i32_342 : BitVec 32 := 2048#32
  let v824 : BitVec 32 := Scalar.muli v823 c2048_i32_342
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  let v825 : BitVec 32 := Scalar.addi v824 v12
  v825
@[reducible] def k0_t21_loop : Scf.Loop 32 :=
  let c0_i32_347 : BitVec 32 := 0#32
  let c64_i32_348 : BitVec 32 := 64#32
  let v834 : BitVec 32 := Scalar.addi c0_i32_347 c64_i32_348
  let c1_i32_349 : BitVec 32 := 1#32
  ⟨c0_i32_347, v834, c1_i32_349⟩
def k0_off648 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1130 : Index := Scalar.indexCast arg9
  let c0_485 : Index := 0#32
  ![v1130.toNat, 0]
def k0_off649 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1134 : Index := Scalar.indexCast arg9
  let c16_486 : Index := 16#32
  ![v1134.toNat, 16]
def k0_off650 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1138 : Index := Scalar.indexCast arg9
  let c32_487 : Index := 32#32
  ![v1138.toNat, 32]
def k0_off651 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1142 : Index := Scalar.indexCast arg9
  let c48_488 : Index := 48#32
  ![v1142.toNat, 48]
def k0_off652 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1146 : Index := Scalar.indexCast arg9
  let c64_489 : Index := 64#32
  ![v1146.toNat, 64]
def k0_off653 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1150 : Index := Scalar.indexCast arg9
  let c80_490 : Index := 80#32
  ![v1150.toNat, 80]
def k0_off654 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1154 : Index := Scalar.indexCast arg9
  let c96_491 : Index := 96#32
  ![v1154.toNat, 96]
def k0_off655 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1158 : Index := Scalar.indexCast arg9
  let c112_492 : Index := 112#32
  ![v1158.toNat, 112]
def k0_off656 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1162 : Index := Scalar.indexCast arg9
  let c128_493 : Index := 128#32
  ![v1162.toNat, 128]
def k0_off657 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1166 : Index := Scalar.indexCast arg9
  let c144_494 : Index := 144#32
  ![v1166.toNat, 144]
def k0_off658 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1170 : Index := Scalar.indexCast arg9
  let c160_495 : Index := 160#32
  ![v1170.toNat, 160]
def k0_off659 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1174 : Index := Scalar.indexCast arg9
  let c176_496 : Index := 176#32
  ![v1174.toNat, 176]
def k0_off660 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1178 : Index := Scalar.indexCast arg9
  let c192_497 : Index := 192#32
  ![v1178.toNat, 192]
def k0_off661 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1182 : Index := Scalar.indexCast arg9
  let c208_498 : Index := 208#32
  ![v1182.toNat, 208]
def k0_off662 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1186 : Index := Scalar.indexCast arg9
  let c224_499 : Index := 224#32
  ![v1186.toNat, 224]
def k0_off663 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1190 : Index := Scalar.indexCast arg9
  let c240_500 : Index := 240#32
  ![v1190.toNat, 240]
def k0_off664 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1194 : Index := Scalar.indexCast arg9
  let c256_501 : Index := 256#32
  ![v1194.toNat, 256]
def k0_off665 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1198 : Index := Scalar.indexCast arg9
  let c272_502 : Index := 272#32
  ![v1198.toNat, 272]
def k0_off666 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1202 : Index := Scalar.indexCast arg9
  let c288_503 : Index := 288#32
  ![v1202.toNat, 288]
def k0_off667 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1206 : Index := Scalar.indexCast arg9
  let c304_504 : Index := 304#32
  ![v1206.toNat, 304]
def k0_off668 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1210 : Index := Scalar.indexCast arg9
  let c320_505 : Index := 320#32
  ![v1210.toNat, 320]
def k0_off669 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1214 : Index := Scalar.indexCast arg9
  let c336_506 : Index := 336#32
  ![v1214.toNat, 336]
def k0_off670 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1218 : Index := Scalar.indexCast arg9
  let c352_507 : Index := 352#32
  ![v1218.toNat, 352]
def k0_off671 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1222 : Index := Scalar.indexCast arg9
  let c368_508 : Index := 368#32
  ![v1222.toNat, 368]
def k0_off672 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1226 : Index := Scalar.indexCast arg9
  let c384_509 : Index := 384#32
  ![v1226.toNat, 384]
def k0_off673 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1230 : Index := Scalar.indexCast arg9
  let c400_510 : Index := 400#32
  ![v1230.toNat, 400]
def k0_off674 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1234 : Index := Scalar.indexCast arg9
  let c416_511 : Index := 416#32
  ![v1234.toNat, 416]
def k0_off675 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1238 : Index := Scalar.indexCast arg9
  let c432_512 : Index := 432#32
  ![v1238.toNat, 432]
def k0_off676 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1242 : Index := Scalar.indexCast arg9
  let c448_513 : Index := 448#32
  ![v1242.toNat, 448]
def k0_off677 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1246 : Index := Scalar.indexCast arg9
  let c464_514 : Index := 464#32
  ![v1246.toNat, 464]
def k0_off678 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1250 : Index := Scalar.indexCast arg9
  let c480_515 : Index := 480#32
  ![v1250.toNat, 480]
def k0_off679 (k0_t21 : Fin k0_t21_loop.trips) : Fin 2 → Nat :=
  let c0_i32_347 : BitVec 32 := 0#32
  let c1_i32_349 : BitVec 32 := 1#32
  let arg9 : BitVec 32 := Scf.iv c0_i32_347 c1_i32_349 k0_t21
  let v1254 : Index := Scalar.indexCast arg9
  let c496_516 : Index := 496#32
  ![v1254.toNat, 496]
@[reducible] def k0_t22_loop : Scf.Loop 32 :=
  let c0_i32_357 : BitVec 32 := 0#32
  let c64_i32_358 : BitVec 32 := 64#32
  let v848 : BitVec 32 := Scalar.addi c0_i32_357 c64_i32_358
  let c1_i32_359 : BitVec 32 := 1#32
  ⟨c0_i32_357, v848, c1_i32_359⟩
def k0_off680 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1130 : Index := Scalar.indexCast arg9
  let c0_485 : Index := 0#32
  ![v1130.toNat, 0]
def k0_off681 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1134 : Index := Scalar.indexCast arg9
  let c16_486 : Index := 16#32
  ![v1134.toNat, 16]
def k0_off682 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1138 : Index := Scalar.indexCast arg9
  let c32_487 : Index := 32#32
  ![v1138.toNat, 32]
def k0_off683 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1142 : Index := Scalar.indexCast arg9
  let c48_488 : Index := 48#32
  ![v1142.toNat, 48]
def k0_off684 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1146 : Index := Scalar.indexCast arg9
  let c64_489 : Index := 64#32
  ![v1146.toNat, 64]
def k0_off685 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1150 : Index := Scalar.indexCast arg9
  let c80_490 : Index := 80#32
  ![v1150.toNat, 80]
def k0_off686 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1154 : Index := Scalar.indexCast arg9
  let c96_491 : Index := 96#32
  ![v1154.toNat, 96]
def k0_off687 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1158 : Index := Scalar.indexCast arg9
  let c112_492 : Index := 112#32
  ![v1158.toNat, 112]
def k0_off688 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1162 : Index := Scalar.indexCast arg9
  let c128_493 : Index := 128#32
  ![v1162.toNat, 128]
def k0_off689 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1166 : Index := Scalar.indexCast arg9
  let c144_494 : Index := 144#32
  ![v1166.toNat, 144]
def k0_off690 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1170 : Index := Scalar.indexCast arg9
  let c160_495 : Index := 160#32
  ![v1170.toNat, 160]
def k0_off691 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1174 : Index := Scalar.indexCast arg9
  let c176_496 : Index := 176#32
  ![v1174.toNat, 176]
def k0_off692 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1178 : Index := Scalar.indexCast arg9
  let c192_497 : Index := 192#32
  ![v1178.toNat, 192]
def k0_off693 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1182 : Index := Scalar.indexCast arg9
  let c208_498 : Index := 208#32
  ![v1182.toNat, 208]
def k0_off694 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1186 : Index := Scalar.indexCast arg9
  let c224_499 : Index := 224#32
  ![v1186.toNat, 224]
def k0_off695 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1190 : Index := Scalar.indexCast arg9
  let c240_500 : Index := 240#32
  ![v1190.toNat, 240]
def k0_off696 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1194 : Index := Scalar.indexCast arg9
  let c256_501 : Index := 256#32
  ![v1194.toNat, 256]
def k0_off697 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1198 : Index := Scalar.indexCast arg9
  let c272_502 : Index := 272#32
  ![v1198.toNat, 272]
def k0_off698 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1202 : Index := Scalar.indexCast arg9
  let c288_503 : Index := 288#32
  ![v1202.toNat, 288]
def k0_off699 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1206 : Index := Scalar.indexCast arg9
  let c304_504 : Index := 304#32
  ![v1206.toNat, 304]
def k0_off700 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1210 : Index := Scalar.indexCast arg9
  let c320_505 : Index := 320#32
  ![v1210.toNat, 320]
def k0_off701 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1214 : Index := Scalar.indexCast arg9
  let c336_506 : Index := 336#32
  ![v1214.toNat, 336]
def k0_off702 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1218 : Index := Scalar.indexCast arg9
  let c352_507 : Index := 352#32
  ![v1218.toNat, 352]
def k0_off703 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1222 : Index := Scalar.indexCast arg9
  let c368_508 : Index := 368#32
  ![v1222.toNat, 368]
def k0_off704 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1226 : Index := Scalar.indexCast arg9
  let c384_509 : Index := 384#32
  ![v1226.toNat, 384]
def k0_off705 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1230 : Index := Scalar.indexCast arg9
  let c400_510 : Index := 400#32
  ![v1230.toNat, 400]
def k0_off706 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1234 : Index := Scalar.indexCast arg9
  let c416_511 : Index := 416#32
  ![v1234.toNat, 416]
def k0_off707 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1238 : Index := Scalar.indexCast arg9
  let c432_512 : Index := 432#32
  ![v1238.toNat, 432]
def k0_off708 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1242 : Index := Scalar.indexCast arg9
  let c448_513 : Index := 448#32
  ![v1242.toNat, 448]
def k0_off709 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1246 : Index := Scalar.indexCast arg9
  let c464_514 : Index := 464#32
  ![v1246.toNat, 464]
def k0_off710 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1250 : Index := Scalar.indexCast arg9
  let c480_515 : Index := 480#32
  ![v1250.toNat, 480]
def k0_off711 (k0_t22 : Fin k0_t22_loop.trips) : Fin 2 → Nat :=
  let c0_i32_357 : BitVec 32 := 0#32
  let c1_i32_359 : BitVec 32 := 1#32
  let arg9 : BitVec 32 := Scf.iv c0_i32_357 c1_i32_359 k0_t22
  let v1254 : Index := Scalar.indexCast arg9
  let c496_516 : Index := 496#32
  ![v1254.toNat, 496]
@[reducible] def k0_t23_loop : Scf.Loop 32 :=
  let c0_i32_367 : BitVec 32 := 0#32
  let c64_i32_368 : BitVec 32 := 64#32
  let v862 : BitVec 32 := Scalar.addi c0_i32_367 c64_i32_368
  let c1_i32_369 : BitVec 32 := 1#32
  ⟨c0_i32_367, v862, c1_i32_369⟩
def k0_off712 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1130 : Index := Scalar.indexCast arg9
  let c0_485 : Index := 0#32
  ![v1130.toNat, 0]
def k0_off713 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1134 : Index := Scalar.indexCast arg9
  let c16_486 : Index := 16#32
  ![v1134.toNat, 16]
def k0_off714 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1138 : Index := Scalar.indexCast arg9
  let c32_487 : Index := 32#32
  ![v1138.toNat, 32]
def k0_off715 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1142 : Index := Scalar.indexCast arg9
  let c48_488 : Index := 48#32
  ![v1142.toNat, 48]
def k0_off716 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1146 : Index := Scalar.indexCast arg9
  let c64_489 : Index := 64#32
  ![v1146.toNat, 64]
def k0_off717 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1150 : Index := Scalar.indexCast arg9
  let c80_490 : Index := 80#32
  ![v1150.toNat, 80]
def k0_off718 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1154 : Index := Scalar.indexCast arg9
  let c96_491 : Index := 96#32
  ![v1154.toNat, 96]
def k0_off719 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1158 : Index := Scalar.indexCast arg9
  let c112_492 : Index := 112#32
  ![v1158.toNat, 112]
def k0_off720 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1162 : Index := Scalar.indexCast arg9
  let c128_493 : Index := 128#32
  ![v1162.toNat, 128]
def k0_off721 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1166 : Index := Scalar.indexCast arg9
  let c144_494 : Index := 144#32
  ![v1166.toNat, 144]
def k0_off722 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1170 : Index := Scalar.indexCast arg9
  let c160_495 : Index := 160#32
  ![v1170.toNat, 160]
def k0_off723 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1174 : Index := Scalar.indexCast arg9
  let c176_496 : Index := 176#32
  ![v1174.toNat, 176]
def k0_off724 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1178 : Index := Scalar.indexCast arg9
  let c192_497 : Index := 192#32
  ![v1178.toNat, 192]
def k0_off725 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1182 : Index := Scalar.indexCast arg9
  let c208_498 : Index := 208#32
  ![v1182.toNat, 208]
def k0_off726 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1186 : Index := Scalar.indexCast arg9
  let c224_499 : Index := 224#32
  ![v1186.toNat, 224]
def k0_off727 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1190 : Index := Scalar.indexCast arg9
  let c240_500 : Index := 240#32
  ![v1190.toNat, 240]
def k0_off728 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1194 : Index := Scalar.indexCast arg9
  let c256_501 : Index := 256#32
  ![v1194.toNat, 256]
def k0_off729 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1198 : Index := Scalar.indexCast arg9
  let c272_502 : Index := 272#32
  ![v1198.toNat, 272]
def k0_off730 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1202 : Index := Scalar.indexCast arg9
  let c288_503 : Index := 288#32
  ![v1202.toNat, 288]
def k0_off731 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1206 : Index := Scalar.indexCast arg9
  let c304_504 : Index := 304#32
  ![v1206.toNat, 304]
def k0_off732 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1210 : Index := Scalar.indexCast arg9
  let c320_505 : Index := 320#32
  ![v1210.toNat, 320]
def k0_off733 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1214 : Index := Scalar.indexCast arg9
  let c336_506 : Index := 336#32
  ![v1214.toNat, 336]
def k0_off734 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1218 : Index := Scalar.indexCast arg9
  let c352_507 : Index := 352#32
  ![v1218.toNat, 352]
def k0_off735 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1222 : Index := Scalar.indexCast arg9
  let c368_508 : Index := 368#32
  ![v1222.toNat, 368]
def k0_off736 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1226 : Index := Scalar.indexCast arg9
  let c384_509 : Index := 384#32
  ![v1226.toNat, 384]
def k0_off737 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1230 : Index := Scalar.indexCast arg9
  let c400_510 : Index := 400#32
  ![v1230.toNat, 400]
def k0_off738 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1234 : Index := Scalar.indexCast arg9
  let c416_511 : Index := 416#32
  ![v1234.toNat, 416]
def k0_off739 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1238 : Index := Scalar.indexCast arg9
  let c432_512 : Index := 432#32
  ![v1238.toNat, 432]
def k0_off740 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1242 : Index := Scalar.indexCast arg9
  let c448_513 : Index := 448#32
  ![v1242.toNat, 448]
def k0_off741 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1246 : Index := Scalar.indexCast arg9
  let c464_514 : Index := 464#32
  ![v1246.toNat, 464]
def k0_off742 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1250 : Index := Scalar.indexCast arg9
  let c480_515 : Index := 480#32
  ![v1250.toNat, 480]
def k0_off743 (k0_t23 : Fin k0_t23_loop.trips) : Fin 2 → Nat :=
  let c0_i32_367 : BitVec 32 := 0#32
  let c1_i32_369 : BitVec 32 := 1#32
  let arg9 : BitVec 32 := Scf.iv c0_i32_367 c1_i32_369 k0_t23
  let v1254 : Index := Scalar.indexCast arg9
  let c496_516 : Index := 496#32
  ![v1254.toNat, 496]
def k0_off744 (i : grid0.Coords) (c0_i32_372 : BitVec 32) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let c256_i32_371 : BitVec 32 := 256#32
  let v864 : BitVec 32 := Scalar.muli v29 c256_i32_371
  let v865 : BitVec 32 := Scalar.addi v864 c0_i32_372
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![15, v865.toNat, v12.toNat]
@[reducible] def k0_t24_loop : Scf.Loop 32 :=
  let c0_i32_376 : BitVec 32 := 0#32
  let c64_i32_377 : BitVec 32 := 64#32
  let v876 : BitVec 32 := Scalar.addi c0_i32_376 c64_i32_377
  let c1_i32_378 : BitVec 32 := 1#32
  ⟨c0_i32_376, v876, c1_i32_378⟩
def k0_off745 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1130 : Index := Scalar.indexCast arg9
  let c0_485 : Index := 0#32
  ![v1130.toNat, 0]
def k0_off746 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1134 : Index := Scalar.indexCast arg9
  let c16_486 : Index := 16#32
  ![v1134.toNat, 16]
def k0_off747 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1138 : Index := Scalar.indexCast arg9
  let c32_487 : Index := 32#32
  ![v1138.toNat, 32]
def k0_off748 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1142 : Index := Scalar.indexCast arg9
  let c48_488 : Index := 48#32
  ![v1142.toNat, 48]
def k0_off749 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1146 : Index := Scalar.indexCast arg9
  let c64_489 : Index := 64#32
  ![v1146.toNat, 64]
def k0_off750 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1150 : Index := Scalar.indexCast arg9
  let c80_490 : Index := 80#32
  ![v1150.toNat, 80]
def k0_off751 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1154 : Index := Scalar.indexCast arg9
  let c96_491 : Index := 96#32
  ![v1154.toNat, 96]
def k0_off752 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1158 : Index := Scalar.indexCast arg9
  let c112_492 : Index := 112#32
  ![v1158.toNat, 112]
def k0_off753 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1162 : Index := Scalar.indexCast arg9
  let c128_493 : Index := 128#32
  ![v1162.toNat, 128]
def k0_off754 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1166 : Index := Scalar.indexCast arg9
  let c144_494 : Index := 144#32
  ![v1166.toNat, 144]
def k0_off755 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1170 : Index := Scalar.indexCast arg9
  let c160_495 : Index := 160#32
  ![v1170.toNat, 160]
def k0_off756 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1174 : Index := Scalar.indexCast arg9
  let c176_496 : Index := 176#32
  ![v1174.toNat, 176]
def k0_off757 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1178 : Index := Scalar.indexCast arg9
  let c192_497 : Index := 192#32
  ![v1178.toNat, 192]
def k0_off758 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1182 : Index := Scalar.indexCast arg9
  let c208_498 : Index := 208#32
  ![v1182.toNat, 208]
def k0_off759 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1186 : Index := Scalar.indexCast arg9
  let c224_499 : Index := 224#32
  ![v1186.toNat, 224]
def k0_off760 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1190 : Index := Scalar.indexCast arg9
  let c240_500 : Index := 240#32
  ![v1190.toNat, 240]
def k0_off761 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1194 : Index := Scalar.indexCast arg9
  let c256_501 : Index := 256#32
  ![v1194.toNat, 256]
def k0_off762 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1198 : Index := Scalar.indexCast arg9
  let c272_502 : Index := 272#32
  ![v1198.toNat, 272]
def k0_off763 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1202 : Index := Scalar.indexCast arg9
  let c288_503 : Index := 288#32
  ![v1202.toNat, 288]
def k0_off764 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1206 : Index := Scalar.indexCast arg9
  let c304_504 : Index := 304#32
  ![v1206.toNat, 304]
def k0_off765 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1210 : Index := Scalar.indexCast arg9
  let c320_505 : Index := 320#32
  ![v1210.toNat, 320]
def k0_off766 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1214 : Index := Scalar.indexCast arg9
  let c336_506 : Index := 336#32
  ![v1214.toNat, 336]
def k0_off767 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1218 : Index := Scalar.indexCast arg9
  let c352_507 : Index := 352#32
  ![v1218.toNat, 352]
def k0_off768 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1222 : Index := Scalar.indexCast arg9
  let c368_508 : Index := 368#32
  ![v1222.toNat, 368]
def k0_off769 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1226 : Index := Scalar.indexCast arg9
  let c384_509 : Index := 384#32
  ![v1226.toNat, 384]
def k0_off770 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1230 : Index := Scalar.indexCast arg9
  let c400_510 : Index := 400#32
  ![v1230.toNat, 400]
def k0_off771 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1234 : Index := Scalar.indexCast arg9
  let c416_511 : Index := 416#32
  ![v1234.toNat, 416]
def k0_off772 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1238 : Index := Scalar.indexCast arg9
  let c432_512 : Index := 432#32
  ![v1238.toNat, 432]
def k0_off773 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1242 : Index := Scalar.indexCast arg9
  let c448_513 : Index := 448#32
  ![v1242.toNat, 448]
def k0_off774 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1246 : Index := Scalar.indexCast arg9
  let c464_514 : Index := 464#32
  ![v1246.toNat, 464]
def k0_off775 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1250 : Index := Scalar.indexCast arg9
  let c480_515 : Index := 480#32
  ![v1250.toNat, 480]
def k0_off776 (k0_t24 : Fin k0_t24_loop.trips) : Fin 2 → Nat :=
  let c0_i32_376 : BitVec 32 := 0#32
  let c1_i32_378 : BitVec 32 := 1#32
  let arg9 : BitVec 32 := Scf.iv c0_i32_376 c1_i32_378 k0_t24
  let v1254 : Index := Scalar.indexCast arg9
  let c496_516 : Index := 496#32
  ![v1254.toNat, 496]
def k0_mult6 (i : grid0.Coords) : BitVec 32 :=
  let c40_i32 : BitVec 32 := 40#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let v980 : BitVec 32 := Scalar.addi c40_i32 v29
  let c2048_i32_415 : BitVec 32 := 2048#32
  let v981 : BitVec 32 := Scalar.muli v980 c2048_i32_415
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  let v982 : BitVec 32 := Scalar.addi v981 v12
  v982
@[reducible] def k0_t25_loop : Scf.Loop 32 :=
  let c0_i32_420 : BitVec 32 := 0#32
  let c64_i32_421 : BitVec 32 := 64#32
  let v991 : BitVec 32 := Scalar.addi c0_i32_420 c64_i32_421
  let c1_i32_422 : BitVec 32 := 1#32
  ⟨c0_i32_420, v991, c1_i32_422⟩
def k0_off777 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1130 : Index := Scalar.indexCast arg9
  let c0_485 : Index := 0#32
  ![v1130.toNat, 0]
def k0_off778 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1134 : Index := Scalar.indexCast arg9
  let c16_486 : Index := 16#32
  ![v1134.toNat, 16]
def k0_off779 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1138 : Index := Scalar.indexCast arg9
  let c32_487 : Index := 32#32
  ![v1138.toNat, 32]
def k0_off780 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1142 : Index := Scalar.indexCast arg9
  let c48_488 : Index := 48#32
  ![v1142.toNat, 48]
def k0_off781 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1146 : Index := Scalar.indexCast arg9
  let c64_489 : Index := 64#32
  ![v1146.toNat, 64]
def k0_off782 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1150 : Index := Scalar.indexCast arg9
  let c80_490 : Index := 80#32
  ![v1150.toNat, 80]
def k0_off783 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1154 : Index := Scalar.indexCast arg9
  let c96_491 : Index := 96#32
  ![v1154.toNat, 96]
def k0_off784 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1158 : Index := Scalar.indexCast arg9
  let c112_492 : Index := 112#32
  ![v1158.toNat, 112]
def k0_off785 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1162 : Index := Scalar.indexCast arg9
  let c128_493 : Index := 128#32
  ![v1162.toNat, 128]
def k0_off786 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1166 : Index := Scalar.indexCast arg9
  let c144_494 : Index := 144#32
  ![v1166.toNat, 144]
def k0_off787 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1170 : Index := Scalar.indexCast arg9
  let c160_495 : Index := 160#32
  ![v1170.toNat, 160]
def k0_off788 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1174 : Index := Scalar.indexCast arg9
  let c176_496 : Index := 176#32
  ![v1174.toNat, 176]
def k0_off789 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1178 : Index := Scalar.indexCast arg9
  let c192_497 : Index := 192#32
  ![v1178.toNat, 192]
def k0_off790 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1182 : Index := Scalar.indexCast arg9
  let c208_498 : Index := 208#32
  ![v1182.toNat, 208]
def k0_off791 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1186 : Index := Scalar.indexCast arg9
  let c224_499 : Index := 224#32
  ![v1186.toNat, 224]
def k0_off792 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1190 : Index := Scalar.indexCast arg9
  let c240_500 : Index := 240#32
  ![v1190.toNat, 240]
def k0_off793 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1194 : Index := Scalar.indexCast arg9
  let c256_501 : Index := 256#32
  ![v1194.toNat, 256]
def k0_off794 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1198 : Index := Scalar.indexCast arg9
  let c272_502 : Index := 272#32
  ![v1198.toNat, 272]
def k0_off795 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1202 : Index := Scalar.indexCast arg9
  let c288_503 : Index := 288#32
  ![v1202.toNat, 288]
def k0_off796 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1206 : Index := Scalar.indexCast arg9
  let c304_504 : Index := 304#32
  ![v1206.toNat, 304]
def k0_off797 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1210 : Index := Scalar.indexCast arg9
  let c320_505 : Index := 320#32
  ![v1210.toNat, 320]
def k0_off798 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1214 : Index := Scalar.indexCast arg9
  let c336_506 : Index := 336#32
  ![v1214.toNat, 336]
def k0_off799 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1218 : Index := Scalar.indexCast arg9
  let c352_507 : Index := 352#32
  ![v1218.toNat, 352]
def k0_off800 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1222 : Index := Scalar.indexCast arg9
  let c368_508 : Index := 368#32
  ![v1222.toNat, 368]
def k0_off801 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1226 : Index := Scalar.indexCast arg9
  let c384_509 : Index := 384#32
  ![v1226.toNat, 384]
def k0_off802 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1230 : Index := Scalar.indexCast arg9
  let c400_510 : Index := 400#32
  ![v1230.toNat, 400]
def k0_off803 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1234 : Index := Scalar.indexCast arg9
  let c416_511 : Index := 416#32
  ![v1234.toNat, 416]
def k0_off804 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1238 : Index := Scalar.indexCast arg9
  let c432_512 : Index := 432#32
  ![v1238.toNat, 432]
def k0_off805 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1242 : Index := Scalar.indexCast arg9
  let c448_513 : Index := 448#32
  ![v1242.toNat, 448]
def k0_off806 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1246 : Index := Scalar.indexCast arg9
  let c464_514 : Index := 464#32
  ![v1246.toNat, 464]
def k0_off807 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1250 : Index := Scalar.indexCast arg9
  let c480_515 : Index := 480#32
  ![v1250.toNat, 480]
def k0_off808 (k0_t25 : Fin k0_t25_loop.trips) : Fin 2 → Nat :=
  let c0_i32_420 : BitVec 32 := 0#32
  let c1_i32_422 : BitVec 32 := 1#32
  let arg9 : BitVec 32 := Scf.iv c0_i32_420 c1_i32_422 k0_t25
  let v1254 : Index := Scalar.indexCast arg9
  let c496_516 : Index := 496#32
  ![v1254.toNat, 496]
@[reducible] def k0_t26_loop : Scf.Loop 32 :=
  let c0_i32_430 : BitVec 32 := 0#32
  let c64_i32_431 : BitVec 32 := 64#32
  let v1005 : BitVec 32 := Scalar.addi c0_i32_430 c64_i32_431
  let c1_i32_432 : BitVec 32 := 1#32
  ⟨c0_i32_430, v1005, c1_i32_432⟩
def k0_off809 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1130 : Index := Scalar.indexCast arg9
  let c0_485 : Index := 0#32
  ![v1130.toNat, 0]
def k0_off810 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1134 : Index := Scalar.indexCast arg9
  let c16_486 : Index := 16#32
  ![v1134.toNat, 16]
def k0_off811 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1138 : Index := Scalar.indexCast arg9
  let c32_487 : Index := 32#32
  ![v1138.toNat, 32]
def k0_off812 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1142 : Index := Scalar.indexCast arg9
  let c48_488 : Index := 48#32
  ![v1142.toNat, 48]
def k0_off813 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1146 : Index := Scalar.indexCast arg9
  let c64_489 : Index := 64#32
  ![v1146.toNat, 64]
def k0_off814 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1150 : Index := Scalar.indexCast arg9
  let c80_490 : Index := 80#32
  ![v1150.toNat, 80]
def k0_off815 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1154 : Index := Scalar.indexCast arg9
  let c96_491 : Index := 96#32
  ![v1154.toNat, 96]
def k0_off816 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1158 : Index := Scalar.indexCast arg9
  let c112_492 : Index := 112#32
  ![v1158.toNat, 112]
def k0_off817 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1162 : Index := Scalar.indexCast arg9
  let c128_493 : Index := 128#32
  ![v1162.toNat, 128]
def k0_off818 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1166 : Index := Scalar.indexCast arg9
  let c144_494 : Index := 144#32
  ![v1166.toNat, 144]
def k0_off819 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1170 : Index := Scalar.indexCast arg9
  let c160_495 : Index := 160#32
  ![v1170.toNat, 160]
def k0_off820 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1174 : Index := Scalar.indexCast arg9
  let c176_496 : Index := 176#32
  ![v1174.toNat, 176]
def k0_off821 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1178 : Index := Scalar.indexCast arg9
  let c192_497 : Index := 192#32
  ![v1178.toNat, 192]
def k0_off822 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1182 : Index := Scalar.indexCast arg9
  let c208_498 : Index := 208#32
  ![v1182.toNat, 208]
def k0_off823 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1186 : Index := Scalar.indexCast arg9
  let c224_499 : Index := 224#32
  ![v1186.toNat, 224]
def k0_off824 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1190 : Index := Scalar.indexCast arg9
  let c240_500 : Index := 240#32
  ![v1190.toNat, 240]
def k0_off825 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1194 : Index := Scalar.indexCast arg9
  let c256_501 : Index := 256#32
  ![v1194.toNat, 256]
def k0_off826 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1198 : Index := Scalar.indexCast arg9
  let c272_502 : Index := 272#32
  ![v1198.toNat, 272]
def k0_off827 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1202 : Index := Scalar.indexCast arg9
  let c288_503 : Index := 288#32
  ![v1202.toNat, 288]
def k0_off828 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1206 : Index := Scalar.indexCast arg9
  let c304_504 : Index := 304#32
  ![v1206.toNat, 304]
def k0_off829 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1210 : Index := Scalar.indexCast arg9
  let c320_505 : Index := 320#32
  ![v1210.toNat, 320]
def k0_off830 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1214 : Index := Scalar.indexCast arg9
  let c336_506 : Index := 336#32
  ![v1214.toNat, 336]
def k0_off831 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1218 : Index := Scalar.indexCast arg9
  let c352_507 : Index := 352#32
  ![v1218.toNat, 352]
def k0_off832 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1222 : Index := Scalar.indexCast arg9
  let c368_508 : Index := 368#32
  ![v1222.toNat, 368]
def k0_off833 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1226 : Index := Scalar.indexCast arg9
  let c384_509 : Index := 384#32
  ![v1226.toNat, 384]
def k0_off834 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1230 : Index := Scalar.indexCast arg9
  let c400_510 : Index := 400#32
  ![v1230.toNat, 400]
def k0_off835 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1234 : Index := Scalar.indexCast arg9
  let c416_511 : Index := 416#32
  ![v1234.toNat, 416]
def k0_off836 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1238 : Index := Scalar.indexCast arg9
  let c432_512 : Index := 432#32
  ![v1238.toNat, 432]
def k0_off837 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1242 : Index := Scalar.indexCast arg9
  let c448_513 : Index := 448#32
  ![v1242.toNat, 448]
def k0_off838 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1246 : Index := Scalar.indexCast arg9
  let c464_514 : Index := 464#32
  ![v1246.toNat, 464]
def k0_off839 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1250 : Index := Scalar.indexCast arg9
  let c480_515 : Index := 480#32
  ![v1250.toNat, 480]
def k0_off840 (k0_t26 : Fin k0_t26_loop.trips) : Fin 2 → Nat :=
  let c0_i32_430 : BitVec 32 := 0#32
  let c1_i32_432 : BitVec 32 := 1#32
  let arg9 : BitVec 32 := Scf.iv c0_i32_430 c1_i32_432 k0_t26
  let v1254 : Index := Scalar.indexCast arg9
  let c496_516 : Index := 496#32
  ![v1254.toNat, 496]
@[reducible] def k0_t27_loop : Scf.Loop 32 :=
  let c0_i32_440 : BitVec 32 := 0#32
  let c64_i32_441 : BitVec 32 := 64#32
  let v1019 : BitVec 32 := Scalar.addi c0_i32_440 c64_i32_441
  let c1_i32_442 : BitVec 32 := 1#32
  ⟨c0_i32_440, v1019, c1_i32_442⟩
def k0_off841 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1130 : Index := Scalar.indexCast arg9
  let c0_485 : Index := 0#32
  ![v1130.toNat, 0]
def k0_off842 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1134 : Index := Scalar.indexCast arg9
  let c16_486 : Index := 16#32
  ![v1134.toNat, 16]
def k0_off843 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1138 : Index := Scalar.indexCast arg9
  let c32_487 : Index := 32#32
  ![v1138.toNat, 32]
def k0_off844 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1142 : Index := Scalar.indexCast arg9
  let c48_488 : Index := 48#32
  ![v1142.toNat, 48]
def k0_off845 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1146 : Index := Scalar.indexCast arg9
  let c64_489 : Index := 64#32
  ![v1146.toNat, 64]
def k0_off846 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1150 : Index := Scalar.indexCast arg9
  let c80_490 : Index := 80#32
  ![v1150.toNat, 80]
def k0_off847 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1154 : Index := Scalar.indexCast arg9
  let c96_491 : Index := 96#32
  ![v1154.toNat, 96]
def k0_off848 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1158 : Index := Scalar.indexCast arg9
  let c112_492 : Index := 112#32
  ![v1158.toNat, 112]
def k0_off849 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1162 : Index := Scalar.indexCast arg9
  let c128_493 : Index := 128#32
  ![v1162.toNat, 128]
def k0_off850 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1166 : Index := Scalar.indexCast arg9
  let c144_494 : Index := 144#32
  ![v1166.toNat, 144]
def k0_off851 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1170 : Index := Scalar.indexCast arg9
  let c160_495 : Index := 160#32
  ![v1170.toNat, 160]
def k0_off852 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1174 : Index := Scalar.indexCast arg9
  let c176_496 : Index := 176#32
  ![v1174.toNat, 176]
def k0_off853 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1178 : Index := Scalar.indexCast arg9
  let c192_497 : Index := 192#32
  ![v1178.toNat, 192]
def k0_off854 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1182 : Index := Scalar.indexCast arg9
  let c208_498 : Index := 208#32
  ![v1182.toNat, 208]
def k0_off855 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1186 : Index := Scalar.indexCast arg9
  let c224_499 : Index := 224#32
  ![v1186.toNat, 224]
def k0_off856 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1190 : Index := Scalar.indexCast arg9
  let c240_500 : Index := 240#32
  ![v1190.toNat, 240]
def k0_off857 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1194 : Index := Scalar.indexCast arg9
  let c256_501 : Index := 256#32
  ![v1194.toNat, 256]
def k0_off858 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1198 : Index := Scalar.indexCast arg9
  let c272_502 : Index := 272#32
  ![v1198.toNat, 272]
def k0_off859 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1202 : Index := Scalar.indexCast arg9
  let c288_503 : Index := 288#32
  ![v1202.toNat, 288]
def k0_off860 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1206 : Index := Scalar.indexCast arg9
  let c304_504 : Index := 304#32
  ![v1206.toNat, 304]
def k0_off861 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1210 : Index := Scalar.indexCast arg9
  let c320_505 : Index := 320#32
  ![v1210.toNat, 320]
def k0_off862 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1214 : Index := Scalar.indexCast arg9
  let c336_506 : Index := 336#32
  ![v1214.toNat, 336]
def k0_off863 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1218 : Index := Scalar.indexCast arg9
  let c352_507 : Index := 352#32
  ![v1218.toNat, 352]
def k0_off864 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1222 : Index := Scalar.indexCast arg9
  let c368_508 : Index := 368#32
  ![v1222.toNat, 368]
def k0_off865 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1226 : Index := Scalar.indexCast arg9
  let c384_509 : Index := 384#32
  ![v1226.toNat, 384]
def k0_off866 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1230 : Index := Scalar.indexCast arg9
  let c400_510 : Index := 400#32
  ![v1230.toNat, 400]
def k0_off867 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1234 : Index := Scalar.indexCast arg9
  let c416_511 : Index := 416#32
  ![v1234.toNat, 416]
def k0_off868 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1238 : Index := Scalar.indexCast arg9
  let c432_512 : Index := 432#32
  ![v1238.toNat, 432]
def k0_off869 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1242 : Index := Scalar.indexCast arg9
  let c448_513 : Index := 448#32
  ![v1242.toNat, 448]
def k0_off870 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1246 : Index := Scalar.indexCast arg9
  let c464_514 : Index := 464#32
  ![v1246.toNat, 464]
def k0_off871 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1250 : Index := Scalar.indexCast arg9
  let c480_515 : Index := 480#32
  ![v1250.toNat, 480]
def k0_off872 (k0_t27 : Fin k0_t27_loop.trips) : Fin 2 → Nat :=
  let c0_i32_440 : BitVec 32 := 0#32
  let c1_i32_442 : BitVec 32 := 1#32
  let arg9 : BitVec 32 := Scf.iv c0_i32_440 c1_i32_442 k0_t27
  let v1254 : Index := Scalar.indexCast arg9
  let c496_516 : Index := 496#32
  ![v1254.toNat, 496]
@[reducible] def k0_t28_loop : Scf.Loop 32 :=
  let c0_i32_447 : BitVec 32 := 0#32
  let c64_i32_448 : BitVec 32 := 64#32
  let v1027 : BitVec 32 := Scalar.addi c0_i32_447 c64_i32_448
  let c1_i32_449 : BitVec 32 := 1#32
  ⟨c0_i32_447, v1027, c1_i32_449⟩
def k0_off873 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1130 : Index := Scalar.indexCast arg9
  let c0_485 : Index := 0#32
  ![v1130.toNat, 0]
def k0_off874 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1134 : Index := Scalar.indexCast arg9
  let c16_486 : Index := 16#32
  ![v1134.toNat, 16]
def k0_off875 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1138 : Index := Scalar.indexCast arg9
  let c32_487 : Index := 32#32
  ![v1138.toNat, 32]
def k0_off876 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1142 : Index := Scalar.indexCast arg9
  let c48_488 : Index := 48#32
  ![v1142.toNat, 48]
def k0_off877 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1146 : Index := Scalar.indexCast arg9
  let c64_489 : Index := 64#32
  ![v1146.toNat, 64]
def k0_off878 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1150 : Index := Scalar.indexCast arg9
  let c80_490 : Index := 80#32
  ![v1150.toNat, 80]
def k0_off879 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1154 : Index := Scalar.indexCast arg9
  let c96_491 : Index := 96#32
  ![v1154.toNat, 96]
def k0_off880 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1158 : Index := Scalar.indexCast arg9
  let c112_492 : Index := 112#32
  ![v1158.toNat, 112]
def k0_off881 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1162 : Index := Scalar.indexCast arg9
  let c128_493 : Index := 128#32
  ![v1162.toNat, 128]
def k0_off882 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1166 : Index := Scalar.indexCast arg9
  let c144_494 : Index := 144#32
  ![v1166.toNat, 144]
def k0_off883 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1170 : Index := Scalar.indexCast arg9
  let c160_495 : Index := 160#32
  ![v1170.toNat, 160]
def k0_off884 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1174 : Index := Scalar.indexCast arg9
  let c176_496 : Index := 176#32
  ![v1174.toNat, 176]
def k0_off885 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1178 : Index := Scalar.indexCast arg9
  let c192_497 : Index := 192#32
  ![v1178.toNat, 192]
def k0_off886 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1182 : Index := Scalar.indexCast arg9
  let c208_498 : Index := 208#32
  ![v1182.toNat, 208]
def k0_off887 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1186 : Index := Scalar.indexCast arg9
  let c224_499 : Index := 224#32
  ![v1186.toNat, 224]
def k0_off888 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1190 : Index := Scalar.indexCast arg9
  let c240_500 : Index := 240#32
  ![v1190.toNat, 240]
def k0_off889 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1194 : Index := Scalar.indexCast arg9
  let c256_501 : Index := 256#32
  ![v1194.toNat, 256]
def k0_off890 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1198 : Index := Scalar.indexCast arg9
  let c272_502 : Index := 272#32
  ![v1198.toNat, 272]
def k0_off891 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1202 : Index := Scalar.indexCast arg9
  let c288_503 : Index := 288#32
  ![v1202.toNat, 288]
def k0_off892 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1206 : Index := Scalar.indexCast arg9
  let c304_504 : Index := 304#32
  ![v1206.toNat, 304]
def k0_off893 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1210 : Index := Scalar.indexCast arg9
  let c320_505 : Index := 320#32
  ![v1210.toNat, 320]
def k0_off894 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1214 : Index := Scalar.indexCast arg9
  let c336_506 : Index := 336#32
  ![v1214.toNat, 336]
def k0_off895 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1218 : Index := Scalar.indexCast arg9
  let c352_507 : Index := 352#32
  ![v1218.toNat, 352]
def k0_off896 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1222 : Index := Scalar.indexCast arg9
  let c368_508 : Index := 368#32
  ![v1222.toNat, 368]
def k0_off897 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1226 : Index := Scalar.indexCast arg9
  let c384_509 : Index := 384#32
  ![v1226.toNat, 384]
def k0_off898 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1230 : Index := Scalar.indexCast arg9
  let c400_510 : Index := 400#32
  ![v1230.toNat, 400]
def k0_off899 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1234 : Index := Scalar.indexCast arg9
  let c416_511 : Index := 416#32
  ![v1234.toNat, 416]
def k0_off900 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1238 : Index := Scalar.indexCast arg9
  let c432_512 : Index := 432#32
  ![v1238.toNat, 432]
def k0_off901 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1242 : Index := Scalar.indexCast arg9
  let c448_513 : Index := 448#32
  ![v1242.toNat, 448]
def k0_off902 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1246 : Index := Scalar.indexCast arg9
  let c464_514 : Index := 464#32
  ![v1246.toNat, 464]
def k0_off903 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1250 : Index := Scalar.indexCast arg9
  let c480_515 : Index := 480#32
  ![v1250.toNat, 480]
def k0_off904 (k0_t28 : Fin k0_t28_loop.trips) : Fin 2 → Nat :=
  let c0_i32_447 : BitVec 32 := 0#32
  let c1_i32_449 : BitVec 32 := 1#32
  let arg9 : BitVec 32 := Scf.iv c0_i32_447 c1_i32_449 k0_t28
  let v1254 : Index := Scalar.indexCast arg9
  let c496_516 : Index := 496#32
  ![v1254.toNat, 496]
def k0_mult7 (i : grid0.Coords) : BitVec 32 :=
  let c48_i32 : BitVec 32 := 48#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c4_i32_3 : BitVec 32 := 4#32
  let c0_i32_6 : BitVec 32 := 0#32
  let v19 : BitVec 1 := Scalar.cmpi .sgt c4_i32_3 c0_i32_6
  let v20 : BitVec 32 := Scalar.extui v19
  let c0_i32_7 : BitVec 32 := 0#32
  let v21 : BitVec 1 := Scalar.cmpi .slt c4_i32_3 c0_i32_7
  let v22 : BitVec 32 := Scalar.extui v21
  let v23 : BitVec 32 := Scalar.subi v20 v22
  let v24 : BitVec 1 := Scalar.cmpi .ne v18 v23
  let v25 : BitVec 32 := Scalar.remsi v1 c4_i32_3
  let c0_i32_8 : BitVec 32 := 0#32
  let v26 : BitVec 1 := Scalar.cmpi .ne v25 c0_i32_8
  let v27 : BitVec 1 := Scalar.andi v24 v26
  let v13 : BitVec 32 := Scalar.divsi v1 c4_i32_3
  let c1_i32_9 : BitVec 32 := 1#32
  let v28 : BitVec 32 := Scalar.subi v13 c1_i32_9
  let v29 : BitVec 32 := Scalar.select v27 v28 v13
  let v1125 : BitVec 32 := Scalar.addi c48_i32 v29
  let c2048_i32_483 : BitVec 32 := 2048#32
  let v1126 : BitVec 32 := Scalar.muli v1125 c2048_i32_483
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  let v1127 : BitVec 32 := Scalar.addi v1126 v12
  v1127
abbrev grid1 : Pipeline.Grid := ⟨2, ![9, 2], ![false, false]⟩

def k1_cond2 (i : grid1.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_7 : BitVec 32 := 0#32
  let v14 : BitVec 1 := Scalar.cmpi .ne v13 c0_i32_7
  v14

def k1_off1 (i : grid1.Coords) : Fin 2 → Nat :=
  let arg0 : BitVec 32 := BitVec.ofNat 32 (i 0).val
  let v57 : Index := Scalar.indexCast arg0
  let c0_18 : Index := 0#32
  ![v57.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S9x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev grid2 : Pipeline.Grid := .none

abbrev stage2_0 : Fin 1 → Memref sig .tc .vmem S9x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S114688 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S3x16x30000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hcore0 : grid0.bound 0 ≤ τ.nSC
  hsub0 : grid0.bound 1 ≤ τ.nSub
  k0_off1_inb : ∀ i : grid0.Coords, ∀ (r : Fin 4), ∀ a, (k0_off1 i (BitVec.ofNat 32 (64 * r.val))) a + S1x64x512.size a ≤ S16x2048x2048.size a
  k0_t1_ok : k0_t1_loop.OK
  k0_off2_inb : ∀ k0_t1 : Fin k0_t1_loop.trips, ∀ a, (k0_off2 k0_t1) a + S1x16.size a ≤ S64x512.size a
  k0_off3_inb : ∀ k0_t1 : Fin k0_t1_loop.trips, ∀ a, (k0_off3 k0_t1) a + S1x16.size a ≤ S64x512.size a
  k0_off4_inb : ∀ k0_t1 : Fin k0_t1_loop.trips, ∀ a, (k0_off4 k0_t1) a + S1x16.size a ≤ S64x512.size a
  k0_off5_inb : ∀ k0_t1 : Fin k0_t1_loop.trips, ∀ a, (k0_off5 k0_t1) a + S1x16.size a ≤ S64x512.size a
  k0_off6_inb : ∀ k0_t1 : Fin k0_t1_loop.trips, ∀ a, (k0_off6 k0_t1) a + S1x16.size a ≤ S64x512.size a
  k0_off7_inb : ∀ k0_t1 : Fin k0_t1_loop.trips, ∀ a, (k0_off7 k0_t1) a + S1x16.size a ≤ S64x512.size a
  k0_off8_inb : ∀ k0_t1 : Fin k0_t1_loop.trips, ∀ a, (k0_off8 k0_t1) a + S1x16.size a ≤ S64x512.size a
  k0_off9_inb : ∀ k0_t1 : Fin k0_t1_loop.trips, ∀ a, (k0_off9 k0_t1) a + S1x16.size a ≤ S64x512.size a
  k0_off10_inb : ∀ k0_t1 : Fin k0_t1_loop.trips, ∀ a, (k0_off10 k0_t1) a + S1x16.size a ≤ S64x512.size a
  k0_off11_inb : ∀ k0_t1 : Fin k0_t1_loop.trips, ∀ a, (k0_off11 k0_t1) a + S1x16.size a ≤ S64x512.size a
  k0_off12_inb : ∀ k0_t1 : Fin k0_t1_loop.trips, ∀ a, (k0_off12 k0_t1) a + S1x16.size a ≤ S64x512.size a
  k0_off13_inb : ∀ k0_t1 : Fin k0_t1_loop.trips, ∀ a, (k0_off13 k0_t1) a + S1x16.size a ≤ S64x512.size a
  k0_off14_inb : ∀ k0_t1 : Fin k0_t1_loop.trips, ∀ a, (k0_off14 k0_t1) a + S1x16.size a ≤ S64x512.size a
  k0_off15_inb : ∀ k0_t1 : Fin k0_t1_loop.trips, ∀ a, (k0_off15 k0_t1) a + S1x16.size a ≤ S64x512.size a
  k0_off16_inb : ∀ k0_t1 : Fin k0_t1_loop.trips, ∀ a, (k0_off16 k0_t1) a + S1x16.size a ≤ S64x512.size a
  k0_off17_inb : ∀ k0_t1 : Fin k0_t1_loop.trips, ∀ a, (k0_off17 k0_t1) a + S1x16.size a ≤ S64x512.size a
  k0_off18_inb : ∀ k0_t1 : Fin k0_t1_loop.trips, ∀ a, (k0_off18 k0_t1) a + S1x16.size a ≤ S64x512.size a
  k0_off19_inb : ∀ k0_t1 : Fin k0_t1_loop.trips, ∀ a, (k0_off19 k0_t1) a + S1x16.size a ≤ S64x512.size a
  k0_off20_inb : ∀ k0_t1 : Fin k0_t1_loop.trips, ∀ a, (k0_off20 k0_t1) a + S1x16.size a ≤ S64x512.size a
  k0_off21_inb : ∀ k0_t1 : Fin k0_t1_loop.trips, ∀ a, (k0_off21 k0_t1) a + S1x16.size a ≤ S64x512.size a
  k0_off22_inb : ∀ k0_t1 : Fin k0_t1_loop.trips, ∀ a, (k0_off22 k0_t1) a + S1x16.size a ≤ S64x512.size a
  k0_off23_inb : ∀ k0_t1 : Fin k0_t1_loop.trips, ∀ a, (k0_off23 k0_t1) a + S1x16.size a ≤ S64x512.size a
  k0_off24_inb : ∀ k0_t1 : Fin k0_t1_loop.trips, ∀ a, (k0_off24 k0_t1) a + S1x16.size a ≤ S64x512.size a
  k0_off25_inb : ∀ k0_t1 : Fin k0_t1_loop.trips, ∀ a, (k0_off25 k0_t1) a + S1x16.size a ≤ S64x512.size a
  k0_off26_inb : ∀ k0_t1 : Fin k0_t1_loop.trips, ∀ a, (k0_off26 k0_t1) a + S1x16.size a ≤ S64x512.size a
  k0_off27_inb : ∀ k0_t1 : Fin k0_t1_loop.trips, ∀ a, (k0_off27 k0_t1) a + S1x16.size a ≤ S64x512.size a
  k0_off28_inb : ∀ k0_t1 : Fin k0_t1_loop.trips, ∀ a, (k0_off28 k0_t1) a + S1x16.size a ≤ S64x512.size a
  k0_off29_inb : ∀ k0_t1 : Fin k0_t1_loop.trips, ∀ a, (k0_off29 k0_t1) a + S1x16.size a ≤ S64x512.size a
  k0_off30_inb : ∀ k0_t1 : Fin k0_t1_loop.trips, ∀ a, (k0_off30 k0_t1) a + S1x16.size a ≤ S64x512.size a
  k0_off31_inb : ∀ k0_t1 : Fin k0_t1_loop.trips, ∀ a, (k0_off31 k0_t1) a + S1x16.size a ≤ S64x512.size a
  k0_off32_inb : ∀ k0_t1 : Fin k0_t1_loop.trips, ∀ a, (k0_off32 k0_t1) a + S1x16.size a ≤ S64x512.size a
  k0_off33_inb : ∀ k0_t1 : Fin k0_t1_loop.trips, ∀ a, (k0_off33 k0_t1) a + S1x16.size a ≤ S64x512.size a
  k0_t2_ok : k0_t2_loop.OK
  k0_off34_inb : ∀ k0_t2 : Fin k0_t2_loop.trips, ∀ a, (k0_off34 k0_t2) a + S1x16.size a ≤ S64x512.size a
  k0_off35_inb : ∀ k0_t2 : Fin k0_t2_loop.trips, ∀ a, (k0_off35 k0_t2) a + S1x16.size a ≤ S64x512.size a
  k0_off36_inb : ∀ k0_t2 : Fin k0_t2_loop.trips, ∀ a, (k0_off36 k0_t2) a + S1x16.size a ≤ S64x512.size a
  k0_off37_inb : ∀ k0_t2 : Fin k0_t2_loop.trips, ∀ a, (k0_off37 k0_t2) a + S1x16.size a ≤ S64x512.size a
  k0_off38_inb : ∀ k0_t2 : Fin k0_t2_loop.trips, ∀ a, (k0_off38 k0_t2) a + S1x16.size a ≤ S64x512.size a
  k0_off39_inb : ∀ k0_t2 : Fin k0_t2_loop.trips, ∀ a, (k0_off39 k0_t2) a + S1x16.size a ≤ S64x512.size a
  k0_off40_inb : ∀ k0_t2 : Fin k0_t2_loop.trips, ∀ a, (k0_off40 k0_t2) a + S1x16.size a ≤ S64x512.size a
  k0_off41_inb : ∀ k0_t2 : Fin k0_t2_loop.trips, ∀ a, (k0_off41 k0_t2) a + S1x16.size a ≤ S64x512.size a
  k0_off42_inb : ∀ k0_t2 : Fin k0_t2_loop.trips, ∀ a, (k0_off42 k0_t2) a + S1x16.size a ≤ S64x512.size a
  k0_off43_inb : ∀ k0_t2 : Fin k0_t2_loop.trips, ∀ a, (k0_off43 k0_t2) a + S1x16.size a ≤ S64x512.size a
  k0_off44_inb : ∀ k0_t2 : Fin k0_t2_loop.trips, ∀ a, (k0_off44 k0_t2) a + S1x16.size a ≤ S64x512.size a
  k0_off45_inb : ∀ k0_t2 : Fin k0_t2_loop.trips, ∀ a, (k0_off45 k0_t2) a + S1x16.size a ≤ S64x512.size a
  k0_off46_inb : ∀ k0_t2 : Fin k0_t2_loop.trips, ∀ a, (k0_off46 k0_t2) a + S1x16.size a ≤ S64x512.size a
  k0_off47_inb : ∀ k0_t2 : Fin k0_t2_loop.trips, ∀ a, (k0_off47 k0_t2) a + S1x16.size a ≤ S64x512.size a
  k0_off48_inb : ∀ k0_t2 : Fin k0_t2_loop.trips, ∀ a, (k0_off48 k0_t2) a + S1x16.size a ≤ S64x512.size a
  k0_off49_inb : ∀ k0_t2 : Fin k0_t2_loop.trips, ∀ a, (k0_off49 k0_t2) a + S1x16.size a ≤ S64x512.size a
  k0_off50_inb : ∀ k0_t2 : Fin k0_t2_loop.trips, ∀ a, (k0_off50 k0_t2) a + S1x16.size a ≤ S64x512.size a
  k0_off51_inb : ∀ k0_t2 : Fin k0_t2_loop.trips, ∀ a, (k0_off51 k0_t2) a + S1x16.size a ≤ S64x512.size a
  k0_off52_inb : ∀ k0_t2 : Fin k0_t2_loop.trips, ∀ a, (k0_off52 k0_t2) a + S1x16.size a ≤ S64x512.size a
  k0_off53_inb : ∀ k0_t2 : Fin k0_t2_loop.trips, ∀ a, (k0_off53 k0_t2) a + S1x16.size a ≤ S64x512.size a
  k0_off54_inb : ∀ k0_t2 : Fin k0_t2_loop.trips, ∀ a, (k0_off54 k0_t2) a + S1x16.size a ≤ S64x512.size a
  k0_off55_inb : ∀ k0_t2 : Fin k0_t2_loop.trips, ∀ a, (k0_off55 k0_t2) a + S1x16.size a ≤ S64x512.size a
  k0_off56_inb : ∀ k0_t2 : Fin k0_t2_loop.trips, ∀ a, (k0_off56 k0_t2) a + S1x16.size a ≤ S64x512.size a
  k0_off57_inb : ∀ k0_t2 : Fin k0_t2_loop.trips, ∀ a, (k0_off57 k0_t2) a + S1x16.size a ≤ S64x512.size a
  k0_off58_inb : ∀ k0_t2 : Fin k0_t2_loop.trips, ∀ a, (k0_off58 k0_t2) a + S1x16.size a ≤ S64x512.size a
  k0_off59_inb : ∀ k0_t2 : Fin k0_t2_loop.trips, ∀ a, (k0_off59 k0_t2) a + S1x16.size a ≤ S64x512.size a
  k0_off60_inb : ∀ k0_t2 : Fin k0_t2_loop.trips, ∀ a, (k0_off60 k0_t2) a + S1x16.size a ≤ S64x512.size a
  k0_off61_inb : ∀ k0_t2 : Fin k0_t2_loop.trips, ∀ a, (k0_off61 k0_t2) a + S1x16.size a ≤ S64x512.size a
  k0_off62_inb : ∀ k0_t2 : Fin k0_t2_loop.trips, ∀ a, (k0_off62 k0_t2) a + S1x16.size a ≤ S64x512.size a
  k0_off63_inb : ∀ k0_t2 : Fin k0_t2_loop.trips, ∀ a, (k0_off63 k0_t2) a + S1x16.size a ≤ S64x512.size a
  k0_off64_inb : ∀ k0_t2 : Fin k0_t2_loop.trips, ∀ a, (k0_off64 k0_t2) a + S1x16.size a ≤ S64x512.size a
  k0_off65_inb : ∀ k0_t2 : Fin k0_t2_loop.trips, ∀ a, (k0_off65 k0_t2) a + S1x16.size a ≤ S64x512.size a
  k0_t3_ok : k0_t3_loop.OK
  k0_off66_inb : ∀ k0_t3 : Fin k0_t3_loop.trips, ∀ a, (k0_off66 k0_t3) a + S1x16.size a ≤ S64x512.size a
  k0_off67_inb : ∀ k0_t3 : Fin k0_t3_loop.trips, ∀ a, (k0_off67 k0_t3) a + S1x16.size a ≤ S64x512.size a
  k0_off68_inb : ∀ k0_t3 : Fin k0_t3_loop.trips, ∀ a, (k0_off68 k0_t3) a + S1x16.size a ≤ S64x512.size a
  k0_off69_inb : ∀ k0_t3 : Fin k0_t3_loop.trips, ∀ a, (k0_off69 k0_t3) a + S1x16.size a ≤ S64x512.size a
  k0_off70_inb : ∀ k0_t3 : Fin k0_t3_loop.trips, ∀ a, (k0_off70 k0_t3) a + S1x16.size a ≤ S64x512.size a
  k0_off71_inb : ∀ k0_t3 : Fin k0_t3_loop.trips, ∀ a, (k0_off71 k0_t3) a + S1x16.size a ≤ S64x512.size a
  k0_off72_inb : ∀ k0_t3 : Fin k0_t3_loop.trips, ∀ a, (k0_off72 k0_t3) a + S1x16.size a ≤ S64x512.size a
  k0_off73_inb : ∀ k0_t3 : Fin k0_t3_loop.trips, ∀ a, (k0_off73 k0_t3) a + S1x16.size a ≤ S64x512.size a
  k0_off74_inb : ∀ k0_t3 : Fin k0_t3_loop.trips, ∀ a, (k0_off74 k0_t3) a + S1x16.size a ≤ S64x512.size a
  k0_off75_inb : ∀ k0_t3 : Fin k0_t3_loop.trips, ∀ a, (k0_off75 k0_t3) a + S1x16.size a ≤ S64x512.size a
  k0_off76_inb : ∀ k0_t3 : Fin k0_t3_loop.trips, ∀ a, (k0_off76 k0_t3) a + S1x16.size a ≤ S64x512.size a
  k0_off77_inb : ∀ k0_t3 : Fin k0_t3_loop.trips, ∀ a, (k0_off77 k0_t3) a + S1x16.size a ≤ S64x512.size a
  k0_off78_inb : ∀ k0_t3 : Fin k0_t3_loop.trips, ∀ a, (k0_off78 k0_t3) a + S1x16.size a ≤ S64x512.size a
  k0_off79_inb : ∀ k0_t3 : Fin k0_t3_loop.trips, ∀ a, (k0_off79 k0_t3) a + S1x16.size a ≤ S64x512.size a
  k0_off80_inb : ∀ k0_t3 : Fin k0_t3_loop.trips, ∀ a, (k0_off80 k0_t3) a + S1x16.size a ≤ S64x512.size a
  k0_off81_inb : ∀ k0_t3 : Fin k0_t3_loop.trips, ∀ a, (k0_off81 k0_t3) a + S1x16.size a ≤ S64x512.size a
  k0_off82_inb : ∀ k0_t3 : Fin k0_t3_loop.trips, ∀ a, (k0_off82 k0_t3) a + S1x16.size a ≤ S64x512.size a
  k0_off83_inb : ∀ k0_t3 : Fin k0_t3_loop.trips, ∀ a, (k0_off83 k0_t3) a + S1x16.size a ≤ S64x512.size a
  k0_off84_inb : ∀ k0_t3 : Fin k0_t3_loop.trips, ∀ a, (k0_off84 k0_t3) a + S1x16.size a ≤ S64x512.size a
  k0_off85_inb : ∀ k0_t3 : Fin k0_t3_loop.trips, ∀ a, (k0_off85 k0_t3) a + S1x16.size a ≤ S64x512.size a
  k0_off86_inb : ∀ k0_t3 : Fin k0_t3_loop.trips, ∀ a, (k0_off86 k0_t3) a + S1x16.size a ≤ S64x512.size a
  k0_off87_inb : ∀ k0_t3 : Fin k0_t3_loop.trips, ∀ a, (k0_off87 k0_t3) a + S1x16.size a ≤ S64x512.size a
  k0_off88_inb : ∀ k0_t3 : Fin k0_t3_loop.trips, ∀ a, (k0_off88 k0_t3) a + S1x16.size a ≤ S64x512.size a
  k0_off89_inb : ∀ k0_t3 : Fin k0_t3_loop.trips, ∀ a, (k0_off89 k0_t3) a + S1x16.size a ≤ S64x512.size a
  k0_off90_inb : ∀ k0_t3 : Fin k0_t3_loop.trips, ∀ a, (k0_off90 k0_t3) a + S1x16.size a ≤ S64x512.size a
  k0_off91_inb : ∀ k0_t3 : Fin k0_t3_loop.trips, ∀ a, (k0_off91 k0_t3) a + S1x16.size a ≤ S64x512.size a
  k0_off92_inb : ∀ k0_t3 : Fin k0_t3_loop.trips, ∀ a, (k0_off92 k0_t3) a + S1x16.size a ≤ S64x512.size a
  k0_off93_inb : ∀ k0_t3 : Fin k0_t3_loop.trips, ∀ a, (k0_off93 k0_t3) a + S1x16.size a ≤ S64x512.size a
  k0_off94_inb : ∀ k0_t3 : Fin k0_t3_loop.trips, ∀ a, (k0_off94 k0_t3) a + S1x16.size a ≤ S64x512.size a
  k0_off95_inb : ∀ k0_t3 : Fin k0_t3_loop.trips, ∀ a, (k0_off95 k0_t3) a + S1x16.size a ≤ S64x512.size a
  k0_off96_inb : ∀ k0_t3 : Fin k0_t3_loop.trips, ∀ a, (k0_off96 k0_t3) a + S1x16.size a ≤ S64x512.size a
  k0_off97_inb : ∀ k0_t3 : Fin k0_t3_loop.trips, ∀ a, (k0_off97 k0_t3) a + S1x16.size a ≤ S64x512.size a
  k0_off98_inb : ∀ i : grid0.Coords, ∀ (r : Fin 4), ∀ a, (k0_off98 i (BitVec.ofNat 32 (64 * r.val))) a + S1x64x512.size a ≤ S16x2048x2048.size a
  k0_t4_ok : k0_t4_loop.OK
  k0_off99_inb : ∀ k0_t4 : Fin k0_t4_loop.trips, ∀ a, (k0_off99 k0_t4) a + S1x16.size a ≤ S64x512.size a
  k0_off100_inb : ∀ k0_t4 : Fin k0_t4_loop.trips, ∀ a, (k0_off100 k0_t4) a + S1x16.size a ≤ S64x512.size a
  k0_off101_inb : ∀ k0_t4 : Fin k0_t4_loop.trips, ∀ a, (k0_off101 k0_t4) a + S1x16.size a ≤ S64x512.size a
  k0_off102_inb : ∀ k0_t4 : Fin k0_t4_loop.trips, ∀ a, (k0_off102 k0_t4) a + S1x16.size a ≤ S64x512.size a
  k0_off103_inb : ∀ k0_t4 : Fin k0_t4_loop.trips, ∀ a, (k0_off103 k0_t4) a + S1x16.size a ≤ S64x512.size a
  k0_off104_inb : ∀ k0_t4 : Fin k0_t4_loop.trips, ∀ a, (k0_off104 k0_t4) a + S1x16.size a ≤ S64x512.size a
  k0_off105_inb : ∀ k0_t4 : Fin k0_t4_loop.trips, ∀ a, (k0_off105 k0_t4) a + S1x16.size a ≤ S64x512.size a
  k0_off106_inb : ∀ k0_t4 : Fin k0_t4_loop.trips, ∀ a, (k0_off106 k0_t4) a + S1x16.size a ≤ S64x512.size a
  k0_off107_inb : ∀ k0_t4 : Fin k0_t4_loop.trips, ∀ a, (k0_off107 k0_t4) a + S1x16.size a ≤ S64x512.size a
  k0_off108_inb : ∀ k0_t4 : Fin k0_t4_loop.trips, ∀ a, (k0_off108 k0_t4) a + S1x16.size a ≤ S64x512.size a
  k0_off109_inb : ∀ k0_t4 : Fin k0_t4_loop.trips, ∀ a, (k0_off109 k0_t4) a + S1x16.size a ≤ S64x512.size a
  k0_off110_inb : ∀ k0_t4 : Fin k0_t4_loop.trips, ∀ a, (k0_off110 k0_t4) a + S1x16.size a ≤ S64x512.size a
  k0_off111_inb : ∀ k0_t4 : Fin k0_t4_loop.trips, ∀ a, (k0_off111 k0_t4) a + S1x16.size a ≤ S64x512.size a
  k0_off112_inb : ∀ k0_t4 : Fin k0_t4_loop.trips, ∀ a, (k0_off112 k0_t4) a + S1x16.size a ≤ S64x512.size a
  k0_off113_inb : ∀ k0_t4 : Fin k0_t4_loop.trips, ∀ a, (k0_off113 k0_t4) a + S1x16.size a ≤ S64x512.size a
  k0_off114_inb : ∀ k0_t4 : Fin k0_t4_loop.trips, ∀ a, (k0_off114 k0_t4) a + S1x16.size a ≤ S64x512.size a
  k0_off115_inb : ∀ k0_t4 : Fin k0_t4_loop.trips, ∀ a, (k0_off115 k0_t4) a + S1x16.size a ≤ S64x512.size a
  k0_off116_inb : ∀ k0_t4 : Fin k0_t4_loop.trips, ∀ a, (k0_off116 k0_t4) a + S1x16.size a ≤ S64x512.size a
  k0_off117_inb : ∀ k0_t4 : Fin k0_t4_loop.trips, ∀ a, (k0_off117 k0_t4) a + S1x16.size a ≤ S64x512.size a
  k0_off118_inb : ∀ k0_t4 : Fin k0_t4_loop.trips, ∀ a, (k0_off118 k0_t4) a + S1x16.size a ≤ S64x512.size a
  k0_off119_inb : ∀ k0_t4 : Fin k0_t4_loop.trips, ∀ a, (k0_off119 k0_t4) a + S1x16.size a ≤ S64x512.size a
  k0_off120_inb : ∀ k0_t4 : Fin k0_t4_loop.trips, ∀ a, (k0_off120 k0_t4) a + S1x16.size a ≤ S64x512.size a
  k0_off121_inb : ∀ k0_t4 : Fin k0_t4_loop.trips, ∀ a, (k0_off121 k0_t4) a + S1x16.size a ≤ S64x512.size a
  k0_off122_inb : ∀ k0_t4 : Fin k0_t4_loop.trips, ∀ a, (k0_off122 k0_t4) a + S1x16.size a ≤ S64x512.size a
  k0_off123_inb : ∀ k0_t4 : Fin k0_t4_loop.trips, ∀ a, (k0_off123 k0_t4) a + S1x16.size a ≤ S64x512.size a
  k0_off124_inb : ∀ k0_t4 : Fin k0_t4_loop.trips, ∀ a, (k0_off124 k0_t4) a + S1x16.size a ≤ S64x512.size a
  k0_off125_inb : ∀ k0_t4 : Fin k0_t4_loop.trips, ∀ a, (k0_off125 k0_t4) a + S1x16.size a ≤ S64x512.size a
  k0_off126_inb : ∀ k0_t4 : Fin k0_t4_loop.trips, ∀ a, (k0_off126 k0_t4) a + S1x16.size a ≤ S64x512.size a
  k0_off127_inb : ∀ k0_t4 : Fin k0_t4_loop.trips, ∀ a, (k0_off127 k0_t4) a + S1x16.size a ≤ S64x512.size a
  k0_off128_inb : ∀ k0_t4 : Fin k0_t4_loop.trips, ∀ a, (k0_off128 k0_t4) a + S1x16.size a ≤ S64x512.size a
  k0_off129_inb : ∀ k0_t4 : Fin k0_t4_loop.trips, ∀ a, (k0_off129 k0_t4) a + S1x16.size a ≤ S64x512.size a
  k0_off130_inb : ∀ k0_t4 : Fin k0_t4_loop.trips, ∀ a, (k0_off130 k0_t4) a + S1x16.size a ≤ S64x512.size a
  k0_mult1_dvd : ∀ i : grid0.Coords, 8 ∣ (k0_mult1 i).toNat
  k0_off131_inb : ∀ i : grid0.Coords, ∀ (r : Fin 7), ∀ a, (k0_off131 i (BitVec.ofNat 32 (8 * r.val))) a + S512.size a ≤ S114688.size a
  k0_t5_ok : k0_t5_loop.OK
  k0_off132_inb : ∀ k0_t5 : Fin k0_t5_loop.trips, ∀ a, (k0_off132 k0_t5) a + S1x16.size a ≤ S64x512.size a
  k0_off133_inb : ∀ k0_t5 : Fin k0_t5_loop.trips, ∀ a, (k0_off133 k0_t5) a + S1x16.size a ≤ S64x512.size a
  k0_off134_inb : ∀ k0_t5 : Fin k0_t5_loop.trips, ∀ a, (k0_off134 k0_t5) a + S1x16.size a ≤ S64x512.size a
  k0_off135_inb : ∀ k0_t5 : Fin k0_t5_loop.trips, ∀ a, (k0_off135 k0_t5) a + S1x16.size a ≤ S64x512.size a
  k0_off136_inb : ∀ k0_t5 : Fin k0_t5_loop.trips, ∀ a, (k0_off136 k0_t5) a + S1x16.size a ≤ S64x512.size a
  k0_off137_inb : ∀ k0_t5 : Fin k0_t5_loop.trips, ∀ a, (k0_off137 k0_t5) a + S1x16.size a ≤ S64x512.size a
  k0_off138_inb : ∀ k0_t5 : Fin k0_t5_loop.trips, ∀ a, (k0_off138 k0_t5) a + S1x16.size a ≤ S64x512.size a
  k0_off139_inb : ∀ k0_t5 : Fin k0_t5_loop.trips, ∀ a, (k0_off139 k0_t5) a + S1x16.size a ≤ S64x512.size a
  k0_off140_inb : ∀ k0_t5 : Fin k0_t5_loop.trips, ∀ a, (k0_off140 k0_t5) a + S1x16.size a ≤ S64x512.size a
  k0_off141_inb : ∀ k0_t5 : Fin k0_t5_loop.trips, ∀ a, (k0_off141 k0_t5) a + S1x16.size a ≤ S64x512.size a
  k0_off142_inb : ∀ k0_t5 : Fin k0_t5_loop.trips, ∀ a, (k0_off142 k0_t5) a + S1x16.size a ≤ S64x512.size a
  k0_off143_inb : ∀ k0_t5 : Fin k0_t5_loop.trips, ∀ a, (k0_off143 k0_t5) a + S1x16.size a ≤ S64x512.size a
  k0_off144_inb : ∀ k0_t5 : Fin k0_t5_loop.trips, ∀ a, (k0_off144 k0_t5) a + S1x16.size a ≤ S64x512.size a
  k0_off145_inb : ∀ k0_t5 : Fin k0_t5_loop.trips, ∀ a, (k0_off145 k0_t5) a + S1x16.size a ≤ S64x512.size a
  k0_off146_inb : ∀ k0_t5 : Fin k0_t5_loop.trips, ∀ a, (k0_off146 k0_t5) a + S1x16.size a ≤ S64x512.size a
  k0_off147_inb : ∀ k0_t5 : Fin k0_t5_loop.trips, ∀ a, (k0_off147 k0_t5) a + S1x16.size a ≤ S64x512.size a
  k0_off148_inb : ∀ k0_t5 : Fin k0_t5_loop.trips, ∀ a, (k0_off148 k0_t5) a + S1x16.size a ≤ S64x512.size a
  k0_off149_inb : ∀ k0_t5 : Fin k0_t5_loop.trips, ∀ a, (k0_off149 k0_t5) a + S1x16.size a ≤ S64x512.size a
  k0_off150_inb : ∀ k0_t5 : Fin k0_t5_loop.trips, ∀ a, (k0_off150 k0_t5) a + S1x16.size a ≤ S64x512.size a
  k0_off151_inb : ∀ k0_t5 : Fin k0_t5_loop.trips, ∀ a, (k0_off151 k0_t5) a + S1x16.size a ≤ S64x512.size a
  k0_off152_inb : ∀ k0_t5 : Fin k0_t5_loop.trips, ∀ a, (k0_off152 k0_t5) a + S1x16.size a ≤ S64x512.size a
  k0_off153_inb : ∀ k0_t5 : Fin k0_t5_loop.trips, ∀ a, (k0_off153 k0_t5) a + S1x16.size a ≤ S64x512.size a
  k0_off154_inb : ∀ k0_t5 : Fin k0_t5_loop.trips, ∀ a, (k0_off154 k0_t5) a + S1x16.size a ≤ S64x512.size a
  k0_off155_inb : ∀ k0_t5 : Fin k0_t5_loop.trips, ∀ a, (k0_off155 k0_t5) a + S1x16.size a ≤ S64x512.size a
  k0_off156_inb : ∀ k0_t5 : Fin k0_t5_loop.trips, ∀ a, (k0_off156 k0_t5) a + S1x16.size a ≤ S64x512.size a
  k0_off157_inb : ∀ k0_t5 : Fin k0_t5_loop.trips, ∀ a, (k0_off157 k0_t5) a + S1x16.size a ≤ S64x512.size a
  k0_off158_inb : ∀ k0_t5 : Fin k0_t5_loop.trips, ∀ a, (k0_off158 k0_t5) a + S1x16.size a ≤ S64x512.size a
  k0_off159_inb : ∀ k0_t5 : Fin k0_t5_loop.trips, ∀ a, (k0_off159 k0_t5) a + S1x16.size a ≤ S64x512.size a
  k0_off160_inb : ∀ k0_t5 : Fin k0_t5_loop.trips, ∀ a, (k0_off160 k0_t5) a + S1x16.size a ≤ S64x512.size a
  k0_off161_inb : ∀ k0_t5 : Fin k0_t5_loop.trips, ∀ a, (k0_off161 k0_t5) a + S1x16.size a ≤ S64x512.size a
  k0_off162_inb : ∀ k0_t5 : Fin k0_t5_loop.trips, ∀ a, (k0_off162 k0_t5) a + S1x16.size a ≤ S64x512.size a
  k0_off163_inb : ∀ k0_t5 : Fin k0_t5_loop.trips, ∀ a, (k0_off163 k0_t5) a + S1x16.size a ≤ S64x512.size a
  k0_t6_ok : k0_t6_loop.OK
  k0_off164_inb : ∀ k0_t6 : Fin k0_t6_loop.trips, ∀ a, (k0_off164 k0_t6) a + S1x16.size a ≤ S64x512.size a
  k0_off165_inb : ∀ k0_t6 : Fin k0_t6_loop.trips, ∀ a, (k0_off165 k0_t6) a + S1x16.size a ≤ S64x512.size a
  k0_off166_inb : ∀ k0_t6 : Fin k0_t6_loop.trips, ∀ a, (k0_off166 k0_t6) a + S1x16.size a ≤ S64x512.size a
  k0_off167_inb : ∀ k0_t6 : Fin k0_t6_loop.trips, ∀ a, (k0_off167 k0_t6) a + S1x16.size a ≤ S64x512.size a
  k0_off168_inb : ∀ k0_t6 : Fin k0_t6_loop.trips, ∀ a, (k0_off168 k0_t6) a + S1x16.size a ≤ S64x512.size a
  k0_off169_inb : ∀ k0_t6 : Fin k0_t6_loop.trips, ∀ a, (k0_off169 k0_t6) a + S1x16.size a ≤ S64x512.size a
  k0_off170_inb : ∀ k0_t6 : Fin k0_t6_loop.trips, ∀ a, (k0_off170 k0_t6) a + S1x16.size a ≤ S64x512.size a
  k0_off171_inb : ∀ k0_t6 : Fin k0_t6_loop.trips, ∀ a, (k0_off171 k0_t6) a + S1x16.size a ≤ S64x512.size a
  k0_off172_inb : ∀ k0_t6 : Fin k0_t6_loop.trips, ∀ a, (k0_off172 k0_t6) a + S1x16.size a ≤ S64x512.size a
  k0_off173_inb : ∀ k0_t6 : Fin k0_t6_loop.trips, ∀ a, (k0_off173 k0_t6) a + S1x16.size a ≤ S64x512.size a
  k0_off174_inb : ∀ k0_t6 : Fin k0_t6_loop.trips, ∀ a, (k0_off174 k0_t6) a + S1x16.size a ≤ S64x512.size a
  k0_off175_inb : ∀ k0_t6 : Fin k0_t6_loop.trips, ∀ a, (k0_off175 k0_t6) a + S1x16.size a ≤ S64x512.size a
  k0_off176_inb : ∀ k0_t6 : Fin k0_t6_loop.trips, ∀ a, (k0_off176 k0_t6) a + S1x16.size a ≤ S64x512.size a
  k0_off177_inb : ∀ k0_t6 : Fin k0_t6_loop.trips, ∀ a, (k0_off177 k0_t6) a + S1x16.size a ≤ S64x512.size a
  k0_off178_inb : ∀ k0_t6 : Fin k0_t6_loop.trips, ∀ a, (k0_off178 k0_t6) a + S1x16.size a ≤ S64x512.size a
  k0_off179_inb : ∀ k0_t6 : Fin k0_t6_loop.trips, ∀ a, (k0_off179 k0_t6) a + S1x16.size a ≤ S64x512.size a
  k0_off180_inb : ∀ k0_t6 : Fin k0_t6_loop.trips, ∀ a, (k0_off180 k0_t6) a + S1x16.size a ≤ S64x512.size a
  k0_off181_inb : ∀ k0_t6 : Fin k0_t6_loop.trips, ∀ a, (k0_off181 k0_t6) a + S1x16.size a ≤ S64x512.size a
  k0_off182_inb : ∀ k0_t6 : Fin k0_t6_loop.trips, ∀ a, (k0_off182 k0_t6) a + S1x16.size a ≤ S64x512.size a
  k0_off183_inb : ∀ k0_t6 : Fin k0_t6_loop.trips, ∀ a, (k0_off183 k0_t6) a + S1x16.size a ≤ S64x512.size a
  k0_off184_inb : ∀ k0_t6 : Fin k0_t6_loop.trips, ∀ a, (k0_off184 k0_t6) a + S1x16.size a ≤ S64x512.size a
  k0_off185_inb : ∀ k0_t6 : Fin k0_t6_loop.trips, ∀ a, (k0_off185 k0_t6) a + S1x16.size a ≤ S64x512.size a
  k0_off186_inb : ∀ k0_t6 : Fin k0_t6_loop.trips, ∀ a, (k0_off186 k0_t6) a + S1x16.size a ≤ S64x512.size a
  k0_off187_inb : ∀ k0_t6 : Fin k0_t6_loop.trips, ∀ a, (k0_off187 k0_t6) a + S1x16.size a ≤ S64x512.size a
  k0_off188_inb : ∀ k0_t6 : Fin k0_t6_loop.trips, ∀ a, (k0_off188 k0_t6) a + S1x16.size a ≤ S64x512.size a
  k0_off189_inb : ∀ k0_t6 : Fin k0_t6_loop.trips, ∀ a, (k0_off189 k0_t6) a + S1x16.size a ≤ S64x512.size a
  k0_off190_inb : ∀ k0_t6 : Fin k0_t6_loop.trips, ∀ a, (k0_off190 k0_t6) a + S1x16.size a ≤ S64x512.size a
  k0_off191_inb : ∀ k0_t6 : Fin k0_t6_loop.trips, ∀ a, (k0_off191 k0_t6) a + S1x16.size a ≤ S64x512.size a
  k0_off192_inb : ∀ k0_t6 : Fin k0_t6_loop.trips, ∀ a, (k0_off192 k0_t6) a + S1x16.size a ≤ S64x512.size a
  k0_off193_inb : ∀ k0_t6 : Fin k0_t6_loop.trips, ∀ a, (k0_off193 k0_t6) a + S1x16.size a ≤ S64x512.size a
  k0_off194_inb : ∀ k0_t6 : Fin k0_t6_loop.trips, ∀ a, (k0_off194 k0_t6) a + S1x16.size a ≤ S64x512.size a
  k0_off195_inb : ∀ k0_t6 : Fin k0_t6_loop.trips, ∀ a, (k0_off195 k0_t6) a + S1x16.size a ≤ S64x512.size a
  k0_t7_ok : k0_t7_loop.OK
  k0_off196_inb : ∀ k0_t7 : Fin k0_t7_loop.trips, ∀ a, (k0_off196 k0_t7) a + S1x16.size a ≤ S64x512.size a
  k0_off197_inb : ∀ k0_t7 : Fin k0_t7_loop.trips, ∀ a, (k0_off197 k0_t7) a + S1x16.size a ≤ S64x512.size a
  k0_off198_inb : ∀ k0_t7 : Fin k0_t7_loop.trips, ∀ a, (k0_off198 k0_t7) a + S1x16.size a ≤ S64x512.size a
  k0_off199_inb : ∀ k0_t7 : Fin k0_t7_loop.trips, ∀ a, (k0_off199 k0_t7) a + S1x16.size a ≤ S64x512.size a
  k0_off200_inb : ∀ k0_t7 : Fin k0_t7_loop.trips, ∀ a, (k0_off200 k0_t7) a + S1x16.size a ≤ S64x512.size a
  k0_off201_inb : ∀ k0_t7 : Fin k0_t7_loop.trips, ∀ a, (k0_off201 k0_t7) a + S1x16.size a ≤ S64x512.size a
  k0_off202_inb : ∀ k0_t7 : Fin k0_t7_loop.trips, ∀ a, (k0_off202 k0_t7) a + S1x16.size a ≤ S64x512.size a
  k0_off203_inb : ∀ k0_t7 : Fin k0_t7_loop.trips, ∀ a, (k0_off203 k0_t7) a + S1x16.size a ≤ S64x512.size a
  k0_off204_inb : ∀ k0_t7 : Fin k0_t7_loop.trips, ∀ a, (k0_off204 k0_t7) a + S1x16.size a ≤ S64x512.size a
  k0_off205_inb : ∀ k0_t7 : Fin k0_t7_loop.trips, ∀ a, (k0_off205 k0_t7) a + S1x16.size a ≤ S64x512.size a
  k0_off206_inb : ∀ k0_t7 : Fin k0_t7_loop.trips, ∀ a, (k0_off206 k0_t7) a + S1x16.size a ≤ S64x512.size a
  k0_off207_inb : ∀ k0_t7 : Fin k0_t7_loop.trips, ∀ a, (k0_off207 k0_t7) a + S1x16.size a ≤ S64x512.size a
  k0_off208_inb : ∀ k0_t7 : Fin k0_t7_loop.trips, ∀ a, (k0_off208 k0_t7) a + S1x16.size a ≤ S64x512.size a
  k0_off209_inb : ∀ k0_t7 : Fin k0_t7_loop.trips, ∀ a, (k0_off209 k0_t7) a + S1x16.size a ≤ S64x512.size a
  k0_off210_inb : ∀ k0_t7 : Fin k0_t7_loop.trips, ∀ a, (k0_off210 k0_t7) a + S1x16.size a ≤ S64x512.size a
  k0_off211_inb : ∀ k0_t7 : Fin k0_t7_loop.trips, ∀ a, (k0_off211 k0_t7) a + S1x16.size a ≤ S64x512.size a
  k0_off212_inb : ∀ k0_t7 : Fin k0_t7_loop.trips, ∀ a, (k0_off212 k0_t7) a + S1x16.size a ≤ S64x512.size a
  k0_off213_inb : ∀ k0_t7 : Fin k0_t7_loop.trips, ∀ a, (k0_off213 k0_t7) a + S1x16.size a ≤ S64x512.size a
  k0_off214_inb : ∀ k0_t7 : Fin k0_t7_loop.trips, ∀ a, (k0_off214 k0_t7) a + S1x16.size a ≤ S64x512.size a
  k0_off215_inb : ∀ k0_t7 : Fin k0_t7_loop.trips, ∀ a, (k0_off215 k0_t7) a + S1x16.size a ≤ S64x512.size a
  k0_off216_inb : ∀ k0_t7 : Fin k0_t7_loop.trips, ∀ a, (k0_off216 k0_t7) a + S1x16.size a ≤ S64x512.size a
  k0_off217_inb : ∀ k0_t7 : Fin k0_t7_loop.trips, ∀ a, (k0_off217 k0_t7) a + S1x16.size a ≤ S64x512.size a
  k0_off218_inb : ∀ k0_t7 : Fin k0_t7_loop.trips, ∀ a, (k0_off218 k0_t7) a + S1x16.size a ≤ S64x512.size a
  k0_off219_inb : ∀ k0_t7 : Fin k0_t7_loop.trips, ∀ a, (k0_off219 k0_t7) a + S1x16.size a ≤ S64x512.size a
  k0_off220_inb : ∀ k0_t7 : Fin k0_t7_loop.trips, ∀ a, (k0_off220 k0_t7) a + S1x16.size a ≤ S64x512.size a
  k0_off221_inb : ∀ k0_t7 : Fin k0_t7_loop.trips, ∀ a, (k0_off221 k0_t7) a + S1x16.size a ≤ S64x512.size a
  k0_off222_inb : ∀ k0_t7 : Fin k0_t7_loop.trips, ∀ a, (k0_off222 k0_t7) a + S1x16.size a ≤ S64x512.size a
  k0_off223_inb : ∀ k0_t7 : Fin k0_t7_loop.trips, ∀ a, (k0_off223 k0_t7) a + S1x16.size a ≤ S64x512.size a
  k0_off224_inb : ∀ k0_t7 : Fin k0_t7_loop.trips, ∀ a, (k0_off224 k0_t7) a + S1x16.size a ≤ S64x512.size a
  k0_off225_inb : ∀ k0_t7 : Fin k0_t7_loop.trips, ∀ a, (k0_off225 k0_t7) a + S1x16.size a ≤ S64x512.size a
  k0_off226_inb : ∀ k0_t7 : Fin k0_t7_loop.trips, ∀ a, (k0_off226 k0_t7) a + S1x16.size a ≤ S64x512.size a
  k0_off227_inb : ∀ k0_t7 : Fin k0_t7_loop.trips, ∀ a, (k0_off227 k0_t7) a + S1x16.size a ≤ S64x512.size a
  k0_off228_inb : ∀ i : grid0.Coords, ∀ (r : Fin 4), ∀ a, (k0_off228 i (BitVec.ofNat 32 (64 * r.val))) a + S1x64x512.size a ≤ S16x2048x2048.size a
  k0_t8_ok : k0_t8_loop.OK
  k0_off229_inb : ∀ k0_t8 : Fin k0_t8_loop.trips, ∀ a, (k0_off229 k0_t8) a + S1x16.size a ≤ S64x512.size a
  k0_off230_inb : ∀ k0_t8 : Fin k0_t8_loop.trips, ∀ a, (k0_off230 k0_t8) a + S1x16.size a ≤ S64x512.size a
  k0_off231_inb : ∀ k0_t8 : Fin k0_t8_loop.trips, ∀ a, (k0_off231 k0_t8) a + S1x16.size a ≤ S64x512.size a
  k0_off232_inb : ∀ k0_t8 : Fin k0_t8_loop.trips, ∀ a, (k0_off232 k0_t8) a + S1x16.size a ≤ S64x512.size a
  k0_off233_inb : ∀ k0_t8 : Fin k0_t8_loop.trips, ∀ a, (k0_off233 k0_t8) a + S1x16.size a ≤ S64x512.size a
  k0_off234_inb : ∀ k0_t8 : Fin k0_t8_loop.trips, ∀ a, (k0_off234 k0_t8) a + S1x16.size a ≤ S64x512.size a
  k0_off235_inb : ∀ k0_t8 : Fin k0_t8_loop.trips, ∀ a, (k0_off235 k0_t8) a + S1x16.size a ≤ S64x512.size a
  k0_off236_inb : ∀ k0_t8 : Fin k0_t8_loop.trips, ∀ a, (k0_off236 k0_t8) a + S1x16.size a ≤ S64x512.size a
  k0_off237_inb : ∀ k0_t8 : Fin k0_t8_loop.trips, ∀ a, (k0_off237 k0_t8) a + S1x16.size a ≤ S64x512.size a
  k0_off238_inb : ∀ k0_t8 : Fin k0_t8_loop.trips, ∀ a, (k0_off238 k0_t8) a + S1x16.size a ≤ S64x512.size a
  k0_off239_inb : ∀ k0_t8 : Fin k0_t8_loop.trips, ∀ a, (k0_off239 k0_t8) a + S1x16.size a ≤ S64x512.size a
  k0_off240_inb : ∀ k0_t8 : Fin k0_t8_loop.trips, ∀ a, (k0_off240 k0_t8) a + S1x16.size a ≤ S64x512.size a
  k0_off241_inb : ∀ k0_t8 : Fin k0_t8_loop.trips, ∀ a, (k0_off241 k0_t8) a + S1x16.size a ≤ S64x512.size a
  k0_off242_inb : ∀ k0_t8 : Fin k0_t8_loop.trips, ∀ a, (k0_off242 k0_t8) a + S1x16.size a ≤ S64x512.size a
  k0_off243_inb : ∀ k0_t8 : Fin k0_t8_loop.trips, ∀ a, (k0_off243 k0_t8) a + S1x16.size a ≤ S64x512.size a
  k0_off244_inb : ∀ k0_t8 : Fin k0_t8_loop.trips, ∀ a, (k0_off244 k0_t8) a + S1x16.size a ≤ S64x512.size a
  k0_off245_inb : ∀ k0_t8 : Fin k0_t8_loop.trips, ∀ a, (k0_off245 k0_t8) a + S1x16.size a ≤ S64x512.size a
  k0_off246_inb : ∀ k0_t8 : Fin k0_t8_loop.trips, ∀ a, (k0_off246 k0_t8) a + S1x16.size a ≤ S64x512.size a
  k0_off247_inb : ∀ k0_t8 : Fin k0_t8_loop.trips, ∀ a, (k0_off247 k0_t8) a + S1x16.size a ≤ S64x512.size a
  k0_off248_inb : ∀ k0_t8 : Fin k0_t8_loop.trips, ∀ a, (k0_off248 k0_t8) a + S1x16.size a ≤ S64x512.size a
  k0_off249_inb : ∀ k0_t8 : Fin k0_t8_loop.trips, ∀ a, (k0_off249 k0_t8) a + S1x16.size a ≤ S64x512.size a
  k0_off250_inb : ∀ k0_t8 : Fin k0_t8_loop.trips, ∀ a, (k0_off250 k0_t8) a + S1x16.size a ≤ S64x512.size a
  k0_off251_inb : ∀ k0_t8 : Fin k0_t8_loop.trips, ∀ a, (k0_off251 k0_t8) a + S1x16.size a ≤ S64x512.size a
  k0_off252_inb : ∀ k0_t8 : Fin k0_t8_loop.trips, ∀ a, (k0_off252 k0_t8) a + S1x16.size a ≤ S64x512.size a
  k0_off253_inb : ∀ k0_t8 : Fin k0_t8_loop.trips, ∀ a, (k0_off253 k0_t8) a + S1x16.size a ≤ S64x512.size a
  k0_off254_inb : ∀ k0_t8 : Fin k0_t8_loop.trips, ∀ a, (k0_off254 k0_t8) a + S1x16.size a ≤ S64x512.size a
  k0_off255_inb : ∀ k0_t8 : Fin k0_t8_loop.trips, ∀ a, (k0_off255 k0_t8) a + S1x16.size a ≤ S64x512.size a
  k0_off256_inb : ∀ k0_t8 : Fin k0_t8_loop.trips, ∀ a, (k0_off256 k0_t8) a + S1x16.size a ≤ S64x512.size a
  k0_off257_inb : ∀ k0_t8 : Fin k0_t8_loop.trips, ∀ a, (k0_off257 k0_t8) a + S1x16.size a ≤ S64x512.size a
  k0_off258_inb : ∀ k0_t8 : Fin k0_t8_loop.trips, ∀ a, (k0_off258 k0_t8) a + S1x16.size a ≤ S64x512.size a
  k0_off259_inb : ∀ k0_t8 : Fin k0_t8_loop.trips, ∀ a, (k0_off259 k0_t8) a + S1x16.size a ≤ S64x512.size a
  k0_off260_inb : ∀ k0_t8 : Fin k0_t8_loop.trips, ∀ a, (k0_off260 k0_t8) a + S1x16.size a ≤ S64x512.size a
  k0_mult2_dvd : ∀ i : grid0.Coords, 8 ∣ (k0_mult2 i).toNat
  k0_t9_ok : k0_t9_loop.OK
  k0_off261_inb : ∀ k0_t9 : Fin k0_t9_loop.trips, ∀ a, (k0_off261 k0_t9) a + S1x16.size a ≤ S64x512.size a
  k0_off262_inb : ∀ k0_t9 : Fin k0_t9_loop.trips, ∀ a, (k0_off262 k0_t9) a + S1x16.size a ≤ S64x512.size a
  k0_off263_inb : ∀ k0_t9 : Fin k0_t9_loop.trips, ∀ a, (k0_off263 k0_t9) a + S1x16.size a ≤ S64x512.size a
  k0_off264_inb : ∀ k0_t9 : Fin k0_t9_loop.trips, ∀ a, (k0_off264 k0_t9) a + S1x16.size a ≤ S64x512.size a
  k0_off265_inb : ∀ k0_t9 : Fin k0_t9_loop.trips, ∀ a, (k0_off265 k0_t9) a + S1x16.size a ≤ S64x512.size a
  k0_off266_inb : ∀ k0_t9 : Fin k0_t9_loop.trips, ∀ a, (k0_off266 k0_t9) a + S1x16.size a ≤ S64x512.size a
  k0_off267_inb : ∀ k0_t9 : Fin k0_t9_loop.trips, ∀ a, (k0_off267 k0_t9) a + S1x16.size a ≤ S64x512.size a
  k0_off268_inb : ∀ k0_t9 : Fin k0_t9_loop.trips, ∀ a, (k0_off268 k0_t9) a + S1x16.size a ≤ S64x512.size a
  k0_off269_inb : ∀ k0_t9 : Fin k0_t9_loop.trips, ∀ a, (k0_off269 k0_t9) a + S1x16.size a ≤ S64x512.size a
  k0_off270_inb : ∀ k0_t9 : Fin k0_t9_loop.trips, ∀ a, (k0_off270 k0_t9) a + S1x16.size a ≤ S64x512.size a
  k0_off271_inb : ∀ k0_t9 : Fin k0_t9_loop.trips, ∀ a, (k0_off271 k0_t9) a + S1x16.size a ≤ S64x512.size a
  k0_off272_inb : ∀ k0_t9 : Fin k0_t9_loop.trips, ∀ a, (k0_off272 k0_t9) a + S1x16.size a ≤ S64x512.size a
  k0_off273_inb : ∀ k0_t9 : Fin k0_t9_loop.trips, ∀ a, (k0_off273 k0_t9) a + S1x16.size a ≤ S64x512.size a
  k0_off274_inb : ∀ k0_t9 : Fin k0_t9_loop.trips, ∀ a, (k0_off274 k0_t9) a + S1x16.size a ≤ S64x512.size a
  k0_off275_inb : ∀ k0_t9 : Fin k0_t9_loop.trips, ∀ a, (k0_off275 k0_t9) a + S1x16.size a ≤ S64x512.size a
  k0_off276_inb : ∀ k0_t9 : Fin k0_t9_loop.trips, ∀ a, (k0_off276 k0_t9) a + S1x16.size a ≤ S64x512.size a
  k0_off277_inb : ∀ k0_t9 : Fin k0_t9_loop.trips, ∀ a, (k0_off277 k0_t9) a + S1x16.size a ≤ S64x512.size a
  k0_off278_inb : ∀ k0_t9 : Fin k0_t9_loop.trips, ∀ a, (k0_off278 k0_t9) a + S1x16.size a ≤ S64x512.size a
  k0_off279_inb : ∀ k0_t9 : Fin k0_t9_loop.trips, ∀ a, (k0_off279 k0_t9) a + S1x16.size a ≤ S64x512.size a
  k0_off280_inb : ∀ k0_t9 : Fin k0_t9_loop.trips, ∀ a, (k0_off280 k0_t9) a + S1x16.size a ≤ S64x512.size a
  k0_off281_inb : ∀ k0_t9 : Fin k0_t9_loop.trips, ∀ a, (k0_off281 k0_t9) a + S1x16.size a ≤ S64x512.size a
  k0_off282_inb : ∀ k0_t9 : Fin k0_t9_loop.trips, ∀ a, (k0_off282 k0_t9) a + S1x16.size a ≤ S64x512.size a
  k0_off283_inb : ∀ k0_t9 : Fin k0_t9_loop.trips, ∀ a, (k0_off283 k0_t9) a + S1x16.size a ≤ S64x512.size a
  k0_off284_inb : ∀ k0_t9 : Fin k0_t9_loop.trips, ∀ a, (k0_off284 k0_t9) a + S1x16.size a ≤ S64x512.size a
  k0_off285_inb : ∀ k0_t9 : Fin k0_t9_loop.trips, ∀ a, (k0_off285 k0_t9) a + S1x16.size a ≤ S64x512.size a
  k0_off286_inb : ∀ k0_t9 : Fin k0_t9_loop.trips, ∀ a, (k0_off286 k0_t9) a + S1x16.size a ≤ S64x512.size a
  k0_off287_inb : ∀ k0_t9 : Fin k0_t9_loop.trips, ∀ a, (k0_off287 k0_t9) a + S1x16.size a ≤ S64x512.size a
  k0_off288_inb : ∀ k0_t9 : Fin k0_t9_loop.trips, ∀ a, (k0_off288 k0_t9) a + S1x16.size a ≤ S64x512.size a
  k0_off289_inb : ∀ k0_t9 : Fin k0_t9_loop.trips, ∀ a, (k0_off289 k0_t9) a + S1x16.size a ≤ S64x512.size a
  k0_off290_inb : ∀ k0_t9 : Fin k0_t9_loop.trips, ∀ a, (k0_off290 k0_t9) a + S1x16.size a ≤ S64x512.size a
  k0_off291_inb : ∀ k0_t9 : Fin k0_t9_loop.trips, ∀ a, (k0_off291 k0_t9) a + S1x16.size a ≤ S64x512.size a
  k0_off292_inb : ∀ k0_t9 : Fin k0_t9_loop.trips, ∀ a, (k0_off292 k0_t9) a + S1x16.size a ≤ S64x512.size a
  k0_t10_ok : k0_t10_loop.OK
  k0_off293_inb : ∀ k0_t10 : Fin k0_t10_loop.trips, ∀ a, (k0_off293 k0_t10) a + S1x16.size a ≤ S64x512.size a
  k0_off294_inb : ∀ k0_t10 : Fin k0_t10_loop.trips, ∀ a, (k0_off294 k0_t10) a + S1x16.size a ≤ S64x512.size a
  k0_off295_inb : ∀ k0_t10 : Fin k0_t10_loop.trips, ∀ a, (k0_off295 k0_t10) a + S1x16.size a ≤ S64x512.size a
  k0_off296_inb : ∀ k0_t10 : Fin k0_t10_loop.trips, ∀ a, (k0_off296 k0_t10) a + S1x16.size a ≤ S64x512.size a
  k0_off297_inb : ∀ k0_t10 : Fin k0_t10_loop.trips, ∀ a, (k0_off297 k0_t10) a + S1x16.size a ≤ S64x512.size a
  k0_off298_inb : ∀ k0_t10 : Fin k0_t10_loop.trips, ∀ a, (k0_off298 k0_t10) a + S1x16.size a ≤ S64x512.size a
  k0_off299_inb : ∀ k0_t10 : Fin k0_t10_loop.trips, ∀ a, (k0_off299 k0_t10) a + S1x16.size a ≤ S64x512.size a
  k0_off300_inb : ∀ k0_t10 : Fin k0_t10_loop.trips, ∀ a, (k0_off300 k0_t10) a + S1x16.size a ≤ S64x512.size a
  k0_off301_inb : ∀ k0_t10 : Fin k0_t10_loop.trips, ∀ a, (k0_off301 k0_t10) a + S1x16.size a ≤ S64x512.size a
  k0_off302_inb : ∀ k0_t10 : Fin k0_t10_loop.trips, ∀ a, (k0_off302 k0_t10) a + S1x16.size a ≤ S64x512.size a
  k0_off303_inb : ∀ k0_t10 : Fin k0_t10_loop.trips, ∀ a, (k0_off303 k0_t10) a + S1x16.size a ≤ S64x512.size a
  k0_off304_inb : ∀ k0_t10 : Fin k0_t10_loop.trips, ∀ a, (k0_off304 k0_t10) a + S1x16.size a ≤ S64x512.size a
  k0_off305_inb : ∀ k0_t10 : Fin k0_t10_loop.trips, ∀ a, (k0_off305 k0_t10) a + S1x16.size a ≤ S64x512.size a
  k0_off306_inb : ∀ k0_t10 : Fin k0_t10_loop.trips, ∀ a, (k0_off306 k0_t10) a + S1x16.size a ≤ S64x512.size a
  k0_off307_inb : ∀ k0_t10 : Fin k0_t10_loop.trips, ∀ a, (k0_off307 k0_t10) a + S1x16.size a ≤ S64x512.size a
  k0_off308_inb : ∀ k0_t10 : Fin k0_t10_loop.trips, ∀ a, (k0_off308 k0_t10) a + S1x16.size a ≤ S64x512.size a
  k0_off309_inb : ∀ k0_t10 : Fin k0_t10_loop.trips, ∀ a, (k0_off309 k0_t10) a + S1x16.size a ≤ S64x512.size a
  k0_off310_inb : ∀ k0_t10 : Fin k0_t10_loop.trips, ∀ a, (k0_off310 k0_t10) a + S1x16.size a ≤ S64x512.size a
  k0_off311_inb : ∀ k0_t10 : Fin k0_t10_loop.trips, ∀ a, (k0_off311 k0_t10) a + S1x16.size a ≤ S64x512.size a
  k0_off312_inb : ∀ k0_t10 : Fin k0_t10_loop.trips, ∀ a, (k0_off312 k0_t10) a + S1x16.size a ≤ S64x512.size a
  k0_off313_inb : ∀ k0_t10 : Fin k0_t10_loop.trips, ∀ a, (k0_off313 k0_t10) a + S1x16.size a ≤ S64x512.size a
  k0_off314_inb : ∀ k0_t10 : Fin k0_t10_loop.trips, ∀ a, (k0_off314 k0_t10) a + S1x16.size a ≤ S64x512.size a
  k0_off315_inb : ∀ k0_t10 : Fin k0_t10_loop.trips, ∀ a, (k0_off315 k0_t10) a + S1x16.size a ≤ S64x512.size a
  k0_off316_inb : ∀ k0_t10 : Fin k0_t10_loop.trips, ∀ a, (k0_off316 k0_t10) a + S1x16.size a ≤ S64x512.size a
  k0_off317_inb : ∀ k0_t10 : Fin k0_t10_loop.trips, ∀ a, (k0_off317 k0_t10) a + S1x16.size a ≤ S64x512.size a
  k0_off318_inb : ∀ k0_t10 : Fin k0_t10_loop.trips, ∀ a, (k0_off318 k0_t10) a + S1x16.size a ≤ S64x512.size a
  k0_off319_inb : ∀ k0_t10 : Fin k0_t10_loop.trips, ∀ a, (k0_off319 k0_t10) a + S1x16.size a ≤ S64x512.size a
  k0_off320_inb : ∀ k0_t10 : Fin k0_t10_loop.trips, ∀ a, (k0_off320 k0_t10) a + S1x16.size a ≤ S64x512.size a
  k0_off321_inb : ∀ k0_t10 : Fin k0_t10_loop.trips, ∀ a, (k0_off321 k0_t10) a + S1x16.size a ≤ S64x512.size a
  k0_off322_inb : ∀ k0_t10 : Fin k0_t10_loop.trips, ∀ a, (k0_off322 k0_t10) a + S1x16.size a ≤ S64x512.size a
  k0_off323_inb : ∀ k0_t10 : Fin k0_t10_loop.trips, ∀ a, (k0_off323 k0_t10) a + S1x16.size a ≤ S64x512.size a
  k0_off324_inb : ∀ k0_t10 : Fin k0_t10_loop.trips, ∀ a, (k0_off324 k0_t10) a + S1x16.size a ≤ S64x512.size a
  k0_t11_ok : k0_t11_loop.OK
  k0_off325_inb : ∀ k0_t11 : Fin k0_t11_loop.trips, ∀ a, (k0_off325 k0_t11) a + S1x16.size a ≤ S64x512.size a
  k0_off326_inb : ∀ k0_t11 : Fin k0_t11_loop.trips, ∀ a, (k0_off326 k0_t11) a + S1x16.size a ≤ S64x512.size a
  k0_off327_inb : ∀ k0_t11 : Fin k0_t11_loop.trips, ∀ a, (k0_off327 k0_t11) a + S1x16.size a ≤ S64x512.size a
  k0_off328_inb : ∀ k0_t11 : Fin k0_t11_loop.trips, ∀ a, (k0_off328 k0_t11) a + S1x16.size a ≤ S64x512.size a
  k0_off329_inb : ∀ k0_t11 : Fin k0_t11_loop.trips, ∀ a, (k0_off329 k0_t11) a + S1x16.size a ≤ S64x512.size a
  k0_off330_inb : ∀ k0_t11 : Fin k0_t11_loop.trips, ∀ a, (k0_off330 k0_t11) a + S1x16.size a ≤ S64x512.size a
  k0_off331_inb : ∀ k0_t11 : Fin k0_t11_loop.trips, ∀ a, (k0_off331 k0_t11) a + S1x16.size a ≤ S64x512.size a
  k0_off332_inb : ∀ k0_t11 : Fin k0_t11_loop.trips, ∀ a, (k0_off332 k0_t11) a + S1x16.size a ≤ S64x512.size a
  k0_off333_inb : ∀ k0_t11 : Fin k0_t11_loop.trips, ∀ a, (k0_off333 k0_t11) a + S1x16.size a ≤ S64x512.size a
  k0_off334_inb : ∀ k0_t11 : Fin k0_t11_loop.trips, ∀ a, (k0_off334 k0_t11) a + S1x16.size a ≤ S64x512.size a
  k0_off335_inb : ∀ k0_t11 : Fin k0_t11_loop.trips, ∀ a, (k0_off335 k0_t11) a + S1x16.size a ≤ S64x512.size a
  k0_off336_inb : ∀ k0_t11 : Fin k0_t11_loop.trips, ∀ a, (k0_off336 k0_t11) a + S1x16.size a ≤ S64x512.size a
  k0_off337_inb : ∀ k0_t11 : Fin k0_t11_loop.trips, ∀ a, (k0_off337 k0_t11) a + S1x16.size a ≤ S64x512.size a
  k0_off338_inb : ∀ k0_t11 : Fin k0_t11_loop.trips, ∀ a, (k0_off338 k0_t11) a + S1x16.size a ≤ S64x512.size a
  k0_off339_inb : ∀ k0_t11 : Fin k0_t11_loop.trips, ∀ a, (k0_off339 k0_t11) a + S1x16.size a ≤ S64x512.size a
  k0_off340_inb : ∀ k0_t11 : Fin k0_t11_loop.trips, ∀ a, (k0_off340 k0_t11) a + S1x16.size a ≤ S64x512.size a
  k0_off341_inb : ∀ k0_t11 : Fin k0_t11_loop.trips, ∀ a, (k0_off341 k0_t11) a + S1x16.size a ≤ S64x512.size a
  k0_off342_inb : ∀ k0_t11 : Fin k0_t11_loop.trips, ∀ a, (k0_off342 k0_t11) a + S1x16.size a ≤ S64x512.size a
  k0_off343_inb : ∀ k0_t11 : Fin k0_t11_loop.trips, ∀ a, (k0_off343 k0_t11) a + S1x16.size a ≤ S64x512.size a
  k0_off344_inb : ∀ k0_t11 : Fin k0_t11_loop.trips, ∀ a, (k0_off344 k0_t11) a + S1x16.size a ≤ S64x512.size a
  k0_off345_inb : ∀ k0_t11 : Fin k0_t11_loop.trips, ∀ a, (k0_off345 k0_t11) a + S1x16.size a ≤ S64x512.size a
  k0_off346_inb : ∀ k0_t11 : Fin k0_t11_loop.trips, ∀ a, (k0_off346 k0_t11) a + S1x16.size a ≤ S64x512.size a
  k0_off347_inb : ∀ k0_t11 : Fin k0_t11_loop.trips, ∀ a, (k0_off347 k0_t11) a + S1x16.size a ≤ S64x512.size a
  k0_off348_inb : ∀ k0_t11 : Fin k0_t11_loop.trips, ∀ a, (k0_off348 k0_t11) a + S1x16.size a ≤ S64x512.size a
  k0_off349_inb : ∀ k0_t11 : Fin k0_t11_loop.trips, ∀ a, (k0_off349 k0_t11) a + S1x16.size a ≤ S64x512.size a
  k0_off350_inb : ∀ k0_t11 : Fin k0_t11_loop.trips, ∀ a, (k0_off350 k0_t11) a + S1x16.size a ≤ S64x512.size a
  k0_off351_inb : ∀ k0_t11 : Fin k0_t11_loop.trips, ∀ a, (k0_off351 k0_t11) a + S1x16.size a ≤ S64x512.size a
  k0_off352_inb : ∀ k0_t11 : Fin k0_t11_loop.trips, ∀ a, (k0_off352 k0_t11) a + S1x16.size a ≤ S64x512.size a
  k0_off353_inb : ∀ k0_t11 : Fin k0_t11_loop.trips, ∀ a, (k0_off353 k0_t11) a + S1x16.size a ≤ S64x512.size a
  k0_off354_inb : ∀ k0_t11 : Fin k0_t11_loop.trips, ∀ a, (k0_off354 k0_t11) a + S1x16.size a ≤ S64x512.size a
  k0_off355_inb : ∀ k0_t11 : Fin k0_t11_loop.trips, ∀ a, (k0_off355 k0_t11) a + S1x16.size a ≤ S64x512.size a
  k0_off356_inb : ∀ k0_t11 : Fin k0_t11_loop.trips, ∀ a, (k0_off356 k0_t11) a + S1x16.size a ≤ S64x512.size a
  k0_off357_inb : ∀ i : grid0.Coords, ∀ (r : Fin 4), ∀ a, (k0_off357 i (BitVec.ofNat 32 (64 * r.val))) a + S1x64x512.size a ≤ S16x2048x2048.size a
  k0_t12_ok : k0_t12_loop.OK
  k0_off358_inb : ∀ k0_t12 : Fin k0_t12_loop.trips, ∀ a, (k0_off358 k0_t12) a + S1x16.size a ≤ S64x512.size a
  k0_off359_inb : ∀ k0_t12 : Fin k0_t12_loop.trips, ∀ a, (k0_off359 k0_t12) a + S1x16.size a ≤ S64x512.size a
  k0_off360_inb : ∀ k0_t12 : Fin k0_t12_loop.trips, ∀ a, (k0_off360 k0_t12) a + S1x16.size a ≤ S64x512.size a
  k0_off361_inb : ∀ k0_t12 : Fin k0_t12_loop.trips, ∀ a, (k0_off361 k0_t12) a + S1x16.size a ≤ S64x512.size a
  k0_off362_inb : ∀ k0_t12 : Fin k0_t12_loop.trips, ∀ a, (k0_off362 k0_t12) a + S1x16.size a ≤ S64x512.size a
  k0_off363_inb : ∀ k0_t12 : Fin k0_t12_loop.trips, ∀ a, (k0_off363 k0_t12) a + S1x16.size a ≤ S64x512.size a
  k0_off364_inb : ∀ k0_t12 : Fin k0_t12_loop.trips, ∀ a, (k0_off364 k0_t12) a + S1x16.size a ≤ S64x512.size a
  k0_off365_inb : ∀ k0_t12 : Fin k0_t12_loop.trips, ∀ a, (k0_off365 k0_t12) a + S1x16.size a ≤ S64x512.size a
  k0_off366_inb : ∀ k0_t12 : Fin k0_t12_loop.trips, ∀ a, (k0_off366 k0_t12) a + S1x16.size a ≤ S64x512.size a
  k0_off367_inb : ∀ k0_t12 : Fin k0_t12_loop.trips, ∀ a, (k0_off367 k0_t12) a + S1x16.size a ≤ S64x512.size a
  k0_off368_inb : ∀ k0_t12 : Fin k0_t12_loop.trips, ∀ a, (k0_off368 k0_t12) a + S1x16.size a ≤ S64x512.size a
  k0_off369_inb : ∀ k0_t12 : Fin k0_t12_loop.trips, ∀ a, (k0_off369 k0_t12) a + S1x16.size a ≤ S64x512.size a
  k0_off370_inb : ∀ k0_t12 : Fin k0_t12_loop.trips, ∀ a, (k0_off370 k0_t12) a + S1x16.size a ≤ S64x512.size a
  k0_off371_inb : ∀ k0_t12 : Fin k0_t12_loop.trips, ∀ a, (k0_off371 k0_t12) a + S1x16.size a ≤ S64x512.size a
  k0_off372_inb : ∀ k0_t12 : Fin k0_t12_loop.trips, ∀ a, (k0_off372 k0_t12) a + S1x16.size a ≤ S64x512.size a
  k0_off373_inb : ∀ k0_t12 : Fin k0_t12_loop.trips, ∀ a, (k0_off373 k0_t12) a + S1x16.size a ≤ S64x512.size a
  k0_off374_inb : ∀ k0_t12 : Fin k0_t12_loop.trips, ∀ a, (k0_off374 k0_t12) a + S1x16.size a ≤ S64x512.size a
  k0_off375_inb : ∀ k0_t12 : Fin k0_t12_loop.trips, ∀ a, (k0_off375 k0_t12) a + S1x16.size a ≤ S64x512.size a
  k0_off376_inb : ∀ k0_t12 : Fin k0_t12_loop.trips, ∀ a, (k0_off376 k0_t12) a + S1x16.size a ≤ S64x512.size a
  k0_off377_inb : ∀ k0_t12 : Fin k0_t12_loop.trips, ∀ a, (k0_off377 k0_t12) a + S1x16.size a ≤ S64x512.size a
  k0_off378_inb : ∀ k0_t12 : Fin k0_t12_loop.trips, ∀ a, (k0_off378 k0_t12) a + S1x16.size a ≤ S64x512.size a
  k0_off379_inb : ∀ k0_t12 : Fin k0_t12_loop.trips, ∀ a, (k0_off379 k0_t12) a + S1x16.size a ≤ S64x512.size a
  k0_off380_inb : ∀ k0_t12 : Fin k0_t12_loop.trips, ∀ a, (k0_off380 k0_t12) a + S1x16.size a ≤ S64x512.size a
  k0_off381_inb : ∀ k0_t12 : Fin k0_t12_loop.trips, ∀ a, (k0_off381 k0_t12) a + S1x16.size a ≤ S64x512.size a
  k0_off382_inb : ∀ k0_t12 : Fin k0_t12_loop.trips, ∀ a, (k0_off382 k0_t12) a + S1x16.size a ≤ S64x512.size a
  k0_off383_inb : ∀ k0_t12 : Fin k0_t12_loop.trips, ∀ a, (k0_off383 k0_t12) a + S1x16.size a ≤ S64x512.size a
  k0_off384_inb : ∀ k0_t12 : Fin k0_t12_loop.trips, ∀ a, (k0_off384 k0_t12) a + S1x16.size a ≤ S64x512.size a
  k0_off385_inb : ∀ k0_t12 : Fin k0_t12_loop.trips, ∀ a, (k0_off385 k0_t12) a + S1x16.size a ≤ S64x512.size a
  k0_off386_inb : ∀ k0_t12 : Fin k0_t12_loop.trips, ∀ a, (k0_off386 k0_t12) a + S1x16.size a ≤ S64x512.size a
  k0_off387_inb : ∀ k0_t12 : Fin k0_t12_loop.trips, ∀ a, (k0_off387 k0_t12) a + S1x16.size a ≤ S64x512.size a
  k0_off388_inb : ∀ k0_t12 : Fin k0_t12_loop.trips, ∀ a, (k0_off388 k0_t12) a + S1x16.size a ≤ S64x512.size a
  k0_off389_inb : ∀ k0_t12 : Fin k0_t12_loop.trips, ∀ a, (k0_off389 k0_t12) a + S1x16.size a ≤ S64x512.size a
  k0_mult3_dvd : ∀ i : grid0.Coords, 8 ∣ (k0_mult3 i).toNat
  k0_t13_ok : k0_t13_loop.OK
  k0_off390_inb : ∀ k0_t13 : Fin k0_t13_loop.trips, ∀ a, (k0_off390 k0_t13) a + S1x16.size a ≤ S64x512.size a
  k0_off391_inb : ∀ k0_t13 : Fin k0_t13_loop.trips, ∀ a, (k0_off391 k0_t13) a + S1x16.size a ≤ S64x512.size a
  k0_off392_inb : ∀ k0_t13 : Fin k0_t13_loop.trips, ∀ a, (k0_off392 k0_t13) a + S1x16.size a ≤ S64x512.size a
  k0_off393_inb : ∀ k0_t13 : Fin k0_t13_loop.trips, ∀ a, (k0_off393 k0_t13) a + S1x16.size a ≤ S64x512.size a
  k0_off394_inb : ∀ k0_t13 : Fin k0_t13_loop.trips, ∀ a, (k0_off394 k0_t13) a + S1x16.size a ≤ S64x512.size a
  k0_off395_inb : ∀ k0_t13 : Fin k0_t13_loop.trips, ∀ a, (k0_off395 k0_t13) a + S1x16.size a ≤ S64x512.size a
  k0_off396_inb : ∀ k0_t13 : Fin k0_t13_loop.trips, ∀ a, (k0_off396 k0_t13) a + S1x16.size a ≤ S64x512.size a
  k0_off397_inb : ∀ k0_t13 : Fin k0_t13_loop.trips, ∀ a, (k0_off397 k0_t13) a + S1x16.size a ≤ S64x512.size a
  k0_off398_inb : ∀ k0_t13 : Fin k0_t13_loop.trips, ∀ a, (k0_off398 k0_t13) a + S1x16.size a ≤ S64x512.size a
  k0_off399_inb : ∀ k0_t13 : Fin k0_t13_loop.trips, ∀ a, (k0_off399 k0_t13) a + S1x16.size a ≤ S64x512.size a
  k0_off400_inb : ∀ k0_t13 : Fin k0_t13_loop.trips, ∀ a, (k0_off400 k0_t13) a + S1x16.size a ≤ S64x512.size a
  k0_off401_inb : ∀ k0_t13 : Fin k0_t13_loop.trips, ∀ a, (k0_off401 k0_t13) a + S1x16.size a ≤ S64x512.size a
  k0_off402_inb : ∀ k0_t13 : Fin k0_t13_loop.trips, ∀ a, (k0_off402 k0_t13) a + S1x16.size a ≤ S64x512.size a
  k0_off403_inb : ∀ k0_t13 : Fin k0_t13_loop.trips, ∀ a, (k0_off403 k0_t13) a + S1x16.size a ≤ S64x512.size a
  k0_off404_inb : ∀ k0_t13 : Fin k0_t13_loop.trips, ∀ a, (k0_off404 k0_t13) a + S1x16.size a ≤ S64x512.size a
  k0_off405_inb : ∀ k0_t13 : Fin k0_t13_loop.trips, ∀ a, (k0_off405 k0_t13) a + S1x16.size a ≤ S64x512.size a
  k0_off406_inb : ∀ k0_t13 : Fin k0_t13_loop.trips, ∀ a, (k0_off406 k0_t13) a + S1x16.size a ≤ S64x512.size a
  k0_off407_inb : ∀ k0_t13 : Fin k0_t13_loop.trips, ∀ a, (k0_off407 k0_t13) a + S1x16.size a ≤ S64x512.size a
  k0_off408_inb : ∀ k0_t13 : Fin k0_t13_loop.trips, ∀ a, (k0_off408 k0_t13) a + S1x16.size a ≤ S64x512.size a
  k0_off409_inb : ∀ k0_t13 : Fin k0_t13_loop.trips, ∀ a, (k0_off409 k0_t13) a + S1x16.size a ≤ S64x512.size a
  k0_off410_inb : ∀ k0_t13 : Fin k0_t13_loop.trips, ∀ a, (k0_off410 k0_t13) a + S1x16.size a ≤ S64x512.size a
  k0_off411_inb : ∀ k0_t13 : Fin k0_t13_loop.trips, ∀ a, (k0_off411 k0_t13) a + S1x16.size a ≤ S64x512.size a
  k0_off412_inb : ∀ k0_t13 : Fin k0_t13_loop.trips, ∀ a, (k0_off412 k0_t13) a + S1x16.size a ≤ S64x512.size a
  k0_off413_inb : ∀ k0_t13 : Fin k0_t13_loop.trips, ∀ a, (k0_off413 k0_t13) a + S1x16.size a ≤ S64x512.size a
  k0_off414_inb : ∀ k0_t13 : Fin k0_t13_loop.trips, ∀ a, (k0_off414 k0_t13) a + S1x16.size a ≤ S64x512.size a
  k0_off415_inb : ∀ k0_t13 : Fin k0_t13_loop.trips, ∀ a, (k0_off415 k0_t13) a + S1x16.size a ≤ S64x512.size a
  k0_off416_inb : ∀ k0_t13 : Fin k0_t13_loop.trips, ∀ a, (k0_off416 k0_t13) a + S1x16.size a ≤ S64x512.size a
  k0_off417_inb : ∀ k0_t13 : Fin k0_t13_loop.trips, ∀ a, (k0_off417 k0_t13) a + S1x16.size a ≤ S64x512.size a
  k0_off418_inb : ∀ k0_t13 : Fin k0_t13_loop.trips, ∀ a, (k0_off418 k0_t13) a + S1x16.size a ≤ S64x512.size a
  k0_off419_inb : ∀ k0_t13 : Fin k0_t13_loop.trips, ∀ a, (k0_off419 k0_t13) a + S1x16.size a ≤ S64x512.size a
  k0_off420_inb : ∀ k0_t13 : Fin k0_t13_loop.trips, ∀ a, (k0_off420 k0_t13) a + S1x16.size a ≤ S64x512.size a
  k0_off421_inb : ∀ k0_t13 : Fin k0_t13_loop.trips, ∀ a, (k0_off421 k0_t13) a + S1x16.size a ≤ S64x512.size a
  k0_t14_ok : k0_t14_loop.OK
  k0_off422_inb : ∀ k0_t14 : Fin k0_t14_loop.trips, ∀ a, (k0_off422 k0_t14) a + S1x16.size a ≤ S64x512.size a
  k0_off423_inb : ∀ k0_t14 : Fin k0_t14_loop.trips, ∀ a, (k0_off423 k0_t14) a + S1x16.size a ≤ S64x512.size a
  k0_off424_inb : ∀ k0_t14 : Fin k0_t14_loop.trips, ∀ a, (k0_off424 k0_t14) a + S1x16.size a ≤ S64x512.size a
  k0_off425_inb : ∀ k0_t14 : Fin k0_t14_loop.trips, ∀ a, (k0_off425 k0_t14) a + S1x16.size a ≤ S64x512.size a
  k0_off426_inb : ∀ k0_t14 : Fin k0_t14_loop.trips, ∀ a, (k0_off426 k0_t14) a + S1x16.size a ≤ S64x512.size a
  k0_off427_inb : ∀ k0_t14 : Fin k0_t14_loop.trips, ∀ a, (k0_off427 k0_t14) a + S1x16.size a ≤ S64x512.size a
  k0_off428_inb : ∀ k0_t14 : Fin k0_t14_loop.trips, ∀ a, (k0_off428 k0_t14) a + S1x16.size a ≤ S64x512.size a
  k0_off429_inb : ∀ k0_t14 : Fin k0_t14_loop.trips, ∀ a, (k0_off429 k0_t14) a + S1x16.size a ≤ S64x512.size a
  k0_off430_inb : ∀ k0_t14 : Fin k0_t14_loop.trips, ∀ a, (k0_off430 k0_t14) a + S1x16.size a ≤ S64x512.size a
  k0_off431_inb : ∀ k0_t14 : Fin k0_t14_loop.trips, ∀ a, (k0_off431 k0_t14) a + S1x16.size a ≤ S64x512.size a
  k0_off432_inb : ∀ k0_t14 : Fin k0_t14_loop.trips, ∀ a, (k0_off432 k0_t14) a + S1x16.size a ≤ S64x512.size a
  k0_off433_inb : ∀ k0_t14 : Fin k0_t14_loop.trips, ∀ a, (k0_off433 k0_t14) a + S1x16.size a ≤ S64x512.size a
  k0_off434_inb : ∀ k0_t14 : Fin k0_t14_loop.trips, ∀ a, (k0_off434 k0_t14) a + S1x16.size a ≤ S64x512.size a
  k0_off435_inb : ∀ k0_t14 : Fin k0_t14_loop.trips, ∀ a, (k0_off435 k0_t14) a + S1x16.size a ≤ S64x512.size a
  k0_off436_inb : ∀ k0_t14 : Fin k0_t14_loop.trips, ∀ a, (k0_off436 k0_t14) a + S1x16.size a ≤ S64x512.size a
  k0_off437_inb : ∀ k0_t14 : Fin k0_t14_loop.trips, ∀ a, (k0_off437 k0_t14) a + S1x16.size a ≤ S64x512.size a
  k0_off438_inb : ∀ k0_t14 : Fin k0_t14_loop.trips, ∀ a, (k0_off438 k0_t14) a + S1x16.size a ≤ S64x512.size a
  k0_off439_inb : ∀ k0_t14 : Fin k0_t14_loop.trips, ∀ a, (k0_off439 k0_t14) a + S1x16.size a ≤ S64x512.size a
  k0_off440_inb : ∀ k0_t14 : Fin k0_t14_loop.trips, ∀ a, (k0_off440 k0_t14) a + S1x16.size a ≤ S64x512.size a
  k0_off441_inb : ∀ k0_t14 : Fin k0_t14_loop.trips, ∀ a, (k0_off441 k0_t14) a + S1x16.size a ≤ S64x512.size a
  k0_off442_inb : ∀ k0_t14 : Fin k0_t14_loop.trips, ∀ a, (k0_off442 k0_t14) a + S1x16.size a ≤ S64x512.size a
  k0_off443_inb : ∀ k0_t14 : Fin k0_t14_loop.trips, ∀ a, (k0_off443 k0_t14) a + S1x16.size a ≤ S64x512.size a
  k0_off444_inb : ∀ k0_t14 : Fin k0_t14_loop.trips, ∀ a, (k0_off444 k0_t14) a + S1x16.size a ≤ S64x512.size a
  k0_off445_inb : ∀ k0_t14 : Fin k0_t14_loop.trips, ∀ a, (k0_off445 k0_t14) a + S1x16.size a ≤ S64x512.size a
  k0_off446_inb : ∀ k0_t14 : Fin k0_t14_loop.trips, ∀ a, (k0_off446 k0_t14) a + S1x16.size a ≤ S64x512.size a
  k0_off447_inb : ∀ k0_t14 : Fin k0_t14_loop.trips, ∀ a, (k0_off447 k0_t14) a + S1x16.size a ≤ S64x512.size a
  k0_off448_inb : ∀ k0_t14 : Fin k0_t14_loop.trips, ∀ a, (k0_off448 k0_t14) a + S1x16.size a ≤ S64x512.size a
  k0_off449_inb : ∀ k0_t14 : Fin k0_t14_loop.trips, ∀ a, (k0_off449 k0_t14) a + S1x16.size a ≤ S64x512.size a
  k0_off450_inb : ∀ k0_t14 : Fin k0_t14_loop.trips, ∀ a, (k0_off450 k0_t14) a + S1x16.size a ≤ S64x512.size a
  k0_off451_inb : ∀ k0_t14 : Fin k0_t14_loop.trips, ∀ a, (k0_off451 k0_t14) a + S1x16.size a ≤ S64x512.size a
  k0_off452_inb : ∀ k0_t14 : Fin k0_t14_loop.trips, ∀ a, (k0_off452 k0_t14) a + S1x16.size a ≤ S64x512.size a
  k0_off453_inb : ∀ k0_t14 : Fin k0_t14_loop.trips, ∀ a, (k0_off453 k0_t14) a + S1x16.size a ≤ S64x512.size a
  k0_t15_ok : k0_t15_loop.OK
  k0_off454_inb : ∀ k0_t15 : Fin k0_t15_loop.trips, ∀ a, (k0_off454 k0_t15) a + S1x16.size a ≤ S64x512.size a
  k0_off455_inb : ∀ k0_t15 : Fin k0_t15_loop.trips, ∀ a, (k0_off455 k0_t15) a + S1x16.size a ≤ S64x512.size a
  k0_off456_inb : ∀ k0_t15 : Fin k0_t15_loop.trips, ∀ a, (k0_off456 k0_t15) a + S1x16.size a ≤ S64x512.size a
  k0_off457_inb : ∀ k0_t15 : Fin k0_t15_loop.trips, ∀ a, (k0_off457 k0_t15) a + S1x16.size a ≤ S64x512.size a
  k0_off458_inb : ∀ k0_t15 : Fin k0_t15_loop.trips, ∀ a, (k0_off458 k0_t15) a + S1x16.size a ≤ S64x512.size a
  k0_off459_inb : ∀ k0_t15 : Fin k0_t15_loop.trips, ∀ a, (k0_off459 k0_t15) a + S1x16.size a ≤ S64x512.size a
  k0_off460_inb : ∀ k0_t15 : Fin k0_t15_loop.trips, ∀ a, (k0_off460 k0_t15) a + S1x16.size a ≤ S64x512.size a
  k0_off461_inb : ∀ k0_t15 : Fin k0_t15_loop.trips, ∀ a, (k0_off461 k0_t15) a + S1x16.size a ≤ S64x512.size a
  k0_off462_inb : ∀ k0_t15 : Fin k0_t15_loop.trips, ∀ a, (k0_off462 k0_t15) a + S1x16.size a ≤ S64x512.size a
  k0_off463_inb : ∀ k0_t15 : Fin k0_t15_loop.trips, ∀ a, (k0_off463 k0_t15) a + S1x16.size a ≤ S64x512.size a
  k0_off464_inb : ∀ k0_t15 : Fin k0_t15_loop.trips, ∀ a, (k0_off464 k0_t15) a + S1x16.size a ≤ S64x512.size a
  k0_off465_inb : ∀ k0_t15 : Fin k0_t15_loop.trips, ∀ a, (k0_off465 k0_t15) a + S1x16.size a ≤ S64x512.size a
  k0_off466_inb : ∀ k0_t15 : Fin k0_t15_loop.trips, ∀ a, (k0_off466 k0_t15) a + S1x16.size a ≤ S64x512.size a
  k0_off467_inb : ∀ k0_t15 : Fin k0_t15_loop.trips, ∀ a, (k0_off467 k0_t15) a + S1x16.size a ≤ S64x512.size a
  k0_off468_inb : ∀ k0_t15 : Fin k0_t15_loop.trips, ∀ a, (k0_off468 k0_t15) a + S1x16.size a ≤ S64x512.size a
  k0_off469_inb : ∀ k0_t15 : Fin k0_t15_loop.trips, ∀ a, (k0_off469 k0_t15) a + S1x16.size a ≤ S64x512.size a
  k0_off470_inb : ∀ k0_t15 : Fin k0_t15_loop.trips, ∀ a, (k0_off470 k0_t15) a + S1x16.size a ≤ S64x512.size a
  k0_off471_inb : ∀ k0_t15 : Fin k0_t15_loop.trips, ∀ a, (k0_off471 k0_t15) a + S1x16.size a ≤ S64x512.size a
  k0_off472_inb : ∀ k0_t15 : Fin k0_t15_loop.trips, ∀ a, (k0_off472 k0_t15) a + S1x16.size a ≤ S64x512.size a
  k0_off473_inb : ∀ k0_t15 : Fin k0_t15_loop.trips, ∀ a, (k0_off473 k0_t15) a + S1x16.size a ≤ S64x512.size a
  k0_off474_inb : ∀ k0_t15 : Fin k0_t15_loop.trips, ∀ a, (k0_off474 k0_t15) a + S1x16.size a ≤ S64x512.size a
  k0_off475_inb : ∀ k0_t15 : Fin k0_t15_loop.trips, ∀ a, (k0_off475 k0_t15) a + S1x16.size a ≤ S64x512.size a
  k0_off476_inb : ∀ k0_t15 : Fin k0_t15_loop.trips, ∀ a, (k0_off476 k0_t15) a + S1x16.size a ≤ S64x512.size a
  k0_off477_inb : ∀ k0_t15 : Fin k0_t15_loop.trips, ∀ a, (k0_off477 k0_t15) a + S1x16.size a ≤ S64x512.size a
  k0_off478_inb : ∀ k0_t15 : Fin k0_t15_loop.trips, ∀ a, (k0_off478 k0_t15) a + S1x16.size a ≤ S64x512.size a
  k0_off479_inb : ∀ k0_t15 : Fin k0_t15_loop.trips, ∀ a, (k0_off479 k0_t15) a + S1x16.size a ≤ S64x512.size a
  k0_off480_inb : ∀ k0_t15 : Fin k0_t15_loop.trips, ∀ a, (k0_off480 k0_t15) a + S1x16.size a ≤ S64x512.size a
  k0_off481_inb : ∀ k0_t15 : Fin k0_t15_loop.trips, ∀ a, (k0_off481 k0_t15) a + S1x16.size a ≤ S64x512.size a
  k0_off482_inb : ∀ k0_t15 : Fin k0_t15_loop.trips, ∀ a, (k0_off482 k0_t15) a + S1x16.size a ≤ S64x512.size a
  k0_off483_inb : ∀ k0_t15 : Fin k0_t15_loop.trips, ∀ a, (k0_off483 k0_t15) a + S1x16.size a ≤ S64x512.size a
  k0_off484_inb : ∀ k0_t15 : Fin k0_t15_loop.trips, ∀ a, (k0_off484 k0_t15) a + S1x16.size a ≤ S64x512.size a
  k0_off485_inb : ∀ k0_t15 : Fin k0_t15_loop.trips, ∀ a, (k0_off485 k0_t15) a + S1x16.size a ≤ S64x512.size a
  k0_off486_inb : ∀ i : grid0.Coords, ∀ (r : Fin 4), ∀ a, (k0_off486 i (BitVec.ofNat 32 (64 * r.val))) a + S1x64x512.size a ≤ S16x2048x2048.size a
  k0_t16_ok : k0_t16_loop.OK
  k0_off487_inb : ∀ k0_t16 : Fin k0_t16_loop.trips, ∀ a, (k0_off487 k0_t16) a + S1x16.size a ≤ S64x512.size a
  k0_off488_inb : ∀ k0_t16 : Fin k0_t16_loop.trips, ∀ a, (k0_off488 k0_t16) a + S1x16.size a ≤ S64x512.size a
  k0_off489_inb : ∀ k0_t16 : Fin k0_t16_loop.trips, ∀ a, (k0_off489 k0_t16) a + S1x16.size a ≤ S64x512.size a
  k0_off490_inb : ∀ k0_t16 : Fin k0_t16_loop.trips, ∀ a, (k0_off490 k0_t16) a + S1x16.size a ≤ S64x512.size a
  k0_off491_inb : ∀ k0_t16 : Fin k0_t16_loop.trips, ∀ a, (k0_off491 k0_t16) a + S1x16.size a ≤ S64x512.size a
  k0_off492_inb : ∀ k0_t16 : Fin k0_t16_loop.trips, ∀ a, (k0_off492 k0_t16) a + S1x16.size a ≤ S64x512.size a
  k0_off493_inb : ∀ k0_t16 : Fin k0_t16_loop.trips, ∀ a, (k0_off493 k0_t16) a + S1x16.size a ≤ S64x512.size a
  k0_off494_inb : ∀ k0_t16 : Fin k0_t16_loop.trips, ∀ a, (k0_off494 k0_t16) a + S1x16.size a ≤ S64x512.size a
  k0_off495_inb : ∀ k0_t16 : Fin k0_t16_loop.trips, ∀ a, (k0_off495 k0_t16) a + S1x16.size a ≤ S64x512.size a
  k0_off496_inb : ∀ k0_t16 : Fin k0_t16_loop.trips, ∀ a, (k0_off496 k0_t16) a + S1x16.size a ≤ S64x512.size a
  k0_off497_inb : ∀ k0_t16 : Fin k0_t16_loop.trips, ∀ a, (k0_off497 k0_t16) a + S1x16.size a ≤ S64x512.size a
  k0_off498_inb : ∀ k0_t16 : Fin k0_t16_loop.trips, ∀ a, (k0_off498 k0_t16) a + S1x16.size a ≤ S64x512.size a
  k0_off499_inb : ∀ k0_t16 : Fin k0_t16_loop.trips, ∀ a, (k0_off499 k0_t16) a + S1x16.size a ≤ S64x512.size a
  k0_off500_inb : ∀ k0_t16 : Fin k0_t16_loop.trips, ∀ a, (k0_off500 k0_t16) a + S1x16.size a ≤ S64x512.size a
  k0_off501_inb : ∀ k0_t16 : Fin k0_t16_loop.trips, ∀ a, (k0_off501 k0_t16) a + S1x16.size a ≤ S64x512.size a
  k0_off502_inb : ∀ k0_t16 : Fin k0_t16_loop.trips, ∀ a, (k0_off502 k0_t16) a + S1x16.size a ≤ S64x512.size a
  k0_off503_inb : ∀ k0_t16 : Fin k0_t16_loop.trips, ∀ a, (k0_off503 k0_t16) a + S1x16.size a ≤ S64x512.size a
  k0_off504_inb : ∀ k0_t16 : Fin k0_t16_loop.trips, ∀ a, (k0_off504 k0_t16) a + S1x16.size a ≤ S64x512.size a
  k0_off505_inb : ∀ k0_t16 : Fin k0_t16_loop.trips, ∀ a, (k0_off505 k0_t16) a + S1x16.size a ≤ S64x512.size a
  k0_off506_inb : ∀ k0_t16 : Fin k0_t16_loop.trips, ∀ a, (k0_off506 k0_t16) a + S1x16.size a ≤ S64x512.size a
  k0_off507_inb : ∀ k0_t16 : Fin k0_t16_loop.trips, ∀ a, (k0_off507 k0_t16) a + S1x16.size a ≤ S64x512.size a
  k0_off508_inb : ∀ k0_t16 : Fin k0_t16_loop.trips, ∀ a, (k0_off508 k0_t16) a + S1x16.size a ≤ S64x512.size a
  k0_off509_inb : ∀ k0_t16 : Fin k0_t16_loop.trips, ∀ a, (k0_off509 k0_t16) a + S1x16.size a ≤ S64x512.size a
  k0_off510_inb : ∀ k0_t16 : Fin k0_t16_loop.trips, ∀ a, (k0_off510 k0_t16) a + S1x16.size a ≤ S64x512.size a
  k0_off511_inb : ∀ k0_t16 : Fin k0_t16_loop.trips, ∀ a, (k0_off511 k0_t16) a + S1x16.size a ≤ S64x512.size a
  k0_off512_inb : ∀ k0_t16 : Fin k0_t16_loop.trips, ∀ a, (k0_off512 k0_t16) a + S1x16.size a ≤ S64x512.size a
  k0_off513_inb : ∀ k0_t16 : Fin k0_t16_loop.trips, ∀ a, (k0_off513 k0_t16) a + S1x16.size a ≤ S64x512.size a
  k0_off514_inb : ∀ k0_t16 : Fin k0_t16_loop.trips, ∀ a, (k0_off514 k0_t16) a + S1x16.size a ≤ S64x512.size a
  k0_off515_inb : ∀ k0_t16 : Fin k0_t16_loop.trips, ∀ a, (k0_off515 k0_t16) a + S1x16.size a ≤ S64x512.size a
  k0_off516_inb : ∀ k0_t16 : Fin k0_t16_loop.trips, ∀ a, (k0_off516 k0_t16) a + S1x16.size a ≤ S64x512.size a
  k0_off517_inb : ∀ k0_t16 : Fin k0_t16_loop.trips, ∀ a, (k0_off517 k0_t16) a + S1x16.size a ≤ S64x512.size a
  k0_off518_inb : ∀ k0_t16 : Fin k0_t16_loop.trips, ∀ a, (k0_off518 k0_t16) a + S1x16.size a ≤ S64x512.size a
  k0_mult4_dvd : ∀ i : grid0.Coords, 8 ∣ (k0_mult4 i).toNat
  k0_t17_ok : k0_t17_loop.OK
  k0_off519_inb : ∀ k0_t17 : Fin k0_t17_loop.trips, ∀ a, (k0_off519 k0_t17) a + S1x16.size a ≤ S64x512.size a
  k0_off520_inb : ∀ k0_t17 : Fin k0_t17_loop.trips, ∀ a, (k0_off520 k0_t17) a + S1x16.size a ≤ S64x512.size a
  k0_off521_inb : ∀ k0_t17 : Fin k0_t17_loop.trips, ∀ a, (k0_off521 k0_t17) a + S1x16.size a ≤ S64x512.size a
  k0_off522_inb : ∀ k0_t17 : Fin k0_t17_loop.trips, ∀ a, (k0_off522 k0_t17) a + S1x16.size a ≤ S64x512.size a
  k0_off523_inb : ∀ k0_t17 : Fin k0_t17_loop.trips, ∀ a, (k0_off523 k0_t17) a + S1x16.size a ≤ S64x512.size a
  k0_off524_inb : ∀ k0_t17 : Fin k0_t17_loop.trips, ∀ a, (k0_off524 k0_t17) a + S1x16.size a ≤ S64x512.size a
  k0_off525_inb : ∀ k0_t17 : Fin k0_t17_loop.trips, ∀ a, (k0_off525 k0_t17) a + S1x16.size a ≤ S64x512.size a
  k0_off526_inb : ∀ k0_t17 : Fin k0_t17_loop.trips, ∀ a, (k0_off526 k0_t17) a + S1x16.size a ≤ S64x512.size a
  k0_off527_inb : ∀ k0_t17 : Fin k0_t17_loop.trips, ∀ a, (k0_off527 k0_t17) a + S1x16.size a ≤ S64x512.size a
  k0_off528_inb : ∀ k0_t17 : Fin k0_t17_loop.trips, ∀ a, (k0_off528 k0_t17) a + S1x16.size a ≤ S64x512.size a
  k0_off529_inb : ∀ k0_t17 : Fin k0_t17_loop.trips, ∀ a, (k0_off529 k0_t17) a + S1x16.size a ≤ S64x512.size a
  k0_off530_inb : ∀ k0_t17 : Fin k0_t17_loop.trips, ∀ a, (k0_off530 k0_t17) a + S1x16.size a ≤ S64x512.size a
  k0_off531_inb : ∀ k0_t17 : Fin k0_t17_loop.trips, ∀ a, (k0_off531 k0_t17) a + S1x16.size a ≤ S64x512.size a
  k0_off532_inb : ∀ k0_t17 : Fin k0_t17_loop.trips, ∀ a, (k0_off532 k0_t17) a + S1x16.size a ≤ S64x512.size a
  k0_off533_inb : ∀ k0_t17 : Fin k0_t17_loop.trips, ∀ a, (k0_off533 k0_t17) a + S1x16.size a ≤ S64x512.size a
  k0_off534_inb : ∀ k0_t17 : Fin k0_t17_loop.trips, ∀ a, (k0_off534 k0_t17) a + S1x16.size a ≤ S64x512.size a
  k0_off535_inb : ∀ k0_t17 : Fin k0_t17_loop.trips, ∀ a, (k0_off535 k0_t17) a + S1x16.size a ≤ S64x512.size a
  k0_off536_inb : ∀ k0_t17 : Fin k0_t17_loop.trips, ∀ a, (k0_off536 k0_t17) a + S1x16.size a ≤ S64x512.size a
  k0_off537_inb : ∀ k0_t17 : Fin k0_t17_loop.trips, ∀ a, (k0_off537 k0_t17) a + S1x16.size a ≤ S64x512.size a
  k0_off538_inb : ∀ k0_t17 : Fin k0_t17_loop.trips, ∀ a, (k0_off538 k0_t17) a + S1x16.size a ≤ S64x512.size a
  k0_off539_inb : ∀ k0_t17 : Fin k0_t17_loop.trips, ∀ a, (k0_off539 k0_t17) a + S1x16.size a ≤ S64x512.size a
  k0_off540_inb : ∀ k0_t17 : Fin k0_t17_loop.trips, ∀ a, (k0_off540 k0_t17) a + S1x16.size a ≤ S64x512.size a
  k0_off541_inb : ∀ k0_t17 : Fin k0_t17_loop.trips, ∀ a, (k0_off541 k0_t17) a + S1x16.size a ≤ S64x512.size a
  k0_off542_inb : ∀ k0_t17 : Fin k0_t17_loop.trips, ∀ a, (k0_off542 k0_t17) a + S1x16.size a ≤ S64x512.size a
  k0_off543_inb : ∀ k0_t17 : Fin k0_t17_loop.trips, ∀ a, (k0_off543 k0_t17) a + S1x16.size a ≤ S64x512.size a
  k0_off544_inb : ∀ k0_t17 : Fin k0_t17_loop.trips, ∀ a, (k0_off544 k0_t17) a + S1x16.size a ≤ S64x512.size a
  k0_off545_inb : ∀ k0_t17 : Fin k0_t17_loop.trips, ∀ a, (k0_off545 k0_t17) a + S1x16.size a ≤ S64x512.size a
  k0_off546_inb : ∀ k0_t17 : Fin k0_t17_loop.trips, ∀ a, (k0_off546 k0_t17) a + S1x16.size a ≤ S64x512.size a
  k0_off547_inb : ∀ k0_t17 : Fin k0_t17_loop.trips, ∀ a, (k0_off547 k0_t17) a + S1x16.size a ≤ S64x512.size a
  k0_off548_inb : ∀ k0_t17 : Fin k0_t17_loop.trips, ∀ a, (k0_off548 k0_t17) a + S1x16.size a ≤ S64x512.size a
  k0_off549_inb : ∀ k0_t17 : Fin k0_t17_loop.trips, ∀ a, (k0_off549 k0_t17) a + S1x16.size a ≤ S64x512.size a
  k0_off550_inb : ∀ k0_t17 : Fin k0_t17_loop.trips, ∀ a, (k0_off550 k0_t17) a + S1x16.size a ≤ S64x512.size a
  k0_t18_ok : k0_t18_loop.OK
  k0_off551_inb : ∀ k0_t18 : Fin k0_t18_loop.trips, ∀ a, (k0_off551 k0_t18) a + S1x16.size a ≤ S64x512.size a
  k0_off552_inb : ∀ k0_t18 : Fin k0_t18_loop.trips, ∀ a, (k0_off552 k0_t18) a + S1x16.size a ≤ S64x512.size a
  k0_off553_inb : ∀ k0_t18 : Fin k0_t18_loop.trips, ∀ a, (k0_off553 k0_t18) a + S1x16.size a ≤ S64x512.size a
  k0_off554_inb : ∀ k0_t18 : Fin k0_t18_loop.trips, ∀ a, (k0_off554 k0_t18) a + S1x16.size a ≤ S64x512.size a
  k0_off555_inb : ∀ k0_t18 : Fin k0_t18_loop.trips, ∀ a, (k0_off555 k0_t18) a + S1x16.size a ≤ S64x512.size a
  k0_off556_inb : ∀ k0_t18 : Fin k0_t18_loop.trips, ∀ a, (k0_off556 k0_t18) a + S1x16.size a ≤ S64x512.size a
  k0_off557_inb : ∀ k0_t18 : Fin k0_t18_loop.trips, ∀ a, (k0_off557 k0_t18) a + S1x16.size a ≤ S64x512.size a
  k0_off558_inb : ∀ k0_t18 : Fin k0_t18_loop.trips, ∀ a, (k0_off558 k0_t18) a + S1x16.size a ≤ S64x512.size a
  k0_off559_inb : ∀ k0_t18 : Fin k0_t18_loop.trips, ∀ a, (k0_off559 k0_t18) a + S1x16.size a ≤ S64x512.size a
  k0_off560_inb : ∀ k0_t18 : Fin k0_t18_loop.trips, ∀ a, (k0_off560 k0_t18) a + S1x16.size a ≤ S64x512.size a
  k0_off561_inb : ∀ k0_t18 : Fin k0_t18_loop.trips, ∀ a, (k0_off561 k0_t18) a + S1x16.size a ≤ S64x512.size a
  k0_off562_inb : ∀ k0_t18 : Fin k0_t18_loop.trips, ∀ a, (k0_off562 k0_t18) a + S1x16.size a ≤ S64x512.size a
  k0_off563_inb : ∀ k0_t18 : Fin k0_t18_loop.trips, ∀ a, (k0_off563 k0_t18) a + S1x16.size a ≤ S64x512.size a
  k0_off564_inb : ∀ k0_t18 : Fin k0_t18_loop.trips, ∀ a, (k0_off564 k0_t18) a + S1x16.size a ≤ S64x512.size a
  k0_off565_inb : ∀ k0_t18 : Fin k0_t18_loop.trips, ∀ a, (k0_off565 k0_t18) a + S1x16.size a ≤ S64x512.size a
  k0_off566_inb : ∀ k0_t18 : Fin k0_t18_loop.trips, ∀ a, (k0_off566 k0_t18) a + S1x16.size a ≤ S64x512.size a
  k0_off567_inb : ∀ k0_t18 : Fin k0_t18_loop.trips, ∀ a, (k0_off567 k0_t18) a + S1x16.size a ≤ S64x512.size a
  k0_off568_inb : ∀ k0_t18 : Fin k0_t18_loop.trips, ∀ a, (k0_off568 k0_t18) a + S1x16.size a ≤ S64x512.size a
  k0_off569_inb : ∀ k0_t18 : Fin k0_t18_loop.trips, ∀ a, (k0_off569 k0_t18) a + S1x16.size a ≤ S64x512.size a
  k0_off570_inb : ∀ k0_t18 : Fin k0_t18_loop.trips, ∀ a, (k0_off570 k0_t18) a + S1x16.size a ≤ S64x512.size a
  k0_off571_inb : ∀ k0_t18 : Fin k0_t18_loop.trips, ∀ a, (k0_off571 k0_t18) a + S1x16.size a ≤ S64x512.size a
  k0_off572_inb : ∀ k0_t18 : Fin k0_t18_loop.trips, ∀ a, (k0_off572 k0_t18) a + S1x16.size a ≤ S64x512.size a
  k0_off573_inb : ∀ k0_t18 : Fin k0_t18_loop.trips, ∀ a, (k0_off573 k0_t18) a + S1x16.size a ≤ S64x512.size a
  k0_off574_inb : ∀ k0_t18 : Fin k0_t18_loop.trips, ∀ a, (k0_off574 k0_t18) a + S1x16.size a ≤ S64x512.size a
  k0_off575_inb : ∀ k0_t18 : Fin k0_t18_loop.trips, ∀ a, (k0_off575 k0_t18) a + S1x16.size a ≤ S64x512.size a
  k0_off576_inb : ∀ k0_t18 : Fin k0_t18_loop.trips, ∀ a, (k0_off576 k0_t18) a + S1x16.size a ≤ S64x512.size a
  k0_off577_inb : ∀ k0_t18 : Fin k0_t18_loop.trips, ∀ a, (k0_off577 k0_t18) a + S1x16.size a ≤ S64x512.size a
  k0_off578_inb : ∀ k0_t18 : Fin k0_t18_loop.trips, ∀ a, (k0_off578 k0_t18) a + S1x16.size a ≤ S64x512.size a
  k0_off579_inb : ∀ k0_t18 : Fin k0_t18_loop.trips, ∀ a, (k0_off579 k0_t18) a + S1x16.size a ≤ S64x512.size a
  k0_off580_inb : ∀ k0_t18 : Fin k0_t18_loop.trips, ∀ a, (k0_off580 k0_t18) a + S1x16.size a ≤ S64x512.size a
  k0_off581_inb : ∀ k0_t18 : Fin k0_t18_loop.trips, ∀ a, (k0_off581 k0_t18) a + S1x16.size a ≤ S64x512.size a
  k0_off582_inb : ∀ k0_t18 : Fin k0_t18_loop.trips, ∀ a, (k0_off582 k0_t18) a + S1x16.size a ≤ S64x512.size a
  k0_t19_ok : k0_t19_loop.OK
  k0_off583_inb : ∀ k0_t19 : Fin k0_t19_loop.trips, ∀ a, (k0_off583 k0_t19) a + S1x16.size a ≤ S64x512.size a
  k0_off584_inb : ∀ k0_t19 : Fin k0_t19_loop.trips, ∀ a, (k0_off584 k0_t19) a + S1x16.size a ≤ S64x512.size a
  k0_off585_inb : ∀ k0_t19 : Fin k0_t19_loop.trips, ∀ a, (k0_off585 k0_t19) a + S1x16.size a ≤ S64x512.size a
  k0_off586_inb : ∀ k0_t19 : Fin k0_t19_loop.trips, ∀ a, (k0_off586 k0_t19) a + S1x16.size a ≤ S64x512.size a
  k0_off587_inb : ∀ k0_t19 : Fin k0_t19_loop.trips, ∀ a, (k0_off587 k0_t19) a + S1x16.size a ≤ S64x512.size a
  k0_off588_inb : ∀ k0_t19 : Fin k0_t19_loop.trips, ∀ a, (k0_off588 k0_t19) a + S1x16.size a ≤ S64x512.size a
  k0_off589_inb : ∀ k0_t19 : Fin k0_t19_loop.trips, ∀ a, (k0_off589 k0_t19) a + S1x16.size a ≤ S64x512.size a
  k0_off590_inb : ∀ k0_t19 : Fin k0_t19_loop.trips, ∀ a, (k0_off590 k0_t19) a + S1x16.size a ≤ S64x512.size a
  k0_off591_inb : ∀ k0_t19 : Fin k0_t19_loop.trips, ∀ a, (k0_off591 k0_t19) a + S1x16.size a ≤ S64x512.size a
  k0_off592_inb : ∀ k0_t19 : Fin k0_t19_loop.trips, ∀ a, (k0_off592 k0_t19) a + S1x16.size a ≤ S64x512.size a
  k0_off593_inb : ∀ k0_t19 : Fin k0_t19_loop.trips, ∀ a, (k0_off593 k0_t19) a + S1x16.size a ≤ S64x512.size a
  k0_off594_inb : ∀ k0_t19 : Fin k0_t19_loop.trips, ∀ a, (k0_off594 k0_t19) a + S1x16.size a ≤ S64x512.size a
  k0_off595_inb : ∀ k0_t19 : Fin k0_t19_loop.trips, ∀ a, (k0_off595 k0_t19) a + S1x16.size a ≤ S64x512.size a
  k0_off596_inb : ∀ k0_t19 : Fin k0_t19_loop.trips, ∀ a, (k0_off596 k0_t19) a + S1x16.size a ≤ S64x512.size a
  k0_off597_inb : ∀ k0_t19 : Fin k0_t19_loop.trips, ∀ a, (k0_off597 k0_t19) a + S1x16.size a ≤ S64x512.size a
  k0_off598_inb : ∀ k0_t19 : Fin k0_t19_loop.trips, ∀ a, (k0_off598 k0_t19) a + S1x16.size a ≤ S64x512.size a
  k0_off599_inb : ∀ k0_t19 : Fin k0_t19_loop.trips, ∀ a, (k0_off599 k0_t19) a + S1x16.size a ≤ S64x512.size a
  k0_off600_inb : ∀ k0_t19 : Fin k0_t19_loop.trips, ∀ a, (k0_off600 k0_t19) a + S1x16.size a ≤ S64x512.size a
  k0_off601_inb : ∀ k0_t19 : Fin k0_t19_loop.trips, ∀ a, (k0_off601 k0_t19) a + S1x16.size a ≤ S64x512.size a
  k0_off602_inb : ∀ k0_t19 : Fin k0_t19_loop.trips, ∀ a, (k0_off602 k0_t19) a + S1x16.size a ≤ S64x512.size a
  k0_off603_inb : ∀ k0_t19 : Fin k0_t19_loop.trips, ∀ a, (k0_off603 k0_t19) a + S1x16.size a ≤ S64x512.size a
  k0_off604_inb : ∀ k0_t19 : Fin k0_t19_loop.trips, ∀ a, (k0_off604 k0_t19) a + S1x16.size a ≤ S64x512.size a
  k0_off605_inb : ∀ k0_t19 : Fin k0_t19_loop.trips, ∀ a, (k0_off605 k0_t19) a + S1x16.size a ≤ S64x512.size a
  k0_off606_inb : ∀ k0_t19 : Fin k0_t19_loop.trips, ∀ a, (k0_off606 k0_t19) a + S1x16.size a ≤ S64x512.size a
  k0_off607_inb : ∀ k0_t19 : Fin k0_t19_loop.trips, ∀ a, (k0_off607 k0_t19) a + S1x16.size a ≤ S64x512.size a
  k0_off608_inb : ∀ k0_t19 : Fin k0_t19_loop.trips, ∀ a, (k0_off608 k0_t19) a + S1x16.size a ≤ S64x512.size a
  k0_off609_inb : ∀ k0_t19 : Fin k0_t19_loop.trips, ∀ a, (k0_off609 k0_t19) a + S1x16.size a ≤ S64x512.size a
  k0_off610_inb : ∀ k0_t19 : Fin k0_t19_loop.trips, ∀ a, (k0_off610 k0_t19) a + S1x16.size a ≤ S64x512.size a
  k0_off611_inb : ∀ k0_t19 : Fin k0_t19_loop.trips, ∀ a, (k0_off611 k0_t19) a + S1x16.size a ≤ S64x512.size a
  k0_off612_inb : ∀ k0_t19 : Fin k0_t19_loop.trips, ∀ a, (k0_off612 k0_t19) a + S1x16.size a ≤ S64x512.size a
  k0_off613_inb : ∀ k0_t19 : Fin k0_t19_loop.trips, ∀ a, (k0_off613 k0_t19) a + S1x16.size a ≤ S64x512.size a
  k0_off614_inb : ∀ k0_t19 : Fin k0_t19_loop.trips, ∀ a, (k0_off614 k0_t19) a + S1x16.size a ≤ S64x512.size a
  k0_off615_inb : ∀ i : grid0.Coords, ∀ (r : Fin 4), ∀ a, (k0_off615 i (BitVec.ofNat 32 (64 * r.val))) a + S1x64x512.size a ≤ S16x2048x2048.size a
  k0_t20_ok : k0_t20_loop.OK
  k0_off616_inb : ∀ k0_t20 : Fin k0_t20_loop.trips, ∀ a, (k0_off616 k0_t20) a + S1x16.size a ≤ S64x512.size a
  k0_off617_inb : ∀ k0_t20 : Fin k0_t20_loop.trips, ∀ a, (k0_off617 k0_t20) a + S1x16.size a ≤ S64x512.size a
  k0_off618_inb : ∀ k0_t20 : Fin k0_t20_loop.trips, ∀ a, (k0_off618 k0_t20) a + S1x16.size a ≤ S64x512.size a
  k0_off619_inb : ∀ k0_t20 : Fin k0_t20_loop.trips, ∀ a, (k0_off619 k0_t20) a + S1x16.size a ≤ S64x512.size a
  k0_off620_inb : ∀ k0_t20 : Fin k0_t20_loop.trips, ∀ a, (k0_off620 k0_t20) a + S1x16.size a ≤ S64x512.size a
  k0_off621_inb : ∀ k0_t20 : Fin k0_t20_loop.trips, ∀ a, (k0_off621 k0_t20) a + S1x16.size a ≤ S64x512.size a
  k0_off622_inb : ∀ k0_t20 : Fin k0_t20_loop.trips, ∀ a, (k0_off622 k0_t20) a + S1x16.size a ≤ S64x512.size a
  k0_off623_inb : ∀ k0_t20 : Fin k0_t20_loop.trips, ∀ a, (k0_off623 k0_t20) a + S1x16.size a ≤ S64x512.size a
  k0_off624_inb : ∀ k0_t20 : Fin k0_t20_loop.trips, ∀ a, (k0_off624 k0_t20) a + S1x16.size a ≤ S64x512.size a
  k0_off625_inb : ∀ k0_t20 : Fin k0_t20_loop.trips, ∀ a, (k0_off625 k0_t20) a + S1x16.size a ≤ S64x512.size a
  k0_off626_inb : ∀ k0_t20 : Fin k0_t20_loop.trips, ∀ a, (k0_off626 k0_t20) a + S1x16.size a ≤ S64x512.size a
  k0_off627_inb : ∀ k0_t20 : Fin k0_t20_loop.trips, ∀ a, (k0_off627 k0_t20) a + S1x16.size a ≤ S64x512.size a
  k0_off628_inb : ∀ k0_t20 : Fin k0_t20_loop.trips, ∀ a, (k0_off628 k0_t20) a + S1x16.size a ≤ S64x512.size a
  k0_off629_inb : ∀ k0_t20 : Fin k0_t20_loop.trips, ∀ a, (k0_off629 k0_t20) a + S1x16.size a ≤ S64x512.size a
  k0_off630_inb : ∀ k0_t20 : Fin k0_t20_loop.trips, ∀ a, (k0_off630 k0_t20) a + S1x16.size a ≤ S64x512.size a
  k0_off631_inb : ∀ k0_t20 : Fin k0_t20_loop.trips, ∀ a, (k0_off631 k0_t20) a + S1x16.size a ≤ S64x512.size a
  k0_off632_inb : ∀ k0_t20 : Fin k0_t20_loop.trips, ∀ a, (k0_off632 k0_t20) a + S1x16.size a ≤ S64x512.size a
  k0_off633_inb : ∀ k0_t20 : Fin k0_t20_loop.trips, ∀ a, (k0_off633 k0_t20) a + S1x16.size a ≤ S64x512.size a
  k0_off634_inb : ∀ k0_t20 : Fin k0_t20_loop.trips, ∀ a, (k0_off634 k0_t20) a + S1x16.size a ≤ S64x512.size a
  k0_off635_inb : ∀ k0_t20 : Fin k0_t20_loop.trips, ∀ a, (k0_off635 k0_t20) a + S1x16.size a ≤ S64x512.size a
  k0_off636_inb : ∀ k0_t20 : Fin k0_t20_loop.trips, ∀ a, (k0_off636 k0_t20) a + S1x16.size a ≤ S64x512.size a
  k0_off637_inb : ∀ k0_t20 : Fin k0_t20_loop.trips, ∀ a, (k0_off637 k0_t20) a + S1x16.size a ≤ S64x512.size a
  k0_off638_inb : ∀ k0_t20 : Fin k0_t20_loop.trips, ∀ a, (k0_off638 k0_t20) a + S1x16.size a ≤ S64x512.size a
  k0_off639_inb : ∀ k0_t20 : Fin k0_t20_loop.trips, ∀ a, (k0_off639 k0_t20) a + S1x16.size a ≤ S64x512.size a
  k0_off640_inb : ∀ k0_t20 : Fin k0_t20_loop.trips, ∀ a, (k0_off640 k0_t20) a + S1x16.size a ≤ S64x512.size a
  k0_off641_inb : ∀ k0_t20 : Fin k0_t20_loop.trips, ∀ a, (k0_off641 k0_t20) a + S1x16.size a ≤ S64x512.size a
  k0_off642_inb : ∀ k0_t20 : Fin k0_t20_loop.trips, ∀ a, (k0_off642 k0_t20) a + S1x16.size a ≤ S64x512.size a
  k0_off643_inb : ∀ k0_t20 : Fin k0_t20_loop.trips, ∀ a, (k0_off643 k0_t20) a + S1x16.size a ≤ S64x512.size a
  k0_off644_inb : ∀ k0_t20 : Fin k0_t20_loop.trips, ∀ a, (k0_off644 k0_t20) a + S1x16.size a ≤ S64x512.size a
  k0_off645_inb : ∀ k0_t20 : Fin k0_t20_loop.trips, ∀ a, (k0_off645 k0_t20) a + S1x16.size a ≤ S64x512.size a
  k0_off646_inb : ∀ k0_t20 : Fin k0_t20_loop.trips, ∀ a, (k0_off646 k0_t20) a + S1x16.size a ≤ S64x512.size a
  k0_off647_inb : ∀ k0_t20 : Fin k0_t20_loop.trips, ∀ a, (k0_off647 k0_t20) a + S1x16.size a ≤ S64x512.size a
  k0_mult5_dvd : ∀ i : grid0.Coords, 8 ∣ (k0_mult5 i).toNat
  k0_t21_ok : k0_t21_loop.OK
  k0_off648_inb : ∀ k0_t21 : Fin k0_t21_loop.trips, ∀ a, (k0_off648 k0_t21) a + S1x16.size a ≤ S64x512.size a
  k0_off649_inb : ∀ k0_t21 : Fin k0_t21_loop.trips, ∀ a, (k0_off649 k0_t21) a + S1x16.size a ≤ S64x512.size a
  k0_off650_inb : ∀ k0_t21 : Fin k0_t21_loop.trips, ∀ a, (k0_off650 k0_t21) a + S1x16.size a ≤ S64x512.size a
  k0_off651_inb : ∀ k0_t21 : Fin k0_t21_loop.trips, ∀ a, (k0_off651 k0_t21) a + S1x16.size a ≤ S64x512.size a
  k0_off652_inb : ∀ k0_t21 : Fin k0_t21_loop.trips, ∀ a, (k0_off652 k0_t21) a + S1x16.size a ≤ S64x512.size a
  k0_off653_inb : ∀ k0_t21 : Fin k0_t21_loop.trips, ∀ a, (k0_off653 k0_t21) a + S1x16.size a ≤ S64x512.size a
  k0_off654_inb : ∀ k0_t21 : Fin k0_t21_loop.trips, ∀ a, (k0_off654 k0_t21) a + S1x16.size a ≤ S64x512.size a
  k0_off655_inb : ∀ k0_t21 : Fin k0_t21_loop.trips, ∀ a, (k0_off655 k0_t21) a + S1x16.size a ≤ S64x512.size a
  k0_off656_inb : ∀ k0_t21 : Fin k0_t21_loop.trips, ∀ a, (k0_off656 k0_t21) a + S1x16.size a ≤ S64x512.size a
  k0_off657_inb : ∀ k0_t21 : Fin k0_t21_loop.trips, ∀ a, (k0_off657 k0_t21) a + S1x16.size a ≤ S64x512.size a
  k0_off658_inb : ∀ k0_t21 : Fin k0_t21_loop.trips, ∀ a, (k0_off658 k0_t21) a + S1x16.size a ≤ S64x512.size a
  k0_off659_inb : ∀ k0_t21 : Fin k0_t21_loop.trips, ∀ a, (k0_off659 k0_t21) a + S1x16.size a ≤ S64x512.size a
  k0_off660_inb : ∀ k0_t21 : Fin k0_t21_loop.trips, ∀ a, (k0_off660 k0_t21) a + S1x16.size a ≤ S64x512.size a
  k0_off661_inb : ∀ k0_t21 : Fin k0_t21_loop.trips, ∀ a, (k0_off661 k0_t21) a + S1x16.size a ≤ S64x512.size a
  k0_off662_inb : ∀ k0_t21 : Fin k0_t21_loop.trips, ∀ a, (k0_off662 k0_t21) a + S1x16.size a ≤ S64x512.size a
  k0_off663_inb : ∀ k0_t21 : Fin k0_t21_loop.trips, ∀ a, (k0_off663 k0_t21) a + S1x16.size a ≤ S64x512.size a
  k0_off664_inb : ∀ k0_t21 : Fin k0_t21_loop.trips, ∀ a, (k0_off664 k0_t21) a + S1x16.size a ≤ S64x512.size a
  k0_off665_inb : ∀ k0_t21 : Fin k0_t21_loop.trips, ∀ a, (k0_off665 k0_t21) a + S1x16.size a ≤ S64x512.size a
  k0_off666_inb : ∀ k0_t21 : Fin k0_t21_loop.trips, ∀ a, (k0_off666 k0_t21) a + S1x16.size a ≤ S64x512.size a
  k0_off667_inb : ∀ k0_t21 : Fin k0_t21_loop.trips, ∀ a, (k0_off667 k0_t21) a + S1x16.size a ≤ S64x512.size a
  k0_off668_inb : ∀ k0_t21 : Fin k0_t21_loop.trips, ∀ a, (k0_off668 k0_t21) a + S1x16.size a ≤ S64x512.size a
  k0_off669_inb : ∀ k0_t21 : Fin k0_t21_loop.trips, ∀ a, (k0_off669 k0_t21) a + S1x16.size a ≤ S64x512.size a
  k0_off670_inb : ∀ k0_t21 : Fin k0_t21_loop.trips, ∀ a, (k0_off670 k0_t21) a + S1x16.size a ≤ S64x512.size a
  k0_off671_inb : ∀ k0_t21 : Fin k0_t21_loop.trips, ∀ a, (k0_off671 k0_t21) a + S1x16.size a ≤ S64x512.size a
  k0_off672_inb : ∀ k0_t21 : Fin k0_t21_loop.trips, ∀ a, (k0_off672 k0_t21) a + S1x16.size a ≤ S64x512.size a
  k0_off673_inb : ∀ k0_t21 : Fin k0_t21_loop.trips, ∀ a, (k0_off673 k0_t21) a + S1x16.size a ≤ S64x512.size a
  k0_off674_inb : ∀ k0_t21 : Fin k0_t21_loop.trips, ∀ a, (k0_off674 k0_t21) a + S1x16.size a ≤ S64x512.size a
  k0_off675_inb : ∀ k0_t21 : Fin k0_t21_loop.trips, ∀ a, (k0_off675 k0_t21) a + S1x16.size a ≤ S64x512.size a
  k0_off676_inb : ∀ k0_t21 : Fin k0_t21_loop.trips, ∀ a, (k0_off676 k0_t21) a + S1x16.size a ≤ S64x512.size a
  k0_off677_inb : ∀ k0_t21 : Fin k0_t21_loop.trips, ∀ a, (k0_off677 k0_t21) a + S1x16.size a ≤ S64x512.size a
  k0_off678_inb : ∀ k0_t21 : Fin k0_t21_loop.trips, ∀ a, (k0_off678 k0_t21) a + S1x16.size a ≤ S64x512.size a
  k0_off679_inb : ∀ k0_t21 : Fin k0_t21_loop.trips, ∀ a, (k0_off679 k0_t21) a + S1x16.size a ≤ S64x512.size a
  k0_t22_ok : k0_t22_loop.OK
  k0_off680_inb : ∀ k0_t22 : Fin k0_t22_loop.trips, ∀ a, (k0_off680 k0_t22) a + S1x16.size a ≤ S64x512.size a
  k0_off681_inb : ∀ k0_t22 : Fin k0_t22_loop.trips, ∀ a, (k0_off681 k0_t22) a + S1x16.size a ≤ S64x512.size a
  k0_off682_inb : ∀ k0_t22 : Fin k0_t22_loop.trips, ∀ a, (k0_off682 k0_t22) a + S1x16.size a ≤ S64x512.size a
  k0_off683_inb : ∀ k0_t22 : Fin k0_t22_loop.trips, ∀ a, (k0_off683 k0_t22) a + S1x16.size a ≤ S64x512.size a
  k0_off684_inb : ∀ k0_t22 : Fin k0_t22_loop.trips, ∀ a, (k0_off684 k0_t22) a + S1x16.size a ≤ S64x512.size a
  k0_off685_inb : ∀ k0_t22 : Fin k0_t22_loop.trips, ∀ a, (k0_off685 k0_t22) a + S1x16.size a ≤ S64x512.size a
  k0_off686_inb : ∀ k0_t22 : Fin k0_t22_loop.trips, ∀ a, (k0_off686 k0_t22) a + S1x16.size a ≤ S64x512.size a
  k0_off687_inb : ∀ k0_t22 : Fin k0_t22_loop.trips, ∀ a, (k0_off687 k0_t22) a + S1x16.size a ≤ S64x512.size a
  k0_off688_inb : ∀ k0_t22 : Fin k0_t22_loop.trips, ∀ a, (k0_off688 k0_t22) a + S1x16.size a ≤ S64x512.size a
  k0_off689_inb : ∀ k0_t22 : Fin k0_t22_loop.trips, ∀ a, (k0_off689 k0_t22) a + S1x16.size a ≤ S64x512.size a
  k0_off690_inb : ∀ k0_t22 : Fin k0_t22_loop.trips, ∀ a, (k0_off690 k0_t22) a + S1x16.size a ≤ S64x512.size a
  k0_off691_inb : ∀ k0_t22 : Fin k0_t22_loop.trips, ∀ a, (k0_off691 k0_t22) a + S1x16.size a ≤ S64x512.size a
  k0_off692_inb : ∀ k0_t22 : Fin k0_t22_loop.trips, ∀ a, (k0_off692 k0_t22) a + S1x16.size a ≤ S64x512.size a
  k0_off693_inb : ∀ k0_t22 : Fin k0_t22_loop.trips, ∀ a, (k0_off693 k0_t22) a + S1x16.size a ≤ S64x512.size a
  k0_off694_inb : ∀ k0_t22 : Fin k0_t22_loop.trips, ∀ a, (k0_off694 k0_t22) a + S1x16.size a ≤ S64x512.size a
  k0_off695_inb : ∀ k0_t22 : Fin k0_t22_loop.trips, ∀ a, (k0_off695 k0_t22) a + S1x16.size a ≤ S64x512.size a
  k0_off696_inb : ∀ k0_t22 : Fin k0_t22_loop.trips, ∀ a, (k0_off696 k0_t22) a + S1x16.size a ≤ S64x512.size a
  k0_off697_inb : ∀ k0_t22 : Fin k0_t22_loop.trips, ∀ a, (k0_off697 k0_t22) a + S1x16.size a ≤ S64x512.size a
  k0_off698_inb : ∀ k0_t22 : Fin k0_t22_loop.trips, ∀ a, (k0_off698 k0_t22) a + S1x16.size a ≤ S64x512.size a
  k0_off699_inb : ∀ k0_t22 : Fin k0_t22_loop.trips, ∀ a, (k0_off699 k0_t22) a + S1x16.size a ≤ S64x512.size a
  k0_off700_inb : ∀ k0_t22 : Fin k0_t22_loop.trips, ∀ a, (k0_off700 k0_t22) a + S1x16.size a ≤ S64x512.size a
  k0_off701_inb : ∀ k0_t22 : Fin k0_t22_loop.trips, ∀ a, (k0_off701 k0_t22) a + S1x16.size a ≤ S64x512.size a
  k0_off702_inb : ∀ k0_t22 : Fin k0_t22_loop.trips, ∀ a, (k0_off702 k0_t22) a + S1x16.size a ≤ S64x512.size a
  k0_off703_inb : ∀ k0_t22 : Fin k0_t22_loop.trips, ∀ a, (k0_off703 k0_t22) a + S1x16.size a ≤ S64x512.size a
  k0_off704_inb : ∀ k0_t22 : Fin k0_t22_loop.trips, ∀ a, (k0_off704 k0_t22) a + S1x16.size a ≤ S64x512.size a
  k0_off705_inb : ∀ k0_t22 : Fin k0_t22_loop.trips, ∀ a, (k0_off705 k0_t22) a + S1x16.size a ≤ S64x512.size a
  k0_off706_inb : ∀ k0_t22 : Fin k0_t22_loop.trips, ∀ a, (k0_off706 k0_t22) a + S1x16.size a ≤ S64x512.size a
  k0_off707_inb : ∀ k0_t22 : Fin k0_t22_loop.trips, ∀ a, (k0_off707 k0_t22) a + S1x16.size a ≤ S64x512.size a
  k0_off708_inb : ∀ k0_t22 : Fin k0_t22_loop.trips, ∀ a, (k0_off708 k0_t22) a + S1x16.size a ≤ S64x512.size a
  k0_off709_inb : ∀ k0_t22 : Fin k0_t22_loop.trips, ∀ a, (k0_off709 k0_t22) a + S1x16.size a ≤ S64x512.size a
  k0_off710_inb : ∀ k0_t22 : Fin k0_t22_loop.trips, ∀ a, (k0_off710 k0_t22) a + S1x16.size a ≤ S64x512.size a
  k0_off711_inb : ∀ k0_t22 : Fin k0_t22_loop.trips, ∀ a, (k0_off711 k0_t22) a + S1x16.size a ≤ S64x512.size a
  k0_t23_ok : k0_t23_loop.OK
  k0_off712_inb : ∀ k0_t23 : Fin k0_t23_loop.trips, ∀ a, (k0_off712 k0_t23) a + S1x16.size a ≤ S64x512.size a
  k0_off713_inb : ∀ k0_t23 : Fin k0_t23_loop.trips, ∀ a, (k0_off713 k0_t23) a + S1x16.size a ≤ S64x512.size a
  k0_off714_inb : ∀ k0_t23 : Fin k0_t23_loop.trips, ∀ a, (k0_off714 k0_t23) a + S1x16.size a ≤ S64x512.size a
  k0_off715_inb : ∀ k0_t23 : Fin k0_t23_loop.trips, ∀ a, (k0_off715 k0_t23) a + S1x16.size a ≤ S64x512.size a
  k0_off716_inb : ∀ k0_t23 : Fin k0_t23_loop.trips, ∀ a, (k0_off716 k0_t23) a + S1x16.size a ≤ S64x512.size a
  k0_off717_inb : ∀ k0_t23 : Fin k0_t23_loop.trips, ∀ a, (k0_off717 k0_t23) a + S1x16.size a ≤ S64x512.size a
  k0_off718_inb : ∀ k0_t23 : Fin k0_t23_loop.trips, ∀ a, (k0_off718 k0_t23) a + S1x16.size a ≤ S64x512.size a
  k0_off719_inb : ∀ k0_t23 : Fin k0_t23_loop.trips, ∀ a, (k0_off719 k0_t23) a + S1x16.size a ≤ S64x512.size a
  k0_off720_inb : ∀ k0_t23 : Fin k0_t23_loop.trips, ∀ a, (k0_off720 k0_t23) a + S1x16.size a ≤ S64x512.size a
  k0_off721_inb : ∀ k0_t23 : Fin k0_t23_loop.trips, ∀ a, (k0_off721 k0_t23) a + S1x16.size a ≤ S64x512.size a
  k0_off722_inb : ∀ k0_t23 : Fin k0_t23_loop.trips, ∀ a, (k0_off722 k0_t23) a + S1x16.size a ≤ S64x512.size a
  k0_off723_inb : ∀ k0_t23 : Fin k0_t23_loop.trips, ∀ a, (k0_off723 k0_t23) a + S1x16.size a ≤ S64x512.size a
  k0_off724_inb : ∀ k0_t23 : Fin k0_t23_loop.trips, ∀ a, (k0_off724 k0_t23) a + S1x16.size a ≤ S64x512.size a
  k0_off725_inb : ∀ k0_t23 : Fin k0_t23_loop.trips, ∀ a, (k0_off725 k0_t23) a + S1x16.size a ≤ S64x512.size a
  k0_off726_inb : ∀ k0_t23 : Fin k0_t23_loop.trips, ∀ a, (k0_off726 k0_t23) a + S1x16.size a ≤ S64x512.size a
  k0_off727_inb : ∀ k0_t23 : Fin k0_t23_loop.trips, ∀ a, (k0_off727 k0_t23) a + S1x16.size a ≤ S64x512.size a
  k0_off728_inb : ∀ k0_t23 : Fin k0_t23_loop.trips, ∀ a, (k0_off728 k0_t23) a + S1x16.size a ≤ S64x512.size a
  k0_off729_inb : ∀ k0_t23 : Fin k0_t23_loop.trips, ∀ a, (k0_off729 k0_t23) a + S1x16.size a ≤ S64x512.size a
  k0_off730_inb : ∀ k0_t23 : Fin k0_t23_loop.trips, ∀ a, (k0_off730 k0_t23) a + S1x16.size a ≤ S64x512.size a
  k0_off731_inb : ∀ k0_t23 : Fin k0_t23_loop.trips, ∀ a, (k0_off731 k0_t23) a + S1x16.size a ≤ S64x512.size a
  k0_off732_inb : ∀ k0_t23 : Fin k0_t23_loop.trips, ∀ a, (k0_off732 k0_t23) a + S1x16.size a ≤ S64x512.size a
  k0_off733_inb : ∀ k0_t23 : Fin k0_t23_loop.trips, ∀ a, (k0_off733 k0_t23) a + S1x16.size a ≤ S64x512.size a
  k0_off734_inb : ∀ k0_t23 : Fin k0_t23_loop.trips, ∀ a, (k0_off734 k0_t23) a + S1x16.size a ≤ S64x512.size a
  k0_off735_inb : ∀ k0_t23 : Fin k0_t23_loop.trips, ∀ a, (k0_off735 k0_t23) a + S1x16.size a ≤ S64x512.size a
  k0_off736_inb : ∀ k0_t23 : Fin k0_t23_loop.trips, ∀ a, (k0_off736 k0_t23) a + S1x16.size a ≤ S64x512.size a
  k0_off737_inb : ∀ k0_t23 : Fin k0_t23_loop.trips, ∀ a, (k0_off737 k0_t23) a + S1x16.size a ≤ S64x512.size a
  k0_off738_inb : ∀ k0_t23 : Fin k0_t23_loop.trips, ∀ a, (k0_off738 k0_t23) a + S1x16.size a ≤ S64x512.size a
  k0_off739_inb : ∀ k0_t23 : Fin k0_t23_loop.trips, ∀ a, (k0_off739 k0_t23) a + S1x16.size a ≤ S64x512.size a
  k0_off740_inb : ∀ k0_t23 : Fin k0_t23_loop.trips, ∀ a, (k0_off740 k0_t23) a + S1x16.size a ≤ S64x512.size a
  k0_off741_inb : ∀ k0_t23 : Fin k0_t23_loop.trips, ∀ a, (k0_off741 k0_t23) a + S1x16.size a ≤ S64x512.size a
  k0_off742_inb : ∀ k0_t23 : Fin k0_t23_loop.trips, ∀ a, (k0_off742 k0_t23) a + S1x16.size a ≤ S64x512.size a
  k0_off743_inb : ∀ k0_t23 : Fin k0_t23_loop.trips, ∀ a, (k0_off743 k0_t23) a + S1x16.size a ≤ S64x512.size a
  k0_off744_inb : ∀ i : grid0.Coords, ∀ (r : Fin 4), ∀ a, (k0_off744 i (BitVec.ofNat 32 (64 * r.val))) a + S1x64x512.size a ≤ S16x2048x2048.size a
  k0_t24_ok : k0_t24_loop.OK
  k0_off745_inb : ∀ k0_t24 : Fin k0_t24_loop.trips, ∀ a, (k0_off745 k0_t24) a + S1x16.size a ≤ S64x512.size a
  k0_off746_inb : ∀ k0_t24 : Fin k0_t24_loop.trips, ∀ a, (k0_off746 k0_t24) a + S1x16.size a ≤ S64x512.size a
  k0_off747_inb : ∀ k0_t24 : Fin k0_t24_loop.trips, ∀ a, (k0_off747 k0_t24) a + S1x16.size a ≤ S64x512.size a
  k0_off748_inb : ∀ k0_t24 : Fin k0_t24_loop.trips, ∀ a, (k0_off748 k0_t24) a + S1x16.size a ≤ S64x512.size a
  k0_off749_inb : ∀ k0_t24 : Fin k0_t24_loop.trips, ∀ a, (k0_off749 k0_t24) a + S1x16.size a ≤ S64x512.size a
  k0_off750_inb : ∀ k0_t24 : Fin k0_t24_loop.trips, ∀ a, (k0_off750 k0_t24) a + S1x16.size a ≤ S64x512.size a
  k0_off751_inb : ∀ k0_t24 : Fin k0_t24_loop.trips, ∀ a, (k0_off751 k0_t24) a + S1x16.size a ≤ S64x512.size a
  k0_off752_inb : ∀ k0_t24 : Fin k0_t24_loop.trips, ∀ a, (k0_off752 k0_t24) a + S1x16.size a ≤ S64x512.size a
  k0_off753_inb : ∀ k0_t24 : Fin k0_t24_loop.trips, ∀ a, (k0_off753 k0_t24) a + S1x16.size a ≤ S64x512.size a
  k0_off754_inb : ∀ k0_t24 : Fin k0_t24_loop.trips, ∀ a, (k0_off754 k0_t24) a + S1x16.size a ≤ S64x512.size a
  k0_off755_inb : ∀ k0_t24 : Fin k0_t24_loop.trips, ∀ a, (k0_off755 k0_t24) a + S1x16.size a ≤ S64x512.size a
  k0_off756_inb : ∀ k0_t24 : Fin k0_t24_loop.trips, ∀ a, (k0_off756 k0_t24) a + S1x16.size a ≤ S64x512.size a
  k0_off757_inb : ∀ k0_t24 : Fin k0_t24_loop.trips, ∀ a, (k0_off757 k0_t24) a + S1x16.size a ≤ S64x512.size a
  k0_off758_inb : ∀ k0_t24 : Fin k0_t24_loop.trips, ∀ a, (k0_off758 k0_t24) a + S1x16.size a ≤ S64x512.size a
  k0_off759_inb : ∀ k0_t24 : Fin k0_t24_loop.trips, ∀ a, (k0_off759 k0_t24) a + S1x16.size a ≤ S64x512.size a
  k0_off760_inb : ∀ k0_t24 : Fin k0_t24_loop.trips, ∀ a, (k0_off760 k0_t24) a + S1x16.size a ≤ S64x512.size a
  k0_off761_inb : ∀ k0_t24 : Fin k0_t24_loop.trips, ∀ a, (k0_off761 k0_t24) a + S1x16.size a ≤ S64x512.size a
  k0_off762_inb : ∀ k0_t24 : Fin k0_t24_loop.trips, ∀ a, (k0_off762 k0_t24) a + S1x16.size a ≤ S64x512.size a
  k0_off763_inb : ∀ k0_t24 : Fin k0_t24_loop.trips, ∀ a, (k0_off763 k0_t24) a + S1x16.size a ≤ S64x512.size a
  k0_off764_inb : ∀ k0_t24 : Fin k0_t24_loop.trips, ∀ a, (k0_off764 k0_t24) a + S1x16.size a ≤ S64x512.size a
  k0_off765_inb : ∀ k0_t24 : Fin k0_t24_loop.trips, ∀ a, (k0_off765 k0_t24) a + S1x16.size a ≤ S64x512.size a
  k0_off766_inb : ∀ k0_t24 : Fin k0_t24_loop.trips, ∀ a, (k0_off766 k0_t24) a + S1x16.size a ≤ S64x512.size a
  k0_off767_inb : ∀ k0_t24 : Fin k0_t24_loop.trips, ∀ a, (k0_off767 k0_t24) a + S1x16.size a ≤ S64x512.size a
  k0_off768_inb : ∀ k0_t24 : Fin k0_t24_loop.trips, ∀ a, (k0_off768 k0_t24) a + S1x16.size a ≤ S64x512.size a
  k0_off769_inb : ∀ k0_t24 : Fin k0_t24_loop.trips, ∀ a, (k0_off769 k0_t24) a + S1x16.size a ≤ S64x512.size a
  k0_off770_inb : ∀ k0_t24 : Fin k0_t24_loop.trips, ∀ a, (k0_off770 k0_t24) a + S1x16.size a ≤ S64x512.size a
  k0_off771_inb : ∀ k0_t24 : Fin k0_t24_loop.trips, ∀ a, (k0_off771 k0_t24) a + S1x16.size a ≤ S64x512.size a
  k0_off772_inb : ∀ k0_t24 : Fin k0_t24_loop.trips, ∀ a, (k0_off772 k0_t24) a + S1x16.size a ≤ S64x512.size a
  k0_off773_inb : ∀ k0_t24 : Fin k0_t24_loop.trips, ∀ a, (k0_off773 k0_t24) a + S1x16.size a ≤ S64x512.size a
  k0_off774_inb : ∀ k0_t24 : Fin k0_t24_loop.trips, ∀ a, (k0_off774 k0_t24) a + S1x16.size a ≤ S64x512.size a
  k0_off775_inb : ∀ k0_t24 : Fin k0_t24_loop.trips, ∀ a, (k0_off775 k0_t24) a + S1x16.size a ≤ S64x512.size a
  k0_off776_inb : ∀ k0_t24 : Fin k0_t24_loop.trips, ∀ a, (k0_off776 k0_t24) a + S1x16.size a ≤ S64x512.size a
  k0_mult6_dvd : ∀ i : grid0.Coords, 8 ∣ (k0_mult6 i).toNat
  k0_t25_ok : k0_t25_loop.OK
  k0_off777_inb : ∀ k0_t25 : Fin k0_t25_loop.trips, ∀ a, (k0_off777 k0_t25) a + S1x16.size a ≤ S64x512.size a
  k0_off778_inb : ∀ k0_t25 : Fin k0_t25_loop.trips, ∀ a, (k0_off778 k0_t25) a + S1x16.size a ≤ S64x512.size a
  k0_off779_inb : ∀ k0_t25 : Fin k0_t25_loop.trips, ∀ a, (k0_off779 k0_t25) a + S1x16.size a ≤ S64x512.size a
  k0_off780_inb : ∀ k0_t25 : Fin k0_t25_loop.trips, ∀ a, (k0_off780 k0_t25) a + S1x16.size a ≤ S64x512.size a
  k0_off781_inb : ∀ k0_t25 : Fin k0_t25_loop.trips, ∀ a, (k0_off781 k0_t25) a + S1x16.size a ≤ S64x512.size a
  k0_off782_inb : ∀ k0_t25 : Fin k0_t25_loop.trips, ∀ a, (k0_off782 k0_t25) a + S1x16.size a ≤ S64x512.size a
  k0_off783_inb : ∀ k0_t25 : Fin k0_t25_loop.trips, ∀ a, (k0_off783 k0_t25) a + S1x16.size a ≤ S64x512.size a
  k0_off784_inb : ∀ k0_t25 : Fin k0_t25_loop.trips, ∀ a, (k0_off784 k0_t25) a + S1x16.size a ≤ S64x512.size a
  k0_off785_inb : ∀ k0_t25 : Fin k0_t25_loop.trips, ∀ a, (k0_off785 k0_t25) a + S1x16.size a ≤ S64x512.size a
  k0_off786_inb : ∀ k0_t25 : Fin k0_t25_loop.trips, ∀ a, (k0_off786 k0_t25) a + S1x16.size a ≤ S64x512.size a
  k0_off787_inb : ∀ k0_t25 : Fin k0_t25_loop.trips, ∀ a, (k0_off787 k0_t25) a + S1x16.size a ≤ S64x512.size a
  k0_off788_inb : ∀ k0_t25 : Fin k0_t25_loop.trips, ∀ a, (k0_off788 k0_t25) a + S1x16.size a ≤ S64x512.size a
  k0_off789_inb : ∀ k0_t25 : Fin k0_t25_loop.trips, ∀ a, (k0_off789 k0_t25) a + S1x16.size a ≤ S64x512.size a
  k0_off790_inb : ∀ k0_t25 : Fin k0_t25_loop.trips, ∀ a, (k0_off790 k0_t25) a + S1x16.size a ≤ S64x512.size a
  k0_off791_inb : ∀ k0_t25 : Fin k0_t25_loop.trips, ∀ a, (k0_off791 k0_t25) a + S1x16.size a ≤ S64x512.size a
  k0_off792_inb : ∀ k0_t25 : Fin k0_t25_loop.trips, ∀ a, (k0_off792 k0_t25) a + S1x16.size a ≤ S64x512.size a
  k0_off793_inb : ∀ k0_t25 : Fin k0_t25_loop.trips, ∀ a, (k0_off793 k0_t25) a + S1x16.size a ≤ S64x512.size a
  k0_off794_inb : ∀ k0_t25 : Fin k0_t25_loop.trips, ∀ a, (k0_off794 k0_t25) a + S1x16.size a ≤ S64x512.size a
  k0_off795_inb : ∀ k0_t25 : Fin k0_t25_loop.trips, ∀ a, (k0_off795 k0_t25) a + S1x16.size a ≤ S64x512.size a
  k0_off796_inb : ∀ k0_t25 : Fin k0_t25_loop.trips, ∀ a, (k0_off796 k0_t25) a + S1x16.size a ≤ S64x512.size a
  k0_off797_inb : ∀ k0_t25 : Fin k0_t25_loop.trips, ∀ a, (k0_off797 k0_t25) a + S1x16.size a ≤ S64x512.size a
  k0_off798_inb : ∀ k0_t25 : Fin k0_t25_loop.trips, ∀ a, (k0_off798 k0_t25) a + S1x16.size a ≤ S64x512.size a
  k0_off799_inb : ∀ k0_t25 : Fin k0_t25_loop.trips, ∀ a, (k0_off799 k0_t25) a + S1x16.size a ≤ S64x512.size a
  k0_off800_inb : ∀ k0_t25 : Fin k0_t25_loop.trips, ∀ a, (k0_off800 k0_t25) a + S1x16.size a ≤ S64x512.size a
  k0_off801_inb : ∀ k0_t25 : Fin k0_t25_loop.trips, ∀ a, (k0_off801 k0_t25) a + S1x16.size a ≤ S64x512.size a
  k0_off802_inb : ∀ k0_t25 : Fin k0_t25_loop.trips, ∀ a, (k0_off802 k0_t25) a + S1x16.size a ≤ S64x512.size a
  k0_off803_inb : ∀ k0_t25 : Fin k0_t25_loop.trips, ∀ a, (k0_off803 k0_t25) a + S1x16.size a ≤ S64x512.size a
  k0_off804_inb : ∀ k0_t25 : Fin k0_t25_loop.trips, ∀ a, (k0_off804 k0_t25) a + S1x16.size a ≤ S64x512.size a
  k0_off805_inb : ∀ k0_t25 : Fin k0_t25_loop.trips, ∀ a, (k0_off805 k0_t25) a + S1x16.size a ≤ S64x512.size a
  k0_off806_inb : ∀ k0_t25 : Fin k0_t25_loop.trips, ∀ a, (k0_off806 k0_t25) a + S1x16.size a ≤ S64x512.size a
  k0_off807_inb : ∀ k0_t25 : Fin k0_t25_loop.trips, ∀ a, (k0_off807 k0_t25) a + S1x16.size a ≤ S64x512.size a
  k0_off808_inb : ∀ k0_t25 : Fin k0_t25_loop.trips, ∀ a, (k0_off808 k0_t25) a + S1x16.size a ≤ S64x512.size a
  k0_t26_ok : k0_t26_loop.OK
  k0_off809_inb : ∀ k0_t26 : Fin k0_t26_loop.trips, ∀ a, (k0_off809 k0_t26) a + S1x16.size a ≤ S64x512.size a
  k0_off810_inb : ∀ k0_t26 : Fin k0_t26_loop.trips, ∀ a, (k0_off810 k0_t26) a + S1x16.size a ≤ S64x512.size a
  k0_off811_inb : ∀ k0_t26 : Fin k0_t26_loop.trips, ∀ a, (k0_off811 k0_t26) a + S1x16.size a ≤ S64x512.size a
  k0_off812_inb : ∀ k0_t26 : Fin k0_t26_loop.trips, ∀ a, (k0_off812 k0_t26) a + S1x16.size a ≤ S64x512.size a
  k0_off813_inb : ∀ k0_t26 : Fin k0_t26_loop.trips, ∀ a, (k0_off813 k0_t26) a + S1x16.size a ≤ S64x512.size a
  k0_off814_inb : ∀ k0_t26 : Fin k0_t26_loop.trips, ∀ a, (k0_off814 k0_t26) a + S1x16.size a ≤ S64x512.size a
  k0_off815_inb : ∀ k0_t26 : Fin k0_t26_loop.trips, ∀ a, (k0_off815 k0_t26) a + S1x16.size a ≤ S64x512.size a
  k0_off816_inb : ∀ k0_t26 : Fin k0_t26_loop.trips, ∀ a, (k0_off816 k0_t26) a + S1x16.size a ≤ S64x512.size a
  k0_off817_inb : ∀ k0_t26 : Fin k0_t26_loop.trips, ∀ a, (k0_off817 k0_t26) a + S1x16.size a ≤ S64x512.size a
  k0_off818_inb : ∀ k0_t26 : Fin k0_t26_loop.trips, ∀ a, (k0_off818 k0_t26) a + S1x16.size a ≤ S64x512.size a
  k0_off819_inb : ∀ k0_t26 : Fin k0_t26_loop.trips, ∀ a, (k0_off819 k0_t26) a + S1x16.size a ≤ S64x512.size a
  k0_off820_inb : ∀ k0_t26 : Fin k0_t26_loop.trips, ∀ a, (k0_off820 k0_t26) a + S1x16.size a ≤ S64x512.size a
  k0_off821_inb : ∀ k0_t26 : Fin k0_t26_loop.trips, ∀ a, (k0_off821 k0_t26) a + S1x16.size a ≤ S64x512.size a
  k0_off822_inb : ∀ k0_t26 : Fin k0_t26_loop.trips, ∀ a, (k0_off822 k0_t26) a + S1x16.size a ≤ S64x512.size a
  k0_off823_inb : ∀ k0_t26 : Fin k0_t26_loop.trips, ∀ a, (k0_off823 k0_t26) a + S1x16.size a ≤ S64x512.size a
  k0_off824_inb : ∀ k0_t26 : Fin k0_t26_loop.trips, ∀ a, (k0_off824 k0_t26) a + S1x16.size a ≤ S64x512.size a
  k0_off825_inb : ∀ k0_t26 : Fin k0_t26_loop.trips, ∀ a, (k0_off825 k0_t26) a + S1x16.size a ≤ S64x512.size a
  k0_off826_inb : ∀ k0_t26 : Fin k0_t26_loop.trips, ∀ a, (k0_off826 k0_t26) a + S1x16.size a ≤ S64x512.size a
  k0_off827_inb : ∀ k0_t26 : Fin k0_t26_loop.trips, ∀ a, (k0_off827 k0_t26) a + S1x16.size a ≤ S64x512.size a
  k0_off828_inb : ∀ k0_t26 : Fin k0_t26_loop.trips, ∀ a, (k0_off828 k0_t26) a + S1x16.size a ≤ S64x512.size a
  k0_off829_inb : ∀ k0_t26 : Fin k0_t26_loop.trips, ∀ a, (k0_off829 k0_t26) a + S1x16.size a ≤ S64x512.size a
  k0_off830_inb : ∀ k0_t26 : Fin k0_t26_loop.trips, ∀ a, (k0_off830 k0_t26) a + S1x16.size a ≤ S64x512.size a
  k0_off831_inb : ∀ k0_t26 : Fin k0_t26_loop.trips, ∀ a, (k0_off831 k0_t26) a + S1x16.size a ≤ S64x512.size a
  k0_off832_inb : ∀ k0_t26 : Fin k0_t26_loop.trips, ∀ a, (k0_off832 k0_t26) a + S1x16.size a ≤ S64x512.size a
  k0_off833_inb : ∀ k0_t26 : Fin k0_t26_loop.trips, ∀ a, (k0_off833 k0_t26) a + S1x16.size a ≤ S64x512.size a
  k0_off834_inb : ∀ k0_t26 : Fin k0_t26_loop.trips, ∀ a, (k0_off834 k0_t26) a + S1x16.size a ≤ S64x512.size a
  k0_off835_inb : ∀ k0_t26 : Fin k0_t26_loop.trips, ∀ a, (k0_off835 k0_t26) a + S1x16.size a ≤ S64x512.size a
  k0_off836_inb : ∀ k0_t26 : Fin k0_t26_loop.trips, ∀ a, (k0_off836 k0_t26) a + S1x16.size a ≤ S64x512.size a
  k0_off837_inb : ∀ k0_t26 : Fin k0_t26_loop.trips, ∀ a, (k0_off837 k0_t26) a + S1x16.size a ≤ S64x512.size a
  k0_off838_inb : ∀ k0_t26 : Fin k0_t26_loop.trips, ∀ a, (k0_off838 k0_t26) a + S1x16.size a ≤ S64x512.size a
  k0_off839_inb : ∀ k0_t26 : Fin k0_t26_loop.trips, ∀ a, (k0_off839 k0_t26) a + S1x16.size a ≤ S64x512.size a
  k0_off840_inb : ∀ k0_t26 : Fin k0_t26_loop.trips, ∀ a, (k0_off840 k0_t26) a + S1x16.size a ≤ S64x512.size a
  k0_t27_ok : k0_t27_loop.OK
  k0_off841_inb : ∀ k0_t27 : Fin k0_t27_loop.trips, ∀ a, (k0_off841 k0_t27) a + S1x16.size a ≤ S64x512.size a
  k0_off842_inb : ∀ k0_t27 : Fin k0_t27_loop.trips, ∀ a, (k0_off842 k0_t27) a + S1x16.size a ≤ S64x512.size a
  k0_off843_inb : ∀ k0_t27 : Fin k0_t27_loop.trips, ∀ a, (k0_off843 k0_t27) a + S1x16.size a ≤ S64x512.size a
  k0_off844_inb : ∀ k0_t27 : Fin k0_t27_loop.trips, ∀ a, (k0_off844 k0_t27) a + S1x16.size a ≤ S64x512.size a
  k0_off845_inb : ∀ k0_t27 : Fin k0_t27_loop.trips, ∀ a, (k0_off845 k0_t27) a + S1x16.size a ≤ S64x512.size a
  k0_off846_inb : ∀ k0_t27 : Fin k0_t27_loop.trips, ∀ a, (k0_off846 k0_t27) a + S1x16.size a ≤ S64x512.size a
  k0_off847_inb : ∀ k0_t27 : Fin k0_t27_loop.trips, ∀ a, (k0_off847 k0_t27) a + S1x16.size a ≤ S64x512.size a
  k0_off848_inb : ∀ k0_t27 : Fin k0_t27_loop.trips, ∀ a, (k0_off848 k0_t27) a + S1x16.size a ≤ S64x512.size a
  k0_off849_inb : ∀ k0_t27 : Fin k0_t27_loop.trips, ∀ a, (k0_off849 k0_t27) a + S1x16.size a ≤ S64x512.size a
  k0_off850_inb : ∀ k0_t27 : Fin k0_t27_loop.trips, ∀ a, (k0_off850 k0_t27) a + S1x16.size a ≤ S64x512.size a
  k0_off851_inb : ∀ k0_t27 : Fin k0_t27_loop.trips, ∀ a, (k0_off851 k0_t27) a + S1x16.size a ≤ S64x512.size a
  k0_off852_inb : ∀ k0_t27 : Fin k0_t27_loop.trips, ∀ a, (k0_off852 k0_t27) a + S1x16.size a ≤ S64x512.size a
  k0_off853_inb : ∀ k0_t27 : Fin k0_t27_loop.trips, ∀ a, (k0_off853 k0_t27) a + S1x16.size a ≤ S64x512.size a
  k0_off854_inb : ∀ k0_t27 : Fin k0_t27_loop.trips, ∀ a, (k0_off854 k0_t27) a + S1x16.size a ≤ S64x512.size a
  k0_off855_inb : ∀ k0_t27 : Fin k0_t27_loop.trips, ∀ a, (k0_off855 k0_t27) a + S1x16.size a ≤ S64x512.size a
  k0_off856_inb : ∀ k0_t27 : Fin k0_t27_loop.trips, ∀ a, (k0_off856 k0_t27) a + S1x16.size a ≤ S64x512.size a
  k0_off857_inb : ∀ k0_t27 : Fin k0_t27_loop.trips, ∀ a, (k0_off857 k0_t27) a + S1x16.size a ≤ S64x512.size a
  k0_off858_inb : ∀ k0_t27 : Fin k0_t27_loop.trips, ∀ a, (k0_off858 k0_t27) a + S1x16.size a ≤ S64x512.size a
  k0_off859_inb : ∀ k0_t27 : Fin k0_t27_loop.trips, ∀ a, (k0_off859 k0_t27) a + S1x16.size a ≤ S64x512.size a
  k0_off860_inb : ∀ k0_t27 : Fin k0_t27_loop.trips, ∀ a, (k0_off860 k0_t27) a + S1x16.size a ≤ S64x512.size a
  k0_off861_inb : ∀ k0_t27 : Fin k0_t27_loop.trips, ∀ a, (k0_off861 k0_t27) a + S1x16.size a ≤ S64x512.size a
  k0_off862_inb : ∀ k0_t27 : Fin k0_t27_loop.trips, ∀ a, (k0_off862 k0_t27) a + S1x16.size a ≤ S64x512.size a
  k0_off863_inb : ∀ k0_t27 : Fin k0_t27_loop.trips, ∀ a, (k0_off863 k0_t27) a + S1x16.size a ≤ S64x512.size a
  k0_off864_inb : ∀ k0_t27 : Fin k0_t27_loop.trips, ∀ a, (k0_off864 k0_t27) a + S1x16.size a ≤ S64x512.size a
  k0_off865_inb : ∀ k0_t27 : Fin k0_t27_loop.trips, ∀ a, (k0_off865 k0_t27) a + S1x16.size a ≤ S64x512.size a
  k0_off866_inb : ∀ k0_t27 : Fin k0_t27_loop.trips, ∀ a, (k0_off866 k0_t27) a + S1x16.size a ≤ S64x512.size a
  k0_off867_inb : ∀ k0_t27 : Fin k0_t27_loop.trips, ∀ a, (k0_off867 k0_t27) a + S1x16.size a ≤ S64x512.size a
  k0_off868_inb : ∀ k0_t27 : Fin k0_t27_loop.trips, ∀ a, (k0_off868 k0_t27) a + S1x16.size a ≤ S64x512.size a
  k0_off869_inb : ∀ k0_t27 : Fin k0_t27_loop.trips, ∀ a, (k0_off869 k0_t27) a + S1x16.size a ≤ S64x512.size a
  k0_off870_inb : ∀ k0_t27 : Fin k0_t27_loop.trips, ∀ a, (k0_off870 k0_t27) a + S1x16.size a ≤ S64x512.size a
  k0_off871_inb : ∀ k0_t27 : Fin k0_t27_loop.trips, ∀ a, (k0_off871 k0_t27) a + S1x16.size a ≤ S64x512.size a
  k0_off872_inb : ∀ k0_t27 : Fin k0_t27_loop.trips, ∀ a, (k0_off872 k0_t27) a + S1x16.size a ≤ S64x512.size a
  k0_t28_ok : k0_t28_loop.OK
  k0_off873_inb : ∀ k0_t28 : Fin k0_t28_loop.trips, ∀ a, (k0_off873 k0_t28) a + S1x16.size a ≤ S64x512.size a
  k0_off874_inb : ∀ k0_t28 : Fin k0_t28_loop.trips, ∀ a, (k0_off874 k0_t28) a + S1x16.size a ≤ S64x512.size a
  k0_off875_inb : ∀ k0_t28 : Fin k0_t28_loop.trips, ∀ a, (k0_off875 k0_t28) a + S1x16.size a ≤ S64x512.size a
  k0_off876_inb : ∀ k0_t28 : Fin k0_t28_loop.trips, ∀ a, (k0_off876 k0_t28) a + S1x16.size a ≤ S64x512.size a
  k0_off877_inb : ∀ k0_t28 : Fin k0_t28_loop.trips, ∀ a, (k0_off877 k0_t28) a + S1x16.size a ≤ S64x512.size a
  k0_off878_inb : ∀ k0_t28 : Fin k0_t28_loop.trips, ∀ a, (k0_off878 k0_t28) a + S1x16.size a ≤ S64x512.size a
  k0_off879_inb : ∀ k0_t28 : Fin k0_t28_loop.trips, ∀ a, (k0_off879 k0_t28) a + S1x16.size a ≤ S64x512.size a
  k0_off880_inb : ∀ k0_t28 : Fin k0_t28_loop.trips, ∀ a, (k0_off880 k0_t28) a + S1x16.size a ≤ S64x512.size a
  k0_off881_inb : ∀ k0_t28 : Fin k0_t28_loop.trips, ∀ a, (k0_off881 k0_t28) a + S1x16.size a ≤ S64x512.size a
  k0_off882_inb : ∀ k0_t28 : Fin k0_t28_loop.trips, ∀ a, (k0_off882 k0_t28) a + S1x16.size a ≤ S64x512.size a
  k0_off883_inb : ∀ k0_t28 : Fin k0_t28_loop.trips, ∀ a, (k0_off883 k0_t28) a + S1x16.size a ≤ S64x512.size a
  k0_off884_inb : ∀ k0_t28 : Fin k0_t28_loop.trips, ∀ a, (k0_off884 k0_t28) a + S1x16.size a ≤ S64x512.size a
  k0_off885_inb : ∀ k0_t28 : Fin k0_t28_loop.trips, ∀ a, (k0_off885 k0_t28) a + S1x16.size a ≤ S64x512.size a
  k0_off886_inb : ∀ k0_t28 : Fin k0_t28_loop.trips, ∀ a, (k0_off886 k0_t28) a + S1x16.size a ≤ S64x512.size a
  k0_off887_inb : ∀ k0_t28 : Fin k0_t28_loop.trips, ∀ a, (k0_off887 k0_t28) a + S1x16.size a ≤ S64x512.size a
  k0_off888_inb : ∀ k0_t28 : Fin k0_t28_loop.trips, ∀ a, (k0_off888 k0_t28) a + S1x16.size a ≤ S64x512.size a
  k0_off889_inb : ∀ k0_t28 : Fin k0_t28_loop.trips, ∀ a, (k0_off889 k0_t28) a + S1x16.size a ≤ S64x512.size a
  k0_off890_inb : ∀ k0_t28 : Fin k0_t28_loop.trips, ∀ a, (k0_off890 k0_t28) a + S1x16.size a ≤ S64x512.size a
  k0_off891_inb : ∀ k0_t28 : Fin k0_t28_loop.trips, ∀ a, (k0_off891 k0_t28) a + S1x16.size a ≤ S64x512.size a
  k0_off892_inb : ∀ k0_t28 : Fin k0_t28_loop.trips, ∀ a, (k0_off892 k0_t28) a + S1x16.size a ≤ S64x512.size a
  k0_off893_inb : ∀ k0_t28 : Fin k0_t28_loop.trips, ∀ a, (k0_off893 k0_t28) a + S1x16.size a ≤ S64x512.size a
  k0_off894_inb : ∀ k0_t28 : Fin k0_t28_loop.trips, ∀ a, (k0_off894 k0_t28) a + S1x16.size a ≤ S64x512.size a
  k0_off895_inb : ∀ k0_t28 : Fin k0_t28_loop.trips, ∀ a, (k0_off895 k0_t28) a + S1x16.size a ≤ S64x512.size a
  k0_off896_inb : ∀ k0_t28 : Fin k0_t28_loop.trips, ∀ a, (k0_off896 k0_t28) a + S1x16.size a ≤ S64x512.size a
  k0_off897_inb : ∀ k0_t28 : Fin k0_t28_loop.trips, ∀ a, (k0_off897 k0_t28) a + S1x16.size a ≤ S64x512.size a
  k0_off898_inb : ∀ k0_t28 : Fin k0_t28_loop.trips, ∀ a, (k0_off898 k0_t28) a + S1x16.size a ≤ S64x512.size a
  k0_off899_inb : ∀ k0_t28 : Fin k0_t28_loop.trips, ∀ a, (k0_off899 k0_t28) a + S1x16.size a ≤ S64x512.size a
  k0_off900_inb : ∀ k0_t28 : Fin k0_t28_loop.trips, ∀ a, (k0_off900 k0_t28) a + S1x16.size a ≤ S64x512.size a
  k0_off901_inb : ∀ k0_t28 : Fin k0_t28_loop.trips, ∀ a, (k0_off901 k0_t28) a + S1x16.size a ≤ S64x512.size a
  k0_off902_inb : ∀ k0_t28 : Fin k0_t28_loop.trips, ∀ a, (k0_off902 k0_t28) a + S1x16.size a ≤ S64x512.size a
  k0_off903_inb : ∀ k0_t28 : Fin k0_t28_loop.trips, ∀ a, (k0_off903 k0_t28) a + S1x16.size a ≤ S64x512.size a
  k0_off904_inb : ∀ k0_t28 : Fin k0_t28_loop.trips, ∀ a, (k0_off904 k0_t28) a + S1x16.size a ≤ S64x512.size a
  k0_mult7_dvd : ∀ i : grid0.Coords, 8 ∣ (k0_mult7 i).toNat

class K1.Facts₀ : Prop where
  hrank1 : 0 < grid1.rank
  k1_off1_inb : ∀ i : grid1.Coords, ∀ (k1_h2 : k1_cond2 i = 1#1), ∀ a, (k1_off1 i) a + S1x128.size a ≤ S9x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S16x2048x2048.size a
  hwx1_0 : ∀ i : grid1.Coords, EltTy.bits .f32 = 32 ∨ (Rect.block (s := S16x2048x2048) S1x1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x128.size a ≤ S9x128.size a
  hwx1_1 : ∀ i : grid1.Coords, EltTy.bits .f32 = 32 ∨ (Rect.block (s := S9x128) S9x128.size (cc1_transform_1 i) (hinb1_1 i)).WholeWords (EltTy.packing .f32)

class K2.Facts₀ : Prop where
  hstage2_0 : ∀ j, (stage2_0 j).IsWhole
  hstage2_1 : ∀ j, (stage2_1 j).IsWhole
  hstage2_2 : ∀ j, (stage2_2 j).IsWhole

class Shapes1.Facts₀ : Prop where
  shapeCasts_S1x16x2048x2048_S16x2048x2048 : S1x16x2048x2048.ShapeCasts S16x2048x2048
  squeezes_S1x64x512_S64x512 : S1x64x512.Squeezes S64x512
  h_S1x16 : 0 < S1x16.numel
  shapeCasts_S1x16_S16 : S1x16.ShapeCasts S16
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S2048 : S1024x2048.Reduces [0] S2048
  shapeCasts_S2048_S1x2048 : S2048.ShapeCasts S1x2048
  iota_S2048x128_d0_w32 : S2048x128.Iotas .tc 32 [0]
  iota_S2048x128_d1_w32 : S2048x128.Iotas .tc 32 [1]
  natLt_1_32 : 1 < 32
  h_S1x128 : 0 < S1x128.numel
  inb_S114688_S114688_0 : ∀ a, (![0] : Fin 1 → Nat) a + S114688.size a ≤ S114688.size a
  h_S114688 : 0 < S114688.numel
  shapeCasts_S114688_S114688 : S114688.ShapeCasts S114688
  shapeCasts_S114688_S7x8x2048 : S114688.ShapeCasts S7x8x2048
  reduces_S7x8x2048_S7x2048 : S7x8x2048.Reduces [1] S7x2048
  inb_S9x128_S9x128_0_0 : ∀ a, (![0, 0] : Fin 2 → Nat) a + S9x128.size a ≤ S9x128.size a
  h_S9x128 : 0 < S9x128.numel
  shapeCasts_S9x128_S9x128 : S9x128.ShapeCasts S9x128
  concatenates_S9x128_S7x128_S16x128_d0 : Shape.Concatenates [S9x128, S7x128] S16x128 0
  iota_S16x30000_d1_w32 : S16x30000.Iotas .tc 32 [1]
  concatenates_S16x128_S16x29872_S16x30000_d1 : Shape.Concatenates [S16x128, S16x29872] S16x30000 1
  inb_S3x16x30000_S1x16x30000_0_0_0 : ∀ a, (![0, 0, 0] : Fin 3 → Nat) a + S1x16x30000.size a ≤ S3x16x30000.size a
  h_S1x16x30000 : 0 < S1x16x30000.numel
  shapeCasts_S1x16x30000_S16x30000 : S1x16x30000.ShapeCasts S16x30000
  shapeCasts_S16x30000_S1x16x30000 : S16x30000.ShapeCasts S1x16x30000
  inb_S3x16x30000_S1x16x30000_1_0_0 : ∀ a, (![1, 0, 0] : Fin 3 → Nat) a + S1x16x30000.size a ≤ S3x16x30000.size a
  inb_S3x16x30000_S1x16x30000_2_0_0 : ∀ a, (![2, 0, 0] : Fin 3 → Nat) a + S1x16x30000.size a ≤ S3x16x30000.size a
  transposes_S3x16x30000_S16x30000x3_1_2_0 : S3x16x30000.Transposes [1, 2, 0] S16x30000x3
  dot_S1x2048_S2048x128_S1x128_1_0_0_1_n_n_wf : DotDims.WF S1x2048 S2048x128 S1x128 [1] [0] [0] [1] [] []
  dot_S7x2048_S2048x128_S7x128_1_0_0_1_n_n_wf : DotDims.WF S7x2048 S2048x128 S7x128 [1] [0] [0] [1] [] []
  hcc0_scratch3 : 0 + S_.numel ≤ 15
  hcc0_scratch4 : 1 + S_.numel ≤ 15
  hcc0_scoped0 : 2 + S_.numel ≤ 15
  hcc0_scoped1 : 3 + S_.numel ≤ 15
  hcc0_scoped2 : 4 + S_.numel ≤ 15
  hcc0_scoped3 : 5 + S_.numel ≤ 15
  hcc0_scoped4 : 6 + S_.numel ≤ 15
  hcc0_scoped5 : 7 + S_.numel ≤ 15
  hcc0_scoped6 : 8 + S_.numel ≤ 15
  hscKind : ∀ q, scKind q ≠ .tc
  hscCore : ∀ q, scNCore q ≤ τ.nSC
  hscSub : ∀ q, scNSub q ≤ τ.nSub

class Facts₀ : Prop where
  k0 : K0.Facts₀
  k1 : K1.Facts₀
  k2 : K2.Facts₀
  shapes1 : Shapes1.Facts₀
attribute [instance] Facts₀.k0 Facts₀.k1 Facts₀.k2 Facts₀.shapes1

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
abbrev cc0_scoped6 : DmaSems sig S_ := SemArray.consecutive 8 S_ hcc0_scoped6
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def dot_S7x2048_S2048x128_S7x128_1_0_0_1_n_n : DotDims S7x2048 S2048x128 S7x128 where
  lhsContracting := [1]
  rhsContracting := [0]
  lhsNonContracting := [0]
  rhsNonContracting := [1]
  lhsBatch := []
  rhsBatch := []
  wf := dot_S7x2048_S2048x128_S7x128_1_0_0_1_n_n_wf

abbrev win1_0 : Pipeline.Window sig grid1 :=
  Pipeline.Window.ofSpec (Memref.whole main_v0) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S9x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.whole (Memref.whole main_v2) false false (stage2_0 0) (sem2_0 0) (Memref.isWhole_whole _) (hstage2_0 0)

abbrev win2_1 : Pipeline.Window sig grid2 :=
  Pipeline.Window.whole (Memref.whole main_v1) false false (stage2_1 0) (sem2_1 0) (Memref.isWhole_whole _) (hstage2_1 0)

abbrev win2_2 : Pipeline.Window sig grid2 :=
  Pipeline.Window.whole (Memref.whole main_v3) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x16x2048x128 : Shape := ⟨4, ![1, 16, 2048, 128]⟩
abbrev S1x16x2048x2048 : Shape := ⟨4, ![1, 16, 2048, 2048]⟩
abbrev S_ : Shape := ⟨0, ![]⟩
abbrev S16x30000x3 : Shape := ⟨3, ![16, 30000, 3]⟩
abbrev S1x16x2048x1984 : Shape := ⟨4, ![1, 16, 2048, 1984]⟩
abbrev S16x2048x1984 : Shape := ⟨3, ![16, 2048, 1984]⟩
abbrev S16x1984 : Shape := ⟨2, ![16, 1984]⟩
abbrev S16x31x64 : Shape := ⟨3, ![16, 31, 64]⟩
abbrev S16x31 : Shape := ⟨2, ![16, 31]⟩
abbrev S31 : Shape := ⟨1, ![31]⟩
abbrev S1x31 : Shape := ⟨2, ![1, 31]⟩
abbrev S31x1 : Shape := ⟨2, ![31, 1]⟩
abbrev S31x2 : Shape := ⟨2, ![31, 2]⟩

abbrev nBuf : Space → Nat
  | .hbm => 58
  | .vmem => 0
  | .smem => 0
  | _ => 0

abbrev bufTy : (tb : Table) → Fin (tcTables nBuf tb) → BufTy
  | .hbm, ⟨0, _⟩ => ⟨S1x16x2048x128, .f32⟩
  | .hbm, ⟨1, _⟩ => ⟨S1x16x2048x128, .f32⟩
  | .hbm, ⟨2, _⟩ => ⟨S1x16x2048x2048, .f32⟩
  | .hbm, ⟨3, _⟩ => ⟨S_, .f32⟩
  | .hbm, ⟨4, _⟩ => ⟨S16x30000x3, .f32⟩
  | .hbm, ⟨5, _⟩ => ⟨S1x16x2048x1984, .f32⟩
  | .hbm, ⟨6, _⟩ => ⟨S16x2048x1984, .f32⟩
  | .hbm, ⟨7, _⟩ => ⟨S_, .f32⟩
  | .hbm, ⟨8, _⟩ => ⟨S16x1984, .f32⟩
  | .hbm, ⟨9, _⟩ => ⟨S16x31x64, .f32⟩
  | .hbm, ⟨10, _⟩ => ⟨S_, .f32⟩
  | .hbm, ⟨11, _⟩ => ⟨S16x31, .f32⟩
  | .hbm, ⟨12, _⟩ => ⟨S31, .i32⟩
  | .hbm, ⟨13, _⟩ => ⟨S31, .f32⟩
  | .hbm, ⟨14, _⟩ => ⟨S1x31, .f32⟩
  | .hbm, ⟨15, _⟩ => ⟨S16x31, .f32⟩
  | .hbm, ⟨16, _⟩ => ⟨S_, .i32⟩
  | .hbm, ⟨17, _⟩ => ⟨S31, .i32⟩
  | .hbm, ⟨18, _⟩ => ⟨S31, .i1⟩
  | .hbm, ⟨19, _⟩ => ⟨S_, .i32⟩
  | .hbm, ⟨20, _⟩ => ⟨S31, .i32⟩
  | .hbm, ⟨21, _⟩ => ⟨S31, .i32⟩
  | .hbm, ⟨22, _⟩ => ⟨S31, .i32⟩
  | .hbm, ⟨23, _⟩ => ⟨S_, .i32⟩
  | .hbm, ⟨24, _⟩ => ⟨S31, .i32⟩
  | .hbm, ⟨25, _⟩ => ⟨S31, .i32⟩
  | .hbm, ⟨26, _⟩ => ⟨S31x1, .i32⟩
  | .hbm, ⟨27, _⟩ => ⟨S31x1, .i32⟩
  | .hbm, ⟨28, _⟩ => ⟨S31x2, .i32⟩
  | .hbm, ⟨29, _⟩ => ⟨S16x30000x3, .f32⟩
  | .hbm, ⟨30, _⟩ => ⟨S_, .i32⟩
  | .hbm, ⟨31, _⟩ => ⟨S31, .i32⟩
  | .hbm, ⟨32, _⟩ => ⟨S31, .i1⟩
  | .hbm, ⟨33, _⟩ => ⟨S_, .i32⟩
  | .hbm, ⟨34, _⟩ => ⟨S31, .i32⟩
  | .hbm, ⟨35, _⟩ => ⟨S31, .i32⟩
  | .hbm, ⟨36, _⟩ => ⟨S31, .i32⟩
  | .hbm, ⟨37, _⟩ => ⟨S_, .i32⟩
  | .hbm, ⟨38, _⟩ => ⟨S31, .i32⟩
  | .hbm, ⟨39, _⟩ => ⟨S31, .i32⟩
  | .hbm, ⟨40, _⟩ => ⟨S31x1, .i32⟩
  | .hbm, ⟨41, _⟩ => ⟨S31x1, .i32⟩
  | .hbm, ⟨42, _⟩ => ⟨S31x2, .i32⟩
  | .hbm, ⟨43, _⟩ => ⟨S16x30000x3, .f32⟩
  | .hbm, ⟨44, _⟩ => ⟨S_, .i32⟩
  | .hbm, ⟨45, _⟩ => ⟨S31, .i32⟩
  | .hbm, ⟨46, _⟩ => ⟨S31, .i1⟩
  | .hbm, ⟨47, _⟩ => ⟨S_, .i32⟩
  | .hbm, ⟨48, _⟩ => ⟨S31, .i32⟩
  | .hbm, ⟨49, _⟩ => ⟨S31, .i32⟩
  | .hbm, ⟨50, _⟩ => ⟨S31, .i32⟩
  | .hbm, ⟨51, _⟩ => ⟨S_, .i32⟩
  | .hbm, ⟨52, _⟩ => ⟨S31, .i32⟩
  | .hbm, ⟨53, _⟩ => ⟨S31, .i32⟩
  | .hbm, ⟨54, _⟩ => ⟨S31x1, .i32⟩
  | .hbm, ⟨55, _⟩ => ⟨S31x1, .i32⟩
  | .hbm, ⟨56, _⟩ => ⟨S31x2, .i32⟩
  | .hbm, ⟨57, _⟩ => ⟨S16x30000x3, .f32⟩
  | _, _ => ⟨S1x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_v33 : Ref sig .tc := ⟨.hbm, 46, rfl⟩
abbrev main_c_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S16x30000x3 : S_.BroadcastsInDim S16x30000x3 (![] : Fin 0 → Fin S16x30000x3.rank)
  slices_S1x16x2048x2048_S1x16x2048x1984_0_0_0_4 : S1x16x2048x2048.Slices ![0, 0, 0, 4] S1x16x2048x1984
  shapeCasts_S1x16x2048x1984_S16x2048x1984 : S1x16x2048x1984.ShapeCasts S16x2048x1984
  reducesTo_S16x2048x1984_S16x1984_d1 : S16x2048x1984.ReducesTo [1] S16x1984
  h_S_ : 0 < S_.numel
  shapeCasts_S16x1984_S16x31x64 : S16x1984.ShapeCasts S16x31x64
  reducesTo_S16x31x64_S16x31_d2 : S16x31x64.ReducesTo [2] S16x31
  bcast_S31_S1x31_1 : S31.BroadcastsInDim S1x31 (![1] : Fin 1 → Fin S1x31.rank)
  bcast_S1x31_S16x31_0_1 : S1x31.BroadcastsInDim S16x31 (![0, 1] : Fin 2 → Fin S16x31.rank)
  bcast_S_S31 : S_.BroadcastsInDim S31 (![] : Fin 0 → Fin S31.rank)
  bcast_S31_S31x1_0 : S31.BroadcastsInDim S31x1 (![0] : Fin 1 → Fin S31x1.rank)
  concatenates_S31x1_S31x1_S31x2_d1 : Shape.Concatenates [S31x1, S31x1] S31x2 1
  scatter_S16x30000x3_S31x2_S16x31_0_12_12_1_wf : ScatterDims.WF S16x30000x3 S31x2 S16x31 [0] [1, 2] [1, 2] 1

variable [Facts₀]

def scatter_S16x30000x3_S31x2_S16x31_0_12_12_1 : ScatterDims S16x30000x3 S31x2 S16x31 where
  updateWindowDims := [0]
  insertedWindowDims := [1, 2]
  scatterDimsToOperandDims := [1, 2]
  indexVectorDim := 1
  wf := scatter_S16x30000x3_S31x2_S16x31_0_12_12_1_wf

class Facts : Prop extends Facts₀ where

variable [Facts]
-- ==== Proof.RefClaims.lean ====
/-
  The two claims that need nothing of the kernel's value.

  The reference is a straight line of host operations: it terminates on every input and writes only its own
  intermediate and result buffers, so its argument arrays end as they began — that is its run with the statement about
  the result dropped.  The idealized kernel is the kernel's own text read over the extended reals: no operation was
  rewritten, and there is nothing to preserve.
-/
import proofs.«216449_g46943992545511_cont_8to1_c_491_21_alg».proof.Defs
import proofs.«216449_g46943992545511_cont_8to1_c_491_21_alg».proof.Proof.Gen.ReferenceIdeal
import proofs.«216449_g46943992545511_cont_8to1_c_491_21_alg».proof.Proof.Gen.Pre_finite_inputs
import proofs.«216449_g46943992545511_cont_8to1_c_491_21_alg».proof.Proof.Gen.ReferenceIdeal.Run

noncomputable section

open Idealize.ShloMosaic Idealize.ShloMosaic.TcCoe Idealize.SL.Sem

namespace Cert.Proof.RefClaims

/-- The reference runs to the end and leaves its three argument arrays unchanged. -/
theorem frame_ri : Cert.frame_ReferenceIdeal := fun m ρ _ =>
  (θ_run Cert.ReferenceIdeal.defs _ _).mono (fun _ h c => (h c).2)
    (Cert.ReferenceIdeal.Value.run (F := Ideal) m ρ)

/-- The idealization rewrote nothing. -/
theorem preserves : Cert.preserves_Kernel_KernelIdeal := trivial

end Cert.Proof.RefClaims

end
-- ==== Proof.Setup.lean ====
/-
  The program as the SparseCore launch theorem sees it, and the ghost state the certificate runs over.

  The body table is the TensorCore pipelines' table over the kernels' own (two pallas_calls); the SparseCore
  configuration adds one vector-subcore call on top of it. The ghost state has three independent components:
  the launch handshakes' rounds, the two pipelines' staging cells' rounds, and the counters of the tiles'
  local copies (each tile only copies between HBM and its own memory and waits for its own copies, so no
  schedule between threads is needed for them).
-/
import proofs.«216449_g46943992545511_cont_8to1_c_491_21_alg».proof.KernelIdeal
import proofs.«216449_g46943992545511_cont_8to1_c_491_21_alg».proof.Proof.Gen.KernelIdeal
import Idealize.ShloMosaic.Lib.SparseCore.Launch
import Idealize.ShloMosaic.Lib.Pipeline.Kit
import Idealize.ShloMosaic.Lib.Transfers

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, staging cells, and the local copies' counters side by side. -/
abbrev UU : Type := UH × (UP × Counters)

abbrev 𝕄F (F : FTy → Type) : Type := MT nD τ sig (HIx 1) (Elt F) ℕ UU ℕ

abbrev EH : Emb UH (𝕄F F) := embL
def EP : Emb UP (𝕄F F) := (Emb.inl : Emb UP (UP × Counters)).trans (embR : Emb (UP × Counters) (𝕄F F))

instance EP_landsIn : (EP : Emb UP (𝕄F F)).LandsIn (upEmb : UEmb _ (𝕄F F)) := by unfold EP; infer_instance

end Cert.KernelIdeal.Setup

end
-- ==== Proof.Pay.lean ====
/-
  What the SparseCore call's handshakes carry: the arrays, the places of the tile grid, the pieces of the
  column-sum array each tile writes, the read shares of the scores, and the call's payloads.
-/
import proofs.«216449_g46943992545511_cont_8to1_c_491_21_alg».proof.Proof.Setup
import proofs.«216449_g46943992545511_cont_8to1_c_491_21_alg».proof.Proof.Gen.KernelIdeal.Launch
import proofs.«216449_g46943992545511_cont_8to1_c_491_21_alg».proof.Proof.Gen.KernelIdeal.Points
import Idealize.ShloMosaic.Lib.SparseCore.Launch
import Idealize.ShloMosaic.Lib.Pipeline.Regions
import Idealize.ShloMosaic.Lib.Pipeline.Frame
import Idealize.ShloMosaic.Lib.StableHlo.Run
import Idealize.ShloMosaic.Lib.Pipeline.Kit
import Idealize.ShloMosaic.Lib.Tactic

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)

/-! ## The arrays -/

/-- The reshaped scores and the column-sum array, as the TensorCore names them. -/
abbrev aLoc (d : Dev nD) : Loc nD τ sig := (SparseCore.T d).loc main_v0
abbrev oLoc (d : Dev nD) : Loc nD τ sig := (SparseCore.T d).loc main_v1

/-- A place of the tile grid from its two coordinates. -/
abbrev coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

variable [FloatOps F]

/-- Piece `k` of the column-sum array that the tile at place `L` writes: 512 words. -/
abbrev outPiece (L : grid0.Coords) (k : Fin 7) : Memref sig .scVector .hbm S512 .f32 :=
  (Memref.whole main_v1_scv).slice (Rect.unit (s := S114688) (k0_off131 L (BitVec.ofNat 32 (8 * k.val))) S512.size (k0_off131_inb L k)) (fun _ => rfl)

abbrev pieceSet (L : grid0.Coords) (k : Fin 7) : Finset S114688.Idx := (outPiece L k).view.set

/-- The reshape of the scores, as @main's first line states it. -/
abbrev opReshape : HloOp τ sig (Elt F) := StableHlo.reshape main_arg2 main_v0 rfl shapeCasts_S1x16x2048x2048_S16x2048x2048

/-- The launch valuation of a device, and the one after the reshape. -/
def W0 (d : Dev nD) : Valuation τ sig (Elt F) := fun b => m (d, b)
def W1 (d : Dev nD) : Valuation τ sig (Elt F) := (opReshape (F := F)).result (W0 m d)

/-- The reshaped scores' contents. -/
def A (d : Dev nD) : Buf (Elt F) (aLoc d) := W1 m d (Proc.devRef .tc (main_v0 : Ref sig .tc))

/-! ## What the handshakes carry -/

-- what the column-sum array holds after the call: a parameter here, fixed by the tiles' bodies
variable (colS : (d : Dev nD) → Buf (Elt F) (oLoc d))

/-- The read share of the scores a SparseCore is dealt, and the one each of its tiles is. -/
abbrev qCore (c : Fin 2) : PosShare TreeShare := shareTok fullShare 2 c
abbrev qTile (c : Fin 2) (i : Fin 16) : PosShare TreeShare := shareTok (qCore c) 16 i

abbrev placeOf (c : Fin 2) (i : Fin 16) : grid0.Coords := coordsV (Fin.cast bound_zero.symm c) (Fin.cast bound_one.symm i)

/-- A tile's task: its read share of the scores and its seven pieces, at anything; -/
def goR (d : Dev nD) (c : Fin 2) (i : Fin 16) : sProp 𝕄 :=
  iprop((aLoc d ↦{qTile c i} A m d) ∗ bigSep Finset.univ fun k : Fin 7 => iprop(∃ f, oLoc d ↦[pieceSet (placeOf c i) k]{fullShare} f))
/-- and what it hands back: the pieces at the column sums. -/
def tdR (d : Dev nD) (c : Fin 2) (i : Fin 16) : sProp 𝕄 :=
  iprop((aLoc d ↦{qTile c i} A m d) ∗ bigSep Finset.univ fun k : Fin 7 => oLoc d ↦[pieceSet (placeOf c i) k]{fullShare} colS d)
/-- A SparseCore's operands: its read share and its sixteen tiles' pieces; -/
def stR (d : Dev nD) (c : Fin 2) : sProp 𝕄 :=
  iprop((aLoc d ↦{qCore c} A m d) ∗ bigSep Finset.univ fun i : Fin 16 => bigSep Finset.univ fun k : Fin 7 => iprop(∃ f, oLoc d ↦[pieceSet (placeOf c i) k]{fullShare} f))
/-- and its results. -/
def dnR (d : Dev nD) (c : Fin 2) : sProp 𝕄 :=
  iprop((aLoc d ↦{qCore c} A m d) ∗ bigSep Finset.univ fun i : Fin 16 => bigSep Finset.univ fun k : Fin 7 => oLoc d ↦[pieceSet (placeOf c i) k]{fullShare} colS d)

def P : (K (F := F)).Pay (nD := nD) (Val := Elt F) (Name := ℕ) (U := UU) where
  st := fun q d c => match q with | 0 => stR m d (Fin.cast nCore_zero c)
  dn := fun q d c => match q with | 0 => dnR m colS d (Fin.cast nCore_zero c)
  go := fun q d c i => match q with | 0 => goR m d (Fin.cast nCore_zero c) (Fin.cast nSub_zero i)
  td := fun q d c i => match q with | 0 => tdR m colS d (Fin.cast nCore_zero c) (Fin.cast nSub_zero i)
  x := fun _ _ => iprop(emp)

instance P_storable : (P (F := F) m colS).IsStorable where
  st q d c := match q with | 0 => by unfold P stR; infer_instance
  dn q d c := match q with | 0 => by unfold P dnR; infer_instance
  go q d c i := match q with | 0 => by unfold P goR; infer_instance
  td q d c i := match q with | 0 => by unfold P tdR; infer_instance

/-! ## The unscoped buffers and the valuation after the call -/

/-- Every unscoped TensorCore buffer. -/
abbrev UC : Finset (DevRef τ sig) := Pipeline.ucRefs τ sig

/-- The column-sum array at the tiles' results. -/
def W2 (d : Dev nD) : Valuation τ sig (Elt F) := Function.update (W1 m d) (Proc.devRef .tc (main_v1 : Ref sig .tc)) (colS d)

end Cert.KernelIdeal.Launch

end
-- ==== Proof.Split.lean ====
/-
  The column-sum array splits into the tiles' pieces and the scores into read shares, and back: the 2 × 16 × 7 pieces
  of 512 words partition the array's 114688 indices, and a share split in 2 and then in 16 joins again.
-/
import proofs.«216449_g46943992545511_cont_8to1_c_491_21_alg».proof.Proof.Pay

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]
variable (colS : (d : Dev nD) → Buf (Elt F) (oLoc d))

/-! ## Where a piece lies

The column-sum array is 224 blocks of 512 words. The tile at place (c, i) — core c, subcore i — writes, as its piece
k, block number 32·k + 2·i + c: the seven pieces of one tile are 32 blocks apart, and the 32 tiles fill the 32 blocks
in between. So (c, i, k) ↦ block is one-to-one and onto the 224 blocks, and the pieces partition the array. -/

/-- The block that piece k of the tile at place L is. -/
def blockNo (L : grid0.Coords) (k : Fin 7) : ℕ := 32 * k.val + 2 * (L 1).val + (L 0).val

/-- The piece's first word, in closed form: 512 times its block number. -/
theorem off_eq : ∀ L : grid0.Coords, ∀ k : Fin 7,
    k0_off131 L (BitVec.ofNat 32 (8 * k.val)) 0 = 512 * blockNo L k := by decide +kernel

theorem blockNo_place (c : Fin 2) (i : Fin 16) (k : Fin 7) :
    blockNo (placeOf c i) k = 32 * k.val + 2 * i.val + c.val := rfl

/-- A piece's words are the 512 consecutive indices of a rectangle of the array. -/
theorem pieceSet_eq (L : grid0.Coords) (k : Fin 7) :
    pieceSet L k = (Rect.unit (s := S114688) (k0_off131 L (BitVec.ofNat 32 (8 * k.val))) S512.size (k0_off131_inb L k)).set := by
  show ((View.whole (main_v1_scv : Ref sig .scVector)).slice _).set = _
  exact View.set_slice_whole _ _

/-- An index lies in a piece exactly when it lies in the piece's block. -/
theorem mem_pieceSet (L : grid0.Coords) (k : Fin 7) (x : S114688.Idx) :
    x ∈ pieceSet L k ↔ (x 0).val / 512 = blockNo L k := by
  rw [pieceSet_eq, Rect.mem_set_unit]
  have hs : S512.size 0 = 512 := rfl
  constructor
  · intro h
    have h0 := h 0
    rw [off_eq L k, hs] at h0
    omega
  · intro h a
    have ha : a = 0 := Fin.ext (by have : a.val < 1 := a.isLt; show a.val = 0; omega)
    subst ha
    rw [off_eq L k, hs]
    omega

/-- The pieces, as one family over (core, subcore, piece). -/
abbrev KS (t : Fin 2 × Fin 16 × Fin 7) : Finset S114688.Idx := pieceSet (placeOf t.1 t.2.1) t.2.2

theorem pieces_disjoint : ∀ t ∈ (Finset.univ : Finset (Fin 2 × Fin 16 × Fin 7)),
    ∀ t' ∈ (Finset.univ : Finset (Fin 2 × Fin 16 × Fin 7)), t ≠ t' → Disjoint (KS t) (KS t') := by
  intro t _ t' _ hne
  show Disjoint (pieceSet (placeOf t.1 t.2.1) t.2.2) (pieceSet (placeOf t'.1 t'.2.1) t'.2.2)
  rw [pieceSet_eq, pieceSet_eq]
  refine Rect.unit_disjoint 0 ?_
  rw [off_eq, off_eq, blockNo_place, blockNo_place]
  have hs : S512.size 0 = 512 := rfl
  rw [hs]
  have h1 := t.1.isLt; have h2 := t.2.1.isLt; have h3 := t.2.2.isLt
  have h1' := t'.1.isLt; have h2' := t'.2.1.isLt; have h3' := t'.2.2.isLt
  have hb : 32 * t.2.2.val + 2 * t.2.1.val + t.1.val ≠ 32 * t'.2.2.val + 2 * t'.2.1.val + t'.1.val := by
    intro e
    apply hne
    refine Prod.ext (Fin.ext ?_) (Prod.ext (Fin.ext ?_) (Fin.ext ?_)) <;> omega
  omega

theorem pieces_cover : (Finset.univ : Finset (Fin 2 × Fin 16 × Fin 7)).biUnion KS = Finset.univ := by
  refine Finset.eq_univ_iff_forall.2 fun x => ?_
  have hx : (x 0).val < 114688 := (x 0).isLt
  refine Finset.mem_biUnion.2 ⟨(⟨(x 0).val / 512 % 2, by omega⟩, ⟨(x 0).val / 512 % 32 / 2, by omega⟩,
    ⟨(x 0).val / 512 / 32, by omega⟩), Finset.mem_univ _, ?_⟩
  show x ∈ pieceSet (placeOf _ _) _
  rw [mem_pieceSet, blockNo_place]
  show (x 0).val / 512 = 32 * ((x 0).val / 512 / 32) + 2 * ((x 0).val / 512 % 32 / 2) + (x 0).val / 512 % 2
  omega

set_option maxRecDepth 65536 in
/-- The whole column-sum array at one contents is its 2 × 16 × 7 pieces at that contents. -/
theorem oPts_pieces (d : Dev nD) (f : Buf (Elt F) (oLoc d)) :
    (oLoc d ↦{fullShare} f : sProp 𝕄)
      = bigSep Finset.univ fun c : Fin 2 => bigSep Finset.univ fun i : Fin 16 => bigSep Finset.univ fun k : Fin 7 =>
          oLoc d ↦[pieceSet (placeOf c i) k]{fullShare} f := by
  have e : (oLoc d ↦[(Finset.univ : Finset (Fin 2 × Fin 16 × Fin 7)).biUnion KS]{fullShare} f : sProp 𝕄)
      = bigSep Finset.univ fun t => oLoc d ↦[KS t]{fullShare} f := pointsTo_biUnion Finset.univ (ℓ := oLoc d) KS pieces_disjoint
  rw [pieces_cover] at e
  refine e.trans ?_
  rw [bigSep_univ_prod]
  refine bigSep_congr fun c _ => ?_
  rw [bigSep_univ_prod]

/-! ## A SparseCore's operands among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands split into its tiles' tasks, and its results gather from theirs. -/
theorem vecSplit : (K (F := F)).VecSplit' (P m colS) 0 := by
  intro d c
  show stR m d (Fin.cast nCore_zero c) ⊢ |={Set.univ}=> iprop(
      (bigSep Finset.univ fun i : Fin ((K (F := F)).nSub 0) => goR m d (Fin.cast nCore_zero c) (Fin.cast nSub_zero i))
      ∗ ((bigSep Finset.univ fun i : Fin ((K (F := F)).nSub 0) => tdR m colS d (Fin.cast nCore_zero c) (Fin.cast nSub_zero i))
          -∗ dnR m colS d (Fin.cast nCore_zero c)))
  generalize Fin.cast nCore_zero c = c'
  rw [bigSep_tasks (F := F) (fun i => goR m d c' i), bigSep_tasks (F := F) (fun i => tdR m colS d c' i)]
  unfold stR goR tdR dnR
  rw [bigSep_sep', bigSep_sep']
  iintro ⟨Ha, Ho⟩
  imodintro
  ihave Ha' := (Transfers.pointsTo_toks_split (qCore c') 16) $$ Ha
  icases Ha' with ⟨Hr, Ht⟩
  isplitl [Ht Ho]
  · isplitl [Ht]; · iexact Ht
    iexact Ho
  iintro ⟨Ht, Ho⟩
  isplitl [Hr Ht]
  · iapply (Transfers.pointsTo_toks_join (qCore c') 16)
    isplitl [Hr]; · iexact Hr
    iexact Ht
  iexact Ho

/-! ## The unscoped buffers and the call's operands -/

/-- The reshaped scores and the column-sum array, as device buffers. -/
abbrev aRef : DevRef τ sig := Proc.devRef .tc (main_v0 : Ref sig .tc)
abbrev oRef : DevRef τ sig := Proc.devRef .tc (main_v1 : Ref sig .tc)

theorem held_pair (d : Dev nD) (W : Valuation τ sig (Elt F)) :
    (held (SparseCore.T d) ({aRef, oRef} : Finset (DevRef τ sig)) W : sProp 𝕄)
      = iprop((aLoc d ↦{fullShare} W aRef) ∗ (oLoc d ↦{fullShare} W oRef)) := by
  unfold held
  rw [SparseCore.bigSep_insert' (by decide), bigSep_singleton]

theorem held_UC (d : Dev nD) (W : Valuation τ sig (Elt F)) :
    (held (SparseCore.T d) UC W : sProp 𝕄)
      = iprop(((aLoc d ↦{fullShare} W aRef) ∗ (oLoc d ↦{fullShare} W oRef)) ∗ held (SparseCore.T d) (UC \ {aRef, oRef}) W) := by
  rw [StableHlo.held_sub_split (SparseCore.T d) (show ({aRef, oRef} : Finset (DevRef τ sig)) ⊆ UC by decide) W, held_pair]

theorem W2_a (d : Dev nD) : W2 m colS d aRef = A m d := Function.update_of_ne (show aRef ≠ oRef by decide) _ _
theorem W2_o (d : Dev nD) : W2 m colS d oRef = colS d := Function.update_self _ _ _
theorem W2_rest (d : Dev nD) :
    (held (SparseCore.T d) (UC \ {aRef, oRef}) (W2 m colS d) : sProp 𝕄) = held (SparseCore.T d) (UC \ {aRef, oRef}) (W1 m d) :=
  StableHlo.held_congr (SparseCore.T d) fun b hb =>
    Function.update_of_ne (fun e => (Finset.mem_sdiff.mp hb).2 (by rw [e]; exact Finset.mem_insert_of_mem (Finset.mem_singleton_self _))) _ _

/-- What the call takes for the two SparseCores … -/
theorem st0_eq (d : Dev nD) :
    (bigSep Finset.univ fun c : Fin ((K (F := F)).nCore 0) => (P m colS).st 0 d c)
      = iprop((bigSep Finset.univ fun c : Fin 2 => aLoc d ↦{qCore c} A m d)
        ∗ bigSep Finset.univ fun c : Fin 2 => bigSep Finset.univ fun i : Fin 16 => bigSep Finset.univ fun k : Fin 7 =>
            iprop(∃ f, oLoc d ↦[pieceSet (placeOf c i) k]{fullShare} f)) := by
  show (bigSep Finset.univ fun c : Fin ((K (F := F)).nCore 0) => stR m d (Fin.cast nCore_zero c)) = _
  rw [bigSep_cores (F := F) (fun c => stR m d c)]
  unfold stR
  rw [bigSep_sep']

/-- … and what it hands back. -/
theorem dn0_eq (d : Dev nD) :
    (bigSep Finset.univ fun c : Fin ((K (F := F)).nCore 0) => (P m colS).dn 0 d c)
      = iprop((bigSep Finset.univ fun c : Fin 2 => aLoc d ↦{qCore c} A m d)
        ∗ bigSep Finset.univ fun c : Fin 2 => bigSep Finset.univ fun i : Fin 16 => bigSep Finset.univ fun k : Fin 7 =>
            oLoc d ↦[pieceSet (placeOf c i) k]{fullShare} colS d) := by
  show (bigSep Finset.univ fun c : Fin ((K (F := F)).nCore 0) => dnR m colS d (Fin.cast nCore_zero c)) = _
  rw [bigSep_cores (F := F) (fun c => dnR m colS d c)]
  unfold dnR
  rw [bigSep_sep']

theorem piece_forget (d : Dev nD) (f : Buf (Elt F) (oLoc d)) (c : Fin 2) (i : Fin 16) (k : Fin 7) :
    (oLoc d ↦[pieceSet (placeOf c i) k]{fullShare} f : sProp 𝕄)
      ⊢ iprop(∃ f, oLoc d ↦[pieceSet (placeOf c i) k]{fullShare} f) := by
  iintro H; iexists f; iexact H

/-- Pieces at one contents are pieces at some contents. -/
theorem pieces_forget (d : Dev nD) (f : Buf (Elt F) (oLoc d)) :
    (bigSep Finset.univ fun c : Fin 2 => bigSep Finset.univ fun i : Fin 16 => bigSep Finset.univ fun k : Fin 7 =>
        oLoc d ↦[pieceSet (placeOf c i) k]{fullShare} f : sProp 𝕄)
      ⊢ bigSep Finset.univ fun c : Fin 2 => bigSep Finset.univ fun i : Fin 16 => bigSep Finset.univ fun k : Fin 7 =>
        iprop(∃ f, oLoc d ↦[pieceSet (placeOf c i) k]{fullShare} f) :=
  bigSep_mono fun c _ => bigSep_mono fun i _ => bigSep_mono fun k _ => piece_forget (F := F) d f c i k

/-- The unscoped buffers after the reshape hand the SparseCore call its operands — each SparseCore a read share of
    the scores and its tiles' pieces of the column-sum array — and are whole again, the column-sum array at the tiles'
    results, once the call hands its results back. -/
theorem call_split (d : Dev nD) :
    (held (SparseCore.T d) UC (W1 m d) : sProp 𝕄)
      ⊢ iprop((bigSep Finset.univ fun c : Fin ((K (F := F)).nCore 0) => (P m colS).st 0 d c)
        ∗ ((bigSep Finset.univ fun c : Fin ((K (F := F)).nCore 0) => (P m colS).dn 0 d c) -∗ held (SparseCore.T d) UC (W2 m colS d))) := by
  rw [st0_eq, dn0_eq, held_UC, held_UC, W2_a, W2_o, W2_rest, oPts_pieces (F := F) d (W1 m d oRef), oPts_pieces (F := F) d (colS d)]
  show iprop(((aLoc d ↦{fullShare} A m d) ∗ _) ∗ _) ⊢ _
  iintro ⟨⟨Ha, Ho⟩, Hrest⟩
  ihave Ha' := (Transfers.pointsTo_toks_split fullShare 2) $$ Ha
  icases Ha' with ⟨Hr, Ht⟩
  isplitl [Ht Ho]
  · isplitl [Ht]; · iexact Ht
    iapply (pieces_forget (F := F) d (W1 m d oRef)); iexact Ho
  iintro ⟨Ht, Ho⟩
  isplitr [Hrest]
  · isplitl [Hr Ht]
    · iapply (Transfers.pointsTo_toks_join fullShare 2)
      isplitl [Hr]; · iexact Hr
      iexact Ht
    iexact Ho
  iexact Hrest

end Cert.KernelIdeal.Launch

end
-- ==== Proof.Launch.lean ====
/-
  The launch of the whole program: the SparseCore call and the two TensorCore regions of @main, composed.

  @main on a device's TensorCore reshapes the scores to [16, 2048, 2048]; starts the SparseCore call; runs the first
  TensorCore region (heads 0..8) and the second (the planes assembled); transposes the planes. Each region is entered
  from the thread state the line before it left.
-/
import proofs.«216449_g46943992545511_cont_8to1_c_491_21_alg».proof.Proof.Split

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]
variable (colS : (d : Dev nD) → Buf (Elt F) (oLoc d))

/-! ## The launch element -/

/-- The prefetched tables' admissible contents: no pipeline has a table. -/
abbrev adm : (p : Fin 2) → (pcfgs (F := F) p).Adm := fun p => (cfgs p).toPCfg_adm

/-- The handshakes' rounds, the two pipelines' staging cells' rounds, no counter yet. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch deals a TensorCore beyond the handshakes: both pipelines' staging cells' ghost state and tokens. -/
def G (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

theorem bigSep_emp' {I : Type} (s : Finset I) : (bigSep s fun _ => iprop(emp)) = (iprop(emp) : sProp 𝕄) := bigSep_emp_const s

/-- The staging cells' component of a pair owned through the right embedding is owned through `EP`. -/
theorem own_EP (a : UP) (b : Counters) :
    (BI.own ((embR : Emb (UP × Counters) (𝕄F F)) (a, b)) : sProp 𝕄)
      ⊢ iprop(BI.own ((EP : Emb UP (𝕄F F)) a) ∗ BI.own (((Emb.inr : Emb Counters (UP × Counters)).trans (embR : Emb (UP × Counters) (𝕄F F))) b)) :=
  own_pair_emb embR a b

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m colS).x q thr) := by
  unfold u₀
  iintro Hu
  ihave H := (ownU_pair _ _) $$ Hu
  icases H with ⟨HH, HR⟩
  ihave H2 := (own_EP (F := F) _ _) $$ HR
  icases H2 with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' (F := F) _, bigSep_emp']]
  iempintro

/-! ## @main's shape -/

/-- The transposition of the planes, as @main's last line states it. -/
abbrev opTranspose : HloOp τ sig (Elt F) :=
  StableHlo.unary main_v3 main_v4 ((transpose S16x30000x3 [1, 2, 0] · transposes_S3x16x30000_S16x30000x3_1_2_0) : (⟨S3x16x30000, .f32⟩ : BufTy).Contents (Elt F) → (⟨S16x30000x3, .f32⟩ : BufTy).Contents (Elt F))

/-- What @main runs after the SparseCore call, in the TensorCore pipelines' own signature: the two regions and the
    transposition. -/
def tailInner : Prog (TpuEff nD τ sig (Elt F) (ΛP (F := F)) .tc) PUnit := do
  Prog.lift (.customCall (Pipeline.entry 0) ())
  Prog.lift (.customCall (Pipeline.entry 1) ())
  hlo rfl (opTranspose (F := F)) (fun _ => .ret ⟨⟩)
  pure ⟨⟩

/-- @main is the reshape, the SparseCore call, and that tail lifted. -/
theorem main_eq (d : Dev nD) : main (F := F) d = (do
    hlo rfl (opReshape (F := F)) (fun _ => .ret ⟨⟩)
    (sc (F := F)).run d 0
    SparseCore.liftProg (tailInner (F := F))) := rfl

/-! ## The TensorCore's thread state between the lines of @main -/

/-- What rides beside the buffers after the SparseCore call: the generator register at some state and the core owing
    nothing. -/
abbrev Rr (d : Dev nD) : sProp 𝕄 :=
  iprop((∃ r, prngReg d r) ∗ ∃ W, owes (SparseCore.T d) (0 : CellTallies nD τ sig (HIx 1)) W)

/-- With one call, every level is at most 7: any set of recorded pairs lies below level 8. -/
theorem wbelow_any (thr : Thread nD τ) (W : Waits sig (HIx 1)) : (K (F := F)).WBelow thr W (8 * 1) := by
  intro p _
  rcases p with ⟨s, ι⟩
  cases ι with
  | none => exact Nat.zero_le _
  | some q => exact ((K (F := F)).lev_some_le _ q).trans (by have := q.isLt; omega)

/-- The thread state at a valuation of the unscoped buffers. -/
abbrev TS (W : Dev nD → Valuation τ sig (Elt F)) (d : Dev nD) : sProp 𝕄 := iprop(held (SparseCore.T d) UC (W d) ∗ Rr (F := F) d)

theorem hReshape : (opReshape (F := F)).bufs ⊆ UC := Pipeline.sub_ucRefs _ (StableHlo.reshape_bufs_sub ..)
theorem hTranspose : (opTranspose (F := F)).bufs ⊆ UC := Pipeline.sub_ucRefs _ (StableHlo.unary_bufs_sub ..)

/-- After the one call the TensorCore owes nothing more: its handshake state opens to its `owes` and closes again
    around any set of recorded pairs. -/
theorem tcSt_open (d : Dev nD) :
    ((K (F := F)).tcSt EH d ((0 : Fin 1).val + 1) : sProp 𝕄)
      ⊢ iprop((∃ W, owes (SparseCore.T d) (0 : CellTallies nD τ sig (HIx 1)) W)
        ∗ (iprop(∃ W, owes (SparseCore.T d) (0 : CellTallies nD τ sig (HIx 1)) W) -∗ (K (F := F)).tcSt EH d 1)) := by
  show ((K (F := F)).tcSt EH d 1 : sProp 𝕄) ⊢ _
  unfold SparseCore.Cfg.tcSt
  rw [(K (F := F)).Otc_end d (le_refl 1)]
  iintro ⟨⟨%W, -, HO⟩, Hrest⟩
  isplitl [HO]; · iexists W; iexact HO
  iintro ⟨%W', HO⟩
  isplitl [HO]
  · iexists W'; isplitr
    · ipureintro; exact wbelow_any (F := F) _ W'
    iexact HO
  iexact Hrest

/-- Both pipelines' staging cells' ghost state, one by one. -/
theorem G_eq (d : Dev nD) : (G (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold G
  rw [show (Finset.univ : Finset (Fin 2)) = {0, 1} by decide, SparseCore.bigSep_insert' (by decide), bigSep_singleton]

/-! ## @main on the TensorCore -/

-- each region's record may be stated over its own family of proof data: a region's rule reads the family at its own
-- pipeline only
variable (rdats1 rdats2 : (p : Fin 2) → (c : Dev nD) → Pipeline.RDat τ (Elt F) (HIx 1) ℕ UU ℕ (Pipeline.pin (pcfgs (F := F)) adm p) c)
variable (R1 : Pipeline.RDat.RegionSeg (pcfgs (F := F)) adm rdats1 (none : HIx 1) defs₀ 𝒱₀ (K (F := F)).L (K (F := F)).lev 0)
variable (R2 : Pipeline.RDat.RegionSeg (pcfgs (F := F)) adm rdats2 (none : HIx 1) defs₀ 𝒱₀ (K (F := F)).L (K (F := F)).lev 1)
variable (W3 W4 : Dev nD → Valuation τ sig (Elt F))

/-- The last valuation: the planes transposed. -/
def W5 (d : Dev nD) : Valuation τ sig (Elt F) := (opTranspose (F := F)).result (W4 d)

/-- What @main leaves the claim to read: every unscoped buffer at the last valuation. -/
abbrev FIN (d : Dev nD) : sProp 𝕄 := held (SparseCore.T d) UC (W5 W4 d)

theorem hmain (hpre1 : ∀ d, TS (W2 m colS) d ⊢ R1.pre d) (hpost1 : ∀ d, R1.post d ⊢ TS W3 d)
    (hpre2 : ∀ d, TS W3 d ⊢ R2.pre d) (hpost2 : ∀ d, R2.post d ⊢ TS W4 d)
    (κ : GSem nD τ sig → ℕ) (d : Dev nD) :
    iprop((K (F := F)).ctx EH (P m colS) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN W4 d) := by
  unfold SparseCore.Cfg.tcRes
  rw [show (unscopedBufs d (fun b => m ((SparseCore.T d).loc b)) : sProp 𝕄) = held (SparseCore.T d) UC (W0 m d) from Pipeline.unscopedBufs_held d (W0 m d), main_eq]
  simp only [wp_bind, wp_pure]
  iintro ⟨#Hctx, Hst, ⟨Hb, Hheld, Hsems, Hprng⟩, HG⟩
  -- the reshape
  iapply (wp_hlo_within 𝒱 (SparseCore.T d) none Set.univ (op := opReshape) (S := UC) hReshape (V := W0 m d)) $$ [Hb Hheld]
  · isplitl [Hb]; · iexact Hb
    iexact Hheld
  rw [show (opReshape (F := F)).result (W0 m d) = W1 m d from rfl]
  iintro ⟨Hb, Hheld⟩
  rw [wp_ret]; imodintro
  -- the SparseCore call: each SparseCore its operands, and back
  ihave Hsp := (call_split m colS d) $$ Hheld
  icases Hsp with ⟨Hst0, Hback⟩
  iapply ((K (F := F)).wp_run (D (F := F)) 𝒱 (EH := EH) (P := P m colS) κ d 0) $$ [Hst Hst0 Hback Hb Hsems Hprng HG]
  isplitr; · iexact Hctx
  isplitl [Hst]; · iexact Hst
  isplitl [Hst0]; · iexact Hst0
  iintro ⟨Hst, Hdn⟩
  ihave Hheld := Hback $$ Hdn
  -- after the one call the TensorCore owes nothing
  ihave Ho := (tcSt_open d) $$ Hst
  icases Ho with ⟨HO, Hclose⟩
  ihave #Hlev := ((K (F := F)).ctx_levAts κ) $$ Hctx
  -- the rest of @main runs in the pipelines' own signature
  iapply ((K (F := F)).wp_liftProg (D (F := F)) 𝒱 (SparseCore.T d) Set.univ none (tailInner (F := F)) _)
  unfold tailInner
  simp only [wp_bind, wp_pure]
  ihave HG' := (Entails.of_eq (G_eq (F := F) d)) $$ HG
  icases HG' with ⟨⟨Hg0, Ht0⟩, ⟨Hg1, Ht1⟩⟩
  -- the first region: entered from the thread state the call left
  iapply (Pipeline.RDat.RegionSeg.wp (pcfgs (F := F)) adm rdats1 (none : HIx 1) cellOf_inj EP defs₀ 𝒱₀ (K (F := F)).L (K (F := F)).lev R1 d none
      (fun u hu => nomatch hu) (fun _ => Prog.ret PUnit.unit) _) $$ [Hb Hheld Hprng HO Hg0 Ht0 Hclose Hg1 Ht1]
  isplitr [Hb Hheld Hprng HO Hg0 Ht0]
  swap
  · isplitl [Hb]; · iexact Hb
    isplitl [Hheld Hprng HO]
    · iapply (hpre1 d)
      isplitl [Hheld]; · iexact Hheld
      isplitl [Hprng]; · iexists _; iexact Hprng
      iexact HO
    isplitr; · iexact Hlev
    isplitl [Hg0]; · iexact Hg0
    iexact Ht0
  iintro ⟨Hb, Hpost⟩
  ihave Hts := (hpost1 d) $$ Hpost
  icases Hts with ⟨Hheld, Hprng, HO⟩
  rw [wp_ret]; imodintro
  -- the second region
  iapply (Pipeline.RDat.RegionSeg.wp (pcfgs (F := F)) adm rdats2 (none : HIx 1) cellOf_inj EP defs₀ 𝒱₀ (K (F := F)).L (K (F := F)).lev R2 d none
      (fun u hu => nomatch hu) (fun _ => Prog.ret PUnit.unit) _) $$ [Hb Hheld Hprng HO Hg1 Ht1 Hclose]
  isplitr [Hb Hheld Hprng HO Hg1 Ht1]
  swap
  · isplitl [Hb]; · iexact Hb
    isplitl [Hheld Hprng HO]
    · iapply (hpre2 d)
      isplitl [Hheld]; · iexact Hheld
      isplitl [Hprng]; · iexact Hprng
      iexact HO
    isplitr; · iexact Hlev
    isplitl [Hg1]; · iexact Hg1
    iexact Ht1
  iintro ⟨Hb, Hpost⟩
  ihave Hts := (hpost2 d) $$ Hpost
  icases Hts with ⟨Hheld, Hprng, HO⟩
  rw [wp_ret]; imodintro
  -- the transposition
  iapply (wp_hlo_within 𝒱 (SparseCore.T d) none Set.univ (op := opTranspose) (S := UC) hTranspose (V := W4 d)) $$ [Hb Hheld]
  · isplitl [Hb]; · iexact Hb
    iexact Hheld
  iintro ⟨Hb, Hheld⟩
  rw [wp_ret]; imodintro; imodintro
  isplitl [Hclose HO]
  · iapply Hclose; iexact HO
  iexact Hheld

/-! ## The final memory, and the run -/

/-- What the claim reads off a final state: every unscoped TensorCore buffer at the last valuation. -/
def fq (d : Dev nD) (s' : Phys nD τ sig (Elt F)) : Prop := ∀ b ∈ UC, s'.mem.mem (d, b) = W5 W4 d b

theorem hfin (d : Dev nD) (s' : Phys nD τ sig (Elt F)) : iprop(held (SparseCore.T d) UC (W5 W4 d) ∗ SI s') ⊢ (⌜fq W4 d s'⌝ : sProp 𝕄) := by
  iintro ⟨Hh, HSI⟩
  unfold StableHlo.held
  ihave H := (pointsTo_read_all UC (fun b => (d, b)) (W5 W4 d) s') $$ [Hh HSI]
  · isplitl [Hh] <;> iassumption
  icases H with ⟨%h, -⟩
  ipureintro; exact h

def QC : PUnit × MemSt nD τ sig (Elt F) → Prop := fun r => ∀ d : Dev nD, ∀ b ∈ UC, r.2.mem (d, b) = W5 W4 d b

/-- The whole program's run: every weakly fair execution of all its threads terminates, nothing faulting, every
    unscoped TensorCore buffer at the last valuation. -/
theorem run_main [∀ e, Nonempty (Elt F e)]
    (htile : (K (F := F)).TileObl (D (F := F)) 𝒱 (P m colS) v₀ 0)
    (hpre1 : ∀ d, TS (W2 m colS) d ⊢ R1.pre d) (hpost1 : ∀ d, R1.post d ⊢ TS W3 d)
    (hpre2 : ∀ d, TS W3 d ⊢ R2.pre d) (hpost2 : ∀ d, R2.post d ⊢ TS W4 d) :
    θ_run (Cert.KernelIdeal.defs (F := F)) (Cert.KernelIdeal.threads (F := F)) ⟨m, fun _ => 0, ρ⟩ (QC W4) :=
  SparseCore.Cfg.θ_run_sc (K := K (F := F)) (D := D (F := F)) (𝒱 := 𝒱) (EH := EH) (P := P m colS) facts v₀
    (fun q hq => match q with | 0 => nomatch hq)
    (fun q _ => match q with | 0 => htile)
    (fun q _ => match q with | 0 => SparseCore.Cfg.VecSplit.of_plain (vecSplit m colS))
    m ρ main (G (F := F)) (FIN W4) (u₀ (F := F)) (sep_elim_left.trans (hu₀ m colS))
    (hmain m ρ colS rdats1 rdats2 R1 R2 W3 W4 hpre1 hpost1 hpre2 hpost2) (fq W4) (hfin W4) (QC W4) (fun _ h => h)

end Cert.KernelIdeal.Launch

end
-- ==== Proof.Region1.Runs.lean ====
/-
  The first TensorCore region's body: what its runs share — the two branch conditions of the body in closed
  form over the grid, and the staging and scratch memrefs the pipeline calls the body with at each point.
-/
import proofs.«216449_g46943992545511_cont_8to1_c_491_21_alg».proof.Proof.Setup
import proofs.«216449_g46943992545511_cont_8to1_c_491_21_alg».proof.Proof.Gen.KernelIdeal.Launch
import proofs.«216449_g46943992545511_cont_8to1_c_491_21_alg».proof.Proof.Gen.KernelIdeal.Skeleton
import proofs.«216449_g46943992545511_cont_8to1_c_491_21_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region1

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-! ## The body's branch conditions -/

/-- The condition of the body's first conditional (the accumulator is zeroed), from the grid coordinates. -/
abbrev cond1_0 (i : grid1.Coords) : Prop :=
  (Scalar.cmpi .ne (Scalar.extui (Scalar.cmpi .eq (BitVec.ofNat 32 (i 1).val) 0#32)) 0#32) = 1#1

/-- It holds exactly at the points whose second coordinate is 0: the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional (the output row is written) is taken exactly at the odd points. -/
theorem hcond1_1 : ∀ t : Fin cfg1.N, k1_cond2 (grid1.coords t) = 1#1 ↔ t.val % 2 = 1 :=
  (by decide +kernel : ∀ t : Fin grid1.N, k1_cond2 (grid1.coords t) = 1#1 ↔ t.val % 2 = 1)

/-- The first coordinate of point `t` (the head) is `t / 2`. -/
theorem coords1_0 : ∀ t : Fin cfg1.N, ((grid1.coords t) 0).val = t.val / 2 :=
  (by decide +kernel : ∀ t : Fin grid1.N, ((grid1.coords t) 0).val = t.val / 2)

/-! ## The memrefs the body is called with -/

/-- Each window's current staging memref at point `t`, spelled as the pipeline passes it, and its wholeness. -/
abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S9x128 .f32 := win1_1.stage (cfg1.slots t 1)
abbrev hs1_1 (t : Fin cfg1.N) : (ms1_1 t).IsWhole := hstage1_1 ((cfg1.slots t 1).cast nbuf1_1)
/-- The accumulator: the region's scratch buffer, whole. -/
abbrev scr1 : Memref sig .tc .vmem S1x2048 .f32 := Memref.whole cc1_scratch0
abbrev hscr1 : (scr1).IsWhole := Memref.isWhole_whole _

end Cert.KernelIdeal.Region1

end
-- ==== Proof.Region1.RunA.lean ====
/-
  The body of the first TensorCore region at a point whose second coordinate is 0: the accumulator is zeroed, the
  block's column sums are added to it, and the output window is not touched.
-/
import proofs.«216449_g46943992545511_cont_8to1_c_491_21_alg».proof.Proof.Region1.Runs

set_option maxRecDepth 16384

noncomputable section

namespace Cert.KernelIdeal.Region1

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

set_option maxHeartbeats 1000000 in
/-- What the body's stores leave in the accumulator at a point of the first kind (second coordinate 0), as
    pieces (last first), with the proof that from the input's staging memref at its contents and the accumulator at
    anything the body runs to the continuation holding the input's as it was and the accumulator with the pieces
    written. The output's staging memref is not used. -/
noncomputable def kernelRun1_A (c : Dev nD) (i : grid1.Coords) (arg2 : Memref sig .tc .vmem S1x1024x2048 .f32) (harg2 : arg2.IsWhole)
    (arg3 : Memref sig .tc .vmem S9x128 .f32) (harg3 : arg3.IsWhole) (arg4 : Memref sig .tc .vmem S1x2048 .f32) (harg4 : arg4.IsWhole)
    (hc0 : cond1_0 i) (hc1 : ¬ k1_cond2 i = 1#1)
    (x0 : Vec F S1x1024x2048 .f32) :
    { L4 : List (View.Piece (Elt F) S1x2048 .f32) //
      ∀ (E : Set ℕ) (K : PUnit → sProp 𝕄),
        iprop(owns (c : Thread nD τ) arg2 fullShare x0 ∗ (∃ d, owns (c : Thread nD τ) arg4 fullShare d)
            ∗ (iprop(owns (c : Thread nD τ) arg2 fullShare x0 ∗ (∃ f, arg4.view.loc (c : Thread nD τ) ↦[arg4.view.set]{fullShare} arg4.view.writes (Elt F) f L4)) -∗ K ⟨⟩))
          ⊢ wp frame (wpE (defs₀ (F := F)) Variants.none c none) E (cc1__tc_body i arg2 harg2 arg3 harg3 arg4 harg4) K } := by
  refine ⟨?_, fun E K => ?run⟩
  case run =>
    simp only [cc1__tc_body_eq_skeleton]; unfold cc1__tc_body_skel
    unfold owns
    iintro ⟨⟨%f0, %hf0, H0⟩, ⟨%d4, %f4, -, H4⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H4

end Cert.KernelIdeal.Region1

end
-- ==== Proof.Region1.RunB.lean ====
/-
  The body of the first TensorCore region at a point whose second coordinate is 1: the block's column sums are added
  to the accumulator, and the accumulator's product with the window mask is stored into one row of the output window.
-/
import proofs.«216449_g46943992545511_cont_8to1_c_491_21_alg».proof.Proof.Region1.RunA

set_option maxRecDepth 16384

noncomputable section

namespace Cert.KernelIdeal.Region1

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

set_option maxHeartbeats 1000000 in
/-- What the body's stores leave in the output's staging memref and in the accumulator at a point of the second
    kind (second coordinate 1), as pieces (last first), with the proof that from the input's staging memref, the
    output's and the accumulator at their contents the body runs to the continuation holding the input's as it was
    and the other two with their pieces written over what they held. -/
noncomputable def kernelRun1_B (c : Dev nD) (i : grid1.Coords) (arg2 : Memref sig .tc .vmem S1x1024x2048 .f32) (harg2 : arg2.IsWhole)
    (arg3 : Memref sig .tc .vmem S9x128 .f32) (harg3 : arg3.IsWhole) (arg4 : Memref sig .tc .vmem S1x2048 .f32) (harg4 : arg4.IsWhole)
    (hc0 : ¬ cond1_0 i) (hc1 : k1_cond2 i = 1#1)
    (x0 : Vec F S1x1024x2048 .f32) (y3 : Vec F S9x128 .f32) (s4 : Vec F S1x2048 .f32) :
    Σ' (L3 : List (View.Piece (Elt F) S9x128 .f32)), { L4 : List (View.Piece (Elt F) S1x2048 .f32) //
      ∀ (E : Set ℕ) (K : PUnit → sProp 𝕄),
        iprop(owns (c : Thread nD τ) arg2 fullShare x0 ∗ owns (c : Thread nD τ) arg3 fullShare y3 ∗ owns (c : Thread nD τ) arg4 fullShare s4
            ∗ (iprop(owns (c : Thread nD τ) arg2 fullShare x0
                ∗ (arg3.view.loc (c : Thread nD τ) ↦[arg3.view.set]{fullShare} arg3.view.writes (Elt F) (harg3.unread y3) L3)
                ∗ (arg4.view.loc (c : Thread nD τ) ↦[arg4.view.set]{fullShare} arg4.view.writes (Elt F) (harg4.unread s4) L4)) -∗ K ⟨⟩))
          ⊢ wp frame (wpE (defs₀ (F := F)) Variants.none c none) E (cc1__tc_body i arg2 harg2 arg3 harg3 arg4 harg4) K } := by
  refine ⟨?_, ?_, fun E K => ?run⟩
  case run =>
    simp only [cc1__tc_body_eq_skeleton]; unfold cc1__tc_body_skel
    unfold owns
    iintro ⟨⟨%f0, %hf0, H0⟩, ⟨%f3, %hf3, H3⟩, ⟨%f4, %hf4, H4⟩, Hk⟩
    obtain rfl := harg2.eq_unread hf0; obtain rfl := harg3.eq_unread hf3; obtain rfl := harg4.eq_unread hf4
    sl_exec (disch := first | exact hc0 | exact hc1)
    sl_step
    iapply Hk
    isplitl [H0]
    · iexists _; isplitr; · ipureintro; exact harg2.read_unread _
      iexact H0
    isplitl [H3]
    · iexact H3
    iexact H4

end Cert.KernelIdeal.Region1

end
-- ==== Proof.Region1.Pieces.lean ====
/-
  The pieces the two runs of the first TensorCore region's body leave, read as values over the body's arithmetic:
  the accumulator after a point of either kind, and the output's staging buffer after a point of the second kind.
-/
import proofs.«216449_g46943992545511_cont_8to1_c_491_21_alg».proof.Proof.Region1.RunB
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-shape rectangle at zero offsets, made last, leaves its payload, whatever the earlier
    stores and the contents before them were. -/
theorem read_writes_cons_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- THE FIRST KIND OF POINT: the accumulator ends at the block's column sums added to the zero row. -/
theorem acc_A (c : Dev nD) (i : grid1.Coords) (arg2 : Memref sig .tc .vmem S1x1024x2048 .f32) (harg2 : arg2.IsWhole)
    (arg3 : Memref sig .tc .vmem S9x128 .f32) (harg3 : arg3.IsWhole) (arg4 : Memref sig .tc .vmem S1x2048 .f32) (harg4 : arg4.IsWhole)
    (hc0 : cond1_0 i) (hc1 : ¬ k1_cond2 i = 1#1) (x0 : Vec F S1x1024x2048 .f32) (f : arg4.view.ty.Contents (Elt F)) :
    arg4.view.read (Elt F) (arg4.view.writes (Elt F) f (kernelRun1_A c i arg2 harg2 arg3 harg3 arg4 harg4 hc0 hc1 x0).1)
      = k1_pay2 (k1_pay1 (F := F)) x0 := by
  unfold kernelRun1_A
  dsimp only
  sl_unfold_words
  rw [read_writes_cons_unit_zero (S := S1x2048) _ _ hz2]
  rw [View.readCov_unit_zero (S := S1x2048) _ hz2]
  simp only [View.readAt_eq_ld, harg2.read_unread, View.ld_unit_zero (S := S1x1024x2048) hz3]

/-- THE SECOND KIND OF POINT: the accumulator ends at the block's column sums added to what it held. -/
theorem acc_B (c : Dev nD) (i : grid1.Coords) (arg2 : Memref sig .tc .vmem S1x1024x2048 .f32) (harg2 : arg2.IsWhole)
    (arg3 : Memref sig .tc .vmem S9x128 .f32) (harg3 : arg3.IsWhole) (arg4 : Memref sig .tc .vmem S1x2048 .f32) (harg4 : arg4.IsWhole)
    (hc0 : ¬ cond1_0 i) (hc1 : k1_cond2 i = 1#1) (x0 : Vec F S1x1024x2048 .f32) (y3 : Vec F S9x128 .f32) (s4 : Vec F S1x2048 .f32) :
    arg4.view.read (Elt F) (arg4.view.writes (Elt F) (harg4.unread s4) (kernelRun1_B c i arg2 harg2 arg3 harg3 arg4 harg4 hc0 hc1 x0 y3 s4).2.1)
      = k1_pay2 s4 x0 := by
  unfold kernelRun1_B
  dsimp only
  sl_unfold_words
  rw [read_writes_cons_unit_zero (S := S1x2048) _ _ hz2]
  simp only [View.readAt_eq_ld, harg2.read_unread, harg4.read_unread, View.ld_unit_zero (S := S1x1024x2048) hz3, View.ld_unit_zero (S := S1x2048) hz2]

/-- One store of a row of 128 into a [9,128] buffer, at row `k`: that row reads the payload, every other row what
    the buffer held. -/
theorem read_writes_row {sig' : RefSig} {κ : Kind} {sp : Space} {e : EltTy} {Val : EltTy → Type}
    (v : View sig' κ sp S9x128 e) (f : v.ty.Contents Val) (off : Fin 2 → Nat) (inb : ∀ a, off a + S1x128.size a ≤ S9x128.size a)
    (pl : (Rect.unit (s := S9x128) off S1x128.size inb).shape.Idx → Val e) (k : Nat) (hoff : off = ![k, 0]) (h : Fin 9) (w : Fin 128) :
    v.read Val (v.writes Val f [(⟨Rect.unit (s := S9x128) off S1x128.size inb, pl⟩ : View.Piece Val S9x128 e)]) (ix2 h w)
      = if h.val = k then pl (ix2 (0 : Fin 1) w) else v.read Val f (ix2 h w) := by
  subst hoff
  by_cases hh : h.val = k
  · rw [if_pos hh]
    have e : (ix2 h w : S9x128.Idx) = (Rect.unit (s := S9x128) ![k, 0] S1x128.size inb).emb (ix2 (0 : Fin 1) w) := by
      funext a; apply Fin.ext
      match a with
      | ⟨0, _⟩ => show h.val = k + 1 * 0; omega
      | ⟨1, _⟩ => show w.val = 0 + 1 * w.val; omega
    rw [e]; exact View.read_writes_cons_emb v f _ pl [] (ix2 (0 : Fin 1) w)
  · rw [if_neg hh]
    refine View.read_writes_apply_of_forall_not_mem v f (ix2 h w) _ ?_
    intro p hp hm
    rw [List.mem_singleton] at hp; subst hp
    have hm' : (ix2 h w : S9x128.Idx) ∈ (Rect.unit (s := S9x128) ![k, 0] S1x128.size inb).set := hm
    have h0 := (Rect.mem_set_unit.mp hm') 0
    have e0 : ((ix2 h w : S9x128.Idx) 0 : Nat) = h.val := rfl
    have e1 : (![k, 0] : Fin 2 → Nat) 0 = k := rfl
    have e2 : S1x128.size 0 = 1 := rfl
    rw [e0, e1, e2] at h0; omega

/-- THE SECOND KIND OF POINT: the output's staging buffer keeps what it held but for the row of the point's first
    coordinate, which ends at the product of the new accumulator with the window mask. -/
theorem out_B (c : Dev nD) (i : grid1.Coords) (arg2 : Memref sig .tc .vmem S1x1024x2048 .f32) (harg2 : arg2.IsWhole)
    (arg3 : Memref sig .tc .vmem S9x128 .f32) (harg3 : arg3.IsWhole) (arg4 : Memref sig .tc .vmem S1x2048 .f32) (harg4 : arg4.IsWhole)
    (hc0 : ¬ cond1_0 i) (hc1 : k1_cond2 i = 1#1) (x0 : Vec F S1x1024x2048 .f32) (y3 : Vec F S9x128 .f32) (s4 : Vec F S1x2048 .f32)
    (h : Fin 9) (w : Fin 128) :
    arg3.view.read (Elt F) (arg3.view.writes (Elt F) (harg3.unread y3) (kernelRun1_B c i arg2 harg2 arg3 harg3 arg4 harg4 hc0 hc1 x0 y3 s4).1) (ix2 h w)
      = if h.val = (i 0).val then k1_pay3 (k1_pay2 s4 x0) (ix2 (0 : Fin 1) w) else y3 (ix2 h w) := by
  unfold kernelRun1_B
  dsimp only
  rw [read_writes_row arg3.view _ _ _ _ (i 0).val (k1_off1_eq i) h w, harg3.read_unread]
  sl_unfold_words
  rw [View.readCov_unit_zero (S := S1x2048) _ hz2]
  simp only [View.readAt_eq_ld, harg2.read_unread, harg4.read_unread, View.ld_unit_zero (S := S1x1024x2048) hz3, View.ld_unit_zero (S := S1x2048) hz2]

end Cert.KernelIdeal.Region1

end
-- ==== Proof.Region1.lean ====
/-
  THE FIRST TENSORCORE REGION's body, as the pipeline library's body obligation, generic in the float instance.

  The region sums the columns of attn f32[16,2048,2048], head by head for the first nine heads, two blocks of 1024 rows
  per head, into an accumulator row f32[1,2048] carried across the two points of a head; at the second point of a head
  it multiplies the accumulator by a 0/1 mask f32[2048,128] that gathers columns into windows of 64, and stores the
  product as ONE ROW of the output window f32[9,128], which is written back after the last point only.

  Because a point stores one row of the output's staging buffer and leaves the other rows as they were, what the
  buffer holds after a point is not a function of the point alone: the proof data are RELATIONAL (the library's
  `RDat`): the output's buffer after a point is `out1` of what it held before. The accumulator's contents are carried
  by the region's invariant.
-/
import proofs.«216449_g46943992545511_cont_8to1_c_491_21_alg».proof.Proof.Region1.Pieces

set_option maxRecDepth 16384

noncomputable section

namespace Cert.KernelIdeal.Region1

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

open Idealize.ShloMosaic.ValueIdx

variable (V : (c : Dev nD) → (b : Ref sig .tc) → Buf (Elt F) ((c : Thread nD τ).loc b))

/-! ## The blocks, the accumulator, the output rows -/

/-- The input window's block at point `t`, read off its array as the region finds it. -/
def iblk1 (c : Dev nD) (t : Fin cfg1.N) : Vec F S1x1024x2048 .f32 :=
  ((cfg1.win 0).blk t).view.read (Elt F) (V c (Pipeline.arrRef spec1 0))

/-- The accumulator after a point of the first kind: the block's column sums over the zero row. -/
def accA (c : Dev nD) (t : Fin cfg1.N) : Vec F S1x2048 .f32 := k1_pay2 (k1_pay1 (F := F)) (iblk1 V c t)

/-- The accumulator after a point of the second kind: the block's column sums over what the point before left. -/
def accB (c : Dev nD) (t : Fin cfg1.N) : Vec F S1x2048 .f32 :=
  k1_pay2 (accA V c ⟨t.val - 1, Nat.lt_of_le_of_lt (Nat.sub_le _ _) t.isLt⟩) (iblk1 V c t)

/-- What a point makes of the output's staging buffer holding `Y`: a point of the second kind replaces the row of
    its first coordinate by the product of the accumulator with the window mask; a point of the first kind leaves it. -/
def out1 (c : Dev nD) (t : Fin cfg1.N) (Y : Vec F S9x128 .f32) : Vec F S9x128 .f32 := fun y =>
  if t.val % 2 = 1 ∧ (y 0).val = t.val / 2 then k1_pay3 (accB V c t) (ix2 (0 : Fin 1) (y 1)) else Y y

theorem out1_even (c : Dev nD) (t : Fin cfg1.N) (h : t.val % 2 = 0) (Y : Vec F S9x128 .f32) : out1 V c t Y = Y := by
  funext y; unfold out1; rw [if_neg (by omega)]

/-! ## The invariant: the accumulator between points -/

/-- The accumulator before point `n`: after a point of the first kind it holds that point's sums; before a point of
    the first kind (and after the last point) nothing is said of it. -/
def scrAt (c : Dev nD) (n : ℕ) : sProp 𝕄 :=
  if h : n % 2 = 1 ∧ n - 1 < cfg1.N then owns (c : Thread nD τ) scr1 fullShare (accA V c ⟨n - 1, h.2⟩)
  else iprop(∃ f : Buf (Elt F) ((c : Thread nD τ).loc cc1_scratch0), ((c : Thread nD τ).loc cc1_scratch0) ↦{fullShare} f)

theorem scrAt_even (c : Dev nD) (n : ℕ) (h : n % 2 = 0) :
    scrAt V c n = iprop(∃ f : Buf (Elt F) ((c : Thread nD τ).loc cc1_scratch0), ((c : Thread nD τ).loc cc1_scratch0) ↦{fullShare} f) :=
  dif_neg (by omega)

theorem scrAt_succ (c : Dev nD) (t : Fin cfg1.N) (h : t.val % 2 = 0) :
    scrAt V c (t.val + 1) = owns (c : Thread nD τ) scr1 fullShare (accA V c t) := by
  unfold scrAt
  rw [dif_pos ⟨by omega, by have := t.isLt; omega⟩]
  simp only [Nat.add_sub_cancel, Fin.eta]

theorem scrAt_odd (c : Dev nD) (t : Fin cfg1.N) (h : t.val % 2 = 1) :
    scrAt V c t.val = owns (c : Thread nD τ) scr1 fullShare (accA V c ⟨t.val - 1, Nat.lt_of_le_of_lt (Nat.sub_le _ _) t.isLt⟩) := by
  unfold scrAt
  rw [dif_pos ⟨h, Nat.lt_of_le_of_lt (Nat.sub_le _ _) t.isLt⟩]

/-- The region's invariant before point `n`: the accumulator as `scrAt` says, and the core's other scoped buffers
    that are no staging buffer of the region at some contents. -/
def Φ1 (c : Dev nD) (n : ℕ) : sProp 𝕄 :=
  iprop(scrAt V c n
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f))

/-- Before a point of the first kind, and after the last point, the invariant is the scoped rest. -/
theorem Φ1_even (c : Dev nD) (n : ℕ) (h : n % 2 = 0) :
    Φ1 V c n = (Pipeline.scopedRest (Ix := HIx 1) (Name := ℕ) (U := Setup.UU) (Lvl := ℕ) (Val := Elt F) spec1 c : sProp 𝕄) := by
  rw [scopedRest1_eq]; unfold Φ1; rw [scrAt_even V c n h]

/-! ## The proof data -/

/-- The proof data of the region on core `c`, relational: the arrays as the region finds them; the input's staging
    buffer left as found; the output's changed as `out1` says; the invariant `Φ1`; nothing owed; full shares. -/
def rdat1 (c : Dev nD) : RDat τ (Elt F) (HIx 1) ℕ Setup.UU ℕ cfg1 c where
  A w := V c (Pipeline.arrRef spec1 w)
  after w t := match w with
    | ⟨0, _⟩ => fun Y X => X = Y
    | ⟨1, _⟩ => fun Y X => X = out1 V c t Y
  Φ n := Φ1 V c n.val
  q _ := fullShare
  owed _ := 0

theorem A_eq1 (c : Dev nD) (w : Fin cfg1.W) : (rdat1 V c).A w = V c (Pipeline.arrRef spec1 w) := by
  dsimp only [rdat1]

theorem Φ_zero1 (c : Dev nD) :
    (rdat1 V c).Φ 0 = (Pipeline.scopedRest (Ix := HIx 1) (Name := ℕ) (U := Setup.UU) (Lvl := ℕ) (Val := Elt F) spec1 c : sProp 𝕄) :=
  Φ1_even V c 0 rfl

theorem Φ_last1 (c : Dev nD) :
    (rdat1 V c).Φ (Fin.last cfg1.N) = (Pipeline.scopedRest (Ix := HIx 1) (Name := ℕ) (U := Setup.UU) (Lvl := ℕ) (Val := Elt F) spec1 c : sProp 𝕄) :=
  Φ1_even V c cfg1.N (by rw [show cfg1.N = 18 from N_1])

theorem after1_0 (c : Dev nD) (t : Fin cfg1.N) (Y X) : (rdat1 V c).after 0 t Y X = (X = Y) := by dsimp only [rdat1]
theorem after1_1 (c : Dev nD) (t : Fin cfg1.N) (Y X) : (rdat1 V c).after 1 t Y X = (X = out1 V c t Y) := by dsimp only [rdat1]

/-- The input's current staging buffer holds its block at every point (every point fetches it, whole). -/
theorem finds1_0 (c : Dev nD) (t : Fin cfg1.N) (Y) (h : (rdat1 V c).Finds 0 t Y) : Y = iblk1 V c t := by
  obtain ⟨d, hd⟩ := ((rdat1 V c).finds_of_fetch (fetch1_0 t) Y).mp h
  rw [hd]; rfl

theorem Φ_castSucc1 (c : Dev nD) (t : Fin cfg1.N) : (rdat1 V c).Φ t.castSucc = Φ1 V c t.val := rfl
theorem Φ_succ1 (c : Dev nD) (t : Fin cfg1.N) : (rdat1 V c).Φ t.succ = Φ1 V c (t.val + 1) := rfl

/-- The accumulator's points-to through its whole memref, at any contents, is the scoped rest's clause for it. -/
theorem scr_forget (c : Dev nD) (g : (scr1).view.ty.Contents (Elt F)) :
    ((scr1).view.loc (c : Thread nD τ) ↦[(scr1).view.set]{fullShare} g : sProp 𝕄)
      ⊢ iprop(∃ f : Buf (Elt F) ((c : Thread nD τ).loc cc1_scratch0), ((c : Thread nD τ).loc cc1_scratch0) ↦{fullShare} f) := by
  refine (owns_intro (c : Thread nD τ) scr1 fullShare g).trans ?_
  rw [owns_whole]; iintro H; iexists _; iexact H

/-- At a point of the second kind, what the run leaves in the output's staging buffer is `out1` of what it held. -/
theorem out1_odd (c : Dev nD) (t : Fin cfg1.N) (h2 : t.val % 2 = 1) (hc0 : ¬ cond1_0 (grid1.coords t)) (hc1 : k1_cond2 (grid1.coords t) = 1#1)
    (Y0 : Vec F S1x1024x2048 .f32) (hY0 : Y0 = iblk1 V c t) (Y1 : Vec F S9x128 .f32) :
    (ms1_1 t).view.read (Elt F) ((ms1_1 t).view.writes (Elt F) ((hs1_1 t).unread Y1)
        (kernelRun1_B c (grid1.coords t) (ms1_0 t) (hs1_0 t) (ms1_1 t) (hs1_1 t) scr1 hscr1 hc0 hc1 Y0 Y1
          (accA V c ⟨t.val - 1, Nat.lt_of_le_of_lt (Nat.sub_le _ _) t.isLt⟩)).1)
      = out1 V c t Y1 := by
  funext y
  obtain ⟨h, w, rfl⟩ : ∃ (h : Fin 9) (w : Fin 128), y = ix2 h w := ⟨y 0, y 1, eq_ix2 y⟩
  rw [out_B c _ _ _ _ _ _ _ hc0 hc1 Y0 Y1 _ h w]
  unfold out1 accB
  rw [coords1_0 t, hY0]
  by_cases hh : h.val = t.val / 2
  · rw [if_pos hh, if_pos ⟨h2, hh⟩]
  · rw [if_neg hh, if_neg (fun hx => hh hx.2)]

/-! ## The body obligation -/

set_option maxHeartbeats 800000 in
/-- The body at any point, from any contents the windows' buffers may then hold: the input's buffer holds its block;
    the point's parity decides the case; the run of that case applies; the accumulator's contents pass through the
    invariant; the core owes nothing throughout. -/
theorem sound_body (c : Dev nD) (t : Fin cfg1.N)
    (Y : (w : Fin cfg1.W) → (cfg1.win w).block.Idx → Elt F (cfg1.win w).elt) (hY : ∀ w, (rdat1 V c).Finds w t (Y w)) :
    iprop((rdat1 V c).Φ t.castSucc ∗ (rdat1 V c).owesAt (none : HIx 1) t.castSucc
        ∗ owns (c : Thread nD τ) (ms1_0 t) fullShare (Y 0) ∗ owns (c : Thread nD τ) (ms1_1 t) fullShare (Y 1))
      ⊢ wp frame (wpE (defs₀ (F := F)) Variants.none c none) Set.univ (bodyAt1 t) (fun _ =>
          iprop((rdat1 V c).Φ t.succ ∗ (rdat1 V c).owesAt (none : HIx 1) t.succ
            ∗ (∃ X, ⌜(rdat1 V c).after 0 t (Y 0) X⌝ ∗ owns (c : Thread nD τ) (ms1_0 t) fullShare X)
            ∗ (∃ X, ⌜(rdat1 V c).after 1 t (Y 1) X⌝ ∗ owns (c : Thread nD τ) (ms1_1 t) fullShare X))) := by
  have h0 : Y 0 = iblk1 V c t := finds1_0 V c t (Y 0) (hY 0)
  unfold bodyAt1
  rw [show (rdat1 V c).owesAt (none : HIx 1) t.succ = (rdat1 V c).owesAt (none : HIx 1) t.castSucc from rfl,
    Φ_castSucc1, Φ_succ1]
  simp only [after1_0, after1_1]
  unfold Φ1
  by_cases h2 : t.val % 2 = 0
  · have hc0 : cond1_0 (grid1.coords t) := (hcond1_0 t).mpr h2
    have hc1 : ¬ k1_cond2 (grid1.coords t) = 1#1 := fun h => by have := (hcond1_1 t).mp h; omega
    rw [scrAt_even V c t.val h2, scrAt_succ V c t h2, out1_even V c t h2]
    iintro ⟨⟨⟨%f4, Hs⟩, HR⟩, Ho, H0, H1⟩
    iapply ((kernelRun1_A c (grid1.coords t) _ _ _ _ _ _ hc0 hc1 (Y 0)).2 Set.univ _)
    isplitl [H0]; · iexact H0
    isplitl [Hs]
    · iexists f4; rw [owns_whole]; iexact Hs
    iintro ⟨H0, ⟨%g, H4⟩⟩
    isplitl [H4 HR]
    · isplitl [H4]
      · unfold owns; iexists _; isplitr
        swap; · iexact H4
        ipureintro; unfold accA; rw [← h0]; exact acc_A c _ _ _ _ _ _ _ hc0 hc1 (Y 0) g
      · iexact HR
    isplitl [Ho]; · iexact Ho
    isplitl [H0]
    · iexists (Y 0); isplitr; · ipureintro; rfl
      iexact H0
    iexists (Y 1); isplitr; · ipureintro; rfl
    iexact H1
  · have h2' : t.val % 2 = 1 := by omega
    have hc0 : ¬ cond1_0 (grid1.coords t) := fun h => h2 ((hcond1_0 t).mp h)
    have hc1 : k1_cond2 (grid1.coords t) = 1#1 := (hcond1_1 t).mpr h2'
    rw [scrAt_odd V c t h2', scrAt_even V c (t.val + 1) (by omega)]
    iintro ⟨⟨Hs, HR⟩, Ho, H0, H1⟩
    iapply ((kernelRun1_B c (grid1.coords t) _ _ _ _ _ _ hc0 hc1 (Y 0) (Y 1)
      (accA V c ⟨t.val - 1, Nat.lt_of_le_of_lt (Nat.sub_le _ _) t.isLt⟩)).2.2 Set.univ _)
    isplitl [H0]; · iexact H0
    isplitl [H1]; · iexact H1
    isplitl [Hs]; · iexact Hs
    iintro ⟨H0, H3, H4⟩
    isplitl [H4 HR]
    · isplitl [H4]
      · iapply (scr_forget c _); iexact H4
      · iexact HR
    isplitl [Ho]; · iexact Ho
    isplitl [H0]
    · iexists (Y 0); isplitr; · ipureintro; rfl
      iexact H0
    iexists _; isplitr
    swap
    · unfold owns; iexists _; isplitr
      swap; · iexact H3
      ipureintro; rfl
    ipureintro
    exact out1_odd V c t h2' hc0 hc1 (Y 0) h0 (Y 1)

/-- The library's body obligation of the relational proof data, at every point. -/
theorem body_obligation1 (c : Dev nD) :
    (rdat1 (F := F) V c).BodyObligation (defs₀ (F := F)) Variants.none (none : HIx 1) Set.univ := fun t Y hY => by
  rw [bigSep_W1, bigSep_W1]
  exact sound_body V c t Y hY

end Cert.KernelIdeal.Region1

end
-- ==== Proof.Region2.lean ====
/-
  The second TensorCore region's body: the gridless call that assembles the three output planes.

  The body reads the column sums (window 1) and the TensorCore's window rows (window 0), and fills the output
  (window 2) by three stores, one whole plane each: plane 0 holds the 9 window rows over the 7 rows obtained by
  summing the column sums in groups of eight and multiplying by the 0/1 window-membership matrix, padded with the
  not-a-number word beyond column 128 and masked to the live columns; planes 1 and 2 both hold the column number
  as a float on the live columns and the not-a-number word elsewhere.

  Stated at any float instance, at a parameter `V`: the TensorCore's buffer contents when the region is entered.
  Each input window's staging buffer holds its block; the output's buffer ends at `out2_2` of the two input blocks,
  the canonical contents of the three stores; the invariant and what the core owes pass through the body unread.
-/
import proofs.«216449_g46943992545511_cont_8to1_c_491_21_alg».proof.Proof.Setup
import proofs.«216449_g46943992545511_cont_8to1_c_491_21_alg».proof.Proof.Gen.KernelIdeal.Launch
import proofs.«216449_g46943992545511_cont_8to1_c_491_21_alg».proof.Proof.Gen.KernelIdeal.Skeleton
import proofs.«216449_g46943992545511_cont_8to1_c_491_21_alg».proof.Proof.Gen.KernelIdeal.Points
import Idealize.ShloMosaic.Lib.Pipeline.FrameBody
import Idealize.ShloMosaic.Lib.Pipeline.Frame
import Idealize.ShloMosaic.Lib.Tactic

-- membership in a rectangle of these extents: the elaborator's structural look recurses once per coordinate
set_option maxRecDepth 16384

noncomputable section

namespace Cert.KernelIdeal.Region2

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => Setup.𝕄F F

-- the TensorCore's buffer contents when the region is entered
variable (V : (c : Dev nD) → (b : Ref sig .tc) → Buf (Elt F) ((c : Thread nD τ).loc b))

/-! ## The windows' blocks -/

/-- Window `w`'s block at the one grid point, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s (`hA`) and whose body leaves the block in place (`hafter`): the window is uncut and never idle. -/
theorem before2_0_of {c : Dev nD} (dat : Dat τ (Elt F) (HIx 1) ℕ Setup.UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) (HIx 1) ℕ Setup.UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of window 0 (9 × 128) and of window 1 (114688 words): what the two loads read. -/
abbrev l2_0 : Rect S9x128 := Rect.unit (s := S9x128) ![0, 0] S9x128.size inb_S9x128_S9x128_0_0
abbrev l2_1 : Rect S114688 := Rect.unit (s := S114688) ![0] S114688.size inb_S114688_S114688_0

/-- Plane `k` of the output (1 × 16 × 30000 at offset `k` along axis 0): what store `k` writes. -/
abbrev r2_0 : Rect S3x16x30000 := Rect.unit (s := S3x16x30000) ![0, 0, 0] S1x16x30000.size inb_S3x16x30000_S1x16x30000_0_0_0
abbrev r2_1 : Rect S3x16x30000 := Rect.unit (s := S3x16x30000) ![1, 0, 0] S1x16x30000.size inb_S3x16x30000_S1x16x30000_1_0_0
abbrev r2_2 : Rect S3x16x30000 := Rect.unit (s := S3x16x30000) ![2, 0, 0] S1x16x30000.size inb_S3x16x30000_S1x16x30000_2_0_0

/-! ## What the body leaves in the output window's buffer -/

/-- Window 2's staging buffer after the body, from the input windows' blocks: its three stores as pieces, last
    first. Plane 0's payload is the assembled rows (the 7 matrix-product rows from the column sums under the 9
    window rows); planes 1 and 2 carry the column-number payload. -/
def out2_2 (x0 : Vec F S9x128 .f32) (x1 : Vec F S114688 .f32) : Vec F S3x16x30000 .f32 :=
  View.canon [⟨r2_2, k2_pay5 (F := F)⟩, ⟨r2_1, k2_pay4 (F := F)⟩, ⟨r2_0, k2_pay2 (k2_pay6 (View.ld x1 l2_1)) (View.ld x0 l2_0)⟩]

/-- The three planes tile the buffer (one block per plane along axis 0), so the stores cover it. -/
theorem cover2_2 (p0 p1 p2 : Vec F S1x16x30000 .f32) (y : S3x16x30000.Idx) :
    ∃ pc ∈ ([⟨r2_2, p0⟩, ⟨r2_1, p1⟩, ⟨r2_0, p2⟩] : List (View.Piece (Elt F) S3x16x30000 .f32)), y ∈ pc.1.set :=
  View.cover_of_tiled [⟨r2_2, p0⟩, ⟨r2_1, p1⟩, ⟨r2_0, p2⟩] S1x16x30000.size (by rfl) y

/-! ## The body's triple -/

set_option maxHeartbeats 1000000 in
/-- The body on whole staging memrefs, the inputs' at read contents `x0`, `x1` and the output's at anything, runs to
    the continuation holding the inputs' as they were and the output's at `out2_2 x0 x1`. -/
theorem sound_kernel2 (c : Dev nD) (E : Set ℕ) (arg0 : Memref sig .tc .vmem S9x128 .f32) (harg0 : arg0.IsWhole) (arg1 : Memref sig .tc .vmem S114688 .f32) (harg1 : arg1.IsWhole) (arg2 : Memref sig .tc .vmem S3x16x30000 .f32) (harg2 : arg2.IsWhole)
    (x0 : Vec F S9x128 .f32) (x1 : Vec F S114688 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__asm_body arg0 harg0 arg1 harg1 arg2 harg2) K := by
  simp only [cc2__asm_body_eq_skeleton]; unfold cc2__asm_body_skel
  simp only [k2_part1_eq_skeleton]; unfold k2_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _ _ _)

/-! ## The pipeline's proof data -/

/-- The region's invariant on core `c`: the core's scoped buffers that are no staging buffer of this call, at some
    contents each, and its generator register at some state. The body uses neither. -/
def Φ2 (c : Dev nD) : sProp 𝕄 :=
  iprop(Pipeline.scopedRest (Ix := HIx 1) (Name := ℕ) (U := Setup.UU) (Lvl := ℕ) (Val := Elt F) spec2 c ∗ ∃ r, prngReg c r)

/-- The proof data of the call on core `c`: the arrays as the region finds them (`V`); after the body each input's
    buffer at its block and the output's at `out2_2` of the two input blocks; nothing owed; full shares. -/
def dat2 (c : Dev nD) : Dat τ (Elt F) (HIx 1) ℕ Setup.UU ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Φ2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one (the pipeline's own waits sit at the index `none`), -/
def bodyPre2 (c : Dev nD) (t : Fin cfg2.N) : sProp 𝕄 :=
  iprop((dat2 V c).Φ t.castSucc ∗ (dat2 V c).owesAt (none : HIx 1) t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt (none : HIx 1) t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at the point: the inputs' memrefs hold their blocks, so the body's triple applies; the invariant and
    the core's owed tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt (none : HIx 1) t.succ = (dat2 V c).owesAt (none : HIx 1) t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none (none : HIx 1) Set.univ := fun t => by
  rw [bigSep_W2, bigSep_W2]
  exact sound_body2 V c t

end Cert.KernelIdeal.Region2

end
-- ==== Proof.Seg1.lean ====
/-
  The first TensorCore region (heads 0..8: the column sums over the two halves of the rows, then the window product)
  as a segment of @main: entered from every unscoped buffer at a valuation, it leaves them at that valuation with the
  window array at what the points wrote. Its proof data are relational (the output buffer is written a row per head),
  so at the exit the arrays are presented at SOME contents the write-backs allow, which are the named ones.
-/
import proofs.«216449_g46943992545511_cont_8to1_c_491_21_alg».proof.Proof.Launch
import proofs.«216449_g46943992545511_cont_8to1_c_491_21_alg».proof.Proof.Region1
import proofs.«216449_g46943992545511_cont_8to1_c_491_21_alg».proof.Proof.Region2
import Idealize.ShloMosaic.Lib.Pipeline.FrameSuffix
import Idealize.ShloMosaic.Lib.Pipeline.RegionsLoop

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]

open Idealize.ShloMosaic.Pipeline (Dat RDat)
open Idealize.ShloMosaic.TcCoe

variable (Wa : Dev nD → Valuation τ sig (Elt F))
variable [∀ e, Nonempty (Elt F e)]

/-- The valuation the region is entered at, read at the TensorCore's references. -/
abbrev Va : (c : Dev nD) → (b : Ref sig .tc) → Buf (Elt F) ((c : Thread nD τ).loc b) := fun c b => Wa c (Proc.devRef .tc b)

/-- The family the first region's record is stated over: its own relational data; at the second pipeline any will do. -/
def rdats1 : (p : Fin 2) → (c : Dev nD) → RDat τ (Elt F) (HIx 1) ℕ UU ℕ (Pipeline.pin (pcfgs (F := F)) adm p) c
  | ⟨0, _⟩ => fun c => Region1.rdat1 (Va Wa) c
  | ⟨1, _⟩ => fun c => (Region2.dat2 (Va Wa) c).toR

-- what the window array holds after the region, and that the write-backs allow nothing else
variable (win1 : (c : Dev nD) → Buf (Elt F) ((cfg1.win 1).arr.view.loc (c : Thread nD τ)))
variable (hA1 : ∀ c G, (Region1.rdat1 (Va Wa) c).ArrAt 1 cfg1.N G → G = win1 c)
variable (hA0 : ∀ c G, (Region1.rdat1 (Va Wa) c).ArrAt 0 cfg1.N G → G = Va Wa c (Pipeline.arrRef spec1 0))

/-- The arrays' final contents, window by window. -/
def fin1 (c : Dev nD) : (w : Fin cfg1.W) → Buf (Elt F) ((cfg1.win w).arr.view.loc (c : Thread nD τ))
  | ⟨0, _⟩ => Va Wa c (Pipeline.arrRef spec1 0)
  | ⟨1, _⟩ => win1 c

/-- At the region's exit: its arrays at those contents, every other buffer as entered. -/
def W3 (c : Dev nD) : Valuation τ sig (Elt F) := Pipeline.withArrays spec1 c (Wa c) (fin1 Wa win1 c)
theorem W3_arr (c : Dev nD) (w : Fin cfg1.W) : W3 Wa win1 c (Proc.devRef .tc (Pipeline.arrRef spec1 w)) = fin1 Wa win1 c w := by
  unfold W3; exact Pipeline.withArrays_arr spec1 launch1.win.arr_inj c _ _ w
theorem W3_of_ne (c : Dev nD) (b : Ref sig .tc) (hb : ∀ w, Pipeline.arrRef spec1 w ≠ b) :
    W3 Wa win1 c (Proc.devRef .tc b) = Wa c (Proc.devRef .tc b) := by
  unfold W3; exact Pipeline.withArrays_of_ne spec1 c _ _ b hb
abbrev V3' : (c : Dev nD) → (b : Ref sig .tc) → Buf (Elt F) ((c : Thread nD τ).loc b) := fun c b => W3 Wa win1 c (Proc.devRef .tc b)

/-- Every array of the first region is held whole. -/
theorem share1 (c : Dev nD) (w : Fin cfg1.W) : (rdats1 Wa 0 c).share w = fullShare := by
  unfold Pipeline.RDat.share; split <;> rfl

include hA1 hA0 in
/-- One array at some contents the write-backs allow is that array at the named contents. -/
theorem arrayAt_named (c : Dev nD) (w : Fin cfg1.W) :
    (iprop(∃ G, ⌜(rdats1 Wa 0 c).ArrAt w cfg1.N G⌝
        ∗ (cfg1.win w).arr.view.loc (c : Thread nD τ) ↦[(cfg1.win w).arr.view.set]{(rdats1 Wa 0 c).share w} G) : sProp 𝕄)
      ⊢ (cfg1.win w).arr.view.loc (c : Thread nD τ) ↦[(cfg1.win w).arr.view.set]{(rdats1 Wa 0 c).share w} fin1 Wa win1 c w := by
  iintro ⟨%G, %hG, H⟩
  have e : G = fin1 Wa win1 c w := by
    match w with
    | ⟨0, _⟩ => exact hA0 c G hG
    | ⟨1, _⟩ => exact hA1 c G hG
  rw [← e]; iexact H

include hA1 hA0 in
/-- The arrays at some contents the write-backs allow are the arrays at the named contents. -/
theorem arraysAt_named (c : Dev nD) :
    ((rdats1 Wa 0 c).arraysAt cfg1.N : sProp 𝕄) ⊢ (rdats1 Wa 0 c).arrays (fin1 Wa win1 c) := by
  unfold Pipeline.RDat.arraysAt Pipeline.RDat.arrays
  exact bigSep_mono fun w _ => arrayAt_named Wa win1 hA1 hA0 c w

/-- The arrays at the named contents and the unscoped rest as entered are every unscoped buffer at the exit valuation. -/
theorem unscopedBufs_of_arrays_R (c : Dev nD) :
    iprop((rdats1 Wa 0 c).arrays (fin1 Wa win1 c) ∗ Pipeline.unscopedRest (Ix := HIx 1) (Name := ℕ) (U := UU) (Lvl := ℕ) spec1 c (Va Wa c))
      ⊢ (unscopedBufs c (V3' Wa win1 c) : sProp 𝕄) := by
  rw [Pipeline.unscopedBufs_split (Pipeline.pin (pcfgs (F := F)) adm) 0 launch1.win.arr_unscoped launch1.win.arr_inj c (V3' Wa win1 c),
    Pipeline.RDat.arrays_eq (pcfgs (F := F)) adm (rdats1 Wa) 0 c launch1.arr_whole (share1 Wa c)]
  refine BIClass.sep_mono (Entails.of_eq (bigSep_congr fun w _ => by rw [show V3' Wa win1 c (Pipeline.arrRef (Pipeline.pin (pcfgs (F := F)) adm 0).spec w) = fin1 Wa win1 c w from W3_arr Wa win1 c w])) (Entails.of_eq ?_)
  unfold Pipeline.unscopedRest
  exact bigSep_congr fun b hb => by
    rw [show V3' Wa win1 c b = Va Wa c b from W3_of_ne Wa win1 c b fun w e => (Finset.mem_sdiff.mp hb).2 (Finset.mem_image.mpr ⟨w, Finset.mem_univ _, e⟩)]

set_option backward.isDefEq.respectTransparency.types false in
/-- The first region over the thread state. -/
def R1 : Pipeline.RDat.RegionSeg (pcfgs (F := F)) adm (rdats1 Wa) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := Region1.body_obligation1 (Va Wa) c
  hwaits := Pipeline.RDat.hwaits_of_owed_zero _ _ _ _ (K (F := F)).L (K (F := F)).lev 0 fun _ _ => rfl
  pre c := TS Wa c
  post c := TS (W3 Wa win1) c
  X c := iprop(emp)
  Y c := iprop(emp)
  Z c := iprop(Pipeline.unscopedRest (Ix := HIx 1) (Name := ℕ) (U := UU) (Lvl := ℕ) spec1 c (Va Wa c) ∗ ∃ r, prngReg c r)
  hentry c := by
    rw [Pipeline.ownSems0_none]
    have hsplit := Pipeline.RDat.arrays_of_unscopedBufs (p := 0) (pcfgs (F := F)) adm (rdats1 Wa) launch1.win launch1.arr_whole c
      (share1 Wa c) (Va Wa c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (rdats1 Wa 0 c).Φ 0 = _ from Region1.Φ_zero1 (Va Wa) c]
    iintro ⟨-, -, Hr⟩
    iexact Hr
  hout c := by
    rw [Pipeline.ownSems0_none, show (rdats1 Wa 0 c).Φ (Fin.last _) = _ from Region1.Φ_last1 (Va Wa) c]
    iintro Hr
    isplitr; · iempintro
    isplitr; · iempintro
    iexact Hr
  hexit c := by
    have hjoin := unscopedBufs_of_arrays_R Wa win1 c
    rw [Pipeline.unscopedBufs_held] at hjoin
    iintro ⟨Ha, HO, -, ⟨Hrest, Hp⟩⟩
    ihave Ha' := (arraysAt_named Wa win1 hA1 hA0 c) $$ Ha
    imodintro
    isplitl [Ha' Hrest]
    · iapply hjoin; isplitl [Ha'] <;> iassumption
    isplitl [Hp]; · iexact Hp
    unfold Pipeline.RDat.owesAt Pipeline.owesWithin
    icases HO with ⟨%W, -, HO⟩; iexists W; iexact HO

end Cert.KernelIdeal.Launch

end
-- ==== Proof.Seg2.lean ====
/-
  The second TensorCore region (the planes assembled) as a segment of @main: entered from every unscoped buffer at
  the valuation the first region left, it leaves them at that valuation with the planes' array at what the body
  wrote; its three arrays are split out of the unscoped buffers at the entry and put back at the exit; the generator
  register passes through the region's invariant; nothing is owed; the kernel has no semaphore of its own.
-/
import proofs.«216449_g46943992545511_cont_8to1_c_491_21_alg».proof.Proof.Launch
import proofs.«216449_g46943992545511_cont_8to1_c_491_21_alg».proof.Proof.Region2
import Idealize.ShloMosaic.Lib.Pipeline.FrameSuffix
import Idealize.ShloMosaic.Lib.Pipeline.RegionsLoop

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]

open Idealize.ShloMosaic.Pipeline (Dat)
open Idealize.ShloMosaic.TcCoe

variable (W3 : Dev nD → Valuation τ sig (Elt F))
variable [∀ e, Nonempty (Elt F e)]

/-- The valuation the first region left, read at the TensorCore's references. -/
abbrev V3 : (c : Dev nD) → (b : Ref sig .tc) → Buf (Elt F) ((c : Thread nD τ).loc b) := fun c b => W3 c (Proc.devRef .tc b)

/-- Exact proof data are needed at the second pipeline only; at the first any will do: its arrays as found, each
    buffer at its block. -/
def dat1x (c : Dev nD) : Dat τ (Elt F) (HIx 1) ℕ UU ℕ cfg1 c where
  A w := V3 W3 c (Pipeline.arrRef spec1 w)
  after w t := fun _ => Classical.choice inferInstance
  Φ _ := iprop(emp)
  q _ := fullShare
  owed _ := 0

/-- The family the second region's record is stated over. -/
def pdats2 : (p : Fin 2) → (c : Dev nD) → Dat τ (Elt F) (HIx 1) ℕ UU ℕ (Pipeline.pin (pcfgs (F := F)) adm p) c
  | ⟨0, _⟩ => fun c => dat1x W3 c
  | ⟨1, _⟩ => fun c => Region2.dat2 (V3 W3) c

/-- At the region's exit: its arrays at what the pipeline leaves, every other buffer as entered. -/
def W4 (c : Dev nD) : Valuation τ sig (Elt F) :=
  Pipeline.withArrays spec2 c (W3 c) fun w => (Region2.dat2 (V3 W3) c).arrAt w cfg2.N
theorem W4_arr (c : Dev nD) (w : Fin cfg2.W) :
    W4 W3 c (Proc.devRef .tc (Pipeline.arrRef spec2 w)) = (Region2.dat2 (V3 W3) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 W3 c (Proc.devRef .tc b) = W3 c (Proc.devRef .tc b) := by
  unfold W4; exact Pipeline.withArrays_of_ne spec2 c _ _ b hb
abbrev V4 : (c : Dev nD) → (b : Ref sig .tc) → Buf (Elt F) ((c : Thread nD τ).loc b) := fun c b => W4 W3 c (Proc.devRef .tc b)
theorem hF2 (c : Dev nD) (w : Fin cfg2.W) : (Region2.dat2 (V3 W3) c).arrAt w cfg2.N = V4 W3 c (Pipeline.arrRef spec2 w) :=
  (W4_arr W3 c w).symm
theorem hrest2 (c : Dev nD) : ∀ b, b ∉ Finset.univ.image (Pipeline.arrRef spec2) → V4 W3 c b = V3 W3 c b :=
  fun b hb => W4_of_ne W3 c b fun w e => hb (Finset.mem_image.mpr ⟨w, Finset.mem_univ _, e⟩)

set_option backward.isDefEq.respectTransparency.types false in
/-- The second region over the thread state. -/
def reg2x : Pipeline.RegionSeg (pcfgs (F := F)) adm (pdats2 W3) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (Region2.body_obligation2 (V3 W3) c).loose
  hwaits := Pipeline.hwaits_of_owed_zero _ _ _ _ (K (F := F)).L (K (F := F)).lev 1 fun _ _ => rfl
  pre c := TS W3 c
  post c := TS (W4 W3) c
  X c := iprop(∃ r, prngReg c r)
  Y c := iprop(∃ r, prngReg c r)
  Z c := Pipeline.unscopedRest (Ix := HIx 1) (Name := ℕ) (U := UU) (Lvl := ℕ) spec2 c (V3 W3 c)
  hentry c := by
    rw [Pipeline.ownSems0_none]
    have hsplit := Pipeline.arrays_of_unscopedBufs (p := 1) (pcfgs (F := F)) adm (pdats2 W3) launch2.win launch2.arr_whole c
      ((pdats2 W3 1 c).share_full fun _ => rfl) (V3 W3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats2 W3 1 c).Φ 0 = Region2.Φ2 (F := F) c from rfl]; unfold Region2.Φ2
    iintro ⟨Hp, -, Hr⟩
    isplitl [Hr]; · iexact Hr
    iexact Hp
  hout c := by
    rw [Pipeline.ownSems0_none, show (pdats2 W3 1 c).Φ (Fin.last _) = Region2.Φ2 (F := F) c from rfl]; unfold Region2.Φ2
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats2 W3) ((pdats2 W3 1 c).share_full fun _ => rfl)
      (V3 W3 c) (V4 W3 c) ((pdats2 W3 1 c).arrAt · cfg2.N) (hF2 W3 c) (hrest2 W3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The same as a region of relational data, the form the launch takes. -/
def R2 : Pipeline.RDat.RegionSeg (pcfgs (F := F)) adm (Pipeline.Dat.toRs (pdats2 W3)) (none : HIx 1) defs₀ 𝒱₀ (K (F := F)).L (K (F := F)).lev 1 :=
  (reg2x W3).toR (pcfgs (F := F)) adm (pdats2 W3) (none : HIx 1) defs₀ 𝒱₀ (K (F := F)).L (K (F := F)).lev

end Cert.KernelIdeal.Launch

end
-- ==== Proof.TileObl.lean ====
/-
  A tile's task as the launch theorem asks it: the body table's row at a vector subcore is the kernel function at the
  tile's place, on the whole arrays and the tile's scratch; its proof at a symbolic place (over the kernels' own body
  table) lifts to the pipelines' table, and the task's payload — the tile's read share of the scores and its seven
  pieces of the column-sum array, named as the TensorCore names them — is the same resource as the kernel's memrefs
  address it.
-/
import proofs.«216449_g46943992545511_cont_8to1_c_491_21_alg».proof.Proof.Pay
import proofs.«216449_g46943992545511_cont_8to1_c_491_21_alg».proof.Proof.Gen.KernelIdeal.Skeleton

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]
variable (colS : (d : Dev nD) → Buf (Elt F) (oLoc d))

/-- The kernel function at a place, on what the body table passes it. -/
abbrev bodyAt (L : grid0.Coords) : Prog (TpuEff nD τ sig (Elt F) Λ₀ (.scVector ((L 0).castLE hcore0) ((L 1).castLE hsub0))) PUnit :=
  cc0__sc_body L (Memref.whole main_v0_scv) (Memref.isWhole_whole _) (Memref.whole main_v1_scv) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4
    cc0_scoped0 cc0_scoped1 cc0_scoped2 cc0_scoped3 cc0_scoped4 cc0_scoped5 cc0_scoped6

/-- The thread of the tile at a place. -/
abbrev thrAt (d : Dev nD) (L : grid0.Coords) : Thread nD τ := SparseCore.V d ((L 0).castLE hcore0) ((L 1).castLE hsub0)

/-- What a tile's body is asked, the scores holding `As d`: from a read share of them, its seven pieces at anything, its
    scoped storage and what it owes, it runs to the same with every piece at the one whole-array function `cs d`,
    having recorded waits at index `none` only. -/
def TileBodySpec (As : (d : Dev nD) → Buf (Elt F) (aLoc d)) (cs : (d : Dev nD) → Buf (Elt F) (oLoc d)) : Prop :=
  ∀ (d : Dev nD) (L : grid0.Coords) (O : CellTallies nD τ sig (HIx 1)) (W : Waits sig (HIx 1)) (q : PosShare TreeShare),
    (∀ g, O g none = 0) →
    iprop(levAts (K (F := F)).L (K (F := F)).lev
        ∗ ((Memref.whole main_v0_scv : Memref sig .scVector .hbm S16x2048x2048 .f32).view.loc (thrAt d L) ↦{q} As d)
        ∗ (bigSep Finset.univ fun k : Fin 7 => iprop(∃ f, (outPiece L k).view.loc (thrAt d L) ↦[(outPiece L k).view.set]{fullShare} f))
        ∗ scopedBufs (thrAt d L) ∗ scopedSems0 (thrAt d L) ∗ owes (thrAt d L) O W : sProp 𝕄)
      ⊢ wp frame (wpE (defs₀ (F := F)) 𝒱₀ (thrAt d L) none) Set.univ (bodyAt (F := F) L) fun _ =>
          iprop(((Memref.whole main_v0_scv : Memref sig .scVector .hbm S16x2048x2048 .f32).view.loc (thrAt d L) ↦{q} As d)
            ∗ (bigSep Finset.univ fun k : Fin 7 => (outPiece L k).view.loc (thrAt d L) ↦[(outPiece L k).view.set]{fullShare} cs d)
            ∗ scopedBufs (thrAt d L) ∗ scopedSems0 (thrAt d L)
            ∗ ∃ W', ⌜∀ p ∈ W', p ∈ W ∨ p.2 = none⌝ ∗ owes (thrAt d L) O W')

theorem defs₀_vector (c : Fin τ.nSC) (s : Fin τ.nSub) :
    defs₀ (F := F) (.scVector c s) 0 ()
      = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- The scores as a tile's memref addresses them are the TensorCore's array. -/
theorem pts_a (d : Dev nD) (L : grid0.Coords) (q : PosShare TreeShare) (f : Buf (Elt F) (aLoc d)) :
    (((Memref.whole main_v0_scv : Memref sig .scVector .hbm S16x2048x2048 .f32).view.loc (thrAt d L) ↦{q} f : sProp 𝕄))
      = (aLoc d ↦{q} f) := by
  simp only [Memref.view_whole, View.set_whole]

/-- A piece as the tile's slice addresses it is that set of indices of the TensorCore's column-sum array. -/
theorem pts_o (d : Dev nD) (L : grid0.Coords) (k : Fin 7) (f : Buf (Elt F) (oLoc d)) :
    (((outPiece L k).view.loc (thrAt d L) ↦[(outPiece L k).view.set]{fullShare} f : sProp 𝕄))
      = (oLoc d ↦[pieceSet L k]{fullShare} f) := rfl

theorem tileObl (hbody : TileBodySpec (F := F) (A m) colS) : (K (F := F)).TileObl (D (F := F)) 𝒱 (P m colS) v₀ 0 := by
  intro d c i O W hO _ _
  simp only [show (P m colS).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := hbody d (coordsV ⟨_, hc.1⟩ ⟨_, hc.2⟩) O W (qTile (Fin.cast nCore_zero c) (Fin.cast nSub_zero i)) hO
  have hL : placeOf (Fin.cast nCore_zero c) (Fin.cast nSub_zero i) = coordsV ⟨_, hc.1⟩ ⟨_, hc.2⟩ := rfl
  refine BI.Entails.trans ?_ (hb.trans (wp_mono frame _ _ fun _ => ?_))
  · show iprop(levAts _ _ ∗ emp ∗ goR m d (Fin.cast nCore_zero c) (Fin.cast nSub_zero i) ∗ _ ∗ _ ∗ _) ⊢ _
    unfold goR; rw [hL, pts_a]
    simp only [pts_o]
    iintro ⟨Hl, -, ⟨Ha, Hp⟩, Hsb, Hss, HO⟩
    isplitl [Hl]; · iexact Hl
    isplitl [Ha]; · iexact Ha
    isplitl [Hp]; · iexact Hp
    isplitl [Hsb]; · iexact Hsb
    isplitl [Hss]; · iexact Hss
    iexact HO
  · refine BI.Entails.trans ?_ (obl_post (q := (0 : Fin 1)))
    show _ ⊢ iprop(tdR m colS d (Fin.cast nCore_zero c) (Fin.cast nSub_zero i) ∗ _ ∗ _ ∗ _)
    unfold tdR; rw [hL, pts_a]
    simp only [pts_o]
    iintro ⟨Ha, Hp, Hsb, Hss, HO⟩
    isplitl [Ha Hp]
    · isplitl [Ha]; · iexact Ha
      iexact Hp
    isplitl [Hsb]; · iexact Hsb
    isplitl [Hss]; · iexact Hss
    iexact HO

end Cert.KernelIdeal.Launch

end
-- ==== Proof.Region1.Final.lean ====
/-
  What the first TensorCore region leaves in its two windows' arrays, as determinate functions of what it finds,
  generic in the float instance: the operand's array is never written; the result array is written once, after the
  last point, with the whole staging buffer, every row of which some point has stored by then.
-/
import proofs.«216449_g46943992545511_cont_8to1_c_491_21_alg».proof.Proof.Region1
import Idealize.ShloMosaic.Lib.Pipeline.Cells

set_option maxRecDepth 16384

noncomputable section

namespace Cert.KernelIdeal.Region1

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

open Idealize.ShloMosaic.ValueIdx

variable (V : (c : Dev nD) → (b : Ref sig .tc) → Buf (Elt F) ((c : Thread nD τ).loc b))

/-! ## The rows of the output, point by point -/

theorem row_lt (h : Fin 9) : 2 * h.val + 1 < cfg1.N := by rw [show cfg1.N = 18 from N_1]; omega

/-- The point that stores row `h` of the output: the second point of head `h`. -/
def rowPt (h : Fin 9) : Fin cfg1.N := ⟨2 * h.val + 1, row_lt h⟩

/-- Row `h` of the output as its point stores it: the product with the window mask of the column sums of head `h`'s
    two blocks, accumulated in point order over the zero row. -/
def rowVal (c : Dev nD) (h : Fin 9) (w : Fin 128) : Elt F .f32 := k1_pay3 (accB V c (rowPt h)) (ix2 (0 : Fin 1) w)

/-- Contents of the output's staging buffer whose rows stored by the points below `n` are as stored. -/
def Rows (c : Dev nD) (n : ℕ) (Y : Vec F S9x128 .f32) : Prop :=
  ∀ (h : Fin 9) (w : Fin 128), 2 * h.val + 1 < n → Y (ix2 h w) = rowVal V c h w

/-- A point keeps the rows stored before it and, if of the second kind, adds its own. -/
theorem out1_rows (c : Dev nD) (t : Fin cfg1.N) (Y : Vec F S9x128 .f32) (hY : Rows V c t.val Y) : Rows V c (t.val + 1) (out1 V c t Y) := by
  intro h w hn
  unfold out1
  by_cases hc : t.val % 2 = 1 ∧ ((ix2 h w : S9x128.Idx) 0).val = t.val / 2
  · rw [if_pos hc]
    have hh : h.val = t.val / 2 := hc.2
    obtain rfl : t = rowPt h := Fin.ext (by show t.val = 2 * h.val + 1; omega)
    rfl
  · rw [if_neg hc]
    refine hY h w ?_
    have hh : ¬ (t.val % 2 = 1 ∧ h.val = t.val / 2) := hc
    omega

/-- The output window is never fetched. -/
theorem fetch1_1 (t : Fin cfg1.N) : (cfg1.win 1).fetch t = false := rfl

/-- What the output's staging buffer may hold before point `n` has the rows stored below `n`. -/
theorem finds_rows (c : Dev nD) : ∀ (n : ℕ) (hn : n < cfg1.N) (Y : Vec F S9x128 .f32), (rdat1 V c).Finds 1 ⟨n, hn⟩ Y → Rows V c n Y
  | 0, _, _, _ => fun h w hlt => absurd hlt (Nat.not_lt_zero _)
  | n + 1, hn, Y, hF => by
    rw [(rdat1 V c).finds_of_pos (fetch1_1 _) (Nat.succ_ne_zero n)] at hF
    have hN : cfg1.N = 18 := N_1
    rcases hF with hfl | ⟨Y', hF', ha⟩
    · exfalso
      have := (flush1_1 _).mp hfl
      dsimp only at this
      omega
    · rw [after1_1] at ha
      subst ha
      simp only [Nat.add_sub_cancel] at hF' ⊢
      exact out1_rows V c ⟨n, Nat.lt_of_succ_lt hn⟩ Y' (finds_rows c n _ Y' hF')

/-! ## The arrays after the region -/

/-- What the region leaves in the result array, as a function of what it finds in the operand: row `h` is `rowVal h`. -/
def win1v (c : Dev nD) : Vec F S9x128 .f32 := fun y => rowVal V c (y 0) (y 1)

/-- The same as the result array's contents. -/
def win1 (c : Dev nD) : Buf (Elt F) ((cfg1.win 1).arr.view.loc (c.tc : Thread nD τ)) := win1v V c

/-- The operand's array is never written: it ends as the region finds it. -/
theorem arrAt1_0 (c : Dev nD) (G : Buf (Elt F) ((cfg1.win 0).arr.view.loc (c.tc : Thread nD τ)))
    (hG : (rdat1 V c).ArrAt 0 cfg1.N G) : G = V c (Pipeline.arrRef spec1 0) := by
  rw [(rdat1 V c).ArrAt_in 0 rfl cfg1.N] at hG
  exact hG.trans (A_eq1 V c 0)

/-- The result array is written once, after the last point, with the whole staging buffer, all of whose rows have
    been stored by then: it ends at `win1`, whatever the staging buffer held when the region began. -/
theorem arrAt1_1 (c : Dev nD) (G : Buf (Elt F) ((cfg1.win 1).arr.view.loc (c.tc : Thread nD τ)))
    (hG : (rdat1 V c).ArrAt 1 cfg1.N G) : G = win1 V c := by
  have key : ∀ n, n = 18 → (rdat1 V c).ArrAt 1 n G → G = win1 V c := by
    intro n hn hA
    subst hn
    have hN : cfg1.N = 18 := N_1
    have h17 : 17 < cfg1.N := by rw [hN]; omega
    have low : ∀ n, n ≤ 17 → (rdat1 V c).ArrAt 1 n = fun F => F = (rdat1 V c).A 1 := by
      intro n
      induction n with
      | zero => intro _; rfl
      | succ n ih =>
        intro hn
        have hs := (rdat1 V c).ArrAt_succ 1 ⟨n, by rw [hN]; omega⟩
        rw [hs, if_neg (by
          intro hf
          have := (flush1_1 _).mp hf
          dsimp only at this
          omega)]
        exact ih (by omega)
    have hs := (rdat1 V c).ArrAt_succ 1 ⟨17, h17⟩
    rw [show (18 : ℕ) = 17 + 1 from rfl, hs, if_pos ((flush1_1 _).mpr rfl), low 17 (le_refl _)] at hA
    obtain ⟨G₀, X, hG₀, ⟨Y, hF, ha⟩, rfl⟩ := hA
    rw [after1_1] at ha
    subst ha
    have hR := out1_rows V c ⟨17, h17⟩ Y (finds_rows V c 17 h17 Y hF)
    funext i
    obtain ⟨h, w, rfl⟩ : ∃ (h : Fin 9) (w : Fin 128), i = ix2 h w := ⟨i 0, i 1, eq_ix2 (n0 := 9) (n1 := 128) i⟩
    show ((View.whole main_v2).slice (win1_1.rect ⟨17, h17⟩)).write (Elt F) G₀ _ Finset.univ (ix2 h w) = _
    have hemb : ((View.whole main_v2).slice (win1_1.rect ⟨17, h17⟩)).emb (ix2 h w) = ix2 h w := by
      funext a; apply Fin.ext
      rw [View.emb_slice, Function.Embedding.trans_apply, View.emb_whole, Function.Embedding.refl_apply]
      exact win1_1.rect_emb_val_of_index_zero ⟨17, h17⟩ a (by fin_cases a <;> rfl) (ix2 h w)
    conv_lhs => rw [← hemb]
    rw [View.write_emb_of_mem _ _ (Finset.mem_univ _)]
    show out1 V c ⟨17, h17⟩ Y (ix2 h w) = rowVal V c h w
    exact hR h w (by show 2 * h.val + 1 < 17 + 1; have := h.isLt; omega)
  exact key cfg1.N N_1 hG

end Cert.KernelIdeal.Region1

end
-- ==== Proof.Run.lean ====
/-
  The whole program's run, every parameter of the launch instantiated: the valuation after the SparseCore call, the
  first region's relational data and its named final contents, the second region's data at what the first left, the
  tile's obligation from its body. And the valuations walked back: no line of @main and no region writes an argument,
  so each argument ends as launched.
-/
import proofs.«216449_g46943992545511_cont_8to1_c_491_21_alg».proof.Proof.Seg1
import proofs.«216449_g46943992545511_cont_8to1_c_491_21_alg».proof.Proof.Seg2
import proofs.«216449_g46943992545511_cont_8to1_c_491_21_alg».proof.Proof.TileObl
import proofs.«216449_g46943992545511_cont_8to1_c_491_21_alg».proof.Proof.Region1.Final

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]
variable (colS : (d : Dev nD) → Buf (Elt F) (oLoc d))

open Idealize.ShloMosaic.TcCoe

variable [∀ e, Nonempty (Elt F e)]

/-- The valuation after the SparseCore call, after the first region, after the second. -/
abbrev Wa' : Dev nD → Valuation τ sig (Elt F) := W2 m colS
abbrev w1' : (c : Dev nD) → Buf (Elt F) ((cfg1.win 1).arr.view.loc (c : Thread nD τ)) := fun c => Region1.win1 (Va (Wa' m colS)) c
abbrev Wb' : Dev nD → Valuation τ sig (Elt F) := W3 (Wa' m colS) (w1' m colS)
abbrev Wc' : Dev nD → Valuation τ sig (Elt F) := W4 (Wb' m colS)

/-- Every weakly fair execution of all the program's threads terminates, nothing faulting, with every unscoped
    TensorCore buffer at the last valuation. -/
theorem run (hbody : TileBodySpec (F := F) (A m) colS) :
    θ_run (Cert.KernelIdeal.defs (F := F)) (Cert.KernelIdeal.threads (F := F)) ⟨m, fun _ => 0, ρ⟩ (QC (Wc' m colS)) :=
  run_main m ρ colS (rdats1 (Wa' m colS)) (Pipeline.Dat.toRs (pdats2 (Wb' m colS)))
    (R1 (Wa' m colS) (w1' m colS) (fun c G h => Region1.arrAt1_1 _ c G h) (fun c G h => Region1.arrAt1_0 _ c G h))
    (R2 (Wb' m colS)) (Wb' m colS) (Wc' m colS) (tileObl m colS hbody)
    (fun _ => .rfl) (fun _ => .rfl) (fun _ => .rfl) (fun _ => .rfl)

/-! ## The arguments end as launched -/

/-- A buffer that is no region's array, not the column-sum array and not written by the two host operations holds at
    the end what it held at the launch. -/
theorem last_of_untouched (d : Dev nD) (b : Ref sig .tc)
    (h4 : (Proc.devRef .tc b : DevRef τ sig) ∉ (opTranspose (F := F)).writes) (h2 : ∀ w, Pipeline.arrRef spec2 w ≠ b)
    (h1 : ∀ w, Pipeline.arrRef spec1 w ≠ b) (hv : (Proc.devRef .tc b : DevRef τ sig) ≠ Proc.devRef .tc (main_v1 : Ref sig .tc))
    (h0 : (Proc.devRef .tc b : DevRef τ sig) ∉ (opReshape (F := F)).writes) :
    W5 (Wc' m colS) d (Proc.devRef .tc b) = m (d, Proc.devRef .tc b) :=
  calc W5 (Wc' m colS) d (Proc.devRef .tc b)
    _ = Wc' m colS d (Proc.devRef .tc b) := (opTranspose (F := F)).result_of_not_mem _ h4
    _ = Wb' m colS d (Proc.devRef .tc b) := W4_of_ne _ d b h2
    _ = Wa' m colS d (Proc.devRef .tc b) := W3_of_ne _ _ d b h1
    _ = W1 m d (Proc.devRef .tc b) := Function.update_of_ne hv _ _
    _ = W0 m d (Proc.devRef .tc b) := (opReshape (F := F)).result_of_not_mem _ h0
    _ = m (d, Proc.devRef .tc b) := rfl

theorem last_arg0 (d : Dev nD) : W5 (Wc' m colS) d (Proc.devRef .tc main_arg0) = m (d, Proc.devRef .tc main_arg0) :=
  last_of_untouched m colS d main_arg0
    (show (Proc.devRef .tc (main_arg0 : Ref sig .tc) : DevRef τ sig) ∉ ({Proc.devRef .tc (main_v4 : Ref sig .tc)} : Finset (DevRef τ sig)) by decide)
    (by decide) (by decide) (by decide)
    (show (Proc.devRef .tc (main_arg0 : Ref sig .tc) : DevRef τ sig) ∉ ({Proc.devRef .tc (main_v0 : Ref sig .tc)} : Finset (DevRef τ sig)) by decide)
theorem last_arg1 (d : Dev nD) : W5 (Wc' m colS) d (Proc.devRef .tc main_arg1) = m (d, Proc.devRef .tc main_arg1) :=
  last_of_untouched m colS d main_arg1
    (show (Proc.devRef .tc (main_arg1 : Ref sig .tc) : DevRef τ sig) ∉ ({Proc.devRef .tc (main_v4 : Ref sig .tc)} : Finset (DevRef τ sig)) by decide)
    (by decide) (by decide) (by decide)
    (show (Proc.devRef .tc (main_arg1 : Ref sig .tc) : DevRef τ sig) ∉ ({Proc.devRef .tc (main_v0 : Ref sig .tc)} : Finset (DevRef τ sig)) by decide)
theorem last_arg2 (d : Dev nD) : W5 (Wc' m colS) d (Proc.devRef .tc main_arg2) = m (d, Proc.devRef .tc main_arg2) :=
  last_of_untouched m colS d main_arg2
    (show (Proc.devRef .tc (main_arg2 : Ref sig .tc) : DevRef τ sig) ∉ ({Proc.devRef .tc (main_v4 : Ref sig .tc)} : Finset (DevRef τ sig)) by decide)
    (by decide) (by decide) (by decide)
    (show (Proc.devRef .tc (main_arg2 : Ref sig .tc) : DevRef τ sig) ∉ ({Proc.devRef .tc (main_v0 : Ref sig .tc)} : Finset (DevRef τ sig)) by decide)

theorem mem_uc (b : Ref sig .tc) (h : ¬ (Proc.devRef .tc b : DevRef τ sig).isScoped) : Proc.devRef .tc b ∈ UC :=
  Finset.mem_filter.mpr ⟨StableHlo.devRef_mem_tcRefs b, h⟩

/-- The run with its post read at the arguments and the result: the arguments as launched, the result at the last
    valuation. -/
theorem run_read (hbody : TileBodySpec (F := F) (A m) colS) :
    θ_run (Cert.KernelIdeal.defs (F := F)) (Cert.KernelIdeal.threads (F := F)) ⟨m, fun _ => 0, ρ⟩ (fun r => ∀ c : Dev nD,
      r.2.mem ((c.tc : Thread nD τ).loc main_v4) = W5 (Wc' m colS) c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.KernelIdeal.defs _ _).mono (fun r h c =>
    ⟨h c _ (mem_uc main_v4 (by decide)),
      (h c _ (mem_uc main_arg0 (by decide))).trans (last_arg0 m colS c),
      (h c _ (mem_uc main_arg1 (by decide))).trans (last_arg1 m colS c),
      (h c _ (mem_uc main_arg2 (by decide))).trans (last_arg2 m colS c)⟩) (run m ρ colS hbody)

end Cert.KernelIdeal.Launch

end
-- ==== Proof.Region2Final.lean ====
/-
  The arrays of the second TensorCore region after its one grid point, as functions of the contents the region finds.

  The call has no grid: each window is one block that is the whole of its array, at block index 0. So an input window's
  block is its array; an input's array is never written back; and the output's array, covered by its one block and
  written back at the one point, ends holding what the body left in the output's staging buffer: `out2_2` of the two
  input arrays' blocks.
-/
import proofs.«216449_g46943992545511_cont_8to1_c_491_21_alg».proof.Proof.Region2
import Idealize.ShloMosaic.Lib.Pipeline.Value
import Idealize.ShloMosaic.Lib.Pipeline.Cells

set_option maxRecDepth 16384

noncomputable section

namespace Cert.KernelIdeal.Region2

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => Setup.𝕄F F

variable (V : (c : Dev nD) → (b : Ref sig .tc) → Buf (Elt F) ((c : Thread nD τ).loc b))

/-! ## The input windows' blocks are the whole arrays -/

/-- Window 0's one block is the whole 9 × 128 array: its block index is 0 on both axes and its sizes are the array's. -/
theorem iblk2_0 (c : Dev nD) (t : Fin cfg2.N) : iblk2 V c 0 t = V c (Pipeline.arrRef spec2 0) := by
  unfold iblk2
  funext j
  rw [View.read_apply]
  exact congrArg (V c (Pipeline.arrRef spec2 0)) (funext fun a => Fin.ext (by
    match a with
    | ⟨0, _⟩ => show 0 * 9 + 1 * (j 0).val = (j 0).val; omega
    | ⟨1, _⟩ => show 0 * 128 + 1 * (j 1).val = (j 1).val; omega))

/-- Window 1's one block is the whole array of 114688 words. -/
theorem iblk2_1 (c : Dev nD) (t : Fin cfg2.N) : iblk2 V c 1 t = V c (Pipeline.arrRef spec2 1) := by
  unfold iblk2
  funext j
  rw [View.read_apply]
  exact congrArg (V c (Pipeline.arrRef spec2 1)) (funext fun a => Fin.ext (by
    match a with
    | ⟨0, _⟩ => show 0 * 114688 + 1 * (j 0).val = (j 0).val; omega))

/-! ## The arrays after the region's one point -/

/-- An input window's array is never written back: it ends as the region found it. -/
theorem arrAt2_in (c : Dev nD) (w : Fin cfg2.W) (hw : w ≠ 2) : (dat2 V c).arrAt w cfg2.N = V c (Pipeline.arrRef spec2 w) := by
  match w with
  | ⟨0, _⟩ => exact ((dat2 V c).arrAt_in 0 rfl _).trans (A_eq2 V c 0)
  | ⟨1, _⟩ => exact ((dat2 V c).arrAt_in 1 rfl _).trans (A_eq2 V c 1)
  | ⟨2, _⟩ => exact absurd rfl hw

/-- The output window is one block covering the whole 3 × 16 × 30000 array, written back at the one point: the array
    ends holding what the body left in the staging buffer there. -/
theorem arrAt2_2 (c : Dev nD) : (dat2 V c).arrAt 2 cfg2.N = out2_2 (iblk2 V c 0 t2_0) (iblk2 V c 1 t2_0) := by
  have hcover : ∀ i : S3x16x30000.Idx, ∃ t : Fin cfg2.N, (cfg2.win 2).flush t = true ∧ i ∈ ((cfg2.win 2).blk t).view.set := by
    intro i
    refine ⟨t2_0, flush2_2 t2_0, ?_⟩
    show i ∈ ((View.whole main_v3).slice (win2_2.rect t2_0)).set
    rw [View.set_slice_whole, Rect.mem_set_unit]
    intro a
    match a with
    | ⟨0, _⟩ => have h : (i 0).val < 3 := (i 0).isLt; show 0 * 3 ≤ (i 0).val ∧ (i 0).val < 0 * 3 + 3; omega
    | ⟨1, _⟩ => have h : (i 1).val < 16 := (i 1).isLt; show 0 * 16 ≤ (i 1).val ∧ (i 1).val < 0 * 16 + 16; omega
    | ⟨2, _⟩ => have h : (i 2).val < 30000 := (i 2).isLt; show 0 * 30000 ≤ (i 2).val ∧ (i 2).val < 0 * 30000 + 30000; omega
  refine (dat2 V c).arrAt_eq_of_cover 2 (out2_2 (iblk2 V c 0 t2_0) (iblk2 V c 1 t2_0)) (fun t _ => ?_) hcover
  rw [fin_N2 t]
  show (cfg2.win 2).cut (grid2.coords t2_0) ((dat2 V c).after 2 t2_0) = _
  rw [after2_2]
  generalize out2_2 (iblk2 V c 0 t2_0) (iblk2 V c 1 t2_0) = G
  funext j
  rw [View.read_apply]
  exact congrArg G (funext fun a => Fin.ext (by
    match a with
    | ⟨0, _⟩ => show (j 0).val = 0 * 3 + 1 * (j 0).val; omega
    | ⟨1, _⟩ => show (j 1).val = 0 * 16 + 1 * (j 1).val; omega
    | ⟨2, _⟩ => show (j 2).val = 0 * 30000 + 1 * (j 2).val; omega))

end Cert.KernelIdeal.Region2

end
-- ==== Proof.Value.lean ====
/-
  What the result buffer holds at the end, as one term of the column-sum array's contents and the first region's
  window array: the transposition of the planes the second region assembles from them. At any float instance.
-/
import proofs.«216449_g46943992545511_cont_8to1_c_491_21_alg».proof.Proof.Run
import proofs.«216449_g46943992545511_cont_8to1_c_491_21_alg».proof.Proof.Region2Final

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]
variable (colS : (d : Dev nD) → Buf (Elt F) (oLoc d))

open Idealize.ShloMosaic.TcCoe

variable [∀ e, Nonempty (Elt F e)]

/-- After the first region the window array holds what its points wrote, -/
theorem Wb_v2 (c : Dev nD) : Wb' m colS c (Proc.devRef .tc (main_v2 : Ref sig .tc)) = Region1.win1 (Va (Wa' m colS)) c :=
  W3_arr (Wa' m colS) (w1' m colS) c 1

/-- and the column-sum array still what the tiles wrote. -/
theorem Wb_v1 (c : Dev nD) : Wb' m colS c (Proc.devRef .tc (main_v1 : Ref sig .tc)) = colS c :=
  (W3_of_ne (Wa' m colS) (w1' m colS) c main_v1 (by decide)).trans (Function.update_self _ _ _)

/-- After the second region the planes' array holds the planes assembled from those two. -/
theorem Wc_v3 (c : Dev nD) :
    Wc' m colS c (Proc.devRef .tc (main_v3 : Ref sig .tc))
      = Region2.out2_2 (Wb' m colS c (Proc.devRef .tc (main_v2 : Ref sig .tc))) (Wb' m colS c (Proc.devRef .tc (main_v1 : Ref sig .tc))) := by
  have h := W4_arr (Wb' m colS) c 2
  rw [Region2.arrAt2_2, Region2.iblk2_0, Region2.iblk2_1] at h
  exact h

/-- The result buffer at the end: the planes transposed. -/
theorem last_result (c : Dev nD) :
    W5 (Wc' m colS) c (Proc.devRef .tc (main_v4 : Ref sig .tc))
      = transpose S16x30000x3 [1, 2, 0] (Region2.out2_2 (Region1.win1 (Va (Wa' m colS)) c) (colS c)) transposes_S3x16x30000_S16x30000x3_1_2_0 := by
  have h := StableHlo.unary_result (τ := τ) (Val := Elt F) main_v3 main_v4
    ((transpose S16x30000x3 [1, 2, 0] · transposes_S3x16x30000_S16x30000x3_1_2_0) : (⟨S3x16x30000, .f32⟩ : BufTy).Contents (Elt F) → (⟨S16x30000x3, .f32⟩ : BufTy).Contents (Elt F))
    (by decide) (by decide) (Wc' m colS c)
  rw [Wc_v3, Wb_v2, Wb_v1] at h
  exact h

end Cert.KernelIdeal.Launch

end
-- ==== Proof.Spec.lean ====
/-
  The pure mathematics of the window scores, over plain functions on finite index types and the extended reals.

  For a head h and a window w < 31 the score is the sum, over the 64 key columns 4 + 64·w + j of the window and over
  all 2048 query rows r, of the attention mass a h r c.  The same number is reached by first summing every column
  over the rows (in any grouping of the rows: two halves of 1024, or 8 bands of 4 chunks of 64) and then taking the
  product of the column sums with the 0/1 matrix that marks which column belongs to which window, summed over the
  columns.  Only commutativity and associativity of + on the extended reals, x·0 = 0 and x·1 = x are used: nothing
  here needs the entries to be finite.
-/
import Idealize.ShloMosaic.PureOps.Ideal
import Idealize.ShloMosaic.Lib.ValueIdx

open scoped BigOperators

noncomputable section

namespace Cert.Spec

/-- The score of window w of head h: the mass of the window's 64 columns, summed over every row. -/
def winScore (a : Fin 16 → Fin 2048 → Fin 2048 → EReal) (h : Fin 16) (w : Fin 31) : EReal :=
  ∑ j : Fin 64, ∑ r : Fin 2048, a h r ⟨4 + 64 * w.val + j.val, by omega⟩

/-- The 0/1 matrix of "column c lies in window w": columns 4 … 1987 in 31 windows of 64, the other windows empty. -/
def mask (c : Fin 2048) (w : Fin 128) : EReal :=
  if w.val < 31 ∧ 4 ≤ c.val ∧ c.val < 1988 ∧ (c.val - 4) / 64 = w.val then 1 else 0

/-- A product with the 0/1 matrix, summed over the columns, keeps exactly the 64 columns of the window
    (and nothing, for a window past the last one). -/
theorem mask_dot (x : Fin 2048 → EReal) (w : Fin 128) :
    ∑ c : Fin 2048, x c * mask c w
      = if h : w.val < 31 then ∑ j : Fin 64, x ⟨4 + 64 * w.val + j.val, by omega⟩ else 0 := by
  by_cases h : w.val < 31
  · rw [dif_pos h]
    have e1 : ∀ c : Fin 2048, x c * mask c w
        = if (4 ≤ c.val ∧ c.val < 1988 ∧ (c.val - 4) / 64 = w.val) then x c else 0 := by
      intro c
      unfold mask
      by_cases hc : 4 ≤ c.val ∧ c.val < 1988 ∧ (c.val - 4) / 64 = w.val
      · rw [if_pos ⟨h, hc⟩, if_pos hc, mul_one]
      · rw [if_neg (fun hh => hc hh.2), if_neg hc, mul_zero]
    rw [Finset.sum_congr rfl (fun c _ => e1 c), ← Finset.sum_filter]
    refine Finset.sum_nbij' (fun c : Fin 2048 => (⟨(c.val - 4) % 64, Nat.mod_lt _ (by decide)⟩ : Fin 64))
      (fun j : Fin 64 => (⟨4 + 64 * w.val + j.val, by omega⟩ : Fin 2048)) ?_ ?_ ?_ ?_ ?_
    · intro c _; exact Finset.mem_univ _
    · intro j _
      rw [Finset.mem_filter]
      refine ⟨Finset.mem_univ _, ?_⟩
      show 4 ≤ 4 + 64 * w.val + j.val ∧ 4 + 64 * w.val + j.val < 1988 ∧ (4 + 64 * w.val + j.val - 4) / 64 = w.val
      omega
    · intro c hc
      rw [Finset.mem_filter] at hc
      obtain ⟨_, h1, h2, h3⟩ := hc
      refine Fin.ext ?_
      show 4 + 64 * w.val + (c.val - 4) % 64 = c.val
      omega
    · intro j _
      refine Fin.ext ?_
      show (4 + 64 * w.val + j.val - 4) % 64 = j.val
      omega
    · intro c hc
      rw [Finset.mem_filter] at hc
      obtain ⟨_, h1, h2, h3⟩ := hc
      refine congrArg x (Fin.ext ?_)
      show c.val = 4 + 64 * w.val + (c.val - 4) % 64
      omega
  · rw [dif_neg h]
    refine Finset.sum_eq_zero (fun c _ => ?_)
    unfold mask
    rw [if_neg (fun hh => h hh.1), mul_zero]

/-- The column sums against the 0/1 matrix are the window scores. -/
theorem colsum_mask_dot (a : Fin 16 → Fin 2048 → Fin 2048 → EReal) (h : Fin 16) (w : Fin 128) (hw : w.val < 31) :
    ∑ c : Fin 2048, (∑ r : Fin 2048, a h r c) * mask c w = winScore a h ⟨w.val, hw⟩ := by
  rw [mask_dot (fun c => ∑ r : Fin 2048, a h r c) w, dif_pos hw]
  rfl

/-- … and past the last window the product is zero. -/
theorem colsum_mask_dot_of_ge (a : Fin 16 → Fin 2048 → Fin 2048 → EReal) (h : Fin 16) (w : Fin 128) (hw : ¬ w.val < 31) :
    ∑ c : Fin 2048, (∑ r : Fin 2048, a h r c) * mask c w = 0 := by
  rw [mask_dot (fun c => ∑ r : Fin 2048, a h r c) w, dif_neg hw]

/-- The rows as two halves of 1024. -/
def rowEquiv2 : Fin 2 × Fin 1024 ≃ Fin 2048 where
  toFun p := ⟨1024 * p.1.val + p.2.val, by have := p.1.isLt; have := p.2.isLt; omega⟩
  invFun i := (⟨i.val / 1024, by have := i.isLt; omega⟩, ⟨i.val % 1024, Nat.mod_lt _ (by decide)⟩)
  left_inv p := by
    have h1 := p.1.isLt; have h2 := p.2.isLt
    refine Prod.ext (Fin.ext ?_) (Fin.ext ?_)
    · show (1024 * p.1.val + p.2.val) / 1024 = p.1.val; omega
    · show (1024 * p.1.val + p.2.val) % 1024 = p.2.val; omega
  right_inv i := by
    refine Fin.ext ?_
    show 1024 * (i.val / 1024) + i.val % 1024 = i.val; omega

/-- A sum over the rows taken half by half is the sum over the rows. -/
theorem rows_split2 (f : Fin 2048 → EReal) :
    ∑ q : Fin 2, ∑ r : Fin 1024, f ⟨1024 * q.val + r.val, by omega⟩ = ∑ r : Fin 2048, f r := by
  refine (Fintype.sum_prod_type' (fun (q : Fin 2) (r : Fin 1024) =>
    f ⟨1024 * q.val + r.val, by have := q.isLt; have := r.isLt; omega⟩)).symm.trans ?_
  exact Fintype.sum_equiv rowEquiv2 _ _ (fun _ => rfl)

/-- The rows as 8 bands of 4 chunks of 64. -/
def rowEquiv8x4x64 : Fin 8 × Fin 4 × Fin 64 ≃ Fin 2048 where
  toFun p := ⟨256 * p.1.val + 64 * p.2.1.val + p.2.2.val, by
    have := p.1.isLt; have := p.2.1.isLt; have := p.2.2.isLt; omega⟩
  invFun i := (⟨i.val / 256, by have := i.isLt; omega⟩, ⟨i.val % 256 / 64, by omega⟩, ⟨i.val % 64, Nat.mod_lt _ (by decide)⟩)
  left_inv p := by
    have h1 := p.1.isLt; have h2 := p.2.1.isLt; have h3 := p.2.2.isLt
    refine Prod.ext (Fin.ext ?_) (Prod.ext (Fin.ext ?_) (Fin.ext ?_))
    · show (256 * p.1.val + 64 * p.2.1.val + p.2.2.val) / 256 = p.1.val; omega
    · show (256 * p.1.val + 64 * p.2.1.val + p.2.2.val) % 256 / 64 = p.2.1.val; omega
    · show (256 * p.1.val + 64 * p.2.1.val + p.2.2.val) % 64 = p.2.2.val; omega
  right_inv i := by
    refine Fin.ext ?_
    show 256 * (i.val / 256) + 64 * (i.val % 256 / 64) + i.val % 64 = i.val; omega

/-- A sum over the rows taken band by band, chunk by chunk, is the sum over the rows. -/
theorem rows_split8x4x64 (f : Fin 2048 → EReal) :
    ∑ b : Fin 8, ∑ n : Fin 4, ∑ i : Fin 64, f ⟨256 * b.val + 64 * n.val + i.val, by omega⟩ = ∑ r : Fin 2048, f r := by
  have e1 : ∀ b : Fin 8, ∑ n : Fin 4, ∑ i : Fin 64, f ⟨256 * b.val + 64 * n.val + i.val, by omega⟩
      = ∑ q : Fin 4 × Fin 64, f ⟨256 * b.val + 64 * q.1.val + q.2.val, by
          have := b.isLt; have := q.1.isLt; have := q.2.isLt; omega⟩ := fun b =>
    (Fintype.sum_prod_type' (fun (n : Fin 4) (i : Fin 64) =>
      f ⟨256 * b.val + 64 * n.val + i.val, by have := b.isLt; have := n.isLt; have := i.isLt; omega⟩)).symm
  rw [Finset.sum_congr rfl (fun b _ => e1 b)]
  refine (Fintype.sum_prod_type' (fun (b : Fin 8) (q : Fin 4 × Fin 64) =>
    f ⟨256 * b.val + 64 * q.1.val + q.2.val, by
      have := b.isLt; have := q.1.isLt; have := q.2.isLt; omega⟩)).symm.trans ?_
  exact Fintype.sum_equiv rowEquiv8x4x64 _ _ (fun _ => rfl)

/-- The window score from column sums taken half by half. -/
theorem winScore_eq_halves (a : Fin 16 → Fin 2048 → Fin 2048 → EReal) (h : Fin 16) (w : Fin 128) (hw : w.val < 31) :
    ∑ c : Fin 2048, (∑ q : Fin 2, ∑ r : Fin 1024, a h ⟨1024 * q.val + r.val, by omega⟩ c) * mask c w
      = winScore a h ⟨w.val, hw⟩ := by
  rw [← colsum_mask_dot a h w hw]
  exact Finset.sum_congr rfl (fun c _ => congrArg (· * mask c w) (rows_split2 (fun r => a h r c)))

/-- The window score from column sums taken band by band, chunk by chunk. -/
theorem winScore_eq_bands (a : Fin 16 → Fin 2048 → Fin 2048 → EReal) (h : Fin 16) (w : Fin 128) (hw : w.val < 31) :
    ∑ c : Fin 2048, (∑ b : Fin 8, ∑ n : Fin 4, ∑ i : Fin 64, a h ⟨256 * b.val + 64 * n.val + i.val, by omega⟩ c) * mask c w
      = winScore a h ⟨w.val, hw⟩ := by
  rw [← colsum_mask_dot a h w hw]
  exact Finset.sum_congr rfl (fun c _ => congrArg (· * mask c w) (rows_split8x4x64 (fun r => a h r c)))

end Cert.Spec

end
-- ==== Proof.RefValue.lean ====
/-
  What the reference computes, index by index.

  The reference starts from an array of 16 × 30000 × 3 entries all holding one constant word, sums the attention mass
  of the columns 4 … 1987 over all 2048 rows, groups the 1984 column sums into 31 windows of 64 and sums each window,
  and then overwrites three planes of the first 31 rows of every head: plane 0 with the window sums, planes 1 and 2 with
  the window's number.  Each overwrite is a scatter whose 16 × 31 updates land on pairwise distinct entries (head h,
  row w, one fixed plane), so whatever the order of the updates an entry holds the one update that names it, or what
  it held before when none does.  So entry (h, w, k) of the result is: for w < 31, the window score of head h and
  window w on plane 0 and the number w on planes 1 and 2; for w ≥ 31, the constant word the array started from.
-/
import proofs.«216449_g46943992545511_cont_8to1_c_491_21_alg».proof.Proof.Gen.ReferenceIdeal.Run
import proofs.«216449_g46943992545511_cont_8to1_c_491_21_alg».proof.Proof.Gen.ReferenceIdeal.Read
import proofs.«216449_g46943992545511_cont_8to1_c_491_21_alg».proof.Proof.Spec

noncomputable section

open Idealize.ShloMosaic Idealize.ShloMosaic.TcCoe Idealize.SL.Sem Idealize.ShloMosaic.StableHlo
open Idealize.ShloMosaic.ValueIdx
open scoped BigOperators

namespace Cert.ReferenceIdeal.RefValue

open Cert.ReferenceIdeal Cert.ReferenceIdeal.Gen Cert.ReferenceIdeal.Read

/-! ## A fold of overwrites, read at one index

A list of updates is applied one after the other; update n overwrites the entry g n (when there is one) with v n.
An entry no update names keeps its value; an entry exactly one update of a duplicate-free list names holds that
update's value. -/

section Fold
variable {α ι κ : Type} [DecidableEq ι]

theorem foldl_set_miss (g : κ → Option ι) (v : κ → α) (step : (ι → α) → κ → (ι → α))
    (hstep : ∀ r n i', step r n i' = if g n = some i' then v n else r i') (i' : ι) (L : List κ) :
    ∀ x : ι → α, (∀ n ∈ L, g n ≠ some i') → L.foldl step x i' = x i' := by
  induction L with
  | nil => intro x _; rfl
  | cons a L ih =>
    intro x h
    rw [List.foldl_cons, ih (step x a) (fun n hn => h n (List.mem_cons_of_mem _ hn)), hstep,
      if_neg (h a (List.mem_cons.2 (Or.inl rfl)))]

theorem foldl_set_hit (g : κ → Option ι) (v : κ → α) (step : (ι → α) → κ → (ι → α))
    (hstep : ∀ r n i', step r n i' = if g n = some i' then v n else r i') (i' : ι) (n0 : κ)
    (h0 : g n0 = some i') (L : List κ) :
    ∀ x : ι → α, L.Nodup → n0 ∈ L → (∀ n ∈ L, g n = some i' → n = n0) → L.foldl step x i' = v n0 := by
  induction L with
  | nil => intro x _ hm _; exact absurd hm (by simp)
  | cons a L ih =>
    intro x hnd hm hu
    rw [List.foldl_cons]
    have hnd' := List.nodup_cons.1 hnd
    rcases List.mem_cons.1 hm with he | hm'
    · subst he
      rw [foldl_set_miss g v step hstep i' L (step x n0)
          (fun n hn hg => hnd'.1 (hu n (List.mem_cons_of_mem _ hn) hg ▸ hn)),
        hstep, if_pos h0]
    · exact ih (step x a) hnd'.2 hm' (fun n hn => hu n (List.mem_cons_of_mem _ hn))

end Fold

/-! ## A scatter that overwrites, read at one index -/

section Scatter
variable {α : Type} {s si u : Shape} {wd : Nat}

theorem scatter_step (d : ScatterDims s si u) (idx : IVec si wd) (upd : u.Idx → α) (r : s.Idx → α)
    (n : Fin u.numel) (i' : s.Idx) :
    (fun (r : s.Idx → α) (n : Fin u.numel) =>
      ((match d.resultIdx? (u.rowMajor.symm n) idx with
        | some i => fun i' => if i' = i then (fun (_ b : α) => b) (r i) (upd (u.rowMajor.symm n)) else r i'
        | none => r) : s.Idx → α)) r n i'
    = if d.resultIdx? (u.rowMajor.symm n) idx = some i' then upd (u.rowMajor.symm n) else r i' := by
  beta_reduce
  cases hg : d.resultIdx? (u.rowMajor.symm n) idx with
  | none =>
    rw [if_neg (fun h => nomatch h)]
  | some i =>
    show (if i' = i then upd (u.rowMajor.symm n) else r i') = _
    by_cases hi : i' = i
    · rw [if_pos hi, if_pos (congrArg some hi.symm)]
    · rw [if_neg hi, if_neg (fun h => hi (Option.some.inj h).symm)]

/-- An entry no update lands on keeps the operand's value. -/
theorem scatter_set_miss (d : ScatterDims s si u) (x : s.Idx → α) (idx : IVec si wd) (upd : u.Idx → α) (i' : s.Idx)
    (h : ∀ j : u.Idx, d.resultIdx? j idx ≠ some i') :
    Host.scatter d (fun _ b => b) x idx upd i' = x i' := by
  unfold Host.scatter
  exact foldl_set_miss (fun n => d.resultIdx? (u.rowMajor.symm n) idx) (fun n => upd (u.rowMajor.symm n)) _
    (fun r n i'' => scatter_step d idx upd r n i'') i' _ x (fun n _ => h _)

/-- An entry exactly one update lands on holds that update. -/
theorem scatter_set_hit (d : ScatterDims s si u) (x : s.Idx → α) (idx : IVec si wd) (upd : u.Idx → α) (i' : s.Idx)
    (j0 : u.Idx) (h0 : d.resultIdx? j0 idx = some i') (hu : ∀ j : u.Idx, d.resultIdx? j idx = some i' → j = j0) :
    Host.scatter d (fun _ b => b) x idx upd i' = upd j0 := by
  unfold Host.scatter
  refine (foldl_set_hit (fun n => d.resultIdx? (u.rowMajor.symm n) idx) (fun n => upd (u.rowMajor.symm n)) _
    (fun r n i'' => scatter_step d idx upd r n i'') i' (u.rowMajor j0) ?_ _ x (List.nodup_finRange _)
    (List.mem_finRange _) ?_).trans ?_
  · show d.resultIdx? (u.rowMajor.symm (u.rowMajor j0)) idx = some i'
    rw [Equiv.symm_apply_apply]; exact h0
  · intro n _ hn
    exact (Equiv.symm_apply_eq _).1 (hu _ hn)
  · show upd (u.rowMajor.symm (u.rowMajor j0)) = upd j0
    rw [Equiv.symm_apply_apply]

end Scatter

/-! ## Where the reference's scatters land

The three scatters share their dimension numbers: update (h, w) goes to head h, to the row and the plane the index
array gives for w. -/

/-- The scatters' dimension numbers. -/
abbrev dsc : ScatterDims S16x30000x3 S31x2 S16x31 := scatter_S16x30000x3_S31x2_S16x31_0_12_12_1

theorem resultIdx_eq (idx : IVec S31x2 32) (h : Fin 16) (w : Fin 31) (a1 : Fin 30000) (a2 : Fin 3)
    (e1 : (idx (ix2 w (0 : Fin 2))).toInt = (a1.val : Int)) (e2 : (idx (ix2 w (1 : Fin 2))).toInt = (a2.val : Int)) :
    dsc.resultIdx? (ix2 h w) idx = some (ix3 h a1 a2) := by
  have s0 : dsc.start (ix2 h w) idx (0 : Fin 3) = 0 := dif_neg (by decide)
  have s1 : dsc.start (ix2 h w) idx (1 : Fin 3) = (idx (ix2 w (0 : Fin 2))).toInt := by
    refine (dif_pos (by decide)).trans ?_
    refine congrArg (fun k => (idx k).toInt) ?_
    funext b; refine Fin.ext ?_
    match b with
    | ⟨0, _⟩ => rfl
    | ⟨1, _⟩ => rfl
  have s2 : dsc.start (ix2 h w) idx (2 : Fin 3) = (idx (ix2 w (1 : Fin 2))).toInt := by
    refine (dif_pos (by decide)).trans ?_
    refine congrArg (fun k => (idx k).toInt) ?_
    funext b; refine Fin.ext ?_
    match b with
    | ⟨0, _⟩ => rfl
    | ⟨1, _⟩ => rfl
  have w0 : dsc.window (ix2 h w) (0 : Fin 3) = h.val := (dif_pos (by decide)).trans rfl
  have w1 : dsc.window (ix2 h w) (1 : Fin 3) = 0 := dif_neg (by decide)
  have w2 : dsc.window (ix2 h w) (2 : Fin 3) = 0 := dif_neg (by decide)
  have key : ∀ a : Fin S16x30000x3.rank,
      dsc.start (ix2 h w) idx a + (dsc.window (ix2 h w) a : Int) = (((ix3 h a1 a2) a).val : Int) := by
    intro a
    match a with
    | ⟨0, _⟩ =>
      show dsc.start (ix2 h w) idx (0 : Fin 3) + (dsc.window (ix2 h w) (0 : Fin 3) : Int) = (h.val : Int)
      rw [s0, w0, zero_add]
    | ⟨1, _⟩ =>
      show dsc.start (ix2 h w) idx (1 : Fin 3) + (dsc.window (ix2 h w) (1 : Fin 3) : Int) = (a1.val : Int)
      rw [s1, w1, e1]; exact add_zero _
    | ⟨2, _⟩ =>
      show dsc.start (ix2 h w) idx (2 : Fin 3) + (dsc.window (ix2 h w) (2 : Fin 3) : Int) = (a2.val : Int)
      rw [s2, w2, e2]; exact add_zero _
  refine (dif_pos ?_).trans ?_
  · intro a
    rw [key a]
    exact ⟨Int.natCast_nonneg _, Int.ofNat_lt.2 ((ix3 h a1 a2) a).isLt⟩
  · refine congrArg some (funext fun a => Fin.ext ?_)
    show (dsc.start (ix2 h w) idx a + (dsc.window (ix2 h w) a : Int)).toNat = ((ix3 h a1 a2) a).val
    rw [key a]; exact Int.toNat_natCast _

/-- One scatter of the reference, read at (h, w, k): when the index array sends update (h', w') to row w' and
    plane kk, the entry holds update (h, w) if w < 31 and k = kk, and what it held before otherwise. -/
theorem layer (idx : IVec S31x2 32) (kk : Fin 3)
    (e1 : ∀ w : Fin 31, (idx (ix2 w (0 : Fin 2))).toInt = (w.val : Int))
    (e2 : ∀ w : Fin 31, (idx (ix2 w (1 : Fin 2))).toInt = (kk.val : Int))
    (x : FVec Ideal S16x30000x3 .f32) (upd : FVec Ideal S16x31 .f32) (h : Fin 16) (w : Fin 30000) (k : Fin 3) :
    Host.scatter dsc (fun _ b => b) x idx upd (ix3 h w k)
      = if hw : w.val < 31 ∧ k = kk then upd (ix2 h ⟨w.val, hw.1⟩) else x (ix3 h w k) := by
  have land : ∀ (h' : Fin 16) (w' : Fin 31),
      dsc.resultIdx? (ix2 h' w') idx = some (ix3 h' (⟨w'.val, by omega⟩ : Fin 30000) kk) :=
    fun h' w' => resultIdx_eq idx h' w' ⟨w'.val, by omega⟩ kk (e1 w') (e2 w')
  by_cases hw : w.val < 31 ∧ k = kk
  · rw [dif_pos hw]
    obtain ⟨hw1, rfl⟩ := hw
    refine scatter_set_hit dsc x idx upd (ix3 h w k) (ix2 h ⟨w.val, hw1⟩) (land h ⟨w.val, hw1⟩) ?_
    intro j hj
    obtain ⟨h', w', rfl⟩ : ∃ (h' : Fin 16) (w' : Fin 31), j = ix2 h' w' := ⟨j 0, j 1, eq_ix2 j⟩
    rw [land h' w'] at hj
    have e := Option.some.inj hj
    have eh : h' = h := congrFun e (0 : Fin 3)
    have ew : (⟨w'.val, by omega⟩ : Fin 30000) = w := congrFun e (1 : Fin 3)
    have ew' : w' = ⟨w.val, hw1⟩ := Fin.ext (show w'.val = w.val from congrArg (fun z : Fin 30000 => z.val) ew)
    rw [eh, ew']
  · rw [dif_neg hw]
    refine scatter_set_miss dsc x idx upd (ix3 h w k) ?_
    intro j hj
    obtain ⟨h', w', rfl⟩ : ∃ (h' : Fin 16) (w' : Fin 31), j = ix2 h' w' := ⟨j 0, j 1, eq_ix2 j⟩
    rw [land h' w'] at hj
    have e := Option.some.inj hj
    have ew : (⟨w'.val, by omega⟩ : Fin 30000) = w := congrFun e (1 : Fin 3)
    have ek : kk = k := congrFun e (2 : Fin 3)
    have hv : w'.val = w.val := congrArg (fun z : Fin 30000 => z.val) ew
    exact hw ⟨by have := w'.isLt; omega, ek.symm⟩

/-! ## The index arrays: row w goes to row w, every row to one fixed plane -/

theorem pair_left {α : Type} (a b : S31x1.Idx → α) (w : Fin 31) :
    concatenate S31x2 1 [⟨S31x1, a⟩, ⟨S31x1, b⟩] concatenates_S31x1_S31x1_S31x2_d1 (ix2 w (0 : Fin 2))
      = a (ix2 w (0 : Fin 1)) := by
  refine concatenate_pair_apply_left (1 : Fin 2) a b concatenates_S31x1_S31x1_S31x2_d1 (ix2 w (0 : Fin 2)) rfl
    (ix2 w (0 : Fin 1)) ?_
  intro c
  match c with
  | ⟨0, _⟩ => rfl
  | ⟨1, _⟩ => rfl

theorem pair_right {α : Type} (a b : S31x1.Idx → α) (w : Fin 31) :
    concatenate S31x2 1 [⟨S31x1, a⟩, ⟨S31x1, b⟩] concatenates_S31x1_S31x1_S31x2_d1 (ix2 w (1 : Fin 2))
      = b (ix2 w (0 : Fin 1)) := by
  refine concatenate_pair_apply_right (1 : Fin 2) a b concatenates_S31x1_S31x1_S31x2_d1 (ix2 w (1 : Fin 2)) rfl rfl
    (ix2 w (0 : Fin 1)) ?_ rfl
  intro c hc
  match c, hc with
  | ⟨0, _⟩, _ => rfl
  | ⟨1, _⟩, hc => exact absurd rfl hc

/-- A window's number, as a signed 32-bit word, is not negative: the wrap-around select leaves it alone. -/
theorem sel_row : ∀ w : Fin 31,
    Scalar.select (IntOp.cmpi .slt (BitVec.ofNat 32 w.val) 0#32) (IntOp.addi (BitVec.ofNat 32 w.val) 30000#32)
      (BitVec.ofNat 32 w.val) = BitVec.ofNat 32 w.val := by decide

theorem toInt_row : ∀ w : Fin 31, (BitVec.ofNat 32 w.val).toInt = (w.val : Int) := by decide

theorem row14 (w : Fin 31) : val_main_v14 (F := Ideal) (ix1 w) = BitVec.ofNat 32 w.val := by
  rw [val_main_v14_apply, val_main_v11_apply, val_main_v13_apply, val_main_v6_apply, val_main_v10_apply,
    val_main_c_apply, val_main_v12_apply, val_main_c_2_apply]
  exact sel_row w
theorem row25 (w : Fin 31) : val_main_v25 (F := Ideal) (ix1 w) = BitVec.ofNat 32 w.val := by
  rw [val_main_v25_apply, val_main_v22_apply, val_main_v24_apply, val_main_v6_apply, val_main_v21_apply,
    val_main_c_4_apply, val_main_v23_apply, val_main_c_5_apply]
  exact sel_row w
theorem row36 (w : Fin 31) : val_main_v36 (F := Ideal) (ix1 w) = BitVec.ofNat 32 w.val := by
  rw [val_main_v36_apply, val_main_v33_apply, val_main_v35_apply, val_main_v6_apply, val_main_v32_apply,
    val_main_c_7_apply, val_main_v34_apply, val_main_c_8_apply]
  exact sel_row w

theorem idx31 (w : Fin 31) : (fun a => match a with | ⟨0, _⟩ => ⟨((ix2 w (0 : Fin 1)) 0).val, ((ix2 w (0 : Fin 1)) 0).isLt⟩ : S31.Idx)
    = ix1 w := by
  funext a
  match a with
  | ⟨0, _⟩ => rfl

theorem v19_row (w : Fin 31) : (val_main_v19 (F := Ideal) (ix2 w (0 : Fin 2))).toInt = (w.val : Int) := by
  unfold val_main_v19
  rw [pair_left, val_main_v17_apply, show idx_main_v17 (ix2 w (0 : Fin 1)) = ix1 w from idx31 w, row14]
  exact toInt_row w
theorem v19_plane (w : Fin 31) : (val_main_v19 (F := Ideal) (ix2 w (1 : Fin 2))).toInt = ((0 : Fin 3).val : Int) := by
  unfold val_main_v19
  rw [pair_right, val_main_v18_apply, val_main_v16_apply, val_main_v15_apply, val_main_c_3_apply]
  rfl
theorem v30_row (w : Fin 31) : (val_main_v30 (F := Ideal) (ix2 w (0 : Fin 2))).toInt = (w.val : Int) := by
  unfold val_main_v30
  rw [pair_left, val_main_v28_apply, show idx_main_v28 (ix2 w (0 : Fin 1)) = ix1 w from idx31 w, row25]
  exact toInt_row w
theorem v30_plane (w : Fin 31) : (val_main_v30 (F := Ideal) (ix2 w (1 : Fin 2))).toInt = ((1 : Fin 3).val : Int) := by
  unfold val_main_v30
  rw [pair_right, val_main_v29_apply, val_main_v27_apply, val_main_v26_apply, val_main_c_6_apply]
  rfl
theorem v41_row (w : Fin 31) : (val_main_v41 (F := Ideal) (ix2 w (0 : Fin 2))).toInt = (w.val : Int) := by
  unfold val_main_v41
  rw [pair_left, val_main_v39_apply, show idx_main_v39 (ix2 w (0 : Fin 1)) = ix1 w from idx31 w, row36]
  exact toInt_row w
theorem v41_plane (w : Fin 31) : (val_main_v41 (F := Ideal) (ix2 w (1 : Fin 2))).toInt = ((2 : Fin 3).val : Int) := by
  unfold val_main_v41
  rw [pair_right, val_main_v40_apply, val_main_v38_apply, val_main_v37_apply, val_main_c_9_apply]
  rfl

/-! ## The updates: the window sums, and the windows' numbers -/

theorem L5 (h : Fin 16) (w : Fin 31) (j : Fin 64) : idx_main_v5 (ix2 h w) j = ix3 h w j := by
  funext a; refine Fin.ext ?_
  match a with
  | ⟨0, _⟩ => rfl
  | ⟨1, _⟩ => rfl
  | ⟨2, _⟩ => rfl

theorem L4 (h : Fin 16) (w : Fin 31) (j : Fin 64) :
    idx_main_v4 (ix3 h w j) = ix2 h (⟨64 * w.val + j.val, by omega⟩ : Fin 1984) := by
  funext a; refine Fin.ext ?_
  match a with
  | ⟨0, _⟩ => show ((h.val * 31 + w.val) * 64 + j.val) / 1984 = h.val; omega
  | ⟨1, _⟩ => show ((h.val * 31 + w.val) * 64 + j.val) % 1984 = 64 * w.val + j.val; omega

theorem L3 (h : Fin 16) (c : Fin 1984) (r : Fin 2048) : idx_main_v3 (ix2 h c) r = ix3 h r c := by
  funext a; refine Fin.ext ?_
  match a with
  | ⟨0, _⟩ => rfl
  | ⟨1, _⟩ => rfl
  | ⟨2, _⟩ => rfl

theorem L2 (h : Fin 16) (r : Fin 2048) (c : Fin 1984) : idx_main_v2 (ix3 h r c) = ix4 (0 : Fin 1) h r c := by
  funext a; refine Fin.ext ?_
  match a with
  | ⟨0, _⟩ => rfl
  | ⟨1, _⟩ => show ((h.val * 2048 + r.val) * 1984 + c.val) / 4063232 % 16 = h.val; omega
  | ⟨2, _⟩ => show ((h.val * 2048 + r.val) * 1984 + c.val) / 1984 % 2048 = r.val; omega
  | ⟨3, _⟩ => show ((h.val * 2048 + r.val) * 1984 + c.val) % 1984 = c.val; omega

theorem L1 (h : Fin 16) (r : Fin 2048) (w : Fin 31) (j : Fin 64) :
    idx_main_v1 (ix4 (0 : Fin 1) h r (⟨64 * w.val + j.val, by omega⟩ : Fin 1984))
      = ix4 (0 : Fin 1) h r (⟨4 + 64 * w.val + j.val, by omega⟩ : Fin 2048) := by
  funext a; refine Fin.ext ?_
  match a with
  | ⟨0, _⟩ => rfl
  | ⟨1, _⟩ => rfl
  | ⟨2, _⟩ => rfl
  | ⟨3, _⟩ => show 4 + (64 * w.val + j.val) = 4 + 64 * w.val + j.val; omega

/-- The update of the first scatter at (h, w) is the window score. -/
theorem v5_at (x2 : FVec Ideal S1x16x2048x2048 .f32) (h : Fin 16) (w : Fin 31) :
    val_main_v5 (F := Ideal) x2 (ix2 h w) = Spec.winScore (fun h r c => x2 (ix4 (0 : Fin 1) h r c)) h w := by
  have z1 : val_main_cst_1 (F := Ideal) (Shape.Idx.first h_S_) = 0 := Ideal.ofBits_zero_f32
  have z0 : val_main_cst_0 (F := Ideal) (Shape.Idx.first h_S_) = 0 := Ideal.ofBits_zero_f32
  rw [val_main_v5_apply, z1, zero_add]
  unfold Spec.winScore
  refine Finset.sum_congr rfl fun j _ => ?_
  rw [L5, val_main_v4_apply, L4, val_main_v3_apply, z0, zero_add]
  refine Finset.sum_congr rfl fun r _ => ?_
  rw [L3, val_main_v2_apply, L2, val_main_v1_apply, L1]

/-- The update of the second and third scatters at (h, w) is the number w. -/
theorem v9_at (h : Fin 16) (w : Fin 31) : val_main_v9 (F := Ideal) (ix2 h w) = ((w.val : ℝ) : EReal) := by
  rw [val_main_v9_apply, val_main_v8_apply, val_main_v7_apply, val_main_v6_apply]
  show (((BitVec.ofNat 32 w.val).toInt : ℝ) : EReal) = ((w.val : ℝ) : EReal)
  rw [toInt_row w, Int.cast_natCast]

/-- The array the scatters start from holds one constant word everywhere. -/
theorem v0_at (i : S16x30000x3.Idx) : val_main_v0 (F := Ideal) i = Ideal.ofBits .f32 0x7FC00000#32 := by
  rw [val_main_v0_apply, val_main_cst_apply]
  rfl

/-! ## The result -/

/-- Entry (h, w, k) of the result. -/
def Gat (attn : FVec Ideal S1x16x2048x2048 .f32) (h : Fin 16) (w : Fin 30000) (k : Fin 3) : EReal :=
  if hw : w.val < 31 then
    (if k = 0 then Spec.winScore (fun h r c => attn (ix4 (0 : Fin 1) h r c)) h ⟨w.val, hw⟩ else ((w.val : ℝ) : EReal))
  else Ideal.ofBits .f32 0x7FC00000#32

/-- The result as one function of the attention array. -/
def G (attn : FVec Ideal S1x16x2048x2048 .f32) : FVec Ideal S16x30000x3 .f32 :=
  fun i => Gat attn (i 0) (i 1) (i 2)

theorem G_ix3 (attn : FVec Ideal S1x16x2048x2048 .f32) (h : Fin 16) (w : Fin 30000) (k : Fin 3) :
    G attn (ix3 h w k) = Gat attn h w k := rfl

theorem v20_at (x2 : FVec Ideal S1x16x2048x2048 .f32) (h : Fin 16) (w : Fin 30000) (k : Fin 3) :
    val_main_v20 (F := Ideal) x2 (ix3 h w k)
      = if hw : w.val < 31 ∧ k = 0 then val_main_v5 (F := Ideal) x2 (ix2 h ⟨w.val, hw.1⟩)
        else val_main_v0 (F := Ideal) (ix3 h w k) := by
  unfold val_main_v20
  exact layer (val_main_v19 (F := Ideal)) 0 v19_row v19_plane _ _ h w k

theorem v31_at (x2 : FVec Ideal S1x16x2048x2048 .f32) (h : Fin 16) (w : Fin 30000) (k : Fin 3) :
    val_main_v31 (F := Ideal) x2 (ix3 h w k)
      = if hw : w.val < 31 ∧ k = 1 then val_main_v9 (F := Ideal) (ix2 h ⟨w.val, hw.1⟩)
        else val_main_v20 (F := Ideal) x2 (ix3 h w k) := by
  unfold val_main_v31
  exact layer (val_main_v30 (F := Ideal)) 1 v30_row v30_plane _ _ h w k

theorem v42_at' (x2 : FVec Ideal S1x16x2048x2048 .f32) (h : Fin 16) (w : Fin 30000) (k : Fin 3) :
    val_main_v42 (F := Ideal) x2 (ix3 h w k)
      = if hw : w.val < 31 ∧ k = 2 then val_main_v9 (F := Ideal) (ix2 h ⟨w.val, hw.1⟩)
        else val_main_v31 (F := Ideal) x2 (ix3 h w k) := by
  unfold val_main_v42
  exact layer (val_main_v41 (F := Ideal)) 2 v41_row v41_plane _ _ h w k

theorem fin3_cases : ∀ k : Fin 3, k = 0 ∨ k = 1 ∨ k = 2 := by decide

/-- The reference's last stage at (h, w, k). -/
theorem v42_at (x2 : FVec Ideal S1x16x2048x2048 .f32) (h : Fin 16) (w : Fin 30000) (k : Fin 3) :
    val_main_v42 (F := Ideal) x2 (ix3 h w k) = Gat x2 h w k := by
  unfold Gat
  by_cases hw : w.val < 31
  · rw [dif_pos hw]
    rcases fin3_cases k with rfl | rfl | rfl
    · rw [v42_at', dif_neg (fun hh => absurd hh.2 (by decide)), v31_at, dif_neg (fun hh => absurd hh.2 (by decide)),
        v20_at, dif_pos ⟨hw, rfl⟩, if_pos rfl, v5_at]
    · rw [v42_at', dif_neg (fun hh => absurd hh.2 (by decide)), v31_at, dif_pos ⟨hw, rfl⟩, if_neg (by decide), v9_at]
    · rw [v42_at', dif_pos ⟨hw, rfl⟩, if_neg (by decide), v9_at]
  · rw [dif_neg hw, v42_at', dif_neg (fun hh => hw hh.1), v31_at, dif_neg (fun hh => hw hh.1), v20_at,
      dif_neg (fun hh => hw hh.1), v0_at]

/-- The reference's last stage is G. -/
theorem stage_eq (x2 : FVec Ideal S1x16x2048x2048 .f32) : val_main_v42 (F := Ideal) x2 = G x2 := by
  funext i
  obtain ⟨h, w, k, rfl⟩ : ∃ (h : Fin 16) (w : Fin 30000) (k : Fin 3), i = ix3 h w k := ⟨i 0, i 1, i 2, eq_ix3 i⟩
  exact v42_at x2 h w k

/-- The term the reference's run states for its result is G of the attention array (the other two arguments are
    not read). -/
theorem result_eq (x0 x1 : FVec Ideal S1x16x2048x128 .f32) (x2 : FVec Ideal S1x16x2048x2048 .f32) :
    Host.scatter scatter_S16x30000x3_S31x2_S16x31_0_12_12_1 (fun _ b => b) (Host.scatter scatter_S16x30000x3_S31x2_S16x31_0_12_12_1 (fun _ b => b) (Host.scatter scatter_S16x30000x3_S31x2_S16x31_0_12_12_1 (fun _ b => b) (broadcastInDim S16x30000x3 ![] bcast_S_S16x30000x3 (constant S_ .f32 0x7FC00000#32)) (concatenate S31x2 1 [⟨S31x1, (broadcastInDim S31x1 ![0] bcast_S31_S31x1_0 (select (cmpi .slt (iotaInDim S31 32 0) (broadcastInDim S31 ![] bcast_S_S31 (constantI S_ 32 0#32))) (addi (iotaInDim S31 32 0) (broadcastInDim S31 ![] bcast_S_S31 (constantI S_ 32 30000#32))) (iotaInDim S31 32 0)))⟩, ⟨S31x1, (broadcastInDim S31x1 ![0] bcast_S31_S31x1_0 (id (broadcastInDim S31 ![] bcast_S_S31 (constantI S_ 32 0#32))))⟩] concatenates_S31x1_S31x1_S31x2_d1) (Host.reduceAdd (shapeCast _ (Host.reduceAdd (shapeCast _ (extractStridedSlice S1x16x2048x1984 ![0, 0, 0, 4] (x2) slices_S1x16x2048x2048_S1x16x2048x1984_0_0_0_4) shapeCasts_S1x16x2048x1984_S16x2048x1984) (constant S_ .f32 0x00000000#32) reducesTo_S16x2048x1984_S16x1984_d1 h_S_) shapeCasts_S16x1984_S16x31x64) (constant S_ .f32 0x00000000#32) reducesTo_S16x31x64_S16x31_d2 h_S_)) (concatenate S31x2 1 [⟨S31x1, (broadcastInDim S31x1 ![0] bcast_S31_S31x1_0 (select (cmpi .slt (iotaInDim S31 32 0) (broadcastInDim S31 ![] bcast_S_S31 (constantI S_ 32 0#32))) (addi (iotaInDim S31 32 0) (broadcastInDim S31 ![] bcast_S_S31 (constantI S_ 32 30000#32))) (iotaInDim S31 32 0)))⟩, ⟨S31x1, (broadcastInDim S31x1 ![0] bcast_S31_S31x1_0 (id (broadcastInDim S31 ![] bcast_S_S31 (constantI S_ 32 1#32))))⟩] concatenates_S31x1_S31x1_S31x2_d1) (broadcastInDim S16x31 ![0, 1] bcast_S1x31_S16x31_0_1 (broadcastInDim S1x31 ![1] bcast_S31_S1x31_1 (sitofp .f32 (iotaInDim S31 32 0))))) (concatenate S31x2 1 [⟨S31x1, (broadcastInDim S31x1 ![0] bcast_S31_S31x1_0 (select (cmpi .slt (iotaInDim S31 32 0) (broadcastInDim S31 ![] bcast_S_S31 (constantI S_ 32 0#32))) (addi (iotaInDim S31 32 0) (broadcastInDim S31 ![] bcast_S_S31 (constantI S_ 32 30000#32))) (iotaInDim S31 32 0)))⟩, ⟨S31x1, (broadcastInDim S31x1 ![0] bcast_S31_S31x1_0 (id (broadcastInDim S31 ![] bcast_S_S31 (constantI S_ 32 2#32))))⟩] concatenates_S31x1_S31x1_S31x2_d1) (broadcastInDim S16x31 ![0, 1] bcast_S1x31_S16x31_0_1 (broadcastInDim S1x31 ![1] bcast_S31_S1x31_1 (sitofp .f32 (iotaInDim S31 32 0))))
      = G x2 :=
  (val_main_v42_eq (F := Ideal) x2).trans (stage_eq x2)

end Cert.ReferenceIdeal.RefValue

end
-- ==== Proof.Region2Value.lean ====
/-
  The buffer the second TensorCore region's body leaves, read at an index — at any float instance.

  The output has three planes of 16 rows by 30000 columns. Only the first 31 columns are live. On a live column
  plane 0 holds, in rows 0 to 8, the TensorCore's window rows as loaded, and in rows 9 to 15 the rows of the matrix
  product of the grouped column sums with the window-membership matrix; planes 1 and 2 hold the column number as a
  float. Off the live columns every plane holds the not-a-number word, kept as the word the body writes.

  The proof reads each store's payload at an index: the live-column test is a signed comparison of the column
  number with 31; plane 0 is two concatenations (9 rows over 7 along axis 0, then 128 columns before 29872 padding
  columns along axis 1) under a select; the three stores write disjoint planes, so the canonical contents at plane
  `k` are store `k`'s payload.
-/
import proofs.«216449_g46943992545511_cont_8to1_c_491_21_alg».proof.Proof.Region2
import Idealize.ShloMosaic.Lib.ValueIdx
import Idealize.ShloMosaic.Lib.ValueLayout
import Idealize.ShloMosaic.Lib.Pipeline.Value
import Idealize.ShloMosaic.Lib.WordArith
import Idealize.ShloMosaic.PureOps.Ideal.Laws

set_option maxRecDepth 16384

noncomputable section

namespace Cert.KernelIdeal.Region2

open Cert.KernelIdeal Cert.KernelIdeal.Gen
open Idealize.ShloMosaic Idealize.ShloMosaic.ValueIdx
open scoped BigOperators

section AnyInstance
variable {F : FTy → Type} [FloatOps F]

/-! ## Words -/

/-- A column number below 30000, read as a signed 32-bit word, is below 31 exactly when the number is. -/
theorem slt_31 (w : Nat) (hw : w < 30000) :
    IntOp.cmpi .slt (BitVec.ofNat 32 w) 31#32 = BitVec.ofBool (decide (w < 31)) := by
  have h1 : (BitVec.ofNat 32 w).toInt = (w : Int) := by
    have hn : (BitVec.ofNat 32 w).toNat = w := by rw [BitVec.toNat_ofNat]; omega
    rw [BitVec.toInt_eq_toNat_cond, hn]; split <;> omega
  have h2 : (31#32 : BitVec 32).toInt = 31 := by decide
  unfold IntOp.cmpi
  simp only [BitVec.slt, h1, h2]
  congr 1
  simp only [decide_eq_decide]
  omega

/-! ## The live-column predicate and the column-number planes -/

/-- The live-column predicate at column `w`: the bit of `w < 31`. -/
theorem k2_pay1_apply (h : Fin 16) (w : Fin 30000) : k2_pay1 (ix2 h w) = BitVec.ofBool (decide (w.val < 31)) := by
  unfold k2_pay1
  show IntOp.cmpi .slt (iota .tc S16x30000 32 [1] iota_S16x30000_d1_w32 (ix2 h w)) 31#32 = _
  rw [iota_single_apply]
  exact slt_31 w.val w.isLt

/-- The column-number payload at `(h, w)`: the column number as a float on a live column, the not-a-number word elsewhere. -/
theorem k2_pay3_apply (h : Fin 16) (w : Fin 30000) :
    k2_pay3 (F := F) (ix2 h w)
      = Scalar.select (BitVec.ofBool (decide (w.val < 31))) (FloatOps.sitofp .f32 (BitVec.ofNat 32 w.val)) (Scalar.ofBits .f32 0x7FC00000#32) := by
  unfold k2_pay3
  show Scalar.select (k2_pay1 (ix2 h w)) (FloatOps.sitofp .f32 (iota .tc S16x30000 32 [1] iota_S16x30000_d1_w32 (ix2 h w))) (Scalar.ofBits .f32 0x7FC00000#32) = _
  rw [k2_pay1_apply, iota_single_apply]

/-- Planes 1 and 2 carry it under a leading unit axis. -/
theorem k2_pay4_apply (u : Fin 1) (h : Fin 16) (w : Fin 30000) : k2_pay4 (F := F) (ix3 u h w) = k2_pay3 (F := F) (ix2 h w) := by
  unfold k2_pay4
  exact shapeCast_ab_1ab_apply _ _ u h w
theorem k2_pay5_apply (u : Fin 1) (h : Fin 16) (w : Fin 30000) : k2_pay5 (F := F) (ix3 u h w) = k2_pay3 (F := F) (ix2 h w) := by
  unfold k2_pay5
  exact shapeCast_ab_1ab_apply _ _ u h w

/-! ## Plane 0: the window rows over the matrix-product rows, padded and masked -/

/-- The 16 assembled rows at `(h, w)`, `w` below 128: a window row for `h < 9`, else matrix-product row `h - 9`. -/
theorem rows_apply (v46 : FVec F S9x128 .f32) (v44 : FVec F S7x128 .f32) (h : Fin 16) (w : Fin 128) :
    concatenate S16x128 0 [⟨S9x128, v46⟩, ⟨S7x128, v44⟩] concatenates_S9x128_S7x128_S16x128_d0 (ix2 h w)
      = if hh : h.val < 9 then v46 (ix2 ⟨h.val, hh⟩ w) else v44 (ix2 ⟨h.val - 9, by omega⟩ w) := by
  split
  · next hh =>
    exact concatenate_pair_apply_left 0 v46 v44 _ (ix2 h w) rfl (ix2 ⟨h.val, hh⟩ w)
      (fun b => by match b with | ⟨0, _⟩ => rfl | ⟨1, _⟩ => rfl)
  · next hh =>
    exact concatenate_pair_apply_right 0 v46 v44 _ (ix2 h w) rfl rfl (ix2 ⟨h.val - 9, by omega⟩ w)
      (fun b hb => by match b with | ⟨0, _⟩ => exact absurd rfl hb | ⟨1, _⟩ => rfl)
      (by show h.val - 9 + 9 = h.val; omega)

/-- The padded rows at `(h, w)`: the assembled rows for `w < 128`, the not-a-number word beyond. -/
theorem padded_apply (v47 : FVec F S16x128 .f32) (z : F .f32) (h : Fin 16) (w : Fin 30000) :
    concatenate S16x30000 1 [⟨S16x128, v47⟩, ⟨S16x29872, broadcast S16x29872 z⟩] concatenates_S16x128_S16x29872_S16x30000_d1 (ix2 h w)
      = if hw : w.val < 128 then v47 (ix2 h ⟨w.val, hw⟩) else z := by
  split
  · next hw =>
    exact concatenate_pair_apply_left 1 v47 _ _ (ix2 h w) rfl (ix2 h ⟨w.val, hw⟩)
      (fun b => by match b with | ⟨0, _⟩ => rfl | ⟨1, _⟩ => rfl)
  · next hw =>
    exact concatenate_pair_apply_right 1 v47 (broadcast S16x29872 z) _ (ix2 h w) rfl rfl (ix2 h ⟨w.val - 128, by have := w.isLt; omega⟩)
      (fun b hb => by match b with | ⟨0, _⟩ => rfl | ⟨1, _⟩ => exact absurd rfl hb)
      (by show w.val - 128 + 128 = w.val; omega)

/-- Plane 0's payload at `(h, w)`: on a live column the assembled rows, elsewhere the not-a-number word. -/
theorem k2_pay2_apply (v44 : FVec F S7x128 .f32) (v45 : Vec F S9x128 .f32) (u : Fin 1) (h : Fin 16) (w : Fin 30000) :
    k2_pay2 v44 v45 (ix3 u h w)
      = if hw : w.val < 31 then
          (if hh : h.val < 9 then v45 (ix2 ⟨h.val, hh⟩ ⟨w.val, by omega⟩) else v44 (ix2 ⟨h.val - 9, by omega⟩ ⟨w.val, by omega⟩))
        else Scalar.ofBits .f32 0x7FC00000#32 := by
  unfold k2_pay2
  rw [shapeCast_ab_1ab_apply, select_apply, k2_pay1_apply, padded_apply, shapeCast_self]
  by_cases hw : w.val < 31
  · have hw' : w.val < 128 := by omega
    rw [dif_pos hw, dif_pos hw', decide_eq_true hw, rows_apply]
    exact select_one _ _
  · rw [dif_neg hw, decide_eq_false hw]
    exact select_zero _ _

/-! ## The output buffer at an index -/

/-- The two loads read the whole of their buffers. -/
theorem ld_l2_0 (x0 : Vec F S9x128 .f32) : View.ld x0 l2_0 = x0 :=
  funext fun j => congrArg x0 (funext fun a => Fin.ext (by
    match a with
    | ⟨0, _⟩ => show 0 + 1 * (j 0).val = (j 0).val; omega
    | ⟨1, _⟩ => show 0 + 1 * (j 1).val = (j 1).val; omega))
theorem ld_l2_1 (x1 : Vec F S114688 .f32) : View.ld x1 l2_1 = x1 :=
  funext fun j => congrArg x1 (funext fun a => Fin.ext (by
    match a with
    | ⟨0, _⟩ => show 0 + 1 * (j 0).val = (j 0).val; omega))

/-- Plane `k`'s rectangle places `(0, h, w)` at `(k, h, w)`. -/
theorem r2_0_emb (h : Fin 16) (w : Fin 30000) : r2_0.emb (ix3 (0 : Fin 1) h w) = ix3 (0 : Fin 3) h w :=
  funext fun a => Fin.ext (by
    match a with
    | ⟨0, _⟩ => rfl
    | ⟨1, _⟩ => show 0 + 1 * h.val = h.val; omega
    | ⟨2, _⟩ => show 0 + 1 * w.val = w.val; omega)
theorem r2_1_emb (h : Fin 16) (w : Fin 30000) : r2_1.emb (ix3 (0 : Fin 1) h w) = ix3 (1 : Fin 3) h w :=
  funext fun a => Fin.ext (by
    match a with
    | ⟨0, _⟩ => rfl
    | ⟨1, _⟩ => show 0 + 1 * h.val = h.val; omega
    | ⟨2, _⟩ => show 0 + 1 * w.val = w.val; omega)
theorem r2_2_emb (h : Fin 16) (w : Fin 30000) : r2_2.emb (ix3 (0 : Fin 1) h w) = ix3 (2 : Fin 3) h w :=
  funext fun a => Fin.ext (by
    match a with
    | ⟨0, _⟩ => rfl
    | ⟨1, _⟩ => show 0 + 1 * h.val = h.val; omega
    | ⟨2, _⟩ => show 0 + 1 * w.val = w.val; omega)

/-- An index of plane 0 or 1 is off plane 2's rectangle, one of plane 0 off plane 1's: their first coordinates differ. -/
theorem not_mem_r2_2_of_1 (h : Fin 16) (w : Fin 30000) : ix3 (1 : Fin 3) h w ∉ r2_2.set :=
  fun H => absurd ((Rect.mem_set_unit.mp H) 0).1 (show ¬ (2 ≤ 1) by decide)
theorem not_mem_r2_2_of_0 (h : Fin 16) (w : Fin 30000) : ix3 (0 : Fin 3) h w ∉ r2_2.set :=
  fun H => absurd ((Rect.mem_set_unit.mp H) 0).1 (show ¬ (2 ≤ 0) by decide)
theorem not_mem_r2_1_of_0 (h : Fin 16) (w : Fin 30000) : ix3 (0 : Fin 3) h w ∉ r2_1.set :=
  fun H => absurd ((Rect.mem_set_unit.mp H) 0).1 (show ¬ (1 ≤ 0) by decide)

/-- The buffer the body leaves, plane by plane: each plane reads its own store's payload. -/
theorem out2_2_plane2 (x0 : Vec F S9x128 .f32) (x1 : Vec F S114688 .f32) (h : Fin 16) (w : Fin 30000) :
    out2_2 x0 x1 (ix3 (2 : Fin 3) h w) = k2_pay5 (F := F) (ix3 (0 : Fin 1) h w) := by
  unfold out2_2
  rw [← r2_2_emb h w]
  exact View.canon_cons_emb r2_2 _ _ _
theorem out2_2_plane1 (x0 : Vec F S9x128 .f32) (x1 : Vec F S114688 .f32) (h : Fin 16) (w : Fin 30000) :
    out2_2 x0 x1 (ix3 (1 : Fin 3) h w) = k2_pay4 (F := F) (ix3 (0 : Fin 1) h w) := by
  unfold out2_2
  refine (View.canon_cons_of_not_mem (⟨r2_2, k2_pay5 (F := F)⟩ : View.Piece (Elt F) S3x16x30000 .f32) _ (not_mem_r2_2_of_1 h w)).trans ?_
  rw [← r2_1_emb h w]
  exact View.canon_cons_emb r2_1 _ _ _
theorem out2_2_plane0 (x0 : Vec F S9x128 .f32) (x1 : Vec F S114688 .f32) (h : Fin 16) (w : Fin 30000) :
    out2_2 x0 x1 (ix3 (0 : Fin 3) h w) = k2_pay2 (k2_pay6 x1) x0 (ix3 (0 : Fin 1) h w) := by
  unfold out2_2
  refine (View.canon_cons_of_not_mem (⟨r2_2, k2_pay5 (F := F)⟩ : View.Piece (Elt F) S3x16x30000 .f32) _ (not_mem_r2_2_of_0 h w)).trans ?_
  refine (View.canon_cons_of_not_mem (⟨r2_1, k2_pay4 (F := F)⟩ : View.Piece (Elt F) S3x16x30000 .f32) _ (not_mem_r2_1_of_0 h w)).trans ?_
  rw [← r2_0_emb h w, ld_l2_0, ld_l2_1]
  exact View.canon_cons_emb r2_0 _ _ _

/-- The column number as a float on a live column, the not-a-number word elsewhere: what planes 1 and 2 hold at column `w`. -/
def colPlane (F : FTy → Type) [FloatOps F] (w : Fin 30000) : F .f32 :=
  if w.val < 31 then FloatOps.sitofp .f32 (BitVec.ofNat 32 w.val) else Scalar.ofBits .f32 0x7FC00000#32

theorem k2_pay3_eq_colPlane (h : Fin 16) (w : Fin 30000) : k2_pay3 (F := F) (ix2 h w) = colPlane F w := by
  rw [k2_pay3_apply]; unfold colPlane
  by_cases hw : w.val < 31
  · rw [if_pos hw, decide_eq_true hw]; exact select_one _ _
  · rw [if_neg hw, decide_eq_false hw]; exact select_zero _ _

/-- THE BUFFER THE BODY LEAVES, at any float instance: planes 1 and 2 hold the column plane; plane 0 holds, on a live
    column, the window row for `h < 9` and row `h - 9` of the matrix product of the column sums for `h ≥ 9`, and the
    not-a-number word elsewhere. -/
theorem out2_2_apply (x0 : Vec F S9x128 .f32) (x1 : Vec F S114688 .f32) (k : Fin 3) (h : Fin 16) (w : Fin 30000) :
    out2_2 x0 x1 (ix3 k h w)
      = if k.val = 0 then
          (if hw : w.val < 31 then
            (if hh : h.val < 9 then x0 (ix2 ⟨h.val, hh⟩ ⟨w.val, by omega⟩)
              else k2_pay6 x1 (ix2 ⟨h.val - 9, by omega⟩ ⟨w.val, by omega⟩))
           else Scalar.ofBits .f32 0x7FC00000#32)
        else colPlane F w := by
  match k with
  | ⟨0, _⟩ => rw [if_pos rfl]; exact (out2_2_plane0 x0 x1 h w).trans (k2_pay2_apply _ _ _ h w)
  | ⟨1, _⟩ => rw [if_neg (show ¬ ((1 : Nat) = 0) by decide)]; exact ((out2_2_plane1 x0 x1 h w).trans (k2_pay4_apply _ h w)).trans (k2_pay3_eq_colPlane h w)
  | ⟨2, _⟩ => rw [if_neg (show ¬ ((2 : Nat) = 0) by decide)]; exact ((out2_2_plane2 x0 x1 h w).trans (k2_pay5_apply _ h w)).trans (k2_pay3_eq_colPlane h w)

end AnyInstance

end Cert.KernelIdeal.Region2

end
-- ==== Proof.Region2Product.lean ====
/-
  The matrix-product rows of the second TensorCore region's body, and the buffer the body leaves, at the ideal values.

  The product's left operand is the column sums in groups of eight (the 114688 words viewed 7 × 8 × 2048 and summed over
  the middle axis). Its right operand is the 0/1 window-membership matrix, 2048 rows by 128 columns, which the body builds
  from the row and column numbers by signed 32-bit integer arithmetic: the bit at (c, w) says that column w is live
  (w < 31), that row c lies in [4, 1988), and that the floor of (c - 4) / 64 is w. The floor is computed as the truncating
  quotient lowered by one when signs differ and the remainder is not zero; from row 4 on the dividend is not negative and
  it is the natural quotient. Each word fact is checked row by row (2048 rows) or over 32 × 128 pairs of small numbers, and
  the bit's closed form is assembled from them.

  A matrix product from a zero accumulator is, at the ideal values, the sum over the contracted axis of the products; a
  one-axis sum is the sum over that axis's coordinates; the shape casts keep the row-major position. So product row r at
  column w is the sum over the columns c of window w of the eight words of group r at column c.
-/
import proofs.«216449_g46943992545511_cont_8to1_c_491_21_alg».proof.Proof.Region2Value
import Idealize.ShloMosaic.Lib.Decide

set_option maxRecDepth 16384

noncomputable section

namespace Cert.KernelIdeal.Region2

open Cert.KernelIdeal Cert.KernelIdeal.Gen
open Idealize.ShloMosaic Idealize.ShloMosaic.ValueIdx Idealize.ShloMosaic.WordArith
open scoped BigOperators

/-! ## The product's two operands, named -/

/-- The floor of (row - 4) / 64 as the body computes it on a signed 32-bit row word: the truncating quotient,
    lowered by one when the dividend's sign differs from the divisor's and the remainder is not zero. -/
def floorWord (a : BitVec 32) : BitVec 32 :=
  let x := IntOp.subi a 4#32
  let q := IntOp.divsi .vector x 64#32
  let sx := IntOp.subi ((IntOp.cmpi .sgt x 0#32).setWidth 32) ((IntOp.cmpi .slt x 0#32).setWidth 32)
  let s64 := Scalar.subi (Scalar.extui (Scalar.cmpi .sgt 64#32 0#32)) (Scalar.extui (Scalar.cmpi .slt 64#32 0#32))
  let adj := IntOp.andi (IntOp.cmpi .ne sx s64) (IntOp.cmpi .ne (IntOp.remsi .vector x 64#32) 0#32)
  Scalar.select adj (IntOp.subi q 1#32) q

/-- The window-membership bit at row word `a`, column word `b`: the column is live, the row lies in [4, 1988), and
    the floor of (row - 4) / 64 is the column. -/
def maskBit (a b : BitVec 32) : BitVec 1 :=
  IntOp.andi (IntOp.andi (IntOp.andi (IntOp.cmpi .slt b 31#32) (IntOp.cmpi .sge a 4#32)) (IntOp.cmpi .slt a 1988#32))
    (IntOp.cmpi .eq (floorWord a) b)

/-! ### The words' meanings, row by row (2048 rows) and column by column -/

theorem sge_4 : ∀ c : Fin 2048, IntOp.cmpi .sge (BitVec.ofNat 32 c.val) 4#32 = BitVec.ofBool (decide (4 ≤ c.val)) := by
  decide +kernel
theorem slt_1988 : ∀ c : Fin 2048, IntOp.cmpi .slt (BitVec.ofNat 32 c.val) 1988#32 = BitVec.ofBool (decide (c.val < 1988)) := by
  decide +kernel
/-- From row 4 on the dividend is not negative, and the floor is the natural quotient. -/
theorem floorWord_eq : ∀ c : Fin 2048, 4 ≤ c.val → floorWord (BitVec.ofNat 32 c.val) = BitVec.ofNat 32 ((c.val - 4) / 64) := by
  decide +kernel
/-- Two small numbers' words are equal exactly when the numbers are. -/
theorem beq_words : ∀ q : Fin 32, ∀ w : Fin 128, (BitVec.ofNat 32 q.val == BitVec.ofNat 32 w.val) = decide (q.val = w.val) := by
  decide +kernel

/-- The membership bit in closed form, for a row below 2048 and a column below 128. -/
theorem maskBit_closed (c : Fin 2048) (w : Fin 128) :
    maskBit (BitVec.ofNat 32 c.val) (BitVec.ofNat 32 w.val)
      = BitVec.ofBool (decide (w.val < 31 ∧ 4 ≤ c.val ∧ c.val < 1988 ∧ (c.val - 4) / 64 = w.val)) := by
  unfold maskBit
  rw [slt_31 w.val (by have := w.isLt; omega), sge_4 c, slt_1988 c,
    show IntOp.cmpi .eq (floorWord (BitVec.ofNat 32 c.val)) (BitVec.ofNat 32 w.val)
      = BitVec.ofBool (floorWord (BitVec.ofNat 32 c.val) == BitVec.ofNat 32 w.val) from rfl,
    andi_ofBool, andi_ofBool, andi_ofBool]
  congr 1
  by_cases h4 : 4 ≤ c.val
  · have hq : (c.val - 4) / 64 < 32 := by have := c.isLt; omega
    rw [floorWord_eq c h4, beq_words ⟨(c.val - 4) / 64, hq⟩ w]
    simp [Bool.and_assoc]
  · simp [h4]

/-- Read as a number, a bit is one or zero. -/
theorem bit_toInt (p : Bool) : ((BitVec.ofBool p).setWidth 32).toInt = if p then 1 else 0 := by
  cases p <;> decide

section AnyInstance
variable {F : FTy → Type} [FloatOps F]

/-- The column sums in groups of eight: the 114688 words viewed 7 × 8 × 2048 and summed over the middle axis. -/
def colSums (v0 : Vec F S114688 .f32) : FVec F S7x2048 .f32 :=
  multiReduction .add [1] S7x2048 (shapeCast S7x8x2048 (shapeCast S114688 v0 shapeCasts_S114688_S114688) shapeCasts_S114688_S7x8x2048)
    0x00000000#32 reduces_S7x8x2048_S7x2048 (.inl rfl) rfl

/-- The window-membership bits, 2048 rows by 128 columns, from the row and column numbers. -/
def maskVec : IVec S2048x128 1 :=
  fun i => maskBit (iota .tc S2048x128 32 [0] iota_S2048x128_d0_w32 i) (iota .tc S2048x128 32 [1] iota_S2048x128_d1_w32 i)

/-- The product payload is the matrix product of the two, from a zero accumulator. -/
theorem k2_pay6_eq (v0 : Vec F S114688 .f32) :
    k2_pay6 v0 = matmul dot_S7x2048_S2048x128_S7x128_1_0_0_1_n_n none (colSums v0) (sitofp .f32 (extui 32 maskVec natLt_1_32))
      (constant S7x128 .f32 0x00000000#32) := rfl

/-- The membership bits at `(c, w)`: the chain at the two numbers' words. -/
theorem maskVec_apply (c : Fin 2048) (w : Fin 128) : maskVec (ix2 c w) = maskBit (BitVec.ofNat 32 c.val) (BitVec.ofNat 32 w.val) := by
  unfold maskVec
  rw [iota_single_apply, iota_single_apply]

end AnyInstance

/-! ## At the ideal values -/

/-- The grouped column sum at `(r, c)`: the eight words of group `r` at column `c`. -/
theorem colSums_apply (v0 : Vec Ideal S114688 .f32) (r : Fin 7) (c : Fin 2048) :
    colSums v0 (ix2 r c) = ∑ b : Fin 8, v0 (ix1 ⟨(r.val * 8 + b.val) * 2048 + c.val, by omega⟩) := by
  unfold colSums
  refine (Ideal.multiReduction_add_single _ _ reduces_S7x8x2048_S7x2048 _ _ (ix2 r c)).trans ?_
  show (∑ b : Fin 8, _) = _
  refine Finset.sum_congr rfl fun b _ => ?_
  rw [shapeCast_apply _ _ _ (ix1 ⟨(r.val * 8 + b.val) * 2048 + c.val, by omega⟩) (by
    rw [Shape.rowMajor_val_one, Shape.rowMajor_val_three]; rfl), shapeCast_self]

/-- The one contracted axis's index is its coordinate, below 2048. -/
def eC : (dot_S7x2048_S2048x128_S7x128_1_0_0_1_n_n).contr.Idx ≃ Fin 2048 :=
  contrEquiv1 dot_S7x2048_S2048x128_S7x128_1_0_0_1_n_n 2048 rfl rfl

theorem lhsIdx_eq (r : Fin 7) (w : Fin 128) (c : Fin 2048) :
    (dot_S7x2048_S2048x128_S7x128_1_0_0_1_n_n).lhsIdx (ix2 r w) (eC.symm c) = ix2 r c :=
  funext fun a => Fin.ext (by
    match a with
    | ⟨0, _⟩ => rfl
    | ⟨1, _⟩ =>
      exact ((dot_S7x2048_S2048x128_S7x128_1_0_0_1_n_n).lhsIdx_val_of_single (cl := 1) rfl (ix2 r w) (eC.symm c)).trans
        (contrEquiv1_symm_val _ 2048 rfl rfl c))

theorem rhsIdx_eq (r : Fin 7) (w : Fin 128) (c : Fin 2048) :
    (dot_S7x2048_S2048x128_S7x128_1_0_0_1_n_n).rhsIdx (ix2 r w) (eC.symm c) = ix2 c w :=
  funext fun a => Fin.ext (by
    match a with
    | ⟨0, _⟩ =>
      exact ((dot_S7x2048_S2048x128_S7x128_1_0_0_1_n_n).rhsIdx_val_of_single (cr := 0) rfl (ix2 r w) (eC.symm c)).trans
        (contrEquiv1_symm_val _ 2048 rfl rfl c)
    | ⟨1, _⟩ => rfl)

/-- THE PRODUCT ROWS at `(r, w)`: the sum over the 2048 columns of the grouped column sum times the membership bit
    read as a number. -/
theorem k2_pay6_apply (v0 : Vec Ideal S114688 .f32) (r : Fin 7) (w : Fin 128) :
    k2_pay6 (F := Ideal) v0 (ix2 r w)
      = ∑ c : Fin 2048, (∑ b : Fin 8, v0 (ix1 ⟨(r.val * 8 + b.val) * 2048 + c.val, by omega⟩))
          * ((((maskBit (BitVec.ofNat 32 c.val) (BitVec.ofNat 32 w.val)).setWidth 32).toInt : ℝ) : EReal) := by
  rw [k2_pay6_eq]
  show FloatOps.matmul dot_S7x2048_S2048x128_S7x128_1_0_0_1_n_n none (colSums v0) (sitofp .f32 (extui 32 maskVec natLt_1_32))
      (constant S7x128 .f32 0x00000000#32) (ix2 r w) = _
  rw [Ideal.matmul_constant_zero_apply, ← Equiv.sum_comp eC.symm]
  refine Finset.sum_congr rfl fun c _ => ?_
  rw [lhsIdx_eq, rhsIdx_eq, colSums_apply]
  congr 1
  show ((((maskVec (ix2 c w)).setWidth 32).toInt : ℝ) : EReal) = _
  rw [maskVec_apply]

/-- THE PRODUCT ROWS in closed form: at `(r, w)` the sum, over the columns `c` of window `w` — `w` live, `c` in
    [4, 1988), the floor of `(c - 4) / 64` equal to `w` —, of the eight words of group `r` at column `c`. -/
theorem k2_pay6_closed (v0 : Vec Ideal S114688 .f32) (r : Fin 7) (w : Fin 128) :
    k2_pay6 (F := Ideal) v0 (ix2 r w)
      = ∑ c : Fin 2048, (∑ b : Fin 8, v0 (ix1 ⟨(r.val * 8 + b.val) * 2048 + c.val, by omega⟩))
          * (if w.val < 31 ∧ 4 ≤ c.val ∧ c.val < 1988 ∧ (c.val - 4) / 64 = w.val then (1 : EReal) else 0) := by
  rw [k2_pay6_apply]
  refine Finset.sum_congr rfl fun c _ => ?_
  rw [maskBit_closed, bit_toInt]
  congr 1
  by_cases hp : w.val < 31 ∧ 4 ≤ c.val ∧ c.val < 1988 ∧ (c.val - 4) / 64 = w.val
  · rw [if_pos hp, decide_eq_true hp]; simp
  · rw [if_neg hp, decide_eq_false hp]; simp

/-- A number below 30000, as a signed 32-bit word, reads back as itself. -/
theorem toInt_ofNat_small (w : Nat) (hw : w < 30000) : (BitVec.ofNat 32 w).toInt = (w : Int) := by
  have hn : (BitVec.ofNat 32 w).toNat = w := by rw [BitVec.toNat_ofNat]; omega
  rw [BitVec.toInt_eq_toNat_cond, hn]; split <;> omega

/-- On a live column the column plane holds the column number. -/
theorem colPlane_ideal_live (w : Fin 30000) (hw : w.val < 31) : colPlane Ideal w = ((w.val : ℝ) : EReal) := by
  unfold colPlane
  rw [if_pos hw]
  show (((BitVec.ofNat 32 w.val).toInt : ℝ) : EReal) = _
  rw [toInt_ofNat_small w.val w.isLt]
  simp

/-- THE BUFFER THE BODY LEAVES, AT THE IDEAL VALUES. At plane `k`, row `h`, column `w`: off the 31 live columns, the
    not-a-number word as the body writes it; on a live column, planes 1 and 2 hold the column number, and plane 0 holds
    the window row `h` for `h < 9` and, for `h ≥ 9`, the sum over the 64 columns `c` of window `w` (`c` in [4, 1988)
    with the floor of `(c - 4) / 64` equal to `w`) of the eight column-sum words of group `h - 9` at column `c`. -/
theorem out2_2_ideal (x0 : Vec Ideal S9x128 .f32) (x1 : Vec Ideal S114688 .f32) (k : Fin 3) (h : Fin 16) (w : Fin 30000) :
    out2_2 x0 x1 (ix3 k h w)
      = if hw : w.val < 31 then
          (if k.val = 0 then
            (if hh : h.val < 9 then x0 (ix2 ⟨h.val, hh⟩ ⟨w.val, by omega⟩)
             else ∑ c : Fin 2048, (∑ b : Fin 8, x1 (ix1 ⟨((h.val - 9) * 8 + b.val) * 2048 + c.val, by omega⟩))
                    * (if 4 ≤ c.val ∧ c.val < 1988 ∧ (c.val - 4) / 64 = w.val then (1 : EReal) else 0))
           else ((w.val : ℝ) : EReal))
        else Scalar.ofBits (F := Ideal) .f32 0x7FC00000#32 := by
  rw [out2_2_apply]
  by_cases hw : w.val < 31
  · by_cases hk : k.val = 0
    · simp only [dif_pos hw, if_pos hk]
      by_cases hh : h.val < 9
      · simp only [dif_pos hh]
      · simp only [dif_neg hh]
        rw [k2_pay6_closed]
        refine Finset.sum_congr rfl fun c _ => ?_
        simp only [hw, true_and]
    · simp only [dif_pos hw, if_neg hk]
      exact colPlane_ideal_live w hw
  · by_cases hk : k.val = 0
    · simp only [dif_neg hw, if_pos hk]
    · simp only [dif_neg hw, if_neg hk]
      unfold colPlane
      rw [if_neg hw]

end Cert.KernelIdeal.Region2

end
-- ==== Proof.Bridge.lean ====
/-
  The kernel's result is the reference's, at the ideal instance.

  The kernel works in three steps. The reshaped scores A (head, row, column) are summed over the rows, column by
  column: for heads 0 to 8 on the TensorCore, the rows taken as two halves of 1024, and the column sums multiplied at
  once by the 0/1 matrix of "column c lies in window w" and summed over the columns; for heads 9 to 15 on the tiles,
  each tile summing one band of 256 rows as 4 chunks of 64, into an array of (head, band, column) sums, which the
  second TensorCore step sums over the 8 bands and multiplies by the same 0/1 matrix. The last step assembles three
  planes — the window scores, and the window's number twice — on the first 31 windows and the constant word
  elsewhere, and a transpose puts the plane coordinate last.

  Both routes give the window score: a sum over all 2048 rows may be taken half by half or band by band and chunk by
  chunk, and the product with the 0/1 matrix keeps exactly the 64 columns of the window. So entry (h, w, k) of the
  transposed planes is the reference's entry, index by index.
-/
import proofs.«216449_g46943992545511_cont_8to1_c_491_21_alg».proof.Proof.Spec
import proofs.«216449_g46943992545511_cont_8to1_c_491_21_alg».proof.Proof.RefValue
import proofs.«216449_g46943992545511_cont_8to1_c_491_21_alg».proof.Proof.Region2Product

noncomputable section

namespace Cert.KernelIdeal.Bridge

open Cert.KernelIdeal Cert.KernelIdeal.Gen
open Idealize.ShloMosaic Idealize.ShloMosaic.ValueIdx
open scoped BigOperators

/-- The scores as a function of head, row and column. -/
abbrev scoreFn (attn : FVec Ideal S1x16x2048x2048 .f32) : Fin 16 → Fin 2048 → Fin 2048 → EReal :=
  fun h r c => attn (ix4 (0 : Fin 1) h r c)

/-- The 0/1 matrix of "column c lies in window w", spelt out. -/
theorem mask_ite (c : Fin 2048) (w : Fin 128) :
    (if w.val < 31 ∧ 4 ≤ c.val ∧ c.val < 1988 ∧ (c.val - 4) / 64 = w.val then (1 : EReal) else 0) = Spec.mask c w := rfl

/-- The reshape drops the leading unit axis. -/
theorem reshape_apply (attn : FVec Ideal S1x16x2048x2048 .f32) (h : Fin 16) (r c : Fin 2048) :
    shapeCast S16x2048x2048 attn shapeCasts_S1x16x2048x2048_S16x2048x2048 (ix3 h r c) = attn (ix4 (0 : Fin 1) h r c) := by
  refine shapeCast_apply attn _ (ix3 h r c) (ix4 (0 : Fin 1) h r c) ?_
  rw [Shape.rowMajor_val_four, Shape.rowMajor_val_three]
  show ((0 * 16 + h.val) * 2048 + r.val) * 2048 + c.val = (h.val * 2048 + r.val) * 2048 + c.val
  omega

section
variable (attn : FVec Ideal S1x16x2048x2048 .f32) (A : FVec Ideal S16x2048x2048 .f32)
  (x0 : Vec Ideal S9x128 .f32) (x1 : Vec Ideal S114688 .f32)

/-- Heads 0 to 8: the rows in two halves, then the 0/1 matrix — the window score. -/
theorem plane0_low
    (hA : ∀ (h : Fin 16) (r c : Fin 2048), A (ix3 h r c) = attn (ix4 (0 : Fin 1) h r c))
    (h0 : ∀ (h : Fin 9) (w : Fin 128), (x0 (ix2 h w) : EReal)
      = ∑ c : Fin 2048, (∑ q : Fin 2, ∑ r : Fin 1024,
          A (ix3 (⟨h.val, by omega⟩ : Fin 16) (⟨1024 * q.val + r.val, by omega⟩ : Fin 2048) c)) * Spec.mask c w)
    (h : Fin 16) (hh : h.val < 9) (w : Fin 128) (hw : w.val < 31) :
    (x0 (ix2 (⟨h.val, hh⟩ : Fin 9) w) : EReal) = Spec.winScore (scoreFn attn) h ⟨w.val, hw⟩ := by
  rw [h0, ← Spec.winScore_eq_halves (scoreFn attn) h w hw]
  refine Finset.sum_congr rfl fun c _ => congrArg (· * Spec.mask c w) ?_
  refine Finset.sum_congr rfl fun q _ => Finset.sum_congr rfl fun r _ => ?_
  exact hA _ _ _

/-- Heads 9 to 15: the rows band by band and chunk by chunk, the bands summed, then the 0/1 matrix — the window
    score. -/
theorem plane0_high
    (hA : ∀ (h : Fin 16) (r c : Fin 2048), A (ix3 h r c) = attn (ix4 (0 : Fin 1) h r c))
    (h1 : ∀ (k : Fin 7) (b : Fin 8) (c : Fin 2048),
      (x1 (ix1 (⟨(k.val * 8 + b.val) * 2048 + c.val, by omega⟩ : Fin 114688)) : EReal)
        = ∑ n : Fin 4, ∑ i : Fin 64,
            A (ix3 (⟨9 + k.val, by omega⟩ : Fin 16) (⟨256 * b.val + 64 * n.val + i.val, by omega⟩ : Fin 2048) c))
    (h6 : ∀ (r : Fin 7) (w : Fin 128), (k2_pay6 x1 (ix2 r w) : EReal)
      = ∑ c : Fin 2048, (∑ b : Fin 8,
          (x1 (ix1 (⟨(r.val * 8 + b.val) * 2048 + c.val, by omega⟩ : Fin 114688)) : EReal)) * Spec.mask c w)
    (h : Fin 16) (hh : ¬ h.val < 9) (w : Fin 128) (hw : w.val < 31) :
    (k2_pay6 x1 (ix2 (⟨h.val - 9, by omega⟩ : Fin 7) w) : EReal)
      = Spec.winScore (scoreFn attn) h ⟨w.val, hw⟩ := by
  have e16 : (⟨9 + (h.val - 9), by omega⟩ : Fin 16) = h := Fin.ext (by show 9 + (h.val - 9) = h.val; omega)
  rw [h6, ← Spec.winScore_eq_bands (scoreFn attn) h w hw]
  refine Finset.sum_congr rfl fun c _ => congrArg (· * Spec.mask c w) ?_
  refine Finset.sum_congr rfl fun b _ => ?_
  rw [h1]
  refine Finset.sum_congr rfl fun n _ => Finset.sum_congr rfl fun i _ => ?_
  refine (hA _ _ _).trans ?_
  exact congrArg (fun z : Fin 16 =>
    attn (ix4 (0 : Fin 1) z (⟨256 * b.val + 64 * n.val + i.val, by omega⟩ : Fin 2048) c)) e16

/-- Entry (h, w, k) of the transposed planes is the reference's entry. -/
theorem kernel_value_at
    (hA : ∀ (h : Fin 16) (r c : Fin 2048), A (ix3 h r c) = attn (ix4 (0 : Fin 1) h r c))
    (h0 : ∀ (h : Fin 9) (w : Fin 128), (x0 (ix2 h w) : EReal)
      = ∑ c : Fin 2048, (∑ q : Fin 2, ∑ r : Fin 1024,
          A (ix3 (⟨h.val, by omega⟩ : Fin 16) (⟨1024 * q.val + r.val, by omega⟩ : Fin 2048) c)) * Spec.mask c w)
    (h1 : ∀ (k : Fin 7) (b : Fin 8) (c : Fin 2048),
      (x1 (ix1 (⟨(k.val * 8 + b.val) * 2048 + c.val, by omega⟩ : Fin 114688)) : EReal)
        = ∑ n : Fin 4, ∑ i : Fin 64,
            A (ix3 (⟨9 + k.val, by omega⟩ : Fin 16) (⟨256 * b.val + 64 * n.val + i.val, by omega⟩ : Fin 2048) c))
    (h : Fin 16) (w : Fin 30000) (k : Fin 3) :
    (transpose S16x30000x3 [1, 2, 0] (Region2.out2_2 x0 x1) transposes_S3x16x30000_S16x30000x3_1_2_0 (ix3 h w k) : EReal)
      = Cert.ReferenceIdeal.RefValue.Gat attn h w k := by
  rw [transpose_apply [1, 2, 0] (Region2.out2_2 x0 x1) transposes_S3x16x30000_S16x30000x3_1_2_0 (ix3 h w k) (ix3 k h w)
    (fun b => by match b with | ⟨0, _⟩ => rfl | ⟨1, _⟩ => rfl | ⟨2, _⟩ => rfl), Region2.out2_2_apply]
  unfold Cert.ReferenceIdeal.RefValue.Gat
  rcases Cert.ReferenceIdeal.RefValue.fin3_cases k with rfl | rfl | rfl
  · rw [if_pos (show (0 : Fin 3).val = 0 from rfl)]
    by_cases hw : w.val < 31
    · rw [dif_pos hw, dif_pos hw, if_pos rfl]
      by_cases hh : h.val < 9
      · rw [dif_pos hh]
        exact plane0_low attn A x0 hA h0 h hh ⟨w.val, by omega⟩ hw
      · rw [dif_neg hh]
        exact plane0_high attn A x1 hA h1 (fun r w' => Region2.k2_pay6_closed x1 r w') h hh ⟨w.val, by omega⟩ hw
    · rw [dif_neg hw, dif_neg hw]
      rfl
  · rw [if_neg (show ¬ ((1 : Fin 3).val = 0) from by decide)]
    unfold Region2.colPlane
    by_cases hw : w.val < 31
    · rw [if_pos hw, dif_pos hw, if_neg (show ¬ ((1 : Fin 3) = 0) from by decide)]
      show (((BitVec.ofNat 32 w.val).toInt : ℝ) : EReal) = ((w.val : ℝ) : EReal)
      rw [Cert.ReferenceIdeal.RefValue.toInt_row ⟨w.val, hw⟩, Int.cast_natCast]
    · rw [if_neg hw, dif_neg hw]
      rfl
  · rw [if_neg (show ¬ ((2 : Fin 3).val = 0) from by decide)]
    unfold Region2.colPlane
    by_cases hw : w.val < 31
    · rw [if_pos hw, dif_pos hw, if_neg (show ¬ ((2 : Fin 3) = 0) from by decide)]
      show (((BitVec.ofNat 32 w.val).toInt : ℝ) : EReal) = ((w.val : ℝ) : EReal)
      rw [Cert.ReferenceIdeal.RefValue.toInt_row ⟨w.val, hw⟩, Int.cast_natCast]
    · rw [if_neg hw, dif_neg hw]
      rfl

/-- THE KERNEL'S RESULT IS THE REFERENCE'S: given what the first TensorCore step and the tiles leave, as sums of the
    reshaped scores, the transposed planes are the reference's function of the scores (the second TensorCore step's
    product is read in closed form). -/
theorem kernel_value
    (hA : ∀ (h : Fin 16) (r c : Fin 2048), A (ix3 h r c) = attn (ix4 (0 : Fin 1) h r c))
    (h0 : ∀ (h : Fin 9) (w : Fin 128), (x0 (ix2 h w) : EReal)
      = ∑ c : Fin 2048, (∑ q : Fin 2, ∑ r : Fin 1024,
          A (ix3 (⟨h.val, by omega⟩ : Fin 16) (⟨1024 * q.val + r.val, by omega⟩ : Fin 2048) c)) * Spec.mask c w)
    (h1 : ∀ (k : Fin 7) (b : Fin 8) (c : Fin 2048),
      (x1 (ix1 (⟨(k.val * 8 + b.val) * 2048 + c.val, by omega⟩ : Fin 114688)) : EReal)
        = ∑ n : Fin 4, ∑ i : Fin 64,
            A (ix3 (⟨9 + k.val, by omega⟩ : Fin 16) (⟨256 * b.val + 64 * n.val + i.val, by omega⟩ : Fin 2048) c)) :
    (transpose S16x30000x3 [1, 2, 0] (Region2.out2_2 x0 x1) transposes_S3x16x30000_S16x30000x3_1_2_0
        : FVec Ideal S16x30000x3 .f32)
      = Cert.ReferenceIdeal.RefValue.G attn := by
  funext j
  obtain ⟨h, w, k, rfl⟩ : ∃ (h : Fin 16) (w : Fin 30000) (k : Fin 3), j = ix3 h w k := ⟨j 0, j 1, j 2, eq_ix3 j⟩
  exact kernel_value_at attn A x0 x1 hA h0 h1 h w k

/-- The same with the first TensorCore step's column sums taken over all 2048 rows at once: a sum over the rows is
    the sum of its two halves. -/
theorem kernel_value'
    (hA : ∀ (h : Fin 16) (r c : Fin 2048), A (ix3 h r c) = attn (ix4 (0 : Fin 1) h r c))
    (h0' : ∀ (h : Fin 9) (w : Fin 128), (x0 (ix2 h w) : EReal)
      = ∑ c : Fin 2048, (∑ r : Fin 2048, A (ix3 (⟨h.val, by omega⟩ : Fin 16) r c)) * Spec.mask c w)
    (h1 : ∀ (k : Fin 7) (b : Fin 8) (c : Fin 2048),
      (x1 (ix1 (⟨(k.val * 8 + b.val) * 2048 + c.val, by omega⟩ : Fin 114688)) : EReal)
        = ∑ n : Fin 4, ∑ i : Fin 64,
            A (ix3 (⟨9 + k.val, by omega⟩ : Fin 16) (⟨256 * b.val + 64 * n.val + i.val, by omega⟩ : Fin 2048) c)) :
    (transpose S16x30000x3 [1, 2, 0] (Region2.out2_2 x0 x1) transposes_S3x16x30000_S16x30000x3_1_2_0
        : FVec Ideal S16x30000x3 .f32)
      = Cert.ReferenceIdeal.RefValue.G attn :=
  kernel_value attn A x0 x1 hA
    (fun h w => (h0' h w).trans (Finset.sum_congr rfl fun c _ => congrArg (· * Spec.mask c w)
      (Spec.rows_split2 (fun r => A (ix3 (⟨h.val, by omega⟩ : Fin 16) r c))).symm))
    h1

end

/-- The same with the reshaped scores spelt as the reshape of the scores, and the tiles' sums allowed their zero
    start. -/
theorem kernel_value_reshape (attn : FVec Ideal S1x16x2048x2048 .f32) (x0 : Vec Ideal S9x128 .f32)
    (x1 : Vec Ideal S114688 .f32)
    (h0 : ∀ (h : Fin 9) (w : Fin 128), (x0 (ix2 h w) : EReal)
      = ∑ c : Fin 2048, (∑ q : Fin 2, ∑ r : Fin 1024,
          shapeCast S16x2048x2048 attn shapeCasts_S1x16x2048x2048_S16x2048x2048
            (ix3 (⟨h.val, by omega⟩ : Fin 16) (⟨1024 * q.val + r.val, by omega⟩ : Fin 2048) c)) * Spec.mask c w)
    (h1 : ∀ (k : Fin 7) (b : Fin 8) (c : Fin 2048),
      (x1 (ix1 (⟨(k.val * 8 + b.val) * 2048 + c.val, by omega⟩ : Fin 114688)) : EReal)
        = 0 + ∑ n : Fin 4, ∑ i : Fin 64,
            shapeCast S16x2048x2048 attn shapeCasts_S1x16x2048x2048_S16x2048x2048
              (ix3 (⟨9 + k.val, by omega⟩ : Fin 16) (⟨256 * b.val + 64 * n.val + i.val, by omega⟩ : Fin 2048) c)) :
    (transpose S16x30000x3 [1, 2, 0] (Region2.out2_2 x0 x1) transposes_S3x16x30000_S16x30000x3_1_2_0
        : FVec Ideal S16x30000x3 .f32)
      = Cert.ReferenceIdeal.RefValue.G attn :=
  kernel_value attn (shapeCast S16x2048x2048 attn shapeCasts_S1x16x2048x2048_S16x2048x2048) x0 x1
    (reshape_apply attn) h0 (fun k b c => (h1 k b c).trans (zero_add _))

/-- … and with the first TensorCore step's column sums taken over all 2048 rows at once. -/
theorem kernel_value_reshape' (attn : FVec Ideal S1x16x2048x2048 .f32) (x0 : Vec Ideal S9x128 .f32)
    (x1 : Vec Ideal S114688 .f32)
    (h0' : ∀ (h : Fin 9) (w : Fin 128), (x0 (ix2 h w) : EReal)
      = ∑ c : Fin 2048, (∑ r : Fin 2048,
          shapeCast S16x2048x2048 attn shapeCasts_S1x16x2048x2048_S16x2048x2048
            (ix3 (⟨h.val, by omega⟩ : Fin 16) r c)) * Spec.mask c w)
    (h1 : ∀ (k : Fin 7) (b : Fin 8) (c : Fin 2048),
      (x1 (ix1 (⟨(k.val * 8 + b.val) * 2048 + c.val, by omega⟩ : Fin 114688)) : EReal)
        = 0 + ∑ n : Fin 4, ∑ i : Fin 64,
            shapeCast S16x2048x2048 attn shapeCasts_S1x16x2048x2048_S16x2048x2048
              (ix3 (⟨9 + k.val, by omega⟩ : Fin 16) (⟨256 * b.val + 64 * n.val + i.val, by omega⟩ : Fin 2048) c)) :
    (transpose S16x30000x3 [1, 2, 0] (Region2.out2_2 x0 x1) transposes_S3x16x30000_S16x30000x3_1_2_0
        : FVec Ideal S16x30000x3 .f32)
      = Cert.ReferenceIdeal.RefValue.G attn :=
  kernel_value' attn (shapeCast S16x2048x2048 attn shapeCasts_S1x16x2048x2048_S16x2048x2048) x0 x1
    (reshape_apply attn) h0' (fun k b c => (h1 k b c).trans (zero_add _))

end Cert.KernelIdeal.Bridge

end
-- ==== Proof.Region1.MaskBit.lean ====
/-
  The window mask's bit, as words: which of the 2048 columns fall in which of the 128 windows. The kernel computes it
  from the column's and the window's indices by 32-bit integer comparisons and a signed floor division by 64; on the
  indices that occur it is 1 exactly when the window is one of the first 31, the column lies in [4, 1988) and
  (column − 4) div 64 is the window. No program is named here: a mask built by the same operations in another kernel
  reads through the same lemma.
-/
import Idealize.ShloMosaic.PureOps.Ideal

set_option maxRecDepth 100000

namespace Cert.KernelIdeal.MaskBit

open Idealize.ShloMosaic

/-- The mask's bit at column word `x` and window word `y`. -/
def maskBit (x y : BitVec 32) : BitVec 1 :=
  let v18 := IntOp.cmpi .slt y 31#32
  let v20 := IntOp.cmpi .sge x 4#32
  let v21 := IntOp.andi v18 v20
  let v23 := IntOp.cmpi .slt x 1988#32
  let v24 := IntOp.andi v21 v23
  let v26 := IntOp.subi x 4#32
  let v28 := IntOp.divsi .vector v26 64#32
  let v30 := IntOp.cmpi .sgt v26 0#32
  let v31 : BitVec 32 := v30.setWidth 32
  let v33 := IntOp.cmpi .slt v26 0#32
  let v34 : BitVec 32 := v33.setWidth 32
  let v35 := IntOp.subi v31 v34
  let v36 : BitVec 1 := Scalar.cmpi .sgt 64#32 0#32
  let v37 : BitVec 32 := Scalar.extui v36
  let v38 : BitVec 1 := Scalar.cmpi .slt 64#32 0#32
  let v39 : BitVec 32 := Scalar.extui v38
  let v40 : BitVec 32 := Scalar.subi v37 v39
  let v42 := IntOp.cmpi .ne v35 v40
  let v44 := IntOp.remsi .vector v26 64#32
  let v46 := IntOp.cmpi .ne v44 0#32
  let v47 := IntOp.andi v42 v46
  let v49 := IntOp.subi v28 1#32
  let v50 : BitVec 32 := Scalar.select v47 v49 v28
  let v51 := IntOp.cmpi .eq v50 y
  IntOp.andi v24 v51

/-! The closed form, decided case by case, sixty-four columns at a time. -/

theorem maskBit_blk_0 : ∀ j : Fin 64, ∀ w : Fin 128,
    maskBit (BitVec.ofNat 32 (64 * 0 + j.val)) (BitVec.ofNat 32 w.val)
      = if w.val < 31 ∧ 4 ≤ 64 * 0 + j.val ∧ 64 * 0 + j.val < 1988 ∧ (64 * 0 + j.val - 4) / 64 = w.val then 1#1 else 0#1 := by
  decide +kernel
theorem maskBit_blk_1 : ∀ j : Fin 64, ∀ w : Fin 128,
    maskBit (BitVec.ofNat 32 (64 * 1 + j.val)) (BitVec.ofNat 32 w.val)
      = if w.val < 31 ∧ 4 ≤ 64 * 1 + j.val ∧ 64 * 1 + j.val < 1988 ∧ (64 * 1 + j.val - 4) / 64 = w.val then 1#1 else 0#1 := by
  decide +kernel
theorem maskBit_blk_2 : ∀ j : Fin 64, ∀ w : Fin 128,
    maskBit (BitVec.ofNat 32 (64 * 2 + j.val)) (BitVec.ofNat 32 w.val)
      = if w.val < 31 ∧ 4 ≤ 64 * 2 + j.val ∧ 64 * 2 + j.val < 1988 ∧ (64 * 2 + j.val - 4) / 64 = w.val then 1#1 else 0#1 := by
  decide +kernel
theorem maskBit_blk_3 : ∀ j : Fin 64, ∀ w : Fin 128,
    maskBit (BitVec.ofNat 32 (64 * 3 + j.val)) (BitVec.ofNat 32 w.val)
      = if w.val < 31 ∧ 4 ≤ 64 * 3 + j.val ∧ 64 * 3 + j.val < 1988 ∧ (64 * 3 + j.val - 4) / 64 = w.val then 1#1 else 0#1 := by
  decide +kernel
theorem maskBit_blk_4 : ∀ j : Fin 64, ∀ w : Fin 128,
    maskBit (BitVec.ofNat 32 (64 * 4 + j.val)) (BitVec.ofNat 32 w.val)
      = if w.val < 31 ∧ 4 ≤ 64 * 4 + j.val ∧ 64 * 4 + j.val < 1988 ∧ (64 * 4 + j.val - 4) / 64 = w.val then 1#1 else 0#1 := by
  decide +kernel
theorem maskBit_blk_5 : ∀ j : Fin 64, ∀ w : Fin 128,
    maskBit (BitVec.ofNat 32 (64 * 5 + j.val)) (BitVec.ofNat 32 w.val)
      = if w.val < 31 ∧ 4 ≤ 64 * 5 + j.val ∧ 64 * 5 + j.val < 1988 ∧ (64 * 5 + j.val - 4) / 64 = w.val then 1#1 else 0#1 := by
  decide +kernel
theorem maskBit_blk_6 : ∀ j : Fin 64, ∀ w : Fin 128,
    maskBit (BitVec.ofNat 32 (64 * 6 + j.val)) (BitVec.ofNat 32 w.val)
      = if w.val < 31 ∧ 4 ≤ 64 * 6 + j.val ∧ 64 * 6 + j.val < 1988 ∧ (64 * 6 + j.val - 4) / 64 = w.val then 1#1 else 0#1 := by
  decide +kernel
theorem maskBit_blk_7 : ∀ j : Fin 64, ∀ w : Fin 128,
    maskBit (BitVec.ofNat 32 (64 * 7 + j.val)) (BitVec.ofNat 32 w.val)
      = if w.val < 31 ∧ 4 ≤ 64 * 7 + j.val ∧ 64 * 7 + j.val < 1988 ∧ (64 * 7 + j.val - 4) / 64 = w.val then 1#1 else 0#1 := by
  decide +kernel
theorem maskBit_blk_8 : ∀ j : Fin 64, ∀ w : Fin 128,
    maskBit (BitVec.ofNat 32 (64 * 8 + j.val)) (BitVec.ofNat 32 w.val)
      = if w.val < 31 ∧ 4 ≤ 64 * 8 + j.val ∧ 64 * 8 + j.val < 1988 ∧ (64 * 8 + j.val - 4) / 64 = w.val then 1#1 else 0#1 := by
  decide +kernel
theorem maskBit_blk_9 : ∀ j : Fin 64, ∀ w : Fin 128,
    maskBit (BitVec.ofNat 32 (64 * 9 + j.val)) (BitVec.ofNat 32 w.val)
      = if w.val < 31 ∧ 4 ≤ 64 * 9 + j.val ∧ 64 * 9 + j.val < 1988 ∧ (64 * 9 + j.val - 4) / 64 = w.val then 1#1 else 0#1 := by
  decide +kernel
theorem maskBit_blk_10 : ∀ j : Fin 64, ∀ w : Fin 128,
    maskBit (BitVec.ofNat 32 (64 * 10 + j.val)) (BitVec.ofNat 32 w.val)
      = if w.val < 31 ∧ 4 ≤ 64 * 10 + j.val ∧ 64 * 10 + j.val < 1988 ∧ (64 * 10 + j.val - 4) / 64 = w.val then 1#1 else 0#1 := by
  decide +kernel
theorem maskBit_blk_11 : ∀ j : Fin 64, ∀ w : Fin 128,
    maskBit (BitVec.ofNat 32 (64 * 11 + j.val)) (BitVec.ofNat 32 w.val)
      = if w.val < 31 ∧ 4 ≤ 64 * 11 + j.val ∧ 64 * 11 + j.val < 1988 ∧ (64 * 11 + j.val - 4) / 64 = w.val then 1#1 else 0#1 := by
  decide +kernel
theorem maskBit_blk_12 : ∀ j : Fin 64, ∀ w : Fin 128,
    maskBit (BitVec.ofNat 32 (64 * 12 + j.val)) (BitVec.ofNat 32 w.val)
      = if w.val < 31 ∧ 4 ≤ 64 * 12 + j.val ∧ 64 * 12 + j.val < 1988 ∧ (64 * 12 + j.val - 4) / 64 = w.val then 1#1 else 0#1 := by
  decide +kernel
theorem maskBit_blk_13 : ∀ j : Fin 64, ∀ w : Fin 128,
    maskBit (BitVec.ofNat 32 (64 * 13 + j.val)) (BitVec.ofNat 32 w.val)
      = if w.val < 31 ∧ 4 ≤ 64 * 13 + j.val ∧ 64 * 13 + j.val < 1988 ∧ (64 * 13 + j.val - 4) / 64 = w.val then 1#1 else 0#1 := by
  decide +kernel
theorem maskBit_blk_14 : ∀ j : Fin 64, ∀ w : Fin 128,
    maskBit (BitVec.ofNat 32 (64 * 14 + j.val)) (BitVec.ofNat 32 w.val)
      = if w.val < 31 ∧ 4 ≤ 64 * 14 + j.val ∧ 64 * 14 + j.val < 1988 ∧ (64 * 14 + j.val - 4) / 64 = w.val then 1#1 else 0#1 := by
  decide +kernel
theorem maskBit_blk_15 : ∀ j : Fin 64, ∀ w : Fin 128,
    maskBit (BitVec.ofNat 32 (64 * 15 + j.val)) (BitVec.ofNat 32 w.val)
      = if w.val < 31 ∧ 4 ≤ 64 * 15 + j.val ∧ 64 * 15 + j.val < 1988 ∧ (64 * 15 + j.val - 4) / 64 = w.val then 1#1 else 0#1 := by
  decide +kernel
theorem maskBit_blk_16 : ∀ j : Fin 64, ∀ w : Fin 128,
    maskBit (BitVec.ofNat 32 (64 * 16 + j.val)) (BitVec.ofNat 32 w.val)
      = if w.val < 31 ∧ 4 ≤ 64 * 16 + j.val ∧ 64 * 16 + j.val < 1988 ∧ (64 * 16 + j.val - 4) / 64 = w.val then 1#1 else 0#1 := by
  decide +kernel
theorem maskBit_blk_17 : ∀ j : Fin 64, ∀ w : Fin 128,
    maskBit (BitVec.ofNat 32 (64 * 17 + j.val)) (BitVec.ofNat 32 w.val)
      = if w.val < 31 ∧ 4 ≤ 64 * 17 + j.val ∧ 64 * 17 + j.val < 1988 ∧ (64 * 17 + j.val - 4) / 64 = w.val then 1#1 else 0#1 := by
  decide +kernel
theorem maskBit_blk_18 : ∀ j : Fin 64, ∀ w : Fin 128,
    maskBit (BitVec.ofNat 32 (64 * 18 + j.val)) (BitVec.ofNat 32 w.val)
      = if w.val < 31 ∧ 4 ≤ 64 * 18 + j.val ∧ 64 * 18 + j.val < 1988 ∧ (64 * 18 + j.val - 4) / 64 = w.val then 1#1 else 0#1 := by
  decide +kernel
theorem maskBit_blk_19 : ∀ j : Fin 64, ∀ w : Fin 128,
    maskBit (BitVec.ofNat 32 (64 * 19 + j.val)) (BitVec.ofNat 32 w.val)
      = if w.val < 31 ∧ 4 ≤ 64 * 19 + j.val ∧ 64 * 19 + j.val < 1988 ∧ (64 * 19 + j.val - 4) / 64 = w.val then 1#1 else 0#1 := by
  decide +kernel
theorem maskBit_blk_20 : ∀ j : Fin 64, ∀ w : Fin 128,
    maskBit (BitVec.ofNat 32 (64 * 20 + j.val)) (BitVec.ofNat 32 w.val)
      = if w.val < 31 ∧ 4 ≤ 64 * 20 + j.val ∧ 64 * 20 + j.val < 1988 ∧ (64 * 20 + j.val - 4) / 64 = w.val then 1#1 else 0#1 := by
  decide +kernel
theorem maskBit_blk_21 : ∀ j : Fin 64, ∀ w : Fin 128,
    maskBit (BitVec.ofNat 32 (64 * 21 + j.val)) (BitVec.ofNat 32 w.val)
      = if w.val < 31 ∧ 4 ≤ 64 * 21 + j.val ∧ 64 * 21 + j.val < 1988 ∧ (64 * 21 + j.val - 4) / 64 = w.val then 1#1 else 0#1 := by
  decide +kernel
theorem maskBit_blk_22 : ∀ j : Fin 64, ∀ w : Fin 128,
    maskBit (BitVec.ofNat 32 (64 * 22 + j.val)) (BitVec.ofNat 32 w.val)
      = if w.val < 31 ∧ 4 ≤ 64 * 22 + j.val ∧ 64 * 22 + j.val < 1988 ∧ (64 * 22 + j.val - 4) / 64 = w.val then 1#1 else 0#1 := by
  decide +kernel
theorem maskBit_blk_23 : ∀ j : Fin 64, ∀ w : Fin 128,
    maskBit (BitVec.ofNat 32 (64 * 23 + j.val)) (BitVec.ofNat 32 w.val)
      = if w.val < 31 ∧ 4 ≤ 64 * 23 + j.val ∧ 64 * 23 + j.val < 1988 ∧ (64 * 23 + j.val - 4) / 64 = w.val then 1#1 else 0#1 := by
  decide +kernel
theorem maskBit_blk_24 : ∀ j : Fin 64, ∀ w : Fin 128,
    maskBit (BitVec.ofNat 32 (64 * 24 + j.val)) (BitVec.ofNat 32 w.val)
      = if w.val < 31 ∧ 4 ≤ 64 * 24 + j.val ∧ 64 * 24 + j.val < 1988 ∧ (64 * 24 + j.val - 4) / 64 = w.val then 1#1 else 0#1 := by
  decide +kernel
theorem maskBit_blk_25 : ∀ j : Fin 64, ∀ w : Fin 128,
    maskBit (BitVec.ofNat 32 (64 * 25 + j.val)) (BitVec.ofNat 32 w.val)
      = if w.val < 31 ∧ 4 ≤ 64 * 25 + j.val ∧ 64 * 25 + j.val < 1988 ∧ (64 * 25 + j.val - 4) / 64 = w.val then 1#1 else 0#1 := by
  decide +kernel
theorem maskBit_blk_26 : ∀ j : Fin 64, ∀ w : Fin 128,
    maskBit (BitVec.ofNat 32 (64 * 26 + j.val)) (BitVec.ofNat 32 w.val)
      = if w.val < 31 ∧ 4 ≤ 64 * 26 + j.val ∧ 64 * 26 + j.val < 1988 ∧ (64 * 26 + j.val - 4) / 64 = w.val then 1#1 else 0#1 := by
  decide +kernel
theorem maskBit_blk_27 : ∀ j : Fin 64, ∀ w : Fin 128,
    maskBit (BitVec.ofNat 32 (64 * 27 + j.val)) (BitVec.ofNat 32 w.val)
      = if w.val < 31 ∧ 4 ≤ 64 * 27 + j.val ∧ 64 * 27 + j.val < 1988 ∧ (64 * 27 + j.val - 4) / 64 = w.val then 1#1 else 0#1 := by
  decide +kernel
theorem maskBit_blk_28 : ∀ j : Fin 64, ∀ w : Fin 128,
    maskBit (BitVec.ofNat 32 (64 * 28 + j.val)) (BitVec.ofNat 32 w.val)
      = if w.val < 31 ∧ 4 ≤ 64 * 28 + j.val ∧ 64 * 28 + j.val < 1988 ∧ (64 * 28 + j.val - 4) / 64 = w.val then 1#1 else 0#1 := by
  decide +kernel
theorem maskBit_blk_29 : ∀ j : Fin 64, ∀ w : Fin 128,
    maskBit (BitVec.ofNat 32 (64 * 29 + j.val)) (BitVec.ofNat 32 w.val)
      = if w.val < 31 ∧ 4 ≤ 64 * 29 + j.val ∧ 64 * 29 + j.val < 1988 ∧ (64 * 29 + j.val - 4) / 64 = w.val then 1#1 else 0#1 := by
  decide +kernel
theorem maskBit_blk_30 : ∀ j : Fin 64, ∀ w : Fin 128,
    maskBit (BitVec.ofNat 32 (64 * 30 + j.val)) (BitVec.ofNat 32 w.val)
      = if w.val < 31 ∧ 4 ≤ 64 * 30 + j.val ∧ 64 * 30 + j.val < 1988 ∧ (64 * 30 + j.val - 4) / 64 = w.val then 1#1 else 0#1 := by
  decide +kernel
theorem maskBit_blk_31 : ∀ j : Fin 64, ∀ w : Fin 128,
    maskBit (BitVec.ofNat 32 (64 * 31 + j.val)) (BitVec.ofNat 32 w.val)
      = if w.val < 31 ∧ 4 ≤ 64 * 31 + j.val ∧ 64 * 31 + j.val < 1988 ∧ (64 * 31 + j.val - 4) / 64 = w.val then 1#1 else 0#1 := by
  decide +kernel

/-- The bit in closed form, on every column and window index that occurs. -/
theorem maskBit_eq_nat (n : ℕ) (hn : n < 2048) (w : Fin 128) :
    maskBit (BitVec.ofNat 32 n) (BitVec.ofNat 32 w.val)
      = if w.val < 31 ∧ 4 ≤ n ∧ n < 1988 ∧ (n - 4) / 64 = w.val then 1#1 else 0#1 := by
  obtain ⟨k, j, hk, hj, rfl⟩ : ∃ k j, k < 32 ∧ j < 64 ∧ n = 64 * k + j :=
    ⟨n / 64, n % 64, by omega, Nat.mod_lt _ (by decide), (Nat.div_add_mod n 64).symm⟩
  match k, hk with
  | 0, _ => exact maskBit_blk_0 ⟨j, hj⟩ w
  | 1, _ => exact maskBit_blk_1 ⟨j, hj⟩ w
  | 2, _ => exact maskBit_blk_2 ⟨j, hj⟩ w
  | 3, _ => exact maskBit_blk_3 ⟨j, hj⟩ w
  | 4, _ => exact maskBit_blk_4 ⟨j, hj⟩ w
  | 5, _ => exact maskBit_blk_5 ⟨j, hj⟩ w
  | 6, _ => exact maskBit_blk_6 ⟨j, hj⟩ w
  | 7, _ => exact maskBit_blk_7 ⟨j, hj⟩ w
  | 8, _ => exact maskBit_blk_8 ⟨j, hj⟩ w
  | 9, _ => exact maskBit_blk_9 ⟨j, hj⟩ w
  | 10, _ => exact maskBit_blk_10 ⟨j, hj⟩ w
  | 11, _ => exact maskBit_blk_11 ⟨j, hj⟩ w
  | 12, _ => exact maskBit_blk_12 ⟨j, hj⟩ w
  | 13, _ => exact maskBit_blk_13 ⟨j, hj⟩ w
  | 14, _ => exact maskBit_blk_14 ⟨j, hj⟩ w
  | 15, _ => exact maskBit_blk_15 ⟨j, hj⟩ w
  | 16, _ => exact maskBit_blk_16 ⟨j, hj⟩ w
  | 17, _ => exact maskBit_blk_17 ⟨j, hj⟩ w
  | 18, _ => exact maskBit_blk_18 ⟨j, hj⟩ w
  | 19, _ => exact maskBit_blk_19 ⟨j, hj⟩ w
  | 20, _ => exact maskBit_blk_20 ⟨j, hj⟩ w
  | 21, _ => exact maskBit_blk_21 ⟨j, hj⟩ w
  | 22, _ => exact maskBit_blk_22 ⟨j, hj⟩ w
  | 23, _ => exact maskBit_blk_23 ⟨j, hj⟩ w
  | 24, _ => exact maskBit_blk_24 ⟨j, hj⟩ w
  | 25, _ => exact maskBit_blk_25 ⟨j, hj⟩ w
  | 26, _ => exact maskBit_blk_26 ⟨j, hj⟩ w
  | 27, _ => exact maskBit_blk_27 ⟨j, hj⟩ w
  | 28, _ => exact maskBit_blk_28 ⟨j, hj⟩ w
  | 29, _ => exact maskBit_blk_29 ⟨j, hj⟩ w
  | 30, _ => exact maskBit_blk_30 ⟨j, hj⟩ w
  | 31, _ => exact maskBit_blk_31 ⟨j, hj⟩ w
  | k + 32, hk => exact absurd hk (by omega)

theorem maskBit_eq (col : Fin 2048) (w : Fin 128) :
    maskBit (BitVec.ofNat 32 col.val) (BitVec.ofNat 32 w.val)
      = if w.val < 31 ∧ 4 ≤ col.val ∧ col.val < 1988 ∧ (col.val - 4) / 64 = w.val then 1#1 else 0#1 :=
  maskBit_eq_nat col.val col.isLt w

end Cert.KernelIdeal.MaskBit
-- ==== Proof.Region1.Ideal.lean ====
/-
  The first TensorCore region's result at the exact instance (every float an extended real, every operation the
  textbook one): row h, window w of the result array is the sum, over the 2048 columns, of the column's sum over the
  head's 2048 rows times the window mask; and the mask is 1 where the window is one of the first 31, the column lies in
  [4, 1988) and (column − 4) div 64 is the window, 0 elsewhere.
-/
import proofs.«216449_g46943992545511_cont_8to1_c_491_21_alg».proof.Proof.Region1.Final
import Idealize.ShloMosaic.Lib.ValueIdx
import Idealize.ShloMosaic.PureOps.Ideal
import Idealize.ShloMosaic.PureOps.Ideal.Laws
import Idealize.ShloMosaic.PureOps.Reduce
import proofs.«216449_g46943992545511_cont_8to1_c_491_21_alg».proof.Proof.Region1.MaskBit

set_option maxRecDepth 16384

noncomputable section

namespace Cert.KernelIdeal.Region1

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

open Idealize.ShloMosaic.ValueIdx
open scoped BigOperators

/-! ## The window mask, as the body builds it -/

/-- The 0/1 mask f32[2048,128] the body builds from two iotas: column `c` of the accumulator against window `w`. -/
def mask1 : FVec F S2048x128 .f32 :=
  have v15 : IVec S2048x128 32 := iota .tc S2048x128 32 [0] iota_S2048x128_d0_w32
  have v16 : IVec S2048x128 32 := iota .tc S2048x128 32 [1] iota_S2048x128_d1_w32
  have v17 : IVec S2048x128 32 := broadcast S2048x128 31#32
  have v18 : IVec S2048x128 1 := cmpi .slt v16 v17
  have v19 : IVec S2048x128 32 := broadcast S2048x128 4#32
  have v20 : IVec S2048x128 1 := cmpi .sge v15 v19
  have v21 : IVec S2048x128 1 := andi v18 v20
  have v22 : IVec S2048x128 32 := broadcast S2048x128 1988#32
  have v23 : IVec S2048x128 1 := cmpi .slt v15 v22
  have v24 : IVec S2048x128 1 := andi v21 v23
  have v25 : IVec S2048x128 32 := broadcast S2048x128 4#32
  have v26 : IVec S2048x128 32 := subi v15 v25
  have v27 : IVec S2048x128 32 := broadcast S2048x128 64#32
  have v28 : IVec S2048x128 32 := divsi v26 v27
  have v29 : IVec S2048x128 32 := broadcast S2048x128 0#32
  have v30 : IVec S2048x128 1 := cmpi .sgt v26 v29
  have v31 : IVec S2048x128 32 := extui 32 v30 natLt_1_32
  have v32 : IVec S2048x128 32 := broadcast S2048x128 0#32
  have v33 : IVec S2048x128 1 := cmpi .slt v26 v32
  have v34 : IVec S2048x128 32 := extui 32 v33 natLt_1_32
  have v35 : IVec S2048x128 32 := subi v31 v34
  let v36 : BitVec 1 := Scalar.cmpi .sgt 64#32 0#32
  let v37 : BitVec 32 := Scalar.extui v36
  let v38 : BitVec 1 := Scalar.cmpi .slt 64#32 0#32
  let v39 : BitVec 32 := Scalar.extui v38
  let v40 : BitVec 32 := Scalar.subi v37 v39
  have v41 : IVec S2048x128 32 := broadcast S2048x128 v40
  have v42 : IVec S2048x128 1 := cmpi .ne v35 v41
  have v43 : IVec S2048x128 32 := broadcast S2048x128 64#32
  have v44 : IVec S2048x128 32 := remsi v26 v43
  have v45 : IVec S2048x128 32 := broadcast S2048x128 0#32
  have v46 : IVec S2048x128 1 := cmpi .ne v44 v45
  have v47 : IVec S2048x128 1 := andi v42 v46
  have v48 : IVec S2048x128 32 := broadcast S2048x128 1#32
  have v49 : IVec S2048x128 32 := subi v28 v48
  have v50 : IVec S2048x128 32 := select v47 v49 v28
  have v51 : IVec S2048x128 1 := cmpi .eq v50 v16
  have v52 : IVec S2048x128 1 := andi v24 v51
  have v53 : IVec S2048x128 32 := extui 32 v52 natLt_1_32
  have v54 : FVec F S2048x128 .f32 := sitofp .f32 v53
  v54

/-- The product row the body stores: the accumulator times the mask, over a zero accumulator. -/
theorem pay3_eq (v : Vec F S1x2048 .f32) :
    k1_pay3 v = matmul dot_S1x2048_S2048x128_S1x128_1_0_0_1_n_n none v (mask1 (F := F)) (constant S1x128 .f32 0x00000000#32) := rfl

/-! ## The contraction's index maps -/

abbrev D1 := dot_S1x2048_S2048x128_S1x128_1_0_0_1_n_n

theorem lhsD1_1 (j : S1x128.Idx) (k : D1.contr.Idx) : (D1.lhsIdx j k 1 : ℕ) = k ⟨0, by decide⟩ := by
  simp [DotDims.lhsIdx, D1, dot_S1x2048_S2048x128_S1x128_1_0_0_1_n_n]; rfl
theorem rhsD1_0 (j : S1x128.Idx) (k : D1.contr.Idx) : (D1.rhsIdx j k 0 : ℕ) = k ⟨0, by decide⟩ := by
  simp [DotDims.rhsIdx, D1, dot_S1x2048_S2048x128_S1x128_1_0_0_1_n_n]; rfl
theorem rhsD1_1 (j : S1x128.Idx) (k : D1.contr.Idx) : (D1.rhsIdx j k 1 : ℕ) = j 1 := by
  simp [DotDims.rhsIdx, D1, dot_S1x2048_S2048x128_S1x128_1_0_0_1_n_n]; rfl

/-- The contraction runs over the 2048 columns. -/
def contrD1 : D1.contr.Idx ≃ Fin 2048 := contrEquiv1 D1 2048 (by decide) (by decide)

/-! ## The body's arithmetic at `Ideal`, read at an index -/

/-- The zero row. -/
theorem pay1_apply (i : S1x2048.Idx) : k1_pay1 (F := Ideal) i = 0 := by
  unfold k1_pay1
  rw [shapeCast_self]
  exact Ideal.ofBits_zero_f32

theorem lift1_0 (col : Fin 2048) (k : Fin (S1024x2048.size 0)) :
    ((reduces_S1024x2048_S2048.lift (ix1 col) k) 0).val = k.val := by
  rw [Shape.Reduces.lift_val]; unfold Shape.Reduces.liftVal; rw [dif_pos rfl]
theorem lift1_1 (col : Fin 2048) (k : Fin (S1024x2048.size 0)) :
    ((reduces_S1024x2048_S2048.lift (ix1 col) k) 1).val = col.val := by
  rw [Shape.Reduces.lift_val]; unfold Shape.Reduces.liftVal
  rw [dif_neg (by decide), dif_neg (by decide)]; rfl

/-- The accumulator's update: column `col` gains the sum of the block's column `col`. -/
theorem pay2_apply (v3 : Vec Ideal S1x2048 .f32) (v4 : Vec Ideal S1x1024x2048 .f32) (col : Fin 2048) :
    k1_pay2 (F := Ideal) v3 v4 (ix2 (0 : Fin 1) col) = v3 (ix2 (0 : Fin 1) col) + ∑ r : Fin 1024, v4 (ix3 (0 : Fin 1) r col) := by
  unfold k1_pay2
  dsimp only
  rw [shapeCast_self, addf_apply]
  congr 1
  rw [shapeCast_apply _ _ (ix2 (0 : Fin 1) col) (ix1 col) (by
    rw [Shape.rowMajor_val_one, Shape.rowMajor_val_two]; show col.val = 0 * 2048 + col.val; omega)]
  show Ideal.reduceAdd reduces_S1024x2048_S2048 _ (ix1 col) = _
  unfold Ideal.reduceAdd
  rw [Shape.Reduces.sum_filter_drop_single]
  show (∑ k : Fin 1024, shapeCast S1024x2048 v4 shapeCasts_S1x1024x2048_S1024x2048 (reduces_S1024x2048_S2048.lift (ix1 col) k)) = _
  refine Finset.sum_congr rfl fun r _ => ?_
  refine shapeCast_apply _ _ _ (ix3 (0 : Fin 1) r col) ?_
  rw [Shape.rowMajor_val_three, Shape.rowMajor_val_two]
  have e0 : ((reduces_S1024x2048_S2048.lift (ix1 col) r) 0).val = r.val := lift1_0 col r
  have e1 : ((reduces_S1024x2048_S2048.lift (ix1 col) r) 1).val = col.val := lift1_1 col r
  rw [e0, e1]
  show (0 * 1024 + r.val) * 2048 + col.val = r.val * 2048 + col.val
  omega

/-- The product row: window `w` is the accumulator's columns against the mask's column `w`. -/
theorem pay3_apply (v : Vec Ideal S1x2048 .f32) (w : Fin 128) :
    k1_pay3 (F := Ideal) v (ix2 (0 : Fin 1) w) = ∑ col : Fin 2048, v (ix2 (0 : Fin 1) col) * mask1 (F := Ideal) (ix2 col w) := by
  rw [pay3_eq]
  show Ideal.matmul D1 v (mask1 (F := Ideal)) _ (ix2 (0 : Fin 1) w) = _
  unfold Ideal.matmul
  rw [constant_apply, Ideal.ofBits_zero_f32, zero_add, ← Equiv.sum_comp contrD1.symm]
  refine Finset.sum_congr rfl fun col _ => ?_
  have hk : ((contrD1.symm col) ⟨0, by decide⟩ : ℕ) = col.val := contrEquiv1_symm_val D1 2048 (by decide) (by decide) col
  have e1 : D1.lhsIdx (ix2 (0 : Fin 1) w) (contrD1.symm col) = ix2 (0 : Fin 1) col := by
    funext a; apply Fin.ext
    match a with
    | ⟨0, _⟩ => exact (Nat.lt_one_iff.mp (D1.lhsIdx (ix2 (0 : Fin 1) w) (contrD1.symm col) 0).isLt).trans (Nat.lt_one_iff.mp ((ix2 (0 : Fin 1) col : S1x2048.Idx) 0).isLt).symm
    | ⟨1, _⟩ => exact (lhsD1_1 _ _).trans hk
  have e2 : D1.rhsIdx (ix2 (0 : Fin 1) w) (contrD1.symm col) = ix2 col w := by
    funext a; apply Fin.ext
    match a with
    | ⟨0, _⟩ => exact (rhsD1_0 _ _).trans hk
    | ⟨1, _⟩ => exact (rhsD1_1 _ _)
  rw [e1, e2]

/-- The mask read at an index is its bit, converted. -/
theorem mask1_eq_bit (i : S2048x128.Idx) :
    mask1 (F := F) i = FloatOps.sitofp .f32 ((MaskBit.maskBit (BitVec.ofNat 32 (i 0).val) (BitVec.ofNat 32 (i 1).val)).setWidth 32) := by
  have h0 := iota_single_apply .tc S2048x128 32 0 iota_S2048x128_d0_w32 i
  have h1 := iota_single_apply .tc S2048x128 32 1 iota_S2048x128_d1_w32 i
  unfold mask1 MaskBit.maskBit
  simp only [sitofp, extui, andi, cmpi, select, subi, divsi, remsi, broadcast]
  rw [h0, h1]

/-! ## The blocks as parts of the operand -/

/-- The input window's block index at point `t`: head `t / 2`, half `t % 2`, all columns. -/
theorem index1_0 : ∀ t : Fin cfg1.N, win1_0.index t 0 = t.val / 2 ∧ win1_0.index t 1 = t.val % 2 ∧ win1_0.index t 2 = 0 :=
  (by decide +kernel : ∀ t : Fin grid1.N, win1_0.index t 0 = t.val / 2 ∧ win1_0.index t 1 = t.val % 2 ∧ win1_0.index t 2 = 0)

variable (V : (c : Dev nD) → (b : Ref sig .tc) → Buf (Elt F) ((c : Thread nD τ).loc b))

/-- The block at point `t` is rows `1024 (t % 2) …` of head `t / 2` of the operand. -/
theorem iblk1_apply (c : Dev nD) (t : Fin cfg1.N) (r : Fin 1024) (col : Fin 2048) (hh : Fin 16) (rr : Fin 2048)
    (h1 : hh.val = t.val / 2) (h2 : rr.val = 1024 * (t.val % 2) + r.val) :
    iblk1 V c t (ix3 (0 : Fin 1) r col) = V c main_v0 (ix3 hh rr col) := by
  obtain ⟨i0, i1, i2⟩ := index1_0 t
  unfold iblk1
  rw [View.read_apply]
  show V c main_v0 _ = V c main_v0 _
  congr 1
  funext a
  apply Fin.ext
  match a with
  | ⟨0, _⟩ => show win1_0.index t 0 * 1 + 1 * 0 = hh.val; rw [i0, h1]; omega
  | ⟨1, _⟩ => show win1_0.index t 1 * 1024 + 1 * r.val = rr.val; rw [i1, h2]; omega
  | ⟨2, _⟩ => show win1_0.index t 2 * 2048 + 1 * col.val = col.val; rw [i2]; omega

/-! ## The result array at `Ideal` -/

variable (VI : (c : Dev nD) → (b : Ref sig .tc) → Buf (Elt Ideal) ((c : Thread nD τ).loc b))

theorem head_lt (h : Fin 9) : h.val < 16 := by have := h.isLt; omega

/-- The operand attn f32[16,2048,2048] as the region finds it, at head `hh`, row `rr`, column `col`. -/
def opnd (c : Dev nD) (hh : Fin 16) (rr col : Fin 2048) : EReal := VI c main_v0 (ix3 hh rr col)

/-- The accumulator after head `h`'s two points, at column `col`: the sum of that column over the head's 2048 rows. -/
theorem accB_apply (c : Dev nD) (h : Fin 9) (col : Fin 2048) :
    accB (F := Ideal) VI c (rowPt h) (ix2 (0 : Fin 1) col)
      = ∑ rr : Fin 2048, opnd VI c ⟨h.val, head_lt h⟩ rr col := by
  unfold accB accA
  rw [pay2_apply, pay2_apply, pay1_apply, zero_add]
  have hs := Fin.sum_univ_add (fun rr : Fin (1024 + 1024) => opnd VI c ⟨h.val, head_lt h⟩ rr col)
  refine Eq.trans ?_ hs.symm
  congr 1
  · refine Finset.sum_congr rfl fun r _ => ?_
    exact iblk1_apply VI c _ r col _ _ (by show h.val = (2 * h.val + 1 - 1) / 2; omega)
      (by show (Fin.castAdd 1024 r).val = 1024 * ((2 * h.val + 1 - 1) % 2) + r.val; rw [Fin.coe_castAdd]; omega)
  · refine Finset.sum_congr rfl fun r _ => ?_
    exact iblk1_apply VI c (rowPt h) r col _ _ (by show h.val = (2 * h.val + 1) / 2; omega)
      (by show (Fin.natAdd 1024 r).val = 1024 * ((2 * h.val + 1) % 2) + r.val; rw [Fin.coe_natAdd]; omega)

/-- The result array at row `h`, window `w`, as an extended real. -/
def win1At (c : Dev nD) (h : Fin 9) (w : Fin 128) : EReal := win1 (F := Ideal) VI c (ix2 h w)

theorem win1At_eq (c : Dev nD) (h : Fin 9) (w : Fin 128) : win1At VI c h w = win1 (F := Ideal) VI c (ix2 h w) := rfl

/-- THE VALUE: row `h`, window `w` of the result array is the sum over the columns of the head's column sums times the
    mask. -/
theorem win1_ideal (c : Dev nD) (h : Fin 9) (w : Fin 128) :
    win1At VI c h w
      = ∑ col : Fin 2048, (∑ rr : Fin 2048, opnd VI c ⟨h.val, head_lt h⟩ rr col) * mask1 (F := Ideal) (ix2 col w) := by
  show rowVal VI c h w = _
  unfold rowVal
  rw [pay3_apply]
  refine Finset.sum_congr rfl fun col _ => ?_
  rw [accB_apply]

/-- The mask at `Ideal`: 1 where the window is one of the first 31, the column lies in [4, 1988) and
    (column − 4) div 64 is the window; 0 elsewhere. -/
theorem mask1_ideal (col : Fin 2048) (w : Fin 128) :
    mask1 (F := Ideal) (ix2 col w)
      = if w.val < 31 ∧ 4 ≤ col.val ∧ col.val < 1988 ∧ (col.val - 4) / 64 = w.val then 1 else 0 := by
  rw [mask1_eq_bit]
  show FloatOps.sitofp (F := Ideal) .f32 ((MaskBit.maskBit (BitVec.ofNat 32 col.val) (BitVec.ofNat 32 w.val)).setWidth 32) = _
  rw [MaskBit.maskBit_eq col w]
  split
  · show ((((1#1 : BitVec 1).setWidth 32).toInt : ℝ) : EReal) = 1
    rw [show ((1#1 : BitVec 1).setWidth 32).toInt = 1 from by decide]; simp
  · show ((((0#1 : BitVec 1).setWidth 32).toInt : ℝ) : EReal) = 0
    rw [show ((0#1 : BitVec 1).setWidth 32).toInt = 0 from by decide]; simp

/-- THE VALUE, the mask summed out: for a window among the first 31, row `h`, window `w` of the result array is the sum
    of the head's column sums over the window's 64 columns `4 + 64 w …`. -/
theorem win1_window (c : Dev nD) (h : Fin 9) (w : Fin 128) (hw : w.val < 31) :
    win1At VI c h w
      = ∑ k : Fin 64, ∑ rr : Fin 2048, opnd VI c ⟨h.val, head_lt h⟩ rr ⟨4 + 64 * w.val + k.val, by have := k.isLt; omega⟩ := by
  rw [win1_ideal]
  simp only [mask1_ideal, mul_ite, mul_one, mul_zero]
  rw [← Finset.sum_filter]
  refine Finset.sum_nbij'
    (fun col : Fin 2048 => (⟨(col.val - (4 + 64 * w.val)) % 64, Nat.mod_lt _ (by decide)⟩ : Fin 64))
    (fun k : Fin 64 => (⟨4 + 64 * w.val + k.val, by have := k.isLt; omega⟩ : Fin 2048)) ?_ ?_ ?_ ?_ ?_
  · intro a _; exact Finset.mem_univ _
  · intro k _
    have := k.isLt
    exact Finset.mem_filter.mpr ⟨Finset.mem_univ _, hw, by show 4 ≤ 4 + 64 * w.val + k.val; omega,
      by show 4 + 64 * w.val + k.val < 1988; omega, by show (4 + 64 * w.val + k.val - 4) / 64 = w.val; omega⟩
  · intro a ha
    obtain ⟨-, -, h4, -, hq⟩ := Finset.mem_filter.mp ha
    apply Fin.ext
    show 4 + 64 * w.val + (a.val - (4 + 64 * w.val)) % 64 = a.val
    omega
  · intro k _
    have := k.isLt
    apply Fin.ext
    show (4 + 64 * w.val + k.val - (4 + 64 * w.val)) % 64 = k.val
    omega
  · intro a ha
    obtain ⟨-, -, h4, -, hq⟩ := Finset.mem_filter.mp ha
    have e : (⟨4 + 64 * w.val + (a.val - (4 + 64 * w.val)) % 64, by have := a.isLt; omega⟩ : Fin 2048) = a :=
      Fin.ext (by show 4 + 64 * w.val + (a.val - (4 + 64 * w.val)) % 64 = a.val; omega)
    show _ = ∑ rr : Fin 2048, opnd VI c ⟨h.val, head_lt h⟩ rr ⟨4 + 64 * w.val + (a.val - (4 + 64 * w.val)) % 64, _⟩
    rw [e]

/-- and for a window past the first 31 it is zero. -/
theorem win1_window_zero (c : Dev nD) (h : Fin 9) (w : Fin 128) (hw : 31 ≤ w.val) :
    win1At VI c h w = 0 := by
  rw [win1_ideal]
  refine Finset.sum_eq_zero fun col _ => ?_
  rw [mask1_ideal, if_neg (by omega), mul_zero]

end Cert.KernelIdeal.Region1

end
-- ==== Proof.TileValue.lean ====
import proofs.«216449_g46943992545511_cont_8to1_c_491_21_alg».proof.Proof.Setup
import proofs.«216449_g46943992545511_cont_8to1_c_491_21_alg».proof.Proof.Gen.KernelIdeal.Skeleton
import Idealize.ShloMosaic.Lib.SparseCore.Launch
import Idealize.ShloMosaic.Lib.Tactic
import proofs.«216449_g46943992545511_cont_8to1_c_491_21_alg».proof.Proof.TileObl
import proofs.«216449_g46943992545511_cont_8to1_c_491_21_alg».proof.Proof.Split

noncomputable section

namespace Cert.KernelIdeal.TileValue

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => 𝕄F F

variable (d : Dev nD) (L : grid0.Coords)

/-- The vector subcore at place L of device d. -/
abbrev thr : Thread nD τ := V d ((L 0).castLE hcore0) ((L 1).castLE hsub0)

/-- One of the subcore's own DMA semaphores as a cell. -/
abbrev cell (s : DmaSems sig S_) : GSem nD τ sig := (thr d L, .dma s.sem)

omit [FloatOps F] in
theorem cell_ne {s t : DmaSems sig S_} (h : s.sem ≠ t.sem) : cell d L s ≠ cell d L t :=
  fun e => h (SemLoc.dma.inj (congrArg Prod.snd e))

/-- What is left of the subcore's own cells beside the nine the body uses. -/
abbrev restCells : Finset (GSem nD τ sig) := ((((((((((ownCells (thr d L)).erase (cell d L cc0_scratch3)).erase (cell d L cc0_scratch4)).erase (cell d L cc0_scoped0)).erase (cell d L cc0_scoped1)).erase (cell d L cc0_scoped2)).erase (cell d L cc0_scoped3)).erase (cell d L cc0_scoped4)).erase (cell d L cc0_scoped5)).erase (cell d L cc0_scoped6))

/-- What is left of the subcore's own buffers beside the three scratches. -/
abbrev restRefs : Finset (DevRef τ sig) := ((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2))

omit [FloatOps F] in
/-- The nine semaphores the body uses are among the subcore's own cells: they, at zero, and the rest. -/
theorem ownSems0_V :
    (ownSems0 (thr d L) : sProp 𝕄)
      = iprop(semVal (cell d L cc0_scratch3) 0 ∗ semVal (cell d L cc0_scratch4) 0 ∗ semVal (cell d L cc0_scoped0) 0 ∗ semVal (cell d L cc0_scoped1) 0 ∗ semVal (cell d L cc0_scoped2) 0 ∗ semVal (cell d L cc0_scoped3) 0 ∗ semVal (cell d L cc0_scoped4) 0 ∗ semVal (cell d L cc0_scoped5) 0 ∗ semVal (cell d L cc0_scoped6) 0
          ∗ bigSep (restCells d L) fun g => semVal g 0) := by
  unfold SparseCore.Cfg.ownSems0
  rw [SparseCore.bigSep_erase' ((mem_ownCells (g := cell d L cc0_scratch3)).mpr ⟨rfl, by show (SemLoc.dma cc0_scratch3.sem : SemLoc sig).isScoped .scVector = true; decide⟩),
    SparseCore.bigSep_erase' (Finset.mem_erase.mpr ⟨cell_ne d L (show (cc0_scratch4 : DmaSems sig S_).sem ≠ cc0_scratch3.sem by decide), (mem_ownCells (g := cell d L cc0_scratch4)).mpr ⟨rfl, by show (SemLoc.dma cc0_scratch4.sem : SemLoc sig).isScoped .scVector = true; decide⟩⟩),
    SparseCore.bigSep_erase' (Finset.mem_erase.mpr ⟨cell_ne d L (show (cc0_scoped0 : DmaSems sig S_).sem ≠ cc0_scratch4.sem by decide), Finset.mem_erase.mpr ⟨cell_ne d L (show (cc0_scoped0 : DmaSems sig S_).sem ≠ cc0_scratch3.sem by decide), (mem_ownCells (g := cell d L cc0_scoped0)).mpr ⟨rfl, by show (SemLoc.dma cc0_scoped0.sem : SemLoc sig).isScoped .scVector = true; decide⟩⟩⟩),
    SparseCore.bigSep_erase' (Finset.mem_erase.mpr ⟨cell_ne d L (show (cc0_scoped1 : DmaSems sig S_).sem ≠ cc0_scoped0.sem by decide), Finset.mem_erase.mpr ⟨cell_ne d L (show (cc0_scoped1 : DmaSems sig S_).sem ≠ cc0_scratch4.sem by decide), Finset.mem_erase.mpr ⟨cell_ne d L (show (cc0_scoped1 : DmaSems sig S_).sem ≠ cc0_scratch3.sem by decide), (mem_ownCells (g := cell d L cc0_scoped1)).mpr ⟨rfl, by show (SemLoc.dma cc0_scoped1.sem : SemLoc sig).isScoped .scVector = true; decide⟩⟩⟩⟩),
    SparseCore.bigSep_erase' (Finset.mem_erase.mpr ⟨cell_ne d L (show (cc0_scoped2 : DmaSems sig S_).sem ≠ cc0_scoped1.sem by decide), Finset.mem_erase.mpr ⟨cell_ne d L (show (cc0_scoped2 : DmaSems sig S_).sem ≠ cc0_scoped0.sem by decide), Finset.mem_erase.mpr ⟨cell_ne d L (show (cc0_scoped2 : DmaSems sig S_).sem ≠ cc0_scratch4.sem by decide), Finset.mem_erase.mpr ⟨cell_ne d L (show (cc0_scoped2 : DmaSems sig S_).sem ≠ cc0_scratch3.sem by decide), (mem_ownCells (g := cell d L cc0_scoped2)).mpr ⟨rfl, by show (SemLoc.dma cc0_scoped2.sem : SemLoc sig).isScoped .scVector = true; decide⟩⟩⟩⟩⟩),
    SparseCore.bigSep_erase' (Finset.mem_erase.mpr ⟨cell_ne d L (show (cc0_scoped3 : DmaSems sig S_).sem ≠ cc0_scoped2.sem by decide), Finset.mem_erase.mpr ⟨cell_ne d L (show (cc0_scoped3 : DmaSems sig S_).sem ≠ cc0_scoped1.sem by decide), Finset.mem_erase.mpr ⟨cell_ne d L (show (cc0_scoped3 : DmaSems sig S_).sem ≠ cc0_scoped0.sem by decide), Finset.mem_erase.mpr ⟨cell_ne d L (show (cc0_scoped3 : DmaSems sig S_).sem ≠ cc0_scratch4.sem by decide), Finset.mem_erase.mpr ⟨cell_ne d L (show (cc0_scoped3 : DmaSems sig S_).sem ≠ cc0_scratch3.sem by decide), (mem_ownCells (g := cell d L cc0_scoped3)).mpr ⟨rfl, by show (SemLoc.dma cc0_scoped3.sem : SemLoc sig).isScoped .scVector = true; decide⟩⟩⟩⟩⟩⟩),
    SparseCore.bigSep_erase' (Finset.mem_erase.mpr ⟨cell_ne d L (show (cc0_scoped4 : DmaSems sig S_).sem ≠ cc0_scoped3.sem by decide), Finset.mem_erase.mpr ⟨cell_ne d L (show (cc0_scoped4 : DmaSems sig S_).sem ≠ cc0_scoped2.sem by decide), Finset.mem_erase.mpr ⟨cell_ne d L (show (cc0_scoped4 : DmaSems sig S_).sem ≠ cc0_scoped1.sem by decide), Finset.mem_erase.mpr ⟨cell_ne d L (show (cc0_scoped4 : DmaSems sig S_).sem ≠ cc0_scoped0.sem by decide), Finset.mem_erase.mpr ⟨cell_ne d L (show (cc0_scoped4 : DmaSems sig S_).sem ≠ cc0_scratch4.sem by decide), Finset.mem_erase.mpr ⟨cell_ne d L (show (cc0_scoped4 : DmaSems sig S_).sem ≠ cc0_scratch3.sem by decide), (mem_ownCells (g := cell d L cc0_scoped4)).mpr ⟨rfl, by show (SemLoc.dma cc0_scoped4.sem : SemLoc sig).isScoped .scVector = true; decide⟩⟩⟩⟩⟩⟩⟩),
    SparseCore.bigSep_erase' (Finset.mem_erase.mpr ⟨cell_ne d L (show (cc0_scoped5 : DmaSems sig S_).sem ≠ cc0_scoped4.sem by decide), Finset.mem_erase.mpr ⟨cell_ne d L (show (cc0_scoped5 : DmaSems sig S_).sem ≠ cc0_scoped3.sem by decide), Finset.mem_erase.mpr ⟨cell_ne d L (show (cc0_scoped5 : DmaSems sig S_).sem ≠ cc0_scoped2.sem by decide), Finset.mem_erase.mpr ⟨cell_ne d L (show (cc0_scoped5 : DmaSems sig S_).sem ≠ cc0_scoped1.sem by decide), Finset.mem_erase.mpr ⟨cell_ne d L (show (cc0_scoped5 : DmaSems sig S_).sem ≠ cc0_scoped0.sem by decide), Finset.mem_erase.mpr ⟨cell_ne d L (show (cc0_scoped5 : DmaSems sig S_).sem ≠ cc0_scratch4.sem by decide), Finset.mem_erase.mpr ⟨cell_ne d L (show (cc0_scoped5 : DmaSems sig S_).sem ≠ cc0_scratch3.sem by decide), (mem_ownCells (g := cell d L cc0_scoped5)).mpr ⟨rfl, by show (SemLoc.dma cc0_scoped5.sem : SemLoc sig).isScoped .scVector = true; decide⟩⟩⟩⟩⟩⟩⟩⟩),
    SparseCore.bigSep_erase' (Finset.mem_erase.mpr ⟨cell_ne d L (show (cc0_scoped6 : DmaSems sig S_).sem ≠ cc0_scoped5.sem by decide), Finset.mem_erase.mpr ⟨cell_ne d L (show (cc0_scoped6 : DmaSems sig S_).sem ≠ cc0_scoped4.sem by decide), Finset.mem_erase.mpr ⟨cell_ne d L (show (cc0_scoped6 : DmaSems sig S_).sem ≠ cc0_scoped3.sem by decide), Finset.mem_erase.mpr ⟨cell_ne d L (show (cc0_scoped6 : DmaSems sig S_).sem ≠ cc0_scoped2.sem by decide), Finset.mem_erase.mpr ⟨cell_ne d L (show (cc0_scoped6 : DmaSems sig S_).sem ≠ cc0_scoped1.sem by decide), Finset.mem_erase.mpr ⟨cell_ne d L (show (cc0_scoped6 : DmaSems sig S_).sem ≠ cc0_scoped0.sem by decide), Finset.mem_erase.mpr ⟨cell_ne d L (show (cc0_scoped6 : DmaSems sig S_).sem ≠ cc0_scratch4.sem by decide), Finset.mem_erase.mpr ⟨cell_ne d L (show (cc0_scoped6 : DmaSems sig S_).sem ≠ cc0_scratch3.sem by decide), (mem_ownCells (g := cell d L cc0_scoped6)).mpr ⟨rfl, by show (SemLoc.dma cc0_scoped6.sem : SemLoc sig).isScoped .scVector = true; decide⟩⟩⟩⟩⟩⟩⟩⟩⟩)]

omit [FloatOps F] in
/-- The three scratch buffers are among the subcore's own: they, at some contents, and the rest. -/
theorem ownBufs_V :
    (ownBufs (thr d L) : sProp 𝕄)
      = iprop((∃ f, (Memref.whole cc0_scratch0 : Memref sig .scVector .vmem S64x512 .f32).view.loc (thr d L) ↦{fullShare} f)
          ∗ (∃ f, (Memref.whole cc0_scratch1 : Memref sig .scVector .vmem S64x512 .f32).view.loc (thr d L) ↦{fullShare} f)
          ∗ (∃ f, (Memref.whole cc0_scratch2 : Memref sig .scVector .vmem S512 .f32).view.loc (thr d L) ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := (Proc.scVector ((L 0).castLE hcore0) ((L 1).castLE hsub0))) (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch2) rfl⟩⟩)]

/-- The 32 accumulators a chunk's loop carries. -/
abbrev Acc (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- Sixteen lanes of a row of a 64×512 buffer, as one vector load of the loops reads them and the program casts them. -/
def rowRead (M : Memref sig .scVector .vmem S64x512 .f32) (f : M.view.ty.Contents (Elt F)) (off : Fin 2 → Nat)
    (h : ∀ a, off a + S1x16.size a ≤ S64x512.size a) : FVec F S16 .f32 :=
  shapeCast S16 (View.readAt (Elt F) M.view (Rect.unit (s := S64x512) off S1x16.size h).toLoadRect f : Vec F S1x16 .f32) shapeCasts_S1x16_S16

/-- One trip of loop 1: row k of the buffer added to the 32 accumulators, 16 lanes each. -/
def addRow_t1 (M : Memref sig .scVector .vmem S64x512 .f32) (f : M.view.ty.Contents (Elt F)) (k : Fin k0_t1_loop.trips) (acc : Acc F) : Acc F :=
  (addf (acc.1) (rowRead M f (k0_off2 k) (k0_off2_inb k)),
    addf (acc.2.1) (rowRead M f (k0_off3 k) (k0_off3_inb k)),
    addf (acc.2.2.1) (rowRead M f (k0_off4 k) (k0_off4_inb k)),
    addf (acc.2.2.2.1) (rowRead M f (k0_off5 k) (k0_off5_inb k)),
    addf (acc.2.2.2.2.1) (rowRead M f (k0_off6 k) (k0_off6_inb k)),
    addf (acc.2.2.2.2.2.1) (rowRead M f (k0_off7 k) (k0_off7_inb k)),
    addf (acc.2.2.2.2.2.2.1) (rowRead M f (k0_off8 k) (k0_off8_inb k)),
    addf (acc.2.2.2.2.2.2.2.1) (rowRead M f (k0_off9 k) (k0_off9_inb k)),
    addf (acc.2.2.2.2.2.2.2.2.1) (rowRead M f (k0_off10 k) (k0_off10_inb k)),
    addf (acc.2.2.2.2.2.2.2.2.2.1) (rowRead M f (k0_off11 k) (k0_off11_inb k)),
    addf (acc.2.2.2.2.2.2.2.2.2.2.1) (rowRead M f (k0_off12 k) (k0_off12_inb k)),
    addf (acc.2.2.2.2.2.2.2.2.2.2.2.1) (rowRead M f (k0_off13 k) (k0_off13_inb k)),
    addf (acc.2.2.2.2.2.2.2.2.2.2.2.2.1) (rowRead M f (k0_off14 k) (k0_off14_inb k)),
    addf (acc.2.2.2.2.2.2.2.2.2.2.2.2.2.1) (rowRead M f (k0_off15 k) (k0_off15_inb k)),
    addf (acc.2.2.2.2.2.2.2.2.2.2.2.2.2.2.1) (rowRead M f (k0_off16 k) (k0_off16_inb k)),
    addf (acc.2.2.2.2.2.2.2.2.2.2.2.2.2.2.2.1) (rowRead M f (k0_off17 k) (k0_off17_inb k)),
    addf (acc.2.2.2.2.2.2.2.2.2.2.2.2.2.2.2.2.1) (rowRead M f (k0_off18 k) (k0_off18_inb k)),
    addf (acc.2.2.2.2.2.2.2.2.2.2.2.2.2.2.2.2.2.1) (rowRead M f (k0_off19 k) (k0_off19_inb k)),
    addf (acc.2.2.2.2.2.2.2.2.2.2.2.2.2.2.2.2.2.2.1) (rowRead M f (k0_off20 k) (k0_off20_inb k)),
    addf (acc.2.2.2.2.2.2.2.2.2.2.2.2.2.2.2.2.2.2.2.1) (rowRead M f (k0_off21 k) (k0_off21_inb k)),
    addf (acc.2.2.2.2.2.2.2.2.2.2.2.2.2.2.2.2.2.2.2.2.1) (rowRead M f (k0_off22 k) (k0_off22_inb k)),
    addf (acc.2.2.2.2.2.2.2.2.2.2.2.2.2.2.2.2.2.2.2.2.2.1) (rowRead M f (k0_off23 k) (k0_off23_inb k)),
    addf (acc.2.2.2.2.2.2.2.2.2.2.2.2.2.2.2.2.2.2.2.2.2.2.1) (rowRead M f (k0_off24 k) (k0_off24_inb k)),
    addf (acc.2.2.2.2.2.2.2.2.2.2.2.2.2.2.2.2.2.2.2.2.2.2.2.1) (rowRead M f (k0_off25 k) (k0_off25_inb k)),
    addf (acc.2.2.2.2.2.2.2.2.2.2.2.2.2.2.2.2.2.2.2.2.2.2.2.2.1) (rowRead M f (k0_off26 k) (k0_off26_inb k)),
    addf (acc.2.2.2.2.2.2.2.2.2.2.2.2.2.2.2.2.2.2.2.2.2.2.2.2.2.1) (rowRead M f (k0_off27 k) (k0_off27_inb k)),
    addf (acc.2.2.2.2.2.2.2.2.2.2.2.2.2.2.2.2.2.2.2.2.2.2.2.2.2.2.1) (rowRead M f (k0_off28 k) (k0_off28_inb k)),
    addf (acc.2.2.2.2.2.2.2.2.2.2.2.2.2.2.2.2.2.2.2.2.2.2.2.2.2.2.2.1) (rowRead M f (k0_off29 k) (k0_off29_inb k)),
    addf (acc.2.2.2.2.2.2.2.2.2.2.2.2.2.2.2.2.2.2.2.2.2.2.2.2.2.2.2.2.1) (rowRead M f (k0_off30 k) (k0_off30_inb k)),
    addf (acc.2.2.2.2.2.2.2.2.2.2.2.2.2.2.2.2.2.2.2.2.2.2.2.2.2.2.2.2.2.1) (rowRead M f (k0_off31 k) (k0_off31_inb k)),
    addf (acc.2.2.2.2.2.2.2.2.2.2.2.2.2.2.2.2.2.2.2.2.2.2.2.2.2.2.2.2.2.2.1) (rowRead M f (k0_off32 k) (k0_off32_inb k)),
    addf (acc.2.2.2.2.2.2.2.2.2.2.2.2.2.2.2.2.2.2.2.2.2.2.2.2.2.2.2.2.2.2.2) (rowRead M f (k0_off33 k) (k0_off33_inb k)))

/-- The accumulators before trip k of loop 1, from those it starts with. -/
def rowsFold_t1 (M : Memref sig .scVector .vmem S64x512 .f32) (f : M.view.ty.Contents (Elt F)) : Nat → Acc F → Acc F
  | 0, init => init
  | k + 1, init => if h : k < k0_t1_loop.trips then addRow_t1 M f ⟨k, h⟩ (rowsFold_t1 M f k init) else rowsFold_t1 M f k init

set_option warn.classDefReducibility false in
/-- Loop 1 keeps the buffer it reads and carries the rows added so far. -/
@[sl_loop] def loopVal_t1 (d : Dev nD) (L : grid0.Coords) (v29 : BitVec 32) (v36 : BitVec 32) (c64_i32 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t1_loop.lb k0_t1_loop.ub k0_t1_loop.st k0_t1_ok init
      (k0_t1_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v36 c64_i32) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t1 (Memref.whole cc0_scratch0) w k init⌝)
  step k acc := by
    iintro ⟨H, %hacc⟩
    sl_exec
    sl_step
    isplitl [H]; · iexact H
    ipureintro
    show _ = rowsFold_t1 (Memref.whole cc0_scratch0) w (k.val + 1) init
    rw [rowsFold_t1, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t1 (Memref.whole cc0_scratch0) w ⟨k.val, k.isLt⟩ acc
        = addRow_t1 (Memref.whole cc0_scratch0) (View.write (Elt F) (Memref.whole cc0_scratch0 : Memref sig .scVector .vmem S64x512 .f32).view prev w Finset.univ) ⟨k.val, k.isLt⟩ acc from by rw [e]]
    rfl

/-- One trip of loop 2: row k of the buffer added to the 32 accumulators, 16 lanes each. -/
def addRow_t2 (M : Memref sig .scVector .vmem S64x512 .f32) (f : M.view.ty.Contents (Elt F)) (k : Fin k0_t2_loop.trips) (acc : Acc F) : Acc F :=
  (addf (acc.1) (rowRead M f (k0_off34 k) (k0_off34_inb k)),
    addf (acc.2.1) (rowRead M f (k0_off35 k) (k0_off35_inb k)),
    addf (acc.2.2.1) (rowRead M f (k0_off36 k) (k0_off36_inb k)),
    addf (acc.2.2.2.1) (rowRead M f (k0_off37 k) (k0_off37_inb k)),
    addf (acc.2.2.2.2.1) (rowRead M f (k0_off38 k) (k0_off38_inb k)),
    addf (acc.2.2.2.2.2.1) (rowRead M f (k0_off39 k) (k0_off39_inb k)),
    addf (acc.2.2.2.2.2.2.1) (rowRead M f (k0_off40 k) (k0_off40_inb k)),
    addf (acc.2.2.2.2.2.2.2.1) (rowRead M f (k0_off41 k) (k0_off41_inb k)),
    addf (acc.2.2.2.2.2.2.2.2.1) (rowRead M f (k0_off42 k) (k0_off42_inb k)),
    addf (acc.2.2.2.2.2.2.2.2.2.1) (rowRead M f (k0_off43 k) (k0_off43_inb k)),
    addf (acc.2.2.2.2.2.2.2.2.2.2.1) (rowRead M f (k0_off44 k) (k0_off44_inb k)),
    addf (acc.2.2.2.2.2.2.2.2.2.2.2.1) (rowRead M f (k0_off45 k) (k0_off45_inb k)),
    addf (acc.2.2.2.2.2.2.2.2.2.2.2.2.1) (rowRead M f (k0_off46 k) (k0_off46_inb k)),
    addf (acc.2.2.2.2.2.2.2.2.2.2.2.2.2.1) (rowRead M f (k0_off47 k) (k0_off47_inb k)),
    addf (acc.2.2.2.2.2.2.2.2.2.2.2.2.2.2.1) (rowRead M f (k0_off48 k) (k0_off48_inb k)),
    addf (acc.2.2.2.2.2.2.2.2.2.2.2.2.2.2.2.1) (rowRead M f (k0_off49 k) (k0_off49_inb k)),
    addf (acc.2.2.2.2.2.2.2.2.2.2.2.2.2.2.2.2.1) (rowRead M f (k0_off50 k) (k0_off50_inb k)),
    addf (acc.2.2.2.2.2.2.2.2.2.2.2.2.2.2.2.2.2.1) (rowRead M f (k0_off51 k) (k0_off51_inb k)),
    addf (acc.2.2.2.2.2.2.2.2.2.2.2.2.2.2.2.2.2.2.1) (rowRead M f (k0_off52 k) (k0_off52_inb k)),
    addf (acc.2.2.2.2.2.2.2.2.2.2.2.2.2.2.2.2.2.2.2.1) (rowRead M f (k0_off53 k) (k0_off53_inb k)),
    addf (acc.2.2.2.2.2.2.2.2.2.2.2.2.2.2.2.2.2.2.2.2.1) (rowRead M f (k0_off54 k) (k0_off54_inb k)),
    addf (acc.2.2.2.2.2.2.2.2.2.2.2.2.2.2.2.2.2.2.2.2.2.1) (rowRead M f (k0_off55 k) (k0_off55_inb k)),
    addf (acc.2.2.2.2.2.2.2.2.2.2.2.2.2.2.2.2.2.2.2.2.2.2.1) (rowRead M f (k0_off56 k) (k0_off56_inb k)),
    addf (acc.2.2.2.2.2.2.2.2.2.2.2.2.2.2.2.2.2.2.2.2.2.2.2.1) (rowRead M f (k0_off57 k) (k0_off57_inb k)),
    addf (acc.2.2.2.2.2.2.2.2.2.2.2.2.2.2.2.2.2.2.2.2.2.2.2.2.1) (rowRead M f (k0_off58 k) (k0_off58_inb k)),
    addf (acc.2.2.2.2.2.2.2.2.2.2.2.2.2.2.2.2.2.2.2.2.2.2.2.2.2.1) (rowRead M f (k0_off59 k) (k0_off59_inb k)),
    addf (acc.2.2.2.2.2.2.2.2.2.2.2.2.2.2.2.2.2.2.2.2.2.2.2.2.2.2.1) (rowRead M f (k0_off60 k) (k0_off60_inb k)),
    addf (acc.2.2.2.2.2.2.2.2.2.2.2.2.2.2.2.2.2.2.2.2.2.2.2.2.2.2.2.1) (rowRead M f (k0_off61 k) (k0_off61_inb k)),
    addf (acc.2.2.2.2.2.2.2.2.2.2.2.2.2.2.2.2.2.2.2.2.2.2.2.2.2.2.2.2.1) (rowRead M f (k0_off62 k) (k0_off62_inb k)),
    addf (acc.2.2.2.2.2.2.2.2.2.2.2.2.2.2.2.2.2.2.2.2.2.2.2.2.2.2.2.2.2.1) (rowRead M f (k0_off63 k) (k0_off63_inb k)),
    addf (acc.2.2.2.2.2.2.2.2.2.2.2.2.2.2.2.2.2.2.2.2.2.2.2.2.2.2.2.2.2.2.1) (rowRead M f (k0_off64 k) (k0_off64_inb k)),
    addf (acc.2.2.2.2.2.2.2.2.2.2.2.2.2.2.2.2.2.2.2.2.2.2.2.2.2.2.2.2.2.2.2) (rowRead M f (k0_off65 k) (k0_off65_inb k)))

/-- The accumulators before trip k of loop 2, from those it starts with. -/
def rowsFold_t2 (M : Memref sig .scVector .vmem S64x512 .f32) (f : M.view.ty.Contents (Elt F)) : Nat → Acc F → Acc F
  | 0, init => init
  | k + 1, init => if h : k < k0_t2_loop.trips then addRow_t2 M f ⟨k, h⟩ (rowsFold_t2 M f k init) else rowsFold_t2 M f k init

set_option warn.classDefReducibility false in
/-- Loop 2 keeps the buffer it reads and carries the rows added so far. -/
@[sl_loop] def loopVal_t2 (d : Dev nD) (L : grid0.Coords) (v29 : BitVec 32) (v36 : BitVec 32) (c64_i32 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t2_loop.lb k0_t2_loop.ub k0_t2_loop.st k0_t2_ok init
      (k0_t2_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v36 c64_i32) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t2 (Memref.whole cc0_scratch1) w k init⌝)
  step k acc := by
    iintro ⟨H, %hacc⟩
    sl_exec
    sl_step
    isplitl [H]; · iexact H
    ipureintro
    show _ = rowsFold_t2 (Memref.whole cc0_scratch1) w (k.val + 1) init
    rw [rowsFold_t2, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t2 (Memref.whole cc0_scratch1) w ⟨k.val, k.isLt⟩ acc
        = addRow_t2 (Memref.whole cc0_scratch1) (View.write (Elt F) (Memref.whole cc0_scratch1 : Memref sig .scVector .vmem S64x512 .f32).view prev w Finset.univ) ⟨k.val, k.isLt⟩ acc from by rw [e]]
    rfl

/-- One trip of loop 3: row k of the buffer added to the 32 accumulators, 16 lanes each. -/
def addRow_t3 (M : Memref sig .scVector .vmem S64x512 .f32) (f : M.view.ty.Contents (Elt F)) (k : Fin k0_t3_loop.trips) (acc : Acc F) : Acc F :=
  (addf (acc.1) (rowRead M f (k0_off66 k) (k0_off66_inb k)),
    addf (acc.2.1) (rowRead M f (k0_off67 k) (k0_off67_inb k)),
    addf (acc.2.2.1) (rowRead M f (k0_off68 k) (k0_off68_inb k)),
    addf (acc.2.2.2.1) (rowRead M f (k0_off69 k) (k0_off69_inb k)),
    addf (acc.2.2.2.2.1) (rowRead M f (k0_off70 k) (k0_off70_inb k)),
    addf (acc.2.2.2.2.2.1) (rowRead M f (k0_off71 k) (k0_off71_inb k)),
    addf (acc.2.2.2.2.2.2.1) (rowRead M f (k0_off72 k) (k0_off72_inb k)),
    addf (acc.2.2.2.2.2.2.2.1) (rowRead M f (k0_off73 k) (k0_off73_inb k)),
    addf (acc.2.2.2.2.2.2.2.2.1) (rowRead M f (k0_off74 k) (k0_off74_inb k)),
    addf (acc.2.2.2.2.2.2.2.2.2.1) (rowRead M f (k0_off75 k) (k0_off75_inb k)),
    addf (acc.2.2.2.2.2.2.2.2.2.2.1) (rowRead M f (k0_off76 k) (k0_off76_inb k)),
    addf (acc.2.2.2.2.2.2.2.2.2.2.2.1) (rowRead M f (k0_off77 k) (k0_off77_inb k)),
    addf (acc.2.2.2.2.2.2.2.2.2.2.2.2.1) (rowRead M f (k0_off78 k) (k0_off78_inb k)),
    addf (acc.2.2.2.2.2.2.2.2.2.2.2.2.2.1) (rowRead M f (k0_off79 k) (k0_off79_inb k)),
    addf (acc.2.2.2.2.2.2.2.2.2.2.2.2.2.2.1) (rowRead M f (k0_off80 k) (k0_off80_inb k)),
    addf (acc.2.2.2.2.2.2.2.2.2.2.2.2.2.2.2.1) (rowRead M f (k0_off81 k) (k0_off81_inb k)),
    addf (acc.2.2.2.2.2.2.2.2.2.2.2.2.2.2.2.2.1) (rowRead M f (k0_off82 k) (k0_off82_inb k)),
    addf (acc.2.2.2.2.2.2.2.2.2.2.2.2.2.2.2.2.2.1) (rowRead M f (k0_off83 k) (k0_off83_inb k)),
    addf (acc.2.2.2.2.2.2.2.2.2.2.2.2.2.2.2.2.2.2.1) (rowRead M f (k0_off84 k) (k0_off84_inb k)),
    addf (acc.2.2.2.2.2.2.2.2.2.2.2.2.2.2.2.2.2.2.2.1) (rowRead M f (k0_off85 k) (k0_off85_inb k)),
    addf (acc.2.2.2.2.2.2.2.2.2.2.2.2.2.2.2.2.2.2.2.2.1) (rowRead M f (k0_off86 k) (k0_off86_inb k)),
    addf (acc.2.2.2.2.2.2.2.2.2.2.2.2.2.2.2.2.2.2.2.2.2.1) (rowRead M f (k0_off87 k) (k0_off87_inb k)),
    addf (acc.2.2.2.2.2.2.2.2.2.2.2.2.2.2.2.2.2.2.2.2.2.2.1) (rowRead M f (k0_off88 k) (k0_off88_inb k)),
    addf (acc.2.2.2.2.2.2.2.2.2.2.2.2.2.2.2.2.2.2.2.2.2.2.2.1) (rowRead M f (k0_off89 k) (k0_off89_inb k)),
    addf (acc.2.2.2.2.2.2.2.2.2.2.2.2.2.2.2.2.2.2.2.2.2.2.2.2.1) (rowRead M f (k0_off90 k) (k0_off90_inb k)),
    addf (acc.2.2.2.2.2.2.2.2.2.2.2.2.2.2.2.2.2.2.2.2.2.2.2.2.2.1) (rowRead M f (k0_off91 k) (k0_off91_inb k)),
    addf (acc.2.2.2.2.2.2.2.2.2.2.2.2.2.2.2.2.2.2.2.2.2.2.2.2.2.2.1) (rowRead M f (k0_off92 k) (k0_off92_inb k)),
    addf (acc.2.2.2.2.2.2.2.2.2.2.2.2.2.2.2.2.2.2.2.2.2.2.2.2.2.2.2.1) (rowRead M f (k0_off93 k) (k0_off93_inb k)),
    addf (acc.2.2.2.2.2.2.2.2.2.2.2.2.2.2.2.2.2.2.2.2.2.2.2.2.2.2.2.2.1) (rowRead M f (k0_off94 k) (k0_off94_inb k)),
    addf (acc.2.2.2.2.2.2.2.2.2.2.2.2.2.2.2.2.2.2.2.2.2.2.2.2.2.2.2.2.2.1) (rowRead M f (k0_off95 k) (k0_off95_inb k)),
    addf (acc.2.2.2.2.2.2.2.2.2.2.2.2.2.2.2.2.2.2.2.2.2.2.2.2.2.2.2.2.2.2.1) (rowRead M f (k0_off96 k) (k0_off96_inb k)),
    addf (acc.2.2.2.2.2.2.2.2.2.2.2.2.2.2.2.2.2.2.2.2.2.2.2.2.2.2.2.2.2.2.2) (rowRead M f (k0_off97 k) (k0_off97_inb k)))

/-- The accumulators before trip k of loop 3, from those it starts with. -/
def rowsFold_t3 (M : Memref sig .scVector .vmem S64x512 .f32) (f : M.view.ty.Contents (Elt F)) : Nat → Acc F → Acc F
  | 0, init => init
  | k + 1, init => if h : k < k0_t3_loop.trips then addRow_t3 M f ⟨k, h⟩ (rowsFold_t3 M f k init) else rowsFold_t3 M f k init

set_option warn.classDefReducibility false in
/-- Loop 3 keeps the buffer it reads and carries the rows added so far. -/
@[sl_loop] def loopVal_t3 (d : Dev nD) (L : grid0.Coords) (v29 : BitVec 32) (v64_0 : FVec F S16 .f32) (v64_1 : FVec F S16 .f32) (v64_2 : FVec F S16 .f32) (v64_3 : FVec F S16 .f32) (v64_4 : FVec F S16 .f32) (v64_5 : FVec F S16 .f32) (v64_6 : FVec F S16 .f32) (v64_7 : FVec F S16 .f32) (v64_8 : FVec F S16 .f32) (v64_9 : FVec F S16 .f32) (v64_10 : FVec F S16 .f32) (v64_11 : FVec F S16 .f32) (v64_12 : FVec F S16 .f32) (v64_13 : FVec F S16 .f32) (v64_14 : FVec F S16 .f32) (v64_15 : FVec F S16 .f32) (v64_16 : FVec F S16 .f32) (v64_17 : FVec F S16 .f32) (v64_18 : FVec F S16 .f32) (v64_19 : FVec F S16 .f32) (v64_20 : FVec F S16 .f32) (v64_21 : FVec F S16 .f32) (v64_22 : FVec F S16 .f32) (v64_23 : FVec F S16 .f32) (v64_24 : FVec F S16 .f32) (v64_25 : FVec F S16 .f32) (v64_26 : FVec F S16 .f32) (v64_27 : FVec F S16 .f32) (v64_28 : FVec F S16 .f32) (v64_29 : FVec F S16 .f32) (v64_30 : FVec F S16 .f32) (v64_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t3_loop.lb k0_t3_loop.ub k0_t3_loop.st k0_t3_ok init
      (k0_t3_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v64_0 v64_1 v64_2 v64_3 v64_4 v64_5 v64_6 v64_7 v64_8 v64_9 v64_10 v64_11 v64_12 v64_13 v64_14 v64_15 v64_16 v64_17 v64_18 v64_19 v64_20 v64_21 v64_22 v64_23 v64_24 v64_25 v64_26 v64_27 v64_28 v64_29 v64_30 v64_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t3 (Memref.whole cc0_scratch0) w k init⌝)
  step k acc := by
    iintro ⟨H, %hacc⟩
    sl_exec
    sl_step
    isplitl [H]; · iexact H
    ipureintro
    show _ = rowsFold_t3 (Memref.whole cc0_scratch0) w (k.val + 1) init
    rw [rowsFold_t3, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t3 (Memref.whole cc0_scratch0) w ⟨k.val, k.isLt⟩ acc
        = addRow_t3 (Memref.whole cc0_scratch0) (View.write (Elt F) (Memref.whole cc0_scratch0 : Memref sig .scVector .vmem S64x512 .f32).view prev w Finset.univ) ⟨k.val, k.isLt⟩ acc from by rw [e]]
    rfl

/-- One trip of loop 4: row k of the buffer added to the 32 accumulators, 16 lanes each. -/
def addRow_t4 (M : Memref sig .scVector .vmem S64x512 .f32) (f : M.view.ty.Contents (Elt F)) (k : Fin k0_t4_loop.trips) (acc : Acc F) : Acc F :=
  (addf (acc.1) (rowRead M f (k0_off99 k) (k0_off99_inb k)),
    addf (acc.2.1) (rowRead M f (k0_off100 k) (k0_off100_inb k)),
    addf (acc.2.2.1) (rowRead M f (k0_off101 k) (k0_off101_inb k)),
    addf (acc.2.2.2.1) (rowRead M f (k0_off102 k) (k0_off102_inb k)),
    addf (acc.2.2.2.2.1) (rowRead M f (k0_off103 k) (k0_off103_inb k)),
    addf (acc.2.2.2.2.2.1) (rowRead M f (k0_off104 k) (k0_off104_inb k)),
    addf (acc.2.2.2.2.2.2.1) (rowRead M f (k0_off105 k) (k0_off105_inb k)),
    addf (acc.2.2.2.2.2.2.2.1) (rowRead M f (k0_off106 k) (k0_off106_inb k)),
    addf (acc.2.2.2.2.2.2.2.2.1) (rowRead M f (k0_off107 k) (k0_off107_inb k)),
    addf (acc.2.2.2.2.2.2.2.2.2.1) (rowRead M f (k0_off108 k) (k0_off108_inb k)),
    addf (acc.2.2.2.2.2.2.2.2.2.2.1) (rowRead M f (k0_off109 k) (k0_off109_inb k)),
    addf (acc.2.2.2.2.2.2.2.2.2.2.2.1) (rowRead M f (k0_off110 k) (k0_off110_inb k)),
    addf (acc.2.2.2.2.2.2.2.2.2.2.2.2.1) (rowRead M f (k0_off111 k) (k0_off111_inb k)),
    addf (acc.2.2.2.2.2.2.2.2.2.2.2.2.2.1) (rowRead M f (k0_off112 k) (k0_off112_inb k)),
    addf (acc.2.2.2.2.2.2.2.2.2.2.2.2.2.2.1) (rowRead M f (k0_off113 k) (k0_off113_inb k)),
    addf (acc.2.2.2.2.2.2.2.2.2.2.2.2.2.2.2.1) (rowRead M f (k0_off114 k) (k0_off114_inb k)),
    addf (acc.2.2.2.2.2.2.2.2.2.2.2.2.2.2.2.2.1) (rowRead M f (k0_off115 k) (k0_off115_inb k)),
    addf (acc.2.2.2.2.2.2.2.2.2.2.2.2.2.2.2.2.2.1) (rowRead M f (k0_off116 k) (k0_off116_inb k)),
    addf (acc.2.2.2.2.2.2.2.2.2.2.2.2.2.2.2.2.2.2.1) (rowRead M f (k0_off117 k) (k0_off117_inb k)),
    addf (acc.2.2.2.2.2.2.2.2.2.2.2.2.2.2.2.2.2.2.2.1) (rowRead M f (k0_off118 k) (k0_off118_inb k)),
    addf (acc.2.2.2.2.2.2.2.2.2.2.2.2.2.2.2.2.2.2.2.2.1) (rowRead M f (k0_off119 k) (k0_off119_inb k)),
    addf (acc.2.2.2.2.2.2.2.2.2.2.2.2.2.2.2.2.2.2.2.2.2.1) (rowRead M f (k0_off120 k) (k0_off120_inb k)),
    addf (acc.2.2.2.2.2.2.2.2.2.2.2.2.2.2.2.2.2.2.2.2.2.2.1) (rowRead M f (k0_off121 k) (k0_off121_inb k)),
    addf (acc.2.2.2.2.2.2.2.2.2.2.2.2.2.2.2.2.2.2.2.2.2.2.2.1) (rowRead M f (k0_off122 k) (k0_off122_inb k)),
    addf (acc.2.2.2.2.2.2.2.2.2.2.2.2.2.2.2.2.2.2.2.2.2.2.2.2.1) (rowRead M f (k0_off123 k) (k0_off123_inb k)),
    addf (acc.2.2.2.2.2.2.2.2.2.2.2.2.2.2.2.2.2.2.2.2.2.2.2.2.2.1) (rowRead M f (k0_off124 k) (k0_off124_inb k)),
    addf (acc.2.2.2.2.2.2.2.2.2.2.2.2.2.2.2.2.2.2.2.2.2.2.2.2.2.2.1) (rowRead M f (k0_off125 k) (k0_off125_inb k)),
    addf (acc.2.2.2.2.2.2.2.2.2.2.2.2.2.2.2.2.2.2.2.2.2.2.2.2.2.2.2.1) (rowRead M f (k0_off126 k) (k0_off126_inb k)),
    addf (acc.2.2.2.2.2.2.2.2.2.2.2.2.2.2.2.2.2.2.2.2.2.2.2.2.2.2.2.2.1) (rowRead M f (k0_off127 k) (k0_off127_inb k)),
    addf (acc.2.2.2.2.2.2.2.2.2.2.2.2.2.2.2.2.2.2.2.2.2.2.2.2.2.2.2.2.2.1) (rowRead M f (k0_off128 k) (k0_off128_inb k)),
    addf (acc.2.2.2.2.2.2.2.2.2.2.2.2.2.2.2.2.2.2.2.2.2.2.2.2.2.2.2.2.2.2.1) (rowRead M f (k0_off129 k) (k0_off129_inb k)),
    addf (acc.2.2.2.2.2.2.2.2.2.2.2.2.2.2.2.2.2.2.2.2.2.2.2.2.2.2.2.2.2.2.2) (rowRead M f (k0_off130 k) (k0_off130_inb k)))

/-- The accumulators before trip k of loop 4, from those it starts with. -/
def rowsFold_t4 (M : Memref sig .scVector .vmem S64x512 .f32) (f : M.view.ty.Contents (Elt F)) : Nat → Acc F → Acc F
  | 0, init => init
  | k + 1, init => if h : k < k0_t4_loop.trips then addRow_t4 M f ⟨k, h⟩ (rowsFold_t4 M f k init) else rowsFold_t4 M f k init

set_option warn.classDefReducibility false in
/-- Loop 4 keeps the buffer it reads and carries the rows added so far. -/
@[sl_loop] def loopVal_t4 (d : Dev nD) (L : grid0.Coords) (v29 : BitVec 32) (v64_0 : FVec F S16 .f32) (v64_1 : FVec F S16 .f32) (v64_2 : FVec F S16 .f32) (v64_3 : FVec F S16 .f32) (v64_4 : FVec F S16 .f32) (v64_5 : FVec F S16 .f32) (v64_6 : FVec F S16 .f32) (v64_7 : FVec F S16 .f32) (v64_8 : FVec F S16 .f32) (v64_9 : FVec F S16 .f32) (v64_10 : FVec F S16 .f32) (v64_11 : FVec F S16 .f32) (v64_12 : FVec F S16 .f32) (v64_13 : FVec F S16 .f32) (v64_14 : FVec F S16 .f32) (v64_15 : FVec F S16 .f32) (v64_16 : FVec F S16 .f32) (v64_17 : FVec F S16 .f32) (v64_18 : FVec F S16 .f32) (v64_19 : FVec F S16 .f32) (v64_20 : FVec F S16 .f32) (v64_21 : FVec F S16 .f32) (v64_22 : FVec F S16 .f32) (v64_23 : FVec F S16 .f32) (v64_24 : FVec F S16 .f32) (v64_25 : FVec F S16 .f32) (v64_26 : FVec F S16 .f32) (v64_27 : FVec F S16 .f32) (v64_28 : FVec F S16 .f32) (v64_29 : FVec F S16 .f32) (v64_30 : FVec F S16 .f32) (v64_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t4_loop.lb k0_t4_loop.ub k0_t4_loop.st k0_t4_ok init
      (k0_t4_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v64_0 v64_1 v64_2 v64_3 v64_4 v64_5 v64_6 v64_7 v64_8 v64_9 v64_10 v64_11 v64_12 v64_13 v64_14 v64_15 v64_16 v64_17 v64_18 v64_19 v64_20 v64_21 v64_22 v64_23 v64_24 v64_25 v64_26 v64_27 v64_28 v64_29 v64_30 v64_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t4 (Memref.whole cc0_scratch1) w k init⌝)
  step k acc := by
    iintro ⟨H, %hacc⟩
    sl_exec
    sl_step
    isplitl [H]; · iexact H
    ipureintro
    show _ = rowsFold_t4 (Memref.whole cc0_scratch1) w (k.val + 1) init
    rw [rowsFold_t4, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t4 (Memref.whole cc0_scratch1) w ⟨k.val, k.isLt⟩ acc
        = addRow_t4 (Memref.whole cc0_scratch1) (View.write (Elt F) (Memref.whole cc0_scratch1 : Memref sig .scVector .vmem S64x512 .f32).view prev w Finset.univ) ⟨k.val, k.isLt⟩ acc from by rw [e]]
    rfl

/-- One trip of loop 5: row k of the buffer added to the 32 accumulators, 16 lanes each. -/
def addRow_t5 (M : Memref sig .scVector .vmem S64x512 .f32) (f : M.view.ty.Contents (Elt F)) (k : Fin k0_t5_loop.trips) (acc : Acc F) : Acc F :=
  (addf (acc.1) (rowRead M f (k0_off132 k) (k0_off132_inb k)),
    addf (acc.2.1) (rowRead M f (k0_off133 k) (k0_off133_inb k)),
    addf (acc.2.2.1) (rowRead M f (k0_off134 k) (k0_off134_inb k)),
    addf (acc.2.2.2.1) (rowRead M f (k0_off135 k) (k0_off135_inb k)),
    addf (acc.2.2.2.2.1) (rowRead M f (k0_off136 k) (k0_off136_inb k)),
    addf (acc.2.2.2.2.2.1) (rowRead M f (k0_off137 k) (k0_off137_inb k)),
    addf (acc.2.2.2.2.2.2.1) (rowRead M f (k0_off138 k) (k0_off138_inb k)),
    addf (acc.2.2.2.2.2.2.2.1) (rowRead M f (k0_off139 k) (k0_off139_inb k)),
    addf (acc.2.2.2.2.2.2.2.2.1) (rowRead M f (k0_off140 k) (k0_off140_inb k)),
    addf (acc.2.2.2.2.2.2.2.2.2.1) (rowRead M f (k0_off141 k) (k0_off141_inb k)),
    addf (acc.2.2.2.2.2.2.2.2.2.2.1) (rowRead M f (k0_off142 k) (k0_off142_inb k)),
    addf (acc.2.2.2.2.2.2.2.2.2.2.2.1) (rowRead M f (k0_off143 k) (k0_off143_inb k)),
    addf (acc.2.2.2.2.2.2.2.2.2.2.2.2.1) (rowRead M f (k0_off144 k) (k0_off144_inb k)),
    addf (acc.2.2.2.2.2.2.2.2.2.2.2.2.2.1) (rowRead M f (k0_off145 k) (k0_off145_inb k)),
    addf (acc.2.2.2.2.2.2.2.2.2.2.2.2.2.2.1) (rowRead M f (k0_off146 k) (k0_off146_inb k)),
    addf (acc.2.2.2.2.2.2.2.2.2.2.2.2.2.2.2.1) (rowRead M f (k0_off147 k) (k0_off147_inb k)),
    addf (acc.2.2.2.2.2.2.2.2.2.2.2.2.2.2.2.2.1) (rowRead M f (k0_off148 k) (k0_off148_inb k)),
    addf (acc.2.2.2.2.2.2.2.2.2.2.2.2.2.2.2.2.2.1) (rowRead M f (k0_off149 k) (k0_off149_inb k)),
    addf (acc.2.2.2.2.2.2.2.2.2.2.2.2.2.2.2.2.2.2.1) (rowRead M f (k0_off150 k) (k0_off150_inb k)),
    addf (acc.2.2.2.2.2.2.2.2.2.2.2.2.2.2.2.2.2.2.2.1) (rowRead M f (k0_off151 k) (k0_off151_inb k)),
    addf (acc.2.2.2.2.2.2.2.2.2.2.2.2.2.2.2.2.2.2.2.2.1) (rowRead M f (k0_off152 k) (k0_off152_inb k)),
    addf (acc.2.2.2.2.2.2.2.2.2.2.2.2.2.2.2.2.2.2.2.2.2.1) (rowRead M f (k0_off153 k) (k0_off153_inb k)),
    addf (acc.2.2.2.2.2.2.2.2.2.2.2.2.2.2.2.2.2.2.2.2.2.2.1) (rowRead M f (k0_off154 k) (k0_off154_inb k)),
    addf (acc.2.2.2.2.2.2.2.2.2.2.2.2.2.2.2.2.2.2.2.2.2.2.2.1) (rowRead M f (k0_off155 k) (k0_off155_inb k)),
    addf (acc.2.2.2.2.2.2.2.2.2.2.2.2.2.2.2.2.2.2.2.2.2.2.2.2.1) (rowRead M f (k0_off156 k) (k0_off156_inb k)),
    addf (acc.2.2.2.2.2.2.2.2.2.2.2.2.2.2.2.2.2.2.2.2.2.2.2.2.2.1) (rowRead M f (k0_off157 k) (k0_off157_inb k)),
    addf (acc.2.2.2.2.2.2.2.2.2.2.2.2.2.2.2.2.2.2.2.2.2.2.2.2.2.2.1) (rowRead M f (k0_off158 k) (k0_off158_inb k)),
    addf (acc.2.2.2.2.2.2.2.2.2.2.2.2.2.2.2.2.2.2.2.2.2.2.2.2.2.2.2.1) (rowRead M f (k0_off159 k) (k0_off159_inb k)),
    addf (acc.2.2.2.2.2.2.2.2.2.2.2.2.2.2.2.2.2.2.2.2.2.2.2.2.2.2.2.2.1) (rowRead M f (k0_off160 k) (k0_off160_inb k)),
    addf (acc.2.2.2.2.2.2.2.2.2.2.2.2.2.2.2.2.2.2.2.2.2.2.2.2.2.2.2.2.2.1) (rowRead M f (k0_off161 k) (k0_off161_inb k)),
    addf (acc.2.2.2.2.2.2.2.2.2.2.2.2.2.2.2.2.2.2.2.2.2.2.2.2.2.2.2.2.2.2.1) (rowRead M f (k0_off162 k) (k0_off162_inb k)),
    addf (acc.2.2.2.2.2.2.2.2.2.2.2.2.2.2.2.2.2.2.2.2.2.2.2.2.2.2.2.2.2.2.2) (rowRead M f (k0_off163 k) (k0_off163_inb k)))

/-- The accumulators before trip k of loop 5, from those it starts with. -/
def rowsFold_t5 (M : Memref sig .scVector .vmem S64x512 .f32) (f : M.view.ty.Contents (Elt F)) : Nat → Acc F → Acc F
  | 0, init => init
  | k + 1, init => if h : k < k0_t5_loop.trips then addRow_t5 M f ⟨k, h⟩ (rowsFold_t5 M f k init) else rowsFold_t5 M f k init

set_option warn.classDefReducibility false in
/-- Loop 5 keeps the buffer it reads and carries the rows added so far. -/
@[sl_loop] def loopVal_t5 (d : Dev nD) (L : grid0.Coords) (v29 : BitVec 32) (v199 : FVec F S16 .f32) (c0_i32_55 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t5_loop.lb k0_t5_loop.ub k0_t5_loop.st k0_t5_ok init
      (k0_t5_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v199 c0_i32_55) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t5 (Memref.whole cc0_scratch0) w k init⌝)
  step k acc := by
    iintro ⟨H, %hacc⟩
    sl_exec
    sl_step
    isplitl [H]; · iexact H
    ipureintro
    show _ = rowsFold_t5 (Memref.whole cc0_scratch0) w (k.val + 1) init
    rw [rowsFold_t5, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t5 (Memref.whole cc0_scratch0) w ⟨k.val, k.isLt⟩ acc
        = addRow_t5 (Memref.whole cc0_scratch0) (View.write (Elt F) (Memref.whole cc0_scratch0 : Memref sig .scVector .vmem S64x512 .f32).view prev w Finset.univ) ⟨k.val, k.isLt⟩ acc from by rw [e]]
    rfl

/-- One trip of loop 6: row k of the buffer added to the 32 accumulators, 16 lanes each. -/
def addRow_t6 (M : Memref sig .scVector .vmem S64x512 .f32) (f : M.view.ty.Contents (Elt F)) (k : Fin k0_t6_loop.trips) (acc : Acc F) : Acc F :=
  (addf (acc.1) (rowRead M f (k0_off164 k) (k0_off164_inb k)),
    addf (acc.2.1) (rowRead M f (k0_off165 k) (k0_off165_inb k)),
    addf (acc.2.2.1) (rowRead M f (k0_off166 k) (k0_off166_inb k)),
    addf (acc.2.2.2.1) (rowRead M f (k0_off167 k) (k0_off167_inb k)),
    addf (acc.2.2.2.2.1) (rowRead M f (k0_off168 k) (k0_off168_inb k)),
    addf (acc.2.2.2.2.2.1) (rowRead M f (k0_off169 k) (k0_off169_inb k)),
    addf (acc.2.2.2.2.2.2.1) (rowRead M f (k0_off170 k) (k0_off170_inb k)),
    addf (acc.2.2.2.2.2.2.2.1) (rowRead M f (k0_off171 k) (k0_off171_inb k)),
    addf (acc.2.2.2.2.2.2.2.2.1) (rowRead M f (k0_off172 k) (k0_off172_inb k)),
    addf (acc.2.2.2.2.2.2.2.2.2.1) (rowRead M f (k0_off173 k) (k0_off173_inb k)),
    addf (acc.2.2.2.2.2.2.2.2.2.2.1) (rowRead M f (k0_off174 k) (k0_off174_inb k)),
    addf (acc.2.2.2.2.2.2.2.2.2.2.2.1) (rowRead M f (k0_off175 k) (k0_off175_inb k)),
    addf (acc.2.2.2.2.2.2.2.2.2.2.2.2.1) (rowRead M f (k0_off176 k) (k0_off176_inb k)),
    addf (acc.2.2.2.2.2.2.2.2.2.2.2.2.2.1) (rowRead M f (k0_off177 k) (k0_off177_inb k)),
    addf (acc.2.2.2.2.2.2.2.2.2.2.2.2.2.2.1) (rowRead M f (k0_off178 k) (k0_off178_inb k)),
    addf (acc.2.2.2.2.2.2.2.2.2.2.2.2.2.2.2.1) (rowRead M f (k0_off179 k) (k0_off179_inb k)),
    addf (acc.2.2.2.2.2.2.2.2.2.2.2.2.2.2.2.2.1) (rowRead M f (k0_off180 k) (k0_off180_inb k)),
    addf (acc.2.2.2.2.2.2.2.2.2.2.2.2.2.2.2.2.2.1) (rowRead M f (k0_off181 k) (k0_off181_inb k)),
    addf (acc.2.2.2.2.2.2.2.2.2.2.2.2.2.2.2.2.2.2.1) (rowRead M f (k0_off182 k) (k0_off182_inb k)),
    addf (acc.2.2.2.2.2.2.2.2.2.2.2.2.2.2.2.2.2.2.2.1) (rowRead M f (k0_off183 k) (k0_off183_inb k)),
    addf (acc.2.2.2.2.2.2.2.2.2.2.2.2.2.2.2.2.2.2.2.2.1) (rowRead M f (k0_off184 k) (k0_off184_inb k)),
    addf (acc.2.2.2.2.2.2.2.2.2.2.2.2.2.2.2.2.2.2.2.2.2.1) (rowRead M f (k0_off185 k) (k0_off185_inb k)),
    addf (acc.2.2.2.2.2.2.2.2.2.2.2.2.2.2.2.2.2.2.2.2.2.2.1) (rowRead M f (k0_off186 k) (k0_off186_inb k)),
    addf (acc.2.2.2.2.2.2.2.2.2.2.2.2.2.2.2.2.2.2.2.2.2.2.2.1) (rowRead M f (k0_off187 k) (k0_off187_inb k)),
    addf (acc.2.2.2.2.2.2.2.2.2.2.2.2.2.2.2.2.2.2.2.2.2.2.2.2.1) (rowRead M f (k0_off188 k) (k0_off188_inb k)),
    addf (acc.2.2.2.2.2.2.2.2.2.2.2.2.2.2.2.2.2.2.2.2.2.2.2.2.2.1) (rowRead M f (k0_off189 k) (k0_off189_inb k)),
    addf (acc.2.2.2.2.2.2.2.2.2.2.2.2.2.2.2.2.2.2.2.2.2.2.2.2.2.2.1) (rowRead M f (k0_off190 k) (k0_off190_inb k)),
    addf (acc.2.2.2.2.2.2.2.2.2.2.2.2.2.2.2.2.2.2.2.2.2.2.2.2.2.2.2.1) (rowRead M f (k0_off191 k) (k0_off191_inb k)),
    addf (acc.2.2.2.2.2.2.2.2.2.2.2.2.2.2.2.2.2.2.2.2.2.2.2.2.2.2.2.2.1) (rowRead M f (k0_off192 k) (k0_off192_inb k)),
    addf (acc.2.2.2.2.2.2.2.2.2.2.2.2.2.2.2.2.2.2.2.2.2.2.2.2.2.2.2.2.2.1) (rowRead M f (k0_off193 k) (k0_off193_inb k)),
    addf (acc.2.2.2.2.2.2.2.2.2.2.2.2.2.2.2.2.2.2.2.2.2.2.2.2.2.2.2.2.2.2.1) (rowRead M f (k0_off194 k) (k0_off194_inb k)),
    addf (acc.2.2.2.2.2.2.2.2.2.2.2.2.2.2.2.2.2.2.2.2.2.2.2.2.2.2.2.2.2.2.2) (rowRead M f (k0_off195 k) (k0_off195_inb k)))

/-- The accumulators before trip k of loop 6, from those it starts with. -/
def rowsFold_t6 (M : Memref sig .scVector .vmem S64x512 .f32) (f : M.view.ty.Contents (Elt F)) : Nat → Acc F → Acc F
  | 0, init => init
  | k + 1, init => if h : k < k0_t6_loop.trips then addRow_t6 M f ⟨k, h⟩ (rowsFold_t6 M f k init) else rowsFold_t6 M f k init

set_option warn.classDefReducibility false in
/-- Loop 6 keeps the buffer it reads and carries the rows added so far. -/
@[sl_loop] def loopVal_t6 (d : Dev nD) (L : grid0.Coords) (v29 : BitVec 32) (v199 : FVec F S16 .f32) (c0_i32_55 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t6_loop.lb k0_t6_loop.ub k0_t6_loop.st k0_t6_ok init
      (k0_t6_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v199 c0_i32_55) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t6 (Memref.whole cc0_scratch1) w k init⌝)
  step k acc := by
    iintro ⟨H, %hacc⟩
    sl_exec
    sl_step
    isplitl [H]; · iexact H
    ipureintro
    show _ = rowsFold_t6 (Memref.whole cc0_scratch1) w (k.val + 1) init
    rw [rowsFold_t6, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t6 (Memref.whole cc0_scratch1) w ⟨k.val, k.isLt⟩ acc
        = addRow_t6 (Memref.whole cc0_scratch1) (View.write (Elt F) (Memref.whole cc0_scratch1 : Memref sig .scVector .vmem S64x512 .f32).view prev w Finset.univ) ⟨k.val, k.isLt⟩ acc from by rw [e]]
    rfl

/-- One trip of loop 7: row k of the buffer added to the 32 accumulators, 16 lanes each. -/
def addRow_t7 (M : Memref sig .scVector .vmem S64x512 .f32) (f : M.view.ty.Contents (Elt F)) (k : Fin k0_t7_loop.trips) (acc : Acc F) : Acc F :=
  (addf (acc.1) (rowRead M f (k0_off196 k) (k0_off196_inb k)),
    addf (acc.2.1) (rowRead M f (k0_off197 k) (k0_off197_inb k)),
    addf (acc.2.2.1) (rowRead M f (k0_off198 k) (k0_off198_inb k)),
    addf (acc.2.2.2.1) (rowRead M f (k0_off199 k) (k0_off199_inb k)),
    addf (acc.2.2.2.2.1) (rowRead M f (k0_off200 k) (k0_off200_inb k)),
    addf (acc.2.2.2.2.2.1) (rowRead M f (k0_off201 k) (k0_off201_inb k)),
    addf (acc.2.2.2.2.2.2.1) (rowRead M f (k0_off202 k) (k0_off202_inb k)),
    addf (acc.2.2.2.2.2.2.2.1) (rowRead M f (k0_off203 k) (k0_off203_inb k)),
    addf (acc.2.2.2.2.2.2.2.2.1) (rowRead M f (k0_off204 k) (k0_off204_inb k)),
    addf (acc.2.2.2.2.2.2.2.2.2.1) (rowRead M f (k0_off205 k) (k0_off205_inb k)),
    addf (acc.2.2.2.2.2.2.2.2.2.2.1) (rowRead M f (k0_off206 k) (k0_off206_inb k)),
    addf (acc.2.2.2.2.2.2.2.2.2.2.2.1) (rowRead M f (k0_off207 k) (k0_off207_inb k)),
    addf (acc.2.2.2.2.2.2.2.2.2.2.2.2.1) (rowRead M f (k0_off208 k) (k0_off208_inb k)),
    addf (acc.2.2.2.2.2.2.2.2.2.2.2.2.2.1) (rowRead M f (k0_off209 k) (k0_off209_inb k)),
    addf (acc.2.2.2.2.2.2.2.2.2.2.2.2.2.2.1) (rowRead M f (k0_off210 k) (k0_off210_inb k)),
    addf (acc.2.2.2.2.2.2.2.2.2.2.2.2.2.2.2.1) (rowRead M f (k0_off211 k) (k0_off211_inb k)),
    addf (acc.2.2.2.2.2.2.2.2.2.2.2.2.2.2.2.2.1) (rowRead M f (k0_off212 k) (k0_off212_inb k)),
    addf (acc.2.2.2.2.2.2.2.2.2.2.2.2.2.2.2.2.2.1) (rowRead M f (k0_off213 k) (k0_off213_inb k)),
    addf (acc.2.2.2.2.2.2.2.2.2.2.2.2.2.2.2.2.2.2.1) (rowRead M f (k0_off214 k) (k0_off214_inb k)),
    addf (acc.2.2.2.2.2.2.2.2.2.2.2.2.2.2.2.2.2.2.2.1) (rowRead M f (k0_off215 k) (k0_off215_inb k)),
    addf (acc.2.2.2.2.2.2.2.2.2.2.2.2.2.2.2.2.2.2.2.2.1) (rowRead M f (k0_off216 k) (k0_off216_inb k)),
    addf (acc.2.2.2.2.2.2.2.2.2.2.2.2.2.2.2.2.2.2.2.2.2.1) (rowRead M f (k0_off217 k) (k0_off217_inb k)),
    addf (acc.2.2.2.2.2.2.2.2.2.2.2.2.2.2.2.2.2.2.2.2.2.2.1) (rowRead M f (k0_off218 k) (k0_off218_inb k)),
    addf (acc.2.2.2.2.2.2.2.2.2.2.2.2.2.2.2.2.2.2.2.2.2.2.2.1) (rowRead M f (k0_off219 k) (k0_off219_inb k)),
    addf (acc.2.2.2.2.2.2.2.2.2.2.2.2.2.2.2.2.2.2.2.2.2.2.2.2.1) (rowRead M f (k0_off220 k) (k0_off220_inb k)),
    addf (acc.2.2.2.2.2.2.2.2.2.2.2.2.2.2.2.2.2.2.2.2.2.2.2.2.2.1) (rowRead M f (k0_off221 k) (k0_off221_inb k)),
    addf (acc.2.2.2.2.2.2.2.2.2.2.2.2.2.2.2.2.2.2.2.2.2.2.2.2.2.2.1) (rowRead M f (k0_off222 k) (k0_off222_inb k)),
    addf (acc.2.2.2.2.2.2.2.2.2.2.2.2.2.2.2.2.2.2.2.2.2.2.2.2.2.2.2.1) (rowRead M f (k0_off223 k) (k0_off223_inb k)),
    addf (acc.2.2.2.2.2.2.2.2.2.2.2.2.2.2.2.2.2.2.2.2.2.2.2.2.2.2.2.2.1) (rowRead M f (k0_off224 k) (k0_off224_inb k)),
    addf (acc.2.2.2.2.2.2.2.2.2.2.2.2.2.2.2.2.2.2.2.2.2.2.2.2.2.2.2.2.2.1) (rowRead M f (k0_off225 k) (k0_off225_inb k)),
    addf (acc.2.2.2.2.2.2.2.2.2.2.2.2.2.2.2.2.2.2.2.2.2.2.2.2.2.2.2.2.2.2.1) (rowRead M f (k0_off226 k) (k0_off226_inb k)),
    addf (acc.2.2.2.2.2.2.2.2.2.2.2.2.2.2.2.2.2.2.2.2.2.2.2.2.2.2.2.2.2.2.2) (rowRead M f (k0_off227 k) (k0_off227_inb k)))

/-- The accumulators before trip k of loop 7, from those it starts with. -/
def rowsFold_t7 (M : Memref sig .scVector .vmem S64x512 .f32) (f : M.view.ty.Contents (Elt F)) : Nat → Acc F → Acc F
  | 0, init => init
  | k + 1, init => if h : k < k0_t7_loop.trips then addRow_t7 M f ⟨k, h⟩ (rowsFold_t7 M f k init) else rowsFold_t7 M f k init

set_option warn.classDefReducibility false in
/-- Loop 7 keeps the buffer it reads and carries the rows added so far. -/
@[sl_loop] def loopVal_t7 (d : Dev nD) (L : grid0.Coords) (v29 : BitVec 32) (v199 : FVec F S16 .f32) (c0_i32_55 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t7_loop.lb k0_t7_loop.ub k0_t7_loop.st k0_t7_ok init
      (k0_t7_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v199 c0_i32_55) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t7 (Memref.whole cc0_scratch0) w k init⌝)
  step k acc := by
    iintro ⟨H, %hacc⟩
    sl_exec
    sl_step
    isplitl [H]; · iexact H
    ipureintro
    show _ = rowsFold_t7 (Memref.whole cc0_scratch0) w (k.val + 1) init
    rw [rowsFold_t7, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t7 (Memref.whole cc0_scratch0) w ⟨k.val, k.isLt⟩ acc
        = addRow_t7 (Memref.whole cc0_scratch0) (View.write (Elt F) (Memref.whole cc0_scratch0 : Memref sig .scVector .vmem S64x512 .f32).view prev w Finset.univ) ⟨k.val, k.isLt⟩ acc from by rw [e]]
    rfl

/-- One trip of loop 8: row k of the buffer added to the 32 accumulators, 16 lanes each. -/
def addRow_t8 (M : Memref sig .scVector .vmem S64x512 .f32) (f : M.view.ty.Contents (Elt F)) (k : Fin k0_t8_loop.trips) (acc : Acc F) : Acc F :=
  (addf (acc.1) (rowRead M f (k0_off229 k) (k0_off229_inb k)),
    addf (acc.2.1) (rowRead M f (k0_off230 k) (k0_off230_inb k)),
    addf (acc.2.2.1) (rowRead M f (k0_off231 k) (k0_off231_inb k)),
    addf (acc.2.2.2.1) (rowRead M f (k0_off232 k) (k0_off232_inb k)),
    addf (acc.2.2.2.2.1) (rowRead M f (k0_off233 k) (k0_off233_inb k)),
    addf (acc.2.2.2.2.2.1) (rowRead M f (k0_off234 k) (k0_off234_inb k)),
    addf (acc.2.2.2.2.2.2.1) (rowRead M f (k0_off235 k) (k0_off235_inb k)),
    addf (acc.2.2.2.2.2.2.2.1) (rowRead M f (k0_off236 k) (k0_off236_inb k)),
    addf (acc.2.2.2.2.2.2.2.2.1) (rowRead M f (k0_off237 k) (k0_off237_inb k)),
    addf (acc.2.2.2.2.2.2.2.2.2.1) (rowRead M f (k0_off238 k) (k0_off238_inb k)),
    addf (acc.2.2.2.2.2.2.2.2.2.2.1) (rowRead M f (k0_off239 k) (k0_off239_inb k)),
    addf (acc.2.2.2.2.2.2.2.2.2.2.2.1) (rowRead M f (k0_off240 k) (k0_off240_inb k)),
    addf (acc.2.2.2.2.2.2.2.2.2.2.2.2.1) (rowRead M f (k0_off241 k) (k0_off241_inb k)),
    addf (acc.2.2.2.2.2.2.2.2.2.2.2.2.2.1) (rowRead M f (k0_off242 k) (k0_off242_inb k)),
    addf (acc.2.2.2.2.2.2.2.2.2.2.2.2.2.2.1) (rowRead M f (k0_off243 k) (k0_off243_inb k)),
    addf (acc.2.2.2.2.2.2.2.2.2.2.2.2.2.2.2.1) (rowRead M f (k0_off244 k) (k0_off244_inb k)),
    addf (acc.2.2.2.2.2.2.2.2.2.2.2.2.2.2.2.2.1) (rowRead M f (k0_off245 k) (k0_off245_inb k)),
    addf (acc.2.2.2.2.2.2.2.2.2.2.2.2.2.2.2.2.2.1) (rowRead M f (k0_off246 k) (k0_off246_inb k)),
    addf (acc.2.2.2.2.2.2.2.2.2.2.2.2.2.2.2.2.2.2.1) (rowRead M f (k0_off247 k) (k0_off247_inb k)),
    addf (acc.2.2.2.2.2.2.2.2.2.2.2.2.2.2.2.2.2.2.2.1) (rowRead M f (k0_off248 k) (k0_off248_inb k)),
    addf (acc.2.2.2.2.2.2.2.2.2.2.2.2.2.2.2.2.2.2.2.2.1) (rowRead M f (k0_off249 k) (k0_off249_inb k)),
    addf (acc.2.2.2.2.2.2.2.2.2.2.2.2.2.2.2.2.2.2.2.2.2.1) (rowRead M f (k0_off250 k) (k0_off250_inb k)),
    addf (acc.2.2.2.2.2.2.2.2.2.2.2.2.2.2.2.2.2.2.2.2.2.2.1) (rowRead M f (k0_off251 k) (k0_off251_inb k)),
    addf (acc.2.2.2.2.2.2.2.2.2.2.2.2.2.2.2.2.2.2.2.2.2.2.2.1) (rowRead M f (k0_off252 k) (k0_off252_inb k)),
    addf (acc.2.2.2.2.2.2.2.2.2.2.2.2.2.2.2.2.2.2.2.2.2.2.2.2.1) (rowRead M f (k0_off253 k) (k0_off253_inb k)),
    addf (acc.2.2.2.2.2.2.2.2.2.2.2.2.2.2.2.2.2.2.2.2.2.2.2.2.2.1) (rowRead M f (k0_off254 k) (k0_off254_inb k)),
    addf (acc.2.2.2.2.2.2.2.2.2.2.2.2.2.2.2.2.2.2.2.2.2.2.2.2.2.2.1) (rowRead M f (k0_off255 k) (k0_off255_inb k)),
    addf (acc.2.2.2.2.2.2.2.2.2.2.2.2.2.2.2.2.2.2.2.2.2.2.2.2.2.2.2.1) (rowRead M f (k0_off256 k) (k0_off256_inb k)),
    addf (acc.2.2.2.2.2.2.2.2.2.2.2.2.2.2.2.2.2.2.2.2.2.2.2.2.2.2.2.2.1) (rowRead M f (k0_off257 k) (k0_off257_inb k)),
    addf (acc.2.2.2.2.2.2.2.2.2.2.2.2.2.2.2.2.2.2.2.2.2.2.2.2.2.2.2.2.2.1) (rowRead M f (k0_off258 k) (k0_off258_inb k)),
    addf (acc.2.2.2.2.2.2.2.2.2.2.2.2.2.2.2.2.2.2.2.2.2.2.2.2.2.2.2.2.2.2.1) (rowRead M f (k0_off259 k) (k0_off259_inb k)),
    addf (acc.2.2.2.2.2.2.2.2.2.2.2.2.2.2.2.2.2.2.2.2.2.2.2.2.2.2.2.2.2.2.2) (rowRead M f (k0_off260 k) (k0_off260_inb k)))

/-- The accumulators before trip k of loop 8, from those it starts with. -/
def rowsFold_t8 (M : Memref sig .scVector .vmem S64x512 .f32) (f : M.view.ty.Contents (Elt F)) : Nat → Acc F → Acc F
  | 0, init => init
  | k + 1, init => if h : k < k0_t8_loop.trips then addRow_t8 M f ⟨k, h⟩ (rowsFold_t8 M f k init) else rowsFold_t8 M f k init

set_option warn.classDefReducibility false in
/-- Loop 8 keeps the buffer it reads and carries the rows added so far. -/
@[sl_loop] def loopVal_t8 (d : Dev nD) (L : grid0.Coords) (v29 : BitVec 32) (v235_0 : FVec F S16 .f32) (v235_1 : FVec F S16 .f32) (v235_2 : FVec F S16 .f32) (v235_3 : FVec F S16 .f32) (v235_4 : FVec F S16 .f32) (v235_5 : FVec F S16 .f32) (v235_6 : FVec F S16 .f32) (v235_7 : FVec F S16 .f32) (v235_8 : FVec F S16 .f32) (v235_9 : FVec F S16 .f32) (v235_10 : FVec F S16 .f32) (v235_11 : FVec F S16 .f32) (v235_12 : FVec F S16 .f32) (v235_13 : FVec F S16 .f32) (v235_14 : FVec F S16 .f32) (v235_15 : FVec F S16 .f32) (v235_16 : FVec F S16 .f32) (v235_17 : FVec F S16 .f32) (v235_18 : FVec F S16 .f32) (v235_19 : FVec F S16 .f32) (v235_20 : FVec F S16 .f32) (v235_21 : FVec F S16 .f32) (v235_22 : FVec F S16 .f32) (v235_23 : FVec F S16 .f32) (v235_24 : FVec F S16 .f32) (v235_25 : FVec F S16 .f32) (v235_26 : FVec F S16 .f32) (v235_27 : FVec F S16 .f32) (v235_28 : FVec F S16 .f32) (v235_29 : FVec F S16 .f32) (v235_30 : FVec F S16 .f32) (v235_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t8_loop.lb k0_t8_loop.ub k0_t8_loop.st k0_t8_ok init
      (k0_t8_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v235_0 v235_1 v235_2 v235_3 v235_4 v235_5 v235_6 v235_7 v235_8 v235_9 v235_10 v235_11 v235_12 v235_13 v235_14 v235_15 v235_16 v235_17 v235_18 v235_19 v235_20 v235_21 v235_22 v235_23 v235_24 v235_25 v235_26 v235_27 v235_28 v235_29 v235_30 v235_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t8 (Memref.whole cc0_scratch1) w k init⌝)
  step k acc := by
    iintro ⟨H, %hacc⟩
    sl_exec
    sl_step
    isplitl [H]; · iexact H
    ipureintro
    show _ = rowsFold_t8 (Memref.whole cc0_scratch1) w (k.val + 1) init
    rw [rowsFold_t8, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t8 (Memref.whole cc0_scratch1) w ⟨k.val, k.isLt⟩ acc
        = addRow_t8 (Memref.whole cc0_scratch1) (View.write (Elt F) (Memref.whole cc0_scratch1 : Memref sig .scVector .vmem S64x512 .f32).view prev w Finset.univ) ⟨k.val, k.isLt⟩ acc from by rw [e]]
    rfl

/-- One trip of loop 9: row k of the buffer added to the 32 accumulators, 16 lanes each. -/
def addRow_t9 (M : Memref sig .scVector .vmem S64x512 .f32) (f : M.view.ty.Contents (Elt F)) (k : Fin k0_t9_loop.trips) (acc : Acc F) : Acc F :=
  (addf (acc.1) (rowRead M f (k0_off261 k) (k0_off261_inb k)),
    addf (acc.2.1) (rowRead M f (k0_off262 k) (k0_off262_inb k)),
    addf (acc.2.2.1) (rowRead M f (k0_off263 k) (k0_off263_inb k)),
    addf (acc.2.2.2.1) (rowRead M f (k0_off264 k) (k0_off264_inb k)),
    addf (acc.2.2.2.2.1) (rowRead M f (k0_off265 k) (k0_off265_inb k)),
    addf (acc.2.2.2.2.2.1) (rowRead M f (k0_off266 k) (k0_off266_inb k)),
    addf (acc.2.2.2.2.2.2.1) (rowRead M f (k0_off267 k) (k0_off267_inb k)),
    addf (acc.2.2.2.2.2.2.2.1) (rowRead M f (k0_off268 k) (k0_off268_inb k)),
    addf (acc.2.2.2.2.2.2.2.2.1) (rowRead M f (k0_off269 k) (k0_off269_inb k)),
    addf (acc.2.2.2.2.2.2.2.2.2.1) (rowRead M f (k0_off270 k) (k0_off270_inb k)),
    addf (acc.2.2.2.2.2.2.2.2.2.2.1) (rowRead M f (k0_off271 k) (k0_off271_inb k)),
    addf (acc.2.2.2.2.2.2.2.2.2.2.2.1) (rowRead M f (k0_off272 k) (k0_off272_inb k)),
    addf (acc.2.2.2.2.2.2.2.2.2.2.2.2.1) (rowRead M f (k0_off273 k) (k0_off273_inb k)),
    addf (acc.2.2.2.2.2.2.2.2.2.2.2.2.2.1) (rowRead M f (k0_off274 k) (k0_off274_inb k)),
    addf (acc.2.2.2.2.2.2.2.2.2.2.2.2.2.2.1) (rowRead M f (k0_off275 k) (k0_off275_inb k)),
    addf (acc.2.2.2.2.2.2.2.2.2.2.2.2.2.2.2.1) (rowRead M f (k0_off276 k) (k0_off276_inb k)),
    addf (acc.2.2.2.2.2.2.2.2.2.2.2.2.2.2.2.2.1) (rowRead M f (k0_off277 k) (k0_off277_inb k)),
    addf (acc.2.2.2.2.2.2.2.2.2.2.2.2.2.2.2.2.2.1) (rowRead M f (k0_off278 k) (k0_off278_inb k)),
    addf (acc.2.2.2.2.2.2.2.2.2.2.2.2.2.2.2.2.2.2.1) (rowRead M f (k0_off279 k) (k0_off279_inb k)),
    addf (acc.2.2.2.2.2.2.2.2.2.2.2.2.2.2.2.2.2.2.2.1) (rowRead M f (k0_off280 k) (k0_off280_inb k)),
    addf (acc.2.2.2.2.2.2.2.2.2.2.2.2.2.2.2.2.2.2.2.2.1) (rowRead M f (k0_off281 k) (k0_off281_inb k)),
    addf (acc.2.2.2.2.2.2.2.2.2.2.2.2.2.2.2.2.2.2.2.2.2.1) (rowRead M f (k0_off282 k) (k0_off282_inb k)),
    addf (acc.2.2.2.2.2.2.2.2.2.2.2.2.2.2.2.2.2.2.2.2.2.2.1) (rowRead M f (k0_off283 k) (k0_off283_inb k)),
    addf (acc.2.2.2.2.2.2.2.2.2.2.2.2.2.2.2.2.2.2.2.2.2.2.2.1) (rowRead M f (k0_off284 k) (k0_off284_inb k)),
    addf (acc.2.2.2.2.2.2.2.2.2.2.2.2.2.2.2.2.2.2.2.2.2.2.2.2.1) (rowRead M f (k0_off285 k) (k0_off285_inb k)),
    addf (acc.2.2.2.2.2.2.2.2.2.2.2.2.2.2.2.2.2.2.2.2.2.2.2.2.2.1) (rowRead M f (k0_off286 k) (k0_off286_inb k)),
    addf (acc.2.2.2.2.2.2.2.2.2.2.2.2.2.2.2.2.2.2.2.2.2.2.2.2.2.2.1) (rowRead M f (k0_off287 k) (k0_off287_inb k)),
    addf (acc.2.2.2.2.2.2.2.2.2.2.2.2.2.2.2.2.2.2.2.2.2.2.2.2.2.2.2.1) (rowRead M f (k0_off288 k) (k0_off288_inb k)),
    addf (acc.2.2.2.2.2.2.2.2.2.2.2.2.2.2.2.2.2.2.2.2.2.2.2.2.2.2.2.2.1) (rowRead M f (k0_off289 k) (k0_off289_inb k)),
    addf (acc.2.2.2.2.2.2.2.2.2.2.2.2.2.2.2.2.2.2.2.2.2.2.2.2.2.2.2.2.2.1) (rowRead M f (k0_off290 k) (k0_off290_inb k)),
    addf (acc.2.2.2.2.2.2.2.2.2.2.2.2.2.2.2.2.2.2.2.2.2.2.2.2.2.2.2.2.2.2.1) (rowRead M f (k0_off291 k) (k0_off291_inb k)),
    addf (acc.2.2.2.2.2.2.2.2.2.2.2.2.2.2.2.2.2.2.2.2.2.2.2.2.2.2.2.2.2.2.2) (rowRead M f (k0_off292 k) (k0_off292_inb k)))

/-- The accumulators before trip k of loop 9, from those it starts with. -/
def rowsFold_t9 (M : Memref sig .scVector .vmem S64x512 .f32) (f : M.view.ty.Contents (Elt F)) : Nat → Acc F → Acc F
  | 0, init => init
  | k + 1, init => if h : k < k0_t9_loop.trips then addRow_t9 M f ⟨k, h⟩ (rowsFold_t9 M f k init) else rowsFold_t9 M f k init

set_option warn.classDefReducibility false in
/-- Loop 9 keeps the buffer it reads and carries the rows added so far. -/
@[sl_loop] def loopVal_t9 (d : Dev nD) (L : grid0.Coords) (v12 : BitVec 32) (v29 : BitVec 32) (v249_30 : FVec F S16 .f32) (v249_31 : FVec F S16 .f32) (v345 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t9_loop.lb k0_t9_loop.ub k0_t9_loop.st k0_t9_ok init
      (k0_t9_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v12 v29 v249_30 v249_31 v345) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t9 (Memref.whole cc0_scratch0) w k init⌝)
  step k acc := by
    iintro ⟨H, %hacc⟩
    sl_exec
    sl_step
    isplitl [H]; · iexact H
    ipureintro
    show _ = rowsFold_t9 (Memref.whole cc0_scratch0) w (k.val + 1) init
    rw [rowsFold_t9, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t9 (Memref.whole cc0_scratch0) w ⟨k.val, k.isLt⟩ acc
        = addRow_t9 (Memref.whole cc0_scratch0) (View.write (Elt F) (Memref.whole cc0_scratch0 : Memref sig .scVector .vmem S64x512 .f32).view prev w Finset.univ) ⟨k.val, k.isLt⟩ acc from by rw [e]]
    rfl

/-- One trip of loop 10: row k of the buffer added to the 32 accumulators, 16 lanes each. -/
def addRow_t10 (M : Memref sig .scVector .vmem S64x512 .f32) (f : M.view.ty.Contents (Elt F)) (k : Fin k0_t10_loop.trips) (acc : Acc F) : Acc F :=
  (addf (acc.1) (rowRead M f (k0_off293 k) (k0_off293_inb k)),
    addf (acc.2.1) (rowRead M f (k0_off294 k) (k0_off294_inb k)),
    addf (acc.2.2.1) (rowRead M f (k0_off295 k) (k0_off295_inb k)),
    addf (acc.2.2.2.1) (rowRead M f (k0_off296 k) (k0_off296_inb k)),
    addf (acc.2.2.2.2.1) (rowRead M f (k0_off297 k) (k0_off297_inb k)),
    addf (acc.2.2.2.2.2.1) (rowRead M f (k0_off298 k) (k0_off298_inb k)),
    addf (acc.2.2.2.2.2.2.1) (rowRead M f (k0_off299 k) (k0_off299_inb k)),
    addf (acc.2.2.2.2.2.2.2.1) (rowRead M f (k0_off300 k) (k0_off300_inb k)),
    addf (acc.2.2.2.2.2.2.2.2.1) (rowRead M f (k0_off301 k) (k0_off301_inb k)),
    addf (acc.2.2.2.2.2.2.2.2.2.1) (rowRead M f (k0_off302 k) (k0_off302_inb k)),
    addf (acc.2.2.2.2.2.2.2.2.2.2.1) (rowRead M f (k0_off303 k) (k0_off303_inb k)),
    addf (acc.2.2.2.2.2.2.2.2.2.2.2.1) (rowRead M f (k0_off304 k) (k0_off304_inb k)),
    addf (acc.2.2.2.2.2.2.2.2.2.2.2.2.1) (rowRead M f (k0_off305 k) (k0_off305_inb k)),
    addf (acc.2.2.2.2.2.2.2.2.2.2.2.2.2.1) (rowRead M f (k0_off306 k) (k0_off306_inb k)),
    addf (acc.2.2.2.2.2.2.2.2.2.2.2.2.2.2.1) (rowRead M f (k0_off307 k) (k0_off307_inb k)),
    addf (acc.2.2.2.2.2.2.2.2.2.2.2.2.2.2.2.1) (rowRead M f (k0_off308 k) (k0_off308_inb k)),
    addf (acc.2.2.2.2.2.2.2.2.2.2.2.2.2.2.2.2.1) (rowRead M f (k0_off309 k) (k0_off309_inb k)),
    addf (acc.2.2.2.2.2.2.2.2.2.2.2.2.2.2.2.2.2.1) (rowRead M f (k0_off310 k) (k0_off310_inb k)),
    addf (acc.2.2.2.2.2.2.2.2.2.2.2.2.2.2.2.2.2.2.1) (rowRead M f (k0_off311 k) (k0_off311_inb k)),
    addf (acc.2.2.2.2.2.2.2.2.2.2.2.2.2.2.2.2.2.2.2.1) (rowRead M f (k0_off312 k) (k0_off312_inb k)),
    addf (acc.2.2.2.2.2.2.2.2.2.2.2.2.2.2.2.2.2.2.2.2.1) (rowRead M f (k0_off313 k) (k0_off313_inb k)),
    addf (acc.2.2.2.2.2.2.2.2.2.2.2.2.2.2.2.2.2.2.2.2.2.1) (rowRead M f (k0_off314 k) (k0_off314_inb k)),
    addf (acc.2.2.2.2.2.2.2.2.2.2.2.2.2.2.2.2.2.2.2.2.2.2.1) (rowRead M f (k0_off315 k) (k0_off315_inb k)),
    addf (acc.2.2.2.2.2.2.2.2.2.2.2.2.2.2.2.2.2.2.2.2.2.2.2.1) (rowRead M f (k0_off316 k) (k0_off316_inb k)),
    addf (acc.2.2.2.2.2.2.2.2.2.2.2.2.2.2.2.2.2.2.2.2.2.2.2.2.1) (rowRead M f (k0_off317 k) (k0_off317_inb k)),
    addf (acc.2.2.2.2.2.2.2.2.2.2.2.2.2.2.2.2.2.2.2.2.2.2.2.2.2.1) (rowRead M f (k0_off318 k) (k0_off318_inb k)),
    addf (acc.2.2.2.2.2.2.2.2.2.2.2.2.2.2.2.2.2.2.2.2.2.2.2.2.2.2.1) (rowRead M f (k0_off319 k) (k0_off319_inb k)),
    addf (acc.2.2.2.2.2.2.2.2.2.2.2.2.2.2.2.2.2.2.2.2.2.2.2.2.2.2.2.1) (rowRead M f (k0_off320 k) (k0_off320_inb k)),
    addf (acc.2.2.2.2.2.2.2.2.2.2.2.2.2.2.2.2.2.2.2.2.2.2.2.2.2.2.2.2.1) (rowRead M f (k0_off321 k) (k0_off321_inb k)),
    addf (acc.2.2.2.2.2.2.2.2.2.2.2.2.2.2.2.2.2.2.2.2.2.2.2.2.2.2.2.2.2.1) (rowRead M f (k0_off322 k) (k0_off322_inb k)),
    addf (acc.2.2.2.2.2.2.2.2.2.2.2.2.2.2.2.2.2.2.2.2.2.2.2.2.2.2.2.2.2.2.1) (rowRead M f (k0_off323 k) (k0_off323_inb k)),
    addf (acc.2.2.2.2.2.2.2.2.2.2.2.2.2.2.2.2.2.2.2.2.2.2.2.2.2.2.2.2.2.2.2) (rowRead M f (k0_off324 k) (k0_off324_inb k)))

/-- The accumulators before trip k of loop 10, from those it starts with. -/
def rowsFold_t10 (M : Memref sig .scVector .vmem S64x512 .f32) (f : M.view.ty.Contents (Elt F)) : Nat → Acc F → Acc F
  | 0, init => init
  | k + 1, init => if h : k < k0_t10_loop.trips then addRow_t10 M f ⟨k, h⟩ (rowsFold_t10 M f k init) else rowsFold_t10 M f k init

set_option warn.classDefReducibility false in
/-- Loop 10 keeps the buffer it reads and carries the rows added so far. -/
@[sl_loop] def loopVal_t10 (d : Dev nD) (L : grid0.Coords) (v29 : BitVec 32) (v364_0 : FVec F S16 .f32) (v364_1 : FVec F S16 .f32) (v364_2 : FVec F S16 .f32) (v364_3 : FVec F S16 .f32) (v364_4 : FVec F S16 .f32) (v364_5 : FVec F S16 .f32) (v364_6 : FVec F S16 .f32) (v364_7 : FVec F S16 .f32) (v364_8 : FVec F S16 .f32) (v364_9 : FVec F S16 .f32) (v364_10 : FVec F S16 .f32) (v364_11 : FVec F S16 .f32) (v364_12 : FVec F S16 .f32) (v364_13 : FVec F S16 .f32) (v364_14 : FVec F S16 .f32) (v364_15 : FVec F S16 .f32) (v364_16 : FVec F S16 .f32) (v364_17 : FVec F S16 .f32) (v364_18 : FVec F S16 .f32) (v364_19 : FVec F S16 .f32) (v364_20 : FVec F S16 .f32) (v364_21 : FVec F S16 .f32) (v364_22 : FVec F S16 .f32) (v364_23 : FVec F S16 .f32) (v364_24 : FVec F S16 .f32) (v364_25 : FVec F S16 .f32) (v364_26 : FVec F S16 .f32) (v364_27 : FVec F S16 .f32) (v364_28 : FVec F S16 .f32) (v364_29 : FVec F S16 .f32) (v364_30 : FVec F S16 .f32) (v364_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t10_loop.lb k0_t10_loop.ub k0_t10_loop.st k0_t10_ok init
      (k0_t10_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v364_0 v364_1 v364_2 v364_3 v364_4 v364_5 v364_6 v364_7 v364_8 v364_9 v364_10 v364_11 v364_12 v364_13 v364_14 v364_15 v364_16 v364_17 v364_18 v364_19 v364_20 v364_21 v364_22 v364_23 v364_24 v364_25 v364_26 v364_27 v364_28 v364_29 v364_30 v364_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t10 (Memref.whole cc0_scratch1) w k init⌝)
  step k acc := by
    iintro ⟨H, %hacc⟩
    sl_exec
    sl_step
    isplitl [H]; · iexact H
    ipureintro
    show _ = rowsFold_t10 (Memref.whole cc0_scratch1) w (k.val + 1) init
    rw [rowsFold_t10, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t10 (Memref.whole cc0_scratch1) w ⟨k.val, k.isLt⟩ acc
        = addRow_t10 (Memref.whole cc0_scratch1) (View.write (Elt F) (Memref.whole cc0_scratch1 : Memref sig .scVector .vmem S64x512 .f32).view prev w Finset.univ) ⟨k.val, k.isLt⟩ acc from by rw [e]]
    rfl

/-- One trip of loop 11: row k of the buffer added to the 32 accumulators, 16 lanes each. -/
def addRow_t11 (M : Memref sig .scVector .vmem S64x512 .f32) (f : M.view.ty.Contents (Elt F)) (k : Fin k0_t11_loop.trips) (acc : Acc F) : Acc F :=
  (addf (acc.1) (rowRead M f (k0_off325 k) (k0_off325_inb k)),
    addf (acc.2.1) (rowRead M f (k0_off326 k) (k0_off326_inb k)),
    addf (acc.2.2.1) (rowRead M f (k0_off327 k) (k0_off327_inb k)),
    addf (acc.2.2.2.1) (rowRead M f (k0_off328 k) (k0_off328_inb k)),
    addf (acc.2.2.2.2.1) (rowRead M f (k0_off329 k) (k0_off329_inb k)),
    addf (acc.2.2.2.2.2.1) (rowRead M f (k0_off330 k) (k0_off330_inb k)),
    addf (acc.2.2.2.2.2.2.1) (rowRead M f (k0_off331 k) (k0_off331_inb k)),
    addf (acc.2.2.2.2.2.2.2.1) (rowRead M f (k0_off332 k) (k0_off332_inb k)),
    addf (acc.2.2.2.2.2.2.2.2.1) (rowRead M f (k0_off333 k) (k0_off333_inb k)),
    addf (acc.2.2.2.2.2.2.2.2.2.1) (rowRead M f (k0_off334 k) (k0_off334_inb k)),
    addf (acc.2.2.2.2.2.2.2.2.2.2.1) (rowRead M f (k0_off335 k) (k0_off335_inb k)),
    addf (acc.2.2.2.2.2.2.2.2.2.2.2.1) (rowRead M f (k0_off336 k) (k0_off336_inb k)),
    addf (acc.2.2.2.2.2.2.2.2.2.2.2.2.1) (rowRead M f (k0_off337 k) (k0_off337_inb k)),
    addf (acc.2.2.2.2.2.2.2.2.2.2.2.2.2.1) (rowRead M f (k0_off338 k) (k0_off338_inb k)),
    addf (acc.2.2.2.2.2.2.2.2.2.2.2.2.2.2.1) (rowRead M f (k0_off339 k) (k0_off339_inb k)),
    addf (acc.2.2.2.2.2.2.2.2.2.2.2.2.2.2.2.1) (rowRead M f (k0_off340 k) (k0_off340_inb k)),
    addf (acc.2.2.2.2.2.2.2.2.2.2.2.2.2.2.2.2.1) (rowRead M f (k0_off341 k) (k0_off341_inb k)),
    addf (acc.2.2.2.2.2.2.2.2.2.2.2.2.2.2.2.2.2.1) (rowRead M f (k0_off342 k) (k0_off342_inb k)),
    addf (acc.2.2.2.2.2.2.2.2.2.2.2.2.2.2.2.2.2.2.1) (rowRead M f (k0_off343 k) (k0_off343_inb k)),
    addf (acc.2.2.2.2.2.2.2.2.2.2.2.2.2.2.2.2.2.2.2.1) (rowRead M f (k0_off344 k) (k0_off344_inb k)),
    addf (acc.2.2.2.2.2.2.2.2.2.2.2.2.2.2.2.2.2.2.2.2.1) (rowRead M f (k0_off345 k) (k0_off345_inb k)),
    addf (acc.2.2.2.2.2.2.2.2.2.2.2.2.2.2.2.2.2.2.2.2.2.1) (rowRead M f (k0_off346 k) (k0_off346_inb k)),
    addf (acc.2.2.2.2.2.2.2.2.2.2.2.2.2.2.2.2.2.2.2.2.2.2.1) (rowRead M f (k0_off347 k) (k0_off347_inb k)),
    addf (acc.2.2.2.2.2.2.2.2.2.2.2.2.2.2.2.2.2.2.2.2.2.2.2.1) (rowRead M f (k0_off348 k) (k0_off348_inb k)),
    addf (acc.2.2.2.2.2.2.2.2.2.2.2.2.2.2.2.2.2.2.2.2.2.2.2.2.1) (rowRead M f (k0_off349 k) (k0_off349_inb k)),
    addf (acc.2.2.2.2.2.2.2.2.2.2.2.2.2.2.2.2.2.2.2.2.2.2.2.2.2.1) (rowRead M f (k0_off350 k) (k0_off350_inb k)),
    addf (acc.2.2.2.2.2.2.2.2.2.2.2.2.2.2.2.2.2.2.2.2.2.2.2.2.2.2.1) (rowRead M f (k0_off351 k) (k0_off351_inb k)),
    addf (acc.2.2.2.2.2.2.2.2.2.2.2.2.2.2.2.2.2.2.2.2.2.2.2.2.2.2.2.1) (rowRead M f (k0_off352 k) (k0_off352_inb k)),
    addf (acc.2.2.2.2.2.2.2.2.2.2.2.2.2.2.2.2.2.2.2.2.2.2.2.2.2.2.2.2.1) (rowRead M f (k0_off353 k) (k0_off353_inb k)),
    addf (acc.2.2.2.2.2.2.2.2.2.2.2.2.2.2.2.2.2.2.2.2.2.2.2.2.2.2.2.2.2.1) (rowRead M f (k0_off354 k) (k0_off354_inb k)),
    addf (acc.2.2.2.2.2.2.2.2.2.2.2.2.2.2.2.2.2.2.2.2.2.2.2.2.2.2.2.2.2.2.1) (rowRead M f (k0_off355 k) (k0_off355_inb k)),
    addf (acc.2.2.2.2.2.2.2.2.2.2.2.2.2.2.2.2.2.2.2.2.2.2.2.2.2.2.2.2.2.2.2) (rowRead M f (k0_off356 k) (k0_off356_inb k)))

/-- The accumulators before trip k of loop 11, from those it starts with. -/
def rowsFold_t11 (M : Memref sig .scVector .vmem S64x512 .f32) (f : M.view.ty.Contents (Elt F)) : Nat → Acc F → Acc F
  | 0, init => init
  | k + 1, init => if h : k < k0_t11_loop.trips then addRow_t11 M f ⟨k, h⟩ (rowsFold_t11 M f k init) else rowsFold_t11 M f k init

set_option warn.classDefReducibility false in
/-- Loop 11 keeps the buffer it reads and carries the rows added so far. -/
@[sl_loop] def loopVal_t11 (d : Dev nD) (L : grid0.Coords) (v29 : BitVec 32) (v364_0 : FVec F S16 .f32) (v364_1 : FVec F S16 .f32) (v364_2 : FVec F S16 .f32) (v364_3 : FVec F S16 .f32) (v364_4 : FVec F S16 .f32) (v364_5 : FVec F S16 .f32) (v364_6 : FVec F S16 .f32) (v364_7 : FVec F S16 .f32) (v364_8 : FVec F S16 .f32) (v364_9 : FVec F S16 .f32) (v364_10 : FVec F S16 .f32) (v364_11 : FVec F S16 .f32) (v364_12 : FVec F S16 .f32) (v364_13 : FVec F S16 .f32) (v364_14 : FVec F S16 .f32) (v364_15 : FVec F S16 .f32) (v364_16 : FVec F S16 .f32) (v364_17 : FVec F S16 .f32) (v364_18 : FVec F S16 .f32) (v364_19 : FVec F S16 .f32) (v364_20 : FVec F S16 .f32) (v364_21 : FVec F S16 .f32) (v364_22 : FVec F S16 .f32) (v364_23 : FVec F S16 .f32) (v364_24 : FVec F S16 .f32) (v364_25 : FVec F S16 .f32) (v364_26 : FVec F S16 .f32) (v364_27 : FVec F S16 .f32) (v364_28 : FVec F S16 .f32) (v364_29 : FVec F S16 .f32) (v364_30 : FVec F S16 .f32) (v364_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t11_loop.lb k0_t11_loop.ub k0_t11_loop.st k0_t11_ok init
      (k0_t11_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v364_0 v364_1 v364_2 v364_3 v364_4 v364_5 v364_6 v364_7 v364_8 v364_9 v364_10 v364_11 v364_12 v364_13 v364_14 v364_15 v364_16 v364_17 v364_18 v364_19 v364_20 v364_21 v364_22 v364_23 v364_24 v364_25 v364_26 v364_27 v364_28 v364_29 v364_30 v364_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t11 (Memref.whole cc0_scratch0) w k init⌝)
  step k acc := by
    iintro ⟨H, %hacc⟩
    sl_exec
    sl_step
    isplitl [H]; · iexact H
    ipureintro
    show _ = rowsFold_t11 (Memref.whole cc0_scratch0) w (k.val + 1) init
    rw [rowsFold_t11, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t11 (Memref.whole cc0_scratch0) w ⟨k.val, k.isLt⟩ acc
        = addRow_t11 (Memref.whole cc0_scratch0) (View.write (Elt F) (Memref.whole cc0_scratch0 : Memref sig .scVector .vmem S64x512 .f32).view prev w Finset.univ) ⟨k.val, k.isLt⟩ acc from by rw [e]]
    rfl

/-- One trip of loop 12: row k of the buffer added to the 32 accumulators, 16 lanes each. -/
def addRow_t12 (M : Memref sig .scVector .vmem S64x512 .f32) (f : M.view.ty.Contents (Elt F)) (k : Fin k0_t12_loop.trips) (acc : Acc F) : Acc F :=
  (addf (acc.1) (rowRead M f (k0_off358 k) (k0_off358_inb k)),
    addf (acc.2.1) (rowRead M f (k0_off359 k) (k0_off359_inb k)),
    addf (acc.2.2.1) (rowRead M f (k0_off360 k) (k0_off360_inb k)),
    addf (acc.2.2.2.1) (rowRead M f (k0_off361 k) (k0_off361_inb k)),
    addf (acc.2.2.2.2.1) (rowRead M f (k0_off362 k) (k0_off362_inb k)),
    addf (acc.2.2.2.2.2.1) (rowRead M f (k0_off363 k) (k0_off363_inb k)),
    addf (acc.2.2.2.2.2.2.1) (rowRead M f (k0_off364 k) (k0_off364_inb k)),
    addf (acc.2.2.2.2.2.2.2.1) (rowRead M f (k0_off365 k) (k0_off365_inb k)),
    addf (acc.2.2.2.2.2.2.2.2.1) (rowRead M f (k0_off366 k) (k0_off366_inb k)),
    addf (acc.2.2.2.2.2.2.2.2.2.1) (rowRead M f (k0_off367 k) (k0_off367_inb k)),
    addf (acc.2.2.2.2.2.2.2.2.2.2.1) (rowRead M f (k0_off368 k) (k0_off368_inb k)),
    addf (acc.2.2.2.2.2.2.2.2.2.2.2.1) (rowRead M f (k0_off369 k) (k0_off369_inb k)),
    addf (acc.2.2.2.2.2.2.2.2.2.2.2.2.1) (rowRead M f (k0_off370 k) (k0_off370_inb k)),
    addf (acc.2.2.2.2.2.2.2.2.2.2.2.2.2.1) (rowRead M f (k0_off371 k) (k0_off371_inb k)),
    addf (acc.2.2.2.2.2.2.2.2.2.2.2.2.2.2.1) (rowRead M f (k0_off372 k) (k0_off372_inb k)),
    addf (acc.2.2.2.2.2.2.2.2.2.2.2.2.2.2.2.1) (rowRead M f (k0_off373 k) (k0_off373_inb k)),
    addf (acc.2.2.2.2.2.2.2.2.2.2.2.2.2.2.2.2.1) (rowRead M f (k0_off374 k) (k0_off374_inb k)),
    addf (acc.2.2.2.2.2.2.2.2.2.2.2.2.2.2.2.2.2.1) (rowRead M f (k0_off375 k) (k0_off375_inb k)),
    addf (acc.2.2.2.2.2.2.2.2.2.2.2.2.2.2.2.2.2.2.1) (rowRead M f (k0_off376 k) (k0_off376_inb k)),
    addf (acc.2.2.2.2.2.2.2.2.2.2.2.2.2.2.2.2.2.2.2.1) (rowRead M f (k0_off377 k) (k0_off377_inb k)),
    addf (acc.2.2.2.2.2.2.2.2.2.2.2.2.2.2.2.2.2.2.2.2.1) (rowRead M f (k0_off378 k) (k0_off378_inb k)),
    addf (acc.2.2.2.2.2.2.2.2.2.2.2.2.2.2.2.2.2.2.2.2.2.1) (rowRead M f (k0_off379 k) (k0_off379_inb k)),
    addf (acc.2.2.2.2.2.2.2.2.2.2.2.2.2.2.2.2.2.2.2.2.2.2.1) (rowRead M f (k0_off380 k) (k0_off380_inb k)),
    addf (acc.2.2.2.2.2.2.2.2.2.2.2.2.2.2.2.2.2.2.2.2.2.2.2.1) (rowRead M f (k0_off381 k) (k0_off381_inb k)),
    addf (acc.2.2.2.2.2.2.2.2.2.2.2.2.2.2.2.2.2.2.2.2.2.2.2.2.1) (rowRead M f (k0_off382 k) (k0_off382_inb k)),
    addf (acc.2.2.2.2.2.2.2.2.2.2.2.2.2.2.2.2.2.2.2.2.2.2.2.2.2.1) (rowRead M f (k0_off383 k) (k0_off383_inb k)),
    addf (acc.2.2.2.2.2.2.2.2.2.2.2.2.2.2.2.2.2.2.2.2.2.2.2.2.2.2.1) (rowRead M f (k0_off384 k) (k0_off384_inb k)),
    addf (acc.2.2.2.2.2.2.2.2.2.2.2.2.2.2.2.2.2.2.2.2.2.2.2.2.2.2.2.1) (rowRead M f (k0_off385 k) (k0_off385_inb k)),
    addf (acc.2.2.2.2.2.2.2.2.2.2.2.2.2.2.2.2.2.2.2.2.2.2.2.2.2.2.2.2.1) (rowRead M f (k0_off386 k) (k0_off386_inb k)),
    addf (acc.2.2.2.2.2.2.2.2.2.2.2.2.2.2.2.2.2.2.2.2.2.2.2.2.2.2.2.2.2.1) (rowRead M f (k0_off387 k) (k0_off387_inb k)),
    addf (acc.2.2.2.2.2.2.2.2.2.2.2.2.2.2.2.2.2.2.2.2.2.2.2.2.2.2.2.2.2.2.1) (rowRead M f (k0_off388 k) (k0_off388_inb k)),
    addf (acc.2.2.2.2.2.2.2.2.2.2.2.2.2.2.2.2.2.2.2.2.2.2.2.2.2.2.2.2.2.2.2) (rowRead M f (k0_off389 k) (k0_off389_inb k)))

/-- The accumulators before trip k of loop 12, from those it starts with. -/
def rowsFold_t12 (M : Memref sig .scVector .vmem S64x512 .f32) (f : M.view.ty.Contents (Elt F)) : Nat → Acc F → Acc F
  | 0, init => init
  | k + 1, init => if h : k < k0_t12_loop.trips then addRow_t12 M f ⟨k, h⟩ (rowsFold_t12 M f k init) else rowsFold_t12 M f k init

set_option warn.classDefReducibility false in
/-- Loop 12 keeps the buffer it reads and carries the rows added so far. -/
@[sl_loop] def loopVal_t12 (d : Dev nD) (L : grid0.Coords) (v29 : BitVec 32) (v364_0 : FVec F S16 .f32) (v364_1 : FVec F S16 .f32) (v364_2 : FVec F S16 .f32) (v364_3 : FVec F S16 .f32) (v364_4 : FVec F S16 .f32) (v364_5 : FVec F S16 .f32) (v364_6 : FVec F S16 .f32) (v364_7 : FVec F S16 .f32) (v364_8 : FVec F S16 .f32) (v364_9 : FVec F S16 .f32) (v364_10 : FVec F S16 .f32) (v364_11 : FVec F S16 .f32) (v364_12 : FVec F S16 .f32) (v364_13 : FVec F S16 .f32) (v364_14 : FVec F S16 .f32) (v364_15 : FVec F S16 .f32) (v364_16 : FVec F S16 .f32) (v364_17 : FVec F S16 .f32) (v364_18 : FVec F S16 .f32) (v364_19 : FVec F S16 .f32) (v364_20 : FVec F S16 .f32) (v364_21 : FVec F S16 .f32) (v364_22 : FVec F S16 .f32) (v364_23 : FVec F S16 .f32) (v364_24 : FVec F S16 .f32) (v364_25 : FVec F S16 .f32) (v364_26 : FVec F S16 .f32) (v364_27 : FVec F S16 .f32) (v364_28 : FVec F S16 .f32) (v364_29 : FVec F S16 .f32) (v364_30 : FVec F S16 .f32) (v364_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t12_loop.lb k0_t12_loop.ub k0_t12_loop.st k0_t12_ok init
      (k0_t12_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v364_0 v364_1 v364_2 v364_3 v364_4 v364_5 v364_6 v364_7 v364_8 v364_9 v364_10 v364_11 v364_12 v364_13 v364_14 v364_15 v364_16 v364_17 v364_18 v364_19 v364_20 v364_21 v364_22 v364_23 v364_24 v364_25 v364_26 v364_27 v364_28 v364_29 v364_30 v364_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t12 (Memref.whole cc0_scratch1) w k init⌝)
  step k acc := by
    iintro ⟨H, %hacc⟩
    sl_exec
    sl_step
    isplitl [H]; · iexact H
    ipureintro
    show _ = rowsFold_t12 (Memref.whole cc0_scratch1) w (k.val + 1) init
    rw [rowsFold_t12, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t12 (Memref.whole cc0_scratch1) w ⟨k.val, k.isLt⟩ acc
        = addRow_t12 (Memref.whole cc0_scratch1) (View.write (Elt F) (Memref.whole cc0_scratch1 : Memref sig .scVector .vmem S64x512 .f32).view prev w Finset.univ) ⟨k.val, k.isLt⟩ acc from by rw [e]]
    rfl

/-- One trip of loop 13: row k of the buffer added to the 32 accumulators, 16 lanes each. -/
def addRow_t13 (M : Memref sig .scVector .vmem S64x512 .f32) (f : M.view.ty.Contents (Elt F)) (k : Fin k0_t13_loop.trips) (acc : Acc F) : Acc F :=
  (addf (acc.1) (rowRead M f (k0_off390 k) (k0_off390_inb k)),
    addf (acc.2.1) (rowRead M f (k0_off391 k) (k0_off391_inb k)),
    addf (acc.2.2.1) (rowRead M f (k0_off392 k) (k0_off392_inb k)),
    addf (acc.2.2.2.1) (rowRead M f (k0_off393 k) (k0_off393_inb k)),
    addf (acc.2.2.2.2.1) (rowRead M f (k0_off394 k) (k0_off394_inb k)),
    addf (acc.2.2.2.2.2.1) (rowRead M f (k0_off395 k) (k0_off395_inb k)),
    addf (acc.2.2.2.2.2.2.1) (rowRead M f (k0_off396 k) (k0_off396_inb k)),
    addf (acc.2.2.2.2.2.2.2.1) (rowRead M f (k0_off397 k) (k0_off397_inb k)),
    addf (acc.2.2.2.2.2.2.2.2.1) (rowRead M f (k0_off398 k) (k0_off398_inb k)),
    addf (acc.2.2.2.2.2.2.2.2.2.1) (rowRead M f (k0_off399 k) (k0_off399_inb k)),
    addf (acc.2.2.2.2.2.2.2.2.2.2.1) (rowRead M f (k0_off400 k) (k0_off400_inb k)),
    addf (acc.2.2.2.2.2.2.2.2.2.2.2.1) (rowRead M f (k0_off401 k) (k0_off401_inb k)),
    addf (acc.2.2.2.2.2.2.2.2.2.2.2.2.1) (rowRead M f (k0_off402 k) (k0_off402_inb k)),
    addf (acc.2.2.2.2.2.2.2.2.2.2.2.2.2.1) (rowRead M f (k0_off403 k) (k0_off403_inb k)),
    addf (acc.2.2.2.2.2.2.2.2.2.2.2.2.2.2.1) (rowRead M f (k0_off404 k) (k0_off404_inb k)),
    addf (acc.2.2.2.2.2.2.2.2.2.2.2.2.2.2.2.1) (rowRead M f (k0_off405 k) (k0_off405_inb k)),
    addf (acc.2.2.2.2.2.2.2.2.2.2.2.2.2.2.2.2.1) (rowRead M f (k0_off406 k) (k0_off406_inb k)),
    addf (acc.2.2.2.2.2.2.2.2.2.2.2.2.2.2.2.2.2.1) (rowRead M f (k0_off407 k) (k0_off407_inb k)),
    addf (acc.2.2.2.2.2.2.2.2.2.2.2.2.2.2.2.2.2.2.1) (rowRead M f (k0_off408 k) (k0_off408_inb k)),
    addf (acc.2.2.2.2.2.2.2.2.2.2.2.2.2.2.2.2.2.2.2.1) (rowRead M f (k0_off409 k) (k0_off409_inb k)),
    addf (acc.2.2.2.2.2.2.2.2.2.2.2.2.2.2.2.2.2.2.2.2.1) (rowRead M f (k0_off410 k) (k0_off410_inb k)),
    addf (acc.2.2.2.2.2.2.2.2.2.2.2.2.2.2.2.2.2.2.2.2.2.1) (rowRead M f (k0_off411 k) (k0_off411_inb k)),
    addf (acc.2.2.2.2.2.2.2.2.2.2.2.2.2.2.2.2.2.2.2.2.2.2.1) (rowRead M f (k0_off412 k) (k0_off412_inb k)),
    addf (acc.2.2.2.2.2.2.2.2.2.2.2.2.2.2.2.2.2.2.2.2.2.2.2.1) (rowRead M f (k0_off413 k) (k0_off413_inb k)),
    addf (acc.2.2.2.2.2.2.2.2.2.2.2.2.2.2.2.2.2.2.2.2.2.2.2.2.1) (rowRead M f (k0_off414 k) (k0_off414_inb k)),
    addf (acc.2.2.2.2.2.2.2.2.2.2.2.2.2.2.2.2.2.2.2.2.2.2.2.2.2.1) (rowRead M f (k0_off415 k) (k0_off415_inb k)),
    addf (acc.2.2.2.2.2.2.2.2.2.2.2.2.2.2.2.2.2.2.2.2.2.2.2.2.2.2.1) (rowRead M f (k0_off416 k) (k0_off416_inb k)),
    addf (acc.2.2.2.2.2.2.2.2.2.2.2.2.2.2.2.2.2.2.2.2.2.2.2.2.2.2.2.1) (rowRead M f (k0_off417 k) (k0_off417_inb k)),
    addf (acc.2.2.2.2.2.2.2.2.2.2.2.2.2.2.2.2.2.2.2.2.2.2.2.2.2.2.2.2.1) (rowRead M f (k0_off418 k) (k0_off418_inb k)),
    addf (acc.2.2.2.2.2.2.2.2.2.2.2.2.2.2.2.2.2.2.2.2.2.2.2.2.2.2.2.2.2.1) (rowRead M f (k0_off419 k) (k0_off419_inb k)),
    addf (acc.2.2.2.2.2.2.2.2.2.2.2.2.2.2.2.2.2.2.2.2.2.2.2.2.2.2.2.2.2.2.1) (rowRead M f (k0_off420 k) (k0_off420_inb k)),
    addf (acc.2.2.2.2.2.2.2.2.2.2.2.2.2.2.2.2.2.2.2.2.2.2.2.2.2.2.2.2.2.2.2) (rowRead M f (k0_off421 k) (k0_off421_inb k)))

/-- The accumulators before trip k of loop 13, from those it starts with. -/
def rowsFold_t13 (M : Memref sig .scVector .vmem S64x512 .f32) (f : M.view.ty.Contents (Elt F)) : Nat → Acc F → Acc F
  | 0, init => init
  | k + 1, init => if h : k < k0_t13_loop.trips then addRow_t13 M f ⟨k, h⟩ (rowsFold_t13 M f k init) else rowsFold_t13 M f k init

set_option warn.classDefReducibility false in
/-- Loop 13 keeps the buffer it reads and carries the rows added so far. -/
@[sl_loop] def loopVal_t13 (d : Dev nD) (L : grid0.Coords) (v29 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t13_loop.lb k0_t13_loop.ub k0_t13_loop.st k0_t13_ok init
      (k0_t13_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t13 (Memref.whole cc0_scratch0) w k init⌝)
  step k acc := by
    iintro ⟨H, %hacc⟩
    sl_exec
    sl_step
    isplitl [H]; · iexact H
    ipureintro
    show _ = rowsFold_t13 (Memref.whole cc0_scratch0) w (k.val + 1) init
    rw [rowsFold_t13, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t13 (Memref.whole cc0_scratch0) w ⟨k.val, k.isLt⟩ acc
        = addRow_t13 (Memref.whole cc0_scratch0) (View.write (Elt F) (Memref.whole cc0_scratch0 : Memref sig .scVector .vmem S64x512 .f32).view prev w Finset.univ) ⟨k.val, k.isLt⟩ acc from by rw [e]]
    rfl

/-- One trip of loop 14: row k of the buffer added to the 32 accumulators, 16 lanes each. -/
def addRow_t14 (M : Memref sig .scVector .vmem S64x512 .f32) (f : M.view.ty.Contents (Elt F)) (k : Fin k0_t14_loop.trips) (acc : Acc F) : Acc F :=
  (addf (acc.1) (rowRead M f (k0_off422 k) (k0_off422_inb k)),
    addf (acc.2.1) (rowRead M f (k0_off423 k) (k0_off423_inb k)),
    addf (acc.2.2.1) (rowRead M f (k0_off424 k) (k0_off424_inb k)),
    addf (acc.2.2.2.1) (rowRead M f (k0_off425 k) (k0_off425_inb k)),
    addf (acc.2.2.2.2.1) (rowRead M f (k0_off426 k) (k0_off426_inb k)),
    addf (acc.2.2.2.2.2.1) (rowRead M f (k0_off427 k) (k0_off427_inb k)),
    addf (acc.2.2.2.2.2.2.1) (rowRead M f (k0_off428 k) (k0_off428_inb k)),
    addf (acc.2.2.2.2.2.2.2.1) (rowRead M f (k0_off429 k) (k0_off429_inb k)),
    addf (acc.2.2.2.2.2.2.2.2.1) (rowRead M f (k0_off430 k) (k0_off430_inb k)),
    addf (acc.2.2.2.2.2.2.2.2.2.1) (rowRead M f (k0_off431 k) (k0_off431_inb k)),
    addf (acc.2.2.2.2.2.2.2.2.2.2.1) (rowRead M f (k0_off432 k) (k0_off432_inb k)),
    addf (acc.2.2.2.2.2.2.2.2.2.2.2.1) (rowRead M f (k0_off433 k) (k0_off433_inb k)),
    addf (acc.2.2.2.2.2.2.2.2.2.2.2.2.1) (rowRead M f (k0_off434 k) (k0_off434_inb k)),
    addf (acc.2.2.2.2.2.2.2.2.2.2.2.2.2.1) (rowRead M f (k0_off435 k) (k0_off435_inb k)),
    addf (acc.2.2.2.2.2.2.2.2.2.2.2.2.2.2.1) (rowRead M f (k0_off436 k) (k0_off436_inb k)),
    addf (acc.2.2.2.2.2.2.2.2.2.2.2.2.2.2.2.1) (rowRead M f (k0_off437 k) (k0_off437_inb k)),
    addf (acc.2.2.2.2.2.2.2.2.2.2.2.2.2.2.2.2.1) (rowRead M f (k0_off438 k) (k0_off438_inb k)),
    addf (acc.2.2.2.2.2.2.2.2.2.2.2.2.2.2.2.2.2.1) (rowRead M f (k0_off439 k) (k0_off439_inb k)),
    addf (acc.2.2.2.2.2.2.2.2.2.2.2.2.2.2.2.2.2.2.1) (rowRead M f (k0_off440 k) (k0_off440_inb k)),
    addf (acc.2.2.2.2.2.2.2.2.2.2.2.2.2.2.2.2.2.2.2.1) (rowRead M f (k0_off441 k) (k0_off441_inb k)),
    addf (acc.2.2.2.2.2.2.2.2.2.2.2.2.2.2.2.2.2.2.2.2.1) (rowRead M f (k0_off442 k) (k0_off442_inb k)),
    addf (acc.2.2.2.2.2.2.2.2.2.2.2.2.2.2.2.2.2.2.2.2.2.1) (rowRead M f (k0_off443 k) (k0_off443_inb k)),
    addf (acc.2.2.2.2.2.2.2.2.2.2.2.2.2.2.2.2.2.2.2.2.2.2.1) (rowRead M f (k0_off444 k) (k0_off444_inb k)),
    addf (acc.2.2.2.2.2.2.2.2.2.2.2.2.2.2.2.2.2.2.2.2.2.2.2.1) (rowRead M f (k0_off445 k) (k0_off445_inb k)),
    addf (acc.2.2.2.2.2.2.2.2.2.2.2.2.2.2.2.2.2.2.2.2.2.2.2.2.1) (rowRead M f (k0_off446 k) (k0_off446_inb k)),
    addf (acc.2.2.2.2.2.2.2.2.2.2.2.2.2.2.2.2.2.2.2.2.2.2.2.2.2.1) (rowRead M f (k0_off447 k) (k0_off447_inb k)),
    addf (acc.2.2.2.2.2.2.2.2.2.2.2.2.2.2.2.2.2.2.2.2.2.2.2.2.2.2.1) (rowRead M f (k0_off448 k) (k0_off448_inb k)),
    addf (acc.2.2.2.2.2.2.2.2.2.2.2.2.2.2.2.2.2.2.2.2.2.2.2.2.2.2.2.1) (rowRead M f (k0_off449 k) (k0_off449_inb k)),
    addf (acc.2.2.2.2.2.2.2.2.2.2.2.2.2.2.2.2.2.2.2.2.2.2.2.2.2.2.2.2.1) (rowRead M f (k0_off450 k) (k0_off450_inb k)),
    addf (acc.2.2.2.2.2.2.2.2.2.2.2.2.2.2.2.2.2.2.2.2.2.2.2.2.2.2.2.2.2.1) (rowRead M f (k0_off451 k) (k0_off451_inb k)),
    addf (acc.2.2.2.2.2.2.2.2.2.2.2.2.2.2.2.2.2.2.2.2.2.2.2.2.2.2.2.2.2.2.1) (rowRead M f (k0_off452 k) (k0_off452_inb k)),
    addf (acc.2.2.2.2.2.2.2.2.2.2.2.2.2.2.2.2.2.2.2.2.2.2.2.2.2.2.2.2.2.2.2) (rowRead M f (k0_off453 k) (k0_off453_inb k)))

/-- The accumulators before trip k of loop 14, from those it starts with. -/
def rowsFold_t14 (M : Memref sig .scVector .vmem S64x512 .f32) (f : M.view.ty.Contents (Elt F)) : Nat → Acc F → Acc F
  | 0, init => init
  | k + 1, init => if h : k < k0_t14_loop.trips then addRow_t14 M f ⟨k, h⟩ (rowsFold_t14 M f k init) else rowsFold_t14 M f k init

set_option warn.classDefReducibility false in
/-- Loop 14 keeps the buffer it reads and carries the rows added so far. -/
@[sl_loop] def loopVal_t14 (d : Dev nD) (L : grid0.Coords) (v29 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t14_loop.lb k0_t14_loop.ub k0_t14_loop.st k0_t14_ok init
      (k0_t14_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t14 (Memref.whole cc0_scratch1) w k init⌝)
  step k acc := by
    iintro ⟨H, %hacc⟩
    sl_exec
    sl_step
    isplitl [H]; · iexact H
    ipureintro
    show _ = rowsFold_t14 (Memref.whole cc0_scratch1) w (k.val + 1) init
    rw [rowsFold_t14, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t14 (Memref.whole cc0_scratch1) w ⟨k.val, k.isLt⟩ acc
        = addRow_t14 (Memref.whole cc0_scratch1) (View.write (Elt F) (Memref.whole cc0_scratch1 : Memref sig .scVector .vmem S64x512 .f32).view prev w Finset.univ) ⟨k.val, k.isLt⟩ acc from by rw [e]]
    rfl

/-- One trip of loop 15: row k of the buffer added to the 32 accumulators, 16 lanes each. -/
def addRow_t15 (M : Memref sig .scVector .vmem S64x512 .f32) (f : M.view.ty.Contents (Elt F)) (k : Fin k0_t15_loop.trips) (acc : Acc F) : Acc F :=
  (addf (acc.1) (rowRead M f (k0_off454 k) (k0_off454_inb k)),
    addf (acc.2.1) (rowRead M f (k0_off455 k) (k0_off455_inb k)),
    addf (acc.2.2.1) (rowRead M f (k0_off456 k) (k0_off456_inb k)),
    addf (acc.2.2.2.1) (rowRead M f (k0_off457 k) (k0_off457_inb k)),
    addf (acc.2.2.2.2.1) (rowRead M f (k0_off458 k) (k0_off458_inb k)),
    addf (acc.2.2.2.2.2.1) (rowRead M f (k0_off459 k) (k0_off459_inb k)),
    addf (acc.2.2.2.2.2.2.1) (rowRead M f (k0_off460 k) (k0_off460_inb k)),
    addf (acc.2.2.2.2.2.2.2.1) (rowRead M f (k0_off461 k) (k0_off461_inb k)),
    addf (acc.2.2.2.2.2.2.2.2.1) (rowRead M f (k0_off462 k) (k0_off462_inb k)),
    addf (acc.2.2.2.2.2.2.2.2.2.1) (rowRead M f (k0_off463 k) (k0_off463_inb k)),
    addf (acc.2.2.2.2.2.2.2.2.2.2.1) (rowRead M f (k0_off464 k) (k0_off464_inb k)),
    addf (acc.2.2.2.2.2.2.2.2.2.2.2.1) (rowRead M f (k0_off465 k) (k0_off465_inb k)),
    addf (acc.2.2.2.2.2.2.2.2.2.2.2.2.1) (rowRead M f (k0_off466 k) (k0_off466_inb k)),
    addf (acc.2.2.2.2.2.2.2.2.2.2.2.2.2.1) (rowRead M f (k0_off467 k) (k0_off467_inb k)),
    addf (acc.2.2.2.2.2.2.2.2.2.2.2.2.2.2.1) (rowRead M f (k0_off468 k) (k0_off468_inb k)),
    addf (acc.2.2.2.2.2.2.2.2.2.2.2.2.2.2.2.1) (rowRead M f (k0_off469 k) (k0_off469_inb k)),
    addf (acc.2.2.2.2.2.2.2.2.2.2.2.2.2.2.2.2.1) (rowRead M f (k0_off470 k) (k0_off470_inb k)),
    addf (acc.2.2.2.2.2.2.2.2.2.2.2.2.2.2.2.2.2.1) (rowRead M f (k0_off471 k) (k0_off471_inb k)),
    addf (acc.2.2.2.2.2.2.2.2.2.2.2.2.2.2.2.2.2.2.1) (rowRead M f (k0_off472 k) (k0_off472_inb k)),
    addf (acc.2.2.2.2.2.2.2.2.2.2.2.2.2.2.2.2.2.2.2.1) (rowRead M f (k0_off473 k) (k0_off473_inb k)),
    addf (acc.2.2.2.2.2.2.2.2.2.2.2.2.2.2.2.2.2.2.2.2.1) (rowRead M f (k0_off474 k) (k0_off474_inb k)),
    addf (acc.2.2.2.2.2.2.2.2.2.2.2.2.2.2.2.2.2.2.2.2.2.1) (rowRead M f (k0_off475 k) (k0_off475_inb k)),
    addf (acc.2.2.2.2.2.2.2.2.2.2.2.2.2.2.2.2.2.2.2.2.2.2.1) (rowRead M f (k0_off476 k) (k0_off476_inb k)),
    addf (acc.2.2.2.2.2.2.2.2.2.2.2.2.2.2.2.2.2.2.2.2.2.2.2.1) (rowRead M f (k0_off477 k) (k0_off477_inb k)),
    addf (acc.2.2.2.2.2.2.2.2.2.2.2.2.2.2.2.2.2.2.2.2.2.2.2.2.1) (rowRead M f (k0_off478 k) (k0_off478_inb k)),
    addf (acc.2.2.2.2.2.2.2.2.2.2.2.2.2.2.2.2.2.2.2.2.2.2.2.2.2.1) (rowRead M f (k0_off479 k) (k0_off479_inb k)),
    addf (acc.2.2.2.2.2.2.2.2.2.2.2.2.2.2.2.2.2.2.2.2.2.2.2.2.2.2.1) (rowRead M f (k0_off480 k) (k0_off480_inb k)),
    addf (acc.2.2.2.2.2.2.2.2.2.2.2.2.2.2.2.2.2.2.2.2.2.2.2.2.2.2.2.1) (rowRead M f (k0_off481 k) (k0_off481_inb k)),
    addf (acc.2.2.2.2.2.2.2.2.2.2.2.2.2.2.2.2.2.2.2.2.2.2.2.2.2.2.2.2.1) (rowRead M f (k0_off482 k) (k0_off482_inb k)),
    addf (acc.2.2.2.2.2.2.2.2.2.2.2.2.2.2.2.2.2.2.2.2.2.2.2.2.2.2.2.2.2.1) (rowRead M f (k0_off483 k) (k0_off483_inb k)),
    addf (acc.2.2.2.2.2.2.2.2.2.2.2.2.2.2.2.2.2.2.2.2.2.2.2.2.2.2.2.2.2.2.1) (rowRead M f (k0_off484 k) (k0_off484_inb k)),
    addf (acc.2.2.2.2.2.2.2.2.2.2.2.2.2.2.2.2.2.2.2.2.2.2.2.2.2.2.2.2.2.2.2) (rowRead M f (k0_off485 k) (k0_off485_inb k)))

/-- The accumulators before trip k of loop 15, from those it starts with. -/
def rowsFold_t15 (M : Memref sig .scVector .vmem S64x512 .f32) (f : M.view.ty.Contents (Elt F)) : Nat → Acc F → Acc F
  | 0, init => init
  | k + 1, init => if h : k < k0_t15_loop.trips then addRow_t15 M f ⟨k, h⟩ (rowsFold_t15 M f k init) else rowsFold_t15 M f k init

set_option warn.classDefReducibility false in
/-- Loop 15 keeps the buffer it reads and carries the rows added so far. -/
@[sl_loop] def loopVal_t15 (d : Dev nD) (L : grid0.Coords) (v29 : BitVec 32) (v535_0 : FVec F S16 .f32) (v535_1 : FVec F S16 .f32) (v535_2 : FVec F S16 .f32) (v535_3 : FVec F S16 .f32) (v535_4 : FVec F S16 .f32) (v535_5 : FVec F S16 .f32) (v535_6 : FVec F S16 .f32) (v535_7 : FVec F S16 .f32) (v535_8 : FVec F S16 .f32) (v535_9 : FVec F S16 .f32) (v535_10 : FVec F S16 .f32) (v535_11 : FVec F S16 .f32) (v535_12 : FVec F S16 .f32) (v535_13 : FVec F S16 .f32) (v535_14 : FVec F S16 .f32) (v535_15 : FVec F S16 .f32) (v535_16 : FVec F S16 .f32) (v535_17 : FVec F S16 .f32) (v535_18 : FVec F S16 .f32) (v535_19 : FVec F S16 .f32) (v535_20 : FVec F S16 .f32) (v535_21 : FVec F S16 .f32) (v535_22 : FVec F S16 .f32) (v535_23 : FVec F S16 .f32) (v535_24 : FVec F S16 .f32) (v535_25 : FVec F S16 .f32) (v535_26 : FVec F S16 .f32) (v535_27 : FVec F S16 .f32) (v535_28 : FVec F S16 .f32) (v535_29 : FVec F S16 .f32) (v535_30 : FVec F S16 .f32) (v535_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t15_loop.lb k0_t15_loop.ub k0_t15_loop.st k0_t15_ok init
      (k0_t15_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v535_0 v535_1 v535_2 v535_3 v535_4 v535_5 v535_6 v535_7 v535_8 v535_9 v535_10 v535_11 v535_12 v535_13 v535_14 v535_15 v535_16 v535_17 v535_18 v535_19 v535_20 v535_21 v535_22 v535_23 v535_24 v535_25 v535_26 v535_27 v535_28 v535_29 v535_30 v535_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t15 (Memref.whole cc0_scratch0) w k init⌝)
  step k acc := by
    iintro ⟨H, %hacc⟩
    sl_exec
    sl_step
    isplitl [H]; · iexact H
    ipureintro
    show _ = rowsFold_t15 (Memref.whole cc0_scratch0) w (k.val + 1) init
    rw [rowsFold_t15, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t15 (Memref.whole cc0_scratch0) w ⟨k.val, k.isLt⟩ acc
        = addRow_t15 (Memref.whole cc0_scratch0) (View.write (Elt F) (Memref.whole cc0_scratch0 : Memref sig .scVector .vmem S64x512 .f32).view prev w Finset.univ) ⟨k.val, k.isLt⟩ acc from by rw [e]]
    rfl

/-- One trip of loop 16: row k of the buffer added to the 32 accumulators, 16 lanes each. -/
def addRow_t16 (M : Memref sig .scVector .vmem S64x512 .f32) (f : M.view.ty.Contents (Elt F)) (k : Fin k0_t16_loop.trips) (acc : Acc F) : Acc F :=
  (addf (acc.1) (rowRead M f (k0_off487 k) (k0_off487_inb k)),
    addf (acc.2.1) (rowRead M f (k0_off488 k) (k0_off488_inb k)),
    addf (acc.2.2.1) (rowRead M f (k0_off489 k) (k0_off489_inb k)),
    addf (acc.2.2.2.1) (rowRead M f (k0_off490 k) (k0_off490_inb k)),
    addf (acc.2.2.2.2.1) (rowRead M f (k0_off491 k) (k0_off491_inb k)),
    addf (acc.2.2.2.2.2.1) (rowRead M f (k0_off492 k) (k0_off492_inb k)),
    addf (acc.2.2.2.2.2.2.1) (rowRead M f (k0_off493 k) (k0_off493_inb k)),
    addf (acc.2.2.2.2.2.2.2.1) (rowRead M f (k0_off494 k) (k0_off494_inb k)),
    addf (acc.2.2.2.2.2.2.2.2.1) (rowRead M f (k0_off495 k) (k0_off495_inb k)),
    addf (acc.2.2.2.2.2.2.2.2.2.1) (rowRead M f (k0_off496 k) (k0_off496_inb k)),
    addf (acc.2.2.2.2.2.2.2.2.2.2.1) (rowRead M f (k0_off497 k) (k0_off497_inb k)),
    addf (acc.2.2.2.2.2.2.2.2.2.2.2.1) (rowRead M f (k0_off498 k) (k0_off498_inb k)),
    addf (acc.2.2.2.2.2.2.2.2.2.2.2.2.1) (rowRead M f (k0_off499 k) (k0_off499_inb k)),
    addf (acc.2.2.2.2.2.2.2.2.2.2.2.2.2.1) (rowRead M f (k0_off500 k) (k0_off500_inb k)),
    addf (acc.2.2.2.2.2.2.2.2.2.2.2.2.2.2.1) (rowRead M f (k0_off501 k) (k0_off501_inb k)),
    addf (acc.2.2.2.2.2.2.2.2.2.2.2.2.2.2.2.1) (rowRead M f (k0_off502 k) (k0_off502_inb k)),
    addf (acc.2.2.2.2.2.2.2.2.2.2.2.2.2.2.2.2.1) (rowRead M f (k0_off503 k) (k0_off503_inb k)),
    addf (acc.2.2.2.2.2.2.2.2.2.2.2.2.2.2.2.2.2.1) (rowRead M f (k0_off504 k) (k0_off504_inb k)),
    addf (acc.2.2.2.2.2.2.2.2.2.2.2.2.2.2.2.2.2.2.1) (rowRead M f (k0_off505 k) (k0_off505_inb k)),
    addf (acc.2.2.2.2.2.2.2.2.2.2.2.2.2.2.2.2.2.2.2.1) (rowRead M f (k0_off506 k) (k0_off506_inb k)),
    addf (acc.2.2.2.2.2.2.2.2.2.2.2.2.2.2.2.2.2.2.2.2.1) (rowRead M f (k0_off507 k) (k0_off507_inb k)),
    addf (acc.2.2.2.2.2.2.2.2.2.2.2.2.2.2.2.2.2.2.2.2.2.1) (rowRead M f (k0_off508 k) (k0_off508_inb k)),
    addf (acc.2.2.2.2.2.2.2.2.2.2.2.2.2.2.2.2.2.2.2.2.2.2.1) (rowRead M f (k0_off509 k) (k0_off509_inb k)),
    addf (acc.2.2.2.2.2.2.2.2.2.2.2.2.2.2.2.2.2.2.2.2.2.2.2.1) (rowRead M f (k0_off510 k) (k0_off510_inb k)),
    addf (acc.2.2.2.2.2.2.2.2.2.2.2.2.2.2.2.2.2.2.2.2.2.2.2.2.1) (rowRead M f (k0_off511 k) (k0_off511_inb k)),
    addf (acc.2.2.2.2.2.2.2.2.2.2.2.2.2.2.2.2.2.2.2.2.2.2.2.2.2.1) (rowRead M f (k0_off512 k) (k0_off512_inb k)),
    addf (acc.2.2.2.2.2.2.2.2.2.2.2.2.2.2.2.2.2.2.2.2.2.2.2.2.2.2.1) (rowRead M f (k0_off513 k) (k0_off513_inb k)),
    addf (acc.2.2.2.2.2.2.2.2.2.2.2.2.2.2.2.2.2.2.2.2.2.2.2.2.2.2.2.1) (rowRead M f (k0_off514 k) (k0_off514_inb k)),
    addf (acc.2.2.2.2.2.2.2.2.2.2.2.2.2.2.2.2.2.2.2.2.2.2.2.2.2.2.2.2.1) (rowRead M f (k0_off515 k) (k0_off515_inb k)),
    addf (acc.2.2.2.2.2.2.2.2.2.2.2.2.2.2.2.2.2.2.2.2.2.2.2.2.2.2.2.2.2.1) (rowRead M f (k0_off516 k) (k0_off516_inb k)),
    addf (acc.2.2.2.2.2.2.2.2.2.2.2.2.2.2.2.2.2.2.2.2.2.2.2.2.2.2.2.2.2.2.1) (rowRead M f (k0_off517 k) (k0_off517_inb k)),
    addf (acc.2.2.2.2.2.2.2.2.2.2.2.2.2.2.2.2.2.2.2.2.2.2.2.2.2.2.2.2.2.2.2) (rowRead M f (k0_off518 k) (k0_off518_inb k)))

/-- The accumulators before trip k of loop 16, from those it starts with. -/
def rowsFold_t16 (M : Memref sig .scVector .vmem S64x512 .f32) (f : M.view.ty.Contents (Elt F)) : Nat → Acc F → Acc F
  | 0, init => init
  | k + 1, init => if h : k < k0_t16_loop.trips then addRow_t16 M f ⟨k, h⟩ (rowsFold_t16 M f k init) else rowsFold_t16 M f k init

set_option warn.classDefReducibility false in
/-- Loop 16 keeps the buffer it reads and carries the rows added so far. -/
@[sl_loop] def loopVal_t16 (d : Dev nD) (L : grid0.Coords) (v29 : BitVec 32) (v535_0 : FVec F S16 .f32) (v535_1 : FVec F S16 .f32) (v535_2 : FVec F S16 .f32) (v535_3 : FVec F S16 .f32) (v535_4 : FVec F S16 .f32) (v535_5 : FVec F S16 .f32) (v535_6 : FVec F S16 .f32) (v535_7 : FVec F S16 .f32) (v535_8 : FVec F S16 .f32) (v535_9 : FVec F S16 .f32) (v535_10 : FVec F S16 .f32) (v535_11 : FVec F S16 .f32) (v535_12 : FVec F S16 .f32) (v535_13 : FVec F S16 .f32) (v535_14 : FVec F S16 .f32) (v535_15 : FVec F S16 .f32) (v535_16 : FVec F S16 .f32) (v535_17 : FVec F S16 .f32) (v535_18 : FVec F S16 .f32) (v535_19 : FVec F S16 .f32) (v535_20 : FVec F S16 .f32) (v535_21 : FVec F S16 .f32) (v535_22 : FVec F S16 .f32) (v535_23 : FVec F S16 .f32) (v535_24 : FVec F S16 .f32) (v535_25 : FVec F S16 .f32) (v535_26 : FVec F S16 .f32) (v535_27 : FVec F S16 .f32) (v535_28 : FVec F S16 .f32) (v535_29 : FVec F S16 .f32) (v535_30 : FVec F S16 .f32) (v535_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t16_loop.lb k0_t16_loop.ub k0_t16_loop.st k0_t16_ok init
      (k0_t16_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v535_0 v535_1 v535_2 v535_3 v535_4 v535_5 v535_6 v535_7 v535_8 v535_9 v535_10 v535_11 v535_12 v535_13 v535_14 v535_15 v535_16 v535_17 v535_18 v535_19 v535_20 v535_21 v535_22 v535_23 v535_24 v535_25 v535_26 v535_27 v535_28 v535_29 v535_30 v535_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t16 (Memref.whole cc0_scratch1) w k init⌝)
  step k acc := by
    iintro ⟨H, %hacc⟩
    sl_exec
    sl_step
    isplitl [H]; · iexact H
    ipureintro
    show _ = rowsFold_t16 (Memref.whole cc0_scratch1) w (k.val + 1) init
    rw [rowsFold_t16, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t16 (Memref.whole cc0_scratch1) w ⟨k.val, k.isLt⟩ acc
        = addRow_t16 (Memref.whole cc0_scratch1) (View.write (Elt F) (Memref.whole cc0_scratch1 : Memref sig .scVector .vmem S64x512 .f32).view prev w Finset.univ) ⟨k.val, k.isLt⟩ acc from by rw [e]]
    rfl

/-- One trip of loop 17: row k of the buffer added to the 32 accumulators, 16 lanes each. -/
def addRow_t17 (M : Memref sig .scVector .vmem S64x512 .f32) (f : M.view.ty.Contents (Elt F)) (k : Fin k0_t17_loop.trips) (acc : Acc F) : Acc F :=
  (addf (acc.1) (rowRead M f (k0_off519 k) (k0_off519_inb k)),
    addf (acc.2.1) (rowRead M f (k0_off520 k) (k0_off520_inb k)),
    addf (acc.2.2.1) (rowRead M f (k0_off521 k) (k0_off521_inb k)),
    addf (acc.2.2.2.1) (rowRead M f (k0_off522 k) (k0_off522_inb k)),
    addf (acc.2.2.2.2.1) (rowRead M f (k0_off523 k) (k0_off523_inb k)),
    addf (acc.2.2.2.2.2.1) (rowRead M f (k0_off524 k) (k0_off524_inb k)),
    addf (acc.2.2.2.2.2.2.1) (rowRead M f (k0_off525 k) (k0_off525_inb k)),
    addf (acc.2.2.2.2.2.2.2.1) (rowRead M f (k0_off526 k) (k0_off526_inb k)),
    addf (acc.2.2.2.2.2.2.2.2.1) (rowRead M f (k0_off527 k) (k0_off527_inb k)),
    addf (acc.2.2.2.2.2.2.2.2.2.1) (rowRead M f (k0_off528 k) (k0_off528_inb k)),
    addf (acc.2.2.2.2.2.2.2.2.2.2.1) (rowRead M f (k0_off529 k) (k0_off529_inb k)),
    addf (acc.2.2.2.2.2.2.2.2.2.2.2.1) (rowRead M f (k0_off530 k) (k0_off530_inb k)),
    addf (acc.2.2.2.2.2.2.2.2.2.2.2.2.1) (rowRead M f (k0_off531 k) (k0_off531_inb k)),
    addf (acc.2.2.2.2.2.2.2.2.2.2.2.2.2.1) (rowRead M f (k0_off532 k) (k0_off532_inb k)),
    addf (acc.2.2.2.2.2.2.2.2.2.2.2.2.2.2.1) (rowRead M f (k0_off533 k) (k0_off533_inb k)),
    addf (acc.2.2.2.2.2.2.2.2.2.2.2.2.2.2.2.1) (rowRead M f (k0_off534 k) (k0_off534_inb k)),
    addf (acc.2.2.2.2.2.2.2.2.2.2.2.2.2.2.2.2.1) (rowRead M f (k0_off535 k) (k0_off535_inb k)),
    addf (acc.2.2.2.2.2.2.2.2.2.2.2.2.2.2.2.2.2.1) (rowRead M f (k0_off536 k) (k0_off536_inb k)),
    addf (acc.2.2.2.2.2.2.2.2.2.2.2.2.2.2.2.2.2.2.1) (rowRead M f (k0_off537 k) (k0_off537_inb k)),
    addf (acc.2.2.2.2.2.2.2.2.2.2.2.2.2.2.2.2.2.2.2.1) (rowRead M f (k0_off538 k) (k0_off538_inb k)),
    addf (acc.2.2.2.2.2.2.2.2.2.2.2.2.2.2.2.2.2.2.2.2.1) (rowRead M f (k0_off539 k) (k0_off539_inb k)),
    addf (acc.2.2.2.2.2.2.2.2.2.2.2.2.2.2.2.2.2.2.2.2.2.1) (rowRead M f (k0_off540 k) (k0_off540_inb k)),
    addf (acc.2.2.2.2.2.2.2.2.2.2.2.2.2.2.2.2.2.2.2.2.2.2.1) (rowRead M f (k0_off541 k) (k0_off541_inb k)),
    addf (acc.2.2.2.2.2.2.2.2.2.2.2.2.2.2.2.2.2.2.2.2.2.2.2.1) (rowRead M f (k0_off542 k) (k0_off542_inb k)),
    addf (acc.2.2.2.2.2.2.2.2.2.2.2.2.2.2.2.2.2.2.2.2.2.2.2.2.1) (rowRead M f (k0_off543 k) (k0_off543_inb k)),
    addf (acc.2.2.2.2.2.2.2.2.2.2.2.2.2.2.2.2.2.2.2.2.2.2.2.2.2.1) (rowRead M f (k0_off544 k) (k0_off544_inb k)),
    addf (acc.2.2.2.2.2.2.2.2.2.2.2.2.2.2.2.2.2.2.2.2.2.2.2.2.2.2.1) (rowRead M f (k0_off545 k) (k0_off545_inb k)),
    addf (acc.2.2.2.2.2.2.2.2.2.2.2.2.2.2.2.2.2.2.2.2.2.2.2.2.2.2.2.1) (rowRead M f (k0_off546 k) (k0_off546_inb k)),
    addf (acc.2.2.2.2.2.2.2.2.2.2.2.2.2.2.2.2.2.2.2.2.2.2.2.2.2.2.2.2.1) (rowRead M f (k0_off547 k) (k0_off547_inb k)),
    addf (acc.2.2.2.2.2.2.2.2.2.2.2.2.2.2.2.2.2.2.2.2.2.2.2.2.2.2.2.2.2.1) (rowRead M f (k0_off548 k) (k0_off548_inb k)),
    addf (acc.2.2.2.2.2.2.2.2.2.2.2.2.2.2.2.2.2.2.2.2.2.2.2.2.2.2.2.2.2.2.1) (rowRead M f (k0_off549 k) (k0_off549_inb k)),
    addf (acc.2.2.2.2.2.2.2.2.2.2.2.2.2.2.2.2.2.2.2.2.2.2.2.2.2.2.2.2.2.2.2) (rowRead M f (k0_off550 k) (k0_off550_inb k)))

/-- The accumulators before trip k of loop 17, from those it starts with. -/
def rowsFold_t17 (M : Memref sig .scVector .vmem S64x512 .f32) (f : M.view.ty.Contents (Elt F)) : Nat → Acc F → Acc F
  | 0, init => init
  | k + 1, init => if h : k < k0_t17_loop.trips then addRow_t17 M f ⟨k, h⟩ (rowsFold_t17 M f k init) else rowsFold_t17 M f k init

set_option warn.classDefReducibility false in
/-- Loop 17 keeps the buffer it reads and carries the rows added so far. -/
@[sl_loop] def loopVal_t17 (d : Dev nD) (L : grid0.Coords) (v12 : BitVec 32) (v29 : BitVec 32) (v563_26 : FVec F S16 .f32) (v563_27 : FVec F S16 .f32) (v563_28 : FVec F S16 .f32) (v563_29 : FVec F S16 .f32) (v563_30 : FVec F S16 .f32) (v563_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t17_loop.lb k0_t17_loop.ub k0_t17_loop.st k0_t17_ok init
      (k0_t17_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v12 v29 v563_26 v563_27 v563_28 v563_29 v563_30 v563_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t17 (Memref.whole cc0_scratch0) w k init⌝)
  step k acc := by
    iintro ⟨H, %hacc⟩
    sl_exec
    sl_step
    isplitl [H]; · iexact H
    ipureintro
    show _ = rowsFold_t17 (Memref.whole cc0_scratch0) w (k.val + 1) init
    rw [rowsFold_t17, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t17 (Memref.whole cc0_scratch0) w ⟨k.val, k.isLt⟩ acc
        = addRow_t17 (Memref.whole cc0_scratch0) (View.write (Elt F) (Memref.whole cc0_scratch0 : Memref sig .scVector .vmem S64x512 .f32).view prev w Finset.univ) ⟨k.val, k.isLt⟩ acc from by rw [e]]
    rfl

/-- One trip of loop 18: row k of the buffer added to the 32 accumulators, 16 lanes each. -/
def addRow_t18 (M : Memref sig .scVector .vmem S64x512 .f32) (f : M.view.ty.Contents (Elt F)) (k : Fin k0_t18_loop.trips) (acc : Acc F) : Acc F :=
  (addf (acc.1) (rowRead M f (k0_off551 k) (k0_off551_inb k)),
    addf (acc.2.1) (rowRead M f (k0_off552 k) (k0_off552_inb k)),
    addf (acc.2.2.1) (rowRead M f (k0_off553 k) (k0_off553_inb k)),
    addf (acc.2.2.2.1) (rowRead M f (k0_off554 k) (k0_off554_inb k)),
    addf (acc.2.2.2.2.1) (rowRead M f (k0_off555 k) (k0_off555_inb k)),
    addf (acc.2.2.2.2.2.1) (rowRead M f (k0_off556 k) (k0_off556_inb k)),
    addf (acc.2.2.2.2.2.2.1) (rowRead M f (k0_off557 k) (k0_off557_inb k)),
    addf (acc.2.2.2.2.2.2.2.1) (rowRead M f (k0_off558 k) (k0_off558_inb k)),
    addf (acc.2.2.2.2.2.2.2.2.1) (rowRead M f (k0_off559 k) (k0_off559_inb k)),
    addf (acc.2.2.2.2.2.2.2.2.2.1) (rowRead M f (k0_off560 k) (k0_off560_inb k)),
    addf (acc.2.2.2.2.2.2.2.2.2.2.1) (rowRead M f (k0_off561 k) (k0_off561_inb k)),
    addf (acc.2.2.2.2.2.2.2.2.2.2.2.1) (rowRead M f (k0_off562 k) (k0_off562_inb k)),
    addf (acc.2.2.2.2.2.2.2.2.2.2.2.2.1) (rowRead M f (k0_off563 k) (k0_off563_inb k)),
    addf (acc.2.2.2.2.2.2.2.2.2.2.2.2.2.1) (rowRead M f (k0_off564 k) (k0_off564_inb k)),
    addf (acc.2.2.2.2.2.2.2.2.2.2.2.2.2.2.1) (rowRead M f (k0_off565 k) (k0_off565_inb k)),
    addf (acc.2.2.2.2.2.2.2.2.2.2.2.2.2.2.2.1) (rowRead M f (k0_off566 k) (k0_off566_inb k)),
    addf (acc.2.2.2.2.2.2.2.2.2.2.2.2.2.2.2.2.1) (rowRead M f (k0_off567 k) (k0_off567_inb k)),
    addf (acc.2.2.2.2.2.2.2.2.2.2.2.2.2.2.2.2.2.1) (rowRead M f (k0_off568 k) (k0_off568_inb k)),
    addf (acc.2.2.2.2.2.2.2.2.2.2.2.2.2.2.2.2.2.2.1) (rowRead M f (k0_off569 k) (k0_off569_inb k)),
    addf (acc.2.2.2.2.2.2.2.2.2.2.2.2.2.2.2.2.2.2.2.1) (rowRead M f (k0_off570 k) (k0_off570_inb k)),
    addf (acc.2.2.2.2.2.2.2.2.2.2.2.2.2.2.2.2.2.2.2.2.1) (rowRead M f (k0_off571 k) (k0_off571_inb k)),
    addf (acc.2.2.2.2.2.2.2.2.2.2.2.2.2.2.2.2.2.2.2.2.2.1) (rowRead M f (k0_off572 k) (k0_off572_inb k)),
    addf (acc.2.2.2.2.2.2.2.2.2.2.2.2.2.2.2.2.2.2.2.2.2.2.1) (rowRead M f (k0_off573 k) (k0_off573_inb k)),
    addf (acc.2.2.2.2.2.2.2.2.2.2.2.2.2.2.2.2.2.2.2.2.2.2.2.1) (rowRead M f (k0_off574 k) (k0_off574_inb k)),
    addf (acc.2.2.2.2.2.2.2.2.2.2.2.2.2.2.2.2.2.2.2.2.2.2.2.2.1) (rowRead M f (k0_off575 k) (k0_off575_inb k)),
    addf (acc.2.2.2.2.2.2.2.2.2.2.2.2.2.2.2.2.2.2.2.2.2.2.2.2.2.1) (rowRead M f (k0_off576 k) (k0_off576_inb k)),
    addf (acc.2.2.2.2.2.2.2.2.2.2.2.2.2.2.2.2.2.2.2.2.2.2.2.2.2.2.1) (rowRead M f (k0_off577 k) (k0_off577_inb k)),
    addf (acc.2.2.2.2.2.2.2.2.2.2.2.2.2.2.2.2.2.2.2.2.2.2.2.2.2.2.2.1) (rowRead M f (k0_off578 k) (k0_off578_inb k)),
    addf (acc.2.2.2.2.2.2.2.2.2.2.2.2.2.2.2.2.2.2.2.2.2.2.2.2.2.2.2.2.1) (rowRead M f (k0_off579 k) (k0_off579_inb k)),
    addf (acc.2.2.2.2.2.2.2.2.2.2.2.2.2.2.2.2.2.2.2.2.2.2.2.2.2.2.2.2.2.1) (rowRead M f (k0_off580 k) (k0_off580_inb k)),
    addf (acc.2.2.2.2.2.2.2.2.2.2.2.2.2.2.2.2.2.2.2.2.2.2.2.2.2.2.2.2.2.2.1) (rowRead M f (k0_off581 k) (k0_off581_inb k)),
    addf (acc.2.2.2.2.2.2.2.2.2.2.2.2.2.2.2.2.2.2.2.2.2.2.2.2.2.2.2.2.2.2.2) (rowRead M f (k0_off582 k) (k0_off582_inb k)))

/-- The accumulators before trip k of loop 18, from those it starts with. -/
def rowsFold_t18 (M : Memref sig .scVector .vmem S64x512 .f32) (f : M.view.ty.Contents (Elt F)) : Nat → Acc F → Acc F
  | 0, init => init
  | k + 1, init => if h : k < k0_t18_loop.trips then addRow_t18 M f ⟨k, h⟩ (rowsFold_t18 M f k init) else rowsFold_t18 M f k init

set_option warn.classDefReducibility false in
/-- Loop 18 keeps the buffer it reads and carries the rows added so far. -/
@[sl_loop] def loopVal_t18 (d : Dev nD) (L : grid0.Coords) (v29 : BitVec 32) (v678_0 : FVec F S16 .f32) (v678_1 : FVec F S16 .f32) (v678_2 : FVec F S16 .f32) (v678_3 : FVec F S16 .f32) (v678_4 : FVec F S16 .f32) (v678_5 : FVec F S16 .f32) (v678_6 : FVec F S16 .f32) (v678_7 : FVec F S16 .f32) (v678_8 : FVec F S16 .f32) (v678_9 : FVec F S16 .f32) (v678_10 : FVec F S16 .f32) (v678_11 : FVec F S16 .f32) (v678_12 : FVec F S16 .f32) (v678_13 : FVec F S16 .f32) (v678_14 : FVec F S16 .f32) (v678_15 : FVec F S16 .f32) (v678_16 : FVec F S16 .f32) (v678_17 : FVec F S16 .f32) (v678_18 : FVec F S16 .f32) (v678_19 : FVec F S16 .f32) (v678_20 : FVec F S16 .f32) (v678_21 : FVec F S16 .f32) (v678_22 : FVec F S16 .f32) (v678_23 : FVec F S16 .f32) (v678_24 : FVec F S16 .f32) (v678_25 : FVec F S16 .f32) (v678_26 : FVec F S16 .f32) (v678_27 : FVec F S16 .f32) (v678_28 : FVec F S16 .f32) (v678_29 : FVec F S16 .f32) (v678_30 : FVec F S16 .f32) (v678_31 : FVec F S16 .f32) (v679 : BitVec 32) (c128_i32_279 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t18_loop.lb k0_t18_loop.ub k0_t18_loop.st k0_t18_ok init
      (k0_t18_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v678_0 v678_1 v678_2 v678_3 v678_4 v678_5 v678_6 v678_7 v678_8 v678_9 v678_10 v678_11 v678_12 v678_13 v678_14 v678_15 v678_16 v678_17 v678_18 v678_19 v678_20 v678_21 v678_22 v678_23 v678_24 v678_25 v678_26 v678_27 v678_28 v678_29 v678_30 v678_31 v679 c128_i32_279) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t18 (Memref.whole cc0_scratch1) w k init⌝)
  step k acc := by
    iintro ⟨H, %hacc⟩
    sl_exec
    sl_step
    isplitl [H]; · iexact H
    ipureintro
    show _ = rowsFold_t18 (Memref.whole cc0_scratch1) w (k.val + 1) init
    rw [rowsFold_t18, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t18 (Memref.whole cc0_scratch1) w ⟨k.val, k.isLt⟩ acc
        = addRow_t18 (Memref.whole cc0_scratch1) (View.write (Elt F) (Memref.whole cc0_scratch1 : Memref sig .scVector .vmem S64x512 .f32).view prev w Finset.univ) ⟨k.val, k.isLt⟩ acc from by rw [e]]
    rfl

/-- One trip of loop 19: row k of the buffer added to the 32 accumulators, 16 lanes each. -/
def addRow_t19 (M : Memref sig .scVector .vmem S64x512 .f32) (f : M.view.ty.Contents (Elt F)) (k : Fin k0_t19_loop.trips) (acc : Acc F) : Acc F :=
  (addf (acc.1) (rowRead M f (k0_off583 k) (k0_off583_inb k)),
    addf (acc.2.1) (rowRead M f (k0_off584 k) (k0_off584_inb k)),
    addf (acc.2.2.1) (rowRead M f (k0_off585 k) (k0_off585_inb k)),
    addf (acc.2.2.2.1) (rowRead M f (k0_off586 k) (k0_off586_inb k)),
    addf (acc.2.2.2.2.1) (rowRead M f (k0_off587 k) (k0_off587_inb k)),
    addf (acc.2.2.2.2.2.1) (rowRead M f (k0_off588 k) (k0_off588_inb k)),
    addf (acc.2.2.2.2.2.2.1) (rowRead M f (k0_off589 k) (k0_off589_inb k)),
    addf (acc.2.2.2.2.2.2.2.1) (rowRead M f (k0_off590 k) (k0_off590_inb k)),
    addf (acc.2.2.2.2.2.2.2.2.1) (rowRead M f (k0_off591 k) (k0_off591_inb k)),
    addf (acc.2.2.2.2.2.2.2.2.2.1) (rowRead M f (k0_off592 k) (k0_off592_inb k)),
    addf (acc.2.2.2.2.2.2.2.2.2.2.1) (rowRead M f (k0_off593 k) (k0_off593_inb k)),
    addf (acc.2.2.2.2.2.2.2.2.2.2.2.1) (rowRead M f (k0_off594 k) (k0_off594_inb k)),
    addf (acc.2.2.2.2.2.2.2.2.2.2.2.2.1) (rowRead M f (k0_off595 k) (k0_off595_inb k)),
    addf (acc.2.2.2.2.2.2.2.2.2.2.2.2.2.1) (rowRead M f (k0_off596 k) (k0_off596_inb k)),
    addf (acc.2.2.2.2.2.2.2.2.2.2.2.2.2.2.1) (rowRead M f (k0_off597 k) (k0_off597_inb k)),
    addf (acc.2.2.2.2.2.2.2.2.2.2.2.2.2.2.2.1) (rowRead M f (k0_off598 k) (k0_off598_inb k)),
    addf (acc.2.2.2.2.2.2.2.2.2.2.2.2.2.2.2.2.1) (rowRead M f (k0_off599 k) (k0_off599_inb k)),
    addf (acc.2.2.2.2.2.2.2.2.2.2.2.2.2.2.2.2.2.1) (rowRead M f (k0_off600 k) (k0_off600_inb k)),
    addf (acc.2.2.2.2.2.2.2.2.2.2.2.2.2.2.2.2.2.2.1) (rowRead M f (k0_off601 k) (k0_off601_inb k)),
    addf (acc.2.2.2.2.2.2.2.2.2.2.2.2.2.2.2.2.2.2.2.1) (rowRead M f (k0_off602 k) (k0_off602_inb k)),
    addf (acc.2.2.2.2.2.2.2.2.2.2.2.2.2.2.2.2.2.2.2.2.1) (rowRead M f (k0_off603 k) (k0_off603_inb k)),
    addf (acc.2.2.2.2.2.2.2.2.2.2.2.2.2.2.2.2.2.2.2.2.2.1) (rowRead M f (k0_off604 k) (k0_off604_inb k)),
    addf (acc.2.2.2.2.2.2.2.2.2.2.2.2.2.2.2.2.2.2.2.2.2.2.1) (rowRead M f (k0_off605 k) (k0_off605_inb k)),
    addf (acc.2.2.2.2.2.2.2.2.2.2.2.2.2.2.2.2.2.2.2.2.2.2.2.1) (rowRead M f (k0_off606 k) (k0_off606_inb k)),
    addf (acc.2.2.2.2.2.2.2.2.2.2.2.2.2.2.2.2.2.2.2.2.2.2.2.2.1) (rowRead M f (k0_off607 k) (k0_off607_inb k)),
    addf (acc.2.2.2.2.2.2.2.2.2.2.2.2.2.2.2.2.2.2.2.2.2.2.2.2.2.1) (rowRead M f (k0_off608 k) (k0_off608_inb k)),
    addf (acc.2.2.2.2.2.2.2.2.2.2.2.2.2.2.2.2.2.2.2.2.2.2.2.2.2.2.1) (rowRead M f (k0_off609 k) (k0_off609_inb k)),
    addf (acc.2.2.2.2.2.2.2.2.2.2.2.2.2.2.2.2.2.2.2.2.2.2.2.2.2.2.2.1) (rowRead M f (k0_off610 k) (k0_off610_inb k)),
    addf (acc.2.2.2.2.2.2.2.2.2.2.2.2.2.2.2.2.2.2.2.2.2.2.2.2.2.2.2.2.1) (rowRead M f (k0_off611 k) (k0_off611_inb k)),
    addf (acc.2.2.2.2.2.2.2.2.2.2.2.2.2.2.2.2.2.2.2.2.2.2.2.2.2.2.2.2.2.1) (rowRead M f (k0_off612 k) (k0_off612_inb k)),
    addf (acc.2.2.2.2.2.2.2.2.2.2.2.2.2.2.2.2.2.2.2.2.2.2.2.2.2.2.2.2.2.2.1) (rowRead M f (k0_off613 k) (k0_off613_inb k)),
    addf (acc.2.2.2.2.2.2.2.2.2.2.2.2.2.2.2.2.2.2.2.2.2.2.2.2.2.2.2.2.2.2.2) (rowRead M f (k0_off614 k) (k0_off614_inb k)))

/-- The accumulators before trip k of loop 19, from those it starts with. -/
def rowsFold_t19 (M : Memref sig .scVector .vmem S64x512 .f32) (f : M.view.ty.Contents (Elt F)) : Nat → Acc F → Acc F
  | 0, init => init
  | k + 1, init => if h : k < k0_t19_loop.trips then addRow_t19 M f ⟨k, h⟩ (rowsFold_t19 M f k init) else rowsFold_t19 M f k init

set_option warn.classDefReducibility false in
/-- Loop 19 keeps the buffer it reads and carries the rows added so far. -/
@[sl_loop] def loopVal_t19 (d : Dev nD) (L : grid0.Coords) (v29 : BitVec 32) (v678_0 : FVec F S16 .f32) (v678_1 : FVec F S16 .f32) (v678_2 : FVec F S16 .f32) (v678_3 : FVec F S16 .f32) (v678_4 : FVec F S16 .f32) (v678_5 : FVec F S16 .f32) (v678_6 : FVec F S16 .f32) (v678_7 : FVec F S16 .f32) (v678_8 : FVec F S16 .f32) (v678_9 : FVec F S16 .f32) (v678_10 : FVec F S16 .f32) (v678_11 : FVec F S16 .f32) (v678_12 : FVec F S16 .f32) (v678_13 : FVec F S16 .f32) (v678_14 : FVec F S16 .f32) (v678_15 : FVec F S16 .f32) (v678_16 : FVec F S16 .f32) (v678_17 : FVec F S16 .f32) (v678_18 : FVec F S16 .f32) (v678_19 : FVec F S16 .f32) (v678_20 : FVec F S16 .f32) (v678_21 : FVec F S16 .f32) (v678_22 : FVec F S16 .f32) (v678_23 : FVec F S16 .f32) (v678_24 : FVec F S16 .f32) (v678_25 : FVec F S16 .f32) (v678_26 : FVec F S16 .f32) (v678_27 : FVec F S16 .f32) (v678_28 : FVec F S16 .f32) (v678_29 : FVec F S16 .f32) (v678_30 : FVec F S16 .f32) (v678_31 : FVec F S16 .f32) (v679 : BitVec 32) (c128_i32_279 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t19_loop.lb k0_t19_loop.ub k0_t19_loop.st k0_t19_ok init
      (k0_t19_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v678_0 v678_1 v678_2 v678_3 v678_4 v678_5 v678_6 v678_7 v678_8 v678_9 v678_10 v678_11 v678_12 v678_13 v678_14 v678_15 v678_16 v678_17 v678_18 v678_19 v678_20 v678_21 v678_22 v678_23 v678_24 v678_25 v678_26 v678_27 v678_28 v678_29 v678_30 v678_31 v679 c128_i32_279) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t19 (Memref.whole cc0_scratch0) w k init⌝)
  step k acc := by
    iintro ⟨H, %hacc⟩
    sl_exec
    sl_step
    isplitl [H]; · iexact H
    ipureintro
    show _ = rowsFold_t19 (Memref.whole cc0_scratch0) w (k.val + 1) init
    rw [rowsFold_t19, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t19 (Memref.whole cc0_scratch0) w ⟨k.val, k.isLt⟩ acc
        = addRow_t19 (Memref.whole cc0_scratch0) (View.write (Elt F) (Memref.whole cc0_scratch0 : Memref sig .scVector .vmem S64x512 .f32).view prev w Finset.univ) ⟨k.val, k.isLt⟩ acc from by rw [e]]
    rfl

/-- One trip of loop 20: row k of the buffer added to the 32 accumulators, 16 lanes each. -/
def addRow_t20 (M : Memref sig .scVector .vmem S64x512 .f32) (f : M.view.ty.Contents (Elt F)) (k : Fin k0_t20_loop.trips) (acc : Acc F) : Acc F :=
  (addf (acc.1) (rowRead M f (k0_off616 k) (k0_off616_inb k)),
    addf (acc.2.1) (rowRead M f (k0_off617 k) (k0_off617_inb k)),
    addf (acc.2.2.1) (rowRead M f (k0_off618 k) (k0_off618_inb k)),
    addf (acc.2.2.2.1) (rowRead M f (k0_off619 k) (k0_off619_inb k)),
    addf (acc.2.2.2.2.1) (rowRead M f (k0_off620 k) (k0_off620_inb k)),
    addf (acc.2.2.2.2.2.1) (rowRead M f (k0_off621 k) (k0_off621_inb k)),
    addf (acc.2.2.2.2.2.2.1) (rowRead M f (k0_off622 k) (k0_off622_inb k)),
    addf (acc.2.2.2.2.2.2.2.1) (rowRead M f (k0_off623 k) (k0_off623_inb k)),
    addf (acc.2.2.2.2.2.2.2.2.1) (rowRead M f (k0_off624 k) (k0_off624_inb k)),
    addf (acc.2.2.2.2.2.2.2.2.2.1) (rowRead M f (k0_off625 k) (k0_off625_inb k)),
    addf (acc.2.2.2.2.2.2.2.2.2.2.1) (rowRead M f (k0_off626 k) (k0_off626_inb k)),
    addf (acc.2.2.2.2.2.2.2.2.2.2.2.1) (rowRead M f (k0_off627 k) (k0_off627_inb k)),
    addf (acc.2.2.2.2.2.2.2.2.2.2.2.2.1) (rowRead M f (k0_off628 k) (k0_off628_inb k)),
    addf (acc.2.2.2.2.2.2.2.2.2.2.2.2.2.1) (rowRead M f (k0_off629 k) (k0_off629_inb k)),
    addf (acc.2.2.2.2.2.2.2.2.2.2.2.2.2.2.1) (rowRead M f (k0_off630 k) (k0_off630_inb k)),
    addf (acc.2.2.2.2.2.2.2.2.2.2.2.2.2.2.2.1) (rowRead M f (k0_off631 k) (k0_off631_inb k)),
    addf (acc.2.2.2.2.2.2.2.2.2.2.2.2.2.2.2.2.1) (rowRead M f (k0_off632 k) (k0_off632_inb k)),
    addf (acc.2.2.2.2.2.2.2.2.2.2.2.2.2.2.2.2.2.1) (rowRead M f (k0_off633 k) (k0_off633_inb k)),
    addf (acc.2.2.2.2.2.2.2.2.2.2.2.2.2.2.2.2.2.2.1) (rowRead M f (k0_off634 k) (k0_off634_inb k)),
    addf (acc.2.2.2.2.2.2.2.2.2.2.2.2.2.2.2.2.2.2.2.1) (rowRead M f (k0_off635 k) (k0_off635_inb k)),
    addf (acc.2.2.2.2.2.2.2.2.2.2.2.2.2.2.2.2.2.2.2.2.1) (rowRead M f (k0_off636 k) (k0_off636_inb k)),
    addf (acc.2.2.2.2.2.2.2.2.2.2.2.2.2.2.2.2.2.2.2.2.2.1) (rowRead M f (k0_off637 k) (k0_off637_inb k)),
    addf (acc.2.2.2.2.2.2.2.2.2.2.2.2.2.2.2.2.2.2.2.2.2.2.1) (rowRead M f (k0_off638 k) (k0_off638_inb k)),
    addf (acc.2.2.2.2.2.2.2.2.2.2.2.2.2.2.2.2.2.2.2.2.2.2.2.1) (rowRead M f (k0_off639 k) (k0_off639_inb k)),
    addf (acc.2.2.2.2.2.2.2.2.2.2.2.2.2.2.2.2.2.2.2.2.2.2.2.2.1) (rowRead M f (k0_off640 k) (k0_off640_inb k)),
    addf (acc.2.2.2.2.2.2.2.2.2.2.2.2.2.2.2.2.2.2.2.2.2.2.2.2.2.1) (rowRead M f (k0_off641 k) (k0_off641_inb k)),
    addf (acc.2.2.2.2.2.2.2.2.2.2.2.2.2.2.2.2.2.2.2.2.2.2.2.2.2.2.1) (rowRead M f (k0_off642 k) (k0_off642_inb k)),
    addf (acc.2.2.2.2.2.2.2.2.2.2.2.2.2.2.2.2.2.2.2.2.2.2.2.2.2.2.2.1) (rowRead M f (k0_off643 k) (k0_off643_inb k)),
    addf (acc.2.2.2.2.2.2.2.2.2.2.2.2.2.2.2.2.2.2.2.2.2.2.2.2.2.2.2.2.1) (rowRead M f (k0_off644 k) (k0_off644_inb k)),
    addf (acc.2.2.2.2.2.2.2.2.2.2.2.2.2.2.2.2.2.2.2.2.2.2.2.2.2.2.2.2.2.1) (rowRead M f (k0_off645 k) (k0_off645_inb k)),
    addf (acc.2.2.2.2.2.2.2.2.2.2.2.2.2.2.2.2.2.2.2.2.2.2.2.2.2.2.2.2.2.2.1) (rowRead M f (k0_off646 k) (k0_off646_inb k)),
    addf (acc.2.2.2.2.2.2.2.2.2.2.2.2.2.2.2.2.2.2.2.2.2.2.2.2.2.2.2.2.2.2.2) (rowRead M f (k0_off647 k) (k0_off647_inb k)))

/-- The accumulators before trip k of loop 20, from those it starts with. -/
def rowsFold_t20 (M : Memref sig .scVector .vmem S64x512 .f32) (f : M.view.ty.Contents (Elt F)) : Nat → Acc F → Acc F
  | 0, init => init
  | k + 1, init => if h : k < k0_t20_loop.trips then addRow_t20 M f ⟨k, h⟩ (rowsFold_t20 M f k init) else rowsFold_t20 M f k init

set_option warn.classDefReducibility false in
/-- Loop 20 keeps the buffer it reads and carries the rows added so far. -/
@[sl_loop] def loopVal_t20 (d : Dev nD) (L : grid0.Coords) (v29 : BitVec 32) (v706_0 : FVec F S16 .f32) (v706_1 : FVec F S16 .f32) (v706_2 : FVec F S16 .f32) (v706_3 : FVec F S16 .f32) (v706_4 : FVec F S16 .f32) (v706_5 : FVec F S16 .f32) (v706_6 : FVec F S16 .f32) (v706_7 : FVec F S16 .f32) (v706_8 : FVec F S16 .f32) (v706_9 : FVec F S16 .f32) (v706_10 : FVec F S16 .f32) (v706_11 : FVec F S16 .f32) (v706_12 : FVec F S16 .f32) (v706_13 : FVec F S16 .f32) (v706_14 : FVec F S16 .f32) (v706_15 : FVec F S16 .f32) (v706_16 : FVec F S16 .f32) (v706_17 : FVec F S16 .f32) (v706_18 : FVec F S16 .f32) (v706_19 : FVec F S16 .f32) (v706_20 : FVec F S16 .f32) (v706_21 : FVec F S16 .f32) (v706_22 : FVec F S16 .f32) (v706_23 : FVec F S16 .f32) (v706_24 : FVec F S16 .f32) (v706_25 : FVec F S16 .f32) (v706_26 : FVec F S16 .f32) (v706_27 : FVec F S16 .f32) (v706_28 : FVec F S16 .f32) (v706_29 : FVec F S16 .f32) (v706_30 : FVec F S16 .f32) (v706_31 : FVec F S16 .f32) (c256_i32_300 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t20_loop.lb k0_t20_loop.ub k0_t20_loop.st k0_t20_ok init
      (k0_t20_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v706_0 v706_1 v706_2 v706_3 v706_4 v706_5 v706_6 v706_7 v706_8 v706_9 v706_10 v706_11 v706_12 v706_13 v706_14 v706_15 v706_16 v706_17 v706_18 v706_19 v706_20 v706_21 v706_22 v706_23 v706_24 v706_25 v706_26 v706_27 v706_28 v706_29 v706_30 v706_31 c256_i32_300) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t20 (Memref.whole cc0_scratch1) w k init⌝)
  step k acc := by
    iintro ⟨H, %hacc⟩
    sl_exec
    sl_step
    isplitl [H]; · iexact H
    ipureintro
    show _ = rowsFold_t20 (Memref.whole cc0_scratch1) w (k.val + 1) init
    rw [rowsFold_t20, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t20 (Memref.whole cc0_scratch1) w ⟨k.val, k.isLt⟩ acc
        = addRow_t20 (Memref.whole cc0_scratch1) (View.write (Elt F) (Memref.whole cc0_scratch1 : Memref sig .scVector .vmem S64x512 .f32).view prev w Finset.univ) ⟨k.val, k.isLt⟩ acc from by rw [e]]
    rfl

/-- One trip of loop 21: row k of the buffer added to the 32 accumulators, 16 lanes each. -/
def addRow_t21 (M : Memref sig .scVector .vmem S64x512 .f32) (f : M.view.ty.Contents (Elt F)) (k : Fin k0_t21_loop.trips) (acc : Acc F) : Acc F :=
  (addf (acc.1) (rowRead M f (k0_off648 k) (k0_off648_inb k)),
    addf (acc.2.1) (rowRead M f (k0_off649 k) (k0_off649_inb k)),
    addf (acc.2.2.1) (rowRead M f (k0_off650 k) (k0_off650_inb k)),
    addf (acc.2.2.2.1) (rowRead M f (k0_off651 k) (k0_off651_inb k)),
    addf (acc.2.2.2.2.1) (rowRead M f (k0_off652 k) (k0_off652_inb k)),
    addf (acc.2.2.2.2.2.1) (rowRead M f (k0_off653 k) (k0_off653_inb k)),
    addf (acc.2.2.2.2.2.2.1) (rowRead M f (k0_off654 k) (k0_off654_inb k)),
    addf (acc.2.2.2.2.2.2.2.1) (rowRead M f (k0_off655 k) (k0_off655_inb k)),
    addf (acc.2.2.2.2.2.2.2.2.1) (rowRead M f (k0_off656 k) (k0_off656_inb k)),
    addf (acc.2.2.2.2.2.2.2.2.2.1) (rowRead M f (k0_off657 k) (k0_off657_inb k)),
    addf (acc.2.2.2.2.2.2.2.2.2.2.1) (rowRead M f (k0_off658 k) (k0_off658_inb k)),
    addf (acc.2.2.2.2.2.2.2.2.2.2.2.1) (rowRead M f (k0_off659 k) (k0_off659_inb k)),
    addf (acc.2.2.2.2.2.2.2.2.2.2.2.2.1) (rowRead M f (k0_off660 k) (k0_off660_inb k)),
    addf (acc.2.2.2.2.2.2.2.2.2.2.2.2.2.1) (rowRead M f (k0_off661 k) (k0_off661_inb k)),
    addf (acc.2.2.2.2.2.2.2.2.2.2.2.2.2.2.1) (rowRead M f (k0_off662 k) (k0_off662_inb k)),
    addf (acc.2.2.2.2.2.2.2.2.2.2.2.2.2.2.2.1) (rowRead M f (k0_off663 k) (k0_off663_inb k)),
    addf (acc.2.2.2.2.2.2.2.2.2.2.2.2.2.2.2.2.1) (rowRead M f (k0_off664 k) (k0_off664_inb k)),
    addf (acc.2.2.2.2.2.2.2.2.2.2.2.2.2.2.2.2.2.1) (rowRead M f (k0_off665 k) (k0_off665_inb k)),
    addf (acc.2.2.2.2.2.2.2.2.2.2.2.2.2.2.2.2.2.2.1) (rowRead M f (k0_off666 k) (k0_off666_inb k)),
    addf (acc.2.2.2.2.2.2.2.2.2.2.2.2.2.2.2.2.2.2.2.1) (rowRead M f (k0_off667 k) (k0_off667_inb k)),
    addf (acc.2.2.2.2.2.2.2.2.2.2.2.2.2.2.2.2.2.2.2.2.1) (rowRead M f (k0_off668 k) (k0_off668_inb k)),
    addf (acc.2.2.2.2.2.2.2.2.2.2.2.2.2.2.2.2.2.2.2.2.2.1) (rowRead M f (k0_off669 k) (k0_off669_inb k)),
    addf (acc.2.2.2.2.2.2.2.2.2.2.2.2.2.2.2.2.2.2.2.2.2.2.1) (rowRead M f (k0_off670 k) (k0_off670_inb k)),
    addf (acc.2.2.2.2.2.2.2.2.2.2.2.2.2.2.2.2.2.2.2.2.2.2.2.1) (rowRead M f (k0_off671 k) (k0_off671_inb k)),
    addf (acc.2.2.2.2.2.2.2.2.2.2.2.2.2.2.2.2.2.2.2.2.2.2.2.2.1) (rowRead M f (k0_off672 k) (k0_off672_inb k)),
    addf (acc.2.2.2.2.2.2.2.2.2.2.2.2.2.2.2.2.2.2.2.2.2.2.2.2.2.1) (rowRead M f (k0_off673 k) (k0_off673_inb k)),
    addf (acc.2.2.2.2.2.2.2.2.2.2.2.2.2.2.2.2.2.2.2.2.2.2.2.2.2.2.1) (rowRead M f (k0_off674 k) (k0_off674_inb k)),
    addf (acc.2.2.2.2.2.2.2.2.2.2.2.2.2.2.2.2.2.2.2.2.2.2.2.2.2.2.2.1) (rowRead M f (k0_off675 k) (k0_off675_inb k)),
    addf (acc.2.2.2.2.2.2.2.2.2.2.2.2.2.2.2.2.2.2.2.2.2.2.2.2.2.2.2.2.1) (rowRead M f (k0_off676 k) (k0_off676_inb k)),
    addf (acc.2.2.2.2.2.2.2.2.2.2.2.2.2.2.2.2.2.2.2.2.2.2.2.2.2.2.2.2.2.1) (rowRead M f (k0_off677 k) (k0_off677_inb k)),
    addf (acc.2.2.2.2.2.2.2.2.2.2.2.2.2.2.2.2.2.2.2.2.2.2.2.2.2.2.2.2.2.2.1) (rowRead M f (k0_off678 k) (k0_off678_inb k)),
    addf (acc.2.2.2.2.2.2.2.2.2.2.2.2.2.2.2.2.2.2.2.2.2.2.2.2.2.2.2.2.2.2.2) (rowRead M f (k0_off679 k) (k0_off679_inb k)))

/-- The accumulators before trip k of loop 21, from those it starts with. -/
def rowsFold_t21 (M : Memref sig .scVector .vmem S64x512 .f32) (f : M.view.ty.Contents (Elt F)) : Nat → Acc F → Acc F
  | 0, init => init
  | k + 1, init => if h : k < k0_t21_loop.trips then addRow_t21 M f ⟨k, h⟩ (rowsFold_t21 M f k init) else rowsFold_t21 M f k init

set_option warn.classDefReducibility false in
/-- Loop 21 keeps the buffer it reads and carries the rows added so far. -/
@[sl_loop] def loopVal_t21 (d : Dev nD) (L : grid0.Coords) (v12 : BitVec 32) (v29 : BitVec 32) (v720_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t21_loop.lb k0_t21_loop.ub k0_t21_loop.st k0_t21_ok init
      (k0_t21_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v12 v29 v720_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t21 (Memref.whole cc0_scratch0) w k init⌝)
  step k acc := by
    iintro ⟨H, %hacc⟩
    sl_exec
    sl_step
    isplitl [H]; · iexact H
    ipureintro
    show _ = rowsFold_t21 (Memref.whole cc0_scratch0) w (k.val + 1) init
    rw [rowsFold_t21, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t21 (Memref.whole cc0_scratch0) w ⟨k.val, k.isLt⟩ acc
        = addRow_t21 (Memref.whole cc0_scratch0) (View.write (Elt F) (Memref.whole cc0_scratch0 : Memref sig .scVector .vmem S64x512 .f32).view prev w Finset.univ) ⟨k.val, k.isLt⟩ acc from by rw [e]]
    rfl

/-- One trip of loop 22: row k of the buffer added to the 32 accumulators, 16 lanes each. -/
def addRow_t22 (M : Memref sig .scVector .vmem S64x512 .f32) (f : M.view.ty.Contents (Elt F)) (k : Fin k0_t22_loop.trips) (acc : Acc F) : Acc F :=
  (addf (acc.1) (rowRead M f (k0_off680 k) (k0_off680_inb k)),
    addf (acc.2.1) (rowRead M f (k0_off681 k) (k0_off681_inb k)),
    addf (acc.2.2.1) (rowRead M f (k0_off682 k) (k0_off682_inb k)),
    addf (acc.2.2.2.1) (rowRead M f (k0_off683 k) (k0_off683_inb k)),
    addf (acc.2.2.2.2.1) (rowRead M f (k0_off684 k) (k0_off684_inb k)),
    addf (acc.2.2.2.2.2.1) (rowRead M f (k0_off685 k) (k0_off685_inb k)),
    addf (acc.2.2.2.2.2.2.1) (rowRead M f (k0_off686 k) (k0_off686_inb k)),
    addf (acc.2.2.2.2.2.2.2.1) (rowRead M f (k0_off687 k) (k0_off687_inb k)),
    addf (acc.2.2.2.2.2.2.2.2.1) (rowRead M f (k0_off688 k) (k0_off688_inb k)),
    addf (acc.2.2.2.2.2.2.2.2.2.1) (rowRead M f (k0_off689 k) (k0_off689_inb k)),
    addf (acc.2.2.2.2.2.2.2.2.2.2.1) (rowRead M f (k0_off690 k) (k0_off690_inb k)),
    addf (acc.2.2.2.2.2.2.2.2.2.2.2.1) (rowRead M f (k0_off691 k) (k0_off691_inb k)),
    addf (acc.2.2.2.2.2.2.2.2.2.2.2.2.1) (rowRead M f (k0_off692 k) (k0_off692_inb k)),
    addf (acc.2.2.2.2.2.2.2.2.2.2.2.2.2.1) (rowRead M f (k0_off693 k) (k0_off693_inb k)),
    addf (acc.2.2.2.2.2.2.2.2.2.2.2.2.2.2.1) (rowRead M f (k0_off694 k) (k0_off694_inb k)),
    addf (acc.2.2.2.2.2.2.2.2.2.2.2.2.2.2.2.1) (rowRead M f (k0_off695 k) (k0_off695_inb k)),
    addf (acc.2.2.2.2.2.2.2.2.2.2.2.2.2.2.2.2.1) (rowRead M f (k0_off696 k) (k0_off696_inb k)),
    addf (acc.2.2.2.2.2.2.2.2.2.2.2.2.2.2.2.2.2.1) (rowRead M f (k0_off697 k) (k0_off697_inb k)),
    addf (acc.2.2.2.2.2.2.2.2.2.2.2.2.2.2.2.2.2.2.1) (rowRead M f (k0_off698 k) (k0_off698_inb k)),
    addf (acc.2.2.2.2.2.2.2.2.2.2.2.2.2.2.2.2.2.2.2.1) (rowRead M f (k0_off699 k) (k0_off699_inb k)),
    addf (acc.2.2.2.2.2.2.2.2.2.2.2.2.2.2.2.2.2.2.2.2.1) (rowRead M f (k0_off700 k) (k0_off700_inb k)),
    addf (acc.2.2.2.2.2.2.2.2.2.2.2.2.2.2.2.2.2.2.2.2.2.1) (rowRead M f (k0_off701 k) (k0_off701_inb k)),
    addf (acc.2.2.2.2.2.2.2.2.2.2.2.2.2.2.2.2.2.2.2.2.2.2.1) (rowRead M f (k0_off702 k) (k0_off702_inb k)),
    addf (acc.2.2.2.2.2.2.2.2.2.2.2.2.2.2.2.2.2.2.2.2.2.2.2.1) (rowRead M f (k0_off703 k) (k0_off703_inb k)),
    addf (acc.2.2.2.2.2.2.2.2.2.2.2.2.2.2.2.2.2.2.2.2.2.2.2.2.1) (rowRead M f (k0_off704 k) (k0_off704_inb k)),
    addf (acc.2.2.2.2.2.2.2.2.2.2.2.2.2.2.2.2.2.2.2.2.2.2.2.2.2.1) (rowRead M f (k0_off705 k) (k0_off705_inb k)),
    addf (acc.2.2.2.2.2.2.2.2.2.2.2.2.2.2.2.2.2.2.2.2.2.2.2.2.2.2.1) (rowRead M f (k0_off706 k) (k0_off706_inb k)),
    addf (acc.2.2.2.2.2.2.2.2.2.2.2.2.2.2.2.2.2.2.2.2.2.2.2.2.2.2.2.1) (rowRead M f (k0_off707 k) (k0_off707_inb k)),
    addf (acc.2.2.2.2.2.2.2.2.2.2.2.2.2.2.2.2.2.2.2.2.2.2.2.2.2.2.2.2.1) (rowRead M f (k0_off708 k) (k0_off708_inb k)),
    addf (acc.2.2.2.2.2.2.2.2.2.2.2.2.2.2.2.2.2.2.2.2.2.2.2.2.2.2.2.2.2.1) (rowRead M f (k0_off709 k) (k0_off709_inb k)),
    addf (acc.2.2.2.2.2.2.2.2.2.2.2.2.2.2.2.2.2.2.2.2.2.2.2.2.2.2.2.2.2.2.1) (rowRead M f (k0_off710 k) (k0_off710_inb k)),
    addf (acc.2.2.2.2.2.2.2.2.2.2.2.2.2.2.2.2.2.2.2.2.2.2.2.2.2.2.2.2.2.2.2) (rowRead M f (k0_off711 k) (k0_off711_inb k)))

/-- The accumulators before trip k of loop 22, from those it starts with. -/
def rowsFold_t22 (M : Memref sig .scVector .vmem S64x512 .f32) (f : M.view.ty.Contents (Elt F)) : Nat → Acc F → Acc F
  | 0, init => init
  | k + 1, init => if h : k < k0_t22_loop.trips then addRow_t22 M f ⟨k, h⟩ (rowsFold_t22 M f k init) else rowsFold_t22 M f k init

set_option warn.classDefReducibility false in
/-- Loop 22 keeps the buffer it reads and carries the rows added so far. -/
@[sl_loop] def loopVal_t22 (d : Dev nD) (L : grid0.Coords) (v12 : BitVec 32) (v29 : BitVec 32) (v720_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t22_loop.lb k0_t22_loop.ub k0_t22_loop.st k0_t22_ok init
      (k0_t22_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v12 v29 v720_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t22 (Memref.whole cc0_scratch1) w k init⌝)
  step k acc := by
    iintro ⟨H, %hacc⟩
    sl_exec
    sl_step
    isplitl [H]; · iexact H
    ipureintro
    show _ = rowsFold_t22 (Memref.whole cc0_scratch1) w (k.val + 1) init
    rw [rowsFold_t22, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t22 (Memref.whole cc0_scratch1) w ⟨k.val, k.isLt⟩ acc
        = addRow_t22 (Memref.whole cc0_scratch1) (View.write (Elt F) (Memref.whole cc0_scratch1 : Memref sig .scVector .vmem S64x512 .f32).view prev w Finset.univ) ⟨k.val, k.isLt⟩ acc from by rw [e]]
    rfl

/-- One trip of loop 23: row k of the buffer added to the 32 accumulators, 16 lanes each. -/
def addRow_t23 (M : Memref sig .scVector .vmem S64x512 .f32) (f : M.view.ty.Contents (Elt F)) (k : Fin k0_t23_loop.trips) (acc : Acc F) : Acc F :=
  (addf (acc.1) (rowRead M f (k0_off712 k) (k0_off712_inb k)),
    addf (acc.2.1) (rowRead M f (k0_off713 k) (k0_off713_inb k)),
    addf (acc.2.2.1) (rowRead M f (k0_off714 k) (k0_off714_inb k)),
    addf (acc.2.2.2.1) (rowRead M f (k0_off715 k) (k0_off715_inb k)),
    addf (acc.2.2.2.2.1) (rowRead M f (k0_off716 k) (k0_off716_inb k)),
    addf (acc.2.2.2.2.2.1) (rowRead M f (k0_off717 k) (k0_off717_inb k)),
    addf (acc.2.2.2.2.2.2.1) (rowRead M f (k0_off718 k) (k0_off718_inb k)),
    addf (acc.2.2.2.2.2.2.2.1) (rowRead M f (k0_off719 k) (k0_off719_inb k)),
    addf (acc.2.2.2.2.2.2.2.2.1) (rowRead M f (k0_off720 k) (k0_off720_inb k)),
    addf (acc.2.2.2.2.2.2.2.2.2.1) (rowRead M f (k0_off721 k) (k0_off721_inb k)),
    addf (acc.2.2.2.2.2.2.2.2.2.2.1) (rowRead M f (k0_off722 k) (k0_off722_inb k)),
    addf (acc.2.2.2.2.2.2.2.2.2.2.2.1) (rowRead M f (k0_off723 k) (k0_off723_inb k)),
    addf (acc.2.2.2.2.2.2.2.2.2.2.2.2.1) (rowRead M f (k0_off724 k) (k0_off724_inb k)),
    addf (acc.2.2.2.2.2.2.2.2.2.2.2.2.2.1) (rowRead M f (k0_off725 k) (k0_off725_inb k)),
    addf (acc.2.2.2.2.2.2.2.2.2.2.2.2.2.2.1) (rowRead M f (k0_off726 k) (k0_off726_inb k)),
    addf (acc.2.2.2.2.2.2.2.2.2.2.2.2.2.2.2.1) (rowRead M f (k0_off727 k) (k0_off727_inb k)),
    addf (acc.2.2.2.2.2.2.2.2.2.2.2.2.2.2.2.2.1) (rowRead M f (k0_off728 k) (k0_off728_inb k)),
    addf (acc.2.2.2.2.2.2.2.2.2.2.2.2.2.2.2.2.2.1) (rowRead M f (k0_off729 k) (k0_off729_inb k)),
    addf (acc.2.2.2.2.2.2.2.2.2.2.2.2.2.2.2.2.2.2.1) (rowRead M f (k0_off730 k) (k0_off730_inb k)),
    addf (acc.2.2.2.2.2.2.2.2.2.2.2.2.2.2.2.2.2.2.2.1) (rowRead M f (k0_off731 k) (k0_off731_inb k)),
    addf (acc.2.2.2.2.2.2.2.2.2.2.2.2.2.2.2.2.2.2.2.2.1) (rowRead M f (k0_off732 k) (k0_off732_inb k)),
    addf (acc.2.2.2.2.2.2.2.2.2.2.2.2.2.2.2.2.2.2.2.2.2.1) (rowRead M f (k0_off733 k) (k0_off733_inb k)),
    addf (acc.2.2.2.2.2.2.2.2.2.2.2.2.2.2.2.2.2.2.2.2.2.2.1) (rowRead M f (k0_off734 k) (k0_off734_inb k)),
    addf (acc.2.2.2.2.2.2.2.2.2.2.2.2.2.2.2.2.2.2.2.2.2.2.2.1) (rowRead M f (k0_off735 k) (k0_off735_inb k)),
    addf (acc.2.2.2.2.2.2.2.2.2.2.2.2.2.2.2.2.2.2.2.2.2.2.2.2.1) (rowRead M f (k0_off736 k) (k0_off736_inb k)),
    addf (acc.2.2.2.2.2.2.2.2.2.2.2.2.2.2.2.2.2.2.2.2.2.2.2.2.2.1) (rowRead M f (k0_off737 k) (k0_off737_inb k)),
    addf (acc.2.2.2.2.2.2.2.2.2.2.2.2.2.2.2.2.2.2.2.2.2.2.2.2.2.2.1) (rowRead M f (k0_off738 k) (k0_off738_inb k)),
    addf (acc.2.2.2.2.2.2.2.2.2.2.2.2.2.2.2.2.2.2.2.2.2.2.2.2.2.2.2.1) (rowRead M f (k0_off739 k) (k0_off739_inb k)),
    addf (acc.2.2.2.2.2.2.2.2.2.2.2.2.2.2.2.2.2.2.2.2.2.2.2.2.2.2.2.2.1) (rowRead M f (k0_off740 k) (k0_off740_inb k)),
    addf (acc.2.2.2.2.2.2.2.2.2.2.2.2.2.2.2.2.2.2.2.2.2.2.2.2.2.2.2.2.2.1) (rowRead M f (k0_off741 k) (k0_off741_inb k)),
    addf (acc.2.2.2.2.2.2.2.2.2.2.2.2.2.2.2.2.2.2.2.2.2.2.2.2.2.2.2.2.2.2.1) (rowRead M f (k0_off742 k) (k0_off742_inb k)),
    addf (acc.2.2.2.2.2.2.2.2.2.2.2.2.2.2.2.2.2.2.2.2.2.2.2.2.2.2.2.2.2.2.2) (rowRead M f (k0_off743 k) (k0_off743_inb k)))

/-- The accumulators before trip k of loop 23, from those it starts with. -/
def rowsFold_t23 (M : Memref sig .scVector .vmem S64x512 .f32) (f : M.view.ty.Contents (Elt F)) : Nat → Acc F → Acc F
  | 0, init => init
  | k + 1, init => if h : k < k0_t23_loop.trips then addRow_t23 M f ⟨k, h⟩ (rowsFold_t23 M f k init) else rowsFold_t23 M f k init

set_option warn.classDefReducibility false in
/-- Loop 23 keeps the buffer it reads and carries the rows added so far. -/
@[sl_loop] def loopVal_t23 (d : Dev nD) (L : grid0.Coords) (v29 : BitVec 32) (v849_0 : FVec F S16 .f32) (v849_1 : FVec F S16 .f32) (v849_2 : FVec F S16 .f32) (v849_3 : FVec F S16 .f32) (v849_4 : FVec F S16 .f32) (v849_5 : FVec F S16 .f32) (v849_6 : FVec F S16 .f32) (v849_7 : FVec F S16 .f32) (v849_8 : FVec F S16 .f32) (v849_9 : FVec F S16 .f32) (v849_10 : FVec F S16 .f32) (v849_11 : FVec F S16 .f32) (v849_12 : FVec F S16 .f32) (v849_13 : FVec F S16 .f32) (v849_14 : FVec F S16 .f32) (v849_15 : FVec F S16 .f32) (v849_16 : FVec F S16 .f32) (v849_17 : FVec F S16 .f32) (v849_18 : FVec F S16 .f32) (v849_19 : FVec F S16 .f32) (v849_20 : FVec F S16 .f32) (v849_21 : FVec F S16 .f32) (v849_22 : FVec F S16 .f32) (v849_23 : FVec F S16 .f32) (v849_24 : FVec F S16 .f32) (v849_25 : FVec F S16 .f32) (v849_26 : FVec F S16 .f32) (v849_27 : FVec F S16 .f32) (v849_28 : FVec F S16 .f32) (v849_29 : FVec F S16 .f32) (v849_30 : FVec F S16 .f32) (v849_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t23_loop.lb k0_t23_loop.ub k0_t23_loop.st k0_t23_ok init
      (k0_t23_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v849_0 v849_1 v849_2 v849_3 v849_4 v849_5 v849_6 v849_7 v849_8 v849_9 v849_10 v849_11 v849_12 v849_13 v849_14 v849_15 v849_16 v849_17 v849_18 v849_19 v849_20 v849_21 v849_22 v849_23 v849_24 v849_25 v849_26 v849_27 v849_28 v849_29 v849_30 v849_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t23 (Memref.whole cc0_scratch0) w k init⌝)
  step k acc := by
    iintro ⟨H, %hacc⟩
    sl_exec
    sl_step
    isplitl [H]; · iexact H
    ipureintro
    show _ = rowsFold_t23 (Memref.whole cc0_scratch0) w (k.val + 1) init
    rw [rowsFold_t23, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t23 (Memref.whole cc0_scratch0) w ⟨k.val, k.isLt⟩ acc
        = addRow_t23 (Memref.whole cc0_scratch0) (View.write (Elt F) (Memref.whole cc0_scratch0 : Memref sig .scVector .vmem S64x512 .f32).view prev w Finset.univ) ⟨k.val, k.isLt⟩ acc from by rw [e]]
    rfl

/-- One trip of loop 24: row k of the buffer added to the 32 accumulators, 16 lanes each. -/
def addRow_t24 (M : Memref sig .scVector .vmem S64x512 .f32) (f : M.view.ty.Contents (Elt F)) (k : Fin k0_t24_loop.trips) (acc : Acc F) : Acc F :=
  (addf (acc.1) (rowRead M f (k0_off745 k) (k0_off745_inb k)),
    addf (acc.2.1) (rowRead M f (k0_off746 k) (k0_off746_inb k)),
    addf (acc.2.2.1) (rowRead M f (k0_off747 k) (k0_off747_inb k)),
    addf (acc.2.2.2.1) (rowRead M f (k0_off748 k) (k0_off748_inb k)),
    addf (acc.2.2.2.2.1) (rowRead M f (k0_off749 k) (k0_off749_inb k)),
    addf (acc.2.2.2.2.2.1) (rowRead M f (k0_off750 k) (k0_off750_inb k)),
    addf (acc.2.2.2.2.2.2.1) (rowRead M f (k0_off751 k) (k0_off751_inb k)),
    addf (acc.2.2.2.2.2.2.2.1) (rowRead M f (k0_off752 k) (k0_off752_inb k)),
    addf (acc.2.2.2.2.2.2.2.2.1) (rowRead M f (k0_off753 k) (k0_off753_inb k)),
    addf (acc.2.2.2.2.2.2.2.2.2.1) (rowRead M f (k0_off754 k) (k0_off754_inb k)),
    addf (acc.2.2.2.2.2.2.2.2.2.2.1) (rowRead M f (k0_off755 k) (k0_off755_inb k)),
    addf (acc.2.2.2.2.2.2.2.2.2.2.2.1) (rowRead M f (k0_off756 k) (k0_off756_inb k)),
    addf (acc.2.2.2.2.2.2.2.2.2.2.2.2.1) (rowRead M f (k0_off757 k) (k0_off757_inb k)),
    addf (acc.2.2.2.2.2.2.2.2.2.2.2.2.2.1) (rowRead M f (k0_off758 k) (k0_off758_inb k)),
    addf (acc.2.2.2.2.2.2.2.2.2.2.2.2.2.2.1) (rowRead M f (k0_off759 k) (k0_off759_inb k)),
    addf (acc.2.2.2.2.2.2.2.2.2.2.2.2.2.2.2.1) (rowRead M f (k0_off760 k) (k0_off760_inb k)),
    addf (acc.2.2.2.2.2.2.2.2.2.2.2.2.2.2.2.2.1) (rowRead M f (k0_off761 k) (k0_off761_inb k)),
    addf (acc.2.2.2.2.2.2.2.2.2.2.2.2.2.2.2.2.2.1) (rowRead M f (k0_off762 k) (k0_off762_inb k)),
    addf (acc.2.2.2.2.2.2.2.2.2.2.2.2.2.2.2.2.2.2.1) (rowRead M f (k0_off763 k) (k0_off763_inb k)),
    addf (acc.2.2.2.2.2.2.2.2.2.2.2.2.2.2.2.2.2.2.2.1) (rowRead M f (k0_off764 k) (k0_off764_inb k)),
    addf (acc.2.2.2.2.2.2.2.2.2.2.2.2.2.2.2.2.2.2.2.2.1) (rowRead M f (k0_off765 k) (k0_off765_inb k)),
    addf (acc.2.2.2.2.2.2.2.2.2.2.2.2.2.2.2.2.2.2.2.2.2.1) (rowRead M f (k0_off766 k) (k0_off766_inb k)),
    addf (acc.2.2.2.2.2.2.2.2.2.2.2.2.2.2.2.2.2.2.2.2.2.2.1) (rowRead M f (k0_off767 k) (k0_off767_inb k)),
    addf (acc.2.2.2.2.2.2.2.2.2.2.2.2.2.2.2.2.2.2.2.2.2.2.2.1) (rowRead M f (k0_off768 k) (k0_off768_inb k)),
    addf (acc.2.2.2.2.2.2.2.2.2.2.2.2.2.2.2.2.2.2.2.2.2.2.2.2.1) (rowRead M f (k0_off769 k) (k0_off769_inb k)),
    addf (acc.2.2.2.2.2.2.2.2.2.2.2.2.2.2.2.2.2.2.2.2.2.2.2.2.2.1) (rowRead M f (k0_off770 k) (k0_off770_inb k)),
    addf (acc.2.2.2.2.2.2.2.2.2.2.2.2.2.2.2.2.2.2.2.2.2.2.2.2.2.2.1) (rowRead M f (k0_off771 k) (k0_off771_inb k)),
    addf (acc.2.2.2.2.2.2.2.2.2.2.2.2.2.2.2.2.2.2.2.2.2.2.2.2.2.2.2.1) (rowRead M f (k0_off772 k) (k0_off772_inb k)),
    addf (acc.2.2.2.2.2.2.2.2.2.2.2.2.2.2.2.2.2.2.2.2.2.2.2.2.2.2.2.2.1) (rowRead M f (k0_off773 k) (k0_off773_inb k)),
    addf (acc.2.2.2.2.2.2.2.2.2.2.2.2.2.2.2.2.2.2.2.2.2.2.2.2.2.2.2.2.2.1) (rowRead M f (k0_off774 k) (k0_off774_inb k)),
    addf (acc.2.2.2.2.2.2.2.2.2.2.2.2.2.2.2.2.2.2.2.2.2.2.2.2.2.2.2.2.2.2.1) (rowRead M f (k0_off775 k) (k0_off775_inb k)),
    addf (acc.2.2.2.2.2.2.2.2.2.2.2.2.2.2.2.2.2.2.2.2.2.2.2.2.2.2.2.2.2.2.2) (rowRead M f (k0_off776 k) (k0_off776_inb k)))

/-- The accumulators before trip k of loop 24, from those it starts with. -/
def rowsFold_t24 (M : Memref sig .scVector .vmem S64x512 .f32) (f : M.view.ty.Contents (Elt F)) : Nat → Acc F → Acc F
  | 0, init => init
  | k + 1, init => if h : k < k0_t24_loop.trips then addRow_t24 M f ⟨k, h⟩ (rowsFold_t24 M f k init) else rowsFold_t24 M f k init

set_option warn.classDefReducibility false in
/-- Loop 24 keeps the buffer it reads and carries the rows added so far. -/
@[sl_loop] def loopVal_t24 (d : Dev nD) (L : grid0.Coords) (v29 : BitVec 32) (v849_0 : FVec F S16 .f32) (v849_1 : FVec F S16 .f32) (v849_2 : FVec F S16 .f32) (v849_3 : FVec F S16 .f32) (v849_4 : FVec F S16 .f32) (v849_5 : FVec F S16 .f32) (v849_6 : FVec F S16 .f32) (v849_7 : FVec F S16 .f32) (v849_8 : FVec F S16 .f32) (v849_9 : FVec F S16 .f32) (v849_10 : FVec F S16 .f32) (v849_11 : FVec F S16 .f32) (v849_12 : FVec F S16 .f32) (v849_13 : FVec F S16 .f32) (v849_14 : FVec F S16 .f32) (v849_15 : FVec F S16 .f32) (v849_16 : FVec F S16 .f32) (v849_17 : FVec F S16 .f32) (v849_18 : FVec F S16 .f32) (v849_19 : FVec F S16 .f32) (v849_20 : FVec F S16 .f32) (v849_21 : FVec F S16 .f32) (v849_22 : FVec F S16 .f32) (v849_23 : FVec F S16 .f32) (v849_24 : FVec F S16 .f32) (v849_25 : FVec F S16 .f32) (v849_26 : FVec F S16 .f32) (v849_27 : FVec F S16 .f32) (v849_28 : FVec F S16 .f32) (v849_29 : FVec F S16 .f32) (v849_30 : FVec F S16 .f32) (v849_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t24_loop.lb k0_t24_loop.ub k0_t24_loop.st k0_t24_ok init
      (k0_t24_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v849_0 v849_1 v849_2 v849_3 v849_4 v849_5 v849_6 v849_7 v849_8 v849_9 v849_10 v849_11 v849_12 v849_13 v849_14 v849_15 v849_16 v849_17 v849_18 v849_19 v849_20 v849_21 v849_22 v849_23 v849_24 v849_25 v849_26 v849_27 v849_28 v849_29 v849_30 v849_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t24 (Memref.whole cc0_scratch1) w k init⌝)
  step k acc := by
    iintro ⟨H, %hacc⟩
    sl_exec
    sl_step
    isplitl [H]; · iexact H
    ipureintro
    show _ = rowsFold_t24 (Memref.whole cc0_scratch1) w (k.val + 1) init
    rw [rowsFold_t24, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t24 (Memref.whole cc0_scratch1) w ⟨k.val, k.isLt⟩ acc
        = addRow_t24 (Memref.whole cc0_scratch1) (View.write (Elt F) (Memref.whole cc0_scratch1 : Memref sig .scVector .vmem S64x512 .f32).view prev w Finset.univ) ⟨k.val, k.isLt⟩ acc from by rw [e]]
    rfl

/-- One trip of loop 25: row k of the buffer added to the 32 accumulators, 16 lanes each. -/
def addRow_t25 (M : Memref sig .scVector .vmem S64x512 .f32) (f : M.view.ty.Contents (Elt F)) (k : Fin k0_t25_loop.trips) (acc : Acc F) : Acc F :=
  (addf (acc.1) (rowRead M f (k0_off777 k) (k0_off777_inb k)),
    addf (acc.2.1) (rowRead M f (k0_off778 k) (k0_off778_inb k)),
    addf (acc.2.2.1) (rowRead M f (k0_off779 k) (k0_off779_inb k)),
    addf (acc.2.2.2.1) (rowRead M f (k0_off780 k) (k0_off780_inb k)),
    addf (acc.2.2.2.2.1) (rowRead M f (k0_off781 k) (k0_off781_inb k)),
    addf (acc.2.2.2.2.2.1) (rowRead M f (k0_off782 k) (k0_off782_inb k)),
    addf (acc.2.2.2.2.2.2.1) (rowRead M f (k0_off783 k) (k0_off783_inb k)),
    addf (acc.2.2.2.2.2.2.2.1) (rowRead M f (k0_off784 k) (k0_off784_inb k)),
    addf (acc.2.2.2.2.2.2.2.2.1) (rowRead M f (k0_off785 k) (k0_off785_inb k)),
    addf (acc.2.2.2.2.2.2.2.2.2.1) (rowRead M f (k0_off786 k) (k0_off786_inb k)),
    addf (acc.2.2.2.2.2.2.2.2.2.2.1) (rowRead M f (k0_off787 k) (k0_off787_inb k)),
    addf (acc.2.2.2.2.2.2.2.2.2.2.2.1) (rowRead M f (k0_off788 k) (k0_off788_inb k)),
    addf (acc.2.2.2.2.2.2.2.2.2.2.2.2.1) (rowRead M f (k0_off789 k) (k0_off789_inb k)),
    addf (acc.2.2.2.2.2.2.2.2.2.2.2.2.2.1) (rowRead M f (k0_off790 k) (k0_off790_inb k)),
    addf (acc.2.2.2.2.2.2.2.2.2.2.2.2.2.2.1) (rowRead M f (k0_off791 k) (k0_off791_inb k)),
    addf (acc.2.2.2.2.2.2.2.2.2.2.2.2.2.2.2.1) (rowRead M f (k0_off792 k) (k0_off792_inb k)),
    addf (acc.2.2.2.2.2.2.2.2.2.2.2.2.2.2.2.2.1) (rowRead M f (k0_off793 k) (k0_off793_inb k)),
    addf (acc.2.2.2.2.2.2.2.2.2.2.2.2.2.2.2.2.2.1) (rowRead M f (k0_off794 k) (k0_off794_inb k)),
    addf (acc.2.2.2.2.2.2.2.2.2.2.2.2.2.2.2.2.2.2.1) (rowRead M f (k0_off795 k) (k0_off795_inb k)),
    addf (acc.2.2.2.2.2.2.2.2.2.2.2.2.2.2.2.2.2.2.2.1) (rowRead M f (k0_off796 k) (k0_off796_inb k)),
    addf (acc.2.2.2.2.2.2.2.2.2.2.2.2.2.2.2.2.2.2.2.2.1) (rowRead M f (k0_off797 k) (k0_off797_inb k)),
    addf (acc.2.2.2.2.2.2.2.2.2.2.2.2.2.2.2.2.2.2.2.2.2.1) (rowRead M f (k0_off798 k) (k0_off798_inb k)),
    addf (acc.2.2.2.2.2.2.2.2.2.2.2.2.2.2.2.2.2.2.2.2.2.2.1) (rowRead M f (k0_off799 k) (k0_off799_inb k)),
    addf (acc.2.2.2.2.2.2.2.2.2.2.2.2.2.2.2.2.2.2.2.2.2.2.2.1) (rowRead M f (k0_off800 k) (k0_off800_inb k)),
    addf (acc.2.2.2.2.2.2.2.2.2.2.2.2.2.2.2.2.2.2.2.2.2.2.2.2.1) (rowRead M f (k0_off801 k) (k0_off801_inb k)),
    addf (acc.2.2.2.2.2.2.2.2.2.2.2.2.2.2.2.2.2.2.2.2.2.2.2.2.2.1) (rowRead M f (k0_off802 k) (k0_off802_inb k)),
    addf (acc.2.2.2.2.2.2.2.2.2.2.2.2.2.2.2.2.2.2.2.2.2.2.2.2.2.2.1) (rowRead M f (k0_off803 k) (k0_off803_inb k)),
    addf (acc.2.2.2.2.2.2.2.2.2.2.2.2.2.2.2.2.2.2.2.2.2.2.2.2.2.2.2.1) (rowRead M f (k0_off804 k) (k0_off804_inb k)),
    addf (acc.2.2.2.2.2.2.2.2.2.2.2.2.2.2.2.2.2.2.2.2.2.2.2.2.2.2.2.2.1) (rowRead M f (k0_off805 k) (k0_off805_inb k)),
    addf (acc.2.2.2.2.2.2.2.2.2.2.2.2.2.2.2.2.2.2.2.2.2.2.2.2.2.2.2.2.2.1) (rowRead M f (k0_off806 k) (k0_off806_inb k)),
    addf (acc.2.2.2.2.2.2.2.2.2.2.2.2.2.2.2.2.2.2.2.2.2.2.2.2.2.2.2.2.2.2.1) (rowRead M f (k0_off807 k) (k0_off807_inb k)),
    addf (acc.2.2.2.2.2.2.2.2.2.2.2.2.2.2.2.2.2.2.2.2.2.2.2.2.2.2.2.2.2.2.2) (rowRead M f (k0_off808 k) (k0_off808_inb k)))

/-- The accumulators before trip k of loop 25, from those it starts with. -/
def rowsFold_t25 (M : Memref sig .scVector .vmem S64x512 .f32) (f : M.view.ty.Contents (Elt F)) : Nat → Acc F → Acc F
  | 0, init => init
  | k + 1, init => if h : k < k0_t25_loop.trips then addRow_t25 M f ⟨k, h⟩ (rowsFold_t25 M f k init) else rowsFold_t25 M f k init

set_option warn.classDefReducibility false in
/-- Loop 25 keeps the buffer it reads and carries the rows added so far. -/
@[sl_loop] def loopVal_t25 (d : Dev nD) (L : grid0.Coords) (v29 : BitVec 32) (v984 : FVec F S16 .f32) (v985 : BitVec 32) (c0_i32_418 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t25_loop.lb k0_t25_loop.ub k0_t25_loop.st k0_t25_ok init
      (k0_t25_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v984 v985 c0_i32_418) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t25 (Memref.whole cc0_scratch0) w k init⌝)
  step k acc := by
    iintro ⟨H, %hacc⟩
    sl_exec
    sl_step
    isplitl [H]; · iexact H
    ipureintro
    show _ = rowsFold_t25 (Memref.whole cc0_scratch0) w (k.val + 1) init
    rw [rowsFold_t25, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t25 (Memref.whole cc0_scratch0) w ⟨k.val, k.isLt⟩ acc
        = addRow_t25 (Memref.whole cc0_scratch0) (View.write (Elt F) (Memref.whole cc0_scratch0 : Memref sig .scVector .vmem S64x512 .f32).view prev w Finset.univ) ⟨k.val, k.isLt⟩ acc from by rw [e]]
    rfl

/-- One trip of loop 26: row k of the buffer added to the 32 accumulators, 16 lanes each. -/
def addRow_t26 (M : Memref sig .scVector .vmem S64x512 .f32) (f : M.view.ty.Contents (Elt F)) (k : Fin k0_t26_loop.trips) (acc : Acc F) : Acc F :=
  (addf (acc.1) (rowRead M f (k0_off809 k) (k0_off809_inb k)),
    addf (acc.2.1) (rowRead M f (k0_off810 k) (k0_off810_inb k)),
    addf (acc.2.2.1) (rowRead M f (k0_off811 k) (k0_off811_inb k)),
    addf (acc.2.2.2.1) (rowRead M f (k0_off812 k) (k0_off812_inb k)),
    addf (acc.2.2.2.2.1) (rowRead M f (k0_off813 k) (k0_off813_inb k)),
    addf (acc.2.2.2.2.2.1) (rowRead M f (k0_off814 k) (k0_off814_inb k)),
    addf (acc.2.2.2.2.2.2.1) (rowRead M f (k0_off815 k) (k0_off815_inb k)),
    addf (acc.2.2.2.2.2.2.2.1) (rowRead M f (k0_off816 k) (k0_off816_inb k)),
    addf (acc.2.2.2.2.2.2.2.2.1) (rowRead M f (k0_off817 k) (k0_off817_inb k)),
    addf (acc.2.2.2.2.2.2.2.2.2.1) (rowRead M f (k0_off818 k) (k0_off818_inb k)),
    addf (acc.2.2.2.2.2.2.2.2.2.2.1) (rowRead M f (k0_off819 k) (k0_off819_inb k)),
    addf (acc.2.2.2.2.2.2.2.2.2.2.2.1) (rowRead M f (k0_off820 k) (k0_off820_inb k)),
    addf (acc.2.2.2.2.2.2.2.2.2.2.2.2.1) (rowRead M f (k0_off821 k) (k0_off821_inb k)),
    addf (acc.2.2.2.2.2.2.2.2.2.2.2.2.2.1) (rowRead M f (k0_off822 k) (k0_off822_inb k)),
    addf (acc.2.2.2.2.2.2.2.2.2.2.2.2.2.2.1) (rowRead M f (k0_off823 k) (k0_off823_inb k)),
    addf (acc.2.2.2.2.2.2.2.2.2.2.2.2.2.2.2.1) (rowRead M f (k0_off824 k) (k0_off824_inb k)),
    addf (acc.2.2.2.2.2.2.2.2.2.2.2.2.2.2.2.2.1) (rowRead M f (k0_off825 k) (k0_off825_inb k)),
    addf (acc.2.2.2.2.2.2.2.2.2.2.2.2.2.2.2.2.2.1) (rowRead M f (k0_off826 k) (k0_off826_inb k)),
    addf (acc.2.2.2.2.2.2.2.2.2.2.2.2.2.2.2.2.2.2.1) (rowRead M f (k0_off827 k) (k0_off827_inb k)),
    addf (acc.2.2.2.2.2.2.2.2.2.2.2.2.2.2.2.2.2.2.2.1) (rowRead M f (k0_off828 k) (k0_off828_inb k)),
    addf (acc.2.2.2.2.2.2.2.2.2.2.2.2.2.2.2.2.2.2.2.2.1) (rowRead M f (k0_off829 k) (k0_off829_inb k)),
    addf (acc.2.2.2.2.2.2.2.2.2.2.2.2.2.2.2.2.2.2.2.2.2.1) (rowRead M f (k0_off830 k) (k0_off830_inb k)),
    addf (acc.2.2.2.2.2.2.2.2.2.2.2.2.2.2.2.2.2.2.2.2.2.2.1) (rowRead M f (k0_off831 k) (k0_off831_inb k)),
    addf (acc.2.2.2.2.2.2.2.2.2.2.2.2.2.2.2.2.2.2.2.2.2.2.2.1) (rowRead M f (k0_off832 k) (k0_off832_inb k)),
    addf (acc.2.2.2.2.2.2.2.2.2.2.2.2.2.2.2.2.2.2.2.2.2.2.2.2.1) (rowRead M f (k0_off833 k) (k0_off833_inb k)),
    addf (acc.2.2.2.2.2.2.2.2.2.2.2.2.2.2.2.2.2.2.2.2.2.2.2.2.2.1) (rowRead M f (k0_off834 k) (k0_off834_inb k)),
    addf (acc.2.2.2.2.2.2.2.2.2.2.2.2.2.2.2.2.2.2.2.2.2.2.2.2.2.2.1) (rowRead M f (k0_off835 k) (k0_off835_inb k)),
    addf (acc.2.2.2.2.2.2.2.2.2.2.2.2.2.2.2.2.2.2.2.2.2.2.2.2.2.2.2.1) (rowRead M f (k0_off836 k) (k0_off836_inb k)),
    addf (acc.2.2.2.2.2.2.2.2.2.2.2.2.2.2.2.2.2.2.2.2.2.2.2.2.2.2.2.2.1) (rowRead M f (k0_off837 k) (k0_off837_inb k)),
    addf (acc.2.2.2.2.2.2.2.2.2.2.2.2.2.2.2.2.2.2.2.2.2.2.2.2.2.2.2.2.2.1) (rowRead M f (k0_off838 k) (k0_off838_inb k)),
    addf (acc.2.2.2.2.2.2.2.2.2.2.2.2.2.2.2.2.2.2.2.2.2.2.2.2.2.2.2.2.2.2.1) (rowRead M f (k0_off839 k) (k0_off839_inb k)),
    addf (acc.2.2.2.2.2.2.2.2.2.2.2.2.2.2.2.2.2.2.2.2.2.2.2.2.2.2.2.2.2.2.2) (rowRead M f (k0_off840 k) (k0_off840_inb k)))

/-- The accumulators before trip k of loop 26, from those it starts with. -/
def rowsFold_t26 (M : Memref sig .scVector .vmem S64x512 .f32) (f : M.view.ty.Contents (Elt F)) : Nat → Acc F → Acc F
  | 0, init => init
  | k + 1, init => if h : k < k0_t26_loop.trips then addRow_t26 M f ⟨k, h⟩ (rowsFold_t26 M f k init) else rowsFold_t26 M f k init

set_option warn.classDefReducibility false in
/-- Loop 26 keeps the buffer it reads and carries the rows added so far. -/
@[sl_loop] def loopVal_t26 (d : Dev nD) (L : grid0.Coords) (v29 : BitVec 32) (v984 : FVec F S16 .f32) (v985 : BitVec 32) (c0_i32_418 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t26_loop.lb k0_t26_loop.ub k0_t26_loop.st k0_t26_ok init
      (k0_t26_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v984 v985 c0_i32_418) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t26 (Memref.whole cc0_scratch1) w k init⌝)
  step k acc := by
    iintro ⟨H, %hacc⟩
    sl_exec
    sl_step
    isplitl [H]; · iexact H
    ipureintro
    show _ = rowsFold_t26 (Memref.whole cc0_scratch1) w (k.val + 1) init
    rw [rowsFold_t26, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t26 (Memref.whole cc0_scratch1) w ⟨k.val, k.isLt⟩ acc
        = addRow_t26 (Memref.whole cc0_scratch1) (View.write (Elt F) (Memref.whole cc0_scratch1 : Memref sig .scVector .vmem S64x512 .f32).view prev w Finset.univ) ⟨k.val, k.isLt⟩ acc from by rw [e]]
    rfl

/-- One trip of loop 27: row k of the buffer added to the 32 accumulators, 16 lanes each. -/
def addRow_t27 (M : Memref sig .scVector .vmem S64x512 .f32) (f : M.view.ty.Contents (Elt F)) (k : Fin k0_t27_loop.trips) (acc : Acc F) : Acc F :=
  (addf (acc.1) (rowRead M f (k0_off841 k) (k0_off841_inb k)),
    addf (acc.2.1) (rowRead M f (k0_off842 k) (k0_off842_inb k)),
    addf (acc.2.2.1) (rowRead M f (k0_off843 k) (k0_off843_inb k)),
    addf (acc.2.2.2.1) (rowRead M f (k0_off844 k) (k0_off844_inb k)),
    addf (acc.2.2.2.2.1) (rowRead M f (k0_off845 k) (k0_off845_inb k)),
    addf (acc.2.2.2.2.2.1) (rowRead M f (k0_off846 k) (k0_off846_inb k)),
    addf (acc.2.2.2.2.2.2.1) (rowRead M f (k0_off847 k) (k0_off847_inb k)),
    addf (acc.2.2.2.2.2.2.2.1) (rowRead M f (k0_off848 k) (k0_off848_inb k)),
    addf (acc.2.2.2.2.2.2.2.2.1) (rowRead M f (k0_off849 k) (k0_off849_inb k)),
    addf (acc.2.2.2.2.2.2.2.2.2.1) (rowRead M f (k0_off850 k) (k0_off850_inb k)),
    addf (acc.2.2.2.2.2.2.2.2.2.2.1) (rowRead M f (k0_off851 k) (k0_off851_inb k)),
    addf (acc.2.2.2.2.2.2.2.2.2.2.2.1) (rowRead M f (k0_off852 k) (k0_off852_inb k)),
    addf (acc.2.2.2.2.2.2.2.2.2.2.2.2.1) (rowRead M f (k0_off853 k) (k0_off853_inb k)),
    addf (acc.2.2.2.2.2.2.2.2.2.2.2.2.2.1) (rowRead M f (k0_off854 k) (k0_off854_inb k)),
    addf (acc.2.2.2.2.2.2.2.2.2.2.2.2.2.2.1) (rowRead M f (k0_off855 k) (k0_off855_inb k)),
    addf (acc.2.2.2.2.2.2.2.2.2.2.2.2.2.2.2.1) (rowRead M f (k0_off856 k) (k0_off856_inb k)),
    addf (acc.2.2.2.2.2.2.2.2.2.2.2.2.2.2.2.2.1) (rowRead M f (k0_off857 k) (k0_off857_inb k)),
    addf (acc.2.2.2.2.2.2.2.2.2.2.2.2.2.2.2.2.2.1) (rowRead M f (k0_off858 k) (k0_off858_inb k)),
    addf (acc.2.2.2.2.2.2.2.2.2.2.2.2.2.2.2.2.2.2.1) (rowRead M f (k0_off859 k) (k0_off859_inb k)),
    addf (acc.2.2.2.2.2.2.2.2.2.2.2.2.2.2.2.2.2.2.2.1) (rowRead M f (k0_off860 k) (k0_off860_inb k)),
    addf (acc.2.2.2.2.2.2.2.2.2.2.2.2.2.2.2.2.2.2.2.2.1) (rowRead M f (k0_off861 k) (k0_off861_inb k)),
    addf (acc.2.2.2.2.2.2.2.2.2.2.2.2.2.2.2.2.2.2.2.2.2.1) (rowRead M f (k0_off862 k) (k0_off862_inb k)),
    addf (acc.2.2.2.2.2.2.2.2.2.2.2.2.2.2.2.2.2.2.2.2.2.2.1) (rowRead M f (k0_off863 k) (k0_off863_inb k)),
    addf (acc.2.2.2.2.2.2.2.2.2.2.2.2.2.2.2.2.2.2.2.2.2.2.2.1) (rowRead M f (k0_off864 k) (k0_off864_inb k)),
    addf (acc.2.2.2.2.2.2.2.2.2.2.2.2.2.2.2.2.2.2.2.2.2.2.2.2.1) (rowRead M f (k0_off865 k) (k0_off865_inb k)),
    addf (acc.2.2.2.2.2.2.2.2.2.2.2.2.2.2.2.2.2.2.2.2.2.2.2.2.2.1) (rowRead M f (k0_off866 k) (k0_off866_inb k)),
    addf (acc.2.2.2.2.2.2.2.2.2.2.2.2.2.2.2.2.2.2.2.2.2.2.2.2.2.2.1) (rowRead M f (k0_off867 k) (k0_off867_inb k)),
    addf (acc.2.2.2.2.2.2.2.2.2.2.2.2.2.2.2.2.2.2.2.2.2.2.2.2.2.2.2.1) (rowRead M f (k0_off868 k) (k0_off868_inb k)),
    addf (acc.2.2.2.2.2.2.2.2.2.2.2.2.2.2.2.2.2.2.2.2.2.2.2.2.2.2.2.2.1) (rowRead M f (k0_off869 k) (k0_off869_inb k)),
    addf (acc.2.2.2.2.2.2.2.2.2.2.2.2.2.2.2.2.2.2.2.2.2.2.2.2.2.2.2.2.2.1) (rowRead M f (k0_off870 k) (k0_off870_inb k)),
    addf (acc.2.2.2.2.2.2.2.2.2.2.2.2.2.2.2.2.2.2.2.2.2.2.2.2.2.2.2.2.2.2.1) (rowRead M f (k0_off871 k) (k0_off871_inb k)),
    addf (acc.2.2.2.2.2.2.2.2.2.2.2.2.2.2.2.2.2.2.2.2.2.2.2.2.2.2.2.2.2.2.2) (rowRead M f (k0_off872 k) (k0_off872_inb k)))

/-- The accumulators before trip k of loop 27, from those it starts with. -/
def rowsFold_t27 (M : Memref sig .scVector .vmem S64x512 .f32) (f : M.view.ty.Contents (Elt F)) : Nat → Acc F → Acc F
  | 0, init => init
  | k + 1, init => if h : k < k0_t27_loop.trips then addRow_t27 M f ⟨k, h⟩ (rowsFold_t27 M f k init) else rowsFold_t27 M f k init

set_option warn.classDefReducibility false in
/-- Loop 27 keeps the buffer it reads and carries the rows added so far. -/
@[sl_loop] def loopVal_t27 (d : Dev nD) (L : grid0.Coords) (v29 : BitVec 32) (v1006_0 : FVec F S16 .f32) (v1006_1 : FVec F S16 .f32) (v1006_2 : FVec F S16 .f32) (v1006_3 : FVec F S16 .f32) (v1006_4 : FVec F S16 .f32) (v1006_5 : FVec F S16 .f32) (v1006_6 : FVec F S16 .f32) (v1006_7 : FVec F S16 .f32) (v1006_8 : FVec F S16 .f32) (v1006_9 : FVec F S16 .f32) (v1006_10 : FVec F S16 .f32) (v1006_11 : FVec F S16 .f32) (v1006_12 : FVec F S16 .f32) (v1006_13 : FVec F S16 .f32) (v1006_14 : FVec F S16 .f32) (v1006_15 : FVec F S16 .f32) (v1006_16 : FVec F S16 .f32) (v1006_17 : FVec F S16 .f32) (v1006_18 : FVec F S16 .f32) (v1006_19 : FVec F S16 .f32) (v1006_20 : FVec F S16 .f32) (v1006_21 : FVec F S16 .f32) (v1006_22 : FVec F S16 .f32) (v1006_23 : FVec F S16 .f32) (v1006_24 : FVec F S16 .f32) (v1006_25 : FVec F S16 .f32) (v1006_26 : FVec F S16 .f32) (v1006_27 : FVec F S16 .f32) (v1006_28 : FVec F S16 .f32) (v1006_29 : FVec F S16 .f32) (v1006_30 : FVec F S16 .f32) (v1006_31 : FVec F S16 .f32) (c0_i32_440 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t27_loop.lb k0_t27_loop.ub k0_t27_loop.st k0_t27_ok init
      (k0_t27_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v1006_0 v1006_1 v1006_2 v1006_3 v1006_4 v1006_5 v1006_6 v1006_7 v1006_8 v1006_9 v1006_10 v1006_11 v1006_12 v1006_13 v1006_14 v1006_15 v1006_16 v1006_17 v1006_18 v1006_19 v1006_20 v1006_21 v1006_22 v1006_23 v1006_24 v1006_25 v1006_26 v1006_27 v1006_28 v1006_29 v1006_30 v1006_31 c0_i32_440) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t27 (Memref.whole cc0_scratch0) w k init⌝)
  step k acc := by
    iintro ⟨H, %hacc⟩
    sl_exec
    sl_step
    isplitl [H]; · iexact H
    ipureintro
    show _ = rowsFold_t27 (Memref.whole cc0_scratch0) w (k.val + 1) init
    rw [rowsFold_t27, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t27 (Memref.whole cc0_scratch0) w ⟨k.val, k.isLt⟩ acc
        = addRow_t27 (Memref.whole cc0_scratch0) (View.write (Elt F) (Memref.whole cc0_scratch0 : Memref sig .scVector .vmem S64x512 .f32).view prev w Finset.univ) ⟨k.val, k.isLt⟩ acc from by rw [e]]
    rfl

/-- One trip of loop 28: row k of the buffer added to the 32 accumulators, 16 lanes each. -/
def addRow_t28 (M : Memref sig .scVector .vmem S64x512 .f32) (f : M.view.ty.Contents (Elt F)) (k : Fin k0_t28_loop.trips) (acc : Acc F) : Acc F :=
  (addf (acc.1) (rowRead M f (k0_off873 k) (k0_off873_inb k)),
    addf (acc.2.1) (rowRead M f (k0_off874 k) (k0_off874_inb k)),
    addf (acc.2.2.1) (rowRead M f (k0_off875 k) (k0_off875_inb k)),
    addf (acc.2.2.2.1) (rowRead M f (k0_off876 k) (k0_off876_inb k)),
    addf (acc.2.2.2.2.1) (rowRead M f (k0_off877 k) (k0_off877_inb k)),
    addf (acc.2.2.2.2.2.1) (rowRead M f (k0_off878 k) (k0_off878_inb k)),
    addf (acc.2.2.2.2.2.2.1) (rowRead M f (k0_off879 k) (k0_off879_inb k)),
    addf (acc.2.2.2.2.2.2.2.1) (rowRead M f (k0_off880 k) (k0_off880_inb k)),
    addf (acc.2.2.2.2.2.2.2.2.1) (rowRead M f (k0_off881 k) (k0_off881_inb k)),
    addf (acc.2.2.2.2.2.2.2.2.2.1) (rowRead M f (k0_off882 k) (k0_off882_inb k)),
    addf (acc.2.2.2.2.2.2.2.2.2.2.1) (rowRead M f (k0_off883 k) (k0_off883_inb k)),
    addf (acc.2.2.2.2.2.2.2.2.2.2.2.1) (rowRead M f (k0_off884 k) (k0_off884_inb k)),
    addf (acc.2.2.2.2.2.2.2.2.2.2.2.2.1) (rowRead M f (k0_off885 k) (k0_off885_inb k)),
    addf (acc.2.2.2.2.2.2.2.2.2.2.2.2.2.1) (rowRead M f (k0_off886 k) (k0_off886_inb k)),
    addf (acc.2.2.2.2.2.2.2.2.2.2.2.2.2.2.1) (rowRead M f (k0_off887 k) (k0_off887_inb k)),
    addf (acc.2.2.2.2.2.2.2.2.2.2.2.2.2.2.2.1) (rowRead M f (k0_off888 k) (k0_off888_inb k)),
    addf (acc.2.2.2.2.2.2.2.2.2.2.2.2.2.2.2.2.1) (rowRead M f (k0_off889 k) (k0_off889_inb k)),
    addf (acc.2.2.2.2.2.2.2.2.2.2.2.2.2.2.2.2.2.1) (rowRead M f (k0_off890 k) (k0_off890_inb k)),
    addf (acc.2.2.2.2.2.2.2.2.2.2.2.2.2.2.2.2.2.2.1) (rowRead M f (k0_off891 k) (k0_off891_inb k)),
    addf (acc.2.2.2.2.2.2.2.2.2.2.2.2.2.2.2.2.2.2.2.1) (rowRead M f (k0_off892 k) (k0_off892_inb k)),
    addf (acc.2.2.2.2.2.2.2.2.2.2.2.2.2.2.2.2.2.2.2.2.1) (rowRead M f (k0_off893 k) (k0_off893_inb k)),
    addf (acc.2.2.2.2.2.2.2.2.2.2.2.2.2.2.2.2.2.2.2.2.2.1) (rowRead M f (k0_off894 k) (k0_off894_inb k)),
    addf (acc.2.2.2.2.2.2.2.2.2.2.2.2.2.2.2.2.2.2.2.2.2.2.1) (rowRead M f (k0_off895 k) (k0_off895_inb k)),
    addf (acc.2.2.2.2.2.2.2.2.2.2.2.2.2.2.2.2.2.2.2.2.2.2.2.1) (rowRead M f (k0_off896 k) (k0_off896_inb k)),
    addf (acc.2.2.2.2.2.2.2.2.2.2.2.2.2.2.2.2.2.2.2.2.2.2.2.2.1) (rowRead M f (k0_off897 k) (k0_off897_inb k)),
    addf (acc.2.2.2.2.2.2.2.2.2.2.2.2.2.2.2.2.2.2.2.2.2.2.2.2.2.1) (rowRead M f (k0_off898 k) (k0_off898_inb k)),
    addf (acc.2.2.2.2.2.2.2.2.2.2.2.2.2.2.2.2.2.2.2.2.2.2.2.2.2.2.1) (rowRead M f (k0_off899 k) (k0_off899_inb k)),
    addf (acc.2.2.2.2.2.2.2.2.2.2.2.2.2.2.2.2.2.2.2.2.2.2.2.2.2.2.2.1) (rowRead M f (k0_off900 k) (k0_off900_inb k)),
    addf (acc.2.2.2.2.2.2.2.2.2.2.2.2.2.2.2.2.2.2.2.2.2.2.2.2.2.2.2.2.1) (rowRead M f (k0_off901 k) (k0_off901_inb k)),
    addf (acc.2.2.2.2.2.2.2.2.2.2.2.2.2.2.2.2.2.2.2.2.2.2.2.2.2.2.2.2.2.1) (rowRead M f (k0_off902 k) (k0_off902_inb k)),
    addf (acc.2.2.2.2.2.2.2.2.2.2.2.2.2.2.2.2.2.2.2.2.2.2.2.2.2.2.2.2.2.2.1) (rowRead M f (k0_off903 k) (k0_off903_inb k)),
    addf (acc.2.2.2.2.2.2.2.2.2.2.2.2.2.2.2.2.2.2.2.2.2.2.2.2.2.2.2.2.2.2.2) (rowRead M f (k0_off904 k) (k0_off904_inb k)))

/-- The accumulators before trip k of loop 28, from those it starts with. -/
def rowsFold_t28 (M : Memref sig .scVector .vmem S64x512 .f32) (f : M.view.ty.Contents (Elt F)) : Nat → Acc F → Acc F
  | 0, init => init
  | k + 1, init => if h : k < k0_t28_loop.trips then addRow_t28 M f ⟨k, h⟩ (rowsFold_t28 M f k init) else rowsFold_t28 M f k init

set_option warn.classDefReducibility false in
/-- Loop 28 keeps the buffer it reads and carries the rows added so far. -/
@[sl_loop] def loopVal_t28 (d : Dev nD) (L : grid0.Coords) (v29 : BitVec 32) (v1006_0 : FVec F S16 .f32) (v1006_1 : FVec F S16 .f32) (v1006_2 : FVec F S16 .f32) (v1006_3 : FVec F S16 .f32) (v1006_4 : FVec F S16 .f32) (v1006_5 : FVec F S16 .f32) (v1006_6 : FVec F S16 .f32) (v1006_7 : FVec F S16 .f32) (v1006_8 : FVec F S16 .f32) (v1006_9 : FVec F S16 .f32) (v1006_10 : FVec F S16 .f32) (v1006_11 : FVec F S16 .f32) (v1006_12 : FVec F S16 .f32) (v1006_13 : FVec F S16 .f32) (v1006_14 : FVec F S16 .f32) (v1006_15 : FVec F S16 .f32) (v1006_16 : FVec F S16 .f32) (v1006_17 : FVec F S16 .f32) (v1006_18 : FVec F S16 .f32) (v1006_19 : FVec F S16 .f32) (v1006_20 : FVec F S16 .f32) (v1006_21 : FVec F S16 .f32) (v1006_22 : FVec F S16 .f32) (v1006_23 : FVec F S16 .f32) (v1006_24 : FVec F S16 .f32) (v1006_25 : FVec F S16 .f32) (v1006_26 : FVec F S16 .f32) (v1006_27 : FVec F S16 .f32) (v1006_28 : FVec F S16 .f32) (v1006_29 : FVec F S16 .f32) (v1006_30 : FVec F S16 .f32) (v1006_31 : FVec F S16 .f32) (c0_i32_440 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t28_loop.lb k0_t28_loop.ub k0_t28_loop.st k0_t28_ok init
      (k0_t28_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v1006_0 v1006_1 v1006_2 v1006_3 v1006_4 v1006_5 v1006_6 v1006_7 v1006_8 v1006_9 v1006_10 v1006_11 v1006_12 v1006_13 v1006_14 v1006_15 v1006_16 v1006_17 v1006_18 v1006_19 v1006_20 v1006_21 v1006_22 v1006_23 v1006_24 v1006_25 v1006_26 v1006_27 v1006_28 v1006_29 v1006_30 v1006_31 c0_i32_440) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t28 (Memref.whole cc0_scratch1) w k init⌝)
  step k acc := by
    iintro ⟨H, %hacc⟩
    sl_exec
    sl_step
    isplitl [H]; · iexact H
    ipureintro
    show _ = rowsFold_t28 (Memref.whole cc0_scratch1) w (k.val + 1) init
    rw [rowsFold_t28, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t28 (Memref.whole cc0_scratch1) w ⟨k.val, k.isLt⟩ acc
        = addRow_t28 (Memref.whole cc0_scratch1) (View.write (Elt F) (Memref.whole cc0_scratch1 : Memref sig .scVector .vmem S64x512 .f32).view prev w Finset.univ) ⟨k.val, k.isLt⟩ acc from by rw [e]]
    rfl

omit [FloatOps F] in
/-- A wait on one of the thread's own semaphores (index none) keeps the record of waits within what the launch allows. -/
theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

/-- The 32 stores of 16 words into the staging scratch, last first, cover its 512 words: a certificate by halving. -/
def cov32 : LoadRect.Cov := .split 0 256 (.split 0 128 (.split 0 64 (.split 0 32 (.split 0 16 (.leaf 31) (.leaf 30)) (.split 0 16 (.leaf 29) (.leaf 28))) (.split 0 32 (.split 0 16 (.leaf 27) (.leaf 26)) (.split 0 16 (.leaf 25) (.leaf 24)))) (.split 0 64 (.split 0 32 (.split 0 16 (.leaf 23) (.leaf 22)) (.split 0 16 (.leaf 21) (.leaf 20))) (.split 0 32 (.split 0 16 (.leaf 19) (.leaf 18)) (.split 0 16 (.leaf 17) (.leaf 16))))) (.split 0 128 (.split 0 64 (.split 0 32 (.split 0 16 (.leaf 15) (.leaf 14)) (.split 0 16 (.leaf 13) (.leaf 12))) (.split 0 32 (.split 0 16 (.leaf 11) (.leaf 10)) (.split 0 16 (.leaf 9) (.leaf 8)))) (.split 0 64 (.split 0 32 (.split 0 16 (.leaf 7) (.leaf 6)) (.split 0 16 (.leaf 5) (.leaf 4))) (.split 0 32 (.split 0 16 (.leaf 3) (.leaf 2)) (.split 0 16 (.leaf 1) (.leaf 0)))))

/-- What a copy out of the staging scratch delivers, as a function of the device, the place and the scores. -/
abbrev ValTy (F : FTy → Type) : Type :=
  (d : Dev nD) → (L : grid0.Coords) → Buf (Elt F) ((Memref.whole main_v0_scv : Memref sig .scVector .hbm S16x2048x2048 .f32).view.loc (thr d L)) → S512.Idx → Elt F .f32

set_option maxRecDepth 65536 in
set_option maxHeartbeats 8000000 in
/-- THE TILE'S BODY with what it leaves: seven delivered vectors, functions of the device, the place and the scores only
    (read off the run), such that from a share of the scores, the seven pieces at any contents, the subcore's own buffers
    and semaphores and what it owes, the body ends with piece k overwritten by the k-th of them, everything else given
    back, and only its own semaphores waited on. -/
def tileRun : { v : ValTy F × ValTy F × ValTy F × ValTy F × ValTy F × ValTy F × ValTy F //
    ∀ (d : Dev nD) (L : grid0.Coords) (O : CellTallies nD τ sig (HIx 1)) (W : Waits sig (HIx 1)) (q : PosShare TreeShare)
      (A : Buf (Elt F) ((Memref.whole main_v0_scv : Memref sig .scVector .hbm S16x2048x2048 .f32).view.loc (thr d L))), (∀ g, O g none = 0) →
    iprop((levAts (K (F := F)).L (K (F := F)).lev : sProp 𝕄) ∗ ((Memref.whole main_v0_scv : Memref sig .scVector .hbm S16x2048x2048 .f32).view.loc (thr d L) ↦{q} A)
        ∗ ((∃ f, ((Memref.whole main_v1_scv : Memref sig .scVector .hbm S114688 .f32).slice (Rect.unit (s := S114688) (k0_off131 L 0#32) S512.size (k0_off131_inb L 0)) (fun _ => rfl)).view.loc (thr d L) ↦[((Memref.whole main_v1_scv : Memref sig .scVector .hbm S114688 .f32).slice (Rect.unit (s := S114688) (k0_off131 L 0#32) S512.size (k0_off131_inb L 0)) (fun _ => rfl)).view.set]{fullShare} f)
          ∗ (∃ f, ((Memref.whole main_v1_scv : Memref sig .scVector .hbm S114688 .f32).slice (Rect.unit (s := S114688) (k0_off131 L 8#32) S512.size (k0_off131_inb L 1)) (fun _ => rfl)).view.loc (thr d L) ↦[((Memref.whole main_v1_scv : Memref sig .scVector .hbm S114688 .f32).slice (Rect.unit (s := S114688) (k0_off131 L 8#32) S512.size (k0_off131_inb L 1)) (fun _ => rfl)).view.set]{fullShare} f)
          ∗ (∃ f, ((Memref.whole main_v1_scv : Memref sig .scVector .hbm S114688 .f32).slice (Rect.unit (s := S114688) (k0_off131 L 16#32) S512.size (k0_off131_inb L 2)) (fun _ => rfl)).view.loc (thr d L) ↦[((Memref.whole main_v1_scv : Memref sig .scVector .hbm S114688 .f32).slice (Rect.unit (s := S114688) (k0_off131 L 16#32) S512.size (k0_off131_inb L 2)) (fun _ => rfl)).view.set]{fullShare} f)
          ∗ (∃ f, ((Memref.whole main_v1_scv : Memref sig .scVector .hbm S114688 .f32).slice (Rect.unit (s := S114688) (k0_off131 L 24#32) S512.size (k0_off131_inb L 3)) (fun _ => rfl)).view.loc (thr d L) ↦[((Memref.whole main_v1_scv : Memref sig .scVector .hbm S114688 .f32).slice (Rect.unit (s := S114688) (k0_off131 L 24#32) S512.size (k0_off131_inb L 3)) (fun _ => rfl)).view.set]{fullShare} f)
          ∗ (∃ f, ((Memref.whole main_v1_scv : Memref sig .scVector .hbm S114688 .f32).slice (Rect.unit (s := S114688) (k0_off131 L 32#32) S512.size (k0_off131_inb L 4)) (fun _ => rfl)).view.loc (thr d L) ↦[((Memref.whole main_v1_scv : Memref sig .scVector .hbm S114688 .f32).slice (Rect.unit (s := S114688) (k0_off131 L 32#32) S512.size (k0_off131_inb L 4)) (fun _ => rfl)).view.set]{fullShare} f)
          ∗ (∃ f, ((Memref.whole main_v1_scv : Memref sig .scVector .hbm S114688 .f32).slice (Rect.unit (s := S114688) (k0_off131 L 40#32) S512.size (k0_off131_inb L 5)) (fun _ => rfl)).view.loc (thr d L) ↦[((Memref.whole main_v1_scv : Memref sig .scVector .hbm S114688 .f32).slice (Rect.unit (s := S114688) (k0_off131 L 40#32) S512.size (k0_off131_inb L 5)) (fun _ => rfl)).view.set]{fullShare} f)
          ∗ (∃ f, ((Memref.whole main_v1_scv : Memref sig .scVector .hbm S114688 .f32).slice (Rect.unit (s := S114688) (k0_off131 L 48#32) S512.size (k0_off131_inb L 6)) (fun _ => rfl)).view.loc (thr d L) ↦[((Memref.whole main_v1_scv : Memref sig .scVector .hbm S114688 .f32).slice (Rect.unit (s := S114688) (k0_off131 L 48#32) S512.size (k0_off131_inb L 6)) (fun _ => rfl)).view.set]{fullShare} f))
        ∗ scopedBufs (thr d L) ∗ scopedSems0 (thr d L) ∗ owes (thr d L) O W)
      ⊢ wp frame (wpE (defs₀ (F := F)) 𝒱₀ (thr d L) none) Set.univ
          (cc0__sc_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6)
          fun _ => iprop(((Memref.whole main_v0_scv : Memref sig .scVector .hbm S16x2048x2048 .f32).view.loc (thr d L) ↦{q} A)
            ∗ ((((Memref.whole main_v1_scv : Memref sig .scVector .hbm S114688 .f32).slice (Rect.unit (s := S114688) (k0_off131 L 0#32) S512.size (k0_off131_inb L 0)) (fun _ => rfl)).view.loc (thr d L) ↦[((Memref.whole main_v1_scv : Memref sig .scVector .hbm S114688 .f32).slice (Rect.unit (s := S114688) (k0_off131 L 0#32) S512.size (k0_off131_inb L 0)) (fun _ => rfl)).view.set]{fullShare} ((Memref.whole main_v1_scv : Memref sig .scVector .hbm S114688 .f32).slice (Rect.unit (s := S114688) (k0_off131 L 0#32) S512.size (k0_off131_inb L 0)) (fun _ => rfl)).view.writes (Elt F) ((Memref.whole main_v1_scv : Memref sig .scVector .hbm S114688 .f32).slice (Rect.unit (s := S114688) (k0_off131 L 0#32) S512.size (k0_off131_inb L 0)) (fun _ => rfl)).view.junk [⟨Rect.whole _, v.1 d L A⟩])
            ∗ (((Memref.whole main_v1_scv : Memref sig .scVector .hbm S114688 .f32).slice (Rect.unit (s := S114688) (k0_off131 L 8#32) S512.size (k0_off131_inb L 1)) (fun _ => rfl)).view.loc (thr d L) ↦[((Memref.whole main_v1_scv : Memref sig .scVector .hbm S114688 .f32).slice (Rect.unit (s := S114688) (k0_off131 L 8#32) S512.size (k0_off131_inb L 1)) (fun _ => rfl)).view.set]{fullShare} ((Memref.whole main_v1_scv : Memref sig .scVector .hbm S114688 .f32).slice (Rect.unit (s := S114688) (k0_off131 L 8#32) S512.size (k0_off131_inb L 1)) (fun _ => rfl)).view.writes (Elt F) ((Memref.whole main_v1_scv : Memref sig .scVector .hbm S114688 .f32).slice (Rect.unit (s := S114688) (k0_off131 L 8#32) S512.size (k0_off131_inb L 1)) (fun _ => rfl)).view.junk [⟨Rect.whole _, v.2.1 d L A⟩])
            ∗ (((Memref.whole main_v1_scv : Memref sig .scVector .hbm S114688 .f32).slice (Rect.unit (s := S114688) (k0_off131 L 16#32) S512.size (k0_off131_inb L 2)) (fun _ => rfl)).view.loc (thr d L) ↦[((Memref.whole main_v1_scv : Memref sig .scVector .hbm S114688 .f32).slice (Rect.unit (s := S114688) (k0_off131 L 16#32) S512.size (k0_off131_inb L 2)) (fun _ => rfl)).view.set]{fullShare} ((Memref.whole main_v1_scv : Memref sig .scVector .hbm S114688 .f32).slice (Rect.unit (s := S114688) (k0_off131 L 16#32) S512.size (k0_off131_inb L 2)) (fun _ => rfl)).view.writes (Elt F) ((Memref.whole main_v1_scv : Memref sig .scVector .hbm S114688 .f32).slice (Rect.unit (s := S114688) (k0_off131 L 16#32) S512.size (k0_off131_inb L 2)) (fun _ => rfl)).view.junk [⟨Rect.whole _, v.2.2.1 d L A⟩])
            ∗ (((Memref.whole main_v1_scv : Memref sig .scVector .hbm S114688 .f32).slice (Rect.unit (s := S114688) (k0_off131 L 24#32) S512.size (k0_off131_inb L 3)) (fun _ => rfl)).view.loc (thr d L) ↦[((Memref.whole main_v1_scv : Memref sig .scVector .hbm S114688 .f32).slice (Rect.unit (s := S114688) (k0_off131 L 24#32) S512.size (k0_off131_inb L 3)) (fun _ => rfl)).view.set]{fullShare} ((Memref.whole main_v1_scv : Memref sig .scVector .hbm S114688 .f32).slice (Rect.unit (s := S114688) (k0_off131 L 24#32) S512.size (k0_off131_inb L 3)) (fun _ => rfl)).view.writes (Elt F) ((Memref.whole main_v1_scv : Memref sig .scVector .hbm S114688 .f32).slice (Rect.unit (s := S114688) (k0_off131 L 24#32) S512.size (k0_off131_inb L 3)) (fun _ => rfl)).view.junk [⟨Rect.whole _, v.2.2.2.1 d L A⟩])
            ∗ (((Memref.whole main_v1_scv : Memref sig .scVector .hbm S114688 .f32).slice (Rect.unit (s := S114688) (k0_off131 L 32#32) S512.size (k0_off131_inb L 4)) (fun _ => rfl)).view.loc (thr d L) ↦[((Memref.whole main_v1_scv : Memref sig .scVector .hbm S114688 .f32).slice (Rect.unit (s := S114688) (k0_off131 L 32#32) S512.size (k0_off131_inb L 4)) (fun _ => rfl)).view.set]{fullShare} ((Memref.whole main_v1_scv : Memref sig .scVector .hbm S114688 .f32).slice (Rect.unit (s := S114688) (k0_off131 L 32#32) S512.size (k0_off131_inb L 4)) (fun _ => rfl)).view.writes (Elt F) ((Memref.whole main_v1_scv : Memref sig .scVector .hbm S114688 .f32).slice (Rect.unit (s := S114688) (k0_off131 L 32#32) S512.size (k0_off131_inb L 4)) (fun _ => rfl)).view.junk [⟨Rect.whole _, v.2.2.2.2.1 d L A⟩])
            ∗ (((Memref.whole main_v1_scv : Memref sig .scVector .hbm S114688 .f32).slice (Rect.unit (s := S114688) (k0_off131 L 40#32) S512.size (k0_off131_inb L 5)) (fun _ => rfl)).view.loc (thr d L) ↦[((Memref.whole main_v1_scv : Memref sig .scVector .hbm S114688 .f32).slice (Rect.unit (s := S114688) (k0_off131 L 40#32) S512.size (k0_off131_inb L 5)) (fun _ => rfl)).view.set]{fullShare} ((Memref.whole main_v1_scv : Memref sig .scVector .hbm S114688 .f32).slice (Rect.unit (s := S114688) (k0_off131 L 40#32) S512.size (k0_off131_inb L 5)) (fun _ => rfl)).view.writes (Elt F) ((Memref.whole main_v1_scv : Memref sig .scVector .hbm S114688 .f32).slice (Rect.unit (s := S114688) (k0_off131 L 40#32) S512.size (k0_off131_inb L 5)) (fun _ => rfl)).view.junk [⟨Rect.whole _, v.2.2.2.2.2.1 d L A⟩])
            ∗ (((Memref.whole main_v1_scv : Memref sig .scVector .hbm S114688 .f32).slice (Rect.unit (s := S114688) (k0_off131 L 48#32) S512.size (k0_off131_inb L 6)) (fun _ => rfl)).view.loc (thr d L) ↦[((Memref.whole main_v1_scv : Memref sig .scVector .hbm S114688 .f32).slice (Rect.unit (s := S114688) (k0_off131 L 48#32) S512.size (k0_off131_inb L 6)) (fun _ => rfl)).view.set]{fullShare} ((Memref.whole main_v1_scv : Memref sig .scVector .hbm S114688 .f32).slice (Rect.unit (s := S114688) (k0_off131 L 48#32) S512.size (k0_off131_inb L 6)) (fun _ => rfl)).view.writes (Elt F) ((Memref.whole main_v1_scv : Memref sig .scVector .hbm S114688 .f32).slice (Rect.unit (s := S114688) (k0_off131 L 48#32) S512.size (k0_off131_inb L 6)) (fun _ => rfl)).view.junk [⟨Rect.whole _, v.2.2.2.2.2.2 d L A⟩]))
            ∗ scopedBufs (thr d L) ∗ scopedSems0 (thr d L) ∗ ∃ W', ⌜∀ p ∈ W', p ∈ W ∨ p.2 = none⌝ ∗ owes (thr d L) O W') } := by
  refine ⟨(?v0, ?v1, ?v2, ?v3, ?v4, ?v5, ?v6), fun d L O W q A hO => ?run⟩
  case run =>
  rw [cc0__sc_body_eq_skeleton]; unfold cc0__sc_body_skel
  rw [(K (F := F)).scopedBufs_V facts d ((L 0).castLE hcore0) ((L 1).castLE hsub0), SparseCore.Cfg.scopedSems0_V (Val := Elt F) d ((L 0).castLE hcore0) ((L 1).castLE hsub0), ownSems0_V, ownBufs_V]
  iintro ⟨#Hlv, HA, ⟨⟨%g0, Hp0⟩, ⟨%g1, Hp1⟩, ⟨%g2, Hp2⟩, ⟨%g3, Hp3⟩, ⟨%g4, Hp4⟩, ⟨%g5, Hp5⟩, ⟨%g6, Hp6⟩⟩,
    ⟨⟨%f0, Hb0⟩, ⟨%f1, Hb1⟩, ⟨%f2, Hb2⟩, Hbufs⟩, ⟨Hs7, Hs8, Hr0, Hr1, Hr2, Hr3, Hr4, Hr5, Hr6, Hsems⟩, HO⟩
  ihave Hmw := ((K (F := F)).mayWaits_none (thr := thr d L) hO) $$ Hlv
  -- two copies read the array at once (one per buffer): a half of the share for each
  ihave HA' := (pointsTo_share (PosShare.mem_left_op_right q)).1 $$ HA
  icases HA' with ⟨HA1, HA2⟩
  sl_exec_parts
  sl_step
  -- the first copy-out read the staging scratch over its first contents: the 32 stores cover it, so over anything
  have hc0 : LoadRect.covChk ((tileRun.sl.Hb2_32 d L A).map Sigma.fst) (LoadRect.whole _) cov32 = true := by
    first | rfl | decide
  have e0 : tileRun.sl.dma64 d L A f2 = tileRun.sl.dma64 d L A (Memref.whole cc0_scratch2 : Memref sig .scVector .vmem S512 .f32).view.junk := by
    delta tileRun.sl.dma64
    rw [Memref.writes_eq_junk_of_covChk (Val := Elt F) (m := (Memref.whole cc0_scratch2 : Memref sig .scVector .vmem S512 .f32))
      (Memref.isWhole_whole _) f2 (tileRun.sl.Hb2_32 d L A) cov32 hc0]
  ihave Hp0' := (Entails.of_eq (congrArg (fun z => (((Memref.whole main_v1_scv : Memref sig .scVector .hbm S114688 .f32).slice (Rect.unit (s := S114688) (k0_off131 L 0#32) S512.size (k0_off131_inb L 0)) (fun _ => rfl)).view.loc (thr d L) ↦[((Memref.whole main_v1_scv : Memref sig .scVector .hbm S114688 .f32).slice (Rect.unit (s := S114688) (k0_off131 L 0#32) S512.size (k0_off131_inb L 0)) (fun _ => rfl)).view.set]{fullShare}
      ((Memref.whole main_v1_scv : Memref sig .scVector .hbm S114688 .f32).slice (Rect.unit (s := S114688) (k0_off131 L 0#32) S512.size (k0_off131_inb L 0)) (fun _ => rfl)).view.writes (Elt F) ((Memref.whole main_v1_scv : Memref sig .scVector .hbm S114688 .f32).slice (Rect.unit (s := S114688) (k0_off131 L 0#32) S512.size (k0_off131_inb L 0)) (fun _ => rfl)).view.junk [⟨Rect.whole _, z⟩] : sProp 𝕄)) e0)) $$ Hp0
  -- the last piece was written over its first contents: the one write covers it
  ihave Hp6' := (Entails.of_eq (Memref.pointsTo_writes_junk_of_covChk (Val := Elt F) (thr d L) ((Memref.whole main_v1_scv : Memref sig .scVector .hbm S114688 .f32).slice (Rect.unit (s := S114688) (k0_off131 L 48#32) S512.size (k0_off131_inb L 6)) (fun _ => rfl)) g6
    [⟨Rect.whole _, tileRun.sl.dma64_6 d L A⟩] fullShare (.leaf 0) (by rfl))) $$ Hp6
  isplitl [HA1 HA2]
  · iapply (pointsTo_share (PosShare.mem_left_op_right q)).2
    isplitl [HA1]; · iexact HA1
    iexact HA2
  isplitl [Hp0' Hp1 Hp2 Hp3 Hp4 Hp5 Hp6']
  · isplitl [Hp0']; · iexact Hp0'
    isplitl [Hp1]; · iexact Hp1
    isplitl [Hp2]; · iexact Hp2
    isplitl [Hp3]; · iexact Hp3
    isplitl [Hp4]; · iexact Hp4
    isplitl [Hp5]; · iexact Hp5
    iexact Hp6'
  isplitl [Hb0 Hb1 Hb2 Hbufs]
  · isplitl [Hb0]; · iexists _; iexact Hb0
    isplitl [Hb1]; · iexists _; iexact Hb1
    isplitl [Hb2]; · iexists _; iexact Hb2
    iexact Hbufs
  isplitl [Hs7 Hs8 Hr0 Hr1 Hr2 Hr3 Hr4 Hr5 Hr6 Hsems]
  · isplitl [Hs7]; · iexact Hs7
    isplitl [Hs8]; · iexact Hs8
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hsems
  iexists _; isplitr
  rotate_left
  · iexact HO
  · ipureintro
    repeat refine waits_insert ?_
    exact fun p hp => .inl hp

open Cert.KernelIdeal.Launch (outPiece pieceSet placeOf aLoc oLoc thrAt bodyAt TileBodySpec blockNo mem_pieceSet)

/-- The k-th delivered vector of the run. -/
def pieceVal (k : Fin 7) : ValTy F :=
  ![(tileRun (F := F)).1.1, (tileRun (F := F)).1.2.1, (tileRun (F := F)).1.2.2.1, (tileRun (F := F)).1.2.2.2.1,
    (tileRun (F := F)).1.2.2.2.2.1, (tileRun (F := F)).1.2.2.2.2.2.1, (tileRun (F := F)).1.2.2.2.2.2.2] k

/-- The place whose tile writes block b of the result (blocks of 512 words; block 32·k + 2·i + c is piece k of core c, subcore i). -/
def placeOfBlk (b : ℕ) : grid0.Coords := placeOf ⟨b % 2, Nat.mod_lt _ (by decide)⟩ ⟨b % 32 / 2, by omega⟩
/-- … and which of its seven pieces the block is. -/
def pieceOfBlk (b : ℕ) : Fin 7 := ⟨b / 32 % 7, Nat.mod_lt _ (by decide)⟩

omit [FloatOps F] in
theorem owner_block : ∀ L : grid0.Coords, ∀ k : Fin 7, placeOfBlk (blockNo L k) = L ∧ pieceOfBlk (blockNo L k) = k := by
  decide +kernel

omit [FloatOps F] in
/-- A word of piece k of the tile at L is owned by that place and that piece. -/
theorem owner_of_mem {L : grid0.Coords} {k : Fin 7} {x : S114688.Idx} (h : x ∈ pieceSet L k) :
    placeOfBlk ((x 0).val / 512) = L ∧ pieceOfBlk ((x 0).val / 512) = k := by
  rw [(mem_pieceSet L k x).1 h]
  exact owner_block L k

/-- THE RESULT ARRAY the tiles leave, word by word: what the copy-out of the piece that owns the word delivered, written
    at the word's place in that piece. -/
def colArrD (d : Dev nD) (Ac : Buf (Elt F) (aLoc d)) : Buf (Elt F) (oLoc d) := fun x =>
  (outPiece (placeOfBlk ((x 0).val / 512)) (pieceOfBlk ((x 0).val / 512))).view.writes (Elt F)
    (outPiece (placeOfBlk ((x 0).val / 512)) (pieceOfBlk ((x 0).val / 512))).view.junk
    [⟨Rect.whole _, pieceVal (pieceOfBlk ((x 0).val / 512)) d (placeOfBlk ((x 0).val / 512)) Ac⟩] x

/-- On a piece the result array is that piece's own write. -/
theorem piece_eq (d : Dev nD) (L : grid0.Coords) (k : Fin 7) (Ac : Buf (Elt F) (aLoc d)) :
    ((outPiece L k).view.loc (thrAt d L) ↦[(outPiece L k).view.set]{fullShare} colArrD d Ac : sProp 𝕄)
      = ((outPiece L k).view.loc (thrAt d L) ↦[(outPiece L k).view.set]{fullShare}
          (outPiece L k).view.writes (Elt F) (outPiece L k).view.junk [⟨Rect.whole _, pieceVal k d L Ac⟩]) :=
  pointsTo_congr fun x hx => by
    obtain ⟨hL, hk⟩ := owner_of_mem (L := L) (k := k) (x := x) hx
    have key : ∀ (L' : grid0.Coords) (k' : Fin 7), L' = L → k' = k →
        (outPiece L' k').view.writes (Elt F) (outPiece L' k').view.junk [⟨Rect.whole _, pieceVal k' d L' Ac⟩] x
          = (outPiece L k).view.writes (Elt F) (outPiece L k).view.junk [⟨Rect.whole _, pieceVal k d L Ac⟩] x := by
      rintro _ _ rfl rfl; rfl
    exact key _ _ hL hk

omit [FloatOps F] in
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- THE TILE'S BODY in the launch's form: every piece ends at the one result array. -/
theorem tile_body (As : (d : Dev nD) → Buf (Elt F) (aLoc d)) :
    TileBodySpec (F := F) As (fun d => colArrD d (As d)) := by
  intro d L O W q hO
  rw [bigSep_fin7, bigSep_fin7]
  refine ((tileRun (F := F)).2 d L O W q (As d) hO).trans (wp_mono _ _ _ fun _ => ?_)
  iintro ⟨HA, ⟨H0, H1, H2, H3, H4, H5, H6⟩, Hrest⟩
  isplitl [HA]; · iexact HA
  isplitl [H0 H1 H2 H3 H4 H5 H6]
  · isplitl [H0]; · rw [piece_eq d L 0 (As d)]; iexact H0
    isplitl [H1]; · rw [piece_eq d L 1 (As d)]; iexact H1
    isplitl [H2]; · rw [piece_eq d L 2 (As d)]; iexact H2
    isplitl [H3]; · rw [piece_eq d L 3 (As d)]; iexact H3
    isplitl [H4]; · rw [piece_eq d L 4 (As d)]; iexact H4
    isplitl [H5]; · rw [piece_eq d L 5 (As d)]; iexact H5
    rw [piece_eq d L 6 (As d)]; iexact H6
  iexact Hrest

end Cert.KernelIdeal.TileValue

end
-- ==== Proof.Claims.lean ====
/-
  The claims about the idealized kernel: its frame, and its result against the reference's at the ideal instance.

  The result buffer ends at the transposition of the planes assembled from the first region's window array and the
  tiles' column sums; at the ideal instance the window array's entry (h, w) is the sum over the columns of the row
  sums of head h against the 0/1 window mask, the column-sum array's entry ((k·8 + b)·2048 + c) is the sum of the 256
  rows of band b of head 9 + k at column c, and the planes are then the reference's function of the scores.
-/
import proofs.«216449_g46943992545511_cont_8to1_c_491_21_alg».proof.Proof.Value
import proofs.«216449_g46943992545511_cont_8to1_c_491_21_alg».proof.Proof.Bridge
import proofs.«216449_g46943992545511_cont_8to1_c_491_21_alg».proof.Proof.Region1.Ideal
import proofs.«216449_g46943992545511_cont_8to1_c_491_21_alg».proof.Proof.RefValue
import proofs.«216449_g46943992545511_cont_8to1_c_491_21_alg».proof.Proof.RefClaims
import proofs.«216449_g46943992545511_cont_8to1_c_491_21_alg».proof.Proof.TileValue

noncomputable section

namespace Cert.KernelIdeal.Claims

open Cert.KernelIdeal Cert.KernelIdeal.Gen Cert.KernelIdeal.Setup Cert.KernelIdeal.Launch

open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-- The column-sum array after the call: what the tiles' bodies leave, of the reshaped scores. -/
abbrev colS' : (d : Dev nD) → Buf (Elt Ideal) (oLoc d) := fun d => TileValue.colArrD d (A m d)

/-- The reshaped scores, the column-sum array and the window array as vectors of their literal shapes. -/
abbrev Ad (d : Dev nD) : FVec Ideal S16x2048x2048 .f32 := A m d
abbrev colV (d : Dev nD) : Vec Ideal S114688 .f32 := colS' m d
abbrev winV (d : Dev nD) : Vec Ideal S9x128 .f32 := Region1.win1 (F := Ideal) (Va (Wa' m (colS' m))) d

/-- The reshaped scores at an index are the scores at that head, row and column. -/
theorem A_apply (d : Dev nD) (h : Fin 16) (r c : Fin 2048) :
    Ad m d (ix3 h r c) = (m ((d.tc : Thread nD τ).loc main_arg2)) (ix4 (0 : Fin 1) h r c) := by
  unfold Ad A W1
  rw [StableHlo.reshape_result]
  exact Bridge.reshape_apply _ h r c

/-- What the tiles' reading has to say: the column-sum array's entry for head 9 + k, band b, column c. -/
def TileReading : Prop :=
  ∀ (d : Dev nD) (k : Fin 7) (b : Fin 8) (c : Fin 2048),
    (colV m d (ix1 (⟨(k.val * 8 + b.val) * 2048 + c.val, by omega⟩ : Fin 114688)) : EReal)
      = ∑ n : Fin 4, ∑ i : Fin 64,
          Ad m d (ix3 (⟨9 + k.val, by omega⟩ : Fin 16) (⟨256 * b.val + 64 * n.val + i.val, by omega⟩ : Fin 2048) c)

/-- The first region's window array at the ideal instance, over the reshaped scores. -/
theorem win1_reading (d : Dev nD) (h : Fin 9) (w : Fin 128) :
    (winV m d (ix2 h w) : EReal)
      = ∑ c : Fin 2048, (∑ r : Fin 2048, Ad m d (ix3 (⟨h.val, by omega⟩ : Fin 16) r c)) * Spec.mask c w := by
  have e := Region1.win1_ideal (Va (Wa' m (colS' m))) d h w
  refine e.trans (Finset.sum_congr rfl fun col _ => ?_)
  rw [Region1.mask1_ideal, Bridge.mask_ite]
  rfl

theorem result_G (hcol : TileReading m) (d : Dev nD) :
    W5 (Wc' m (colS' m)) d (Proc.devRef .tc (main_v4 : Ref sig .tc))
      = Cert.ReferenceIdeal.RefValue.G (m ((d.tc : Thread nD τ).loc main_arg2)) := by
  rw [last_result]
  exact Bridge.kernel_value' (m ((d.tc : Thread nD τ).loc main_arg2)) (Ad m d) (winV m d) (colV m d)
    (A_apply m d) (win1_reading m d) (hcol d)

end Cert.KernelIdeal.Claims

namespace Cert.Proof.KernelClaims

open Cert.KernelIdeal.Launch Cert.KernelIdeal.Claims
open Idealize.ShloMosaic Idealize.ShloMosaic.TcCoe Idealize.SL.Sem

theorem frame_pi : Cert.frame_KernelIdeal := fun m ρ _ =>
  (θ_run Cert.KernelIdeal.defs _ _).mono (fun _ h c => (h c).2)
    (run_read (F := Ideal) m ρ (colS' m) (Cert.KernelIdeal.TileValue.tile_body _))

theorem algebraic (hcol : ∀ m, TileReading m) : Cert.algebraic_KernelIdeal_ReferenceIdeal := by
  intro m ρ m' ρ' _ hagree
  refine ⟨fun c => W5 (Wc' m (colS' m)) c (Proc.devRef .tc (Cert.KernelIdeal.main_v4 : Ref Cert.KernelIdeal.sig .tc)),
    run_read (F := Ideal) m ρ (colS' m) (Cert.KernelIdeal.TileValue.tile_body _), ?_⟩
  refine (θ_run Cert.ReferenceIdeal.defs _ _).mono (fun _ h c => ⟨(h c).1.trans ?_, (h c).2⟩)
    (Cert.ReferenceIdeal.Value.run (F := Ideal) m' ρ')
  rw [(hagree c).2.2]
  exact (Cert.ReferenceIdeal.RefValue.result_eq
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) _).trans (result_G m (hcol m) c).symm

end Cert.Proof.KernelClaims

end
-- ==== Proof.TileIdealDefs.lean ====
import proofs.«216449_g46943992545511_cont_8to1_c_491_21_alg».proof.Proof.TileValue
import Idealize.ShloMosaic.PureOps.Ideal
import Idealize.ShloMosaic.Lib.ValueIdx

noncomputable section

namespace Cert.KernelIdeal.TileIdeal

open Cert.KernelIdeal Cert.KernelIdeal.Gen Cert.KernelIdeal.Setup Cert.KernelIdeal.TileValue
open Cert.KernelIdeal.Launch (outPiece pieceSet placeOf aLoc oLoc thrAt blockNo mem_pieceSet)
open Idealize.ShloMosaic Idealize.ShloMosaic.ValueIdx
open scoped BigOperators

variable {F : FTy → Type} [FloatOps F]

/-! ## Vocabulary (generic in the float instance) -/

/-- Accumulator a of the 32 a chunk's loop carries. -/
def accAt (acc : Acc F) (a : Fin 32) : FVec F S16 .f32 :=
  ![acc.1, acc.2.1, acc.2.2.1, acc.2.2.2.1, acc.2.2.2.2.1, acc.2.2.2.2.2.1, acc.2.2.2.2.2.2.1, acc.2.2.2.2.2.2.2.1, acc.2.2.2.2.2.2.2.2.1, acc.2.2.2.2.2.2.2.2.2.1, acc.2.2.2.2.2.2.2.2.2.2.1, acc.2.2.2.2.2.2.2.2.2.2.2.1, acc.2.2.2.2.2.2.2.2.2.2.2.2.1, acc.2.2.2.2.2.2.2.2.2.2.2.2.2.1, acc.2.2.2.2.2.2.2.2.2.2.2.2.2.2.1, acc.2.2.2.2.2.2.2.2.2.2.2.2.2.2.2.1, acc.2.2.2.2.2.2.2.2.2.2.2.2.2.2.2.2.1, acc.2.2.2.2.2.2.2.2.2.2.2.2.2.2.2.2.2.1, acc.2.2.2.2.2.2.2.2.2.2.2.2.2.2.2.2.2.2.1, acc.2.2.2.2.2.2.2.2.2.2.2.2.2.2.2.2.2.2.2.1, acc.2.2.2.2.2.2.2.2.2.2.2.2.2.2.2.2.2.2.2.2.1, acc.2.2.2.2.2.2.2.2.2.2.2.2.2.2.2.2.2.2.2.2.2.1, acc.2.2.2.2.2.2.2.2.2.2.2.2.2.2.2.2.2.2.2.2.2.2.1, acc.2.2.2.2.2.2.2.2.2.2.2.2.2.2.2.2.2.2.2.2.2.2.2.1, acc.2.2.2.2.2.2.2.2.2.2.2.2.2.2.2.2.2.2.2.2.2.2.2.2.1, acc.2.2.2.2.2.2.2.2.2.2.2.2.2.2.2.2.2.2.2.2.2.2.2.2.2.1, acc.2.2.2.2.2.2.2.2.2.2.2.2.2.2.2.2.2.2.2.2.2.2.2.2.2.2.1, acc.2.2.2.2.2.2.2.2.2.2.2.2.2.2.2.2.2.2.2.2.2.2.2.2.2.2.2.1, acc.2.2.2.2.2.2.2.2.2.2.2.2.2.2.2.2.2.2.2.2.2.2.2.2.2.2.2.2.1, acc.2.2.2.2.2.2.2.2.2.2.2.2.2.2.2.2.2.2.2.2.2.2.2.2.2.2.2.2.2.1, acc.2.2.2.2.2.2.2.2.2.2.2.2.2.2.2.2.2.2.2.2.2.2.2.2.2.2.2.2.2.2.1, acc.2.2.2.2.2.2.2.2.2.2.2.2.2.2.2.2.2.2.2.2.2.2.2.2.2.2.2.2.2.2.2] a

/-- What a head's accumulators start from: zero in every lane. -/
def zeroAcc : Acc F :=
  let z : FVec F S16 .f32 := broadcast S16 (Scalar.ofBits .f32 0x00000000#32 : F .f32)
  (z, z, z, z, z, z, z, z, z, z, z, z, z, z, z, z, z, z, z, z, z, z, z, z, z, z, z, z, z, z, z, z)

/-- What the copy of chunk n (n = 0..27) delivers into its buffer: 64 rows of 512 words of the scores. -/
def chunk (n : Fin 28) (d : Dev nD) (L : grid0.Coords) (A : Buf (Elt F) (aLoc d)) : S64x512.Idx → Elt F .f32 :=
  ![tileRun.sl.dma0 d L A,
    tileRun.sl.dma0_1 d L A,
    tileRun.sl.dma0_2 d L A,
    tileRun.sl.dma0_3 d L A,
    tileRun.sl.dma0_4 d L A,
    tileRun.sl.dma0_5 d L A,
    tileRun.sl.dma0_6 d L A,
    tileRun.sl.dma0_7 d L A,
    tileRun.sl.dma0_8 d L A,
    tileRun.sl.dma0_9 d L A,
    tileRun.sl.dma0_10 d L A,
    tileRun.sl.dma0_11 d L A,
    tileRun.sl.dma0_12 d L A,
    tileRun.sl.dma0_13 d L A,
    tileRun.sl.dma0_14 d L A,
    tileRun.sl.dma0_15 d L A,
    tileRun.sl.dma0_16 d L A,
    tileRun.sl.dma0_17 d L A,
    tileRun.sl.dma0_18 d L A,
    tileRun.sl.dma0_19 d L A,
    tileRun.sl.dma0_20 d L A,
    tileRun.sl.dma0_21 d L A,
    tileRun.sl.dma0_22 d L A,
    tileRun.sl.dma0_23 d L A,
    tileRun.sl.dma0_24 d L A,
    tileRun.sl.dma0_25 d L A,
    tileRun.sl.dma0_26 d L A,
    tileRun.sl.dma0_27 d L A] n

/-- The accumulators of head 9 + k when its fourth chunk's loop ends: four folds of 64 rows from zero. -/
def finalAcc (k : Fin 7) (d : Dev nD) (L : grid0.Coords) (A : Buf (Elt F) (aLoc d)) : Acc F :=
  ![rowsFold_t4 (Memref.whole cc0_scratch1) (chunk 3 d L A) k0_t4_loop.trips (rowsFold_t3 (Memref.whole cc0_scratch0) (chunk 2 d L A) k0_t3_loop.trips (rowsFold_t2 (Memref.whole cc0_scratch1) (chunk 1 d L A) k0_t2_loop.trips (rowsFold_t1 (Memref.whole cc0_scratch0) (chunk 0 d L A) k0_t1_loop.trips (zeroAcc)))),
    rowsFold_t8 (Memref.whole cc0_scratch1) (chunk 7 d L A) k0_t8_loop.trips (rowsFold_t7 (Memref.whole cc0_scratch0) (chunk 6 d L A) k0_t7_loop.trips (rowsFold_t6 (Memref.whole cc0_scratch1) (chunk 5 d L A) k0_t6_loop.trips (rowsFold_t5 (Memref.whole cc0_scratch0) (chunk 4 d L A) k0_t5_loop.trips (zeroAcc)))),
    rowsFold_t12 (Memref.whole cc0_scratch1) (chunk 11 d L A) k0_t12_loop.trips (rowsFold_t11 (Memref.whole cc0_scratch0) (chunk 10 d L A) k0_t11_loop.trips (rowsFold_t10 (Memref.whole cc0_scratch1) (chunk 9 d L A) k0_t10_loop.trips (rowsFold_t9 (Memref.whole cc0_scratch0) (chunk 8 d L A) k0_t9_loop.trips (zeroAcc)))),
    rowsFold_t16 (Memref.whole cc0_scratch1) (chunk 15 d L A) k0_t16_loop.trips (rowsFold_t15 (Memref.whole cc0_scratch0) (chunk 14 d L A) k0_t15_loop.trips (rowsFold_t14 (Memref.whole cc0_scratch1) (chunk 13 d L A) k0_t14_loop.trips (rowsFold_t13 (Memref.whole cc0_scratch0) (chunk 12 d L A) k0_t13_loop.trips (zeroAcc)))),
    rowsFold_t20 (Memref.whole cc0_scratch1) (chunk 19 d L A) k0_t20_loop.trips (rowsFold_t19 (Memref.whole cc0_scratch0) (chunk 18 d L A) k0_t19_loop.trips (rowsFold_t18 (Memref.whole cc0_scratch1) (chunk 17 d L A) k0_t18_loop.trips (rowsFold_t17 (Memref.whole cc0_scratch0) (chunk 16 d L A) k0_t17_loop.trips (zeroAcc)))),
    rowsFold_t24 (Memref.whole cc0_scratch1) (chunk 23 d L A) k0_t24_loop.trips (rowsFold_t23 (Memref.whole cc0_scratch0) (chunk 22 d L A) k0_t23_loop.trips (rowsFold_t22 (Memref.whole cc0_scratch1) (chunk 21 d L A) k0_t22_loop.trips (rowsFold_t21 (Memref.whole cc0_scratch0) (chunk 20 d L A) k0_t21_loop.trips (zeroAcc)))),
    rowsFold_t28 (Memref.whole cc0_scratch1) (chunk 27 d L A) k0_t28_loop.trips (rowsFold_t27 (Memref.whole cc0_scratch0) (chunk 26 d L A) k0_t27_loop.trips (rowsFold_t26 (Memref.whole cc0_scratch1) (chunk 25 d L A) k0_t26_loop.trips (rowsFold_t25 (Memref.whole cc0_scratch0) (chunk 24 d L A) k0_t25_loop.trips (zeroAcc))))] k

/-- Row-band and first column of the tile at place L. -/
def r8 (L : grid0.Coords) : ℕ := (2 * (L 1).val + (L 0).val) / 4
def c0 (L : grid0.Coords) : ℕ := 512 * ((2 * (L 1).val + (L 0).val) % 4)

omit [FloatOps F] in
theorem rowG_inb (k : Fin 64) (a : Fin 32) : ∀ x, (![k.val, 16 * a.val] : Fin 2 → ℕ) x + S1x16.size x ≤ S64x512.size x := by
  intro x
  match x with
  | ⟨0, _⟩ => show k.val + 1 ≤ 64; omega
  | ⟨1, _⟩ => show 16 * a.val + 16 ≤ 512; omega

/-- Sixteen lanes of row k from column 16·a, by closed-form offsets. -/
def rowReadG (M : Memref sig .scVector .vmem S64x512 .f32) (f : M.view.ty.Contents (Elt F)) (k : Fin 64) (a : Fin 32) : FVec F S16 .f32 :=
  rowRead M f ![k.val, 16 * a.val] (rowG_inb k a)

/-- One trip, the same for every loop: row k added to the 32 accumulators. -/
def addRowG (M : Memref sig .scVector .vmem S64x512 .f32) (f : M.view.ty.Contents (Elt F)) (k : Fin 64) (acc : Acc F) : Acc F :=
  (addf (acc.1) (rowReadG M f k 0),
    addf (acc.2.1) (rowReadG M f k 1),
    addf (acc.2.2.1) (rowReadG M f k 2),
    addf (acc.2.2.2.1) (rowReadG M f k 3),
    addf (acc.2.2.2.2.1) (rowReadG M f k 4),
    addf (acc.2.2.2.2.2.1) (rowReadG M f k 5),
    addf (acc.2.2.2.2.2.2.1) (rowReadG M f k 6),
    addf (acc.2.2.2.2.2.2.2.1) (rowReadG M f k 7),
    addf (acc.2.2.2.2.2.2.2.2.1) (rowReadG M f k 8),
    addf (acc.2.2.2.2.2.2.2.2.2.1) (rowReadG M f k 9),
    addf (acc.2.2.2.2.2.2.2.2.2.2.1) (rowReadG M f k 10),
    addf (acc.2.2.2.2.2.2.2.2.2.2.2.1) (rowReadG M f k 11),
    addf (acc.2.2.2.2.2.2.2.2.2.2.2.2.1) (rowReadG M f k 12),
    addf (acc.2.2.2.2.2.2.2.2.2.2.2.2.2.1) (rowReadG M f k 13),
    addf (acc.2.2.2.2.2.2.2.2.2.2.2.2.2.2.1) (rowReadG M f k 14),
    addf (acc.2.2.2.2.2.2.2.2.2.2.2.2.2.2.2.1) (rowReadG M f k 15),
    addf (acc.2.2.2.2.2.2.2.2.2.2.2.2.2.2.2.2.1) (rowReadG M f k 16),
    addf (acc.2.2.2.2.2.2.2.2.2.2.2.2.2.2.2.2.2.1) (rowReadG M f k 17),
    addf (acc.2.2.2.2.2.2.2.2.2.2.2.2.2.2.2.2.2.2.1) (rowReadG M f k 18),
    addf (acc.2.2.2.2.2.2.2.2.2.2.2.2.2.2.2.2.2.2.2.1) (rowReadG M f k 19),
    addf (acc.2.2.2.2.2.2.2.2.2.2.2.2.2.2.2.2.2.2.2.2.1) (rowReadG M f k 20),
    addf (acc.2.2.2.2.2.2.2.2.2.2.2.2.2.2.2.2.2.2.2.2.2.1) (rowReadG M f k 21),
    addf (acc.2.2.2.2.2.2.2.2.2.2.2.2.2.2.2.2.2.2.2.2.2.2.1) (rowReadG M f k 22),
    addf (acc.2.2.2.2.2.2.2.2.2.2.2.2.2.2.2.2.2.2.2.2.2.2.2.1) (rowReadG M f k 23),
    addf (acc.2.2.2.2.2.2.2.2.2.2.2.2.2.2.2.2.2.2.2.2.2.2.2.2.1) (rowReadG M f k 24),
    addf (acc.2.2.2.2.2.2.2.2.2.2.2.2.2.2.2.2.2.2.2.2.2.2.2.2.2.1) (rowReadG M f k 25),
    addf (acc.2.2.2.2.2.2.2.2.2.2.2.2.2.2.2.2.2.2.2.2.2.2.2.2.2.2.1) (rowReadG M f k 26),
    addf (acc.2.2.2.2.2.2.2.2.2.2.2.2.2.2.2.2.2.2.2.2.2.2.2.2.2.2.2.1) (rowReadG M f k 27),
    addf (acc.2.2.2.2.2.2.2.2.2.2.2.2.2.2.2.2.2.2.2.2.2.2.2.2.2.2.2.2.1) (rowReadG M f k 28),
    addf (acc.2.2.2.2.2.2.2.2.2.2.2.2.2.2.2.2.2.2.2.2.2.2.2.2.2.2.2.2.2.1) (rowReadG M f k 29),
    addf (acc.2.2.2.2.2.2.2.2.2.2.2.2.2.2.2.2.2.2.2.2.2.2.2.2.2.2.2.2.2.2.1) (rowReadG M f k 30),
    addf (acc.2.2.2.2.2.2.2.2.2.2.2.2.2.2.2.2.2.2.2.2.2.2.2.2.2.2.2.2.2.2.2) (rowReadG M f k 31))

/-- The accumulators before trip k, the same for every loop. -/
def rowsFoldG (M : Memref sig .scVector .vmem S64x512 .f32) (f : M.view.ty.Contents (Elt F)) : ℕ → Acc F → Acc F
  | 0, init => init
  | k + 1, init => if h : k < 64 then addRowG M f ⟨k, h⟩ (rowsFoldG M f k init) else rowsFoldG M f k init

end Cert.KernelIdeal.TileIdeal

end
-- ==== Proof.TileIdealL0.lean ====
/-
  Every loop's fold is the generic one. Each of the 28 row loops of the tile body adds row k of its 64×512 buffer to 32
  accumulators of 16 lanes, reading the row through 32 offset functions of its own; each such function is ![k, 16·a]
  in closed form, so one trip of any loop is the generic trip over closed-form offsets, and so is the whole fold.
-/
import proofs.«216449_g46943992545511_cont_8to1_c_491_21_alg».proof.Proof.TileIdealDefs
import Idealize.ShloMosaic.PureOps.Ideal
import Idealize.ShloMosaic.Lib.ValueIdx

noncomputable section

namespace Cert.KernelIdeal.TileIdeal

open Cert.KernelIdeal Cert.KernelIdeal.Gen Cert.KernelIdeal.Setup Cert.KernelIdeal.TileValue
open Cert.KernelIdeal.Launch (outPiece pieceSet placeOf aLoc oLoc thrAt blockNo mem_pieceSet)
open Idealize.ShloMosaic Idealize.ShloMosaic.ValueIdx
open scoped BigOperators

variable {F : FTy → Type} [FloatOps F]

/-! ## (L0) every loop's fold is the generic one — 28 statements, one text -/

/-- A row read at offsets equal to the closed form ![k, 16·a] is the generic row read. -/
theorem rowRead_eq (M : Memref sig .scVector .vmem S64x512 .f32) (f : M.view.ty.Contents (Elt F)) (off : Fin 2 → Nat)
    (h : ∀ a, off a + S1x16.size a ≤ S64x512.size a) (k : Fin 64) (a : Fin 32) (e : off = ![k.val, 16 * a.val]) :
    rowRead M f off h = rowReadG M f k a := by
  subst e; rfl

/-- One trip of loop 1 is the generic trip: each of its 32 offset functions is ![k, 16·a] in closed form. -/
theorem addRow_t1_eq (M : Memref sig .scVector .vmem S64x512 .f32) (f : M.view.ty.Contents (Elt F)) (k : Fin k0_t1_loop.trips)
    (hk : k.val < 64) (acc : Acc F) : addRow_t1 M f k acc = addRowG M f ⟨k.val, hk⟩ acc := by
  unfold addRow_t1 addRowG
  rw [rowRead_eq M f _ _ ⟨k.val, hk⟩ 0 (k0_off2_eq k),
    rowRead_eq M f _ _ ⟨k.val, hk⟩ 1 (k0_off3_eq k),
    rowRead_eq M f _ _ ⟨k.val, hk⟩ 2 (k0_off4_eq k),
    rowRead_eq M f _ _ ⟨k.val, hk⟩ 3 (k0_off5_eq k),
    rowRead_eq M f _ _ ⟨k.val, hk⟩ 4 (k0_off6_eq k),
    rowRead_eq M f _ _ ⟨k.val, hk⟩ 5 (k0_off7_eq k),
    rowRead_eq M f _ _ ⟨k.val, hk⟩ 6 (k0_off8_eq k),
    rowRead_eq M f _ _ ⟨k.val, hk⟩ 7 (k0_off9_eq k),
    rowRead_eq M f _ _ ⟨k.val, hk⟩ 8 (k0_off10_eq k),
    rowRead_eq M f _ _ ⟨k.val, hk⟩ 9 (k0_off11_eq k),
    rowRead_eq M f _ _ ⟨k.val, hk⟩ 10 (k0_off12_eq k),
    rowRead_eq M f _ _ ⟨k.val, hk⟩ 11 (k0_off13_eq k),
    rowRead_eq M f _ _ ⟨k.val, hk⟩ 12 (k0_off14_eq k),
    rowRead_eq M f _ _ ⟨k.val, hk⟩ 13 (k0_off15_eq k),
    rowRead_eq M f _ _ ⟨k.val, hk⟩ 14 (k0_off16_eq k),
    rowRead_eq M f _ _ ⟨k.val, hk⟩ 15 (k0_off17_eq k),
    rowRead_eq M f _ _ ⟨k.val, hk⟩ 16 (k0_off18_eq k),
    rowRead_eq M f _ _ ⟨k.val, hk⟩ 17 (k0_off19_eq k),
    rowRead_eq M f _ _ ⟨k.val, hk⟩ 18 (k0_off20_eq k),
    rowRead_eq M f _ _ ⟨k.val, hk⟩ 19 (k0_off21_eq k),
    rowRead_eq M f _ _ ⟨k.val, hk⟩ 20 (k0_off22_eq k),
    rowRead_eq M f _ _ ⟨k.val, hk⟩ 21 (k0_off23_eq k),
    rowRead_eq M f _ _ ⟨k.val, hk⟩ 22 (k0_off24_eq k),
    rowRead_eq M f _ _ ⟨k.val, hk⟩ 23 (k0_off25_eq k),
    rowRead_eq M f _ _ ⟨k.val, hk⟩ 24 (k0_off26_eq k),
    rowRead_eq M f _ _ ⟨k.val, hk⟩ 25 (k0_off27_eq k),
    rowRead_eq M f _ _ ⟨k.val, hk⟩ 26 (k0_off28_eq k),
    rowRead_eq M f _ _ ⟨k.val, hk⟩ 27 (k0_off29_eq k),
    rowRead_eq M f _ _ ⟨k.val, hk⟩ 28 (k0_off30_eq k),
    rowRead_eq M f _ _ ⟨k.val, hk⟩ 29 (k0_off31_eq k),
    rowRead_eq M f _ _ ⟨k.val, hk⟩ 30 (k0_off32_eq k),
    rowRead_eq M f _ _ ⟨k.val, hk⟩ 31 (k0_off33_eq k)]

/-- (L0) loop 1's fold is the generic one: its offset functions are ![k, 16·a] (the generated k0_offM_eq). -/
theorem rowsFold_t1_eq (M : Memref sig .scVector .vmem S64x512 .f32) (f : M.view.ty.Contents (Elt F)) (k : ℕ) (init : Acc F) :
    rowsFold_t1 M f k init = rowsFoldG M f k init := by
  have ht : k0_t1_loop.trips = 64 := by decide
  induction k with
  | zero => rfl
  | succ k ih =>
    show (if h : k < k0_t1_loop.trips then addRow_t1 M f ⟨k, h⟩ (rowsFold_t1 M f k init) else rowsFold_t1 M f k init)
      = (if h : k < 64 then addRowG M f ⟨k, h⟩ (rowsFoldG M f k init) else rowsFoldG M f k init)
    rw [ih]
    by_cases h : k < 64
    · rw [dif_pos (show k < k0_t1_loop.trips from ht ▸ h), dif_pos h]
      exact addRow_t1_eq M f ⟨k, ht ▸ h⟩ h _
    · rw [dif_neg (show ¬ k < k0_t1_loop.trips from ht ▸ h), dif_neg h]

/-- One trip of loop 2 is the generic trip: each of its 32 offset functions is ![k, 16·a] in closed form. -/
theorem addRow_t2_eq (M : Memref sig .scVector .vmem S64x512 .f32) (f : M.view.ty.Contents (Elt F)) (k : Fin k0_t2_loop.trips)
    (hk : k.val < 64) (acc : Acc F) : addRow_t2 M f k acc = addRowG M f ⟨k.val, hk⟩ acc := by
  unfold addRow_t2 addRowG
  rw [rowRead_eq M f _ _ ⟨k.val, hk⟩ 0 (k0_off34_eq k),
    rowRead_eq M f _ _ ⟨k.val, hk⟩ 1 (k0_off35_eq k),
    rowRead_eq M f _ _ ⟨k.val, hk⟩ 2 (k0_off36_eq k),
    rowRead_eq M f _ _ ⟨k.val, hk⟩ 3 (k0_off37_eq k),
    rowRead_eq M f _ _ ⟨k.val, hk⟩ 4 (k0_off38_eq k),
    rowRead_eq M f _ _ ⟨k.val, hk⟩ 5 (k0_off39_eq k),
    rowRead_eq M f _ _ ⟨k.val, hk⟩ 6 (k0_off40_eq k),
    rowRead_eq M f _ _ ⟨k.val, hk⟩ 7 (k0_off41_eq k),
    rowRead_eq M f _ _ ⟨k.val, hk⟩ 8 (k0_off42_eq k),
    rowRead_eq M f _ _ ⟨k.val, hk⟩ 9 (k0_off43_eq k),
    rowRead_eq M f _ _ ⟨k.val, hk⟩ 10 (k0_off44_eq k),
    rowRead_eq M f _ _ ⟨k.val, hk⟩ 11 (k0_off45_eq k),
    rowRead_eq M f _ _ ⟨k.val, hk⟩ 12 (k0_off46_eq k),
    rowRead_eq M f _ _ ⟨k.val, hk⟩ 13 (k0_off47_eq k),
    rowRead_eq M f _ _ ⟨k.val, hk⟩ 14 (k0_off48_eq k),
    rowRead_eq M f _ _ ⟨k.val, hk⟩ 15 (k0_off49_eq k),
    rowRead_eq M f _ _ ⟨k.val, hk⟩ 16 (k0_off50_eq k),
    rowRead_eq M f _ _ ⟨k.val, hk⟩ 17 (k0_off51_eq k),
    rowRead_eq M f _ _ ⟨k.val, hk⟩ 18 (k0_off52_eq k),
    rowRead_eq M f _ _ ⟨k.val, hk⟩ 19 (k0_off53_eq k),
    rowRead_eq M f _ _ ⟨k.val, hk⟩ 20 (k0_off54_eq k),
    rowRead_eq M f _ _ ⟨k.val, hk⟩ 21 (k0_off55_eq k),
    rowRead_eq M f _ _ ⟨k.val, hk⟩ 22 (k0_off56_eq k),
    rowRead_eq M f _ _ ⟨k.val, hk⟩ 23 (k0_off57_eq k),
    rowRead_eq M f _ _ ⟨k.val, hk⟩ 24 (k0_off58_eq k),
    rowRead_eq M f _ _ ⟨k.val, hk⟩ 25 (k0_off59_eq k),
    rowRead_eq M f _ _ ⟨k.val, hk⟩ 26 (k0_off60_eq k),
    rowRead_eq M f _ _ ⟨k.val, hk⟩ 27 (k0_off61_eq k),
    rowRead_eq M f _ _ ⟨k.val, hk⟩ 28 (k0_off62_eq k),
    rowRead_eq M f _ _ ⟨k.val, hk⟩ 29 (k0_off63_eq k),
    rowRead_eq M f _ _ ⟨k.val, hk⟩ 30 (k0_off64_eq k),
    rowRead_eq M f _ _ ⟨k.val, hk⟩ 31 (k0_off65_eq k)]

/-- (L0) loop 2's fold is the generic one: its offset functions are ![k, 16·a] (the generated k0_offM_eq). -/
theorem rowsFold_t2_eq (M : Memref sig .scVector .vmem S64x512 .f32) (f : M.view.ty.Contents (Elt F)) (k : ℕ) (init : Acc F) :
    rowsFold_t2 M f k init = rowsFoldG M f k init := by
  have ht : k0_t2_loop.trips = 64 := by decide
  induction k with
  | zero => rfl
  | succ k ih =>
    show (if h : k < k0_t2_loop.trips then addRow_t2 M f ⟨k, h⟩ (rowsFold_t2 M f k init) else rowsFold_t2 M f k init)
      = (if h : k < 64 then addRowG M f ⟨k, h⟩ (rowsFoldG M f k init) else rowsFoldG M f k init)
    rw [ih]
    by_cases h : k < 64
    · rw [dif_pos (show k < k0_t2_loop.trips from ht ▸ h), dif_pos h]
      exact addRow_t2_eq M f ⟨k, ht ▸ h⟩ h _
    · rw [dif_neg (show ¬ k < k0_t2_loop.trips from ht ▸ h), dif_neg h]

/-- One trip of loop 3 is the generic trip: each of its 32 offset functions is ![k, 16·a] in closed form. -/
theorem addRow_t3_eq (M : Memref sig .scVector .vmem S64x512 .f32) (f : M.view.ty.Contents (Elt F)) (k : Fin k0_t3_loop.trips)
    (hk : k.val < 64) (acc : Acc F) : addRow_t3 M f k acc = addRowG M f ⟨k.val, hk⟩ acc := by
  unfold addRow_t3 addRowG
  rw [rowRead_eq M f _ _ ⟨k.val, hk⟩ 0 (k0_off66_eq k),
    rowRead_eq M f _ _ ⟨k.val, hk⟩ 1 (k0_off67_eq k),
    rowRead_eq M f _ _ ⟨k.val, hk⟩ 2 (k0_off68_eq k),
    rowRead_eq M f _ _ ⟨k.val, hk⟩ 3 (k0_off69_eq k),
    rowRead_eq M f _ _ ⟨k.val, hk⟩ 4 (k0_off70_eq k),
    rowRead_eq M f _ _ ⟨k.val, hk⟩ 5 (k0_off71_eq k),
    rowRead_eq M f _ _ ⟨k.val, hk⟩ 6 (k0_off72_eq k),
    rowRead_eq M f _ _ ⟨k.val, hk⟩ 7 (k0_off73_eq k),
    rowRead_eq M f _ _ ⟨k.val, hk⟩ 8 (k0_off74_eq k),
    rowRead_eq M f _ _ ⟨k.val, hk⟩ 9 (k0_off75_eq k),
    rowRead_eq M f _ _ ⟨k.val, hk⟩ 10 (k0_off76_eq k),
    rowRead_eq M f _ _ ⟨k.val, hk⟩ 11 (k0_off77_eq k),
    rowRead_eq M f _ _ ⟨k.val, hk⟩ 12 (k0_off78_eq k),
    rowRead_eq M f _ _ ⟨k.val, hk⟩ 13 (k0_off79_eq k),
    rowRead_eq M f _ _ ⟨k.val, hk⟩ 14 (k0_off80_eq k),
    rowRead_eq M f _ _ ⟨k.val, hk⟩ 15 (k0_off81_eq k),
    rowRead_eq M f _ _ ⟨k.val, hk⟩ 16 (k0_off82_eq k),
    rowRead_eq M f _ _ ⟨k.val, hk⟩ 17 (k0_off83_eq k),
    rowRead_eq M f _ _ ⟨k.val, hk⟩ 18 (k0_off84_eq k),
    rowRead_eq M f _ _ ⟨k.val, hk⟩ 19 (k0_off85_eq k),
    rowRead_eq M f _ _ ⟨k.val, hk⟩ 20 (k0_off86_eq k),
    rowRead_eq M f _ _ ⟨k.val, hk⟩ 21 (k0_off87_eq k),
    rowRead_eq M f _ _ ⟨k.val, hk⟩ 22 (k0_off88_eq k),
    rowRead_eq M f _ _ ⟨k.val, hk⟩ 23 (k0_off89_eq k),
    rowRead_eq M f _ _ ⟨k.val, hk⟩ 24 (k0_off90_eq k),
    rowRead_eq M f _ _ ⟨k.val, hk⟩ 25 (k0_off91_eq k),
    rowRead_eq M f _ _ ⟨k.val, hk⟩ 26 (k0_off92_eq k),
    rowRead_eq M f _ _ ⟨k.val, hk⟩ 27 (k0_off93_eq k),
    rowRead_eq M f _ _ ⟨k.val, hk⟩ 28 (k0_off94_eq k),
    rowRead_eq M f _ _ ⟨k.val, hk⟩ 29 (k0_off95_eq k),
    rowRead_eq M f _ _ ⟨k.val, hk⟩ 30 (k0_off96_eq k),
    rowRead_eq M f _ _ ⟨k.val, hk⟩ 31 (k0_off97_eq k)]

/-- (L0) loop 3's fold is the generic one: its offset functions are ![k, 16·a] (the generated k0_offM_eq). -/
theorem rowsFold_t3_eq (M : Memref sig .scVector .vmem S64x512 .f32) (f : M.view.ty.Contents (Elt F)) (k : ℕ) (init : Acc F) :
    rowsFold_t3 M f k init = rowsFoldG M f k init := by
  have ht : k0_t3_loop.trips = 64 := by decide
  induction k with
  | zero => rfl
  | succ k ih =>
    show (if h : k < k0_t3_loop.trips then addRow_t3 M f ⟨k, h⟩ (rowsFold_t3 M f k init) else rowsFold_t3 M f k init)
      = (if h : k < 64 then addRowG M f ⟨k, h⟩ (rowsFoldG M f k init) else rowsFoldG M f k init)
    rw [ih]
    by_cases h : k < 64
    · rw [dif_pos (show k < k0_t3_loop.trips from ht ▸ h), dif_pos h]
      exact addRow_t3_eq M f ⟨k, ht ▸ h⟩ h _
    · rw [dif_neg (show ¬ k < k0_t3_loop.trips from ht ▸ h), dif_neg h]

/-- One trip of loop 4 is the generic trip: each of its 32 offset functions is ![k, 16·a] in closed form. -/
theorem addRow_t4_eq (M : Memref sig .scVector .vmem S64x512 .f32) (f : M.view.ty.Contents (Elt F)) (k : Fin k0_t4_loop.trips)
    (hk : k.val < 64) (acc : Acc F) : addRow_t4 M f k acc = addRowG M f ⟨k.val, hk⟩ acc := by
  unfold addRow_t4 addRowG
  rw [rowRead_eq M f _ _ ⟨k.val, hk⟩ 0 (k0_off99_eq k),
    rowRead_eq M f _ _ ⟨k.val, hk⟩ 1 (k0_off100_eq k),
    rowRead_eq M f _ _ ⟨k.val, hk⟩ 2 (k0_off101_eq k),
    rowRead_eq M f _ _ ⟨k.val, hk⟩ 3 (k0_off102_eq k),
    rowRead_eq M f _ _ ⟨k.val, hk⟩ 4 (k0_off103_eq k),
    rowRead_eq M f _ _ ⟨k.val, hk⟩ 5 (k0_off104_eq k),
    rowRead_eq M f _ _ ⟨k.val, hk⟩ 6 (k0_off105_eq k),
    rowRead_eq M f _ _ ⟨k.val, hk⟩ 7 (k0_off106_eq k),
    rowRead_eq M f _ _ ⟨k.val, hk⟩ 8 (k0_off107_eq k),
    rowRead_eq M f _ _ ⟨k.val, hk⟩ 9 (k0_off108_eq k),
    rowRead_eq M f _ _ ⟨k.val, hk⟩ 10 (k0_off109_eq k),
    rowRead_eq M f _ _ ⟨k.val, hk⟩ 11 (k0_off110_eq k),
    rowRead_eq M f _ _ ⟨k.val, hk⟩ 12 (k0_off111_eq k),
    rowRead_eq M f _ _ ⟨k.val, hk⟩ 13 (k0_off112_eq k),
    rowRead_eq M f _ _ ⟨k.val, hk⟩ 14 (k0_off113_eq k),
    rowRead_eq M f _ _ ⟨k.val, hk⟩ 15 (k0_off114_eq k),
    rowRead_eq M f _ _ ⟨k.val, hk⟩ 16 (k0_off115_eq k),
    rowRead_eq M f _ _ ⟨k.val, hk⟩ 17 (k0_off116_eq k),
    rowRead_eq M f _ _ ⟨k.val, hk⟩ 18 (k0_off117_eq k),
    rowRead_eq M f _ _ ⟨k.val, hk⟩ 19 (k0_off118_eq k),
    rowRead_eq M f _ _ ⟨k.val, hk⟩ 20 (k0_off119_eq k),
    rowRead_eq M f _ _ ⟨k.val, hk⟩ 21 (k0_off120_eq k),
    rowRead_eq M f _ _ ⟨k.val, hk⟩ 22 (k0_off121_eq k),
    rowRead_eq M f _ _ ⟨k.val, hk⟩ 23 (k0_off122_eq k),
    rowRead_eq M f _ _ ⟨k.val, hk⟩ 24 (k0_off123_eq k),
    rowRead_eq M f _ _ ⟨k.val, hk⟩ 25 (k0_off124_eq k),
    rowRead_eq M f _ _ ⟨k.val, hk⟩ 26 (k0_off125_eq k),
    rowRead_eq M f _ _ ⟨k.val, hk⟩ 27 (k0_off126_eq k),
    rowRead_eq M f _ _ ⟨k.val, hk⟩ 28 (k0_off127_eq k),
    rowRead_eq M f _ _ ⟨k.val, hk⟩ 29 (k0_off128_eq k),
    rowRead_eq M f _ _ ⟨k.val, hk⟩ 30 (k0_off129_eq k),
    rowRead_eq M f _ _ ⟨k.val, hk⟩ 31 (k0_off130_eq k)]

/-- (L0) loop 4's fold is the generic one: its offset functions are ![k, 16·a] (the generated k0_offM_eq). -/
theorem rowsFold_t4_eq (M : Memref sig .scVector .vmem S64x512 .f32) (f : M.view.ty.Contents (Elt F)) (k : ℕ) (init : Acc F) :
    rowsFold_t4 M f k init = rowsFoldG M f k init := by
  have ht : k0_t4_loop.trips = 64 := by decide
  induction k with
  | zero => rfl
  | succ k ih =>
    show (if h : k < k0_t4_loop.trips then addRow_t4 M f ⟨k, h⟩ (rowsFold_t4 M f k init) else rowsFold_t4 M f k init)
      = (if h : k < 64 then addRowG M f ⟨k, h⟩ (rowsFoldG M f k init) else rowsFoldG M f k init)
    rw [ih]
    by_cases h : k < 64
    · rw [dif_pos (show k < k0_t4_loop.trips from ht ▸ h), dif_pos h]
      exact addRow_t4_eq M f ⟨k, ht ▸ h⟩ h _
    · rw [dif_neg (show ¬ k < k0_t4_loop.trips from ht ▸ h), dif_neg h]

/-- One trip of loop 5 is the generic trip: each of its 32 offset functions is ![k, 16·a] in closed form. -/
theorem addRow_t5_eq (M : Memref sig .scVector .vmem S64x512 .f32) (f : M.view.ty.Contents (Elt F)) (k : Fin k0_t5_loop.trips)
    (hk : k.val < 64) (acc : Acc F) : addRow_t5 M f k acc = addRowG M f ⟨k.val, hk⟩ acc := by
  unfold addRow_t5 addRowG
  rw [rowRead_eq M f _ _ ⟨k.val, hk⟩ 0 (k0_off132_eq k),
    rowRead_eq M f _ _ ⟨k.val, hk⟩ 1 (k0_off133_eq k),
    rowRead_eq M f _ _ ⟨k.val, hk⟩ 2 (k0_off134_eq k),
    rowRead_eq M f _ _ ⟨k.val, hk⟩ 3 (k0_off135_eq k),
    rowRead_eq M f _ _ ⟨k.val, hk⟩ 4 (k0_off136_eq k),
    rowRead_eq M f _ _ ⟨k.val, hk⟩ 5 (k0_off137_eq k),
    rowRead_eq M f _ _ ⟨k.val, hk⟩ 6 (k0_off138_eq k),
    rowRead_eq M f _ _ ⟨k.val, hk⟩ 7 (k0_off139_eq k),
    rowRead_eq M f _ _ ⟨k.val, hk⟩ 8 (k0_off140_eq k),
    rowRead_eq M f _ _ ⟨k.val, hk⟩ 9 (k0_off141_eq k),
    rowRead_eq M f _ _ ⟨k.val, hk⟩ 10 (k0_off142_eq k),
    rowRead_eq M f _ _ ⟨k.val, hk⟩ 11 (k0_off143_eq k),
    rowRead_eq M f _ _ ⟨k.val, hk⟩ 12 (k0_off144_eq k),
    rowRead_eq M f _ _ ⟨k.val, hk⟩ 13 (k0_off145_eq k),
    rowRead_eq M f _ _ ⟨k.val, hk⟩ 14 (k0_off146_eq k),
    rowRead_eq M f _ _ ⟨k.val, hk⟩ 15 (k0_off147_eq k),
    rowRead_eq M f _ _ ⟨k.val, hk⟩ 16 (k0_off148_eq k),
    rowRead_eq M f _ _ ⟨k.val, hk⟩ 17 (k0_off149_eq k),
    rowRead_eq M f _ _ ⟨k.val, hk⟩ 18 (k0_off150_eq k),
    rowRead_eq M f _ _ ⟨k.val, hk⟩ 19 (k0_off151_eq k),
    rowRead_eq M f _ _ ⟨k.val, hk⟩ 20 (k0_off152_eq k),
    rowRead_eq M f _ _ ⟨k.val, hk⟩ 21 (k0_off153_eq k),
    rowRead_eq M f _ _ ⟨k.val, hk⟩ 22 (k0_off154_eq k),
    rowRead_eq M f _ _ ⟨k.val, hk⟩ 23 (k0_off155_eq k),
    rowRead_eq M f _ _ ⟨k.val, hk⟩ 24 (k0_off156_eq k),
    rowRead_eq M f _ _ ⟨k.val, hk⟩ 25 (k0_off157_eq k),
    rowRead_eq M f _ _ ⟨k.val, hk⟩ 26 (k0_off158_eq k),
    rowRead_eq M f _ _ ⟨k.val, hk⟩ 27 (k0_off159_eq k),
    rowRead_eq M f _ _ ⟨k.val, hk⟩ 28 (k0_off160_eq k),
    rowRead_eq M f _ _ ⟨k.val, hk⟩ 29 (k0_off161_eq k),
    rowRead_eq M f _ _ ⟨k.val, hk⟩ 30 (k0_off162_eq k),
    rowRead_eq M f _ _ ⟨k.val, hk⟩ 31 (k0_off163_eq k)]

/-- (L0) loop 5's fold is the generic one: its offset functions are ![k, 16·a] (the generated k0_offM_eq). -/
theorem rowsFold_t5_eq (M : Memref sig .scVector .vmem S64x512 .f32) (f : M.view.ty.Contents (Elt F)) (k : ℕ) (init : Acc F) :
    rowsFold_t5 M f k init = rowsFoldG M f k init := by
  have ht : k0_t5_loop.trips = 64 := by decide
  induction k with
  | zero => rfl
  | succ k ih =>
    show (if h : k < k0_t5_loop.trips then addRow_t5 M f ⟨k, h⟩ (rowsFold_t5 M f k init) else rowsFold_t5 M f k init)
      = (if h : k < 64 then addRowG M f ⟨k, h⟩ (rowsFoldG M f k init) else rowsFoldG M f k init)
    rw [ih]
    by_cases h : k < 64
    · rw [dif_pos (show k < k0_t5_loop.trips from ht ▸ h), dif_pos h]
      exact addRow_t5_eq M f ⟨k, ht ▸ h⟩ h _
    · rw [dif_neg (show ¬ k < k0_t5_loop.trips from ht ▸ h), dif_neg h]

/-- One trip of loop 6 is the generic trip: each of its 32 offset functions is ![k, 16·a] in closed form. -/
theorem addRow_t6_eq (M : Memref sig .scVector .vmem S64x512 .f32) (f : M.view.ty.Contents (Elt F)) (k : Fin k0_t6_loop.trips)
    (hk : k.val < 64) (acc : Acc F) : addRow_t6 M f k acc = addRowG M f ⟨k.val, hk⟩ acc := by
  unfold addRow_t6 addRowG
  rw [rowRead_eq M f _ _ ⟨k.val, hk⟩ 0 (k0_off164_eq k),
    rowRead_eq M f _ _ ⟨k.val, hk⟩ 1 (k0_off165_eq k),
    rowRead_eq M f _ _ ⟨k.val, hk⟩ 2 (k0_off166_eq k),
    rowRead_eq M f _ _ ⟨k.val, hk⟩ 3 (k0_off167_eq k),
    rowRead_eq M f _ _ ⟨k.val, hk⟩ 4 (k0_off168_eq k),
    rowRead_eq M f _ _ ⟨k.val, hk⟩ 5 (k0_off169_eq k),
    rowRead_eq M f _ _ ⟨k.val, hk⟩ 6 (k0_off170_eq k),
    rowRead_eq M f _ _ ⟨k.val, hk⟩ 7 (k0_off171_eq k),
    rowRead_eq M f _ _ ⟨k.val, hk⟩ 8 (k0_off172_eq k),
    rowRead_eq M f _ _ ⟨k.val, hk⟩ 9 (k0_off173_eq k),
    rowRead_eq M f _ _ ⟨k.val, hk⟩ 10 (k0_off174_eq k),
    rowRead_eq M f _ _ ⟨k.val, hk⟩ 11 (k0_off175_eq k),
    rowRead_eq M f _ _ ⟨k.val, hk⟩ 12 (k0_off176_eq k),
    rowRead_eq M f _ _ ⟨k.val, hk⟩ 13 (k0_off177_eq k),
    rowRead_eq M f _ _ ⟨k.val, hk⟩ 14 (k0_off178_eq k),
    rowRead_eq M f _ _ ⟨k.val, hk⟩ 15 (k0_off179_eq k),
    rowRead_eq M f _ _ ⟨k.val, hk⟩ 16 (k0_off180_eq k),
    rowRead_eq M f _ _ ⟨k.val, hk⟩ 17 (k0_off181_eq k),
    rowRead_eq M f _ _ ⟨k.val, hk⟩ 18 (k0_off182_eq k),
    rowRead_eq M f _ _ ⟨k.val, hk⟩ 19 (k0_off183_eq k),
    rowRead_eq M f _ _ ⟨k.val, hk⟩ 20 (k0_off184_eq k),
    rowRead_eq M f _ _ ⟨k.val, hk⟩ 21 (k0_off185_eq k),
    rowRead_eq M f _ _ ⟨k.val, hk⟩ 22 (k0_off186_eq k),
    rowRead_eq M f _ _ ⟨k.val, hk⟩ 23 (k0_off187_eq k),
    rowRead_eq M f _ _ ⟨k.val, hk⟩ 24 (k0_off188_eq k),
    rowRead_eq M f _ _ ⟨k.val, hk⟩ 25 (k0_off189_eq k),
    rowRead_eq M f _ _ ⟨k.val, hk⟩ 26 (k0_off190_eq k),
    rowRead_eq M f _ _ ⟨k.val, hk⟩ 27 (k0_off191_eq k),
    rowRead_eq M f _ _ ⟨k.val, hk⟩ 28 (k0_off192_eq k),
    rowRead_eq M f _ _ ⟨k.val, hk⟩ 29 (k0_off193_eq k),
    rowRead_eq M f _ _ ⟨k.val, hk⟩ 30 (k0_off194_eq k),
    rowRead_eq M f _ _ ⟨k.val, hk⟩ 31 (k0_off195_eq k)]

/-- (L0) loop 6's fold is the generic one: its offset functions are ![k, 16·a] (the generated k0_offM_eq). -/
theorem rowsFold_t6_eq (M : Memref sig .scVector .vmem S64x512 .f32) (f : M.view.ty.Contents (Elt F)) (k : ℕ) (init : Acc F) :
    rowsFold_t6 M f k init = rowsFoldG M f k init := by
  have ht : k0_t6_loop.trips = 64 := by decide
  induction k with
  | zero => rfl
  | succ k ih =>
    show (if h : k < k0_t6_loop.trips then addRow_t6 M f ⟨k, h⟩ (rowsFold_t6 M f k init) else rowsFold_t6 M f k init)
      = (if h : k < 64 then addRowG M f ⟨k, h⟩ (rowsFoldG M f k init) else rowsFoldG M f k init)
    rw [ih]
    by_cases h : k < 64
    · rw [dif_pos (show k < k0_t6_loop.trips from ht ▸ h), dif_pos h]
      exact addRow_t6_eq M f ⟨k, ht ▸ h⟩ h _
    · rw [dif_neg (show ¬ k < k0_t6_loop.trips from ht ▸ h), dif_neg h]

/-- One trip of loop 7 is the generic trip: each of its 32 offset functions is ![k, 16·a] in closed form. -/
theorem addRow_t7_eq (M : Memref sig .scVector .vmem S64x512 .f32) (f : M.view.ty.Contents (Elt F)) (k : Fin k0_t7_loop.trips)
    (hk : k.val < 64) (acc : Acc F) : addRow_t7 M f k acc = addRowG M f ⟨k.val, hk⟩ acc := by
  unfold addRow_t7 addRowG
  rw [rowRead_eq M f _ _ ⟨k.val, hk⟩ 0 (k0_off196_eq k),
    rowRead_eq M f _ _ ⟨k.val, hk⟩ 1 (k0_off197_eq k),
    rowRead_eq M f _ _ ⟨k.val, hk⟩ 2 (k0_off198_eq k),
    rowRead_eq M f _ _ ⟨k.val, hk⟩ 3 (k0_off199_eq k),
    rowRead_eq M f _ _ ⟨k.val, hk⟩ 4 (k0_off200_eq k),
    rowRead_eq M f _ _ ⟨k.val, hk⟩ 5 (k0_off201_eq k),
    rowRead_eq M f _ _ ⟨k.val, hk⟩ 6 (k0_off202_eq k),
    rowRead_eq M f _ _ ⟨k.val, hk⟩ 7 (k0_off203_eq k),
    rowRead_eq M f _ _ ⟨k.val, hk⟩ 8 (k0_off204_eq k),
    rowRead_eq M f _ _ ⟨k.val, hk⟩ 9 (k0_off205_eq k),
    rowRead_eq M f _ _ ⟨k.val, hk⟩ 10 (k0_off206_eq k),
    rowRead_eq M f _ _ ⟨k.val, hk⟩ 11 (k0_off207_eq k),
    rowRead_eq M f _ _ ⟨k.val, hk⟩ 12 (k0_off208_eq k),
    rowRead_eq M f _ _ ⟨k.val, hk⟩ 13 (k0_off209_eq k),
    rowRead_eq M f _ _ ⟨k.val, hk⟩ 14 (k0_off210_eq k),
    rowRead_eq M f _ _ ⟨k.val, hk⟩ 15 (k0_off211_eq k),
    rowRead_eq M f _ _ ⟨k.val, hk⟩ 16 (k0_off212_eq k),
    rowRead_eq M f _ _ ⟨k.val, hk⟩ 17 (k0_off213_eq k),
    rowRead_eq M f _ _ ⟨k.val, hk⟩ 18 (k0_off214_eq k),
    rowRead_eq M f _ _ ⟨k.val, hk⟩ 19 (k0_off215_eq k),
    rowRead_eq M f _ _ ⟨k.val, hk⟩ 20 (k0_off216_eq k),
    rowRead_eq M f _ _ ⟨k.val, hk⟩ 21 (k0_off217_eq k),
    rowRead_eq M f _ _ ⟨k.val, hk⟩ 22 (k0_off218_eq k),
    rowRead_eq M f _ _ ⟨k.val, hk⟩ 23 (k0_off219_eq k),
    rowRead_eq M f _ _ ⟨k.val, hk⟩ 24 (k0_off220_eq k),
    rowRead_eq M f _ _ ⟨k.val, hk⟩ 25 (k0_off221_eq k),
    rowRead_eq M f _ _ ⟨k.val, hk⟩ 26 (k0_off222_eq k),
    rowRead_eq M f _ _ ⟨k.val, hk⟩ 27 (k0_off223_eq k),
    rowRead_eq M f _ _ ⟨k.val, hk⟩ 28 (k0_off224_eq k),
    rowRead_eq M f _ _ ⟨k.val, hk⟩ 29 (k0_off225_eq k),
    rowRead_eq M f _ _ ⟨k.val, hk⟩ 30 (k0_off226_eq k),
    rowRead_eq M f _ _ ⟨k.val, hk⟩ 31 (k0_off227_eq k)]

/-- (L0) loop 7's fold is the generic one: its offset functions are ![k, 16·a] (the generated k0_offM_eq). -/
theorem rowsFold_t7_eq (M : Memref sig .scVector .vmem S64x512 .f32) (f : M.view.ty.Contents (Elt F)) (k : ℕ) (init : Acc F) :
    rowsFold_t7 M f k init = rowsFoldG M f k init := by
  have ht : k0_t7_loop.trips = 64 := by decide
  induction k with
  | zero => rfl
  | succ k ih =>
    show (if h : k < k0_t7_loop.trips then addRow_t7 M f ⟨k, h⟩ (rowsFold_t7 M f k init) else rowsFold_t7 M f k init)
      = (if h : k < 64 then addRowG M f ⟨k, h⟩ (rowsFoldG M f k init) else rowsFoldG M f k init)
    rw [ih]
    by_cases h : k < 64
    · rw [dif_pos (show k < k0_t7_loop.trips from ht ▸ h), dif_pos h]
      exact addRow_t7_eq M f ⟨k, ht ▸ h⟩ h _
    · rw [dif_neg (show ¬ k < k0_t7_loop.trips from ht ▸ h), dif_neg h]

/-- One trip of loop 8 is the generic trip: each of its 32 offset functions is ![k, 16·a] in closed form. -/
theorem addRow_t8_eq (M : Memref sig .scVector .vmem S64x512 .f32) (f : M.view.ty.Contents (Elt F)) (k : Fin k0_t8_loop.trips)
    (hk : k.val < 64) (acc : Acc F) : addRow_t8 M f k acc = addRowG M f ⟨k.val, hk⟩ acc := by
  unfold addRow_t8 addRowG
  rw [rowRead_eq M f _ _ ⟨k.val, hk⟩ 0 (k0_off229_eq k),
    rowRead_eq M f _ _ ⟨k.val, hk⟩ 1 (k0_off230_eq k),
    rowRead_eq M f _ _ ⟨k.val, hk⟩ 2 (k0_off231_eq k),
    rowRead_eq M f _ _ ⟨k.val, hk⟩ 3 (k0_off232_eq k),
    rowRead_eq M f _ _ ⟨k.val, hk⟩ 4 (k0_off233_eq k),
    rowRead_eq M f _ _ ⟨k.val, hk⟩ 5 (k0_off234_eq k),
    rowRead_eq M f _ _ ⟨k.val, hk⟩ 6 (k0_off235_eq k),
    rowRead_eq M f _ _ ⟨k.val, hk⟩ 7 (k0_off236_eq k),
    rowRead_eq M f _ _ ⟨k.val, hk⟩ 8 (k0_off237_eq k),
    rowRead_eq M f _ _ ⟨k.val, hk⟩ 9 (k0_off238_eq k),
    rowRead_eq M f _ _ ⟨k.val, hk⟩ 10 (k0_off239_eq k),
    rowRead_eq M f _ _ ⟨k.val, hk⟩ 11 (k0_off240_eq k),
    rowRead_eq M f _ _ ⟨k.val, hk⟩ 12 (k0_off241_eq k),
    rowRead_eq M f _ _ ⟨k.val, hk⟩ 13 (k0_off242_eq k),
    rowRead_eq M f _ _ ⟨k.val, hk⟩ 14 (k0_off243_eq k),
    rowRead_eq M f _ _ ⟨k.val, hk⟩ 15 (k0_off244_eq k),
    rowRead_eq M f _ _ ⟨k.val, hk⟩ 16 (k0_off245_eq k),
    rowRead_eq M f _ _ ⟨k.val, hk⟩ 17 (k0_off246_eq k),
    rowRead_eq M f _ _ ⟨k.val, hk⟩ 18 (k0_off247_eq k),
    rowRead_eq M f _ _ ⟨k.val, hk⟩ 19 (k0_off248_eq k),
    rowRead_eq M f _ _ ⟨k.val, hk⟩ 20 (k0_off249_eq k),
    rowRead_eq M f _ _ ⟨k.val, hk⟩ 21 (k0_off250_eq k),
    rowRead_eq M f _ _ ⟨k.val, hk⟩ 22 (k0_off251_eq k),
    rowRead_eq M f _ _ ⟨k.val, hk⟩ 23 (k0_off252_eq k),
    rowRead_eq M f _ _ ⟨k.val, hk⟩ 24 (k0_off253_eq k),
    rowRead_eq M f _ _ ⟨k.val, hk⟩ 25 (k0_off254_eq k),
    rowRead_eq M f _ _ ⟨k.val, hk⟩ 26 (k0_off255_eq k),
    rowRead_eq M f _ _ ⟨k.val, hk⟩ 27 (k0_off256_eq k),
    rowRead_eq M f _ _ ⟨k.val, hk⟩ 28 (k0_off257_eq k),
    rowRead_eq M f _ _ ⟨k.val, hk⟩ 29 (k0_off258_eq k),
    rowRead_eq M f _ _ ⟨k.val, hk⟩ 30 (k0_off259_eq k),
    rowRead_eq M f _ _ ⟨k.val, hk⟩ 31 (k0_off260_eq k)]

/-- (L0) loop 8's fold is the generic one: its offset functions are ![k, 16·a] (the generated k0_offM_eq). -/
theorem rowsFold_t8_eq (M : Memref sig .scVector .vmem S64x512 .f32) (f : M.view.ty.Contents (Elt F)) (k : ℕ) (init : Acc F) :
    rowsFold_t8 M f k init = rowsFoldG M f k init := by
  have ht : k0_t8_loop.trips = 64 := by decide
  induction k with
  | zero => rfl
  | succ k ih =>
    show (if h : k < k0_t8_loop.trips then addRow_t8 M f ⟨k, h⟩ (rowsFold_t8 M f k init) else rowsFold_t8 M f k init)
      = (if h : k < 64 then addRowG M f ⟨k, h⟩ (rowsFoldG M f k init) else rowsFoldG M f k init)
    rw [ih]
    by_cases h : k < 64
    · rw [dif_pos (show k < k0_t8_loop.trips from ht ▸ h), dif_pos h]
      exact addRow_t8_eq M f ⟨k, ht ▸ h⟩ h _
    · rw [dif_neg (show ¬ k < k0_t8_loop.trips from ht ▸ h), dif_neg h]

/-- One trip of loop 9 is the generic trip: each of its 32 offset functions is ![k, 16·a] in closed form. -/
theorem addRow_t9_eq (M : Memref sig .scVector .vmem S64x512 .f32) (f : M.view.ty.Contents (Elt F)) (k : Fin k0_t9_loop.trips)
    (hk : k.val < 64) (acc : Acc F) : addRow_t9 M f k acc = addRowG M f ⟨k.val, hk⟩ acc := by
  unfold addRow_t9 addRowG
  rw [rowRead_eq M f _ _ ⟨k.val, hk⟩ 0 (k0_off261_eq k),
    rowRead_eq M f _ _ ⟨k.val, hk⟩ 1 (k0_off262_eq k),
    rowRead_eq M f _ _ ⟨k.val, hk⟩ 2 (k0_off263_eq k),
    rowRead_eq M f _ _ ⟨k.val, hk⟩ 3 (k0_off264_eq k),
    rowRead_eq M f _ _ ⟨k.val, hk⟩ 4 (k0_off265_eq k),
    rowRead_eq M f _ _ ⟨k.val, hk⟩ 5 (k0_off266_eq k),
    rowRead_eq M f _ _ ⟨k.val, hk⟩ 6 (k0_off267_eq k),
    rowRead_eq M f _ _ ⟨k.val, hk⟩ 7 (k0_off268_eq k),
    rowRead_eq M f _ _ ⟨k.val, hk⟩ 8 (k0_off269_eq k),
    rowRead_eq M f _ _ ⟨k.val, hk⟩ 9 (k0_off270_eq k),
    rowRead_eq M f _ _ ⟨k.val, hk⟩ 10 (k0_off271_eq k),
    rowRead_eq M f _ _ ⟨k.val, hk⟩ 11 (k0_off272_eq k),
    rowRead_eq M f _ _ ⟨k.val, hk⟩ 12 (k0_off273_eq k),
    rowRead_eq M f _ _ ⟨k.val, hk⟩ 13 (k0_off274_eq k),
    rowRead_eq M f _ _ ⟨k.val, hk⟩ 14 (k0_off275_eq k),
    rowRead_eq M f _ _ ⟨k.val, hk⟩ 15 (k0_off276_eq k),
    rowRead_eq M f _ _ ⟨k.val, hk⟩ 16 (k0_off277_eq k),
    rowRead_eq M f _ _ ⟨k.val, hk⟩ 17 (k0_off278_eq k),
    rowRead_eq M f _ _ ⟨k.val, hk⟩ 18 (k0_off279_eq k),
    rowRead_eq M f _ _ ⟨k.val, hk⟩ 19 (k0_off280_eq k),
    rowRead_eq M f _ _ ⟨k.val, hk⟩ 20 (k0_off281_eq k),
    rowRead_eq M f _ _ ⟨k.val, hk⟩ 21 (k0_off282_eq k),
    rowRead_eq M f _ _ ⟨k.val, hk⟩ 22 (k0_off283_eq k),
    rowRead_eq M f _ _ ⟨k.val, hk⟩ 23 (k0_off284_eq k),
    rowRead_eq M f _ _ ⟨k.val, hk⟩ 24 (k0_off285_eq k),
    rowRead_eq M f _ _ ⟨k.val, hk⟩ 25 (k0_off286_eq k),
    rowRead_eq M f _ _ ⟨k.val, hk⟩ 26 (k0_off287_eq k),
    rowRead_eq M f _ _ ⟨k.val, hk⟩ 27 (k0_off288_eq k),
    rowRead_eq M f _ _ ⟨k.val, hk⟩ 28 (k0_off289_eq k),
    rowRead_eq M f _ _ ⟨k.val, hk⟩ 29 (k0_off290_eq k),
    rowRead_eq M f _ _ ⟨k.val, hk⟩ 30 (k0_off291_eq k),
    rowRead_eq M f _ _ ⟨k.val, hk⟩ 31 (k0_off292_eq k)]

/-- (L0) loop 9's fold is the generic one: its offset functions are ![k, 16·a] (the generated k0_offM_eq). -/
theorem rowsFold_t9_eq (M : Memref sig .scVector .vmem S64x512 .f32) (f : M.view.ty.Contents (Elt F)) (k : ℕ) (init : Acc F) :
    rowsFold_t9 M f k init = rowsFoldG M f k init := by
  have ht : k0_t9_loop.trips = 64 := by decide
  induction k with
  | zero => rfl
  | succ k ih =>
    show (if h : k < k0_t9_loop.trips then addRow_t9 M f ⟨k, h⟩ (rowsFold_t9 M f k init) else rowsFold_t9 M f k init)
      = (if h : k < 64 then addRowG M f ⟨k, h⟩ (rowsFoldG M f k init) else rowsFoldG M f k init)
    rw [ih]
    by_cases h : k < 64
    · rw [dif_pos (show k < k0_t9_loop.trips from ht ▸ h), dif_pos h]
      exact addRow_t9_eq M f ⟨k, ht ▸ h⟩ h _
    · rw [dif_neg (show ¬ k < k0_t9_loop.trips from ht ▸ h), dif_neg h]

/-- One trip of loop 10 is the generic trip: each of its 32 offset functions is ![k, 16·a] in closed form. -/
theorem addRow_t10_eq (M : Memref sig .scVector .vmem S64x512 .f32) (f : M.view.ty.Contents (Elt F)) (k : Fin k0_t10_loop.trips)
    (hk : k.val < 64) (acc : Acc F) : addRow_t10 M f k acc = addRowG M f ⟨k.val, hk⟩ acc := by
  unfold addRow_t10 addRowG
  rw [rowRead_eq M f _ _ ⟨k.val, hk⟩ 0 (k0_off293_eq k),
    rowRead_eq M f _ _ ⟨k.val, hk⟩ 1 (k0_off294_eq k),
    rowRead_eq M f _ _ ⟨k.val, hk⟩ 2 (k0_off295_eq k),
    rowRead_eq M f _ _ ⟨k.val, hk⟩ 3 (k0_off296_eq k),
    rowRead_eq M f _ _ ⟨k.val, hk⟩ 4 (k0_off297_eq k),
    rowRead_eq M f _ _ ⟨k.val, hk⟩ 5 (k0_off298_eq k),
    rowRead_eq M f _ _ ⟨k.val, hk⟩ 6 (k0_off299_eq k),
    rowRead_eq M f _ _ ⟨k.val, hk⟩ 7 (k0_off300_eq k),
    rowRead_eq M f _ _ ⟨k.val, hk⟩ 8 (k0_off301_eq k),
    rowRead_eq M f _ _ ⟨k.val, hk⟩ 9 (k0_off302_eq k),
    rowRead_eq M f _ _ ⟨k.val, hk⟩ 10 (k0_off303_eq k),
    rowRead_eq M f _ _ ⟨k.val, hk⟩ 11 (k0_off304_eq k),
    rowRead_eq M f _ _ ⟨k.val, hk⟩ 12 (k0_off305_eq k),
    rowRead_eq M f _ _ ⟨k.val, hk⟩ 13 (k0_off306_eq k),
    rowRead_eq M f _ _ ⟨k.val, hk⟩ 14 (k0_off307_eq k),
    rowRead_eq M f _ _ ⟨k.val, hk⟩ 15 (k0_off308_eq k),
    rowRead_eq M f _ _ ⟨k.val, hk⟩ 16 (k0_off309_eq k),
    rowRead_eq M f _ _ ⟨k.val, hk⟩ 17 (k0_off310_eq k),
    rowRead_eq M f _ _ ⟨k.val, hk⟩ 18 (k0_off311_eq k),
    rowRead_eq M f _ _ ⟨k.val, hk⟩ 19 (k0_off312_eq k),
    rowRead_eq M f _ _ ⟨k.val, hk⟩ 20 (k0_off313_eq k),
    rowRead_eq M f _ _ ⟨k.val, hk⟩ 21 (k0_off314_eq k),
    rowRead_eq M f _ _ ⟨k.val, hk⟩ 22 (k0_off315_eq k),
    rowRead_eq M f _ _ ⟨k.val, hk⟩ 23 (k0_off316_eq k),
    rowRead_eq M f _ _ ⟨k.val, hk⟩ 24 (k0_off317_eq k),
    rowRead_eq M f _ _ ⟨k.val, hk⟩ 25 (k0_off318_eq k),
    rowRead_eq M f _ _ ⟨k.val, hk⟩ 26 (k0_off319_eq k),
    rowRead_eq M f _ _ ⟨k.val, hk⟩ 27 (k0_off320_eq k),
    rowRead_eq M f _ _ ⟨k.val, hk⟩ 28 (k0_off321_eq k),
    rowRead_eq M f _ _ ⟨k.val, hk⟩ 29 (k0_off322_eq k),
    rowRead_eq M f _ _ ⟨k.val, hk⟩ 30 (k0_off323_eq k),
    rowRead_eq M f _ _ ⟨k.val, hk⟩ 31 (k0_off324_eq k)]

/-- (L0) loop 10's fold is the generic one: its offset functions are ![k, 16·a] (the generated k0_offM_eq). -/
theorem rowsFold_t10_eq (M : Memref sig .scVector .vmem S64x512 .f32) (f : M.view.ty.Contents (Elt F)) (k : ℕ) (init : Acc F) :
    rowsFold_t10 M f k init = rowsFoldG M f k init := by
  have ht : k0_t10_loop.trips = 64 := by decide
  induction k with
  | zero => rfl
  | succ k ih =>
    show (if h : k < k0_t10_loop.trips then addRow_t10 M f ⟨k, h⟩ (rowsFold_t10 M f k init) else rowsFold_t10 M f k init)
      = (if h : k < 64 then addRowG M f ⟨k, h⟩ (rowsFoldG M f k init) else rowsFoldG M f k init)
    rw [ih]
    by_cases h : k < 64
    · rw [dif_pos (show k < k0_t10_loop.trips from ht ▸ h), dif_pos h]
      exact addRow_t10_eq M f ⟨k, ht ▸ h⟩ h _
    · rw [dif_neg (show ¬ k < k0_t10_loop.trips from ht ▸ h), dif_neg h]

/-- One trip of loop 11 is the generic trip: each of its 32 offset functions is ![k, 16·a] in closed form. -/
theorem addRow_t11_eq (M : Memref sig .scVector .vmem S64x512 .f32) (f : M.view.ty.Contents (Elt F)) (k : Fin k0_t11_loop.trips)
    (hk : k.val < 64) (acc : Acc F) : addRow_t11 M f k acc = addRowG M f ⟨k.val, hk⟩ acc := by
  unfold addRow_t11 addRowG
  rw [rowRead_eq M f _ _ ⟨k.val, hk⟩ 0 (k0_off325_eq k),
    rowRead_eq M f _ _ ⟨k.val, hk⟩ 1 (k0_off326_eq k),
    rowRead_eq M f _ _ ⟨k.val, hk⟩ 2 (k0_off327_eq k),
    rowRead_eq M f _ _ ⟨k.val, hk⟩ 3 (k0_off328_eq k),
    rowRead_eq M f _ _ ⟨k.val, hk⟩ 4 (k0_off329_eq k),
    rowRead_eq M f _ _ ⟨k.val, hk⟩ 5 (k0_off330_eq k),
    rowRead_eq M f _ _ ⟨k.val, hk⟩ 6 (k0_off331_eq k),
    rowRead_eq M f _ _ ⟨k.val, hk⟩ 7 (k0_off332_eq k),
    rowRead_eq M f _ _ ⟨k.val, hk⟩ 8 (k0_off333_eq k),
    rowRead_eq M f _ _ ⟨k.val, hk⟩ 9 (k0_off334_eq k),
    rowRead_eq M f _ _ ⟨k.val, hk⟩ 10 (k0_off335_eq k),
    rowRead_eq M f _ _ ⟨k.val, hk⟩ 11 (k0_off336_eq k),
    rowRead_eq M f _ _ ⟨k.val, hk⟩ 12 (k0_off337_eq k),
    rowRead_eq M f _ _ ⟨k.val, hk⟩ 13 (k0_off338_eq k),
    rowRead_eq M f _ _ ⟨k.val, hk⟩ 14 (k0_off339_eq k),
    rowRead_eq M f _ _ ⟨k.val, hk⟩ 15 (k0_off340_eq k),
    rowRead_eq M f _ _ ⟨k.val, hk⟩ 16 (k0_off341_eq k),
    rowRead_eq M f _ _ ⟨k.val, hk⟩ 17 (k0_off342_eq k),
    rowRead_eq M f _ _ ⟨k.val, hk⟩ 18 (k0_off343_eq k),
    rowRead_eq M f _ _ ⟨k.val, hk⟩ 19 (k0_off344_eq k),
    rowRead_eq M f _ _ ⟨k.val, hk⟩ 20 (k0_off345_eq k),
    rowRead_eq M f _ _ ⟨k.val, hk⟩ 21 (k0_off346_eq k),
    rowRead_eq M f _ _ ⟨k.val, hk⟩ 22 (k0_off347_eq k),
    rowRead_eq M f _ _ ⟨k.val, hk⟩ 23 (k0_off348_eq k),
    rowRead_eq M f _ _ ⟨k.val, hk⟩ 24 (k0_off349_eq k),
    rowRead_eq M f _ _ ⟨k.val, hk⟩ 25 (k0_off350_eq k),
    rowRead_eq M f _ _ ⟨k.val, hk⟩ 26 (k0_off351_eq k),
    rowRead_eq M f _ _ ⟨k.val, hk⟩ 27 (k0_off352_eq k),
    rowRead_eq M f _ _ ⟨k.val, hk⟩ 28 (k0_off353_eq k),
    rowRead_eq M f _ _ ⟨k.val, hk⟩ 29 (k0_off354_eq k),
    rowRead_eq M f _ _ ⟨k.val, hk⟩ 30 (k0_off355_eq k),
    rowRead_eq M f _ _ ⟨k.val, hk⟩ 31 (k0_off356_eq k)]

/-- (L0) loop 11's fold is the generic one: its offset functions are ![k, 16·a] (the generated k0_offM_eq). -/
theorem rowsFold_t11_eq (M : Memref sig .scVector .vmem S64x512 .f32) (f : M.view.ty.Contents (Elt F)) (k : ℕ) (init : Acc F) :
    rowsFold_t11 M f k init = rowsFoldG M f k init := by
  have ht : k0_t11_loop.trips = 64 := by decide
  induction k with
  | zero => rfl
  | succ k ih =>
    show (if h : k < k0_t11_loop.trips then addRow_t11 M f ⟨k, h⟩ (rowsFold_t11 M f k init) else rowsFold_t11 M f k init)
      = (if h : k < 64 then addRowG M f ⟨k, h⟩ (rowsFoldG M f k init) else rowsFoldG M f k init)
    rw [ih]
    by_cases h : k < 64
    · rw [dif_pos (show k < k0_t11_loop.trips from ht ▸ h), dif_pos h]
      exact addRow_t11_eq M f ⟨k, ht ▸ h⟩ h _
    · rw [dif_neg (show ¬ k < k0_t11_loop.trips from ht ▸ h), dif_neg h]

/-- One trip of loop 12 is the generic trip: each of its 32 offset functions is ![k, 16·a] in closed form. -/
theorem addRow_t12_eq (M : Memref sig .scVector .vmem S64x512 .f32) (f : M.view.ty.Contents (Elt F)) (k : Fin k0_t12_loop.trips)
    (hk : k.val < 64) (acc : Acc F) : addRow_t12 M f k acc = addRowG M f ⟨k.val, hk⟩ acc := by
  unfold addRow_t12 addRowG
  rw [rowRead_eq M f _ _ ⟨k.val, hk⟩ 0 (k0_off358_eq k),
    rowRead_eq M f _ _ ⟨k.val, hk⟩ 1 (k0_off359_eq k),
    rowRead_eq M f _ _ ⟨k.val, hk⟩ 2 (k0_off360_eq k),
    rowRead_eq M f _ _ ⟨k.val, hk⟩ 3 (k0_off361_eq k),
    rowRead_eq M f _ _ ⟨k.val, hk⟩ 4 (k0_off362_eq k),
    rowRead_eq M f _ _ ⟨k.val, hk⟩ 5 (k0_off363_eq k),
    rowRead_eq M f _ _ ⟨k.val, hk⟩ 6 (k0_off364_eq k),
    rowRead_eq M f _ _ ⟨k.val, hk⟩ 7 (k0_off365_eq k),
    rowRead_eq M f _ _ ⟨k.val, hk⟩ 8 (k0_off366_eq k),
    rowRead_eq M f _ _ ⟨k.val, hk⟩ 9 (k0_off367_eq k),
    rowRead_eq M f _ _ ⟨k.val, hk⟩ 10 (k0_off368_eq k),
    rowRead_eq M f _ _ ⟨k.val, hk⟩ 11 (k0_off369_eq k),
    rowRead_eq M f _ _ ⟨k.val, hk⟩ 12 (k0_off370_eq k),
    rowRead_eq M f _ _ ⟨k.val, hk⟩ 13 (k0_off371_eq k),
    rowRead_eq M f _ _ ⟨k.val, hk⟩ 14 (k0_off372_eq k),
    rowRead_eq M f _ _ ⟨k.val, hk⟩ 15 (k0_off373_eq k),
    rowRead_eq M f _ _ ⟨k.val, hk⟩ 16 (k0_off374_eq k),
    rowRead_eq M f _ _ ⟨k.val, hk⟩ 17 (k0_off375_eq k),
    rowRead_eq M f _ _ ⟨k.val, hk⟩ 18 (k0_off376_eq k),
    rowRead_eq M f _ _ ⟨k.val, hk⟩ 19 (k0_off377_eq k),
    rowRead_eq M f _ _ ⟨k.val, hk⟩ 20 (k0_off378_eq k),
    rowRead_eq M f _ _ ⟨k.val, hk⟩ 21 (k0_off379_eq k),
    rowRead_eq M f _ _ ⟨k.val, hk⟩ 22 (k0_off380_eq k),
    rowRead_eq M f _ _ ⟨k.val, hk⟩ 23 (k0_off381_eq k),
    rowRead_eq M f _ _ ⟨k.val, hk⟩ 24 (k0_off382_eq k),
    rowRead_eq M f _ _ ⟨k.val, hk⟩ 25 (k0_off383_eq k),
    rowRead_eq M f _ _ ⟨k.val, hk⟩ 26 (k0_off384_eq k),
    rowRead_eq M f _ _ ⟨k.val, hk⟩ 27 (k0_off385_eq k),
    rowRead_eq M f _ _ ⟨k.val, hk⟩ 28 (k0_off386_eq k),
    rowRead_eq M f _ _ ⟨k.val, hk⟩ 29 (k0_off387_eq k),
    rowRead_eq M f _ _ ⟨k.val, hk⟩ 30 (k0_off388_eq k),
    rowRead_eq M f _ _ ⟨k.val, hk⟩ 31 (k0_off389_eq k)]

/-- (L0) loop 12's fold is the generic one: its offset functions are ![k, 16·a] (the generated k0_offM_eq). -/
theorem rowsFold_t12_eq (M : Memref sig .scVector .vmem S64x512 .f32) (f : M.view.ty.Contents (Elt F)) (k : ℕ) (init : Acc F) :
    rowsFold_t12 M f k init = rowsFoldG M f k init := by
  have ht : k0_t12_loop.trips = 64 := by decide
  induction k with
  | zero => rfl
  | succ k ih =>
    show (if h : k < k0_t12_loop.trips then addRow_t12 M f ⟨k, h⟩ (rowsFold_t12 M f k init) else rowsFold_t12 M f k init)
      = (if h : k < 64 then addRowG M f ⟨k, h⟩ (rowsFoldG M f k init) else rowsFoldG M f k init)
    rw [ih]
    by_cases h : k < 64
    · rw [dif_pos (show k < k0_t12_loop.trips from ht ▸ h), dif_pos h]
      exact addRow_t12_eq M f ⟨k, ht ▸ h⟩ h _
    · rw [dif_neg (show ¬ k < k0_t12_loop.trips from ht ▸ h), dif_neg h]

/-- One trip of loop 13 is the generic trip: each of its 32 offset functions is ![k, 16·a] in closed form. -/
theorem addRow_t13_eq (M : Memref sig .scVector .vmem S64x512 .f32) (f : M.view.ty.Contents (Elt F)) (k : Fin k0_t13_loop.trips)
    (hk : k.val < 64) (acc : Acc F) : addRow_t13 M f k acc = addRowG M f ⟨k.val, hk⟩ acc := by
  unfold addRow_t13 addRowG
  rw [rowRead_eq M f _ _ ⟨k.val, hk⟩ 0 (k0_off390_eq k),
    rowRead_eq M f _ _ ⟨k.val, hk⟩ 1 (k0_off391_eq k),
    rowRead_eq M f _ _ ⟨k.val, hk⟩ 2 (k0_off392_eq k),
    rowRead_eq M f _ _ ⟨k.val, hk⟩ 3 (k0_off393_eq k),
    rowRead_eq M f _ _ ⟨k.val, hk⟩ 4 (k0_off394_eq k),
    rowRead_eq M f _ _ ⟨k.val, hk⟩ 5 (k0_off395_eq k),
    rowRead_eq M f _ _ ⟨k.val, hk⟩ 6 (k0_off396_eq k),
    rowRead_eq M f _ _ ⟨k.val, hk⟩ 7 (k0_off397_eq k),
    rowRead_eq M f _ _ ⟨k.val, hk⟩ 8 (k0_off398_eq k),
    rowRead_eq M f _ _ ⟨k.val, hk⟩ 9 (k0_off399_eq k),
    rowRead_eq M f _ _ ⟨k.val, hk⟩ 10 (k0_off400_eq k),
    rowRead_eq M f _ _ ⟨k.val, hk⟩ 11 (k0_off401_eq k),
    rowRead_eq M f _ _ ⟨k.val, hk⟩ 12 (k0_off402_eq k),
    rowRead_eq M f _ _ ⟨k.val, hk⟩ 13 (k0_off403_eq k),
    rowRead_eq M f _ _ ⟨k.val, hk⟩ 14 (k0_off404_eq k),
    rowRead_eq M f _ _ ⟨k.val, hk⟩ 15 (k0_off405_eq k),
    rowRead_eq M f _ _ ⟨k.val, hk⟩ 16 (k0_off406_eq k),
    rowRead_eq M f _ _ ⟨k.val, hk⟩ 17 (k0_off407_eq k),
    rowRead_eq M f _ _ ⟨k.val, hk⟩ 18 (k0_off408_eq k),
    rowRead_eq M f _ _ ⟨k.val, hk⟩ 19 (k0_off409_eq k),
    rowRead_eq M f _ _ ⟨k.val, hk⟩ 20 (k0_off410_eq k),
    rowRead_eq M f _ _ ⟨k.val, hk⟩ 21 (k0_off411_eq k),
    rowRead_eq M f _ _ ⟨k.val, hk⟩ 22 (k0_off412_eq k),
    rowRead_eq M f _ _ ⟨k.val, hk⟩ 23 (k0_off413_eq k),
    rowRead_eq M f _ _ ⟨k.val, hk⟩ 24 (k0_off414_eq k),
    rowRead_eq M f _ _ ⟨k.val, hk⟩ 25 (k0_off415_eq k),
    rowRead_eq M f _ _ ⟨k.val, hk⟩ 26 (k0_off416_eq k),
    rowRead_eq M f _ _ ⟨k.val, hk⟩ 27 (k0_off417_eq k),
    rowRead_eq M f _ _ ⟨k.val, hk⟩ 28 (k0_off418_eq k),
    rowRead_eq M f _ _ ⟨k.val, hk⟩ 29 (k0_off419_eq k),
    rowRead_eq M f _ _ ⟨k.val, hk⟩ 30 (k0_off420_eq k),
    rowRead_eq M f _ _ ⟨k.val, hk⟩ 31 (k0_off421_eq k)]

/-- (L0) loop 13's fold is the generic one: its offset functions are ![k, 16·a] (the generated k0_offM_eq). -/
theorem rowsFold_t13_eq (M : Memref sig .scVector .vmem S64x512 .f32) (f : M.view.ty.Contents (Elt F)) (k : ℕ) (init : Acc F) :
    rowsFold_t13 M f k init = rowsFoldG M f k init := by
  have ht : k0_t13_loop.trips = 64 := by decide
  induction k with
  | zero => rfl
  | succ k ih =>
    show (if h : k < k0_t13_loop.trips then addRow_t13 M f ⟨k, h⟩ (rowsFold_t13 M f k init) else rowsFold_t13 M f k init)
      = (if h : k < 64 then addRowG M f ⟨k, h⟩ (rowsFoldG M f k init) else rowsFoldG M f k init)
    rw [ih]
    by_cases h : k < 64
    · rw [dif_pos (show k < k0_t13_loop.trips from ht ▸ h), dif_pos h]
      exact addRow_t13_eq M f ⟨k, ht ▸ h⟩ h _
    · rw [dif_neg (show ¬ k < k0_t13_loop.trips from ht ▸ h), dif_neg h]

/-- One trip of loop 14 is the generic trip: each of its 32 offset functions is ![k, 16·a] in closed form. -/
theorem addRow_t14_eq (M : Memref sig .scVector .vmem S64x512 .f32) (f : M.view.ty.Contents (Elt F)) (k : Fin k0_t14_loop.trips)
    (hk : k.val < 64) (acc : Acc F) : addRow_t14 M f k acc = addRowG M f ⟨k.val, hk⟩ acc := by
  unfold addRow_t14 addRowG
  rw [rowRead_eq M f _ _ ⟨k.val, hk⟩ 0 (k0_off422_eq k),
    rowRead_eq M f _ _ ⟨k.val, hk⟩ 1 (k0_off423_eq k),
    rowRead_eq M f _ _ ⟨k.val, hk⟩ 2 (k0_off424_eq k),
    rowRead_eq M f _ _ ⟨k.val, hk⟩ 3 (k0_off425_eq k),
    rowRead_eq M f _ _ ⟨k.val, hk⟩ 4 (k0_off426_eq k),
    rowRead_eq M f _ _ ⟨k.val, hk⟩ 5 (k0_off427_eq k),
    rowRead_eq M f _ _ ⟨k.val, hk⟩ 6 (k0_off428_eq k),
    rowRead_eq M f _ _ ⟨k.val, hk⟩ 7 (k0_off429_eq k),
    rowRead_eq M f _ _ ⟨k.val, hk⟩ 8 (k0_off430_eq k),
    rowRead_eq M f _ _ ⟨k.val, hk⟩ 9 (k0_off431_eq k),
    rowRead_eq M f _ _ ⟨k.val, hk⟩ 10 (k0_off432_eq k),
    rowRead_eq M f _ _ ⟨k.val, hk⟩ 11 (k0_off433_eq k),
    rowRead_eq M f _ _ ⟨k.val, hk⟩ 12 (k0_off434_eq k),
    rowRead_eq M f _ _ ⟨k.val, hk⟩ 13 (k0_off435_eq k),
    rowRead_eq M f _ _ ⟨k.val, hk⟩ 14 (k0_off436_eq k),
    rowRead_eq M f _ _ ⟨k.val, hk⟩ 15 (k0_off437_eq k),
    rowRead_eq M f _ _ ⟨k.val, hk⟩ 16 (k0_off438_eq k),
    rowRead_eq M f _ _ ⟨k.val, hk⟩ 17 (k0_off439_eq k),
    rowRead_eq M f _ _ ⟨k.val, hk⟩ 18 (k0_off440_eq k),
    rowRead_eq M f _ _ ⟨k.val, hk⟩ 19 (k0_off441_eq k),
    rowRead_eq M f _ _ ⟨k.val, hk⟩ 20 (k0_off442_eq k),
    rowRead_eq M f _ _ ⟨k.val, hk⟩ 21 (k0_off443_eq k),
    rowRead_eq M f _ _ ⟨k.val, hk⟩ 22 (k0_off444_eq k),
    rowRead_eq M f _ _ ⟨k.val, hk⟩ 23 (k0_off445_eq k),
    rowRead_eq M f _ _ ⟨k.val, hk⟩ 24 (k0_off446_eq k),
    rowRead_eq M f _ _ ⟨k.val, hk⟩ 25 (k0_off447_eq k),
    rowRead_eq M f _ _ ⟨k.val, hk⟩ 26 (k0_off448_eq k),
    rowRead_eq M f _ _ ⟨k.val, hk⟩ 27 (k0_off449_eq k),
    rowRead_eq M f _ _ ⟨k.val, hk⟩ 28 (k0_off450_eq k),
    rowRead_eq M f _ _ ⟨k.val, hk⟩ 29 (k0_off451_eq k),
    rowRead_eq M f _ _ ⟨k.val, hk⟩ 30 (k0_off452_eq k),
    rowRead_eq M f _ _ ⟨k.val, hk⟩ 31 (k0_off453_eq k)]

/-- (L0) loop 14's fold is the generic one: its offset functions are ![k, 16·a] (the generated k0_offM_eq). -/
theorem rowsFold_t14_eq (M : Memref sig .scVector .vmem S64x512 .f32) (f : M.view.ty.Contents (Elt F)) (k : ℕ) (init : Acc F) :
    rowsFold_t14 M f k init = rowsFoldG M f k init := by
  have ht : k0_t14_loop.trips = 64 := by decide
  induction k with
  | zero => rfl
  | succ k ih =>
    show (if h : k < k0_t14_loop.trips then addRow_t14 M f ⟨k, h⟩ (rowsFold_t14 M f k init) else rowsFold_t14 M f k init)
      = (if h : k < 64 then addRowG M f ⟨k, h⟩ (rowsFoldG M f k init) else rowsFoldG M f k init)
    rw [ih]
    by_cases h : k < 64
    · rw [dif_pos (show k < k0_t14_loop.trips from ht ▸ h), dif_pos h]
      exact addRow_t14_eq M f ⟨k, ht ▸ h⟩ h _
    · rw [dif_neg (show ¬ k < k0_t14_loop.trips from ht ▸ h), dif_neg h]

/-- One trip of loop 15 is the generic trip: each of its 32 offset functions is ![k, 16·a] in closed form. -/
theorem addRow_t15_eq (M : Memref sig .scVector .vmem S64x512 .f32) (f : M.view.ty.Contents (Elt F)) (k : Fin k0_t15_loop.trips)
    (hk : k.val < 64) (acc : Acc F) : addRow_t15 M f k acc = addRowG M f ⟨k.val, hk⟩ acc := by
  unfold addRow_t15 addRowG
  rw [rowRead_eq M f _ _ ⟨k.val, hk⟩ 0 (k0_off454_eq k),
    rowRead_eq M f _ _ ⟨k.val, hk⟩ 1 (k0_off455_eq k),
    rowRead_eq M f _ _ ⟨k.val, hk⟩ 2 (k0_off456_eq k),
    rowRead_eq M f _ _ ⟨k.val, hk⟩ 3 (k0_off457_eq k),
    rowRead_eq M f _ _ ⟨k.val, hk⟩ 4 (k0_off458_eq k),
    rowRead_eq M f _ _ ⟨k.val, hk⟩ 5 (k0_off459_eq k),
    rowRead_eq M f _ _ ⟨k.val, hk⟩ 6 (k0_off460_eq k),
    rowRead_eq M f _ _ ⟨k.val, hk⟩ 7 (k0_off461_eq k),
    rowRead_eq M f _ _ ⟨k.val, hk⟩ 8 (k0_off462_eq k),
    rowRead_eq M f _ _ ⟨k.val, hk⟩ 9 (k0_off463_eq k),
    rowRead_eq M f _ _ ⟨k.val, hk⟩ 10 (k0_off464_eq k),
    rowRead_eq M f _ _ ⟨k.val, hk⟩ 11 (k0_off465_eq k),
    rowRead_eq M f _ _ ⟨k.val, hk⟩ 12 (k0_off466_eq k),
    rowRead_eq M f _ _ ⟨k.val, hk⟩ 13 (k0_off467_eq k),
    rowRead_eq M f _ _ ⟨k.val, hk⟩ 14 (k0_off468_eq k),
    rowRead_eq M f _ _ ⟨k.val, hk⟩ 15 (k0_off469_eq k),
    rowRead_eq M f _ _ ⟨k.val, hk⟩ 16 (k0_off470_eq k),
    rowRead_eq M f _ _ ⟨k.val, hk⟩ 17 (k0_off471_eq k),
    rowRead_eq M f _ _ ⟨k.val, hk⟩ 18 (k0_off472_eq k),
    rowRead_eq M f _ _ ⟨k.val, hk⟩ 19 (k0_off473_eq k),
    rowRead_eq M f _ _ ⟨k.val, hk⟩ 20 (k0_off474_eq k),
    rowRead_eq M f _ _ ⟨k.val, hk⟩ 21 (k0_off475_eq k),
    rowRead_eq M f _ _ ⟨k.val, hk⟩ 22 (k0_off476_eq k),
    rowRead_eq M f _ _ ⟨k.val, hk⟩ 23 (k0_off477_eq k),
    rowRead_eq M f _ _ ⟨k.val, hk⟩ 24 (k0_off478_eq k),
    rowRead_eq M f _ _ ⟨k.val, hk⟩ 25 (k0_off479_eq k),
    rowRead_eq M f _ _ ⟨k.val, hk⟩ 26 (k0_off480_eq k),
    rowRead_eq M f _ _ ⟨k.val, hk⟩ 27 (k0_off481_eq k),
    rowRead_eq M f _ _ ⟨k.val, hk⟩ 28 (k0_off482_eq k),
    rowRead_eq M f _ _ ⟨k.val, hk⟩ 29 (k0_off483_eq k),
    rowRead_eq M f _ _ ⟨k.val, hk⟩ 30 (k0_off484_eq k),
    rowRead_eq M f _ _ ⟨k.val, hk⟩ 31 (k0_off485_eq k)]

/-- (L0) loop 15's fold is the generic one: its offset functions are ![k, 16·a] (the generated k0_offM_eq). -/
theorem rowsFold_t15_eq (M : Memref sig .scVector .vmem S64x512 .f32) (f : M.view.ty.Contents (Elt F)) (k : ℕ) (init : Acc F) :
    rowsFold_t15 M f k init = rowsFoldG M f k init := by
  have ht : k0_t15_loop.trips = 64 := by decide
  induction k with
  | zero => rfl
  | succ k ih =>
    show (if h : k < k0_t15_loop.trips then addRow_t15 M f ⟨k, h⟩ (rowsFold_t15 M f k init) else rowsFold_t15 M f k init)
      = (if h : k < 64 then addRowG M f ⟨k, h⟩ (rowsFoldG M f k init) else rowsFoldG M f k init)
    rw [ih]
    by_cases h : k < 64
    · rw [dif_pos (show k < k0_t15_loop.trips from ht ▸ h), dif_pos h]
      exact addRow_t15_eq M f ⟨k, ht ▸ h⟩ h _
    · rw [dif_neg (show ¬ k < k0_t15_loop.trips from ht ▸ h), dif_neg h]

/-- One trip of loop 16 is the generic trip: each of its 32 offset functions is ![k, 16·a] in closed form. -/
theorem addRow_t16_eq (M : Memref sig .scVector .vmem S64x512 .f32) (f : M.view.ty.Contents (Elt F)) (k : Fin k0_t16_loop.trips)
    (hk : k.val < 64) (acc : Acc F) : addRow_t16 M f k acc = addRowG M f ⟨k.val, hk⟩ acc := by
  unfold addRow_t16 addRowG
  rw [rowRead_eq M f _ _ ⟨k.val, hk⟩ 0 (k0_off487_eq k),
    rowRead_eq M f _ _ ⟨k.val, hk⟩ 1 (k0_off488_eq k),
    rowRead_eq M f _ _ ⟨k.val, hk⟩ 2 (k0_off489_eq k),
    rowRead_eq M f _ _ ⟨k.val, hk⟩ 3 (k0_off490_eq k),
    rowRead_eq M f _ _ ⟨k.val, hk⟩ 4 (k0_off491_eq k),
    rowRead_eq M f _ _ ⟨k.val, hk⟩ 5 (k0_off492_eq k),
    rowRead_eq M f _ _ ⟨k.val, hk⟩ 6 (k0_off493_eq k),
    rowRead_eq M f _ _ ⟨k.val, hk⟩ 7 (k0_off494_eq k),
    rowRead_eq M f _ _ ⟨k.val, hk⟩ 8 (k0_off495_eq k),
    rowRead_eq M f _ _ ⟨k.val, hk⟩ 9 (k0_off496_eq k),
    rowRead_eq M f _ _ ⟨k.val, hk⟩ 10 (k0_off497_eq k),
    rowRead_eq M f _ _ ⟨k.val, hk⟩ 11 (k0_off498_eq k),
    rowRead_eq M f _ _ ⟨k.val, hk⟩ 12 (k0_off499_eq k),
    rowRead_eq M f _ _ ⟨k.val, hk⟩ 13 (k0_off500_eq k),
    rowRead_eq M f _ _ ⟨k.val, hk⟩ 14 (k0_off501_eq k),
    rowRead_eq M f _ _ ⟨k.val, hk⟩ 15 (k0_off502_eq k),
    rowRead_eq M f _ _ ⟨k.val, hk⟩ 16 (k0_off503_eq k),
    rowRead_eq M f _ _ ⟨k.val, hk⟩ 17 (k0_off504_eq k),
    rowRead_eq M f _ _ ⟨k.val, hk⟩ 18 (k0_off505_eq k),
    rowRead_eq M f _ _ ⟨k.val, hk⟩ 19 (k0_off506_eq k),
    rowRead_eq M f _ _ ⟨k.val, hk⟩ 20 (k0_off507_eq k),
    rowRead_eq M f _ _ ⟨k.val, hk⟩ 21 (k0_off508_eq k),
    rowRead_eq M f _ _ ⟨k.val, hk⟩ 22 (k0_off509_eq k),
    rowRead_eq M f _ _ ⟨k.val, hk⟩ 23 (k0_off510_eq k),
    rowRead_eq M f _ _ ⟨k.val, hk⟩ 24 (k0_off511_eq k),
    rowRead_eq M f _ _ ⟨k.val, hk⟩ 25 (k0_off512_eq k),
    rowRead_eq M f _ _ ⟨k.val, hk⟩ 26 (k0_off513_eq k),
    rowRead_eq M f _ _ ⟨k.val, hk⟩ 27 (k0_off514_eq k),
    rowRead_eq M f _ _ ⟨k.val, hk⟩ 28 (k0_off515_eq k),
    rowRead_eq M f _ _ ⟨k.val, hk⟩ 29 (k0_off516_eq k),
    rowRead_eq M f _ _ ⟨k.val, hk⟩ 30 (k0_off517_eq k),
    rowRead_eq M f _ _ ⟨k.val, hk⟩ 31 (k0_off518_eq k)]

/-- (L0) loop 16's fold is the generic one: its offset functions are ![k, 16·a] (the generated k0_offM_eq). -/
theorem rowsFold_t16_eq (M : Memref sig .scVector .vmem S64x512 .f32) (f : M.view.ty.Contents (Elt F)) (k : ℕ) (init : Acc F) :
    rowsFold_t16 M f k init = rowsFoldG M f k init := by
  have ht : k0_t16_loop.trips = 64 := by decide
  induction k with
  | zero => rfl
  | succ k ih =>
    show (if h : k < k0_t16_loop.trips then addRow_t16 M f ⟨k, h⟩ (rowsFold_t16 M f k init) else rowsFold_t16 M f k init)
      = (if h : k < 64 then addRowG M f ⟨k, h⟩ (rowsFoldG M f k init) else rowsFoldG M f k init)
    rw [ih]
    by_cases h : k < 64
    · rw [dif_pos (show k < k0_t16_loop.trips from ht ▸ h), dif_pos h]
      exact addRow_t16_eq M f ⟨k, ht ▸ h⟩ h _
    · rw [dif_neg (show ¬ k < k0_t16_loop.trips from ht ▸ h), dif_neg h]

/-- One trip of loop 17 is the generic trip: each of its 32 offset functions is ![k, 16·a] in closed form. -/
theorem addRow_t17_eq (M : Memref sig .scVector .vmem S64x512 .f32) (f : M.view.ty.Contents (Elt F)) (k : Fin k0_t17_loop.trips)
    (hk : k.val < 64) (acc : Acc F) : addRow_t17 M f k acc = addRowG M f ⟨k.val, hk⟩ acc := by
  unfold addRow_t17 addRowG
  rw [rowRead_eq M f _ _ ⟨k.val, hk⟩ 0 (k0_off519_eq k),
    rowRead_eq M f _ _ ⟨k.val, hk⟩ 1 (k0_off520_eq k),
    rowRead_eq M f _ _ ⟨k.val, hk⟩ 2 (k0_off521_eq k),
    rowRead_eq M f _ _ ⟨k.val, hk⟩ 3 (k0_off522_eq k),
    rowRead_eq M f _ _ ⟨k.val, hk⟩ 4 (k0_off523_eq k),
    rowRead_eq M f _ _ ⟨k.val, hk⟩ 5 (k0_off524_eq k),
    rowRead_eq M f _ _ ⟨k.val, hk⟩ 6 (k0_off525_eq k),
    rowRead_eq M f _ _ ⟨k.val, hk⟩ 7 (k0_off526_eq k),
    rowRead_eq M f _ _ ⟨k.val, hk⟩ 8 (k0_off527_eq k),
    rowRead_eq M f _ _ ⟨k.val, hk⟩ 9 (k0_off528_eq k),
    rowRead_eq M f _ _ ⟨k.val, hk⟩ 10 (k0_off529_eq k),
    rowRead_eq M f _ _ ⟨k.val, hk⟩ 11 (k0_off530_eq k),
    rowRead_eq M f _ _ ⟨k.val, hk⟩ 12 (k0_off531_eq k),
    rowRead_eq M f _ _ ⟨k.val, hk⟩ 13 (k0_off532_eq k),
    rowRead_eq M f _ _ ⟨k.val, hk⟩ 14 (k0_off533_eq k),
    rowRead_eq M f _ _ ⟨k.val, hk⟩ 15 (k0_off534_eq k),
    rowRead_eq M f _ _ ⟨k.val, hk⟩ 16 (k0_off535_eq k),
    rowRead_eq M f _ _ ⟨k.val, hk⟩ 17 (k0_off536_eq k),
    rowRead_eq M f _ _ ⟨k.val, hk⟩ 18 (k0_off537_eq k),
    rowRead_eq M f _ _ ⟨k.val, hk⟩ 19 (k0_off538_eq k),
    rowRead_eq M f _ _ ⟨k.val, hk⟩ 20 (k0_off539_eq k),
    rowRead_eq M f _ _ ⟨k.val, hk⟩ 21 (k0_off540_eq k),
    rowRead_eq M f _ _ ⟨k.val, hk⟩ 22 (k0_off541_eq k),
    rowRead_eq M f _ _ ⟨k.val, hk⟩ 23 (k0_off542_eq k),
    rowRead_eq M f _ _ ⟨k.val, hk⟩ 24 (k0_off543_eq k),
    rowRead_eq M f _ _ ⟨k.val, hk⟩ 25 (k0_off544_eq k),
    rowRead_eq M f _ _ ⟨k.val, hk⟩ 26 (k0_off545_eq k),
    rowRead_eq M f _ _ ⟨k.val, hk⟩ 27 (k0_off546_eq k),
    rowRead_eq M f _ _ ⟨k.val, hk⟩ 28 (k0_off547_eq k),
    rowRead_eq M f _ _ ⟨k.val, hk⟩ 29 (k0_off548_eq k),
    rowRead_eq M f _ _ ⟨k.val, hk⟩ 30 (k0_off549_eq k),
    rowRead_eq M f _ _ ⟨k.val, hk⟩ 31 (k0_off550_eq k)]

/-- (L0) loop 17's fold is the generic one: its offset functions are ![k, 16·a] (the generated k0_offM_eq). -/
theorem rowsFold_t17_eq (M : Memref sig .scVector .vmem S64x512 .f32) (f : M.view.ty.Contents (Elt F)) (k : ℕ) (init : Acc F) :
    rowsFold_t17 M f k init = rowsFoldG M f k init := by
  have ht : k0_t17_loop.trips = 64 := by decide
  induction k with
  | zero => rfl
  | succ k ih =>
    show (if h : k < k0_t17_loop.trips then addRow_t17 M f ⟨k, h⟩ (rowsFold_t17 M f k init) else rowsFold_t17 M f k init)
      = (if h : k < 64 then addRowG M f ⟨k, h⟩ (rowsFoldG M f k init) else rowsFoldG M f k init)
    rw [ih]
    by_cases h : k < 64
    · rw [dif_pos (show k < k0_t17_loop.trips from ht ▸ h), dif_pos h]
      exact addRow_t17_eq M f ⟨k, ht ▸ h⟩ h _
    · rw [dif_neg (show ¬ k < k0_t17_loop.trips from ht ▸ h), dif_neg h]

/-- One trip of loop 18 is the generic trip: each of its 32 offset functions is ![k, 16·a] in closed form. -/
theorem addRow_t18_eq (M : Memref sig .scVector .vmem S64x512 .f32) (f : M.view.ty.Contents (Elt F)) (k : Fin k0_t18_loop.trips)
    (hk : k.val < 64) (acc : Acc F) : addRow_t18 M f k acc = addRowG M f ⟨k.val, hk⟩ acc := by
  unfold addRow_t18 addRowG
  rw [rowRead_eq M f _ _ ⟨k.val, hk⟩ 0 (k0_off551_eq k),
    rowRead_eq M f _ _ ⟨k.val, hk⟩ 1 (k0_off552_eq k),
    rowRead_eq M f _ _ ⟨k.val, hk⟩ 2 (k0_off553_eq k),
    rowRead_eq M f _ _ ⟨k.val, hk⟩ 3 (k0_off554_eq k),
    rowRead_eq M f _ _ ⟨k.val, hk⟩ 4 (k0_off555_eq k),
    rowRead_eq M f _ _ ⟨k.val, hk⟩ 5 (k0_off556_eq k),
    rowRead_eq M f _ _ ⟨k.val, hk⟩ 6 (k0_off557_eq k),
    rowRead_eq M f _ _ ⟨k.val, hk⟩ 7 (k0_off558_eq k),
    rowRead_eq M f _ _ ⟨k.val, hk⟩ 8 (k0_off559_eq k),
    rowRead_eq M f _ _ ⟨k.val, hk⟩ 9 (k0_off560_eq k),
    rowRead_eq M f _ _ ⟨k.val, hk⟩ 10 (k0_off561_eq k),
    rowRead_eq M f _ _ ⟨k.val, hk⟩ 11 (k0_off562_eq k),
    rowRead_eq M f _ _ ⟨k.val, hk⟩ 12 (k0_off563_eq k),
    rowRead_eq M f _ _ ⟨k.val, hk⟩ 13 (k0_off564_eq k),
    rowRead_eq M f _ _ ⟨k.val, hk⟩ 14 (k0_off565_eq k),
    rowRead_eq M f _ _ ⟨k.val, hk⟩ 15 (k0_off566_eq k),
    rowRead_eq M f _ _ ⟨k.val, hk⟩ 16 (k0_off567_eq k),
    rowRead_eq M f _ _ ⟨k.val, hk⟩ 17 (k0_off568_eq k),
    rowRead_eq M f _ _ ⟨k.val, hk⟩ 18 (k0_off569_eq k),
    rowRead_eq M f _ _ ⟨k.val, hk⟩ 19 (k0_off570_eq k),
    rowRead_eq M f _ _ ⟨k.val, hk⟩ 20 (k0_off571_eq k),
    rowRead_eq M f _ _ ⟨k.val, hk⟩ 21 (k0_off572_eq k),
    rowRead_eq M f _ _ ⟨k.val, hk⟩ 22 (k0_off573_eq k),
    rowRead_eq M f _ _ ⟨k.val, hk⟩ 23 (k0_off574_eq k),
    rowRead_eq M f _ _ ⟨k.val, hk⟩ 24 (k0_off575_eq k),
    rowRead_eq M f _ _ ⟨k.val, hk⟩ 25 (k0_off576_eq k),
    rowRead_eq M f _ _ ⟨k.val, hk⟩ 26 (k0_off577_eq k),
    rowRead_eq M f _ _ ⟨k.val, hk⟩ 27 (k0_off578_eq k),
    rowRead_eq M f _ _ ⟨k.val, hk⟩ 28 (k0_off579_eq k),
    rowRead_eq M f _ _ ⟨k.val, hk⟩ 29 (k0_off580_eq k),
    rowRead_eq M f _ _ ⟨k.val, hk⟩ 30 (k0_off581_eq k),
    rowRead_eq M f _ _ ⟨k.val, hk⟩ 31 (k0_off582_eq k)]

/-- (L0) loop 18's fold is the generic one: its offset functions are ![k, 16·a] (the generated k0_offM_eq). -/
theorem rowsFold_t18_eq (M : Memref sig .scVector .vmem S64x512 .f32) (f : M.view.ty.Contents (Elt F)) (k : ℕ) (init : Acc F) :
    rowsFold_t18 M f k init = rowsFoldG M f k init := by
  have ht : k0_t18_loop.trips = 64 := by decide
  induction k with
  | zero => rfl
  | succ k ih =>
    show (if h : k < k0_t18_loop.trips then addRow_t18 M f ⟨k, h⟩ (rowsFold_t18 M f k init) else rowsFold_t18 M f k init)
      = (if h : k < 64 then addRowG M f ⟨k, h⟩ (rowsFoldG M f k init) else rowsFoldG M f k init)
    rw [ih]
    by_cases h : k < 64
    · rw [dif_pos (show k < k0_t18_loop.trips from ht ▸ h), dif_pos h]
      exact addRow_t18_eq M f ⟨k, ht ▸ h⟩ h _
    · rw [dif_neg (show ¬ k < k0_t18_loop.trips from ht ▸ h), dif_neg h]

/-- One trip of loop 19 is the generic trip: each of its 32 offset functions is ![k, 16·a] in closed form. -/
theorem addRow_t19_eq (M : Memref sig .scVector .vmem S64x512 .f32) (f : M.view.ty.Contents (Elt F)) (k : Fin k0_t19_loop.trips)
    (hk : k.val < 64) (acc : Acc F) : addRow_t19 M f k acc = addRowG M f ⟨k.val, hk⟩ acc := by
  unfold addRow_t19 addRowG
  rw [rowRead_eq M f _ _ ⟨k.val, hk⟩ 0 (k0_off583_eq k),
    rowRead_eq M f _ _ ⟨k.val, hk⟩ 1 (k0_off584_eq k),
    rowRead_eq M f _ _ ⟨k.val, hk⟩ 2 (k0_off585_eq k),
    rowRead_eq M f _ _ ⟨k.val, hk⟩ 3 (k0_off586_eq k),
    rowRead_eq M f _ _ ⟨k.val, hk⟩ 4 (k0_off587_eq k),
    rowRead_eq M f _ _ ⟨k.val, hk⟩ 5 (k0_off588_eq k),
    rowRead_eq M f _ _ ⟨k.val, hk⟩ 6 (k0_off589_eq k),
    rowRead_eq M f _ _ ⟨k.val, hk⟩ 7 (k0_off590_eq k),
    rowRead_eq M f _ _ ⟨k.val, hk⟩ 8 (k0_off591_eq k),
    rowRead_eq M f _ _ ⟨k.val, hk⟩ 9 (k0_off592_eq k),
    rowRead_eq M f _ _ ⟨k.val, hk⟩ 10 (k0_off593_eq k),
    rowRead_eq M f _ _ ⟨k.val, hk⟩ 11 (k0_off594_eq k),
    rowRead_eq M f _ _ ⟨k.val, hk⟩ 12 (k0_off595_eq k),
    rowRead_eq M f _ _ ⟨k.val, hk⟩ 13 (k0_off596_eq k),
    rowRead_eq M f _ _ ⟨k.val, hk⟩ 14 (k0_off597_eq k),
    rowRead_eq M f _ _ ⟨k.val, hk⟩ 15 (k0_off598_eq k),
    rowRead_eq M f _ _ ⟨k.val, hk⟩ 16 (k0_off599_eq k),
    rowRead_eq M f _ _ ⟨k.val, hk⟩ 17 (k0_off600_eq k),
    rowRead_eq M f _ _ ⟨k.val, hk⟩ 18 (k0_off601_eq k),
    rowRead_eq M f _ _ ⟨k.val, hk⟩ 19 (k0_off602_eq k),
    rowRead_eq M f _ _ ⟨k.val, hk⟩ 20 (k0_off603_eq k),
    rowRead_eq M f _ _ ⟨k.val, hk⟩ 21 (k0_off604_eq k),
    rowRead_eq M f _ _ ⟨k.val, hk⟩ 22 (k0_off605_eq k),
    rowRead_eq M f _ _ ⟨k.val, hk⟩ 23 (k0_off606_eq k),
    rowRead_eq M f _ _ ⟨k.val, hk⟩ 24 (k0_off607_eq k),
    rowRead_eq M f _ _ ⟨k.val, hk⟩ 25 (k0_off608_eq k),
    rowRead_eq M f _ _ ⟨k.val, hk⟩ 26 (k0_off609_eq k),
    rowRead_eq M f _ _ ⟨k.val, hk⟩ 27 (k0_off610_eq k),
    rowRead_eq M f _ _ ⟨k.val, hk⟩ 28 (k0_off611_eq k),
    rowRead_eq M f _ _ ⟨k.val, hk⟩ 29 (k0_off612_eq k),
    rowRead_eq M f _ _ ⟨k.val, hk⟩ 30 (k0_off613_eq k),
    rowRead_eq M f _ _ ⟨k.val, hk⟩ 31 (k0_off614_eq k)]

/-- (L0) loop 19's fold is the generic one: its offset functions are ![k, 16·a] (the generated k0_offM_eq). -/
theorem rowsFold_t19_eq (M : Memref sig .scVector .vmem S64x512 .f32) (f : M.view.ty.Contents (Elt F)) (k : ℕ) (init : Acc F) :
    rowsFold_t19 M f k init = rowsFoldG M f k init := by
  have ht : k0_t19_loop.trips = 64 := by decide
  induction k with
  | zero => rfl
  | succ k ih =>
    show (if h : k < k0_t19_loop.trips then addRow_t19 M f ⟨k, h⟩ (rowsFold_t19 M f k init) else rowsFold_t19 M f k init)
      = (if h : k < 64 then addRowG M f ⟨k, h⟩ (rowsFoldG M f k init) else rowsFoldG M f k init)
    rw [ih]
    by_cases h : k < 64
    · rw [dif_pos (show k < k0_t19_loop.trips from ht ▸ h), dif_pos h]
      exact addRow_t19_eq M f ⟨k, ht ▸ h⟩ h _
    · rw [dif_neg (show ¬ k < k0_t19_loop.trips from ht ▸ h), dif_neg h]

/-- One trip of loop 20 is the generic trip: each of its 32 offset functions is ![k, 16·a] in closed form. -/
theorem addRow_t20_eq (M : Memref sig .scVector .vmem S64x512 .f32) (f : M.view.ty.Contents (Elt F)) (k : Fin k0_t20_loop.trips)
    (hk : k.val < 64) (acc : Acc F) : addRow_t20 M f k acc = addRowG M f ⟨k.val, hk⟩ acc := by
  unfold addRow_t20 addRowG
  rw [rowRead_eq M f _ _ ⟨k.val, hk⟩ 0 (k0_off616_eq k),
    rowRead_eq M f _ _ ⟨k.val, hk⟩ 1 (k0_off617_eq k),
    rowRead_eq M f _ _ ⟨k.val, hk⟩ 2 (k0_off618_eq k),
    rowRead_eq M f _ _ ⟨k.val, hk⟩ 3 (k0_off619_eq k),
    rowRead_eq M f _ _ ⟨k.val, hk⟩ 4 (k0_off620_eq k),
    rowRead_eq M f _ _ ⟨k.val, hk⟩ 5 (k0_off621_eq k),
    rowRead_eq M f _ _ ⟨k.val, hk⟩ 6 (k0_off622_eq k),
    rowRead_eq M f _ _ ⟨k.val, hk⟩ 7 (k0_off623_eq k),
    rowRead_eq M f _ _ ⟨k.val, hk⟩ 8 (k0_off624_eq k),
    rowRead_eq M f _ _ ⟨k.val, hk⟩ 9 (k0_off625_eq k),
    rowRead_eq M f _ _ ⟨k.val, hk⟩ 10 (k0_off626_eq k),
    rowRead_eq M f _ _ ⟨k.val, hk⟩ 11 (k0_off627_eq k),
    rowRead_eq M f _ _ ⟨k.val, hk⟩ 12 (k0_off628_eq k),
    rowRead_eq M f _ _ ⟨k.val, hk⟩ 13 (k0_off629_eq k),
    rowRead_eq M f _ _ ⟨k.val, hk⟩ 14 (k0_off630_eq k),
    rowRead_eq M f _ _ ⟨k.val, hk⟩ 15 (k0_off631_eq k),
    rowRead_eq M f _ _ ⟨k.val, hk⟩ 16 (k0_off632_eq k),
    rowRead_eq M f _ _ ⟨k.val, hk⟩ 17 (k0_off633_eq k),
    rowRead_eq M f _ _ ⟨k.val, hk⟩ 18 (k0_off634_eq k),
    rowRead_eq M f _ _ ⟨k.val, hk⟩ 19 (k0_off635_eq k),
    rowRead_eq M f _ _ ⟨k.val, hk⟩ 20 (k0_off636_eq k),
    rowRead_eq M f _ _ ⟨k.val, hk⟩ 21 (k0_off637_eq k),
    rowRead_eq M f _ _ ⟨k.val, hk⟩ 22 (k0_off638_eq k),
    rowRead_eq M f _ _ ⟨k.val, hk⟩ 23 (k0_off639_eq k),
    rowRead_eq M f _ _ ⟨k.val, hk⟩ 24 (k0_off640_eq k),
    rowRead_eq M f _ _ ⟨k.val, hk⟩ 25 (k0_off641_eq k),
    rowRead_eq M f _ _ ⟨k.val, hk⟩ 26 (k0_off642_eq k),
    rowRead_eq M f _ _ ⟨k.val, hk⟩ 27 (k0_off643_eq k),
    rowRead_eq M f _ _ ⟨k.val, hk⟩ 28 (k0_off644_eq k),
    rowRead_eq M f _ _ ⟨k.val, hk⟩ 29 (k0_off645_eq k),
    rowRead_eq M f _ _ ⟨k.val, hk⟩ 30 (k0_off646_eq k),
    rowRead_eq M f _ _ ⟨k.val, hk⟩ 31 (k0_off647_eq k)]

/-- (L0) loop 20's fold is the generic one: its offset functions are ![k, 16·a] (the generated k0_offM_eq). -/
theorem rowsFold_t20_eq (M : Memref sig .scVector .vmem S64x512 .f32) (f : M.view.ty.Contents (Elt F)) (k : ℕ) (init : Acc F) :
    rowsFold_t20 M f k init = rowsFoldG M f k init := by
  have ht : k0_t20_loop.trips = 64 := by decide
  induction k with
  | zero => rfl
  | succ k ih =>
    show (if h : k < k0_t20_loop.trips then addRow_t20 M f ⟨k, h⟩ (rowsFold_t20 M f k init) else rowsFold_t20 M f k init)
      = (if h : k < 64 then addRowG M f ⟨k, h⟩ (rowsFoldG M f k init) else rowsFoldG M f k init)
    rw [ih]
    by_cases h : k < 64
    · rw [dif_pos (show k < k0_t20_loop.trips from ht ▸ h), dif_pos h]
      exact addRow_t20_eq M f ⟨k, ht ▸ h⟩ h _
    · rw [dif_neg (show ¬ k < k0_t20_loop.trips from ht ▸ h), dif_neg h]

/-- One trip of loop 21 is the generic trip: each of its 32 offset functions is ![k, 16·a] in closed form. -/
theorem addRow_t21_eq (M : Memref sig .scVector .vmem S64x512 .f32) (f : M.view.ty.Contents (Elt F)) (k : Fin k0_t21_loop.trips)
    (hk : k.val < 64) (acc : Acc F) : addRow_t21 M f k acc = addRowG M f ⟨k.val, hk⟩ acc := by
  unfold addRow_t21 addRowG
  rw [rowRead_eq M f _ _ ⟨k.val, hk⟩ 0 (k0_off648_eq k),
    rowRead_eq M f _ _ ⟨k.val, hk⟩ 1 (k0_off649_eq k),
    rowRead_eq M f _ _ ⟨k.val, hk⟩ 2 (k0_off650_eq k),
    rowRead_eq M f _ _ ⟨k.val, hk⟩ 3 (k0_off651_eq k),
    rowRead_eq M f _ _ ⟨k.val, hk⟩ 4 (k0_off652_eq k),
    rowRead_eq M f _ _ ⟨k.val, hk⟩ 5 (k0_off653_eq k),
    rowRead_eq M f _ _ ⟨k.val, hk⟩ 6 (k0_off654_eq k),
    rowRead_eq M f _ _ ⟨k.val, hk⟩ 7 (k0_off655_eq k),
    rowRead_eq M f _ _ ⟨k.val, hk⟩ 8 (k0_off656_eq k),
    rowRead_eq M f _ _ ⟨k.val, hk⟩ 9 (k0_off657_eq k),
    rowRead_eq M f _ _ ⟨k.val, hk⟩ 10 (k0_off658_eq k),
    rowRead_eq M f _ _ ⟨k.val, hk⟩ 11 (k0_off659_eq k),
    rowRead_eq M f _ _ ⟨k.val, hk⟩ 12 (k0_off660_eq k),
    rowRead_eq M f _ _ ⟨k.val, hk⟩ 13 (k0_off661_eq k),
    rowRead_eq M f _ _ ⟨k.val, hk⟩ 14 (k0_off662_eq k),
    rowRead_eq M f _ _ ⟨k.val, hk⟩ 15 (k0_off663_eq k),
    rowRead_eq M f _ _ ⟨k.val, hk⟩ 16 (k0_off664_eq k),
    rowRead_eq M f _ _ ⟨k.val, hk⟩ 17 (k0_off665_eq k),
    rowRead_eq M f _ _ ⟨k.val, hk⟩ 18 (k0_off666_eq k),
    rowRead_eq M f _ _ ⟨k.val, hk⟩ 19 (k0_off667_eq k),
    rowRead_eq M f _ _ ⟨k.val, hk⟩ 20 (k0_off668_eq k),
    rowRead_eq M f _ _ ⟨k.val, hk⟩ 21 (k0_off669_eq k),
    rowRead_eq M f _ _ ⟨k.val, hk⟩ 22 (k0_off670_eq k),
    rowRead_eq M f _ _ ⟨k.val, hk⟩ 23 (k0_off671_eq k),
    rowRead_eq M f _ _ ⟨k.val, hk⟩ 24 (k0_off672_eq k),
    rowRead_eq M f _ _ ⟨k.val, hk⟩ 25 (k0_off673_eq k),
    rowRead_eq M f _ _ ⟨k.val, hk⟩ 26 (k0_off674_eq k),
    rowRead_eq M f _ _ ⟨k.val, hk⟩ 27 (k0_off675_eq k),
    rowRead_eq M f _ _ ⟨k.val, hk⟩ 28 (k0_off676_eq k),
    rowRead_eq M f _ _ ⟨k.val, hk⟩ 29 (k0_off677_eq k),
    rowRead_eq M f _ _ ⟨k.val, hk⟩ 30 (k0_off678_eq k),
    rowRead_eq M f _ _ ⟨k.val, hk⟩ 31 (k0_off679_eq k)]

/-- (L0) loop 21's fold is the generic one: its offset functions are ![k, 16·a] (the generated k0_offM_eq). -/
theorem rowsFold_t21_eq (M : Memref sig .scVector .vmem S64x512 .f32) (f : M.view.ty.Contents (Elt F)) (k : ℕ) (init : Acc F) :
    rowsFold_t21 M f k init = rowsFoldG M f k init := by
  have ht : k0_t21_loop.trips = 64 := by decide
  induction k with
  | zero => rfl
  | succ k ih =>
    show (if h : k < k0_t21_loop.trips then addRow_t21 M f ⟨k, h⟩ (rowsFold_t21 M f k init) else rowsFold_t21 M f k init)
      = (if h : k < 64 then addRowG M f ⟨k, h⟩ (rowsFoldG M f k init) else rowsFoldG M f k init)
    rw [ih]
    by_cases h : k < 64
    · rw [dif_pos (show k < k0_t21_loop.trips from ht ▸ h), dif_pos h]
      exact addRow_t21_eq M f ⟨k, ht ▸ h⟩ h _
    · rw [dif_neg (show ¬ k < k0_t21_loop.trips from ht ▸ h), dif_neg h]

/-- One trip of loop 22 is the generic trip: each of its 32 offset functions is ![k, 16·a] in closed form. -/
theorem addRow_t22_eq (M : Memref sig .scVector .vmem S64x512 .f32) (f : M.view.ty.Contents (Elt F)) (k : Fin k0_t22_loop.trips)
    (hk : k.val < 64) (acc : Acc F) : addRow_t22 M f k acc = addRowG M f ⟨k.val, hk⟩ acc := by
  unfold addRow_t22 addRowG
  rw [rowRead_eq M f _ _ ⟨k.val, hk⟩ 0 (k0_off680_eq k),
    rowRead_eq M f _ _ ⟨k.val, hk⟩ 1 (k0_off681_eq k),
    rowRead_eq M f _ _ ⟨k.val, hk⟩ 2 (k0_off682_eq k),
    rowRead_eq M f _ _ ⟨k.val, hk⟩ 3 (k0_off683_eq k),
    rowRead_eq M f _ _ ⟨k.val, hk⟩ 4 (k0_off684_eq k),
    rowRead_eq M f _ _ ⟨k.val, hk⟩ 5 (k0_off685_eq k),
    rowRead_eq M f _ _ ⟨k.val, hk⟩ 6 (k0_off686_eq k),
    rowRead_eq M f _ _ ⟨k.val, hk⟩ 7 (k0_off687_eq k),
    rowRead_eq M f _ _ ⟨k.val, hk⟩ 8 (k0_off688_eq k),
    rowRead_eq M f _ _ ⟨k.val, hk⟩ 9 (k0_off689_eq k),
    rowRead_eq M f _ _ ⟨k.val, hk⟩ 10 (k0_off690_eq k),
    rowRead_eq M f _ _ ⟨k.val, hk⟩ 11 (k0_off691_eq k),
    rowRead_eq M f _ _ ⟨k.val, hk⟩ 12 (k0_off692_eq k),
    rowRead_eq M f _ _ ⟨k.val, hk⟩ 13 (k0_off693_eq k),
    rowRead_eq M f _ _ ⟨k.val, hk⟩ 14 (k0_off694_eq k),
    rowRead_eq M f _ _ ⟨k.val, hk⟩ 15 (k0_off695_eq k),
    rowRead_eq M f _ _ ⟨k.val, hk⟩ 16 (k0_off696_eq k),
    rowRead_eq M f _ _ ⟨k.val, hk⟩ 17 (k0_off697_eq k),
    rowRead_eq M f _ _ ⟨k.val, hk⟩ 18 (k0_off698_eq k),
    rowRead_eq M f _ _ ⟨k.val, hk⟩ 19 (k0_off699_eq k),
    rowRead_eq M f _ _ ⟨k.val, hk⟩ 20 (k0_off700_eq k),
    rowRead_eq M f _ _ ⟨k.val, hk⟩ 21 (k0_off701_eq k),
    rowRead_eq M f _ _ ⟨k.val, hk⟩ 22 (k0_off702_eq k),
    rowRead_eq M f _ _ ⟨k.val, hk⟩ 23 (k0_off703_eq k),
    rowRead_eq M f _ _ ⟨k.val, hk⟩ 24 (k0_off704_eq k),
    rowRead_eq M f _ _ ⟨k.val, hk⟩ 25 (k0_off705_eq k),
    rowRead_eq M f _ _ ⟨k.val, hk⟩ 26 (k0_off706_eq k),
    rowRead_eq M f _ _ ⟨k.val, hk⟩ 27 (k0_off707_eq k),
    rowRead_eq M f _ _ ⟨k.val, hk⟩ 28 (k0_off708_eq k),
    rowRead_eq M f _ _ ⟨k.val, hk⟩ 29 (k0_off709_eq k),
    rowRead_eq M f _ _ ⟨k.val, hk⟩ 30 (k0_off710_eq k),
    rowRead_eq M f _ _ ⟨k.val, hk⟩ 31 (k0_off711_eq k)]

/-- (L0) loop 22's fold is the generic one: its offset functions are ![k, 16·a] (the generated k0_offM_eq). -/
theorem rowsFold_t22_eq (M : Memref sig .scVector .vmem S64x512 .f32) (f : M.view.ty.Contents (Elt F)) (k : ℕ) (init : Acc F) :
    rowsFold_t22 M f k init = rowsFoldG M f k init := by
  have ht : k0_t22_loop.trips = 64 := by decide
  induction k with
  | zero => rfl
  | succ k ih =>
    show (if h : k < k0_t22_loop.trips then addRow_t22 M f ⟨k, h⟩ (rowsFold_t22 M f k init) else rowsFold_t22 M f k init)
      = (if h : k < 64 then addRowG M f ⟨k, h⟩ (rowsFoldG M f k init) else rowsFoldG M f k init)
    rw [ih]
    by_cases h : k < 64
    · rw [dif_pos (show k < k0_t22_loop.trips from ht ▸ h), dif_pos h]
      exact addRow_t22_eq M f ⟨k, ht ▸ h⟩ h _
    · rw [dif_neg (show ¬ k < k0_t22_loop.trips from ht ▸ h), dif_neg h]

/-- One trip of loop 23 is the generic trip: each of its 32 offset functions is ![k, 16·a] in closed form. -/
theorem addRow_t23_eq (M : Memref sig .scVector .vmem S64x512 .f32) (f : M.view.ty.Contents (Elt F)) (k : Fin k0_t23_loop.trips)
    (hk : k.val < 64) (acc : Acc F) : addRow_t23 M f k acc = addRowG M f ⟨k.val, hk⟩ acc := by
  unfold addRow_t23 addRowG
  rw [rowRead_eq M f _ _ ⟨k.val, hk⟩ 0 (k0_off712_eq k),
    rowRead_eq M f _ _ ⟨k.val, hk⟩ 1 (k0_off713_eq k),
    rowRead_eq M f _ _ ⟨k.val, hk⟩ 2 (k0_off714_eq k),
    rowRead_eq M f _ _ ⟨k.val, hk⟩ 3 (k0_off715_eq k),
    rowRead_eq M f _ _ ⟨k.val, hk⟩ 4 (k0_off716_eq k),
    rowRead_eq M f _ _ ⟨k.val, hk⟩ 5 (k0_off717_eq k),
    rowRead_eq M f _ _ ⟨k.val, hk⟩ 6 (k0_off718_eq k),
    rowRead_eq M f _ _ ⟨k.val, hk⟩ 7 (k0_off719_eq k),
    rowRead_eq M f _ _ ⟨k.val, hk⟩ 8 (k0_off720_eq k),
    rowRead_eq M f _ _ ⟨k.val, hk⟩ 9 (k0_off721_eq k),
    rowRead_eq M f _ _ ⟨k.val, hk⟩ 10 (k0_off722_eq k),
    rowRead_eq M f _ _ ⟨k.val, hk⟩ 11 (k0_off723_eq k),
    rowRead_eq M f _ _ ⟨k.val, hk⟩ 12 (k0_off724_eq k),
    rowRead_eq M f _ _ ⟨k.val, hk⟩ 13 (k0_off725_eq k),
    rowRead_eq M f _ _ ⟨k.val, hk⟩ 14 (k0_off726_eq k),
    rowRead_eq M f _ _ ⟨k.val, hk⟩ 15 (k0_off727_eq k),
    rowRead_eq M f _ _ ⟨k.val, hk⟩ 16 (k0_off728_eq k),
    rowRead_eq M f _ _ ⟨k.val, hk⟩ 17 (k0_off729_eq k),
    rowRead_eq M f _ _ ⟨k.val, hk⟩ 18 (k0_off730_eq k),
    rowRead_eq M f _ _ ⟨k.val, hk⟩ 19 (k0_off731_eq k),
    rowRead_eq M f _ _ ⟨k.val, hk⟩ 20 (k0_off732_eq k),
    rowRead_eq M f _ _ ⟨k.val, hk⟩ 21 (k0_off733_eq k),
    rowRead_eq M f _ _ ⟨k.val, hk⟩ 22 (k0_off734_eq k),
    rowRead_eq M f _ _ ⟨k.val, hk⟩ 23 (k0_off735_eq k),
    rowRead_eq M f _ _ ⟨k.val, hk⟩ 24 (k0_off736_eq k),
    rowRead_eq M f _ _ ⟨k.val, hk⟩ 25 (k0_off737_eq k),
    rowRead_eq M f _ _ ⟨k.val, hk⟩ 26 (k0_off738_eq k),
    rowRead_eq M f _ _ ⟨k.val, hk⟩ 27 (k0_off739_eq k),
    rowRead_eq M f _ _ ⟨k.val, hk⟩ 28 (k0_off740_eq k),
    rowRead_eq M f _ _ ⟨k.val, hk⟩ 29 (k0_off741_eq k),
    rowRead_eq M f _ _ ⟨k.val, hk⟩ 30 (k0_off742_eq k),
    rowRead_eq M f _ _ ⟨k.val, hk⟩ 31 (k0_off743_eq k)]

/-- (L0) loop 23's fold is the generic one: its offset functions are ![k, 16·a] (the generated k0_offM_eq). -/
theorem rowsFold_t23_eq (M : Memref sig .scVector .vmem S64x512 .f32) (f : M.view.ty.Contents (Elt F)) (k : ℕ) (init : Acc F) :
    rowsFold_t23 M f k init = rowsFoldG M f k init := by
  have ht : k0_t23_loop.trips = 64 := by decide
  induction k with
  | zero => rfl
  | succ k ih =>
    show (if h : k < k0_t23_loop.trips then addRow_t23 M f ⟨k, h⟩ (rowsFold_t23 M f k init) else rowsFold_t23 M f k init)
      = (if h : k < 64 then addRowG M f ⟨k, h⟩ (rowsFoldG M f k init) else rowsFoldG M f k init)
    rw [ih]
    by_cases h : k < 64
    · rw [dif_pos (show k < k0_t23_loop.trips from ht ▸ h), dif_pos h]
      exact addRow_t23_eq M f ⟨k, ht ▸ h⟩ h _
    · rw [dif_neg (show ¬ k < k0_t23_loop.trips from ht ▸ h), dif_neg h]

/-- One trip of loop 24 is the generic trip: each of its 32 offset functions is ![k, 16·a] in closed form. -/
theorem addRow_t24_eq (M : Memref sig .scVector .vmem S64x512 .f32) (f : M.view.ty.Contents (Elt F)) (k : Fin k0_t24_loop.trips)
    (hk : k.val < 64) (acc : Acc F) : addRow_t24 M f k acc = addRowG M f ⟨k.val, hk⟩ acc := by
  unfold addRow_t24 addRowG
  rw [rowRead_eq M f _ _ ⟨k.val, hk⟩ 0 (k0_off745_eq k),
    rowRead_eq M f _ _ ⟨k.val, hk⟩ 1 (k0_off746_eq k),
    rowRead_eq M f _ _ ⟨k.val, hk⟩ 2 (k0_off747_eq k),
    rowRead_eq M f _ _ ⟨k.val, hk⟩ 3 (k0_off748_eq k),
    rowRead_eq M f _ _ ⟨k.val, hk⟩ 4 (k0_off749_eq k),
    rowRead_eq M f _ _ ⟨k.val, hk⟩ 5 (k0_off750_eq k),
    rowRead_eq M f _ _ ⟨k.val, hk⟩ 6 (k0_off751_eq k),
    rowRead_eq M f _ _ ⟨k.val, hk⟩ 7 (k0_off752_eq k),
    rowRead_eq M f _ _ ⟨k.val, hk⟩ 8 (k0_off753_eq k),
    rowRead_eq M f _ _ ⟨k.val, hk⟩ 9 (k0_off754_eq k),
    rowRead_eq M f _ _ ⟨k.val, hk⟩ 10 (k0_off755_eq k),
    rowRead_eq M f _ _ ⟨k.val, hk⟩ 11 (k0_off756_eq k),
    rowRead_eq M f _ _ ⟨k.val, hk⟩ 12 (k0_off757_eq k),
    rowRead_eq M f _ _ ⟨k.val, hk⟩ 13 (k0_off758_eq k),
    rowRead_eq M f _ _ ⟨k.val, hk⟩ 14 (k0_off759_eq k),
    rowRead_eq M f _ _ ⟨k.val, hk⟩ 15 (k0_off760_eq k),
    rowRead_eq M f _ _ ⟨k.val, hk⟩ 16 (k0_off761_eq k),
    rowRead_eq M f _ _ ⟨k.val, hk⟩ 17 (k0_off762_eq k),
    rowRead_eq M f _ _ ⟨k.val, hk⟩ 18 (k0_off763_eq k),
    rowRead_eq M f _ _ ⟨k.val, hk⟩ 19 (k0_off764_eq k),
    rowRead_eq M f _ _ ⟨k.val, hk⟩ 20 (k0_off765_eq k),
    rowRead_eq M f _ _ ⟨k.val, hk⟩ 21 (k0_off766_eq k),
    rowRead_eq M f _ _ ⟨k.val, hk⟩ 22 (k0_off767_eq k),
    rowRead_eq M f _ _ ⟨k.val, hk⟩ 23 (k0_off768_eq k),
    rowRead_eq M f _ _ ⟨k.val, hk⟩ 24 (k0_off769_eq k),
    rowRead_eq M f _ _ ⟨k.val, hk⟩ 25 (k0_off770_eq k),
    rowRead_eq M f _ _ ⟨k.val, hk⟩ 26 (k0_off771_eq k),
    rowRead_eq M f _ _ ⟨k.val, hk⟩ 27 (k0_off772_eq k),
    rowRead_eq M f _ _ ⟨k.val, hk⟩ 28 (k0_off773_eq k),
    rowRead_eq M f _ _ ⟨k.val, hk⟩ 29 (k0_off774_eq k),
    rowRead_eq M f _ _ ⟨k.val, hk⟩ 30 (k0_off775_eq k),
    rowRead_eq M f _ _ ⟨k.val, hk⟩ 31 (k0_off776_eq k)]

/-- (L0) loop 24's fold is the generic one: its offset functions are ![k, 16·a] (the generated k0_offM_eq). -/
theorem rowsFold_t24_eq (M : Memref sig .scVector .vmem S64x512 .f32) (f : M.view.ty.Contents (Elt F)) (k : ℕ) (init : Acc F) :
    rowsFold_t24 M f k init = rowsFoldG M f k init := by
  have ht : k0_t24_loop.trips = 64 := by decide
  induction k with
  | zero => rfl
  | succ k ih =>
    show (if h : k < k0_t24_loop.trips then addRow_t24 M f ⟨k, h⟩ (rowsFold_t24 M f k init) else rowsFold_t24 M f k init)
      = (if h : k < 64 then addRowG M f ⟨k, h⟩ (rowsFoldG M f k init) else rowsFoldG M f k init)
    rw [ih]
    by_cases h : k < 64
    · rw [dif_pos (show k < k0_t24_loop.trips from ht ▸ h), dif_pos h]
      exact addRow_t24_eq M f ⟨k, ht ▸ h⟩ h _
    · rw [dif_neg (show ¬ k < k0_t24_loop.trips from ht ▸ h), dif_neg h]

/-- One trip of loop 25 is the generic trip: each of its 32 offset functions is ![k, 16·a] in closed form. -/
theorem addRow_t25_eq (M : Memref sig .scVector .vmem S64x512 .f32) (f : M.view.ty.Contents (Elt F)) (k : Fin k0_t25_loop.trips)
    (hk : k.val < 64) (acc : Acc F) : addRow_t25 M f k acc = addRowG M f ⟨k.val, hk⟩ acc := by
  unfold addRow_t25 addRowG
  rw [rowRead_eq M f _ _ ⟨k.val, hk⟩ 0 (k0_off777_eq k),
    rowRead_eq M f _ _ ⟨k.val, hk⟩ 1 (k0_off778_eq k),
    rowRead_eq M f _ _ ⟨k.val, hk⟩ 2 (k0_off779_eq k),
    rowRead_eq M f _ _ ⟨k.val, hk⟩ 3 (k0_off780_eq k),
    rowRead_eq M f _ _ ⟨k.val, hk⟩ 4 (k0_off781_eq k),
    rowRead_eq M f _ _ ⟨k.val, hk⟩ 5 (k0_off782_eq k),
    rowRead_eq M f _ _ ⟨k.val, hk⟩ 6 (k0_off783_eq k),
    rowRead_eq M f _ _ ⟨k.val, hk⟩ 7 (k0_off784_eq k),
    rowRead_eq M f _ _ ⟨k.val, hk⟩ 8 (k0_off785_eq k),
    rowRead_eq M f _ _ ⟨k.val, hk⟩ 9 (k0_off786_eq k),
    rowRead_eq M f _ _ ⟨k.val, hk⟩ 10 (k0_off787_eq k),
    rowRead_eq M f _ _ ⟨k.val, hk⟩ 11 (k0_off788_eq k),
    rowRead_eq M f _ _ ⟨k.val, hk⟩ 12 (k0_off789_eq k),
    rowRead_eq M f _ _ ⟨k.val, hk⟩ 13 (k0_off790_eq k),
    rowRead_eq M f _ _ ⟨k.val, hk⟩ 14 (k0_off791_eq k),
    rowRead_eq M f _ _ ⟨k.val, hk⟩ 15 (k0_off792_eq k),
    rowRead_eq M f _ _ ⟨k.val, hk⟩ 16 (k0_off793_eq k),
    rowRead_eq M f _ _ ⟨k.val, hk⟩ 17 (k0_off794_eq k),
    rowRead_eq M f _ _ ⟨k.val, hk⟩ 18 (k0_off795_eq k),
    rowRead_eq M f _ _ ⟨k.val, hk⟩ 19 (k0_off796_eq k),
    rowRead_eq M f _ _ ⟨k.val, hk⟩ 20 (k0_off797_eq k),
    rowRead_eq M f _ _ ⟨k.val, hk⟩ 21 (k0_off798_eq k),
    rowRead_eq M f _ _ ⟨k.val, hk⟩ 22 (k0_off799_eq k),
    rowRead_eq M f _ _ ⟨k.val, hk⟩ 23 (k0_off800_eq k),
    rowRead_eq M f _ _ ⟨k.val, hk⟩ 24 (k0_off801_eq k),
    rowRead_eq M f _ _ ⟨k.val, hk⟩ 25 (k0_off802_eq k),
    rowRead_eq M f _ _ ⟨k.val, hk⟩ 26 (k0_off803_eq k),
    rowRead_eq M f _ _ ⟨k.val, hk⟩ 27 (k0_off804_eq k),
    rowRead_eq M f _ _ ⟨k.val, hk⟩ 28 (k0_off805_eq k),
    rowRead_eq M f _ _ ⟨k.val, hk⟩ 29 (k0_off806_eq k),
    rowRead_eq M f _ _ ⟨k.val, hk⟩ 30 (k0_off807_eq k),
    rowRead_eq M f _ _ ⟨k.val, hk⟩ 31 (k0_off808_eq k)]

/-- (L0) loop 25's fold is the generic one: its offset functions are ![k, 16·a] (the generated k0_offM_eq). -/
theorem rowsFold_t25_eq (M : Memref sig .scVector .vmem S64x512 .f32) (f : M.view.ty.Contents (Elt F)) (k : ℕ) (init : Acc F) :
    rowsFold_t25 M f k init = rowsFoldG M f k init := by
  have ht : k0_t25_loop.trips = 64 := by decide
  induction k with
  | zero => rfl
  | succ k ih =>
    show (if h : k < k0_t25_loop.trips then addRow_t25 M f ⟨k, h⟩ (rowsFold_t25 M f k init) else rowsFold_t25 M f k init)
      = (if h : k < 64 then addRowG M f ⟨k, h⟩ (rowsFoldG M f k init) else rowsFoldG M f k init)
    rw [ih]
    by_cases h : k < 64
    · rw [dif_pos (show k < k0_t25_loop.trips from ht ▸ h), dif_pos h]
      exact addRow_t25_eq M f ⟨k, ht ▸ h⟩ h _
    · rw [dif_neg (show ¬ k < k0_t25_loop.trips from ht ▸ h), dif_neg h]

/-- One trip of loop 26 is the generic trip: each of its 32 offset functions is ![k, 16·a] in closed form. -/
theorem addRow_t26_eq (M : Memref sig .scVector .vmem S64x512 .f32) (f : M.view.ty.Contents (Elt F)) (k : Fin k0_t26_loop.trips)
    (hk : k.val < 64) (acc : Acc F) : addRow_t26 M f k acc = addRowG M f ⟨k.val, hk⟩ acc := by
  unfold addRow_t26 addRowG
  rw [rowRead_eq M f _ _ ⟨k.val, hk⟩ 0 (k0_off809_eq k),
    rowRead_eq M f _ _ ⟨k.val, hk⟩ 1 (k0_off810_eq k),
    rowRead_eq M f _ _ ⟨k.val, hk⟩ 2 (k0_off811_eq k),
    rowRead_eq M f _ _ ⟨k.val, hk⟩ 3 (k0_off812_eq k),
    rowRead_eq M f _ _ ⟨k.val, hk⟩ 4 (k0_off813_eq k),
    rowRead_eq M f _ _ ⟨k.val, hk⟩ 5 (k0_off814_eq k),
    rowRead_eq M f _ _ ⟨k.val, hk⟩ 6 (k0_off815_eq k),
    rowRead_eq M f _ _ ⟨k.val, hk⟩ 7 (k0_off816_eq k),
    rowRead_eq M f _ _ ⟨k.val, hk⟩ 8 (k0_off817_eq k),
    rowRead_eq M f _ _ ⟨k.val, hk⟩ 9 (k0_off818_eq k),
    rowRead_eq M f _ _ ⟨k.val, hk⟩ 10 (k0_off819_eq k),
    rowRead_eq M f _ _ ⟨k.val, hk⟩ 11 (k0_off820_eq k),
    rowRead_eq M f _ _ ⟨k.val, hk⟩ 12 (k0_off821_eq k),
    rowRead_eq M f _ _ ⟨k.val, hk⟩ 13 (k0_off822_eq k),
    rowRead_eq M f _ _ ⟨k.val, hk⟩ 14 (k0_off823_eq k),
    rowRead_eq M f _ _ ⟨k.val, hk⟩ 15 (k0_off824_eq k),
    rowRead_eq M f _ _ ⟨k.val, hk⟩ 16 (k0_off825_eq k),
    rowRead_eq M f _ _ ⟨k.val, hk⟩ 17 (k0_off826_eq k),
    rowRead_eq M f _ _ ⟨k.val, hk⟩ 18 (k0_off827_eq k),
    rowRead_eq M f _ _ ⟨k.val, hk⟩ 19 (k0_off828_eq k),
    rowRead_eq M f _ _ ⟨k.val, hk⟩ 20 (k0_off829_eq k),
    rowRead_eq M f _ _ ⟨k.val, hk⟩ 21 (k0_off830_eq k),
    rowRead_eq M f _ _ ⟨k.val, hk⟩ 22 (k0_off831_eq k),
    rowRead_eq M f _ _ ⟨k.val, hk⟩ 23 (k0_off832_eq k),
    rowRead_eq M f _ _ ⟨k.val, hk⟩ 24 (k0_off833_eq k),
    rowRead_eq M f _ _ ⟨k.val, hk⟩ 25 (k0_off834_eq k),
    rowRead_eq M f _ _ ⟨k.val, hk⟩ 26 (k0_off835_eq k),
    rowRead_eq M f _ _ ⟨k.val, hk⟩ 27 (k0_off836_eq k),
    rowRead_eq M f _ _ ⟨k.val, hk⟩ 28 (k0_off837_eq k),
    rowRead_eq M f _ _ ⟨k.val, hk⟩ 29 (k0_off838_eq k),
    rowRead_eq M f _ _ ⟨k.val, hk⟩ 30 (k0_off839_eq k),
    rowRead_eq M f _ _ ⟨k.val, hk⟩ 31 (k0_off840_eq k)]

/-- (L0) loop 26's fold is the generic one: its offset functions are ![k, 16·a] (the generated k0_offM_eq). -/
theorem rowsFold_t26_eq (M : Memref sig .scVector .vmem S64x512 .f32) (f : M.view.ty.Contents (Elt F)) (k : ℕ) (init : Acc F) :
    rowsFold_t26 M f k init = rowsFoldG M f k init := by
  have ht : k0_t26_loop.trips = 64 := by decide
  induction k with
  | zero => rfl
  | succ k ih =>
    show (if h : k < k0_t26_loop.trips then addRow_t26 M f ⟨k, h⟩ (rowsFold_t26 M f k init) else rowsFold_t26 M f k init)
      = (if h : k < 64 then addRowG M f ⟨k, h⟩ (rowsFoldG M f k init) else rowsFoldG M f k init)
    rw [ih]
    by_cases h : k < 64
    · rw [dif_pos (show k < k0_t26_loop.trips from ht ▸ h), dif_pos h]
      exact addRow_t26_eq M f ⟨k, ht ▸ h⟩ h _
    · rw [dif_neg (show ¬ k < k0_t26_loop.trips from ht ▸ h), dif_neg h]

/-- One trip of loop 27 is the generic trip: each of its 32 offset functions is ![k, 16·a] in closed form. -/
theorem addRow_t27_eq (M : Memref sig .scVector .vmem S64x512 .f32) (f : M.view.ty.Contents (Elt F)) (k : Fin k0_t27_loop.trips)
    (hk : k.val < 64) (acc : Acc F) : addRow_t27 M f k acc = addRowG M f ⟨k.val, hk⟩ acc := by
  unfold addRow_t27 addRowG
  rw [rowRead_eq M f _ _ ⟨k.val, hk⟩ 0 (k0_off841_eq k),
    rowRead_eq M f _ _ ⟨k.val, hk⟩ 1 (k0_off842_eq k),
    rowRead_eq M f _ _ ⟨k.val, hk⟩ 2 (k0_off843_eq k),
    rowRead_eq M f _ _ ⟨k.val, hk⟩ 3 (k0_off844_eq k),
    rowRead_eq M f _ _ ⟨k.val, hk⟩ 4 (k0_off845_eq k),
    rowRead_eq M f _ _ ⟨k.val, hk⟩ 5 (k0_off846_eq k),
    rowRead_eq M f _ _ ⟨k.val, hk⟩ 6 (k0_off847_eq k),
    rowRead_eq M f _ _ ⟨k.val, hk⟩ 7 (k0_off848_eq k),
    rowRead_eq M f _ _ ⟨k.val, hk⟩ 8 (k0_off849_eq k),
    rowRead_eq M f _ _ ⟨k.val, hk⟩ 9 (k0_off850_eq k),
    rowRead_eq M f _ _ ⟨k.val, hk⟩ 10 (k0_off851_eq k),
    rowRead_eq M f _ _ ⟨k.val, hk⟩ 11 (k0_off852_eq k),
    rowRead_eq M f _ _ ⟨k.val, hk⟩ 12 (k0_off853_eq k),
    rowRead_eq M f _ _ ⟨k.val, hk⟩ 13 (k0_off854_eq k),
    rowRead_eq M f _ _ ⟨k.val, hk⟩ 14 (k0_off855_eq k),
    rowRead_eq M f _ _ ⟨k.val, hk⟩ 15 (k0_off856_eq k),
    rowRead_eq M f _ _ ⟨k.val, hk⟩ 16 (k0_off857_eq k),
    rowRead_eq M f _ _ ⟨k.val, hk⟩ 17 (k0_off858_eq k),
    rowRead_eq M f _ _ ⟨k.val, hk⟩ 18 (k0_off859_eq k),
    rowRead_eq M f _ _ ⟨k.val, hk⟩ 19 (k0_off860_eq k),
    rowRead_eq M f _ _ ⟨k.val, hk⟩ 20 (k0_off861_eq k),
    rowRead_eq M f _ _ ⟨k.val, hk⟩ 21 (k0_off862_eq k),
    rowRead_eq M f _ _ ⟨k.val, hk⟩ 22 (k0_off863_eq k),
    rowRead_eq M f _ _ ⟨k.val, hk⟩ 23 (k0_off864_eq k),
    rowRead_eq M f _ _ ⟨k.val, hk⟩ 24 (k0_off865_eq k),
    rowRead_eq M f _ _ ⟨k.val, hk⟩ 25 (k0_off866_eq k),
    rowRead_eq M f _ _ ⟨k.val, hk⟩ 26 (k0_off867_eq k),
    rowRead_eq M f _ _ ⟨k.val, hk⟩ 27 (k0_off868_eq k),
    rowRead_eq M f _ _ ⟨k.val, hk⟩ 28 (k0_off869_eq k),
    rowRead_eq M f _ _ ⟨k.val, hk⟩ 29 (k0_off870_eq k),
    rowRead_eq M f _ _ ⟨k.val, hk⟩ 30 (k0_off871_eq k),
    rowRead_eq M f _ _ ⟨k.val, hk⟩ 31 (k0_off872_eq k)]

/-- (L0) loop 27's fold is the generic one: its offset functions are ![k, 16·a] (the generated k0_offM_eq). -/
theorem rowsFold_t27_eq (M : Memref sig .scVector .vmem S64x512 .f32) (f : M.view.ty.Contents (Elt F)) (k : ℕ) (init : Acc F) :
    rowsFold_t27 M f k init = rowsFoldG M f k init := by
  have ht : k0_t27_loop.trips = 64 := by decide
  induction k with
  | zero => rfl
  | succ k ih =>
    show (if h : k < k0_t27_loop.trips then addRow_t27 M f ⟨k, h⟩ (rowsFold_t27 M f k init) else rowsFold_t27 M f k init)
      = (if h : k < 64 then addRowG M f ⟨k, h⟩ (rowsFoldG M f k init) else rowsFoldG M f k init)
    rw [ih]
    by_cases h : k < 64
    · rw [dif_pos (show k < k0_t27_loop.trips from ht ▸ h), dif_pos h]
      exact addRow_t27_eq M f ⟨k, ht ▸ h⟩ h _
    · rw [dif_neg (show ¬ k < k0_t27_loop.trips from ht ▸ h), dif_neg h]

/-- One trip of loop 28 is the generic trip: each of its 32 offset functions is ![k, 16·a] in closed form. -/
theorem addRow_t28_eq (M : Memref sig .scVector .vmem S64x512 .f32) (f : M.view.ty.Contents (Elt F)) (k : Fin k0_t28_loop.trips)
    (hk : k.val < 64) (acc : Acc F) : addRow_t28 M f k acc = addRowG M f ⟨k.val, hk⟩ acc := by
  unfold addRow_t28 addRowG
  rw [rowRead_eq M f _ _ ⟨k.val, hk⟩ 0 (k0_off873_eq k),
    rowRead_eq M f _ _ ⟨k.val, hk⟩ 1 (k0_off874_eq k),
    rowRead_eq M f _ _ ⟨k.val, hk⟩ 2 (k0_off875_eq k),
    rowRead_eq M f _ _ ⟨k.val, hk⟩ 3 (k0_off876_eq k),
    rowRead_eq M f _ _ ⟨k.val, hk⟩ 4 (k0_off877_eq k),
    rowRead_eq M f _ _ ⟨k.val, hk⟩ 5 (k0_off878_eq k),
    rowRead_eq M f _ _ ⟨k.val, hk⟩ 6 (k0_off879_eq k),
    rowRead_eq M f _ _ ⟨k.val, hk⟩ 7 (k0_off880_eq k),
    rowRead_eq M f _ _ ⟨k.val, hk⟩ 8 (k0_off881_eq k),
    rowRead_eq M f _ _ ⟨k.val, hk⟩ 9 (k0_off882_eq k),
    rowRead_eq M f _ _ ⟨k.val, hk⟩ 10 (k0_off883_eq k),
    rowRead_eq M f _ _ ⟨k.val, hk⟩ 11 (k0_off884_eq k),
    rowRead_eq M f _ _ ⟨k.val, hk⟩ 12 (k0_off885_eq k),
    rowRead_eq M f _ _ ⟨k.val, hk⟩ 13 (k0_off886_eq k),
    rowRead_eq M f _ _ ⟨k.val, hk⟩ 14 (k0_off887_eq k),
    rowRead_eq M f _ _ ⟨k.val, hk⟩ 15 (k0_off888_eq k),
    rowRead_eq M f _ _ ⟨k.val, hk⟩ 16 (k0_off889_eq k),
    rowRead_eq M f _ _ ⟨k.val, hk⟩ 17 (k0_off890_eq k),
    rowRead_eq M f _ _ ⟨k.val, hk⟩ 18 (k0_off891_eq k),
    rowRead_eq M f _ _ ⟨k.val, hk⟩ 19 (k0_off892_eq k),
    rowRead_eq M f _ _ ⟨k.val, hk⟩ 20 (k0_off893_eq k),
    rowRead_eq M f _ _ ⟨k.val, hk⟩ 21 (k0_off894_eq k),
    rowRead_eq M f _ _ ⟨k.val, hk⟩ 22 (k0_off895_eq k),
    rowRead_eq M f _ _ ⟨k.val, hk⟩ 23 (k0_off896_eq k),
    rowRead_eq M f _ _ ⟨k.val, hk⟩ 24 (k0_off897_eq k),
    rowRead_eq M f _ _ ⟨k.val, hk⟩ 25 (k0_off898_eq k),
    rowRead_eq M f _ _ ⟨k.val, hk⟩ 26 (k0_off899_eq k),
    rowRead_eq M f _ _ ⟨k.val, hk⟩ 27 (k0_off900_eq k),
    rowRead_eq M f _ _ ⟨k.val, hk⟩ 28 (k0_off901_eq k),
    rowRead_eq M f _ _ ⟨k.val, hk⟩ 29 (k0_off902_eq k),
    rowRead_eq M f _ _ ⟨k.val, hk⟩ 30 (k0_off903_eq k),
    rowRead_eq M f _ _ ⟨k.val, hk⟩ 31 (k0_off904_eq k)]

/-- (L0) loop 28's fold is the generic one: its offset functions are ![k, 16·a] (the generated k0_offM_eq). -/
theorem rowsFold_t28_eq (M : Memref sig .scVector .vmem S64x512 .f32) (f : M.view.ty.Contents (Elt F)) (k : ℕ) (init : Acc F) :
    rowsFold_t28 M f k init = rowsFoldG M f k init := by
  have ht : k0_t28_loop.trips = 64 := by decide
  induction k with
  | zero => rfl
  | succ k ih =>
    show (if h : k < k0_t28_loop.trips then addRow_t28 M f ⟨k, h⟩ (rowsFold_t28 M f k init) else rowsFold_t28 M f k init)
      = (if h : k < 64 then addRowG M f ⟨k, h⟩ (rowsFoldG M f k init) else rowsFoldG M f k init)
    rw [ih]
    by_cases h : k < 64
    · rw [dif_pos (show k < k0_t28_loop.trips from ht ▸ h), dif_pos h]
      exact addRow_t28_eq M f ⟨k, ht ▸ h⟩ h _
    · rw [dif_neg (show ¬ k < k0_t28_loop.trips from ht ▸ h), dif_neg h]

end Cert.KernelIdeal.TileIdeal

end
-- ==== Proof.TileIdealL1.lean ====
/-
  The fold of one chunk's 64 rows into the 32 accumulators, at the ideal values, is a sum.

  A trip reads, for each accumulator `a`, sixteen lanes of the current row from column `16 a` and adds them lane by lane.
  Read through a whole buffer, lane `l` of that load is the buffer's word at the row and column `16 a + l`: the load's
  rectangle has unit strides and the cast only drops its unit axis. At the ideal values the lane-wise addition is the
  extended reals', so by induction on the number of rows accumulator `a`'s lane `l` ends at its starting value plus the
  sum over the 64 rows of column `16 a + l`. A head's accumulators start from the zero word, which reads as zero.
-/
import proofs.«216449_g46943992545511_cont_8to1_c_491_21_alg».proof.Proof.TileIdealDefs
import Idealize.ShloMosaic.PureOps.Ideal
import Idealize.ShloMosaic.PureOps.Ideal.Laws
import Idealize.ShloMosaic.Lib.ValueIdx
import Idealize.ShloMosaic.Lib.ValueLayout

noncomputable section

namespace Cert.KernelIdeal.TileIdeal

open Cert.KernelIdeal Cert.KernelIdeal.Gen Cert.KernelIdeal.Setup Cert.KernelIdeal.TileValue
open Cert.KernelIdeal.Launch (outPiece pieceSet placeOf aLoc oLoc thrAt blockNo mem_pieceSet)
open Idealize.ShloMosaic Idealize.ShloMosaic.ValueIdx
open scoped BigOperators

variable {F : FTy → Type} [FloatOps F]

/-! ## One row read, one trip -/

/-- Sixteen lanes of row `k` from column `16 a`, read through a view whose contents read as `g`: lane `l` is `g` at
    row `k`, column `16 a + l` (the cast drops the unit axis; the load's rectangle has unit strides). -/
theorem rowReadG_apply_of_read (M : Memref sig .scVector .vmem S64x512 .f32) (f : M.view.ty.Contents (Elt F))
    (g : S64x512.Idx → Elt F .f32) (hg : M.view.read (Elt F) f = g) (k : Fin 64) (a : Fin 32) (l : Fin 16) :
    rowReadG M f k a (ix1 l) = g (ix2 k (⟨16 * a.val + l.val, by omega⟩ : Fin 512)) := by
  unfold rowReadG rowRead
  refine (shapeCast_1a_a_apply _ _ l).trans ?_
  rw [View.readAt_apply, hg]
  exact congrArg g (funext fun x => Fin.ext (by
    match x with
    | ⟨0, _⟩ => show k.val + 1 * 0 = k.val; omega
    | ⟨1, _⟩ => show 16 * a.val + 1 * l.val = 16 * a.val + l.val; omega))

/-- One trip adds row `k`'s sixteen lanes from column `16 a` into accumulator `a`, for each of the 32. -/
theorem accAt_addRowG (M : Memref sig .scVector .vmem S64x512 .f32) (f : M.view.ty.Contents (Elt F)) (k : Fin 64) (acc : Acc F)
    (a : Fin 32) : accAt (addRowG M f k acc) a = addf (accAt acc a) (rowReadG M f k a) := by
  fin_cases a <;> rfl

/-! ## The fold over the rows, at the ideal values -/

/-- After `n` rows, accumulator `a`'s lane `l` has gained column `16 a + l` of each of the first `n` rows. -/
theorem rowsFoldG_sum_of_read (M : Memref sig .scVector .vmem S64x512 .f32) (f : M.view.ty.Contents (Elt Ideal))
    (g : S64x512.Idx → EReal) (hg : M.view.read (Elt Ideal) f = g) (init : Acc Ideal) (a : Fin 32) (l : Fin 16) :
    ∀ n : ℕ, n ≤ 64 → (accAt (rowsFoldG (F := Ideal) M f n init) a (ix1 l) : EReal)
      = accAt init a (ix1 l)
        + ∑ i ∈ Finset.range n, (if h : i < 64 then g (ix2 (⟨i, h⟩ : Fin 64) (⟨16 * a.val + l.val, by omega⟩ : Fin 512)) else 0)
  | 0, _ => by
    show (accAt init a (ix1 l) : EReal) = _
    rw [Finset.sum_range_zero, add_zero]
  | n + 1, hn => by
    have hlt : n < 64 := by omega
    have ih := rowsFoldG_sum_of_read M f g hg init a l n (by omega)
    rw [Finset.sum_range_succ, ← add_assoc, ← ih, dif_pos hlt]
    show (accAt (if h : n < 64 then addRowG M f ⟨n, h⟩ (rowsFoldG M f n init) else rowsFoldG M f n init) a (ix1 l) : EReal) = _
    rw [dif_pos hlt, accAt_addRowG]
    show (accAt (rowsFoldG M f n init) a (ix1 l) : EReal) + rowReadG M f ⟨n, hlt⟩ a (ix1 l) = _
    rw [rowReadG_apply_of_read M f g hg]

/-- The sum over the first 64 naturals of a function cut off at 64 is the sum over the 64 rows. -/
theorem sum_rows (g : S64x512.Idx → EReal) (col : Fin 512) :
    ∑ i ∈ Finset.range 64, (if h : i < 64 then g (ix2 (⟨i, h⟩ : Fin 64) col) else 0) = ∑ i : Fin 64, g (ix2 i col) := by
  rw [← Fin.sum_univ_eq_sum_range (fun i => if h : i < 64 then g (ix2 (⟨i, h⟩ : Fin 64) col) else 0) 64]
  refine Finset.sum_congr rfl fun i _ => ?_
  rw [dif_pos i.isLt]

/-! ## (L1) the generic fold at the ideal instance is a sum over the 64 rows -/

/-- (L1, buffer 0) -/
theorem rowsFoldG_sum0 (w : S64x512.Idx → Elt Ideal .f32) (init : Acc Ideal) (a : Fin 32) (l : Fin 16) :
    (accAt (rowsFoldG (F := Ideal) (Memref.whole cc0_scratch0) w 64 init) a (ix1 l) : EReal)
      = accAt init a (ix1 l) + ∑ i : Fin 64, (w (ix2 i (⟨16 * a.val + l.val, by omega⟩ : Fin 512)) : EReal) := by
  rw [rowsFoldG_sum_of_read (Memref.whole cc0_scratch0) w w rfl init a l 64 le_rfl]
  exact congrArg (fun s : EReal => (accAt init a (ix1 l) : EReal) + s) (sum_rows w ⟨16 * a.val + l.val, by omega⟩)

/-- (L1, buffer 1) -/
theorem rowsFoldG_sum1 (w : S64x512.Idx → Elt Ideal .f32) (init : Acc Ideal) (a : Fin 32) (l : Fin 16) :
    (accAt (rowsFoldG (F := Ideal) (Memref.whole cc0_scratch1) w 64 init) a (ix1 l) : EReal)
      = accAt init a (ix1 l) + ∑ i : Fin 64, (w (ix2 i (⟨16 * a.val + l.val, by omega⟩ : Fin 512)) : EReal) := by
  rw [rowsFoldG_sum_of_read (Memref.whole cc0_scratch1) w w rfl init a l 64 le_rfl]
  exact congrArg (fun s : EReal => (accAt init a (ix1 l) : EReal) + s) (sum_rows w ⟨16 * a.val + l.val, by omega⟩)

/-- (L1') the start is zero -/
theorem zeroAcc_ideal (a : Fin 32) (l : Fin 16) : (accAt (zeroAcc (F := Ideal)) a (ix1 l) : EReal) = 0 := by
  fin_cases a <;> exact Ideal.ofBits_zero_f32

end Cert.KernelIdeal.TileIdeal

end
-- ==== Proof.TileIdealL2.lean ====
import proofs.«216449_g46943992545511_cont_8to1_c_491_21_alg».proof.Proof.TileIdealDefs
import Idealize.ShloMosaic.PureOps.Ideal
import Idealize.ShloMosaic.Lib.ValueIdx

noncomputable section

namespace Cert.KernelIdeal.TileIdeal

open Cert.KernelIdeal Cert.KernelIdeal.Gen Cert.KernelIdeal.Setup Cert.KernelIdeal.TileValue
open Cert.KernelIdeal.Launch (outPiece pieceSet placeOf aLoc oLoc thrAt blockNo mem_pieceSet)
open Idealize.ShloMosaic Idealize.ShloMosaic.ValueIdx
open scoped BigOperators

variable {F : FTy → Type} [FloatOps F]

/-! ## (L2) what a chunk's copy delivers

A chunk is a window of 64 rows by 512 columns of one head of the scores, read through a slice of the whole array with
its leading unit axis dropped. The window of chunk n of the tile at place L starts at head 9 + n/4, row
256·r8 L + 64·(n mod 4), column c0 L: the printed offsets, in closed form, decided once over the 32 places and the 4
chunks of a head. -/

/-- A 1 × 64 × 512 window of the scores with its unit axis dropped, read at (i, j): the score at the window's head,
    at row and column i and j past the window's first. -/
theorem read_window (d : Dev nD) (off : Fin 3 → ℕ) (inb : ∀ a, off a + S1x64x512.size a ≤ S16x2048x2048.size a)
    (A : Buf (Elt F) (aLoc d)) (i : Fin 64) (j : Fin 512) (h : Fin 16) (r c : Fin 2048)
    (e0 : off 0 = h.val) (e1 : off 1 + i.val = r.val) (e2 : off 2 + j.val = c.val) :
    ReadAs.same.apply (View.read (Elt F)
      (((Memref.whole main_v0_scv : Memref sig .scVector .hbm S16x2048x2048 .f32).slice
          (Rect.unit (s := S16x2048x2048) off S1x64x512.size inb) (fun _ => rfl)).squeeze S64x512 squeezes_S1x64x512_S64x512).view
      A) (ix2 i j) = A (ix3 h r c) := by
  show A ((Rect.unit (s := S16x2048x2048) off S1x64x512.size inb).emb
      (Shape.reshapeEquiv (s := S1x64x512) (s' := S64x512) squeezes_S1x64x512_S64x512.numel_eq (ix2 i j))) = A (ix3 h r c)
  rw [Shape.reshapeEquiv_eq_of_rowMajor (s := S1x64x512) (s' := S64x512) squeezes_S1x64x512_S64x512.numel_eq
    (x := ix2 i j) (y := ix3 (0 : Fin 1) i j)
    (by rw [Shape.rowMajor_val_three, Shape.rowMajor_val_two]
        show (0 * 64 + i.val) * 512 + j.val = i.val * 512 + j.val
        omega)]
  refine congrArg A (funext fun a => Fin.ext ?_)
  match a with
  | ⟨0, _⟩ => show off 0 + 1 * 0 = h.val; omega
  | ⟨1, _⟩ => show off 1 + 1 * i.val = r.val; omega
  | ⟨2, _⟩ => show off 2 + 1 * j.val = c.val; omega

omit [FloatOps F] in
/-- Head 9's chunks start at head 9, row 256·r8 + 64·m, column c0. -/
theorem off1_eq : ∀ L : grid0.Coords, ∀ m : Fin 4,
    k0_off1 L (BitVec.ofNat 32 (64 * m.val)) 0 = 9 ∧ k0_off1 L (BitVec.ofNat 32 (64 * m.val)) 1 = 256 * r8 L + 64 * m.val
      ∧ k0_off1 L (BitVec.ofNat 32 (64 * m.val)) 2 = c0 L := by decide +kernel

theorem chunk_head9 (d : Dev nD) (L : grid0.Coords) (m : ℕ) (hm : m < 4) (A : Buf (Elt F) (aLoc d)) (i : Fin 64) (j : Fin 512)
    (h : Fin 16) (r c : Fin 2048) (hh : h.val = 9) (hr : r.val = 256 * r8 L + 64 * m + i.val) (hc : c.val = c0 L + j.val) :
    ReadAs.same.apply (View.read (Elt F)
      (((Memref.whole main_v0_scv : Memref sig .scVector .hbm S16x2048x2048 .f32).slice
          (Rect.unit (s := S16x2048x2048) (k0_off1 L (BitVec.ofNat 32 (64 * (⟨m, hm⟩ : Fin 4).val))) S1x64x512.size (k0_off1_inb L ⟨m, hm⟩))
          (fun _ => rfl)).squeeze S64x512 squeezes_S1x64x512_S64x512).view
      A) (ix2 i j) = A (ix3 h r c) := by
  obtain ⟨o0, o1, o2⟩ := off1_eq L ⟨m, hm⟩
  refine read_window d _ _ A i j h r c ?_ ?_ ?_
  · rw [o0, hh]
  · rw [o1, hr]
  · rw [o2, hc]

omit [FloatOps F] in
/-- Head 10's chunks start at head 10, row 256·r8 + 64·m, column c0. -/
theorem off98_eq : ∀ L : grid0.Coords, ∀ m : Fin 4,
    k0_off98 L (BitVec.ofNat 32 (64 * m.val)) 0 = 10 ∧ k0_off98 L (BitVec.ofNat 32 (64 * m.val)) 1 = 256 * r8 L + 64 * m.val
      ∧ k0_off98 L (BitVec.ofNat 32 (64 * m.val)) 2 = c0 L := by decide +kernel

theorem chunk_head10 (d : Dev nD) (L : grid0.Coords) (m : ℕ) (hm : m < 4) (A : Buf (Elt F) (aLoc d)) (i : Fin 64) (j : Fin 512)
    (h : Fin 16) (r c : Fin 2048) (hh : h.val = 10) (hr : r.val = 256 * r8 L + 64 * m + i.val) (hc : c.val = c0 L + j.val) :
    ReadAs.same.apply (View.read (Elt F)
      (((Memref.whole main_v0_scv : Memref sig .scVector .hbm S16x2048x2048 .f32).slice
          (Rect.unit (s := S16x2048x2048) (k0_off98 L (BitVec.ofNat 32 (64 * (⟨m, hm⟩ : Fin 4).val))) S1x64x512.size (k0_off98_inb L ⟨m, hm⟩))
          (fun _ => rfl)).squeeze S64x512 squeezes_S1x64x512_S64x512).view
      A) (ix2 i j) = A (ix3 h r c) := by
  obtain ⟨o0, o1, o2⟩ := off98_eq L ⟨m, hm⟩
  refine read_window d _ _ A i j h r c ?_ ?_ ?_
  · rw [o0, hh]
  · rw [o1, hr]
  · rw [o2, hc]

omit [FloatOps F] in
/-- Head 11's chunks start at head 11, row 256·r8 + 64·m, column c0. -/
theorem off228_eq : ∀ L : grid0.Coords, ∀ m : Fin 4,
    k0_off228 L (BitVec.ofNat 32 (64 * m.val)) 0 = 11 ∧ k0_off228 L (BitVec.ofNat 32 (64 * m.val)) 1 = 256 * r8 L + 64 * m.val
      ∧ k0_off228 L (BitVec.ofNat 32 (64 * m.val)) 2 = c0 L := by decide +kernel

theorem chunk_head11 (d : Dev nD) (L : grid0.Coords) (m : ℕ) (hm : m < 4) (A : Buf (Elt F) (aLoc d)) (i : Fin 64) (j : Fin 512)
    (h : Fin 16) (r c : Fin 2048) (hh : h.val = 11) (hr : r.val = 256 * r8 L + 64 * m + i.val) (hc : c.val = c0 L + j.val) :
    ReadAs.same.apply (View.read (Elt F)
      (((Memref.whole main_v0_scv : Memref sig .scVector .hbm S16x2048x2048 .f32).slice
          (Rect.unit (s := S16x2048x2048) (k0_off228 L (BitVec.ofNat 32 (64 * (⟨m, hm⟩ : Fin 4).val))) S1x64x512.size (k0_off228_inb L ⟨m, hm⟩))
          (fun _ => rfl)).squeeze S64x512 squeezes_S1x64x512_S64x512).view
      A) (ix2 i j) = A (ix3 h r c) := by
  obtain ⟨o0, o1, o2⟩ := off228_eq L ⟨m, hm⟩
  refine read_window d _ _ A i j h r c ?_ ?_ ?_
  · rw [o0, hh]
  · rw [o1, hr]
  · rw [o2, hc]

omit [FloatOps F] in
/-- Head 12's chunks start at head 12, row 256·r8 + 64·m, column c0. -/
theorem off357_eq : ∀ L : grid0.Coords, ∀ m : Fin 4,
    k0_off357 L (BitVec.ofNat 32 (64 * m.val)) 0 = 12 ∧ k0_off357 L (BitVec.ofNat 32 (64 * m.val)) 1 = 256 * r8 L + 64 * m.val
      ∧ k0_off357 L (BitVec.ofNat 32 (64 * m.val)) 2 = c0 L := by decide +kernel

theorem chunk_head12 (d : Dev nD) (L : grid0.Coords) (m : ℕ) (hm : m < 4) (A : Buf (Elt F) (aLoc d)) (i : Fin 64) (j : Fin 512)
    (h : Fin 16) (r c : Fin 2048) (hh : h.val = 12) (hr : r.val = 256 * r8 L + 64 * m + i.val) (hc : c.val = c0 L + j.val) :
    ReadAs.same.apply (View.read (Elt F)
      (((Memref.whole main_v0_scv : Memref sig .scVector .hbm S16x2048x2048 .f32).slice
          (Rect.unit (s := S16x2048x2048) (k0_off357 L (BitVec.ofNat 32 (64 * (⟨m, hm⟩ : Fin 4).val))) S1x64x512.size (k0_off357_inb L ⟨m, hm⟩))
          (fun _ => rfl)).squeeze S64x512 squeezes_S1x64x512_S64x512).view
      A) (ix2 i j) = A (ix3 h r c) := by
  obtain ⟨o0, o1, o2⟩ := off357_eq L ⟨m, hm⟩
  refine read_window d _ _ A i j h r c ?_ ?_ ?_
  · rw [o0, hh]
  · rw [o1, hr]
  · rw [o2, hc]

omit [FloatOps F] in
/-- Head 13's chunks start at head 13, row 256·r8 + 64·m, column c0. -/
theorem off486_eq : ∀ L : grid0.Coords, ∀ m : Fin 4,
    k0_off486 L (BitVec.ofNat 32 (64 * m.val)) 0 = 13 ∧ k0_off486 L (BitVec.ofNat 32 (64 * m.val)) 1 = 256 * r8 L + 64 * m.val
      ∧ k0_off486 L (BitVec.ofNat 32 (64 * m.val)) 2 = c0 L := by decide +kernel

theorem chunk_head13 (d : Dev nD) (L : grid0.Coords) (m : ℕ) (hm : m < 4) (A : Buf (Elt F) (aLoc d)) (i : Fin 64) (j : Fin 512)
    (h : Fin 16) (r c : Fin 2048) (hh : h.val = 13) (hr : r.val = 256 * r8 L + 64 * m + i.val) (hc : c.val = c0 L + j.val) :
    ReadAs.same.apply (View.read (Elt F)
      (((Memref.whole main_v0_scv : Memref sig .scVector .hbm S16x2048x2048 .f32).slice
          (Rect.unit (s := S16x2048x2048) (k0_off486 L (BitVec.ofNat 32 (64 * (⟨m, hm⟩ : Fin 4).val))) S1x64x512.size (k0_off486_inb L ⟨m, hm⟩))
          (fun _ => rfl)).squeeze S64x512 squeezes_S1x64x512_S64x512).view
      A) (ix2 i j) = A (ix3 h r c) := by
  obtain ⟨o0, o1, o2⟩ := off486_eq L ⟨m, hm⟩
  refine read_window d _ _ A i j h r c ?_ ?_ ?_
  · rw [o0, hh]
  · rw [o1, hr]
  · rw [o2, hc]

omit [FloatOps F] in
/-- Head 14's chunks start at head 14, row 256·r8 + 64·m, column c0. -/
theorem off615_eq : ∀ L : grid0.Coords, ∀ m : Fin 4,
    k0_off615 L (BitVec.ofNat 32 (64 * m.val)) 0 = 14 ∧ k0_off615 L (BitVec.ofNat 32 (64 * m.val)) 1 = 256 * r8 L + 64 * m.val
      ∧ k0_off615 L (BitVec.ofNat 32 (64 * m.val)) 2 = c0 L := by decide +kernel

theorem chunk_head14 (d : Dev nD) (L : grid0.Coords) (m : ℕ) (hm : m < 4) (A : Buf (Elt F) (aLoc d)) (i : Fin 64) (j : Fin 512)
    (h : Fin 16) (r c : Fin 2048) (hh : h.val = 14) (hr : r.val = 256 * r8 L + 64 * m + i.val) (hc : c.val = c0 L + j.val) :
    ReadAs.same.apply (View.read (Elt F)
      (((Memref.whole main_v0_scv : Memref sig .scVector .hbm S16x2048x2048 .f32).slice
          (Rect.unit (s := S16x2048x2048) (k0_off615 L (BitVec.ofNat 32 (64 * (⟨m, hm⟩ : Fin 4).val))) S1x64x512.size (k0_off615_inb L ⟨m, hm⟩))
          (fun _ => rfl)).squeeze S64x512 squeezes_S1x64x512_S64x512).view
      A) (ix2 i j) = A (ix3 h r c) := by
  obtain ⟨o0, o1, o2⟩ := off615_eq L ⟨m, hm⟩
  refine read_window d _ _ A i j h r c ?_ ?_ ?_
  · rw [o0, hh]
  · rw [o1, hr]
  · rw [o2, hc]

omit [FloatOps F] in
/-- Head 15's chunks start at head 15, row 256·r8 + 64·m, column c0. -/
theorem off744_eq : ∀ L : grid0.Coords, ∀ m : Fin 4,
    k0_off744 L (BitVec.ofNat 32 (64 * m.val)) 0 = 15 ∧ k0_off744 L (BitVec.ofNat 32 (64 * m.val)) 1 = 256 * r8 L + 64 * m.val
      ∧ k0_off744 L (BitVec.ofNat 32 (64 * m.val)) 2 = c0 L := by decide +kernel

theorem chunk_head15 (d : Dev nD) (L : grid0.Coords) (m : ℕ) (hm : m < 4) (A : Buf (Elt F) (aLoc d)) (i : Fin 64) (j : Fin 512)
    (h : Fin 16) (r c : Fin 2048) (hh : h.val = 15) (hr : r.val = 256 * r8 L + 64 * m + i.val) (hc : c.val = c0 L + j.val) :
    ReadAs.same.apply (View.read (Elt F)
      (((Memref.whole main_v0_scv : Memref sig .scVector .hbm S16x2048x2048 .f32).slice
          (Rect.unit (s := S16x2048x2048) (k0_off744 L (BitVec.ofNat 32 (64 * (⟨m, hm⟩ : Fin 4).val))) S1x64x512.size (k0_off744_inb L ⟨m, hm⟩))
          (fun _ => rfl)).squeeze S64x512 squeezes_S1x64x512_S64x512).view
      A) (ix2 i j) = A (ix3 h r c) := by
  obtain ⟨o0, o1, o2⟩ := off744_eq L ⟨m, hm⟩
  refine read_window d _ _ A i j h r c ?_ ?_ ?_
  · rw [o0, hh]
  · rw [o1, hr]
  · rw [o2, hc]

/-! The 28 chunks, each as the read its copy delivers, in the spelling of the head lemmas: by definition. -/

theorem chunk_def_0 (d : Dev nD) (L : grid0.Coords) (A : Buf (Elt F) (aLoc d)) :
    chunk 0 d L A = ReadAs.same.apply (View.read (Elt F)
      (((Memref.whole main_v0_scv : Memref sig .scVector .hbm S16x2048x2048 .f32).slice
          (Rect.unit (s := S16x2048x2048) (k0_off1 L (BitVec.ofNat 32 (64 * (⟨0, by decide⟩ : Fin 4).val))) S1x64x512.size (k0_off1_inb L ⟨0, by decide⟩))
          (fun _ => rfl)).squeeze S64x512 squeezes_S1x64x512_S64x512).view
      A) := rfl

theorem chunk_def_1 (d : Dev nD) (L : grid0.Coords) (A : Buf (Elt F) (aLoc d)) :
    chunk 1 d L A = ReadAs.same.apply (View.read (Elt F)
      (((Memref.whole main_v0_scv : Memref sig .scVector .hbm S16x2048x2048 .f32).slice
          (Rect.unit (s := S16x2048x2048) (k0_off1 L (BitVec.ofNat 32 (64 * (⟨1, by decide⟩ : Fin 4).val))) S1x64x512.size (k0_off1_inb L ⟨1, by decide⟩))
          (fun _ => rfl)).squeeze S64x512 squeezes_S1x64x512_S64x512).view
      A) := rfl

theorem chunk_def_2 (d : Dev nD) (L : grid0.Coords) (A : Buf (Elt F) (aLoc d)) :
    chunk 2 d L A = ReadAs.same.apply (View.read (Elt F)
      (((Memref.whole main_v0_scv : Memref sig .scVector .hbm S16x2048x2048 .f32).slice
          (Rect.unit (s := S16x2048x2048) (k0_off1 L (BitVec.ofNat 32 (64 * (⟨2, by decide⟩ : Fin 4).val))) S1x64x512.size (k0_off1_inb L ⟨2, by decide⟩))
          (fun _ => rfl)).squeeze S64x512 squeezes_S1x64x512_S64x512).view
      A) := rfl

theorem chunk_def_3 (d : Dev nD) (L : grid0.Coords) (A : Buf (Elt F) (aLoc d)) :
    chunk 3 d L A = ReadAs.same.apply (View.read (Elt F)
      (((Memref.whole main_v0_scv : Memref sig .scVector .hbm S16x2048x2048 .f32).slice
          (Rect.unit (s := S16x2048x2048) (k0_off1 L (BitVec.ofNat 32 (64 * (⟨3, by decide⟩ : Fin 4).val))) S1x64x512.size (k0_off1_inb L ⟨3, by decide⟩))
          (fun _ => rfl)).squeeze S64x512 squeezes_S1x64x512_S64x512).view
      A) := rfl

theorem chunk_def_4 (d : Dev nD) (L : grid0.Coords) (A : Buf (Elt F) (aLoc d)) :
    chunk 4 d L A = ReadAs.same.apply (View.read (Elt F)
      (((Memref.whole main_v0_scv : Memref sig .scVector .hbm S16x2048x2048 .f32).slice
          (Rect.unit (s := S16x2048x2048) (k0_off98 L (BitVec.ofNat 32 (64 * (⟨0, by decide⟩ : Fin 4).val))) S1x64x512.size (k0_off98_inb L ⟨0, by decide⟩))
          (fun _ => rfl)).squeeze S64x512 squeezes_S1x64x512_S64x512).view
      A) := rfl

theorem chunk_def_5 (d : Dev nD) (L : grid0.Coords) (A : Buf (Elt F) (aLoc d)) :
    chunk 5 d L A = ReadAs.same.apply (View.read (Elt F)
      (((Memref.whole main_v0_scv : Memref sig .scVector .hbm S16x2048x2048 .f32).slice
          (Rect.unit (s := S16x2048x2048) (k0_off98 L (BitVec.ofNat 32 (64 * (⟨1, by decide⟩ : Fin 4).val))) S1x64x512.size (k0_off98_inb L ⟨1, by decide⟩))
          (fun _ => rfl)).squeeze S64x512 squeezes_S1x64x512_S64x512).view
      A) := rfl

theorem chunk_def_6 (d : Dev nD) (L : grid0.Coords) (A : Buf (Elt F) (aLoc d)) :
    chunk 6 d L A = ReadAs.same.apply (View.read (Elt F)
      (((Memref.whole main_v0_scv : Memref sig .scVector .hbm S16x2048x2048 .f32).slice
          (Rect.unit (s := S16x2048x2048) (k0_off98 L (BitVec.ofNat 32 (64 * (⟨2, by decide⟩ : Fin 4).val))) S1x64x512.size (k0_off98_inb L ⟨2, by decide⟩))
          (fun _ => rfl)).squeeze S64x512 squeezes_S1x64x512_S64x512).view
      A) := rfl

theorem chunk_def_7 (d : Dev nD) (L : grid0.Coords) (A : Buf (Elt F) (aLoc d)) :
    chunk 7 d L A = ReadAs.same.apply (View.read (Elt F)
      (((Memref.whole main_v0_scv : Memref sig .scVector .hbm S16x2048x2048 .f32).slice
          (Rect.unit (s := S16x2048x2048) (k0_off98 L (BitVec.ofNat 32 (64 * (⟨3, by decide⟩ : Fin 4).val))) S1x64x512.size (k0_off98_inb L ⟨3, by decide⟩))
          (fun _ => rfl)).squeeze S64x512 squeezes_S1x64x512_S64x512).view
      A) := rfl

theorem chunk_def_8 (d : Dev nD) (L : grid0.Coords) (A : Buf (Elt F) (aLoc d)) :
    chunk 8 d L A = ReadAs.same.apply (View.read (Elt F)
      (((Memref.whole main_v0_scv : Memref sig .scVector .hbm S16x2048x2048 .f32).slice
          (Rect.unit (s := S16x2048x2048) (k0_off228 L (BitVec.ofNat 32 (64 * (⟨0, by decide⟩ : Fin 4).val))) S1x64x512.size (k0_off228_inb L ⟨0, by decide⟩))
          (fun _ => rfl)).squeeze S64x512 squeezes_S1x64x512_S64x512).view
      A) := rfl

theorem chunk_def_9 (d : Dev nD) (L : grid0.Coords) (A : Buf (Elt F) (aLoc d)) :
    chunk 9 d L A = ReadAs.same.apply (View.read (Elt F)
      (((Memref.whole main_v0_scv : Memref sig .scVector .hbm S16x2048x2048 .f32).slice
          (Rect.unit (s := S16x2048x2048) (k0_off228 L (BitVec.ofNat 32 (64 * (⟨1, by decide⟩ : Fin 4).val))) S1x64x512.size (k0_off228_inb L ⟨1, by decide⟩))
          (fun _ => rfl)).squeeze S64x512 squeezes_S1x64x512_S64x512).view
      A) := rfl

theorem chunk_def_10 (d : Dev nD) (L : grid0.Coords) (A : Buf (Elt F) (aLoc d)) :
    chunk 10 d L A = ReadAs.same.apply (View.read (Elt F)
      (((Memref.whole main_v0_scv : Memref sig .scVector .hbm S16x2048x2048 .f32).slice
          (Rect.unit (s := S16x2048x2048) (k0_off228 L (BitVec.ofNat 32 (64 * (⟨2, by decide⟩ : Fin 4).val))) S1x64x512.size (k0_off228_inb L ⟨2, by decide⟩))
          (fun _ => rfl)).squeeze S64x512 squeezes_S1x64x512_S64x512).view
      A) := rfl

theorem chunk_def_11 (d : Dev nD) (L : grid0.Coords) (A : Buf (Elt F) (aLoc d)) :
    chunk 11 d L A = ReadAs.same.apply (View.read (Elt F)
      (((Memref.whole main_v0_scv : Memref sig .scVector .hbm S16x2048x2048 .f32).slice
          (Rect.unit (s := S16x2048x2048) (k0_off228 L (BitVec.ofNat 32 (64 * (⟨3, by decide⟩ : Fin 4).val))) S1x64x512.size (k0_off228_inb L ⟨3, by decide⟩))
          (fun _ => rfl)).squeeze S64x512 squeezes_S1x64x512_S64x512).view
      A) := rfl

theorem chunk_def_12 (d : Dev nD) (L : grid0.Coords) (A : Buf (Elt F) (aLoc d)) :
    chunk 12 d L A = ReadAs.same.apply (View.read (Elt F)
      (((Memref.whole main_v0_scv : Memref sig .scVector .hbm S16x2048x2048 .f32).slice
          (Rect.unit (s := S16x2048x2048) (k0_off357 L (BitVec.ofNat 32 (64 * (⟨0, by decide⟩ : Fin 4).val))) S1x64x512.size (k0_off357_inb L ⟨0, by decide⟩))
          (fun _ => rfl)).squeeze S64x512 squeezes_S1x64x512_S64x512).view
      A) := rfl

theorem chunk_def_13 (d : Dev nD) (L : grid0.Coords) (A : Buf (Elt F) (aLoc d)) :
    chunk 13 d L A = ReadAs.same.apply (View.read (Elt F)
      (((Memref.whole main_v0_scv : Memref sig .scVector .hbm S16x2048x2048 .f32).slice
          (Rect.unit (s := S16x2048x2048) (k0_off357 L (BitVec.ofNat 32 (64 * (⟨1, by decide⟩ : Fin 4).val))) S1x64x512.size (k0_off357_inb L ⟨1, by decide⟩))
          (fun _ => rfl)).squeeze S64x512 squeezes_S1x64x512_S64x512).view
      A) := rfl

theorem chunk_def_14 (d : Dev nD) (L : grid0.Coords) (A : Buf (Elt F) (aLoc d)) :
    chunk 14 d L A = ReadAs.same.apply (View.read (Elt F)
      (((Memref.whole main_v0_scv : Memref sig .scVector .hbm S16x2048x2048 .f32).slice
          (Rect.unit (s := S16x2048x2048) (k0_off357 L (BitVec.ofNat 32 (64 * (⟨2, by decide⟩ : Fin 4).val))) S1x64x512.size (k0_off357_inb L ⟨2, by decide⟩))
          (fun _ => rfl)).squeeze S64x512 squeezes_S1x64x512_S64x512).view
      A) := rfl

theorem chunk_def_15 (d : Dev nD) (L : grid0.Coords) (A : Buf (Elt F) (aLoc d)) :
    chunk 15 d L A = ReadAs.same.apply (View.read (Elt F)
      (((Memref.whole main_v0_scv : Memref sig .scVector .hbm S16x2048x2048 .f32).slice
          (Rect.unit (s := S16x2048x2048) (k0_off357 L (BitVec.ofNat 32 (64 * (⟨3, by decide⟩ : Fin 4).val))) S1x64x512.size (k0_off357_inb L ⟨3, by decide⟩))
          (fun _ => rfl)).squeeze S64x512 squeezes_S1x64x512_S64x512).view
      A) := rfl

theorem chunk_def_16 (d : Dev nD) (L : grid0.Coords) (A : Buf (Elt F) (aLoc d)) :
    chunk 16 d L A = ReadAs.same.apply (View.read (Elt F)
      (((Memref.whole main_v0_scv : Memref sig .scVector .hbm S16x2048x2048 .f32).slice
          (Rect.unit (s := S16x2048x2048) (k0_off486 L (BitVec.ofNat 32 (64 * (⟨0, by decide⟩ : Fin 4).val))) S1x64x512.size (k0_off486_inb L ⟨0, by decide⟩))
          (fun _ => rfl)).squeeze S64x512 squeezes_S1x64x512_S64x512).view
      A) := rfl

theorem chunk_def_17 (d : Dev nD) (L : grid0.Coords) (A : Buf (Elt F) (aLoc d)) :
    chunk 17 d L A = ReadAs.same.apply (View.read (Elt F)
      (((Memref.whole main_v0_scv : Memref sig .scVector .hbm S16x2048x2048 .f32).slice
          (Rect.unit (s := S16x2048x2048) (k0_off486 L (BitVec.ofNat 32 (64 * (⟨1, by decide⟩ : Fin 4).val))) S1x64x512.size (k0_off486_inb L ⟨1, by decide⟩))
          (fun _ => rfl)).squeeze S64x512 squeezes_S1x64x512_S64x512).view
      A) := rfl

theorem chunk_def_18 (d : Dev nD) (L : grid0.Coords) (A : Buf (Elt F) (aLoc d)) :
    chunk 18 d L A = ReadAs.same.apply (View.read (Elt F)
      (((Memref.whole main_v0_scv : Memref sig .scVector .hbm S16x2048x2048 .f32).slice
          (Rect.unit (s := S16x2048x2048) (k0_off486 L (BitVec.ofNat 32 (64 * (⟨2, by decide⟩ : Fin 4).val))) S1x64x512.size (k0_off486_inb L ⟨2, by decide⟩))
          (fun _ => rfl)).squeeze S64x512 squeezes_S1x64x512_S64x512).view
      A) := rfl

theorem chunk_def_19 (d : Dev nD) (L : grid0.Coords) (A : Buf (Elt F) (aLoc d)) :
    chunk 19 d L A = ReadAs.same.apply (View.read (Elt F)
      (((Memref.whole main_v0_scv : Memref sig .scVector .hbm S16x2048x2048 .f32).slice
          (Rect.unit (s := S16x2048x2048) (k0_off486 L (BitVec.ofNat 32 (64 * (⟨3, by decide⟩ : Fin 4).val))) S1x64x512.size (k0_off486_inb L ⟨3, by decide⟩))
          (fun _ => rfl)).squeeze S64x512 squeezes_S1x64x512_S64x512).view
      A) := rfl

theorem chunk_def_20 (d : Dev nD) (L : grid0.Coords) (A : Buf (Elt F) (aLoc d)) :
    chunk 20 d L A = ReadAs.same.apply (View.read (Elt F)
      (((Memref.whole main_v0_scv : Memref sig .scVector .hbm S16x2048x2048 .f32).slice
          (Rect.unit (s := S16x2048x2048) (k0_off615 L (BitVec.ofNat 32 (64 * (⟨0, by decide⟩ : Fin 4).val))) S1x64x512.size (k0_off615_inb L ⟨0, by decide⟩))
          (fun _ => rfl)).squeeze S64x512 squeezes_S1x64x512_S64x512).view
      A) := rfl

theorem chunk_def_21 (d : Dev nD) (L : grid0.Coords) (A : Buf (Elt F) (aLoc d)) :
    chunk 21 d L A = ReadAs.same.apply (View.read (Elt F)
      (((Memref.whole main_v0_scv : Memref sig .scVector .hbm S16x2048x2048 .f32).slice
          (Rect.unit (s := S16x2048x2048) (k0_off615 L (BitVec.ofNat 32 (64 * (⟨1, by decide⟩ : Fin 4).val))) S1x64x512.size (k0_off615_inb L ⟨1, by decide⟩))
          (fun _ => rfl)).squeeze S64x512 squeezes_S1x64x512_S64x512).view
      A) := rfl

theorem chunk_def_22 (d : Dev nD) (L : grid0.Coords) (A : Buf (Elt F) (aLoc d)) :
    chunk 22 d L A = ReadAs.same.apply (View.read (Elt F)
      (((Memref.whole main_v0_scv : Memref sig .scVector .hbm S16x2048x2048 .f32).slice
          (Rect.unit (s := S16x2048x2048) (k0_off615 L (BitVec.ofNat 32 (64 * (⟨2, by decide⟩ : Fin 4).val))) S1x64x512.size (k0_off615_inb L ⟨2, by decide⟩))
          (fun _ => rfl)).squeeze S64x512 squeezes_S1x64x512_S64x512).view
      A) := rfl

theorem chunk_def_23 (d : Dev nD) (L : grid0.Coords) (A : Buf (Elt F) (aLoc d)) :
    chunk 23 d L A = ReadAs.same.apply (View.read (Elt F)
      (((Memref.whole main_v0_scv : Memref sig .scVector .hbm S16x2048x2048 .f32).slice
          (Rect.unit (s := S16x2048x2048) (k0_off615 L (BitVec.ofNat 32 (64 * (⟨3, by decide⟩ : Fin 4).val))) S1x64x512.size (k0_off615_inb L ⟨3, by decide⟩))
          (fun _ => rfl)).squeeze S64x512 squeezes_S1x64x512_S64x512).view
      A) := rfl

theorem chunk_def_24 (d : Dev nD) (L : grid0.Coords) (A : Buf (Elt F) (aLoc d)) :
    chunk 24 d L A = ReadAs.same.apply (View.read (Elt F)
      (((Memref.whole main_v0_scv : Memref sig .scVector .hbm S16x2048x2048 .f32).slice
          (Rect.unit (s := S16x2048x2048) (k0_off744 L (BitVec.ofNat 32 (64 * (⟨0, by decide⟩ : Fin 4).val))) S1x64x512.size (k0_off744_inb L ⟨0, by decide⟩))
          (fun _ => rfl)).squeeze S64x512 squeezes_S1x64x512_S64x512).view
      A) := rfl

theorem chunk_def_25 (d : Dev nD) (L : grid0.Coords) (A : Buf (Elt F) (aLoc d)) :
    chunk 25 d L A = ReadAs.same.apply (View.read (Elt F)
      (((Memref.whole main_v0_scv : Memref sig .scVector .hbm S16x2048x2048 .f32).slice
          (Rect.unit (s := S16x2048x2048) (k0_off744 L (BitVec.ofNat 32 (64 * (⟨1, by decide⟩ : Fin 4).val))) S1x64x512.size (k0_off744_inb L ⟨1, by decide⟩))
          (fun _ => rfl)).squeeze S64x512 squeezes_S1x64x512_S64x512).view
      A) := rfl

theorem chunk_def_26 (d : Dev nD) (L : grid0.Coords) (A : Buf (Elt F) (aLoc d)) :
    chunk 26 d L A = ReadAs.same.apply (View.read (Elt F)
      (((Memref.whole main_v0_scv : Memref sig .scVector .hbm S16x2048x2048 .f32).slice
          (Rect.unit (s := S16x2048x2048) (k0_off744 L (BitVec.ofNat 32 (64 * (⟨2, by decide⟩ : Fin 4).val))) S1x64x512.size (k0_off744_inb L ⟨2, by decide⟩))
          (fun _ => rfl)).squeeze S64x512 squeezes_S1x64x512_S64x512).view
      A) := rfl

theorem chunk_def_27 (d : Dev nD) (L : grid0.Coords) (A : Buf (Elt F) (aLoc d)) :
    chunk 27 d L A = ReadAs.same.apply (View.read (Elt F)
      (((Memref.whole main_v0_scv : Memref sig .scVector .hbm S16x2048x2048 .f32).slice
          (Rect.unit (s := S16x2048x2048) (k0_off744 L (BitVec.ofNat 32 (64 * (⟨3, by decide⟩ : Fin 4).val))) S1x64x512.size (k0_off744_inb L ⟨3, by decide⟩))
          (fun _ => rfl)).squeeze S64x512 squeezes_S1x64x512_S64x512).view
      A) := rfl

/-- (L2) word (i, j) of chunk n is the score of head 9 + n/4, row 256·r8 + 64·(n mod 4) + i, column c0 + j. -/
theorem chunk_eq (n : Fin 28) (d : Dev nD) (L : grid0.Coords) (A : Buf (Elt F) (aLoc d)) (i : Fin 64) (j : Fin 512)
    (h : Fin 16) (r c : Fin 2048) (hh : h.val = 9 + n.val / 4) (hr : r.val = 256 * r8 L + 64 * (n.val % 4) + i.val)
    (hc : c.val = c0 L + j.val) :
    chunk n d L A (ix2 i j) = A (ix3 h r c) := by
  rcases n with ⟨nv, hn⟩
  dsimp only at hh hr
  interval_cases nv
  · show chunk 0 d L A (ix2 i j) = _
    rw [chunk_def_0]; exact chunk_head9 d L 0 (by decide) A i j h r c (by omega) (by omega) hc
  · show chunk 1 d L A (ix2 i j) = _
    rw [chunk_def_1]; exact chunk_head9 d L 1 (by decide) A i j h r c (by omega) (by omega) hc
  · show chunk 2 d L A (ix2 i j) = _
    rw [chunk_def_2]; exact chunk_head9 d L 2 (by decide) A i j h r c (by omega) (by omega) hc
  · show chunk 3 d L A (ix2 i j) = _
    rw [chunk_def_3]; exact chunk_head9 d L 3 (by decide) A i j h r c (by omega) (by omega) hc
  · show chunk 4 d L A (ix2 i j) = _
    rw [chunk_def_4]; exact chunk_head10 d L 0 (by decide) A i j h r c (by omega) (by omega) hc
  · show chunk 5 d L A (ix2 i j) = _
    rw [chunk_def_5]; exact chunk_head10 d L 1 (by decide) A i j h r c (by omega) (by omega) hc
  · show chunk 6 d L A (ix2 i j) = _
    rw [chunk_def_6]; exact chunk_head10 d L 2 (by decide) A i j h r c (by omega) (by omega) hc
  · show chunk 7 d L A (ix2 i j) = _
    rw [chunk_def_7]; exact chunk_head10 d L 3 (by decide) A i j h r c (by omega) (by omega) hc
  · show chunk 8 d L A (ix2 i j) = _
    rw [chunk_def_8]; exact chunk_head11 d L 0 (by decide) A i j h r c (by omega) (by omega) hc
  · show chunk 9 d L A (ix2 i j) = _
    rw [chunk_def_9]; exact chunk_head11 d L 1 (by decide) A i j h r c (by omega) (by omega) hc
  · show chunk 10 d L A (ix2 i j) = _
    rw [chunk_def_10]; exact chunk_head11 d L 2 (by decide) A i j h r c (by omega) (by omega) hc
  · show chunk 11 d L A (ix2 i j) = _
    rw [chunk_def_11]; exact chunk_head11 d L 3 (by decide) A i j h r c (by omega) (by omega) hc
  · show chunk 12 d L A (ix2 i j) = _
    rw [chunk_def_12]; exact chunk_head12 d L 0 (by decide) A i j h r c (by omega) (by omega) hc
  · show chunk 13 d L A (ix2 i j) = _
    rw [chunk_def_13]; exact chunk_head12 d L 1 (by decide) A i j h r c (by omega) (by omega) hc
  · show chunk 14 d L A (ix2 i j) = _
    rw [chunk_def_14]; exact chunk_head12 d L 2 (by decide) A i j h r c (by omega) (by omega) hc
  · show chunk 15 d L A (ix2 i j) = _
    rw [chunk_def_15]; exact chunk_head12 d L 3 (by decide) A i j h r c (by omega) (by omega) hc
  · show chunk 16 d L A (ix2 i j) = _
    rw [chunk_def_16]; exact chunk_head13 d L 0 (by decide) A i j h r c (by omega) (by omega) hc
  · show chunk 17 d L A (ix2 i j) = _
    rw [chunk_def_17]; exact chunk_head13 d L 1 (by decide) A i j h r c (by omega) (by omega) hc
  · show chunk 18 d L A (ix2 i j) = _
    rw [chunk_def_18]; exact chunk_head13 d L 2 (by decide) A i j h r c (by omega) (by omega) hc
  · show chunk 19 d L A (ix2 i j) = _
    rw [chunk_def_19]; exact chunk_head13 d L 3 (by decide) A i j h r c (by omega) (by omega) hc
  · show chunk 20 d L A (ix2 i j) = _
    rw [chunk_def_20]; exact chunk_head14 d L 0 (by decide) A i j h r c (by omega) (by omega) hc
  · show chunk 21 d L A (ix2 i j) = _
    rw [chunk_def_21]; exact chunk_head14 d L 1 (by decide) A i j h r c (by omega) (by omega) hc
  · show chunk 22 d L A (ix2 i j) = _
    rw [chunk_def_22]; exact chunk_head14 d L 2 (by decide) A i j h r c (by omega) (by omega) hc
  · show chunk 23 d L A (ix2 i j) = _
    rw [chunk_def_23]; exact chunk_head14 d L 3 (by decide) A i j h r c (by omega) (by omega) hc
  · show chunk 24 d L A (ix2 i j) = _
    rw [chunk_def_24]; exact chunk_head15 d L 0 (by decide) A i j h r c (by omega) (by omega) hc
  · show chunk 25 d L A (ix2 i j) = _
    rw [chunk_def_25]; exact chunk_head15 d L 1 (by decide) A i j h r c (by omega) (by omega) hc
  · show chunk 26 d L A (ix2 i j) = _
    rw [chunk_def_26]; exact chunk_head15 d L 2 (by decide) A i j h r c (by omega) (by omega) hc
  · show chunk 27 d L A (ix2 i j) = _
    rw [chunk_def_27]; exact chunk_head15 d L 3 (by decide) A i j h r c (by omega) (by omega) hc

end Cert.KernelIdeal.TileIdeal

end
-- ==== Proof.TileIdealL3.lean ====
import proofs.«216449_g46943992545511_cont_8to1_c_491_21_alg».proof.Proof.TileIdealDefs
import Idealize.ShloMosaic.PureOps.Ideal
import Idealize.ShloMosaic.Lib.ValueIdx
import Idealize.ShloMosaic.Lib.Pipeline.Value

noncomputable section

namespace Cert.KernelIdeal.TileIdeal

open Cert.KernelIdeal Cert.KernelIdeal.Gen Cert.KernelIdeal.Setup Cert.KernelIdeal.TileValue
open Cert.KernelIdeal.Launch (outPiece pieceSet placeOf aLoc oLoc thrAt blockNo mem_pieceSet)
open Idealize.ShloMosaic Idealize.ShloMosaic.ValueIdx
open scoped BigOperators

variable {F : FTy → Type} [FloatOps F]

/-! ## (L3) the delivered vector of piece k is the accumulators of head 9 + k -/

omit [FloatOps F] in
theorem store_inb (i : Fin 32) : ∀ x, (![16 * (31 - i.val)] : Fin 1 → ℕ) x + S16.size x ≤ S512.size x := by
  intro x
  match x with
  | ⟨0, _⟩ => show 16 * (31 - i.val) + 16 ≤ 512; omega

/-- The 32 stores of a head, last first: store i (i = 0 the last) puts G (31 − i) at words 16·(31 − i) … + 15. -/
def stores (G : Fin 32 → S16.Idx → Elt F .f32) : List (View.Piece (Elt F) S512 .f32) :=
  List.ofFn fun i : Fin 32 => ⟨Rect.unit (s := S512) ![16 * (31 - i.val)] S16.size (store_inb i), G ⟨31 - i.val, by omega⟩⟩

/-- Reading back the 32 stores of 16 words (over whatever was stored before): word j is lane j mod 16 of store j / 16. -/
theorem read_stores {κ : Kind} {sp : Space} (v : View sig κ sp S512 .f32) (g : v.ty.Contents (Elt F))
    (G : Fin 32 → S16.Idx → Elt F .f32) (Lold : List (View.Piece (Elt F) S512 .f32)) (j : Fin 512) :
    v.read (Elt F) (v.writes (Elt F) g (stores G ++ Lold)) (ix1 j)
      = G ⟨j.val / 16, by omega⟩ (ix1 (⟨j.val % 16, Nat.mod_lt _ (by decide)⟩ : Fin 16)) := by
  rw [View.writes_append]
  refine (View.read_writes_apply_of_pieces (v := v) (f := v.writes (Elt F) g Lold)
    (fun y : S512.Idx => G ⟨(y 0).val / 16, Nat.div_lt_of_lt_mul (show (y 0).val < 16 * 32 from (y 0).isLt)⟩
      (ix1 (⟨(y 0).val % 16, Nat.mod_lt _ (by decide)⟩ : Fin 16))) (stores G) ?hG (ix1 j) ?hc)
  case hG =>
    intro p hp x
    obtain ⟨i, rfl⟩ := (List.mem_ofFn' _ _).1 hp
    show G ⟨31 - i.val, _⟩ x = _
    have he : (((Rect.unit (s := S512) ![16 * (31 - i.val)] S16.size (store_inb i)).emb x) 0).val = 16 * (31 - i.val) + (x 0).val := by
      rw [Rect.emb_apply]; simp [Rect.unit]
    have hx : (x 0).val < 16 := (x 0).isLt
    have h1 : (16 * (31 - i.val) + (x 0).val) / 16 = 31 - i.val := by omega
    have h2 : (16 * (31 - i.val) + (x 0).val) % 16 = (x 0).val := by omega
    have hi : (⟨31 - i.val, by omega⟩ : Fin 32) = ⟨(((Rect.unit (s := S512) ![16 * (31 - i.val)] S16.size (store_inb i)).emb x) 0).val / 16,
        Nat.div_lt_of_lt_mul (show _ < 16 * 32 from (((Rect.unit (s := S512) ![16 * (31 - i.val)] S16.size (store_inb i)).emb x) 0).isLt)⟩ :=
      Fin.ext (by show 31 - i.val = _ / 16; rw [he]; exact h1.symm)
    have hl : (x : S16.Idx) = ix1 (⟨(((Rect.unit (s := S512) ![16 * (31 - i.val)] S16.size (store_inb i)).emb x) 0).val % 16, Nat.mod_lt _ (by decide)⟩ : Fin 16) :=
      (eq_ix1 (n := 16) x).trans (congrArg ix1 (Fin.ext (by show (x 0).val = _ % 16; rw [he]; exact h2.symm)))
    exact congr (congrArg G hi) hl
  case hc =>
    refine ⟨⟨Rect.unit (s := S512) ![16 * (31 - (31 - j.val / 16))] S16.size (store_inb ⟨31 - j.val / 16, by omega⟩), G ⟨31 - (31 - j.val / 16), by omega⟩⟩,
      (List.mem_ofFn' _ _).2 ⟨⟨31 - j.val / 16, by omega⟩, rfl⟩, ?_⟩
    rw [Rect.mem_set_unit]
    intro a
    match a with
    | ⟨0, _⟩ =>
      show 16 * (31 - (31 - j.val / 16)) ≤ j.val ∧ j.val < 16 * (31 - (31 - j.val / 16)) + 16
      omega

/-- What head 9 + k stores: accumulator a, as the program casts it before the store. -/
def storedG (k : Fin 7) (d : Dev nD) (L : grid0.Coords) (A : Buf (Elt F) (aLoc d)) : Fin 32 → S16.Idx → Elt F .f32 :=
  fun a => shapeCast S16 (accAt (finalAcc k d L A) a) shapeCasts_S16_S16

set_option maxHeartbeats 4000000 in
/-- The stores of head 9 are its 32 accumulators, on top of the earlier heads' stores. -/
theorem split_0 (d : Dev nD) (L : grid0.Coords) (A : Buf (Elt F) (aLoc d)) :
    tileRun.sl.Hb2_32 d L A = stores (storedG 0 d L A) ++ [] := rfl

set_option maxHeartbeats 4000000 in
/-- The stores of head 10 are its 32 accumulators, on top of the earlier heads' stores. -/
theorem split_1 (d : Dev nD) (L : grid0.Coords) (A : Buf (Elt F) (aLoc d)) :
    tileRun.sl.Hb2_64 d L A = stores (storedG 1 d L A) ++ tileRun.sl.Hb2_32 d L A := rfl

set_option maxHeartbeats 4000000 in
/-- The stores of head 11 are its 32 accumulators, on top of the earlier heads' stores. -/
theorem split_2 (d : Dev nD) (L : grid0.Coords) (A : Buf (Elt F) (aLoc d)) :
    tileRun.sl.Hb2_96 d L A = stores (storedG 2 d L A) ++ tileRun.sl.Hb2_64 d L A := rfl

set_option maxHeartbeats 4000000 in
/-- The stores of head 12 are its 32 accumulators, on top of the earlier heads' stores. -/
theorem split_3 (d : Dev nD) (L : grid0.Coords) (A : Buf (Elt F) (aLoc d)) :
    tileRun.sl.Hb2_128 d L A = stores (storedG 3 d L A) ++ tileRun.sl.Hb2_96 d L A := rfl

set_option maxHeartbeats 4000000 in
/-- The stores of head 13 are its 32 accumulators, on top of the earlier heads' stores. -/
theorem split_4 (d : Dev nD) (L : grid0.Coords) (A : Buf (Elt F) (aLoc d)) :
    tileRun.sl.Hb2_160 d L A = stores (storedG 4 d L A) ++ tileRun.sl.Hb2_128 d L A := rfl

set_option maxHeartbeats 4000000 in
/-- The stores of head 14 are its 32 accumulators, on top of the earlier heads' stores. -/
theorem split_5 (d : Dev nD) (L : grid0.Coords) (A : Buf (Elt F) (aLoc d)) :
    tileRun.sl.Hb2_192 d L A = stores (storedG 5 d L A) ++ tileRun.sl.Hb2_160 d L A := rfl

set_option maxHeartbeats 4000000 in
/-- The stores of head 15 are its 32 accumulators, on top of the earlier heads' stores. -/
theorem split_6 (d : Dev nD) (L : grid0.Coords) (A : Buf (Elt F) (aLoc d)) :
    tileRun.sl.Hb2_224 d L A = stores (storedG 6 d L A) ++ tileRun.sl.Hb2_192 d L A := rfl

/-- The first copy-out delivers the staging scratch read back. -/
theorem pieceVal_read_0 (d : Dev nD) (L : grid0.Coords) (A : Buf (Elt F) (aLoc d)) :
    pieceVal 0 d L A = View.read (Elt F) (Memref.whole cc0_scratch2 : Memref sig .scVector .vmem S512 .f32).view (View.writes (Memref.whole cc0_scratch2 : Memref sig .scVector .vmem S512 .f32).view (Elt F) (Memref.whole cc0_scratch2 : Memref sig .scVector .vmem S512 .f32).view.junk (tileRun.sl.Hb2_32 d L A)) := rfl

theorem pieceVal_eq_0 (d : Dev nD) (L : grid0.Coords) (A : Buf (Elt F) (aLoc d)) (j : Fin 512) :
    pieceVal 0 d L A (ix1 j)
      = accAt (finalAcc 0 d L A) ⟨j.val / 16, by omega⟩ (ix1 (⟨j.val % 16, Nat.mod_lt _ (by decide)⟩ : Fin 16)) := by
  rw [pieceVal_read_0, split_0, read_stores]
  exact congrFun (shapeCast_self _ _) _

/-- The next copy-out delivers the staging scratch read back. -/
theorem pieceVal_read_1 (d : Dev nD) (L : grid0.Coords) (A : Buf (Elt F) (aLoc d)) :
    pieceVal 1 d L A = View.read (Elt F) (Memref.whole cc0_scratch2 : Memref sig .scVector .vmem S512 .f32).view (View.writes (Memref.whole cc0_scratch2 : Memref sig .scVector .vmem S512 .f32).view (Elt F) (Memref.whole cc0_scratch2 : Memref sig .scVector .vmem S512 .f32).view.junk (tileRun.sl.Hb2_64 d L A)) := rfl

theorem pieceVal_eq_1 (d : Dev nD) (L : grid0.Coords) (A : Buf (Elt F) (aLoc d)) (j : Fin 512) :
    pieceVal 1 d L A (ix1 j)
      = accAt (finalAcc 1 d L A) ⟨j.val / 16, by omega⟩ (ix1 (⟨j.val % 16, Nat.mod_lt _ (by decide)⟩ : Fin 16)) := by
  rw [pieceVal_read_1, split_1, read_stores]
  exact congrFun (shapeCast_self _ _) _

/-- The next copy-out delivers the staging scratch read back. -/
theorem pieceVal_read_2 (d : Dev nD) (L : grid0.Coords) (A : Buf (Elt F) (aLoc d)) :
    pieceVal 2 d L A = View.read (Elt F) (Memref.whole cc0_scratch2 : Memref sig .scVector .vmem S512 .f32).view (View.writes (Memref.whole cc0_scratch2 : Memref sig .scVector .vmem S512 .f32).view (Elt F) (Memref.whole cc0_scratch2 : Memref sig .scVector .vmem S512 .f32).view.junk (tileRun.sl.Hb2_96 d L A)) := rfl

theorem pieceVal_eq_2 (d : Dev nD) (L : grid0.Coords) (A : Buf (Elt F) (aLoc d)) (j : Fin 512) :
    pieceVal 2 d L A (ix1 j)
      = accAt (finalAcc 2 d L A) ⟨j.val / 16, by omega⟩ (ix1 (⟨j.val % 16, Nat.mod_lt _ (by decide)⟩ : Fin 16)) := by
  rw [pieceVal_read_2, split_2, read_stores]
  exact congrFun (shapeCast_self _ _) _

/-- The next copy-out delivers the staging scratch read back. -/
theorem pieceVal_read_3 (d : Dev nD) (L : grid0.Coords) (A : Buf (Elt F) (aLoc d)) :
    pieceVal 3 d L A = View.read (Elt F) (Memref.whole cc0_scratch2 : Memref sig .scVector .vmem S512 .f32).view (View.writes (Memref.whole cc0_scratch2 : Memref sig .scVector .vmem S512 .f32).view (Elt F) (Memref.whole cc0_scratch2 : Memref sig .scVector .vmem S512 .f32).view.junk (tileRun.sl.Hb2_128 d L A)) := rfl

theorem pieceVal_eq_3 (d : Dev nD) (L : grid0.Coords) (A : Buf (Elt F) (aLoc d)) (j : Fin 512) :
    pieceVal 3 d L A (ix1 j)
      = accAt (finalAcc 3 d L A) ⟨j.val / 16, by omega⟩ (ix1 (⟨j.val % 16, Nat.mod_lt _ (by decide)⟩ : Fin 16)) := by
  rw [pieceVal_read_3, split_3, read_stores]
  exact congrFun (shapeCast_self _ _) _

/-- The next copy-out delivers the staging scratch read back. -/
theorem pieceVal_read_4 (d : Dev nD) (L : grid0.Coords) (A : Buf (Elt F) (aLoc d)) :
    pieceVal 4 d L A = View.read (Elt F) (Memref.whole cc0_scratch2 : Memref sig .scVector .vmem S512 .f32).view (View.writes (Memref.whole cc0_scratch2 : Memref sig .scVector .vmem S512 .f32).view (Elt F) (Memref.whole cc0_scratch2 : Memref sig .scVector .vmem S512 .f32).view.junk (tileRun.sl.Hb2_160 d L A)) := rfl

theorem pieceVal_eq_4 (d : Dev nD) (L : grid0.Coords) (A : Buf (Elt F) (aLoc d)) (j : Fin 512) :
    pieceVal 4 d L A (ix1 j)
      = accAt (finalAcc 4 d L A) ⟨j.val / 16, by omega⟩ (ix1 (⟨j.val % 16, Nat.mod_lt _ (by decide)⟩ : Fin 16)) := by
  rw [pieceVal_read_4, split_4, read_stores]
  exact congrFun (shapeCast_self _ _) _

/-- The next copy-out delivers the staging scratch read back. -/
theorem pieceVal_read_5 (d : Dev nD) (L : grid0.Coords) (A : Buf (Elt F) (aLoc d)) :
    pieceVal 5 d L A = View.read (Elt F) (Memref.whole cc0_scratch2 : Memref sig .scVector .vmem S512 .f32).view (View.writes (Memref.whole cc0_scratch2 : Memref sig .scVector .vmem S512 .f32).view (Elt F) (Memref.whole cc0_scratch2 : Memref sig .scVector .vmem S512 .f32).view.junk (tileRun.sl.Hb2_192 d L A)) := rfl

theorem pieceVal_eq_5 (d : Dev nD) (L : grid0.Coords) (A : Buf (Elt F) (aLoc d)) (j : Fin 512) :
    pieceVal 5 d L A (ix1 j)
      = accAt (finalAcc 5 d L A) ⟨j.val / 16, by omega⟩ (ix1 (⟨j.val % 16, Nat.mod_lt _ (by decide)⟩ : Fin 16)) := by
  rw [pieceVal_read_5, split_5, read_stores]
  exact congrFun (shapeCast_self _ _) _

/-- The next copy-out delivers the staging scratch read back. -/
theorem pieceVal_read_6 (d : Dev nD) (L : grid0.Coords) (A : Buf (Elt F) (aLoc d)) :
    pieceVal 6 d L A = View.read (Elt F) (Memref.whole cc0_scratch2 : Memref sig .scVector .vmem S512 .f32).view (View.writes (Memref.whole cc0_scratch2 : Memref sig .scVector .vmem S512 .f32).view (Elt F) (Memref.whole cc0_scratch2 : Memref sig .scVector .vmem S512 .f32).view.junk (tileRun.sl.Hb2_224 d L A)) := rfl

theorem pieceVal_eq_6 (d : Dev nD) (L : grid0.Coords) (A : Buf (Elt F) (aLoc d)) (j : Fin 512) :
    pieceVal 6 d L A (ix1 j)
      = accAt (finalAcc 6 d L A) ⟨j.val / 16, by omega⟩ (ix1 (⟨j.val % 16, Nat.mod_lt _ (by decide)⟩ : Fin 16)) := by
  rw [pieceVal_read_6, split_6, read_stores]
  exact congrFun (shapeCast_self _ _) _

/-- (L3) word j of what the k-th copy-out delivers is lane j mod 16 of accumulator j / 16. -/
theorem pieceVal_eq (k : Fin 7) (d : Dev nD) (L : grid0.Coords) (A : Buf (Elt F) (aLoc d)) (j : Fin 512) :
    pieceVal k d L A (ix1 j)
      = accAt (finalAcc k d L A) ⟨j.val / 16, by omega⟩ (ix1 (⟨j.val % 16, Nat.mod_lt _ (by decide)⟩ : Fin 16)) := by
  fin_cases k
  · exact pieceVal_eq_0 d L A j
  · exact pieceVal_eq_1 d L A j
  · exact pieceVal_eq_2 d L A j
  · exact pieceVal_eq_3 d L A j
  · exact pieceVal_eq_4 d L A j
  · exact pieceVal_eq_5 d L A j
  · exact pieceVal_eq_6 d L A j

end Cert.KernelIdeal.TileIdeal

end
-- ==== Proof.TileIdealL4.lean ====
/-
  The result array at a word of a piece, and the place that owns a column of a band.

  The column-sum array is 224 blocks of 512 words; piece k of the tile at place L is block 32 k + 2 (L 1) + (L 0), the
  unit-stride slice of 512 words from word 512 times that number. The array the tiles leave is defined word by word from
  the word's block number: the place and the piece that own the block, and that piece's one write read at the word. For
  word j of piece k of the tile at L the block number is blockNo L k, which names L and k back, and the one write through
  the whole of the piece, read at the word the slice places j at, is the delivered vector's word j.

  Column c of band b belongs to the tile number 4 b + c / 512 of the 32: its place has first coordinate the number's
  parity and second its half, so its row band is b, its first column 512 (c / 512), and its piece k is block
  32 k + 4 b + c / 512.
-/
import proofs.«216449_g46943992545511_cont_8to1_c_491_21_alg».proof.Proof.TileIdealDefs
import Idealize.ShloMosaic.PureOps.Ideal
import Idealize.ShloMosaic.Lib.ValueIdx

noncomputable section

namespace Cert.KernelIdeal.TileIdeal

open Cert.KernelIdeal Cert.KernelIdeal.Gen Cert.KernelIdeal.Setup Cert.KernelIdeal.TileValue
open Cert.KernelIdeal.Launch (outPiece pieceSet placeOf aLoc oLoc thrAt blockNo mem_pieceSet)
open Idealize.ShloMosaic Idealize.ShloMosaic.ValueIdx
open scoped BigOperators

variable {F : FTy → Type} [FloatOps F]

/-! ## (L4) the result array at a word of a piece -/

/-- Word `j` of piece `k` of the tile at `L` sits at index `512 · blockNo L k + j` of the array: the piece is the
    unit-stride slice of 512 words from that first word. -/
theorem outPiece_emb (L : grid0.Coords) (k : Fin 7) (j : Fin 512) (x : Fin 114688) (hx : x.val = 512 * blockNo L k + j.val) :
    (outPiece L k).view.emb ((Rect.whole S512).emb (ix1 j)) = (ix1 x : S114688.Idx) := by
  rw [Rect.emb_whole_apply]
  exact funext fun a => Fin.ext (by
    match a with
    | ⟨0, _⟩ =>
      show k0_off131 L (BitVec.ofNat 32 (8 * k.val)) 0 + 1 * j.val = x.val
      rw [Launch.off_eq]; omega)

/-- (L4a) a word of piece k of the tile at L holds the delivered vector's word. -/
theorem colArrD_at (d : Dev nD) (Ac : Buf (Elt F) (aLoc d)) (L : grid0.Coords) (k : Fin 7) (j : Fin 512) (x : Fin 114688)
    (hx : x.val = 512 * blockNo L k + j.val) :
    colArrD d Ac (ix1 x) = pieceVal k d L Ac (ix1 j) := by
  have hj := j.isLt
  have hblk : x.val / 512 = blockNo L k := by omega
  obtain ⟨hL, hk⟩ := owner_block L k
  -- the word's block number names this place and this piece
  have key : ∀ (L' : grid0.Coords) (k' : Fin 7), L' = L → k' = k →
      (outPiece L' k').view.writes (Elt F) (outPiece L' k').view.junk [⟨Rect.whole _, pieceVal k' d L' Ac⟩] (ix1 x)
        = (outPiece L k).view.writes (Elt F) (outPiece L k).view.junk [⟨Rect.whole _, pieceVal k d L Ac⟩] (ix1 x) := by
    rintro _ _ rfl rfl; rfl
  have h1 : colArrD d Ac (ix1 x)
      = (outPiece L k).view.writes (Elt F) (outPiece L k).view.junk [⟨Rect.whole _, pieceVal k d L Ac⟩] (ix1 x) := by
    unfold colArrD
    exact key _ _ (by show placeOfBlk (x.val / 512) = L; rw [hblk]; exact hL) (by show pieceOfBlk (x.val / 512) = k; rw [hblk]; exact hk)
  rw [h1, ← outPiece_emb L k j x hx]
  -- the piece's one write, over anything, read back at the word
  exact View.read_writes_cons_emb (outPiece L k).view (outPiece L k).view.junk (Rect.whole _) (pieceVal k d L Ac) [] (ix1 j)

/-- (L4b) the place that owns column c of band b: r8 = b, c0 = 512·(c / 512), block 32·k + 4·b + c / 512. -/
theorem place_of_band (b : Fin 8) (c : Fin 2048) :
    ∃ L : grid0.Coords, r8 L = b.val ∧ c0 L = 512 * (c.val / 512) ∧ ∀ k : Fin 7, blockNo L k = 32 * k.val + 4 * b.val + c.val / 512 := by
  have hb := b.isLt
  have hc := c.isLt
  refine ⟨placeOf ⟨(4 * b.val + c.val / 512) % 2, Nat.mod_lt _ (by decide)⟩ ⟨(4 * b.val + c.val / 512) / 2, by omega⟩, ?_, ?_, fun k => ?_⟩
  · show (2 * ((4 * b.val + c.val / 512) / 2) + (4 * b.val + c.val / 512) % 2) / 4 = b.val
    omega
  · show 512 * ((2 * ((4 * b.val + c.val / 512) / 2) + (4 * b.val + c.val / 512) % 2) % 4) = 512 * (c.val / 512)
    omega
  · show 32 * k.val + 2 * ((4 * b.val + c.val / 512) / 2) + (4 * b.val + c.val / 512) % 2 = 32 * k.val + 4 * b.val + c.val / 512
    omega

end Cert.KernelIdeal.TileIdeal

end
-- ==== Proof.TileIdeal.lean ====
/-
  THE CLOSED FORM of the result array the tiles leave, at the exact instance. Word (k·8 + b)·2048 + c of the array — head
  9 + k, row band b, column c — is the sum of that column of the scores over the band's 256 rows, taken as four chunks of
  64 rows: the word belongs to piece k of the tile that owns band b and the 512 columns around c; the piece delivers the
  head's 32 accumulators of 16 lanes; each accumulator is four folds of 64 rows from zero, every fold the generic one;
  a generic fold at the exact instance is a sum over its rows; and a chunk's rows are rows of the scores.
-/
import proofs.«216449_g46943992545511_cont_8to1_c_491_21_alg».proof.Proof.TileIdealL0
import proofs.«216449_g46943992545511_cont_8to1_c_491_21_alg».proof.Proof.TileIdealL1
import proofs.«216449_g46943992545511_cont_8to1_c_491_21_alg».proof.Proof.TileIdealL2
import proofs.«216449_g46943992545511_cont_8to1_c_491_21_alg».proof.Proof.TileIdealL3
import proofs.«216449_g46943992545511_cont_8to1_c_491_21_alg».proof.Proof.TileIdealL4
import Idealize.ShloMosaic.PureOps.Ideal
import Idealize.ShloMosaic.Lib.ValueIdx

noncomputable section

namespace Cert.KernelIdeal.TileIdeal

open Cert.KernelIdeal Cert.KernelIdeal.Gen Cert.KernelIdeal.Setup Cert.KernelIdeal.TileValue
open Cert.KernelIdeal.Launch (outPiece pieceSet placeOf aLoc oLoc thrAt blockNo mem_pieceSet)
open Idealize.ShloMosaic Idealize.ShloMosaic.ValueIdx
open scoped BigOperators

variable {F : FTy → Type} [FloatOps F]

/-! ## A head's accumulators: four generic folds of 64 rows from zero -/

/-- Four chunks folded in order, alternating between the two buffers, from zero. -/
def fold4 (w0 w1 w2 w3 : S64x512.Idx → Elt F .f32) : Acc F :=
  rowsFoldG (Memref.whole cc0_scratch1) w3 64 (rowsFoldG (Memref.whole cc0_scratch0) w2 64
    (rowsFoldG (Memref.whole cc0_scratch1) w1 64 (rowsFoldG (Memref.whole cc0_scratch0) w0 64 zeroAcc)))

theorem chunk_lt (k : Fin 7) (m : Fin 4) : 4 * k.val + m.val < 28 := by have := k.isLt; have := m.isLt; omega

/-- Head 9 + k's accumulators are the four generic folds of its chunks 4k … 4k + 3. -/
theorem finalAcc_0 (d : Dev nD) (L : grid0.Coords) (A : Buf (Elt F) (aLoc d)) :
    finalAcc 0 d L A = fold4 (chunk 0 d L A) (chunk 1 d L A) (chunk 2 d L A) (chunk 3 d L A) := by
  unfold finalAcc fold4
  simp only [Matrix.cons_val]
  rw [rowsFold_t4_eq, rowsFold_t3_eq, rowsFold_t2_eq, rowsFold_t1_eq, show k0_t4_loop.trips = 64 from by decide]
theorem finalAcc_1 (d : Dev nD) (L : grid0.Coords) (A : Buf (Elt F) (aLoc d)) :
    finalAcc 1 d L A = fold4 (chunk 4 d L A) (chunk 5 d L A) (chunk 6 d L A) (chunk 7 d L A) := by
  unfold finalAcc fold4
  simp only [Matrix.cons_val]
  rw [rowsFold_t8_eq, rowsFold_t7_eq, rowsFold_t6_eq, rowsFold_t5_eq, show k0_t8_loop.trips = 64 from by decide]
theorem finalAcc_2 (d : Dev nD) (L : grid0.Coords) (A : Buf (Elt F) (aLoc d)) :
    finalAcc 2 d L A = fold4 (chunk 8 d L A) (chunk 9 d L A) (chunk 10 d L A) (chunk 11 d L A) := by
  unfold finalAcc fold4
  simp only [Matrix.cons_val]
  rw [rowsFold_t12_eq, rowsFold_t11_eq, rowsFold_t10_eq, rowsFold_t9_eq, show k0_t12_loop.trips = 64 from by decide]
theorem finalAcc_3 (d : Dev nD) (L : grid0.Coords) (A : Buf (Elt F) (aLoc d)) :
    finalAcc 3 d L A = fold4 (chunk 12 d L A) (chunk 13 d L A) (chunk 14 d L A) (chunk 15 d L A) := by
  unfold finalAcc fold4
  simp only [Matrix.cons_val]
  rw [rowsFold_t16_eq, rowsFold_t15_eq, rowsFold_t14_eq, rowsFold_t13_eq, show k0_t16_loop.trips = 64 from by decide]
theorem finalAcc_4 (d : Dev nD) (L : grid0.Coords) (A : Buf (Elt F) (aLoc d)) :
    finalAcc 4 d L A = fold4 (chunk 16 d L A) (chunk 17 d L A) (chunk 18 d L A) (chunk 19 d L A) := by
  unfold finalAcc fold4
  simp only [Matrix.cons_val]
  rw [rowsFold_t20_eq, rowsFold_t19_eq, rowsFold_t18_eq, rowsFold_t17_eq, show k0_t20_loop.trips = 64 from by decide]
theorem finalAcc_5 (d : Dev nD) (L : grid0.Coords) (A : Buf (Elt F) (aLoc d)) :
    finalAcc 5 d L A = fold4 (chunk 20 d L A) (chunk 21 d L A) (chunk 22 d L A) (chunk 23 d L A) := by
  unfold finalAcc fold4
  simp only [Matrix.cons_val]
  rw [rowsFold_t24_eq, rowsFold_t23_eq, rowsFold_t22_eq, rowsFold_t21_eq, show k0_t24_loop.trips = 64 from by decide]
theorem finalAcc_6 (d : Dev nD) (L : grid0.Coords) (A : Buf (Elt F) (aLoc d)) :
    finalAcc 6 d L A = fold4 (chunk 24 d L A) (chunk 25 d L A) (chunk 26 d L A) (chunk 27 d L A) := by
  unfold finalAcc fold4
  simp only [Matrix.cons_val]
  rw [rowsFold_t28_eq, rowsFold_t27_eq, rowsFold_t26_eq, rowsFold_t25_eq, show k0_t28_loop.trips = 64 from by decide]

/-- Head 9 + k's accumulators are the four generic folds of its chunks 4k … 4k + 3. -/
theorem finalAcc_eq (k : Fin 7) (d : Dev nD) (L : grid0.Coords) (A : Buf (Elt F) (aLoc d)) :
    finalAcc k d L A = fold4 (chunk ⟨4 * k.val + 0, chunk_lt k 0⟩ d L A) (chunk ⟨4 * k.val + 1, chunk_lt k 1⟩ d L A)
      (chunk ⟨4 * k.val + 2, chunk_lt k 2⟩ d L A) (chunk ⟨4 * k.val + 3, chunk_lt k 3⟩ d L A) := by
  obtain ⟨kv, hk⟩ := k
  interval_cases kv
  · exact finalAcc_0 d L A
  · exact finalAcc_1 d L A
  · exact finalAcc_2 d L A
  · exact finalAcc_3 d L A
  · exact finalAcc_4 d L A
  · exact finalAcc_5 d L A
  · exact finalAcc_6 d L A

/-- At the ideal instance lane l of accumulator a after the four folds is the sum, chunk by chunk, of column 16·a + l over
    the chunk's 64 rows. -/
theorem fold4_ideal (w0 w1 w2 w3 : S64x512.Idx → Elt Ideal .f32) (a : Fin 32) (l : Fin 16) :
    (show EReal from accAt (fold4 (F := Ideal) w0 w1 w2 w3) a (ix1 l))
      = (∑ i : Fin 64, (show EReal from w0 (ix2 i (⟨16 * a.val + l.val, by omega⟩ : Fin 512))))
        + (∑ i : Fin 64, (show EReal from w1 (ix2 i (⟨16 * a.val + l.val, by omega⟩ : Fin 512))))
        + (∑ i : Fin 64, (show EReal from w2 (ix2 i (⟨16 * a.val + l.val, by omega⟩ : Fin 512))))
        + (∑ i : Fin 64, (show EReal from w3 (ix2 i (⟨16 * a.val + l.val, by omega⟩ : Fin 512)))) := by
  unfold fold4
  show accAt _ a (ix1 l) = _
  rw [rowsFoldG_sum1, rowsFoldG_sum0, rowsFoldG_sum1, rowsFoldG_sum0, zeroAcc_ideal, zero_add]

/-- (L4) THE CLOSED FORM at the ideal instance, in the form the value bridge takes (no leading 0 +). -/
theorem colArr_ideal (d : Dev nD) (Ac : Buf (Elt Ideal) (aLoc d)) (k : Fin 7) (b : Fin 8) (c : Fin 2048) :
    (show EReal from colArrD (F := Ideal) d Ac (ix1 (⟨(k.val * 8 + b.val) * 2048 + c.val, by omega⟩ : Fin 114688)))
      = ∑ n : Fin 4, ∑ i : Fin 64,
          (show EReal from Ac (ix3 (⟨9 + k.val, by omega⟩ : Fin 16) (⟨256 * b.val + 64 * n.val + i.val, by omega⟩ : Fin 2048) c)) := by
  obtain ⟨L, hr8, hc0, hblk⟩ := place_of_band b c
  have hk := k.isLt; have hb := b.isLt; have hc := c.isLt
  have hj : c.val % 512 < 512 := Nat.mod_lt _ (by decide)
  have hx : ((⟨(k.val * 8 + b.val) * 2048 + c.val, by omega⟩ : Fin 114688)).val = 512 * blockNo L k + (⟨c.val % 512, hj⟩ : Fin 512).val := by
    show (k.val * 8 + b.val) * 2048 + c.val = 512 * blockNo L k + c.val % 512
    rw [hblk k]; omega
  rw [colArrD_at d Ac L k ⟨c.val % 512, hj⟩ _ hx, pieceVal_eq k d L Ac ⟨c.val % 512, hj⟩, finalAcc_eq k d L Ac]
  refine (fold4_ideal _ _ _ _ _ _).trans ?_
  rw [Fin.sum_univ_four]
  have hcol : ∀ i : Fin 64, ∀ m : Fin 4,
      (show EReal from chunk ⟨4 * k.val + m.val, chunk_lt k m⟩ d L Ac (ix2 i (⟨16 * (c.val % 512 / 16) + c.val % 512 % 16, by omega⟩ : Fin 512)))
        = (show EReal from Ac (ix3 (⟨9 + k.val, by omega⟩ : Fin 16) (⟨256 * b.val + 64 * m.val + i.val, by have := i.isLt; have := m.isLt; omega⟩ : Fin 2048) c)) := by
    intro i m
    have := i.isLt; have := m.isLt
    exact congrArg (fun x => (show EReal from x)) (chunk_eq ⟨4 * k.val + m.val, chunk_lt k m⟩ d L Ac i _ _ _ c
      (by show 9 + k.val = 9 + (4 * k.val + m.val) / 4; omega)
      (by show 256 * b.val + 64 * m.val + i.val = 256 * r8 L + 64 * ((4 * k.val + m.val) % 4) + i.val; rw [hr8]; omega)
      (by show c.val = c0 L + (16 * (c.val % 512 / 16) + c.val % 512 % 16); rw [hc0]; omega))
  congr 1
  · congr 1
    · congr 1
      · exact Finset.sum_congr rfl fun i _ => hcol i 0
      · exact Finset.sum_congr rfl fun i _ => hcol i 1
    · exact Finset.sum_congr rfl fun i _ => hcol i 2
  · exact Finset.sum_congr rfl fun i _ => hcol i 3

end Cert.KernelIdeal.TileIdeal

end
-- ==== Proof.Bits.Setup.lean ====
/-
  The program as the SparseCore launch theorem sees it, and the ghost state the certificate runs over.

  The body table is the TensorCore pipelines' table over the kernels' own (two pallas_calls); the SparseCore
  configuration adds one vector-subcore call on top of it. The ghost state has three independent components:
  the launch handshakes' rounds, the two pipelines' staging cells' rounds, and the counters of the tiles'
  local copies (each tile only copies between HBM and its own memory and waits for its own copies, so no
  schedule between threads is needed for them).
-/
import proofs.«216449_g46943992545511_cont_8to1_c_491_21_alg».proof.Kernel
import proofs.«216449_g46943992545511_cont_8to1_c_491_21_alg».proof.Proof.Gen.Kernel
import Idealize.ShloMosaic.Lib.SparseCore.Launch
import Idealize.ShloMosaic.Lib.Pipeline.Kit
import Idealize.ShloMosaic.Lib.Transfers

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, staging cells, and the local copies' counters side by side. -/
abbrev UU : Type := UH × (UP × Counters)

abbrev 𝕄F (F : FTy → Type) : Type := MT nD τ sig (HIx 1) (Elt F) ℕ UU ℕ

abbrev EH : Emb UH (𝕄F F) := embL
def EP : Emb UP (𝕄F F) := (Emb.inl : Emb UP (UP × Counters)).trans (embR : Emb (UP × Counters) (𝕄F F))

instance EP_landsIn : (EP : Emb UP (𝕄F F)).LandsIn (upEmb : UEmb _ (𝕄F F)) := by unfold EP; infer_instance

end Cert.Kernel.Setup

end
-- ==== Proof.Bits.Pay.lean ====
/-
  What the SparseCore call's handshakes carry: the arrays, the places of the tile grid, the pieces of the
  column-sum array each tile writes, the read shares of the scores, and the call's payloads.
-/
import proofs.«216449_g46943992545511_cont_8to1_c_491_21_alg».proof.Proof.Bits.Setup
import proofs.«216449_g46943992545511_cont_8to1_c_491_21_alg».proof.Proof.Gen.Kernel.Launch
import proofs.«216449_g46943992545511_cont_8to1_c_491_21_alg».proof.Proof.Gen.Kernel.Points
import Idealize.ShloMosaic.Lib.SparseCore.Launch
import Idealize.ShloMosaic.Lib.Pipeline.Regions
import Idealize.ShloMosaic.Lib.Pipeline.Frame
import Idealize.ShloMosaic.Lib.StableHlo.Run
import Idealize.ShloMosaic.Lib.Pipeline.Kit
import Idealize.ShloMosaic.Lib.Tactic

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)

/-! ## The arrays -/

/-- The reshaped scores and the column-sum array, as the TensorCore names them. -/
abbrev aLoc (d : Dev nD) : Loc nD τ sig := (SparseCore.T d).loc main_v0
abbrev oLoc (d : Dev nD) : Loc nD τ sig := (SparseCore.T d).loc main_v1

/-- A place of the tile grid from its two coordinates. -/
abbrev coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

variable [FloatOps F]

/-- Piece `k` of the column-sum array that the tile at place `L` writes: 512 words. -/
abbrev outPiece (L : grid0.Coords) (k : Fin 7) : Memref sig .scVector .hbm S512 .f32 :=
  (Memref.whole main_v1_scv).slice (Rect.unit (s := S114688) (k0_off131 L (BitVec.ofNat 32 (8 * k.val))) S512.size (k0_off131_inb L k)) (fun _ => rfl)

abbrev pieceSet (L : grid0.Coords) (k : Fin 7) : Finset S114688.Idx := (outPiece L k).view.set

/-- The reshape of the scores, as @main's first line states it. -/
abbrev opReshape : HloOp τ sig (Elt F) := StableHlo.reshape main_arg2 main_v0 rfl shapeCasts_S1x16x2048x2048_S16x2048x2048

/-- The launch valuation of a device, and the one after the reshape. -/
def W0 (d : Dev nD) : Valuation τ sig (Elt F) := fun b => m (d, b)
def W1 (d : Dev nD) : Valuation τ sig (Elt F) := (opReshape (F := F)).result (W0 m d)

/-- The reshaped scores' contents. -/
def A (d : Dev nD) : Buf (Elt F) (aLoc d) := W1 m d (Proc.devRef .tc (main_v0 : Ref sig .tc))

/-! ## What the handshakes carry -/

-- what the column-sum array holds after the call: a parameter here, fixed by the tiles' bodies
variable (colS : (d : Dev nD) → Buf (Elt F) (oLoc d))

/-- The read share of the scores a SparseCore is dealt, and the one each of its tiles is. -/
abbrev qCore (c : Fin 2) : PosShare TreeShare := shareTok fullShare 2 c
abbrev qTile (c : Fin 2) (i : Fin 16) : PosShare TreeShare := shareTok (qCore c) 16 i

abbrev placeOf (c : Fin 2) (i : Fin 16) : grid0.Coords := coordsV (Fin.cast bound_zero.symm c) (Fin.cast bound_one.symm i)

/-- A tile's task: its read share of the scores and its seven pieces, at anything; -/
def goR (d : Dev nD) (c : Fin 2) (i : Fin 16) : sProp 𝕄 :=
  iprop((aLoc d ↦{qTile c i} A m d) ∗ bigSep Finset.univ fun k : Fin 7 => iprop(∃ f, oLoc d ↦[pieceSet (placeOf c i) k]{fullShare} f))
/-- and what it hands back: the pieces at the column sums. -/
def tdR (d : Dev nD) (c : Fin 2) (i : Fin 16) : sProp 𝕄 :=
  iprop((aLoc d ↦{qTile c i} A m d) ∗ bigSep Finset.univ fun k : Fin 7 => oLoc d ↦[pieceSet (placeOf c i) k]{fullShare} colS d)
/-- A SparseCore's operands: its read share and its sixteen tiles' pieces; -/
def stR (d : Dev nD) (c : Fin 2) : sProp 𝕄 :=
  iprop((aLoc d ↦{qCore c} A m d) ∗ bigSep Finset.univ fun i : Fin 16 => bigSep Finset.univ fun k : Fin 7 => iprop(∃ f, oLoc d ↦[pieceSet (placeOf c i) k]{fullShare} f))
/-- and its results. -/
def dnR (d : Dev nD) (c : Fin 2) : sProp 𝕄 :=
  iprop((aLoc d ↦{qCore c} A m d) ∗ bigSep Finset.univ fun i : Fin 16 => bigSep Finset.univ fun k : Fin 7 => oLoc d ↦[pieceSet (placeOf c i) k]{fullShare} colS d)

def P : (K (F := F)).Pay (nD := nD) (Val := Elt F) (Name := ℕ) (U := UU) where
  st := fun q d c => match q with | 0 => stR m d (Fin.cast nCore_zero c)
  dn := fun q d c => match q with | 0 => dnR m colS d (Fin.cast nCore_zero c)
  go := fun q d c i => match q with | 0 => goR m d (Fin.cast nCore_zero c) (Fin.cast nSub_zero i)
  td := fun q d c i => match q with | 0 => tdR m colS d (Fin.cast nCore_zero c) (Fin.cast nSub_zero i)
  x := fun _ _ => iprop(emp)

instance P_storable : (P (F := F) m colS).IsStorable where
  st q d c := match q with | 0 => by unfold P stR; infer_instance
  dn q d c := match q with | 0 => by unfold P dnR; infer_instance
  go q d c i := match q with | 0 => by unfold P goR; infer_instance
  td q d c i := match q with | 0 => by unfold P tdR; infer_instance

/-! ## The unscoped buffers and the valuation after the call -/

/-- Every unscoped TensorCore buffer. -/
abbrev UC : Finset (DevRef τ sig) := Pipeline.ucRefs τ sig

/-- The column-sum array at the tiles' results. -/
def W2 (d : Dev nD) : Valuation τ sig (Elt F) := Function.update (W1 m d) (Proc.devRef .tc (main_v1 : Ref sig .tc)) (colS d)

end Cert.Kernel.Launch

end
-- ==== Proof.Bits.Split.lean ====
/-
  The column-sum array splits into the tiles' pieces and the scores into read shares, and back: the 2 × 16 × 7 pieces
  of 512 words partition the array's 114688 indices, and a share split in 2 and then in 16 joins again.
-/
import proofs.«216449_g46943992545511_cont_8to1_c_491_21_alg».proof.Proof.Bits.Pay

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]
variable (colS : (d : Dev nD) → Buf (Elt F) (oLoc d))

/-! ## Where a piece lies

The column-sum array is 224 blocks of 512 words. The tile at place (c, i) — core c, subcore i — writes, as its piece
k, block number 32·k + 2·i + c: the seven pieces of one tile are 32 blocks apart, and the 32 tiles fill the 32 blocks
in between. So (c, i, k) ↦ block is one-to-one and onto the 224 blocks, and the pieces partition the array. -/

/-- The block that piece k of the tile at place L is. -/
def blockNo (L : grid0.Coords) (k : Fin 7) : ℕ := 32 * k.val + 2 * (L 1).val + (L 0).val

/-- The piece's first word, in closed form: 512 times its block number. -/
theorem off_eq : ∀ L : grid0.Coords, ∀ k : Fin 7,
    k0_off131 L (BitVec.ofNat 32 (8 * k.val)) 0 = 512 * blockNo L k := by decide +kernel

theorem blockNo_place (c : Fin 2) (i : Fin 16) (k : Fin 7) :
    blockNo (placeOf c i) k = 32 * k.val + 2 * i.val + c.val := rfl

/-- A piece's words are the 512 consecutive indices of a rectangle of the array. -/
theorem pieceSet_eq (L : grid0.Coords) (k : Fin 7) :
    pieceSet L k = (Rect.unit (s := S114688) (k0_off131 L (BitVec.ofNat 32 (8 * k.val))) S512.size (k0_off131_inb L k)).set := by
  show ((View.whole (main_v1_scv : Ref sig .scVector)).slice _).set = _
  exact View.set_slice_whole _ _

/-- An index lies in a piece exactly when it lies in the piece's block. -/
theorem mem_pieceSet (L : grid0.Coords) (k : Fin 7) (x : S114688.Idx) :
    x ∈ pieceSet L k ↔ (x 0).val / 512 = blockNo L k := by
  rw [pieceSet_eq, Rect.mem_set_unit]
  have hs : S512.size 0 = 512 := rfl
  constructor
  · intro h
    have h0 := h 0
    rw [off_eq L k, hs] at h0
    omega
  · intro h a
    have ha : a = 0 := Fin.ext (by have : a.val < 1 := a.isLt; show a.val = 0; omega)
    subst ha
    rw [off_eq L k, hs]
    omega

/-- The pieces, as one family over (core, subcore, piece). -/
abbrev KS (t : Fin 2 × Fin 16 × Fin 7) : Finset S114688.Idx := pieceSet (placeOf t.1 t.2.1) t.2.2

theorem pieces_disjoint : ∀ t ∈ (Finset.univ : Finset (Fin 2 × Fin 16 × Fin 7)),
    ∀ t' ∈ (Finset.univ : Finset (Fin 2 × Fin 16 × Fin 7)), t ≠ t' → Disjoint (KS t) (KS t') := by
  intro t _ t' _ hne
  show Disjoint (pieceSet (placeOf t.1 t.2.1) t.2.2) (pieceSet (placeOf t'.1 t'.2.1) t'.2.2)
  rw [pieceSet_eq, pieceSet_eq]
  refine Rect.unit_disjoint 0 ?_
  rw [off_eq, off_eq, blockNo_place, blockNo_place]
  have hs : S512.size 0 = 512 := rfl
  rw [hs]
  have h1 := t.1.isLt; have h2 := t.2.1.isLt; have h3 := t.2.2.isLt
  have h1' := t'.1.isLt; have h2' := t'.2.1.isLt; have h3' := t'.2.2.isLt
  have hb : 32 * t.2.2.val + 2 * t.2.1.val + t.1.val ≠ 32 * t'.2.2.val + 2 * t'.2.1.val + t'.1.val := by
    intro e
    apply hne
    refine Prod.ext (Fin.ext ?_) (Prod.ext (Fin.ext ?_) (Fin.ext ?_)) <;> omega
  omega

theorem pieces_cover : (Finset.univ : Finset (Fin 2 × Fin 16 × Fin 7)).biUnion KS = Finset.univ := by
  refine Finset.eq_univ_iff_forall.2 fun x => ?_
  have hx : (x 0).val < 114688 := (x 0).isLt
  refine Finset.mem_biUnion.2 ⟨(⟨(x 0).val / 512 % 2, by omega⟩, ⟨(x 0).val / 512 % 32 / 2, by omega⟩,
    ⟨(x 0).val / 512 / 32, by omega⟩), Finset.mem_univ _, ?_⟩
  show x ∈ pieceSet (placeOf _ _) _
  rw [mem_pieceSet, blockNo_place]
  show (x 0).val / 512 = 32 * ((x 0).val / 512 / 32) + 2 * ((x 0).val / 512 % 32 / 2) + (x 0).val / 512 % 2
  omega

set_option maxRecDepth 65536 in
/-- The whole column-sum array at one contents is its 2 × 16 × 7 pieces at that contents. -/
theorem oPts_pieces (d : Dev nD) (f : Buf (Elt F) (oLoc d)) :
    (oLoc d ↦{fullShare} f : sProp 𝕄)
      = bigSep Finset.univ fun c : Fin 2 => bigSep Finset.univ fun i : Fin 16 => bigSep Finset.univ fun k : Fin 7 =>
          oLoc d ↦[pieceSet (placeOf c i) k]{fullShare} f := by
  have e : (oLoc d ↦[(Finset.univ : Finset (Fin 2 × Fin 16 × Fin 7)).biUnion KS]{fullShare} f : sProp 𝕄)
      = bigSep Finset.univ fun t => oLoc d ↦[KS t]{fullShare} f := pointsTo_biUnion Finset.univ (ℓ := oLoc d) KS pieces_disjoint
  rw [pieces_cover] at e
  refine e.trans ?_
  rw [bigSep_univ_prod]
  refine bigSep_congr fun c _ => ?_
  rw [bigSep_univ_prod]

/-! ## A SparseCore's operands among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands split into its tiles' tasks, and its results gather from theirs. -/
theorem vecSplit : (K (F := F)).VecSplit' (P m colS) 0 := by
  intro d c
  show stR m d (Fin.cast nCore_zero c) ⊢ |={Set.univ}=> iprop(
      (bigSep Finset.univ fun i : Fin ((K (F := F)).nSub 0) => goR m d (Fin.cast nCore_zero c) (Fin.cast nSub_zero i))
      ∗ ((bigSep Finset.univ fun i : Fin ((K (F := F)).nSub 0) => tdR m colS d (Fin.cast nCore_zero c) (Fin.cast nSub_zero i))
          -∗ dnR m colS d (Fin.cast nCore_zero c)))
  generalize Fin.cast nCore_zero c = c'
  rw [bigSep_tasks (F := F) (fun i => goR m d c' i), bigSep_tasks (F := F) (fun i => tdR m colS d c' i)]
  unfold stR goR tdR dnR
  rw [bigSep_sep', bigSep_sep']
  iintro ⟨Ha, Ho⟩
  imodintro
  ihave Ha' := (Transfers.pointsTo_toks_split (qCore c') 16) $$ Ha
  icases Ha' with ⟨Hr, Ht⟩
  isplitl [Ht Ho]
  · isplitl [Ht]; · iexact Ht
    iexact Ho
  iintro ⟨Ht, Ho⟩
  isplitl [Hr Ht]
  · iapply (Transfers.pointsTo_toks_join (qCore c') 16)
    isplitl [Hr]; · iexact Hr
    iexact Ht
  iexact Ho

/-! ## The unscoped buffers and the call's operands -/

/-- The reshaped scores and the column-sum array, as device buffers. -/
abbrev aRef : DevRef τ sig := Proc.devRef .tc (main_v0 : Ref sig .tc)
abbrev oRef : DevRef τ sig := Proc.devRef .tc (main_v1 : Ref sig .tc)

theorem held_pair (d : Dev nD) (W : Valuation τ sig (Elt F)) :
    (held (SparseCore.T d) ({aRef, oRef} : Finset (DevRef τ sig)) W : sProp 𝕄)
      = iprop((aLoc d ↦{fullShare} W aRef) ∗ (oLoc d ↦{fullShare} W oRef)) := by
  unfold held
  rw [SparseCore.bigSep_insert' (by decide), bigSep_singleton]

theorem held_UC (d : Dev nD) (W : Valuation τ sig (Elt F)) :
    (held (SparseCore.T d) UC W : sProp 𝕄)
      = iprop(((aLoc d ↦{fullShare} W aRef) ∗ (oLoc d ↦{fullShare} W oRef)) ∗ held (SparseCore.T d) (UC \ {aRef, oRef}) W) := by
  rw [StableHlo.held_sub_split (SparseCore.T d) (show ({aRef, oRef} : Finset (DevRef τ sig)) ⊆ UC by decide) W, held_pair]

theorem W2_a (d : Dev nD) : W2 m colS d aRef = A m d := Function.update_of_ne (show aRef ≠ oRef by decide) _ _
theorem W2_o (d : Dev nD) : W2 m colS d oRef = colS d := Function.update_self _ _ _
theorem W2_rest (d : Dev nD) :
    (held (SparseCore.T d) (UC \ {aRef, oRef}) (W2 m colS d) : sProp 𝕄) = held (SparseCore.T d) (UC \ {aRef, oRef}) (W1 m d) :=
  StableHlo.held_congr (SparseCore.T d) fun b hb =>
    Function.update_of_ne (fun e => (Finset.mem_sdiff.mp hb).2 (by rw [e]; exact Finset.mem_insert_of_mem (Finset.mem_singleton_self _))) _ _

/-- What the call takes for the two SparseCores … -/
theorem st0_eq (d : Dev nD) :
    (bigSep Finset.univ fun c : Fin ((K (F := F)).nCore 0) => (P m colS).st 0 d c)
      = iprop((bigSep Finset.univ fun c : Fin 2 => aLoc d ↦{qCore c} A m d)
        ∗ bigSep Finset.univ fun c : Fin 2 => bigSep Finset.univ fun i : Fin 16 => bigSep Finset.univ fun k : Fin 7 =>
            iprop(∃ f, oLoc d ↦[pieceSet (placeOf c i) k]{fullShare} f)) := by
  show (bigSep Finset.univ fun c : Fin ((K (F := F)).nCore 0) => stR m d (Fin.cast nCore_zero c)) = _
  rw [bigSep_cores (F := F) (fun c => stR m d c)]
  unfold stR
  rw [bigSep_sep']

/-- … and what it hands back. -/
theorem dn0_eq (d : Dev nD) :
    (bigSep Finset.univ fun c : Fin ((K (F := F)).nCore 0) => (P m colS).dn 0 d c)
      = iprop((bigSep Finset.univ fun c : Fin 2 => aLoc d ↦{qCore c} A m d)
        ∗ bigSep Finset.univ fun c : Fin 2 => bigSep Finset.univ fun i : Fin 16 => bigSep Finset.univ fun k : Fin 7 =>
            oLoc d ↦[pieceSet (placeOf c i) k]{fullShare} colS d) := by
  show (bigSep Finset.univ fun c : Fin ((K (F := F)).nCore 0) => dnR m colS d (Fin.cast nCore_zero c)) = _
  rw [bigSep_cores (F := F) (fun c => dnR m colS d c)]
  unfold dnR
  rw [bigSep_sep']

theorem piece_forget (d : Dev nD) (f : Buf (Elt F) (oLoc d)) (c : Fin 2) (i : Fin 16) (k : Fin 7) :
    (oLoc d ↦[pieceSet (placeOf c i) k]{fullShare} f : sProp 𝕄)
      ⊢ iprop(∃ f, oLoc d ↦[pieceSet (placeOf c i) k]{fullShare} f) := by
  iintro H; iexists f; iexact H

/-- Pieces at one contents are pieces at some contents. -/
theorem pieces_forget (d : Dev nD) (f : Buf (Elt F) (oLoc d)) :
    (bigSep Finset.univ fun c : Fin 2 => bigSep Finset.univ fun i : Fin 16 => bigSep Finset.univ fun k : Fin 7 =>
        oLoc d ↦[pieceSet (placeOf c i) k]{fullShare} f : sProp 𝕄)
      ⊢ bigSep Finset.univ fun c : Fin 2 => bigSep Finset.univ fun i : Fin 16 => bigSep Finset.univ fun k : Fin 7 =>
        iprop(∃ f, oLoc d ↦[pieceSet (placeOf c i) k]{fullShare} f) :=
  bigSep_mono fun c _ => bigSep_mono fun i _ => bigSep_mono fun k _ => piece_forget (F := F) d f c i k

/-- The unscoped buffers after the reshape hand the SparseCore call its operands — each SparseCore a read share of
    the scores and its tiles' pieces of the column-sum array — and are whole again, the column-sum array at the tiles'
    results, once the call hands its results back. -/
theorem call_split (d : Dev nD) :
    (held (SparseCore.T d) UC (W1 m d) : sProp 𝕄)
      ⊢ iprop((bigSep Finset.univ fun c : Fin ((K (F := F)).nCore 0) => (P m colS).st 0 d c)
        ∗ ((bigSep Finset.univ fun c : Fin ((K (F := F)).nCore 0) => (P m colS).dn 0 d c) -∗ held (SparseCore.T d) UC (W2 m colS d))) := by
  rw [st0_eq, dn0_eq, held_UC, held_UC, W2_a, W2_o, W2_rest, oPts_pieces (F := F) d (W1 m d oRef), oPts_pieces (F := F) d (colS d)]
  show iprop(((aLoc d ↦{fullShare} A m d) ∗ _) ∗ _) ⊢ _
  iintro ⟨⟨Ha, Ho⟩, Hrest⟩
  ihave Ha' := (Transfers.pointsTo_toks_split fullShare 2) $$ Ha
  icases Ha' with ⟨Hr, Ht⟩
  isplitl [Ht Ho]
  · isplitl [Ht]; · iexact Ht
    iapply (pieces_forget (F := F) d (W1 m d oRef)); iexact Ho
  iintro ⟨Ht, Ho⟩
  isplitr [Hrest]
  · isplitl [Hr Ht]
    · iapply (Transfers.pointsTo_toks_join fullShare 2)
      isplitl [Hr]; · iexact Hr
      iexact Ht
    iexact Ho
  iexact Hrest

end Cert.Kernel.Launch

end
-- ==== Proof.Bits.Launch.lean ====
/-
  The launch of the whole program: the SparseCore call and the two TensorCore regions of @main, composed.

  @main on a device's TensorCore reshapes the scores to [16, 2048, 2048]; starts the SparseCore call; runs the first
  TensorCore region (heads 0..8) and the second (the planes assembled); transposes the planes. Each region is entered
  from the thread state the line before it left.
-/
import proofs.«216449_g46943992545511_cont_8to1_c_491_21_alg».proof.Proof.Bits.Split

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]
variable (colS : (d : Dev nD) → Buf (Elt F) (oLoc d))

/-! ## The launch element -/

/-- The prefetched tables' admissible contents: no pipeline has a table. -/
abbrev adm : (p : Fin 2) → (pcfgs (F := F) p).Adm := fun p => (cfgs p).toPCfg_adm

/-- The handshakes' rounds, the two pipelines' staging cells' rounds, no counter yet. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch deals a TensorCore beyond the handshakes: both pipelines' staging cells' ghost state and tokens. -/
def G (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

theorem bigSep_emp' {I : Type} (s : Finset I) : (bigSep s fun _ => iprop(emp)) = (iprop(emp) : sProp 𝕄) := bigSep_emp_const s

/-- The staging cells' component of a pair owned through the right embedding is owned through `EP`. -/
theorem own_EP (a : UP) (b : Counters) :
    (BI.own ((embR : Emb (UP × Counters) (𝕄F F)) (a, b)) : sProp 𝕄)
      ⊢ iprop(BI.own ((EP : Emb UP (𝕄F F)) a) ∗ BI.own (((Emb.inr : Emb Counters (UP × Counters)).trans (embR : Emb (UP × Counters) (𝕄F F))) b)) :=
  own_pair_emb embR a b

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m colS).x q thr) := by
  unfold u₀
  iintro Hu
  ihave H := (ownU_pair _ _) $$ Hu
  icases H with ⟨HH, HR⟩
  ihave H2 := (own_EP (F := F) _ _) $$ HR
  icases H2 with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' (F := F) _, bigSep_emp']]
  iempintro

/-! ## @main's shape -/

/-- The transposition of the planes, as @main's last line states it. -/
abbrev opTranspose : HloOp τ sig (Elt F) :=
  StableHlo.unary main_v3 main_v4 ((transpose S16x30000x3 [1, 2, 0] · transposes_S3x16x30000_S16x30000x3_1_2_0) : (⟨S3x16x30000, .f32⟩ : BufTy).Contents (Elt F) → (⟨S16x30000x3, .f32⟩ : BufTy).Contents (Elt F))

/-- What @main runs after the SparseCore call, in the TensorCore pipelines' own signature: the two regions and the
    transposition. -/
def tailInner : Prog (TpuEff nD τ sig (Elt F) (ΛP (F := F)) .tc) PUnit := do
  Prog.lift (.customCall (Pipeline.entry 0) ())
  Prog.lift (.customCall (Pipeline.entry 1) ())
  hlo rfl (opTranspose (F := F)) (fun _ => .ret ⟨⟩)
  pure ⟨⟩

/-- @main is the reshape, the SparseCore call, and that tail lifted. -/
theorem main_eq (d : Dev nD) : main (F := F) d = (do
    hlo rfl (opReshape (F := F)) (fun _ => .ret ⟨⟩)
    (sc (F := F)).run d 0
    SparseCore.liftProg (tailInner (F := F))) := rfl

/-! ## The TensorCore's thread state between the lines of @main -/

/-- What rides beside the buffers after the SparseCore call: the generator register at some state and the core owing
    nothing. -/
abbrev Rr (d : Dev nD) : sProp 𝕄 :=
  iprop((∃ r, prngReg d r) ∗ ∃ W, owes (SparseCore.T d) (0 : CellTallies nD τ sig (HIx 1)) W)

/-- With one call, every level is at most 7: any set of recorded pairs lies below level 8. -/
theorem wbelow_any (thr : Thread nD τ) (W : Waits sig (HIx 1)) : (K (F := F)).WBelow thr W (8 * 1) := by
  intro p _
  rcases p with ⟨s, ι⟩
  cases ι with
  | none => exact Nat.zero_le _
  | some q => exact ((K (F := F)).lev_some_le _ q).trans (by have := q.isLt; omega)

/-- The thread state at a valuation of the unscoped buffers. -/
abbrev TS (W : Dev nD → Valuation τ sig (Elt F)) (d : Dev nD) : sProp 𝕄 := iprop(held (SparseCore.T d) UC (W d) ∗ Rr (F := F) d)

theorem hReshape : (opReshape (F := F)).bufs ⊆ UC := Pipeline.sub_ucRefs _ (StableHlo.reshape_bufs_sub ..)
theorem hTranspose : (opTranspose (F := F)).bufs ⊆ UC := Pipeline.sub_ucRefs _ (StableHlo.unary_bufs_sub ..)

/-- After the one call the TensorCore owes nothing more: its handshake state opens to its `owes` and closes again
    around any set of recorded pairs. -/
theorem tcSt_open (d : Dev nD) :
    ((K (F := F)).tcSt EH d ((0 : Fin 1).val + 1) : sProp 𝕄)
      ⊢ iprop((∃ W, owes (SparseCore.T d) (0 : CellTallies nD τ sig (HIx 1)) W)
        ∗ (iprop(∃ W, owes (SparseCore.T d) (0 : CellTallies nD τ sig (HIx 1)) W) -∗ (K (F := F)).tcSt EH d 1)) := by
  show ((K (F := F)).tcSt EH d 1 : sProp 𝕄) ⊢ _
  unfold SparseCore.Cfg.tcSt
  rw [(K (F := F)).Otc_end d (le_refl 1)]
  iintro ⟨⟨%W, -, HO⟩, Hrest⟩
  isplitl [HO]; · iexists W; iexact HO
  iintro ⟨%W', HO⟩
  isplitl [HO]
  · iexists W'; isplitr
    · ipureintro; exact wbelow_any (F := F) _ W'
    iexact HO
  iexact Hrest

/-- Both pipelines' staging cells' ghost state, one by one. -/
theorem G_eq (d : Dev nD) : (G (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold G
  rw [show (Finset.univ : Finset (Fin 2)) = {0, 1} by decide, SparseCore.bigSep_insert' (by decide), bigSep_singleton]

/-! ## @main on the TensorCore -/

-- each region's record may be stated over its own family of proof data: a region's rule reads the family at its own
-- pipeline only
variable (rdats1 rdats2 : (p : Fin 2) → (c : Dev nD) → Pipeline.RDat τ (Elt F) (HIx 1) ℕ UU ℕ (Pipeline.pin (pcfgs (F := F)) adm p) c)
variable (R1 : Pipeline.RDat.RegionSeg (pcfgs (F := F)) adm rdats1 (none : HIx 1) defs₀ 𝒱₀ (K (F := F)).L (K (F := F)).lev 0)
variable (R2 : Pipeline.RDat.RegionSeg (pcfgs (F := F)) adm rdats2 (none : HIx 1) defs₀ 𝒱₀ (K (F := F)).L (K (F := F)).lev 1)
variable (W3 W4 : Dev nD → Valuation τ sig (Elt F))

/-- The last valuation: the planes transposed. -/
def W5 (d : Dev nD) : Valuation τ sig (Elt F) := (opTranspose (F := F)).result (W4 d)

/-- What @main leaves the claim to read: every unscoped buffer at the last valuation. -/
abbrev FIN (d : Dev nD) : sProp 𝕄 := held (SparseCore.T d) UC (W5 W4 d)

theorem hmain (hpre1 : ∀ d, TS (W2 m colS) d ⊢ R1.pre d) (hpost1 : ∀ d, R1.post d ⊢ TS W3 d)
    (hpre2 : ∀ d, TS W3 d ⊢ R2.pre d) (hpost2 : ∀ d, R2.post d ⊢ TS W4 d)
    (κ : GSem nD τ sig → ℕ) (d : Dev nD) :
    iprop((K (F := F)).ctx EH (P m colS) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN W4 d) := by
  unfold SparseCore.Cfg.tcRes
  rw [show (unscopedBufs d (fun b => m ((SparseCore.T d).loc b)) : sProp 𝕄) = held (SparseCore.T d) UC (W0 m d) from Pipeline.unscopedBufs_held d (W0 m d), main_eq]
  simp only [wp_bind, wp_pure]
  iintro ⟨#Hctx, Hst, ⟨Hb, Hheld, Hsems, Hprng⟩, HG⟩
  -- the reshape
  iapply (wp_hlo_within 𝒱 (SparseCore.T d) none Set.univ (op := opReshape) (S := UC) hReshape (V := W0 m d)) $$ [Hb Hheld]
  · isplitl [Hb]; · iexact Hb
    iexact Hheld
  rw [show (opReshape (F := F)).result (W0 m d) = W1 m d from rfl]
  iintro ⟨Hb, Hheld⟩
  rw [wp_ret]; imodintro
  -- the SparseCore call: each SparseCore its operands, and back
  ihave Hsp := (call_split m colS d) $$ Hheld
  icases Hsp with ⟨Hst0, Hback⟩
  iapply ((K (F := F)).wp_run (D (F := F)) 𝒱 (EH := EH) (P := P m colS) κ d 0) $$ [Hst Hst0 Hback Hb Hsems Hprng HG]
  isplitr; · iexact Hctx
  isplitl [Hst]; · iexact Hst
  isplitl [Hst0]; · iexact Hst0
  iintro ⟨Hst, Hdn⟩
  ihave Hheld := Hback $$ Hdn
  -- after the one call the TensorCore owes nothing
  ihave Ho := (tcSt_open d) $$ Hst
  icases Ho with ⟨HO, Hclose⟩
  ihave #Hlev := ((K (F := F)).ctx_levAts κ) $$ Hctx
  -- the rest of @main runs in the pipelines' own signature
  iapply ((K (F := F)).wp_liftProg (D (F := F)) 𝒱 (SparseCore.T d) Set.univ none (tailInner (F := F)) _)
  unfold tailInner
  simp only [wp_bind, wp_pure]
  ihave HG' := (Entails.of_eq (G_eq (F := F) d)) $$ HG
  icases HG' with ⟨⟨Hg0, Ht0⟩, ⟨Hg1, Ht1⟩⟩
  -- the first region: entered from the thread state the call left
  iapply (Pipeline.RDat.RegionSeg.wp (pcfgs (F := F)) adm rdats1 (none : HIx 1) cellOf_inj EP defs₀ 𝒱₀ (K (F := F)).L (K (F := F)).lev R1 d none
      (fun u hu => nomatch hu) (fun _ => Prog.ret PUnit.unit) _) $$ [Hb Hheld Hprng HO Hg0 Ht0 Hclose Hg1 Ht1]
  isplitr [Hb Hheld Hprng HO Hg0 Ht0]
  swap
  · isplitl [Hb]; · iexact Hb
    isplitl [Hheld Hprng HO]
    · iapply (hpre1 d)
      isplitl [Hheld]; · iexact Hheld
      isplitl [Hprng]; · iexists _; iexact Hprng
      iexact HO
    isplitr; · iexact Hlev
    isplitl [Hg0]; · iexact Hg0
    iexact Ht0
  iintro ⟨Hb, Hpost⟩
  ihave Hts := (hpost1 d) $$ Hpost
  icases Hts with ⟨Hheld, Hprng, HO⟩
  rw [wp_ret]; imodintro
  -- the second region
  iapply (Pipeline.RDat.RegionSeg.wp (pcfgs (F := F)) adm rdats2 (none : HIx 1) cellOf_inj EP defs₀ 𝒱₀ (K (F := F)).L (K (F := F)).lev R2 d none
      (fun u hu => nomatch hu) (fun _ => Prog.ret PUnit.unit) _) $$ [Hb Hheld Hprng HO Hg1 Ht1 Hclose]
  isplitr [Hb Hheld Hprng HO Hg1 Ht1]
  swap
  · isplitl [Hb]; · iexact Hb
    isplitl [Hheld Hprng HO]
    · iapply (hpre2 d)
      isplitl [Hheld]; · iexact Hheld
      isplitl [Hprng]; · iexact Hprng
      iexact HO
    isplitr; · iexact Hlev
    isplitl [Hg1]; · iexact Hg1
    iexact Ht1
  iintro ⟨Hb, Hpost⟩
  ihave Hts := (hpost2 d) $$ Hpost
  icases Hts with ⟨Hheld, Hprng, HO⟩
  rw [wp_ret]; imodintro
  -- the transposition
  iapply (wp_hlo_within 𝒱 (SparseCore.T d) none Set.univ (op := opTranspose) (S := UC) hTranspose (V := W4 d)) $$ [Hb Hheld]
  · isplitl [Hb]; · iexact Hb
    iexact Hheld
  iintro ⟨Hb, Hheld⟩
  rw [wp_ret]; imodintro; imodintro
  isplitl [Hclose HO]
  · iapply Hclose; iexact HO
  iexact Hheld

/-! ## The final memory, and the run -/

/-- What the claim reads off a final state: every unscoped TensorCore buffer at the last valuation. -/
def fq (d : Dev nD) (s' : Phys nD τ sig (Elt F)) : Prop := ∀ b ∈ UC, s'.mem.mem (d, b) = W5 W4 d b

theorem hfin (d : Dev nD) (s' : Phys nD τ sig (Elt F)) : iprop(held (SparseCore.T d) UC (W5 W4 d) ∗ SI s') ⊢ (⌜fq W4 d s'⌝ : sProp 𝕄) := by
  iintro ⟨Hh, HSI⟩
  unfold StableHlo.held
  ihave H := (pointsTo_read_all UC (fun b => (d, b)) (W5 W4 d) s') $$ [Hh HSI]
  · isplitl [Hh] <;> iassumption
  icases H with ⟨%h, -⟩
  ipureintro; exact h

def QC : PUnit × MemSt nD τ sig (Elt F) → Prop := fun r => ∀ d : Dev nD, ∀ b ∈ UC, r.2.mem (d, b) = W5 W4 d b

/-- The whole program's run: every weakly fair execution of all its threads terminates, nothing faulting, every
    unscoped TensorCore buffer at the last valuation. -/
theorem run_main [∀ e, Nonempty (Elt F e)]
    (htile : (K (F := F)).TileObl (D (F := F)) 𝒱 (P m colS) v₀ 0)
    (hpre1 : ∀ d, TS (W2 m colS) d ⊢ R1.pre d) (hpost1 : ∀ d, R1.post d ⊢ TS W3 d)
    (hpre2 : ∀ d, TS W3 d ⊢ R2.pre d) (hpost2 : ∀ d, R2.post d ⊢ TS W4 d) :
    θ_run (Cert.Kernel.defs (F := F)) (Cert.Kernel.threads (F := F)) ⟨m, fun _ => 0, ρ⟩ (QC W4) :=
  SparseCore.Cfg.θ_run_sc (K := K (F := F)) (D := D (F := F)) (𝒱 := 𝒱) (EH := EH) (P := P m colS) facts v₀
    (fun q hq => match q with | 0 => nomatch hq)
    (fun q _ => match q with | 0 => htile)
    (fun q _ => match q with | 0 => SparseCore.Cfg.VecSplit.of_plain (vecSplit m colS))
    m ρ main (G (F := F)) (FIN W4) (u₀ (F := F)) (sep_elim_left.trans (hu₀ m colS))
    (hmain m ρ colS rdats1 rdats2 R1 R2 W3 W4 hpre1 hpost1 hpre2 hpost2) (fq W4) (hfin W4) (QC W4) (fun _ h => h)

end Cert.Kernel.Launch

end
-- ==== Proof.Bits.Region1.Runs.lean ====
/-
  The first TensorCore region's body: what its runs share — the two branch conditions of the body in closed
  form over the grid, and the staging and scratch memrefs the pipeline calls the body with at each point.
-/
import proofs.«216449_g46943992545511_cont_8to1_c_491_21_alg».proof.Proof.Bits.Setup
import proofs.«216449_g46943992545511_cont_8to1_c_491_21_alg».proof.Proof.Gen.Kernel.Launch
import proofs.«216449_g46943992545511_cont_8to1_c_491_21_alg».proof.Proof.Gen.Kernel.Skeleton
import proofs.«216449_g46943992545511_cont_8to1_c_491_21_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region1

open Cert.Kernel Cert.Kernel.Gen Cert.Kernel.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-! ## The body's branch conditions -/

/-- The condition of the body's first conditional (the accumulator is zeroed), from the grid coordinates. -/
abbrev cond1_0 (i : grid1.Coords) : Prop :=
  (Scalar.cmpi .ne (Scalar.extui (Scalar.cmpi .eq (BitVec.ofNat 32 (i 1).val) 0#32)) 0#32) = 1#1

/-- It holds exactly at the points whose second coordinate is 0: the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional (the output row is written) is taken exactly at the odd points. -/
theorem hcond1_1 : ∀ t : Fin cfg1.N, k1_cond2 (grid1.coords t) = 1#1 ↔ t.val % 2 = 1 :=
  (by decide +kernel : ∀ t : Fin grid1.N, k1_cond2 (grid1.coords t) = 1#1 ↔ t.val % 2 = 1)

/-- The first coordinate of point `t` (the head) is `t / 2`. -/
theorem coords1_0 : ∀ t : Fin cfg1.N, ((grid1.coords t) 0).val = t.val / 2 :=
  (by decide +kernel : ∀ t : Fin grid1.N, ((grid1.coords t) 0).val = t.val / 2)

/-! ## The memrefs the body is called with -/

/-- Each window's current staging memref at point `t`, spelled as the pipeline passes it, and its wholeness. -/
abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S9x128 .f32 := win1_1.stage (cfg1.slots t 1)
abbrev hs1_1 (t : Fin cfg1.N) : (ms1_1 t).IsWhole := hstage1_1 ((cfg1.slots t 1).cast nbuf1_1)
/-- The accumulator: the region's scratch buffer, whole. -/
abbrev scr1 : Memref sig .tc .vmem S1x2048 .f32 := Memref.whole cc1_scratch0
abbrev hscr1 : (scr1).IsWhole := Memref.isWhole_whole _

end Cert.Kernel.Region1

end
-- ==== Proof.Bits.Region1.RunA.lean ====
/-
  The body of the first TensorCore region at a point whose second coordinate is 0: the accumulator is zeroed, the
  block's column sums are added to it, and the output window is not touched.
-/
import proofs.«216449_g46943992545511_cont_8to1_c_491_21_alg».proof.Proof.Bits.Region1.Runs

set_option maxRecDepth 16384

noncomputable section

namespace Cert.Kernel.Region1

open Cert.Kernel Cert.Kernel.Gen Cert.Kernel.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

set_option maxHeartbeats 1000000 in
/-- What the body's stores leave in the accumulator at a point of the first kind (second coordinate 0), as
    pieces (last first), with the proof that from the input's staging memref at its contents and the accumulator at
    anything the body runs to the continuation holding the input's as it was and the accumulator with the pieces
    written. The output's staging memref is not used. -/
noncomputable def kernelRun1_A (c : Dev nD) (i : grid1.Coords) (arg2 : Memref sig .tc .vmem S1x1024x2048 .f32) (harg2 : arg2.IsWhole)
    (arg3 : Memref sig .tc .vmem S9x128 .f32) (harg3 : arg3.IsWhole) (arg4 : Memref sig .tc .vmem S1x2048 .f32) (harg4 : arg4.IsWhole)
    (hc0 : cond1_0 i) (hc1 : ¬ k1_cond2 i = 1#1)
    (x0 : Vec F S1x1024x2048 .f32) :
    { L4 : List (View.Piece (Elt F) S1x2048 .f32) //
      ∀ (E : Set ℕ) (K : PUnit → sProp 𝕄),
        iprop(owns (c : Thread nD τ) arg2 fullShare x0 ∗ (∃ d, owns (c : Thread nD τ) arg4 fullShare d)
            ∗ (iprop(owns (c : Thread nD τ) arg2 fullShare x0 ∗ (∃ f, arg4.view.loc (c : Thread nD τ) ↦[arg4.view.set]{fullShare} arg4.view.writes (Elt F) f L4)) -∗ K ⟨⟩))
          ⊢ wp frame (wpE (defs₀ (F := F)) Variants.none c none) E (cc1__tc_body i arg2 harg2 arg3 harg3 arg4 harg4) K } := by
  refine ⟨?_, fun E K => ?run⟩
  case run =>
    simp only [cc1__tc_body_eq_skeleton]; unfold cc1__tc_body_skel
    unfold owns
    iintro ⟨⟨%f0, %hf0, H0⟩, ⟨%d4, %f4, -, H4⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H4

end Cert.Kernel.Region1

end
-- ==== Proof.Bits.Region1.RunB.lean ====
/-
  The body of the first TensorCore region at a point whose second coordinate is 1: the block's column sums are added
  to the accumulator, and the accumulator's product with the window mask is stored into one row of the output window.
-/
import proofs.«216449_g46943992545511_cont_8to1_c_491_21_alg».proof.Proof.Bits.Region1.RunA

set_option maxRecDepth 16384

noncomputable section

namespace Cert.Kernel.Region1

open Cert.Kernel Cert.Kernel.Gen Cert.Kernel.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

set_option maxHeartbeats 1000000 in
/-- What the body's stores leave in the output's staging memref and in the accumulator at a point of the second
    kind (second coordinate 1), as pieces (last first), with the proof that from the input's staging memref, the
    output's and the accumulator at their contents the body runs to the continuation holding the input's as it was
    and the other two with their pieces written over what they held. -/
noncomputable def kernelRun1_B (c : Dev nD) (i : grid1.Coords) (arg2 : Memref sig .tc .vmem S1x1024x2048 .f32) (harg2 : arg2.IsWhole)
    (arg3 : Memref sig .tc .vmem S9x128 .f32) (harg3 : arg3.IsWhole) (arg4 : Memref sig .tc .vmem S1x2048 .f32) (harg4 : arg4.IsWhole)
    (hc0 : ¬ cond1_0 i) (hc1 : k1_cond2 i = 1#1)
    (x0 : Vec F S1x1024x2048 .f32) (y3 : Vec F S9x128 .f32) (s4 : Vec F S1x2048 .f32) :
    Σ' (L3 : List (View.Piece (Elt F) S9x128 .f32)), { L4 : List (View.Piece (Elt F) S1x2048 .f32) //
      ∀ (E : Set ℕ) (K : PUnit → sProp 𝕄),
        iprop(owns (c : Thread nD τ) arg2 fullShare x0 ∗ owns (c : Thread nD τ) arg3 fullShare y3 ∗ owns (c : Thread nD τ) arg4 fullShare s4
            ∗ (iprop(owns (c : Thread nD τ) arg2 fullShare x0
                ∗ (arg3.view.loc (c : Thread nD τ) ↦[arg3.view.set]{fullShare} arg3.view.writes (Elt F) (harg3.unread y3) L3)
                ∗ (arg4.view.loc (c : Thread nD τ) ↦[arg4.view.set]{fullShare} arg4.view.writes (Elt F) (harg4.unread s4) L4)) -∗ K ⟨⟩))
          ⊢ wp frame (wpE (defs₀ (F := F)) Variants.none c none) E (cc1__tc_body i arg2 harg2 arg3 harg3 arg4 harg4) K } := by
  refine ⟨?_, ?_, fun E K => ?run⟩
  case run =>
    simp only [cc1__tc_body_eq_skeleton]; unfold cc1__tc_body_skel
    unfold owns
    iintro ⟨⟨%f0, %hf0, H0⟩, ⟨%f3, %hf3, H3⟩, ⟨%f4, %hf4, H4⟩, Hk⟩
    obtain rfl := harg2.eq_unread hf0; obtain rfl := harg3.eq_unread hf3; obtain rfl := harg4.eq_unread hf4
    sl_exec (disch := first | exact hc0 | exact hc1)
    sl_step
    iapply Hk
    isplitl [H0]
    · iexists _; isplitr; · ipureintro; exact harg2.read_unread _
      iexact H0
    isplitl [H3]
    · iexact H3
    iexact H4

end Cert.Kernel.Region1

end
-- ==== Proof.Bits.Region1.Pieces.lean ====
/-
  The pieces the two runs of the first TensorCore region's body leave, read as values over the body's arithmetic:
  the accumulator after a point of either kind, and the output's staging buffer after a point of the second kind.
-/
import proofs.«216449_g46943992545511_cont_8to1_c_491_21_alg».proof.Proof.Bits.Region1.RunB
import Idealize.ShloMosaic.Lib.Pipeline.Value
import Idealize.ShloMosaic.Lib.ValueIdx

set_option maxRecDepth 16384

noncomputable section

namespace Cert.Kernel.Region1

open Cert.Kernel Cert.Kernel.Gen Cert.Kernel.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-shape rectangle at zero offsets, made last, leaves its payload, whatever the earlier
    stores and the contents before them were. -/
theorem read_writes_cons_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- THE FIRST KIND OF POINT: the accumulator ends at the block's column sums added to the zero row. -/
theorem acc_A (c : Dev nD) (i : grid1.Coords) (arg2 : Memref sig .tc .vmem S1x1024x2048 .f32) (harg2 : arg2.IsWhole)
    (arg3 : Memref sig .tc .vmem S9x128 .f32) (harg3 : arg3.IsWhole) (arg4 : Memref sig .tc .vmem S1x2048 .f32) (harg4 : arg4.IsWhole)
    (hc0 : cond1_0 i) (hc1 : ¬ k1_cond2 i = 1#1) (x0 : Vec F S1x1024x2048 .f32) (f : arg4.view.ty.Contents (Elt F)) :
    arg4.view.read (Elt F) (arg4.view.writes (Elt F) f (kernelRun1_A c i arg2 harg2 arg3 harg3 arg4 harg4 hc0 hc1 x0).1)
      = k1_pay2 (k1_pay1 (F := F)) x0 := by
  unfold kernelRun1_A
  dsimp only
  sl_unfold_words
  rw [read_writes_cons_unit_zero (S := S1x2048) _ _ hz2]
  rw [View.readCov_unit_zero (S := S1x2048) _ hz2]
  simp only [View.readAt_eq_ld, harg2.read_unread, View.ld_unit_zero (S := S1x1024x2048) hz3]

/-- THE SECOND KIND OF POINT: the accumulator ends at the block's column sums added to what it held. -/
theorem acc_B (c : Dev nD) (i : grid1.Coords) (arg2 : Memref sig .tc .vmem S1x1024x2048 .f32) (harg2 : arg2.IsWhole)
    (arg3 : Memref sig .tc .vmem S9x128 .f32) (harg3 : arg3.IsWhole) (arg4 : Memref sig .tc .vmem S1x2048 .f32) (harg4 : arg4.IsWhole)
    (hc0 : ¬ cond1_0 i) (hc1 : k1_cond2 i = 1#1) (x0 : Vec F S1x1024x2048 .f32) (y3 : Vec F S9x128 .f32) (s4 : Vec F S1x2048 .f32) :
    arg4.view.read (Elt F) (arg4.view.writes (Elt F) (harg4.unread s4) (kernelRun1_B c i arg2 harg2 arg3 harg3 arg4 harg4 hc0 hc1 x0 y3 s4).2.1)
      = k1_pay2 s4 x0 := by
  unfold kernelRun1_B
  dsimp only
  sl_unfold_words
  rw [read_writes_cons_unit_zero (S := S1x2048) _ _ hz2]
  simp only [View.readAt_eq_ld, harg2.read_unread, harg4.read_unread, View.ld_unit_zero (S := S1x1024x2048) hz3, View.ld_unit_zero (S := S1x2048) hz2]

/-- One store of a row of 128 into a [9,128] buffer, at row `k`: that row reads the payload, every other row what
    the buffer held. -/
theorem read_writes_row {sig' : RefSig} {κ : Kind} {sp : Space} {e : EltTy} {Val : EltTy → Type}
    (v : View sig' κ sp S9x128 e) (f : v.ty.Contents Val) (off : Fin 2 → Nat) (inb : ∀ a, off a + S1x128.size a ≤ S9x128.size a)
    (pl : (Rect.unit (s := S9x128) off S1x128.size inb).shape.Idx → Val e) (k : Nat) (hoff : off = ![k, 0]) (h : Fin 9) (w : Fin 128) :
    v.read Val (v.writes Val f [(⟨Rect.unit (s := S9x128) off S1x128.size inb, pl⟩ : View.Piece Val S9x128 e)]) (ix2 h w)
      = if h.val = k then pl (ix2 (0 : Fin 1) w) else v.read Val f (ix2 h w) := by
  subst hoff
  by_cases hh : h.val = k
  · rw [if_pos hh]
    have e : (ix2 h w : S9x128.Idx) = (Rect.unit (s := S9x128) ![k, 0] S1x128.size inb).emb (ix2 (0 : Fin 1) w) := by
      funext a; apply Fin.ext
      match a with
      | ⟨0, _⟩ => show h.val = k + 1 * 0; omega
      | ⟨1, _⟩ => show w.val = 0 + 1 * w.val; omega
    rw [e]; exact View.read_writes_cons_emb v f _ pl [] (ix2 (0 : Fin 1) w)
  · rw [if_neg hh]
    refine View.read_writes_apply_of_forall_not_mem v f (ix2 h w) _ ?_
    intro p hp hm
    rw [List.mem_singleton] at hp; subst hp
    have hm' : (ix2 h w : S9x128.Idx) ∈ (Rect.unit (s := S9x128) ![k, 0] S1x128.size inb).set := hm
    have h0 := (Rect.mem_set_unit.mp hm') 0
    have e0 : ((ix2 h w : S9x128.Idx) 0 : Nat) = h.val := rfl
    have e1 : (![k, 0] : Fin 2 → Nat) 0 = k := rfl
    have e2 : S1x128.size 0 = 1 := rfl
    rw [e0, e1, e2] at h0; omega

/-- THE SECOND KIND OF POINT: the output's staging buffer keeps what it held but for the row of the point's first
    coordinate, which ends at the product of the new accumulator with the window mask. -/
theorem out_B (c : Dev nD) (i : grid1.Coords) (arg2 : Memref sig .tc .vmem S1x1024x2048 .f32) (harg2 : arg2.IsWhole)
    (arg3 : Memref sig .tc .vmem S9x128 .f32) (harg3 : arg3.IsWhole) (arg4 : Memref sig .tc .vmem S1x2048 .f32) (harg4 : arg4.IsWhole)
    (hc0 : ¬ cond1_0 i) (hc1 : k1_cond2 i = 1#1) (x0 : Vec F S1x1024x2048 .f32) (y3 : Vec F S9x128 .f32) (s4 : Vec F S1x2048 .f32)
    (h : Fin 9) (w : Fin 128) :
    arg3.view.read (Elt F) (arg3.view.writes (Elt F) (harg3.unread y3) (kernelRun1_B c i arg2 harg2 arg3 harg3 arg4 harg4 hc0 hc1 x0 y3 s4).1) (ix2 h w)
      = if h.val = (i 0).val then k1_pay3 (k1_pay2 s4 x0) (ix2 (0 : Fin 1) w) else y3 (ix2 h w) := by
  unfold kernelRun1_B
  dsimp only
  rw [read_writes_row arg3.view _ _ _ _ (i 0).val (k1_off1_eq i) h w, harg3.read_unread]
  sl_unfold_words
  rw [View.readCov_unit_zero (S := S1x2048) _ hz2]
  simp only [View.readAt_eq_ld, harg2.read_unread, harg4.read_unread, View.ld_unit_zero (S := S1x1024x2048) hz3, View.ld_unit_zero (S := S1x2048) hz2]

end Cert.Kernel.Region1

end
-- ==== Proof.Bits.Region1.lean ====
/-
  THE FIRST TENSORCORE REGION's body, as the pipeline library's body obligation, generic in the float instance.

  The region sums the columns of attn f32[16,2048,2048], head by head for the first nine heads, two blocks of 1024 rows
  per head, into an accumulator row f32[1,2048] carried across the two points of a head; at the second point of a head
  it multiplies the accumulator by a 0/1 mask f32[2048,128] that gathers columns into windows of 64, and stores the
  product as ONE ROW of the output window f32[9,128], which is written back after the last point only.

  Because a point stores one row of the output's staging buffer and leaves the other rows as they were, what the
  buffer holds after a point is not a function of the point alone: the proof data are RELATIONAL (the library's
  `RDat`): the output's buffer after a point is `out1` of what it held before. The accumulator's contents are carried
  by the region's invariant.
-/
import proofs.«216449_g46943992545511_cont_8to1_c_491_21_alg».proof.Proof.Bits.Region1.Pieces

set_option maxRecDepth 16384

noncomputable section

namespace Cert.Kernel.Region1

open Cert.Kernel Cert.Kernel.Gen Cert.Kernel.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

open Idealize.ShloMosaic.ValueIdx

variable (V : (c : Dev nD) → (b : Ref sig .tc) → Buf (Elt F) ((c : Thread nD τ).loc b))

/-! ## The blocks, the accumulator, the output rows -/

/-- The input window's block at point `t`, read off its array as the region finds it. -/
def iblk1 (c : Dev nD) (t : Fin cfg1.N) : Vec F S1x1024x2048 .f32 :=
  ((cfg1.win 0).blk t).view.read (Elt F) (V c (Pipeline.arrRef spec1 0))

/-- The accumulator after a point of the first kind: the block's column sums over the zero row. -/
def accA (c : Dev nD) (t : Fin cfg1.N) : Vec F S1x2048 .f32 := k1_pay2 (k1_pay1 (F := F)) (iblk1 V c t)

/-- The accumulator after a point of the second kind: the block's column sums over what the point before left. -/
def accB (c : Dev nD) (t : Fin cfg1.N) : Vec F S1x2048 .f32 :=
  k1_pay2 (accA V c ⟨t.val - 1, Nat.lt_of_le_of_lt (Nat.sub_le _ _) t.isLt⟩) (iblk1 V c t)

/-- What a point makes of the output's staging buffer holding `Y`: a point of the second kind replaces the row of
    its first coordinate by the product of the accumulator with the window mask; a point of the first kind leaves it. -/
def out1 (c : Dev nD) (t : Fin cfg1.N) (Y : Vec F S9x128 .f32) : Vec F S9x128 .f32 := fun y =>
  if t.val % 2 = 1 ∧ (y 0).val = t.val / 2 then k1_pay3 (accB V c t) (ix2 (0 : Fin 1) (y 1)) else Y y

theorem out1_even (c : Dev nD) (t : Fin cfg1.N) (h : t.val % 2 = 0) (Y : Vec F S9x128 .f32) : out1 V c t Y = Y := by
  funext y; unfold out1; rw [if_neg (by omega)]

/-! ## The invariant: the accumulator between points -/

/-- The accumulator before point `n`: after a point of the first kind it holds that point's sums; before a point of
    the first kind (and after the last point) nothing is said of it. -/
def scrAt (c : Dev nD) (n : ℕ) : sProp 𝕄 :=
  if h : n % 2 = 1 ∧ n - 1 < cfg1.N then owns (c : Thread nD τ) scr1 fullShare (accA V c ⟨n - 1, h.2⟩)
  else iprop(∃ f : Buf (Elt F) ((c : Thread nD τ).loc cc1_scratch0), ((c : Thread nD τ).loc cc1_scratch0) ↦{fullShare} f)

theorem scrAt_even (c : Dev nD) (n : ℕ) (h : n % 2 = 0) :
    scrAt V c n = iprop(∃ f : Buf (Elt F) ((c : Thread nD τ).loc cc1_scratch0), ((c : Thread nD τ).loc cc1_scratch0) ↦{fullShare} f) :=
  dif_neg (by omega)

theorem scrAt_succ (c : Dev nD) (t : Fin cfg1.N) (h : t.val % 2 = 0) :
    scrAt V c (t.val + 1) = owns (c : Thread nD τ) scr1 fullShare (accA V c t) := by
  unfold scrAt
  rw [dif_pos ⟨by omega, by have := t.isLt; omega⟩]
  simp only [Nat.add_sub_cancel, Fin.eta]

theorem scrAt_odd (c : Dev nD) (t : Fin cfg1.N) (h : t.val % 2 = 1) :
    scrAt V c t.val = owns (c : Thread nD τ) scr1 fullShare (accA V c ⟨t.val - 1, Nat.lt_of_le_of_lt (Nat.sub_le _ _) t.isLt⟩) := by
  unfold scrAt
  rw [dif_pos ⟨h, Nat.lt_of_le_of_lt (Nat.sub_le _ _) t.isLt⟩]

/-- The region's invariant before point `n`: the accumulator as `scrAt` says, and the core's other scoped buffers
    that are no staging buffer of the region at some contents. -/
def Φ1 (c : Dev nD) (n : ℕ) : sProp 𝕄 :=
  iprop(scrAt V c n
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f))

/-- Before a point of the first kind, and after the last point, the invariant is the scoped rest. -/
theorem Φ1_even (c : Dev nD) (n : ℕ) (h : n % 2 = 0) :
    Φ1 V c n = (Pipeline.scopedRest (Ix := HIx 1) (Name := ℕ) (U := Setup.UU) (Lvl := ℕ) (Val := Elt F) spec1 c : sProp 𝕄) := by
  rw [scopedRest1_eq]; unfold Φ1; rw [scrAt_even V c n h]

/-! ## The proof data -/

/-- The proof data of the region on core `c`, relational: the arrays as the region finds them; the input's staging
    buffer left as found; the output's changed as `out1` says; the invariant `Φ1`; nothing owed; full shares. -/
def rdat1 (c : Dev nD) : RDat τ (Elt F) (HIx 1) ℕ Setup.UU ℕ cfg1 c where
  A w := V c (Pipeline.arrRef spec1 w)
  after w t := match w with
    | ⟨0, _⟩ => fun Y X => X = Y
    | ⟨1, _⟩ => fun Y X => X = out1 V c t Y
  Φ n := Φ1 V c n.val
  q _ := fullShare
  owed _ := 0

theorem A_eq1 (c : Dev nD) (w : Fin cfg1.W) : (rdat1 V c).A w = V c (Pipeline.arrRef spec1 w) := by
  dsimp only [rdat1]

theorem Φ_zero1 (c : Dev nD) :
    (rdat1 V c).Φ 0 = (Pipeline.scopedRest (Ix := HIx 1) (Name := ℕ) (U := Setup.UU) (Lvl := ℕ) (Val := Elt F) spec1 c : sProp 𝕄) :=
  Φ1_even V c 0 rfl

theorem Φ_last1 (c : Dev nD) :
    (rdat1 V c).Φ (Fin.last cfg1.N) = (Pipeline.scopedRest (Ix := HIx 1) (Name := ℕ) (U := Setup.UU) (Lvl := ℕ) (Val := Elt F) spec1 c : sProp 𝕄) :=
  Φ1_even V c cfg1.N (by rw [show cfg1.N = 18 from N_1])

theorem after1_0 (c : Dev nD) (t : Fin cfg1.N) (Y X) : (rdat1 V c).after 0 t Y X = (X = Y) := by dsimp only [rdat1]
theorem after1_1 (c : Dev nD) (t : Fin cfg1.N) (Y X) : (rdat1 V c).after 1 t Y X = (X = out1 V c t Y) := by dsimp only [rdat1]

/-- The input's current staging buffer holds its block at every point (every point fetches it, whole). -/
theorem finds1_0 (c : Dev nD) (t : Fin cfg1.N) (Y) (h : (rdat1 V c).Finds 0 t Y) : Y = iblk1 V c t := by
  obtain ⟨d, hd⟩ := ((rdat1 V c).finds_of_fetch (fetch1_0 t) Y).mp h
  rw [hd]; rfl

theorem Φ_castSucc1 (c : Dev nD) (t : Fin cfg1.N) : (rdat1 V c).Φ t.castSucc = Φ1 V c t.val := rfl
theorem Φ_succ1 (c : Dev nD) (t : Fin cfg1.N) : (rdat1 V c).Φ t.succ = Φ1 V c (t.val + 1) := rfl

/-- The accumulator's points-to through its whole memref, at any contents, is the scoped rest's clause for it. -/
theorem scr_forget (c : Dev nD) (g : (scr1).view.ty.Contents (Elt F)) :
    ((scr1).view.loc (c : Thread nD τ) ↦[(scr1).view.set]{fullShare} g : sProp 𝕄)
      ⊢ iprop(∃ f : Buf (Elt F) ((c : Thread nD τ).loc cc1_scratch0), ((c : Thread nD τ).loc cc1_scratch0) ↦{fullShare} f) := by
  refine (owns_intro (c : Thread nD τ) scr1 fullShare g).trans ?_
  rw [owns_whole]; iintro H; iexists _; iexact H

/-- At a point of the second kind, what the run leaves in the output's staging buffer is `out1` of what it held. -/
theorem out1_odd (c : Dev nD) (t : Fin cfg1.N) (h2 : t.val % 2 = 1) (hc0 : ¬ cond1_0 (grid1.coords t)) (hc1 : k1_cond2 (grid1.coords t) = 1#1)
    (Y0 : Vec F S1x1024x2048 .f32) (hY0 : Y0 = iblk1 V c t) (Y1 : Vec F S9x128 .f32) :
    (ms1_1 t).view.read (Elt F) ((ms1_1 t).view.writes (Elt F) ((hs1_1 t).unread Y1)
        (kernelRun1_B c (grid1.coords t) (ms1_0 t) (hs1_0 t) (ms1_1 t) (hs1_1 t) scr1 hscr1 hc0 hc1 Y0 Y1
          (accA V c ⟨t.val - 1, Nat.lt_of_le_of_lt (Nat.sub_le _ _) t.isLt⟩)).1)
      = out1 V c t Y1 := by
  funext y
  obtain ⟨h, w, rfl⟩ : ∃ (h : Fin 9) (w : Fin 128), y = ix2 h w := ⟨y 0, y 1, eq_ix2 y⟩
  rw [out_B c _ _ _ _ _ _ _ hc0 hc1 Y0 Y1 _ h w]
  unfold out1 accB
  rw [coords1_0 t, hY0]
  by_cases hh : h.val = t.val / 2
  · rw [if_pos hh, if_pos ⟨h2, hh⟩]
  · rw [if_neg hh, if_neg (fun hx => hh hx.2)]

/-! ## The body obligation -/

set_option maxHeartbeats 800000 in
/-- The body at any point, from any contents the windows' buffers may then hold: the input's buffer holds its block;
    the point's parity decides the case; the run of that case applies; the accumulator's contents pass through the
    invariant; the core owes nothing throughout. -/
theorem sound_body (c : Dev nD) (t : Fin cfg1.N)
    (Y : (w : Fin cfg1.W) → (cfg1.win w).block.Idx → Elt F (cfg1.win w).elt) (hY : ∀ w, (rdat1 V c).Finds w t (Y w)) :
    iprop((rdat1 V c).Φ t.castSucc ∗ (rdat1 V c).owesAt (none : HIx 1) t.castSucc
        ∗ owns (c : Thread nD τ) (ms1_0 t) fullShare (Y 0) ∗ owns (c : Thread nD τ) (ms1_1 t) fullShare (Y 1))
      ⊢ wp frame (wpE (defs₀ (F := F)) Variants.none c none) Set.univ (bodyAt1 t) (fun _ =>
          iprop((rdat1 V c).Φ t.succ ∗ (rdat1 V c).owesAt (none : HIx 1) t.succ
            ∗ (∃ X, ⌜(rdat1 V c).after 0 t (Y 0) X⌝ ∗ owns (c : Thread nD τ) (ms1_0 t) fullShare X)
            ∗ (∃ X, ⌜(rdat1 V c).after 1 t (Y 1) X⌝ ∗ owns (c : Thread nD τ) (ms1_1 t) fullShare X))) := by
  have h0 : Y 0 = iblk1 V c t := finds1_0 V c t (Y 0) (hY 0)
  unfold bodyAt1
  rw [show (rdat1 V c).owesAt (none : HIx 1) t.succ = (rdat1 V c).owesAt (none : HIx 1) t.castSucc from rfl,
    Φ_castSucc1, Φ_succ1]
  simp only [after1_0, after1_1]
  unfold Φ1
  by_cases h2 : t.val % 2 = 0
  · have hc0 : cond1_0 (grid1.coords t) := (hcond1_0 t).mpr h2
    have hc1 : ¬ k1_cond2 (grid1.coords t) = 1#1 := fun h => by have := (hcond1_1 t).mp h; omega
    rw [scrAt_even V c t.val h2, scrAt_succ V c t h2, out1_even V c t h2]
    iintro ⟨⟨⟨%f4, Hs⟩, HR⟩, Ho, H0, H1⟩
    iapply ((kernelRun1_A c (grid1.coords t) _ _ _ _ _ _ hc0 hc1 (Y 0)).2 Set.univ _)
    isplitl [H0]; · iexact H0
    isplitl [Hs]
    · iexists f4; rw [owns_whole]; iexact Hs
    iintro ⟨H0, ⟨%g, H4⟩⟩
    isplitl [H4 HR]
    · isplitl [H4]
      · unfold owns; iexists _; isplitr
        swap; · iexact H4
        ipureintro; unfold accA; rw [← h0]; exact acc_A c _ _ _ _ _ _ _ hc0 hc1 (Y 0) g
      · iexact HR
    isplitl [Ho]; · iexact Ho
    isplitl [H0]
    · iexists (Y 0); isplitr; · ipureintro; rfl
      iexact H0
    iexists (Y 1); isplitr; · ipureintro; rfl
    iexact H1
  · have h2' : t.val % 2 = 1 := by omega
    have hc0 : ¬ cond1_0 (grid1.coords t) := fun h => h2 ((hcond1_0 t).mp h)
    have hc1 : k1_cond2 (grid1.coords t) = 1#1 := (hcond1_1 t).mpr h2'
    rw [scrAt_odd V c t h2', scrAt_even V c (t.val + 1) (by omega)]
    iintro ⟨⟨Hs, HR⟩, Ho, H0, H1⟩
    iapply ((kernelRun1_B c (grid1.coords t) _ _ _ _ _ _ hc0 hc1 (Y 0) (Y 1)
      (accA V c ⟨t.val - 1, Nat.lt_of_le_of_lt (Nat.sub_le _ _) t.isLt⟩)).2.2 Set.univ _)
    isplitl [H0]; · iexact H0
    isplitl [H1]; · iexact H1
    isplitl [Hs]; · iexact Hs
    iintro ⟨H0, H3, H4⟩
    isplitl [H4 HR]
    · isplitl [H4]
      · iapply (scr_forget c _); iexact H4
      · iexact HR
    isplitl [Ho]; · iexact Ho
    isplitl [H0]
    · iexists (Y 0); isplitr; · ipureintro; rfl
      iexact H0
    iexists _; isplitr
    swap
    · unfold owns; iexists _; isplitr
      swap; · iexact H3
      ipureintro; rfl
    ipureintro
    exact out1_odd V c t h2' hc0 hc1 (Y 0) h0 (Y 1)

/-- The library's body obligation of the relational proof data, at every point. -/
theorem body_obligation1 (c : Dev nD) :
    (rdat1 (F := F) V c).BodyObligation (defs₀ (F := F)) Variants.none (none : HIx 1) Set.univ := fun t Y hY => by
  rw [bigSep_W1, bigSep_W1]
  exact sound_body V c t Y hY

end Cert.Kernel.Region1

end
-- ==== Proof.Bits.Region2.lean ====
/-
  The second TensorCore region's body: the gridless call that assembles the three output planes.

  The body reads the column sums (window 1) and the TensorCore's window rows (window 0), and fills the output
  (window 2) by three stores, one whole plane each: plane 0 holds the 9 window rows over the 7 rows obtained by
  summing the column sums in groups of eight and multiplying by the 0/1 window-membership matrix, padded with the
  not-a-number word beyond column 128 and masked to the live columns; planes 1 and 2 both hold the column number
  as a float on the live columns and the not-a-number word elsewhere.

  Stated at any float instance, at a parameter `V`: the TensorCore's buffer contents when the region is entered.
  Each input window's staging buffer holds its block; the output's buffer ends at `out2_2` of the two input blocks,
  the canonical contents of the three stores; the invariant and what the core owes pass through the body unread.
-/
import proofs.«216449_g46943992545511_cont_8to1_c_491_21_alg».proof.Proof.Bits.Setup
import proofs.«216449_g46943992545511_cont_8to1_c_491_21_alg».proof.Proof.Gen.Kernel.Launch
import proofs.«216449_g46943992545511_cont_8to1_c_491_21_alg».proof.Proof.Gen.Kernel.Skeleton
import proofs.«216449_g46943992545511_cont_8to1_c_491_21_alg».proof.Proof.Gen.Kernel.Points
import Idealize.ShloMosaic.Lib.Pipeline.FrameBody
import Idealize.ShloMosaic.Lib.Pipeline.Frame
import Idealize.ShloMosaic.Lib.Tactic

-- membership in a rectangle of these extents: the elaborator's structural look recurses once per coordinate
set_option maxRecDepth 16384

noncomputable section

namespace Cert.Kernel.Region2

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => Setup.𝕄F F

-- the TensorCore's buffer contents when the region is entered
variable (V : (c : Dev nD) → (b : Ref sig .tc) → Buf (Elt F) ((c : Thread nD τ).loc b))

/-! ## The windows' blocks -/

/-- Window `w`'s block at the one grid point, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s (`hA`) and whose body leaves the block in place (`hafter`): the window is uncut and never idle. -/
theorem before2_0_of {c : Dev nD} (dat : Dat τ (Elt F) (HIx 1) ℕ Setup.UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) (HIx 1) ℕ Setup.UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of window 0 (9 × 128) and of window 1 (114688 words): what the two loads read. -/
abbrev l2_0 : Rect S9x128 := Rect.unit (s := S9x128) ![0, 0] S9x128.size inb_S9x128_S9x128_0_0
abbrev l2_1 : Rect S114688 := Rect.unit (s := S114688) ![0] S114688.size inb_S114688_S114688_0

/-- Plane `k` of the output (1 × 16 × 30000 at offset `k` along axis 0): what store `k` writes. -/
abbrev r2_0 : Rect S3x16x30000 := Rect.unit (s := S3x16x30000) ![0, 0, 0] S1x16x30000.size inb_S3x16x30000_S1x16x30000_0_0_0
abbrev r2_1 : Rect S3x16x30000 := Rect.unit (s := S3x16x30000) ![1, 0, 0] S1x16x30000.size inb_S3x16x30000_S1x16x30000_1_0_0
abbrev r2_2 : Rect S3x16x30000 := Rect.unit (s := S3x16x30000) ![2, 0, 0] S1x16x30000.size inb_S3x16x30000_S1x16x30000_2_0_0

/-! ## What the body leaves in the output window's buffer -/

/-- Window 2's staging buffer after the body, from the input windows' blocks: its three stores as pieces, last
    first. Plane 0's payload is the assembled rows (the 7 matrix-product rows from the column sums under the 9
    window rows); planes 1 and 2 carry the column-number payload. -/
def out2_2 (x0 : Vec F S9x128 .f32) (x1 : Vec F S114688 .f32) : Vec F S3x16x30000 .f32 :=
  View.canon [⟨r2_2, k2_pay5 (F := F)⟩, ⟨r2_1, k2_pay4 (F := F)⟩, ⟨r2_0, k2_pay2 (k2_pay6 (View.ld x1 l2_1)) (View.ld x0 l2_0)⟩]

/-- The three planes tile the buffer (one block per plane along axis 0), so the stores cover it. -/
theorem cover2_2 (p0 p1 p2 : Vec F S1x16x30000 .f32) (y : S3x16x30000.Idx) :
    ∃ pc ∈ ([⟨r2_2, p0⟩, ⟨r2_1, p1⟩, ⟨r2_0, p2⟩] : List (View.Piece (Elt F) S3x16x30000 .f32)), y ∈ pc.1.set :=
  View.cover_of_tiled [⟨r2_2, p0⟩, ⟨r2_1, p1⟩, ⟨r2_0, p2⟩] S1x16x30000.size (by rfl) y

/-! ## The body's triple -/

set_option maxHeartbeats 1000000 in
/-- The body on whole staging memrefs, the inputs' at read contents `x0`, `x1` and the output's at anything, runs to
    the continuation holding the inputs' as they were and the output's at `out2_2 x0 x1`. -/
theorem sound_kernel2 (c : Dev nD) (E : Set ℕ) (arg0 : Memref sig .tc .vmem S9x128 .f32) (harg0 : arg0.IsWhole) (arg1 : Memref sig .tc .vmem S114688 .f32) (harg1 : arg1.IsWhole) (arg2 : Memref sig .tc .vmem S3x16x30000 .f32) (harg2 : arg2.IsWhole)
    (x0 : Vec F S9x128 .f32) (x1 : Vec F S114688 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__asm_body arg0 harg0 arg1 harg1 arg2 harg2) K := by
  simp only [cc2__asm_body_eq_skeleton]; unfold cc2__asm_body_skel
  simp only [k2_part1_eq_skeleton]; unfold k2_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _ _ _)

/-! ## The pipeline's proof data -/

/-- The region's invariant on core `c`: the core's scoped buffers that are no staging buffer of this call, at some
    contents each, and its generator register at some state. The body uses neither. -/
def Φ2 (c : Dev nD) : sProp 𝕄 :=
  iprop(Pipeline.scopedRest (Ix := HIx 1) (Name := ℕ) (U := Setup.UU) (Lvl := ℕ) (Val := Elt F) spec2 c ∗ ∃ r, prngReg c r)

/-- The proof data of the call on core `c`: the arrays as the region finds them (`V`); after the body each input's
    buffer at its block and the output's at `out2_2` of the two input blocks; nothing owed; full shares. -/
def dat2 (c : Dev nD) : Dat τ (Elt F) (HIx 1) ℕ Setup.UU ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Φ2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one (the pipeline's own waits sit at the index `none`), -/
def bodyPre2 (c : Dev nD) (t : Fin cfg2.N) : sProp 𝕄 :=
  iprop((dat2 V c).Φ t.castSucc ∗ (dat2 V c).owesAt (none : HIx 1) t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt (none : HIx 1) t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at the point: the inputs' memrefs hold their blocks, so the body's triple applies; the invariant and
    the core's owed tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt (none : HIx 1) t.succ = (dat2 V c).owesAt (none : HIx 1) t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none (none : HIx 1) Set.univ := fun t => by
  rw [bigSep_W2, bigSep_W2]
  exact sound_body2 V c t

end Cert.Kernel.Region2

end
-- ==== Proof.Bits.Seg1.lean ====
/-
  The first TensorCore region (heads 0..8: the column sums over the two halves of the rows, then the window product)
  as a segment of @main: entered from every unscoped buffer at a valuation, it leaves them at that valuation with the
  window array at what the points wrote. Its proof data are relational (the output buffer is written a row per head),
  so at the exit the arrays are presented at SOME contents the write-backs allow, which are the named ones.
-/
import proofs.«216449_g46943992545511_cont_8to1_c_491_21_alg».proof.Proof.Bits.Launch
import proofs.«216449_g46943992545511_cont_8to1_c_491_21_alg».proof.Proof.Bits.Region1
import proofs.«216449_g46943992545511_cont_8to1_c_491_21_alg».proof.Proof.Bits.Region2
import Idealize.ShloMosaic.Lib.Pipeline.FrameSuffix
import Idealize.ShloMosaic.Lib.Pipeline.RegionsLoop

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]

open Idealize.ShloMosaic.Pipeline (Dat RDat)
open Idealize.ShloMosaic.TcCoe

variable (Wa : Dev nD → Valuation τ sig (Elt F))
variable [∀ e, Nonempty (Elt F e)]

/-- The valuation the region is entered at, read at the TensorCore's references. -/
abbrev Va : (c : Dev nD) → (b : Ref sig .tc) → Buf (Elt F) ((c : Thread nD τ).loc b) := fun c b => Wa c (Proc.devRef .tc b)

/-- The family the first region's record is stated over: its own relational data; at the second pipeline any will do. -/
def rdats1 : (p : Fin 2) → (c : Dev nD) → RDat τ (Elt F) (HIx 1) ℕ UU ℕ (Pipeline.pin (pcfgs (F := F)) adm p) c
  | ⟨0, _⟩ => fun c => Region1.rdat1 (Va Wa) c
  | ⟨1, _⟩ => fun c => (Region2.dat2 (Va Wa) c).toR

-- what the window array holds after the region, and that the write-backs allow nothing else
variable (win1 : (c : Dev nD) → Buf (Elt F) ((cfg1.win 1).arr.view.loc (c : Thread nD τ)))
variable (hA1 : ∀ c G, (Region1.rdat1 (Va Wa) c).ArrAt 1 cfg1.N G → G = win1 c)
variable (hA0 : ∀ c G, (Region1.rdat1 (Va Wa) c).ArrAt 0 cfg1.N G → G = Va Wa c (Pipeline.arrRef spec1 0))

/-- The arrays' final contents, window by window. -/
def fin1 (c : Dev nD) : (w : Fin cfg1.W) → Buf (Elt F) ((cfg1.win w).arr.view.loc (c : Thread nD τ))
  | ⟨0, _⟩ => Va Wa c (Pipeline.arrRef spec1 0)
  | ⟨1, _⟩ => win1 c

/-- At the region's exit: its arrays at those contents, every other buffer as entered. -/
def W3 (c : Dev nD) : Valuation τ sig (Elt F) := Pipeline.withArrays spec1 c (Wa c) (fin1 Wa win1 c)
theorem W3_arr (c : Dev nD) (w : Fin cfg1.W) : W3 Wa win1 c (Proc.devRef .tc (Pipeline.arrRef spec1 w)) = fin1 Wa win1 c w := by
  unfold W3; exact Pipeline.withArrays_arr spec1 launch1.win.arr_inj c _ _ w
theorem W3_of_ne (c : Dev nD) (b : Ref sig .tc) (hb : ∀ w, Pipeline.arrRef spec1 w ≠ b) :
    W3 Wa win1 c (Proc.devRef .tc b) = Wa c (Proc.devRef .tc b) := by
  unfold W3; exact Pipeline.withArrays_of_ne spec1 c _ _ b hb
abbrev V3' : (c : Dev nD) → (b : Ref sig .tc) → Buf (Elt F) ((c : Thread nD τ).loc b) := fun c b => W3 Wa win1 c (Proc.devRef .tc b)

/-- Every array of the first region is held whole. -/
theorem share1 (c : Dev nD) (w : Fin cfg1.W) : (rdats1 Wa 0 c).share w = fullShare := by
  unfold Pipeline.RDat.share; split <;> rfl

include hA1 hA0 in
/-- One array at some contents the write-backs allow is that array at the named contents. -/
theorem arrayAt_named (c : Dev nD) (w : Fin cfg1.W) :
    (iprop(∃ G, ⌜(rdats1 Wa 0 c).ArrAt w cfg1.N G⌝
        ∗ (cfg1.win w).arr.view.loc (c : Thread nD τ) ↦[(cfg1.win w).arr.view.set]{(rdats1 Wa 0 c).share w} G) : sProp 𝕄)
      ⊢ (cfg1.win w).arr.view.loc (c : Thread nD τ) ↦[(cfg1.win w).arr.view.set]{(rdats1 Wa 0 c).share w} fin1 Wa win1 c w := by
  iintro ⟨%G, %hG, H⟩
  have e : G = fin1 Wa win1 c w := by
    match w with
    | ⟨0, _⟩ => exact hA0 c G hG
    | ⟨1, _⟩ => exact hA1 c G hG
  rw [← e]; iexact H

include hA1 hA0 in
/-- The arrays at some contents the write-backs allow are the arrays at the named contents. -/
theorem arraysAt_named (c : Dev nD) :
    ((rdats1 Wa 0 c).arraysAt cfg1.N : sProp 𝕄) ⊢ (rdats1 Wa 0 c).arrays (fin1 Wa win1 c) := by
  unfold Pipeline.RDat.arraysAt Pipeline.RDat.arrays
  exact bigSep_mono fun w _ => arrayAt_named Wa win1 hA1 hA0 c w

/-- The arrays at the named contents and the unscoped rest as entered are every unscoped buffer at the exit valuation. -/
theorem unscopedBufs_of_arrays_R (c : Dev nD) :
    iprop((rdats1 Wa 0 c).arrays (fin1 Wa win1 c) ∗ Pipeline.unscopedRest (Ix := HIx 1) (Name := ℕ) (U := UU) (Lvl := ℕ) spec1 c (Va Wa c))
      ⊢ (unscopedBufs c (V3' Wa win1 c) : sProp 𝕄) := by
  rw [Pipeline.unscopedBufs_split (Pipeline.pin (pcfgs (F := F)) adm) 0 launch1.win.arr_unscoped launch1.win.arr_inj c (V3' Wa win1 c),
    Pipeline.RDat.arrays_eq (pcfgs (F := F)) adm (rdats1 Wa) 0 c launch1.arr_whole (share1 Wa c)]
  refine BIClass.sep_mono (Entails.of_eq (bigSep_congr fun w _ => by rw [show V3' Wa win1 c (Pipeline.arrRef (Pipeline.pin (pcfgs (F := F)) adm 0).spec w) = fin1 Wa win1 c w from W3_arr Wa win1 c w])) (Entails.of_eq ?_)
  unfold Pipeline.unscopedRest
  exact bigSep_congr fun b hb => by
    rw [show V3' Wa win1 c b = Va Wa c b from W3_of_ne Wa win1 c b fun w e => (Finset.mem_sdiff.mp hb).2 (Finset.mem_image.mpr ⟨w, Finset.mem_univ _, e⟩)]

set_option backward.isDefEq.respectTransparency.types false in
/-- The first region over the thread state. -/
def R1 : Pipeline.RDat.RegionSeg (pcfgs (F := F)) adm (rdats1 Wa) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := Region1.body_obligation1 (Va Wa) c
  hwaits := Pipeline.RDat.hwaits_of_owed_zero _ _ _ _ (K (F := F)).L (K (F := F)).lev 0 fun _ _ => rfl
  pre c := TS Wa c
  post c := TS (W3 Wa win1) c
  X c := iprop(emp)
  Y c := iprop(emp)
  Z c := iprop(Pipeline.unscopedRest (Ix := HIx 1) (Name := ℕ) (U := UU) (Lvl := ℕ) spec1 c (Va Wa c) ∗ ∃ r, prngReg c r)
  hentry c := by
    rw [Pipeline.ownSems0_none]
    have hsplit := Pipeline.RDat.arrays_of_unscopedBufs (p := 0) (pcfgs (F := F)) adm (rdats1 Wa) launch1.win launch1.arr_whole c
      (share1 Wa c) (Va Wa c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (rdats1 Wa 0 c).Φ 0 = _ from Region1.Φ_zero1 (Va Wa) c]
    iintro ⟨-, -, Hr⟩
    iexact Hr
  hout c := by
    rw [Pipeline.ownSems0_none, show (rdats1 Wa 0 c).Φ (Fin.last _) = _ from Region1.Φ_last1 (Va Wa) c]
    iintro Hr
    isplitr; · iempintro
    isplitr; · iempintro
    iexact Hr
  hexit c := by
    have hjoin := unscopedBufs_of_arrays_R Wa win1 c
    rw [Pipeline.unscopedBufs_held] at hjoin
    iintro ⟨Ha, HO, -, ⟨Hrest, Hp⟩⟩
    ihave Ha' := (arraysAt_named Wa win1 hA1 hA0 c) $$ Ha
    imodintro
    isplitl [Ha' Hrest]
    · iapply hjoin; isplitl [Ha'] <;> iassumption
    isplitl [Hp]; · iexact Hp
    unfold Pipeline.RDat.owesAt Pipeline.owesWithin
    icases HO with ⟨%W, -, HO⟩; iexists W; iexact HO

end Cert.Kernel.Launch

end
-- ==== Proof.Bits.Seg2.lean ====
/-
  The second TensorCore region (the planes assembled) as a segment of @main: entered from every unscoped buffer at
  the valuation the first region left, it leaves them at that valuation with the planes' array at what the body
  wrote; its three arrays are split out of the unscoped buffers at the entry and put back at the exit; the generator
  register passes through the region's invariant; nothing is owed; the kernel has no semaphore of its own.
-/
import proofs.«216449_g46943992545511_cont_8to1_c_491_21_alg».proof.Proof.Bits.Launch
import proofs.«216449_g46943992545511_cont_8to1_c_491_21_alg».proof.Proof.Bits.Region2
import Idealize.ShloMosaic.Lib.Pipeline.FrameSuffix
import Idealize.ShloMosaic.Lib.Pipeline.RegionsLoop

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]

open Idealize.ShloMosaic.Pipeline (Dat)
open Idealize.ShloMosaic.TcCoe

variable (W3 : Dev nD → Valuation τ sig (Elt F))
variable [∀ e, Nonempty (Elt F e)]

/-- The valuation the first region left, read at the TensorCore's references. -/
abbrev V3 : (c : Dev nD) → (b : Ref sig .tc) → Buf (Elt F) ((c : Thread nD τ).loc b) := fun c b => W3 c (Proc.devRef .tc b)

/-- Exact proof data are needed at the second pipeline only; at the first any will do: its arrays as found, each
    buffer at its block. -/
def dat1x (c : Dev nD) : Dat τ (Elt F) (HIx 1) ℕ UU ℕ cfg1 c where
  A w := V3 W3 c (Pipeline.arrRef spec1 w)
  after w t := fun _ => Classical.choice inferInstance
  Φ _ := iprop(emp)
  q _ := fullShare
  owed _ := 0

/-- The family the second region's record is stated over. -/
def pdats2 : (p : Fin 2) → (c : Dev nD) → Dat τ (Elt F) (HIx 1) ℕ UU ℕ (Pipeline.pin (pcfgs (F := F)) adm p) c
  | ⟨0, _⟩ => fun c => dat1x W3 c
  | ⟨1, _⟩ => fun c => Region2.dat2 (V3 W3) c

/-- At the region's exit: its arrays at what the pipeline leaves, every other buffer as entered. -/
def W4 (c : Dev nD) : Valuation τ sig (Elt F) :=
  Pipeline.withArrays spec2 c (W3 c) fun w => (Region2.dat2 (V3 W3) c).arrAt w cfg2.N
theorem W4_arr (c : Dev nD) (w : Fin cfg2.W) :
    W4 W3 c (Proc.devRef .tc (Pipeline.arrRef spec2 w)) = (Region2.dat2 (V3 W3) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 W3 c (Proc.devRef .tc b) = W3 c (Proc.devRef .tc b) := by
  unfold W4; exact Pipeline.withArrays_of_ne spec2 c _ _ b hb
abbrev V4 : (c : Dev nD) → (b : Ref sig .tc) → Buf (Elt F) ((c : Thread nD τ).loc b) := fun c b => W4 W3 c (Proc.devRef .tc b)
theorem hF2 (c : Dev nD) (w : Fin cfg2.W) : (Region2.dat2 (V3 W3) c).arrAt w cfg2.N = V4 W3 c (Pipeline.arrRef spec2 w) :=
  (W4_arr W3 c w).symm
theorem hrest2 (c : Dev nD) : ∀ b, b ∉ Finset.univ.image (Pipeline.arrRef spec2) → V4 W3 c b = V3 W3 c b :=
  fun b hb => W4_of_ne W3 c b fun w e => hb (Finset.mem_image.mpr ⟨w, Finset.mem_univ _, e⟩)

set_option backward.isDefEq.respectTransparency.types false in
/-- The second region over the thread state. -/
def reg2x : Pipeline.RegionSeg (pcfgs (F := F)) adm (pdats2 W3) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (Region2.body_obligation2 (V3 W3) c).loose
  hwaits := Pipeline.hwaits_of_owed_zero _ _ _ _ (K (F := F)).L (K (F := F)).lev 1 fun _ _ => rfl
  pre c := TS W3 c
  post c := TS (W4 W3) c
  X c := iprop(∃ r, prngReg c r)
  Y c := iprop(∃ r, prngReg c r)
  Z c := Pipeline.unscopedRest (Ix := HIx 1) (Name := ℕ) (U := UU) (Lvl := ℕ) spec2 c (V3 W3 c)
  hentry c := by
    rw [Pipeline.ownSems0_none]
    have hsplit := Pipeline.arrays_of_unscopedBufs (p := 1) (pcfgs (F := F)) adm (pdats2 W3) launch2.win launch2.arr_whole c
      ((pdats2 W3 1 c).share_full fun _ => rfl) (V3 W3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats2 W3 1 c).Φ 0 = Region2.Φ2 (F := F) c from rfl]; unfold Region2.Φ2
    iintro ⟨Hp, -, Hr⟩
    isplitl [Hr]; · iexact Hr
    iexact Hp
  hout c := by
    rw [Pipeline.ownSems0_none, show (pdats2 W3 1 c).Φ (Fin.last _) = Region2.Φ2 (F := F) c from rfl]; unfold Region2.Φ2
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats2 W3) ((pdats2 W3 1 c).share_full fun _ => rfl)
      (V3 W3 c) (V4 W3 c) ((pdats2 W3 1 c).arrAt · cfg2.N) (hF2 W3 c) (hrest2 W3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The same as a region of relational data, the form the launch takes. -/
def R2 : Pipeline.RDat.RegionSeg (pcfgs (F := F)) adm (Pipeline.Dat.toRs (pdats2 W3)) (none : HIx 1) defs₀ 𝒱₀ (K (F := F)).L (K (F := F)).lev 1 :=
  (reg2x W3).toR (pcfgs (F := F)) adm (pdats2 W3) (none : HIx 1) defs₀ 𝒱₀ (K (F := F)).L (K (F := F)).lev

end Cert.Kernel.Launch

end
-- ==== Proof.Bits.TileObl.lean ====
/-
  A tile's task as the launch theorem asks it: the body table's row at a vector subcore is the kernel function at the
  tile's place, on the whole arrays and the tile's scratch; its proof at a symbolic place (over the kernels' own body
  table) lifts to the pipelines' table, and the task's payload — the tile's read share of the scores and its seven
  pieces of the column-sum array, named as the TensorCore names them — is the same resource as the kernel's memrefs
  address it.
-/
import proofs.«216449_g46943992545511_cont_8to1_c_491_21_alg».proof.Proof.Bits.Pay
import proofs.«216449_g46943992545511_cont_8to1_c_491_21_alg».proof.Proof.Gen.Kernel.Skeleton

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]
variable (colS : (d : Dev nD) → Buf (Elt F) (oLoc d))

/-- The kernel function at a place, on what the body table passes it. -/
abbrev bodyAt (L : grid0.Coords) : Prog (TpuEff nD τ sig (Elt F) Λ₀ (.scVector ((L 0).castLE hcore0) ((L 1).castLE hsub0))) PUnit :=
  cc0__sc_body L (Memref.whole main_v0_scv) (Memref.isWhole_whole _) (Memref.whole main_v1_scv) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4
    cc0_scoped0 cc0_scoped1 cc0_scoped2 cc0_scoped3 cc0_scoped4 cc0_scoped5 cc0_scoped6

/-- The thread of the tile at a place. -/
abbrev thrAt (d : Dev nD) (L : grid0.Coords) : Thread nD τ := SparseCore.V d ((L 0).castLE hcore0) ((L 1).castLE hsub0)

/-- What a tile's body is asked, the scores holding `As d`: from a read share of them, its seven pieces at anything, its
    scoped storage and what it owes, it runs to the same with every piece at the one whole-array function `cs d`,
    having recorded waits at index `none` only. -/
def TileBodySpec (As : (d : Dev nD) → Buf (Elt F) (aLoc d)) (cs : (d : Dev nD) → Buf (Elt F) (oLoc d)) : Prop :=
  ∀ (d : Dev nD) (L : grid0.Coords) (O : CellTallies nD τ sig (HIx 1)) (W : Waits sig (HIx 1)) (q : PosShare TreeShare),
    (∀ g, O g none = 0) →
    iprop(levAts (K (F := F)).L (K (F := F)).lev
        ∗ ((Memref.whole main_v0_scv : Memref sig .scVector .hbm S16x2048x2048 .f32).view.loc (thrAt d L) ↦{q} As d)
        ∗ (bigSep Finset.univ fun k : Fin 7 => iprop(∃ f, (outPiece L k).view.loc (thrAt d L) ↦[(outPiece L k).view.set]{fullShare} f))
        ∗ scopedBufs (thrAt d L) ∗ scopedSems0 (thrAt d L) ∗ owes (thrAt d L) O W : sProp 𝕄)
      ⊢ wp frame (wpE (defs₀ (F := F)) 𝒱₀ (thrAt d L) none) Set.univ (bodyAt (F := F) L) fun _ =>
          iprop(((Memref.whole main_v0_scv : Memref sig .scVector .hbm S16x2048x2048 .f32).view.loc (thrAt d L) ↦{q} As d)
            ∗ (bigSep Finset.univ fun k : Fin 7 => (outPiece L k).view.loc (thrAt d L) ↦[(outPiece L k).view.set]{fullShare} cs d)
            ∗ scopedBufs (thrAt d L) ∗ scopedSems0 (thrAt d L)
            ∗ ∃ W', ⌜∀ p ∈ W', p ∈ W ∨ p.2 = none⌝ ∗ owes (thrAt d L) O W')

theorem defs₀_vector (c : Fin τ.nSC) (s : Fin τ.nSub) :
    defs₀ (F := F) (.scVector c s) 0 ()
      = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- The scores as a tile's memref addresses them are the TensorCore's array. -/
theorem pts_a (d : Dev nD) (L : grid0.Coords) (q : PosShare TreeShare) (f : Buf (Elt F) (aLoc d)) :
    (((Memref.whole main_v0_scv : Memref sig .scVector .hbm S16x2048x2048 .f32).view.loc (thrAt d L) ↦{q} f : sProp 𝕄))
      = (aLoc d ↦{q} f) := by
  simp only [Memref.view_whole, View.set_whole]

/-- A piece as the tile's slice addresses it is that set of indices of the TensorCore's column-sum array. -/
theorem pts_o (d : Dev nD) (L : grid0.Coords) (k : Fin 7) (f : Buf (Elt F) (oLoc d)) :
    (((outPiece L k).view.loc (thrAt d L) ↦[(outPiece L k).view.set]{fullShare} f : sProp 𝕄))
      = (oLoc d ↦[pieceSet L k]{fullShare} f) := rfl

theorem tileObl (hbody : TileBodySpec (F := F) (A m) colS) : (K (F := F)).TileObl (D (F := F)) 𝒱 (P m colS) v₀ 0 := by
  intro d c i O W hO _ _
  simp only [show (P m colS).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := hbody d (coordsV ⟨_, hc.1⟩ ⟨_, hc.2⟩) O W (qTile (Fin.cast nCore_zero c) (Fin.cast nSub_zero i)) hO
  have hL : placeOf (Fin.cast nCore_zero c) (Fin.cast nSub_zero i) = coordsV ⟨_, hc.1⟩ ⟨_, hc.2⟩ := rfl
  refine BI.Entails.trans ?_ (hb.trans (wp_mono frame _ _ fun _ => ?_))
  · show iprop(levAts _ _ ∗ emp ∗ goR m d (Fin.cast nCore_zero c) (Fin.cast nSub_zero i) ∗ _ ∗ _ ∗ _) ⊢ _
    unfold goR; rw [hL, pts_a]
    simp only [pts_o]
    iintro ⟨Hl, -, ⟨Ha, Hp⟩, Hsb, Hss, HO⟩
    isplitl [Hl]; · iexact Hl
    isplitl [Ha]; · iexact Ha
    isplitl [Hp]; · iexact Hp
    isplitl [Hsb]; · iexact Hsb
    isplitl [Hss]; · iexact Hss
    iexact HO
  · refine BI.Entails.trans ?_ (obl_post (q := (0 : Fin 1)))
    show _ ⊢ iprop(tdR m colS d (Fin.cast nCore_zero c) (Fin.cast nSub_zero i) ∗ _ ∗ _ ∗ _)
    unfold tdR; rw [hL, pts_a]
    simp only [pts_o]
    iintro ⟨Ha, Hp, Hsb, Hss, HO⟩
    isplitl [Ha Hp]
    · isplitl [Ha]; · iexact Ha
      iexact Hp
    isplitl [Hsb]; · iexact Hsb
    isplitl [Hss]; · iexact Hss
    iexact HO

end Cert.Kernel.Launch

end
-- ==== Proof.Bits.Region1.Final.lean ====
/-
  What the first TensorCore region leaves in its two windows' arrays, as determinate functions of what it finds,
  generic in the float instance: the operand's array is never written; the result array is written once, after the
  last point, with the whole staging buffer, every row of which some point has stored by then.
-/
import proofs.«216449_g46943992545511_cont_8to1_c_491_21_alg».proof.Proof.Bits.Region1
import Idealize.ShloMosaic.Lib.Pipeline.Cells

set_option maxRecDepth 16384

noncomputable section

namespace Cert.Kernel.Region1

open Cert.Kernel Cert.Kernel.Gen Cert.Kernel.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => Setup.𝕄F F

open Idealize.ShloMosaic.ValueIdx

variable (V : (c : Dev nD) → (b : Ref sig .tc) → Buf (Elt F) ((c : Thread nD τ).loc b))

/-! ## The rows of the output, point by point -/

theorem row_lt (h : Fin 9) : 2 * h.val + 1 < cfg1.N := by rw [show cfg1.N = 18 from N_1]; omega

/-- The point that stores row `h` of the output: the second point of head `h`. -/
def rowPt (h : Fin 9) : Fin cfg1.N := ⟨2 * h.val + 1, row_lt h⟩

/-- Row `h` of the output as its point stores it: the product with the window mask of the column sums of head `h`'s
    two blocks, accumulated in point order over the zero row. -/
def rowVal (c : Dev nD) (h : Fin 9) (w : Fin 128) : Elt F .f32 := k1_pay3 (accB V c (rowPt h)) (ix2 (0 : Fin 1) w)

/-- Contents of the output's staging buffer whose rows stored by the points below `n` are as stored. -/
def Rows (c : Dev nD) (n : ℕ) (Y : Vec F S9x128 .f32) : Prop :=
  ∀ (h : Fin 9) (w : Fin 128), 2 * h.val + 1 < n → Y (ix2 h w) = rowVal V c h w

/-- A point keeps the rows stored before it and, if of the second kind, adds its own. -/
theorem out1_rows (c : Dev nD) (t : Fin cfg1.N) (Y : Vec F S9x128 .f32) (hY : Rows V c t.val Y) : Rows V c (t.val + 1) (out1 V c t Y) := by
  intro h w hn
  unfold out1
  by_cases hc : t.val % 2 = 1 ∧ ((ix2 h w : S9x128.Idx) 0).val = t.val / 2
  · rw [if_pos hc]
    have hh : h.val = t.val / 2 := hc.2
    obtain rfl : t = rowPt h := Fin.ext (by show t.val = 2 * h.val + 1; omega)
    rfl
  · rw [if_neg hc]
    refine hY h w ?_
    have hh : ¬ (t.val % 2 = 1 ∧ h.val = t.val / 2) := hc
    omega

/-- The output window is never fetched. -/
theorem fetch1_1 (t : Fin cfg1.N) : (cfg1.win 1).fetch t = false := rfl

/-- What the output's staging buffer may hold before point `n` has the rows stored below `n`. -/
theorem finds_rows (c : Dev nD) : ∀ (n : ℕ) (hn : n < cfg1.N) (Y : Vec F S9x128 .f32), (rdat1 V c).Finds 1 ⟨n, hn⟩ Y → Rows V c n Y
  | 0, _, _, _ => fun h w hlt => absurd hlt (Nat.not_lt_zero _)
  | n + 1, hn, Y, hF => by
    rw [(rdat1 V c).finds_of_pos (fetch1_1 _) (Nat.succ_ne_zero n)] at hF
    have hN : cfg1.N = 18 := N_1
    rcases hF with hfl | ⟨Y', hF', ha⟩
    · exfalso
      have := (flush1_1 _).mp hfl
      dsimp only at this
      omega
    · rw [after1_1] at ha
      subst ha
      simp only [Nat.add_sub_cancel] at hF' ⊢
      exact out1_rows V c ⟨n, Nat.lt_of_succ_lt hn⟩ Y' (finds_rows c n _ Y' hF')

/-! ## The arrays after the region -/

/-- What the region leaves in the result array, as a function of what it finds in the operand: row `h` is `rowVal h`. -/
def win1v (c : Dev nD) : Vec F S9x128 .f32 := fun y => rowVal V c (y 0) (y 1)

/-- The same as the result array's contents. -/
def win1 (c : Dev nD) : Buf (Elt F) ((cfg1.win 1).arr.view.loc (c.tc : Thread nD τ)) := win1v V c

/-- The operand's array is never written: it ends as the region finds it. -/
theorem arrAt1_0 (c : Dev nD) (G : Buf (Elt F) ((cfg1.win 0).arr.view.loc (c.tc : Thread nD τ)))
    (hG : (rdat1 V c).ArrAt 0 cfg1.N G) : G = V c (Pipeline.arrRef spec1 0) := by
  rw [(rdat1 V c).ArrAt_in 0 rfl cfg1.N] at hG
  exact hG.trans (A_eq1 V c 0)

/-- The result array is written once, after the last point, with the whole staging buffer, all of whose rows have
    been stored by then: it ends at `win1`, whatever the staging buffer held when the region began. -/
theorem arrAt1_1 (c : Dev nD) (G : Buf (Elt F) ((cfg1.win 1).arr.view.loc (c.tc : Thread nD τ)))
    (hG : (rdat1 V c).ArrAt 1 cfg1.N G) : G = win1 V c := by
  have key : ∀ n, n = 18 → (rdat1 V c).ArrAt 1 n G → G = win1 V c := by
    intro n hn hA
    subst hn
    have hN : cfg1.N = 18 := N_1
    have h17 : 17 < cfg1.N := by rw [hN]; omega
    have low : ∀ n, n ≤ 17 → (rdat1 V c).ArrAt 1 n = fun F => F = (rdat1 V c).A 1 := by
      intro n
      induction n with
      | zero => intro _; rfl
      | succ n ih =>
        intro hn
        have hs := (rdat1 V c).ArrAt_succ 1 ⟨n, by rw [hN]; omega⟩
        rw [hs, if_neg (by
          intro hf
          have := (flush1_1 _).mp hf
          dsimp only at this
          omega)]
        exact ih (by omega)
    have hs := (rdat1 V c).ArrAt_succ 1 ⟨17, h17⟩
    rw [show (18 : ℕ) = 17 + 1 from rfl, hs, if_pos ((flush1_1 _).mpr rfl), low 17 (le_refl _)] at hA
    obtain ⟨G₀, X, hG₀, ⟨Y, hF, ha⟩, rfl⟩ := hA
    rw [after1_1] at ha
    subst ha
    have hR := out1_rows V c ⟨17, h17⟩ Y (finds_rows V c 17 h17 Y hF)
    funext i
    obtain ⟨h, w, rfl⟩ : ∃ (h : Fin 9) (w : Fin 128), i = ix2 h w := ⟨i 0, i 1, eq_ix2 (n0 := 9) (n1 := 128) i⟩
    show ((View.whole main_v2).slice (win1_1.rect ⟨17, h17⟩)).write (Elt F) G₀ _ Finset.univ (ix2 h w) = _
    have hemb : ((View.whole main_v2).slice (win1_1.rect ⟨17, h17⟩)).emb (ix2 h w) = ix2 h w := by
      funext a; apply Fin.ext
      rw [View.emb_slice, Function.Embedding.trans_apply, View.emb_whole, Function.Embedding.refl_apply]
      exact win1_1.rect_emb_val_of_index_zero ⟨17, h17⟩ a (by fin_cases a <;> rfl) (ix2 h w)
    conv_lhs => rw [← hemb]
    rw [View.write_emb_of_mem _ _ (Finset.mem_univ _)]
    show out1 V c ⟨17, h17⟩ Y (ix2 h w) = rowVal V c h w
    exact hR h w (by show 2 * h.val + 1 < 17 + 1; have := h.isLt; omega)
  exact key cfg1.N N_1 hG

end Cert.Kernel.Region1

end
-- ==== Proof.Bits.Run.lean ====
/-
  The whole program's run, every parameter of the launch instantiated: the valuation after the SparseCore call, the
  first region's relational data and its named final contents, the second region's data at what the first left, the
  tile's obligation from its body. And the valuations walked back: no line of @main and no region writes an argument,
  so each argument ends as launched.
-/
import proofs.«216449_g46943992545511_cont_8to1_c_491_21_alg».proof.Proof.Bits.Seg1
import proofs.«216449_g46943992545511_cont_8to1_c_491_21_alg».proof.Proof.Bits.Seg2
import proofs.«216449_g46943992545511_cont_8to1_c_491_21_alg».proof.Proof.Bits.TileObl
import proofs.«216449_g46943992545511_cont_8to1_c_491_21_alg».proof.Proof.Bits.Region1.Final

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => 𝕄F F

variable (m : (ℓ : Loc nD τ sig) → Buf (Elt F) ℓ) (ρ : Dev nD → PrngReg)
variable [FloatOps F]
variable (colS : (d : Dev nD) → Buf (Elt F) (oLoc d))

open Idealize.ShloMosaic.TcCoe

variable [∀ e, Nonempty (Elt F e)]

/-- The valuation after the SparseCore call, after the first region, after the second. -/
abbrev Wa' : Dev nD → Valuation τ sig (Elt F) := W2 m colS
abbrev w1' : (c : Dev nD) → Buf (Elt F) ((cfg1.win 1).arr.view.loc (c : Thread nD τ)) := fun c => Region1.win1 (Va (Wa' m colS)) c
abbrev Wb' : Dev nD → Valuation τ sig (Elt F) := W3 (Wa' m colS) (w1' m colS)
abbrev Wc' : Dev nD → Valuation τ sig (Elt F) := W4 (Wb' m colS)

/-- Every weakly fair execution of all the program's threads terminates, nothing faulting, with every unscoped
    TensorCore buffer at the last valuation. -/
theorem run (hbody : TileBodySpec (F := F) (A m) colS) :
    θ_run (Cert.Kernel.defs (F := F)) (Cert.Kernel.threads (F := F)) ⟨m, fun _ => 0, ρ⟩ (QC (Wc' m colS)) :=
  run_main m ρ colS (rdats1 (Wa' m colS)) (Pipeline.Dat.toRs (pdats2 (Wb' m colS)))
    (R1 (Wa' m colS) (w1' m colS) (fun c G h => Region1.arrAt1_1 _ c G h) (fun c G h => Region1.arrAt1_0 _ c G h))
    (R2 (Wb' m colS)) (Wb' m colS) (Wc' m colS) (tileObl m colS hbody)
    (fun _ => .rfl) (fun _ => .rfl) (fun _ => .rfl) (fun _ => .rfl)

/-! ## The arguments end as launched -/

/-- A buffer that is no region's array, not the column-sum array and not written by the two host operations holds at
    the end what it held at the launch. -/
theorem last_of_untouched (d : Dev nD) (b : Ref sig .tc)
    (h4 : (Proc.devRef .tc b : DevRef τ sig) ∉ (opTranspose (F := F)).writes) (h2 : ∀ w, Pipeline.arrRef spec2 w ≠ b)
    (h1 : ∀ w, Pipeline.arrRef spec1 w ≠ b) (hv : (Proc.devRef .tc b : DevRef τ sig) ≠ Proc.devRef .tc (main_v1 : Ref sig .tc))
    (h0 : (Proc.devRef .tc b : DevRef τ sig) ∉ (opReshape (F := F)).writes) :
    W5 (Wc' m colS) d (Proc.devRef .tc b) = m (d, Proc.devRef .tc b) :=
  calc W5 (Wc' m colS) d (Proc.devRef .tc b)
    _ = Wc' m colS d (Proc.devRef .tc b) := (opTranspose (F := F)).result_of_not_mem _ h4
    _ = Wb' m colS d (Proc.devRef .tc b) := W4_of_ne _ d b h2
    _ = Wa' m colS d (Proc.devRef .tc b) := W3_of_ne _ _ d b h1
    _ = W1 m d (Proc.devRef .tc b) := Function.update_of_ne hv _ _
    _ = W0 m d (Proc.devRef .tc b) := (opReshape (F := F)).result_of_not_mem _ h0
    _ = m (d, Proc.devRef .tc b) := rfl

theorem last_arg0 (d : Dev nD) : W5 (Wc' m colS) d (Proc.devRef .tc main_arg0) = m (d, Proc.devRef .tc main_arg0) :=
  last_of_untouched m colS d main_arg0
    (show (Proc.devRef .tc (main_arg0 : Ref sig .tc) : DevRef τ sig) ∉ ({Proc.devRef .tc (main_v4 : Ref sig .tc)} : Finset (DevRef τ sig)) by decide)
    (by decide) (by decide) (by decide)
    (show (Proc.devRef .tc (main_arg0 : Ref sig .tc) : DevRef τ sig) ∉ ({Proc.devRef .tc (main_v0 : Ref sig .tc)} : Finset (DevRef τ sig)) by decide)
theorem last_arg1 (d : Dev nD) : W5 (Wc' m colS) d (Proc.devRef .tc main_arg1) = m (d, Proc.devRef .tc main_arg1) :=
  last_of_untouched m colS d main_arg1
    (show (Proc.devRef .tc (main_arg1 : Ref sig .tc) : DevRef τ sig) ∉ ({Proc.devRef .tc (main_v4 : Ref sig .tc)} : Finset (DevRef τ sig)) by decide)
    (by decide) (by decide) (by decide)
    (show (Proc.devRef .tc (main_arg1 : Ref sig .tc) : DevRef τ sig) ∉ ({Proc.devRef .tc (main_v0 : Ref sig .tc)} : Finset (DevRef τ sig)) by decide)
theorem last_arg2 (d : Dev nD) : W5 (Wc' m colS) d (Proc.devRef .tc main_arg2) = m (d, Proc.devRef .tc main_arg2) :=
  last_of_untouched m colS d main_arg2
    (show (Proc.devRef .tc (main_arg2 : Ref sig .tc) : DevRef τ sig) ∉ ({Proc.devRef .tc (main_v4 : Ref sig .tc)} : Finset (DevRef τ sig)) by decide)
    (by decide) (by decide) (by decide)
    (show (Proc.devRef .tc (main_arg2 : Ref sig .tc) : DevRef τ sig) ∉ ({Proc.devRef .tc (main_v0 : Ref sig .tc)} : Finset (DevRef τ sig)) by decide)

theorem mem_uc (b : Ref sig .tc) (h : ¬ (Proc.devRef .tc b : DevRef τ sig).isScoped) : Proc.devRef .tc b ∈ UC :=
  Finset.mem_filter.mpr ⟨StableHlo.devRef_mem_tcRefs b, h⟩

/-- The run with its post read at the arguments and the result: the arguments as launched, the result at the last
    valuation. -/
theorem run_read (hbody : TileBodySpec (F := F) (A m) colS) :
    θ_run (Cert.Kernel.defs (F := F)) (Cert.Kernel.threads (F := F)) ⟨m, fun _ => 0, ρ⟩ (fun r => ∀ c : Dev nD,
      r.2.mem ((c.tc : Thread nD τ).loc main_v4) = W5 (Wc' m colS) c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.Kernel.defs _ _).mono (fun r h c =>
    ⟨h c _ (mem_uc main_v4 (by decide)),
      (h c _ (mem_uc main_arg0 (by decide))).trans (last_arg0 m colS c),
      (h c _ (mem_uc main_arg1 (by decide))).trans (last_arg1 m colS c),
      (h c _ (mem_uc main_arg2 (by decide))).trans (last_arg2 m colS c)⟩) (run m ρ colS hbody)

end Cert.Kernel.Launch

end
-- ==== Proof.Bits.TileValue.lean ====
import proofs.«216449_g46943992545511_cont_8to1_c_491_21_alg».proof.Proof.Bits.Setup
import proofs.«216449_g46943992545511_cont_8to1_c_491_21_alg».proof.Proof.Gen.Kernel.Skeleton
import Idealize.ShloMosaic.Lib.SparseCore.Launch
import Idealize.ShloMosaic.Lib.Tactic
import proofs.«216449_g46943992545511_cont_8to1_c_491_21_alg».proof.Proof.Bits.TileObl
import proofs.«216449_g46943992545511_cont_8to1_c_491_21_alg».proof.Proof.Bits.Split

noncomputable section

namespace Cert.Kernel.TileValue

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => 𝕄F F

variable (d : Dev nD) (L : grid0.Coords)

/-- The vector subcore at place L of device d. -/
abbrev thr : Thread nD τ := V d ((L 0).castLE hcore0) ((L 1).castLE hsub0)

/-- One of the subcore's own DMA semaphores as a cell. -/
abbrev cell (s : DmaSems sig S_) : GSem nD τ sig := (thr d L, .dma s.sem)

omit [FloatOps F] in
theorem cell_ne {s t : DmaSems sig S_} (h : s.sem ≠ t.sem) : cell d L s ≠ cell d L t :=
  fun e => h (SemLoc.dma.inj (congrArg Prod.snd e))

/-- What is left of the subcore's own cells beside the nine the body uses. -/
abbrev restCells : Finset (GSem nD τ sig) := ((((((((((ownCells (thr d L)).erase (cell d L cc0_scratch3)).erase (cell d L cc0_scratch4)).erase (cell d L cc0_scoped0)).erase (cell d L cc0_scoped1)).erase (cell d L cc0_scoped2)).erase (cell d L cc0_scoped3)).erase (cell d L cc0_scoped4)).erase (cell d L cc0_scoped5)).erase (cell d L cc0_scoped6))

/-- What is left of the subcore's own buffers beside the three scratches. -/
abbrev restRefs : Finset (DevRef τ sig) := ((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2))

omit [FloatOps F] in
/-- The nine semaphores the body uses are among the subcore's own cells: they, at zero, and the rest. -/
theorem ownSems0_V :
    (ownSems0 (thr d L) : sProp 𝕄)
      = iprop(semVal (cell d L cc0_scratch3) 0 ∗ semVal (cell d L cc0_scratch4) 0 ∗ semVal (cell d L cc0_scoped0) 0 ∗ semVal (cell d L cc0_scoped1) 0 ∗ semVal (cell d L cc0_scoped2) 0 ∗ semVal (cell d L cc0_scoped3) 0 ∗ semVal (cell d L cc0_scoped4) 0 ∗ semVal (cell d L cc0_scoped5) 0 ∗ semVal (cell d L cc0_scoped6) 0
          ∗ bigSep (restCells d L) fun g => semVal g 0) := by
  unfold SparseCore.Cfg.ownSems0
  rw [SparseCore.bigSep_erase' ((mem_ownCells (g := cell d L cc0_scratch3)).mpr ⟨rfl, by show (SemLoc.dma cc0_scratch3.sem : SemLoc sig).isScoped .scVector = true; decide⟩),
    SparseCore.bigSep_erase' (Finset.mem_erase.mpr ⟨cell_ne d L (show (cc0_scratch4 : DmaSems sig S_).sem ≠ cc0_scratch3.sem by decide), (mem_ownCells (g := cell d L cc0_scratch4)).mpr ⟨rfl, by show (SemLoc.dma cc0_scratch4.sem : SemLoc sig).isScoped .scVector = true; decide⟩⟩),
    SparseCore.bigSep_erase' (Finset.mem_erase.mpr ⟨cell_ne d L (show (cc0_scoped0 : DmaSems sig S_).sem ≠ cc0_scratch4.sem by decide), Finset.mem_erase.mpr ⟨cell_ne d L (show (cc0_scoped0 : DmaSems sig S_).sem ≠ cc0_scratch3.sem by decide), (mem_ownCells (g := cell d L cc0_scoped0)).mpr ⟨rfl, by show (SemLoc.dma cc0_scoped0.sem : SemLoc sig).isScoped .scVector = true; decide⟩⟩⟩),
    SparseCore.bigSep_erase' (Finset.mem_erase.mpr ⟨cell_ne d L (show (cc0_scoped1 : DmaSems sig S_).sem ≠ cc0_scoped0.sem by decide), Finset.mem_erase.mpr ⟨cell_ne d L (show (cc0_scoped1 : DmaSems sig S_).sem ≠ cc0_scratch4.sem by decide), Finset.mem_erase.mpr ⟨cell_ne d L (show (cc0_scoped1 : DmaSems sig S_).sem ≠ cc0_scratch3.sem by decide), (mem_ownCells (g := cell d L cc0_scoped1)).mpr ⟨rfl, by show (SemLoc.dma cc0_scoped1.sem : SemLoc sig).isScoped .scVector = true; decide⟩⟩⟩⟩),
    SparseCore.bigSep_erase' (Finset.mem_erase.mpr ⟨cell_ne d L (show (cc0_scoped2 : DmaSems sig S_).sem ≠ cc0_scoped1.sem by decide), Finset.mem_erase.mpr ⟨cell_ne d L (show (cc0_scoped2 : DmaSems sig S_).sem ≠ cc0_scoped0.sem by decide), Finset.mem_erase.mpr ⟨cell_ne d L (show (cc0_scoped2 : DmaSems sig S_).sem ≠ cc0_scratch4.sem by decide), Finset.mem_erase.mpr ⟨cell_ne d L (show (cc0_scoped2 : DmaSems sig S_).sem ≠ cc0_scratch3.sem by decide), (mem_ownCells (g := cell d L cc0_scoped2)).mpr ⟨rfl, by show (SemLoc.dma cc0_scoped2.sem : SemLoc sig).isScoped .scVector = true; decide⟩⟩⟩⟩⟩),
    SparseCore.bigSep_erase' (Finset.mem_erase.mpr ⟨cell_ne d L (show (cc0_scoped3 : DmaSems sig S_).sem ≠ cc0_scoped2.sem by decide), Finset.mem_erase.mpr ⟨cell_ne d L (show (cc0_scoped3 : DmaSems sig S_).sem ≠ cc0_scoped1.sem by decide), Finset.mem_erase.mpr ⟨cell_ne d L (show (cc0_scoped3 : DmaSems sig S_).sem ≠ cc0_scoped0.sem by decide), Finset.mem_erase.mpr ⟨cell_ne d L (show (cc0_scoped3 : DmaSems sig S_).sem ≠ cc0_scratch4.sem by decide), Finset.mem_erase.mpr ⟨cell_ne d L (show (cc0_scoped3 : DmaSems sig S_).sem ≠ cc0_scratch3.sem by decide), (mem_ownCells (g := cell d L cc0_scoped3)).mpr ⟨rfl, by show (SemLoc.dma cc0_scoped3.sem : SemLoc sig).isScoped .scVector = true; decide⟩⟩⟩⟩⟩⟩),
    SparseCore.bigSep_erase' (Finset.mem_erase.mpr ⟨cell_ne d L (show (cc0_scoped4 : DmaSems sig S_).sem ≠ cc0_scoped3.sem by decide), Finset.mem_erase.mpr ⟨cell_ne d L (show (cc0_scoped4 : DmaSems sig S_).sem ≠ cc0_scoped2.sem by decide), Finset.mem_erase.mpr ⟨cell_ne d L (show (cc0_scoped4 : DmaSems sig S_).sem ≠ cc0_scoped1.sem by decide), Finset.mem_erase.mpr ⟨cell_ne d L (show (cc0_scoped4 : DmaSems sig S_).sem ≠ cc0_scoped0.sem by decide), Finset.mem_erase.mpr ⟨cell_ne d L (show (cc0_scoped4 : DmaSems sig S_).sem ≠ cc0_scratch4.sem by decide), Finset.mem_erase.mpr ⟨cell_ne d L (show (cc0_scoped4 : DmaSems sig S_).sem ≠ cc0_scratch3.sem by decide), (mem_ownCells (g := cell d L cc0_scoped4)).mpr ⟨rfl, by show (SemLoc.dma cc0_scoped4.sem : SemLoc sig).isScoped .scVector = true; decide⟩⟩⟩⟩⟩⟩⟩),
    SparseCore.bigSep_erase' (Finset.mem_erase.mpr ⟨cell_ne d L (show (cc0_scoped5 : DmaSems sig S_).sem ≠ cc0_scoped4.sem by decide), Finset.mem_erase.mpr ⟨cell_ne d L (show (cc0_scoped5 : DmaSems sig S_).sem ≠ cc0_scoped3.sem by decide), Finset.mem_erase.mpr ⟨cell_ne d L (show (cc0_scoped5 : DmaSems sig S_).sem ≠ cc0_scoped2.sem by decide), Finset.mem_erase.mpr ⟨cell_ne d L (show (cc0_scoped5 : DmaSems sig S_).sem ≠ cc0_scoped1.sem by decide), Finset.mem_erase.mpr ⟨cell_ne d L (show (cc0_scoped5 : DmaSems sig S_).sem ≠ cc0_scoped0.sem by decide), Finset.mem_erase.mpr ⟨cell_ne d L (show (cc0_scoped5 : DmaSems sig S_).sem ≠ cc0_scratch4.sem by decide), Finset.mem_erase.mpr ⟨cell_ne d L (show (cc0_scoped5 : DmaSems sig S_).sem ≠ cc0_scratch3.sem by decide), (mem_ownCells (g := cell d L cc0_scoped5)).mpr ⟨rfl, by show (SemLoc.dma cc0_scoped5.sem : SemLoc sig).isScoped .scVector = true; decide⟩⟩⟩⟩⟩⟩⟩⟩),
    SparseCore.bigSep_erase' (Finset.mem_erase.mpr ⟨cell_ne d L (show (cc0_scoped6 : DmaSems sig S_).sem ≠ cc0_scoped5.sem by decide), Finset.mem_erase.mpr ⟨cell_ne d L (show (cc0_scoped6 : DmaSems sig S_).sem ≠ cc0_scoped4.sem by decide), Finset.mem_erase.mpr ⟨cell_ne d L (show (cc0_scoped6 : DmaSems sig S_).sem ≠ cc0_scoped3.sem by decide), Finset.mem_erase.mpr ⟨cell_ne d L (show (cc0_scoped6 : DmaSems sig S_).sem ≠ cc0_scoped2.sem by decide), Finset.mem_erase.mpr ⟨cell_ne d L (show (cc0_scoped6 : DmaSems sig S_).sem ≠ cc0_scoped1.sem by decide), Finset.mem_erase.mpr ⟨cell_ne d L (show (cc0_scoped6 : DmaSems sig S_).sem ≠ cc0_scoped0.sem by decide), Finset.mem_erase.mpr ⟨cell_ne d L (show (cc0_scoped6 : DmaSems sig S_).sem ≠ cc0_scratch4.sem by decide), Finset.mem_erase.mpr ⟨cell_ne d L (show (cc0_scoped6 : DmaSems sig S_).sem ≠ cc0_scratch3.sem by decide), (mem_ownCells (g := cell d L cc0_scoped6)).mpr ⟨rfl, by show (SemLoc.dma cc0_scoped6.sem : SemLoc sig).isScoped .scVector = true; decide⟩⟩⟩⟩⟩⟩⟩⟩⟩)]

omit [FloatOps F] in
/-- The three scratch buffers are among the subcore's own: they, at some contents, and the rest. -/
theorem ownBufs_V :
    (ownBufs (thr d L) : sProp 𝕄)
      = iprop((∃ f, (Memref.whole cc0_scratch0 : Memref sig .scVector .vmem S64x512 .f32).view.loc (thr d L) ↦{fullShare} f)
          ∗ (∃ f, (Memref.whole cc0_scratch1 : Memref sig .scVector .vmem S64x512 .f32).view.loc (thr d L) ↦{fullShare} f)
          ∗ (∃ f, (Memref.whole cc0_scratch2 : Memref sig .scVector .vmem S512 .f32).view.loc (thr d L) ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := (Proc.scVector ((L 0).castLE hcore0) ((L 1).castLE hsub0))) (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch2) rfl⟩⟩)]

/-- The 32 accumulators a chunk's loop carries. -/
abbrev Acc (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- Sixteen lanes of a row of a 64×512 buffer, as one vector load of the loops reads them and the program casts them. -/
def rowRead (M : Memref sig .scVector .vmem S64x512 .f32) (f : M.view.ty.Contents (Elt F)) (off : Fin 2 → Nat)
    (h : ∀ a, off a + S1x16.size a ≤ S64x512.size a) : FVec F S16 .f32 :=
  shapeCast S16 (View.readAt (Elt F) M.view (Rect.unit (s := S64x512) off S1x16.size h).toLoadRect f : Vec F S1x16 .f32) shapeCasts_S1x16_S16

/-- One trip of loop 1: row k of the buffer added to the 32 accumulators, 16 lanes each. -/
def addRow_t1 (M : Memref sig .scVector .vmem S64x512 .f32) (f : M.view.ty.Contents (Elt F)) (k : Fin k0_t1_loop.trips) (acc : Acc F) : Acc F :=
  (addf (acc.1) (rowRead M f (k0_off2 k) (k0_off2_inb k)),
    addf (acc.2.1) (rowRead M f (k0_off3 k) (k0_off3_inb k)),
    addf (acc.2.2.1) (rowRead M f (k0_off4 k) (k0_off4_inb k)),
    addf (acc.2.2.2.1) (rowRead M f (k0_off5 k) (k0_off5_inb k)),
    addf (acc.2.2.2.2.1) (rowRead M f (k0_off6 k) (k0_off6_inb k)),
    addf (acc.2.2.2.2.2.1) (rowRead M f (k0_off7 k) (k0_off7_inb k)),
    addf (acc.2.2.2.2.2.2.1) (rowRead M f (k0_off8 k) (k0_off8_inb k)),
    addf (acc.2.2.2.2.2.2.2.1) (rowRead M f (k0_off9 k) (k0_off9_inb k)),
    addf (acc.2.2.2.2.2.2.2.2.1) (rowRead M f (k0_off10 k) (k0_off10_inb k)),
    addf (acc.2.2.2.2.2.2.2.2.2.1) (rowRead M f (k0_off11 k) (k0_off11_inb k)),
    addf (acc.2.2.2.2.2.2.2.2.2.2.1) (rowRead M f (k0_off12 k) (k0_off12_inb k)),
    addf (acc.2.2.2.2.2.2.2.2.2.2.2.1) (rowRead M f (k0_off13 k) (k0_off13_inb k)),
    addf (acc.2.2.2.2.2.2.2.2.2.2.2.2.1) (rowRead M f (k0_off14 k) (k0_off14_inb k)),
    addf (acc.2.2.2.2.2.2.2.2.2.2.2.2.2.1) (rowRead M f (k0_off15 k) (k0_off15_inb k)),
    addf (acc.2.2.2.2.2.2.2.2.2.2.2.2.2.2.1) (rowRead M f (k0_off16 k) (k0_off16_inb k)),
    addf (acc.2.2.2.2.2.2.2.2.2.2.2.2.2.2.2.1) (rowRead M f (k0_off17 k) (k0_off17_inb k)),
    addf (acc.2.2.2.2.2.2.2.2.2.2.2.2.2.2.2.2.1) (rowRead M f (k0_off18 k) (k0_off18_inb k)),
    addf (acc.2.2.2.2.2.2.2.2.2.2.2.2.2.2.2.2.2.1) (rowRead M f (k0_off19 k) (k0_off19_inb k)),
    addf (acc.2.2.2.2.2.2.2.2.2.2.2.2.2.2.2.2.2.2.1) (rowRead M f (k0_off20 k) (k0_off20_inb k)),
    addf (acc.2.2.2.2.2.2.2.2.2.2.2.2.2.2.2.2.2.2.2.1) (rowRead M f (k0_off21 k) (k0_off21_inb k)),
    addf (acc.2.2.2.2.2.2.2.2.2.2.2.2.2.2.2.2.2.2.2.2.1) (rowRead M f (k0_off22 k) (k0_off22_inb k)),
    addf (acc.2.2.2.2.2.2.2.2.2.2.2.2.2.2.2.2.2.2.2.2.2.1) (rowRead M f (k0_off23 k) (k0_off23_inb k)),
    addf (acc.2.2.2.2.2.2.2.2.2.2.2.2.2.2.2.2.2.2.2.2.2.2.1) (rowRead M f (k0_off24 k) (k0_off24_inb k)),
    addf (acc.2.2.2.2.2.2.2.2.2.2.2.2.2.2.2.2.2.2.2.2.2.2.2.1) (rowRead M f (k0_off25 k) (k0_off25_inb k)),
    addf (acc.2.2.2.2.2.2.2.2.2.2.2.2.2.2.2.2.2.2.2.2.2.2.2.2.1) (rowRead M f (k0_off26 k) (k0_off26_inb k)),
    addf (acc.2.2.2.2.2.2.2.2.2.2.2.2.2.2.2.2.2.2.2.2.2.2.2.2.2.1) (rowRead M f (k0_off27 k) (k0_off27_inb k)),
    addf (acc.2.2.2.2.2.2.2.2.2.2.2.2.2.2.2.2.2.2.2.2.2.2.2.2.2.2.1) (rowRead M f (k0_off28 k) (k0_off28_inb k)),
    addf (acc.2.2.2.2.2.2.2.2.2.2.2.2.2.2.2.2.2.2.2.2.2.2.2.2.2.2.2.1) (rowRead M f (k0_off29 k) (k0_off29_inb k)),
    addf (acc.2.2.2.2.2.2.2.2.2.2.2.2.2.2.2.2.2.2.2.2.2.2.2.2.2.2.2.2.1) (rowRead M f (k0_off30 k) (k0_off30_inb k)),
    addf (acc.2.2.2.2.2.2.2.2.2.2.2.2.2.2.2.2.2.2.2.2.2.2.2.2.2.2.2.2.2.1) (rowRead M f (k0_off31 k) (k0_off31_inb k)),
    addf (acc.2.2.2.2.2.2.2.2.2.2.2.2.2.2.2.2.2.2.2.2.2.2.2.2.2.2.2.2.2.2.1) (rowRead M f (k0_off32 k) (k0_off32_inb k)),
    addf (acc.2.2.2.2.2.2.2.2.2.2.2.2.2.2.2.2.2.2.2.2.2.2.2.2.2.2.2.2.2.2.2) (rowRead M f (k0_off33 k) (k0_off33_inb k)))

/-- The accumulators before trip k of loop 1, from those it starts with. -/
def rowsFold_t1 (M : Memref sig .scVector .vmem S64x512 .f32) (f : M.view.ty.Contents (Elt F)) : Nat → Acc F → Acc F
  | 0, init => init
  | k + 1, init => if h : k < k0_t1_loop.trips then addRow_t1 M f ⟨k, h⟩ (rowsFold_t1 M f k init) else rowsFold_t1 M f k init

set_option warn.classDefReducibility false in
/-- Loop 1 keeps the buffer it reads and carries the rows added so far. -/
@[sl_loop] def loopVal_t1 (d : Dev nD) (L : grid0.Coords) (v29 : BitVec 32) (v36 : BitVec 32) (c64_i32 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t1_loop.lb k0_t1_loop.ub k0_t1_loop.st k0_t1_ok init
      (k0_t1_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v36 c64_i32) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t1 (Memref.whole cc0_scratch0) w k init⌝)
  step k acc := by
    iintro ⟨H, %hacc⟩
    sl_exec
    sl_step
    isplitl [H]; · iexact H
    ipureintro
    show _ = rowsFold_t1 (Memref.whole cc0_scratch0) w (k.val + 1) init
    rw [rowsFold_t1, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t1 (Memref.whole cc0_scratch0) w ⟨k.val, k.isLt⟩ acc
        = addRow_t1 (Memref.whole cc0_scratch0) (View.write (Elt F) (Memref.whole cc0_scratch0 : Memref sig .scVector .vmem S64x512 .f32).view prev w Finset.univ) ⟨k.val, k.isLt⟩ acc from by rw [e]]
    rfl

/-- One trip of loop 2: row k of the buffer added to the 32 accumulators, 16 lanes each. -/
def addRow_t2 (M : Memref sig .scVector .vmem S64x512 .f32) (f : M.view.ty.Contents (Elt F)) (k : Fin k0_t2_loop.trips) (acc : Acc F) : Acc F :=
  (addf (acc.1) (rowRead M f (k0_off34 k) (k0_off34_inb k)),
    addf (acc.2.1) (rowRead M f (k0_off35 k) (k0_off35_inb k)),
    addf (acc.2.2.1) (rowRead M f (k0_off36 k) (k0_off36_inb k)),
    addf (acc.2.2.2.1) (rowRead M f (k0_off37 k) (k0_off37_inb k)),
    addf (acc.2.2.2.2.1) (rowRead M f (k0_off38 k) (k0_off38_inb k)),
    addf (acc.2.2.2.2.2.1) (rowRead M f (k0_off39 k) (k0_off39_inb k)),
    addf (acc.2.2.2.2.2.2.1) (rowRead M f (k0_off40 k) (k0_off40_inb k)),
    addf (acc.2.2.2.2.2.2.2.1) (rowRead M f (k0_off41 k) (k0_off41_inb k)),
    addf (acc.2.2.2.2.2.2.2.2.1) (rowRead M f (k0_off42 k) (k0_off42_inb k)),
    addf (acc.2.2.2.2.2.2.2.2.2.1) (rowRead M f (k0_off43 k) (k0_off43_inb k)),
    addf (acc.2.2.2.2.2.2.2.2.2.2.1) (rowRead M f (k0_off44 k) (k0_off44_inb k)),
    addf (acc.2.2.2.2.2.2.2.2.2.2.2.1) (rowRead M f (k0_off45 k) (k0_off45_inb k)),
    addf (acc.2.2.2.2.2.2.2.2.2.2.2.2.1) (rowRead M f (k0_off46 k) (k0_off46_inb k)),
    addf (acc.2.2.2.2.2.2.2.2.2.2.2.2.2.1) (rowRead M f (k0_off47 k) (k0_off47_inb k)),
    addf (acc.2.2.2.2.2.2.2.2.2.2.2.2.2.2.1) (rowRead M f (k0_off48 k) (k0_off48_inb k)),
    addf (acc.2.2.2.2.2.2.2.2.2.2.2.2.2.2.2.1) (rowRead M f (k0_off49 k) (k0_off49_inb k)),
    addf (acc.2.2.2.2.2.2.2.2.2.2.2.2.2.2.2.2.1) (rowRead M f (k0_off50 k) (k0_off50_inb k)),
    addf (acc.2.2.2.2.2.2.2.2.2.2.2.2.2.2.2.2.2.1) (rowRead M f (k0_off51 k) (k0_off51_inb k)),
    addf (acc.2.2.2.2.2.2.2.2.2.2.2.2.2.2.2.2.2.2.1) (rowRead M f (k0_off52 k) (k0_off52_inb k)),
    addf (acc.2.2.2.2.2.2.2.2.2.2.2.2.2.2.2.2.2.2.2.1) (rowRead M f (k0_off53 k) (k0_off53_inb k)),
    addf (acc.2.2.2.2.2.2.2.2.2.2.2.2.2.2.2.2.2.2.2.2.1) (rowRead M f (k0_off54 k) (k0_off54_inb k)),
    addf (acc.2.2.2.2.2.2.2.2.2.2.2.2.2.2.2.2.2.2.2.2.2.1) (rowRead M f (k0_off55 k) (k0_off55_inb k)),
    addf (acc.2.2.2.2.2.2.2.2.2.2.2.2.2.2.2.2.2.2.2.2.2.2.1) (rowRead M f (k0_off56 k) (k0_off56_inb k)),
    addf (acc.2.2.2.2.2.2.2.2.2.2.2.2.2.2.2.2.2.2.2.2.2.2.2.1) (rowRead M f (k0_off57 k) (k0_off57_inb k)),
    addf (acc.2.2.2.2.2.2.2.2.2.2.2.2.2.2.2.2.2.2.2.2.2.2.2.2.1) (rowRead M f (k0_off58 k) (k0_off58_inb k)),
    addf (acc.2.2.2.2.2.2.2.2.2.2.2.2.2.2.2.2.2.2.2.2.2.2.2.2.2.1) (rowRead M f (k0_off59 k) (k0_off59_inb k)),
    addf (acc.2.2.2.2.2.2.2.2.2.2.2.2.2.2.2.2.2.2.2.2.2.2.2.2.2.2.1) (rowRead M f (k0_off60 k) (k0_off60_inb k)),
    addf (acc.2.2.2.2.2.2.2.2.2.2.2.2.2.2.2.2.2.2.2.2.2.2.2.2.2.2.2.1) (rowRead M f (k0_off61 k) (k0_off61_inb k)),
    addf (acc.2.2.2.2.2.2.2.2.2.2.2.2.2.2.2.2.2.2.2.2.2.2.2.2.2.2.2.2.1) (rowRead M f (k0_off62 k) (k0_off62_inb k)),
    addf (acc.2.2.2.2.2.2.2.2.2.2.2.2.2.2.2.2.2.2.2.2.2.2.2.2.2.2.2.2.2.1) (rowRead M f (k0_off63 k) (k0_off63_inb k)),
    addf (acc.2.2.2.2.2.2.2.2.2.2.2.2.2.2.2.2.2.2.2.2.2.2.2.2.2.2.2.2.2.2.1) (rowRead M f (k0_off64 k) (k0_off64_inb k)),
    addf (acc.2.2.2.2.2.2.2.2.2.2.2.2.2.2.2.2.2.2.2.2.2.2.2.2.2.2.2.2.2.2.2) (rowRead M f (k0_off65 k) (k0_off65_inb k)))

/-- The accumulators before trip k of loop 2, from those it starts with. -/
def rowsFold_t2 (M : Memref sig .scVector .vmem S64x512 .f32) (f : M.view.ty.Contents (Elt F)) : Nat → Acc F → Acc F
  | 0, init => init
  | k + 1, init => if h : k < k0_t2_loop.trips then addRow_t2 M f ⟨k, h⟩ (rowsFold_t2 M f k init) else rowsFold_t2 M f k init

set_option warn.classDefReducibility false in
/-- Loop 2 keeps the buffer it reads and carries the rows added so far. -/
@[sl_loop] def loopVal_t2 (d : Dev nD) (L : grid0.Coords) (v29 : BitVec 32) (v36 : BitVec 32) (c64_i32 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t2_loop.lb k0_t2_loop.ub k0_t2_loop.st k0_t2_ok init
      (k0_t2_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v36 c64_i32) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t2 (Memref.whole cc0_scratch1) w k init⌝)
  step k acc := by
    iintro ⟨H, %hacc⟩
    sl_exec
    sl_step
    isplitl [H]; · iexact H
    ipureintro
    show _ = rowsFold_t2 (Memref.whole cc0_scratch1) w (k.val + 1) init
    rw [rowsFold_t2, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t2 (Memref.whole cc0_scratch1) w ⟨k.val, k.isLt⟩ acc
        = addRow_t2 (Memref.whole cc0_scratch1) (View.write (Elt F) (Memref.whole cc0_scratch1 : Memref sig .scVector .vmem S64x512 .f32).view prev w Finset.univ) ⟨k.val, k.isLt⟩ acc from by rw [e]]
    rfl

/-- One trip of loop 3: row k of the buffer added to the 32 accumulators, 16 lanes each. -/
def addRow_t3 (M : Memref sig .scVector .vmem S64x512 .f32) (f : M.view.ty.Contents (Elt F)) (k : Fin k0_t3_loop.trips) (acc : Acc F) : Acc F :=
  (addf (acc.1) (rowRead M f (k0_off66 k) (k0_off66_inb k)),
    addf (acc.2.1) (rowRead M f (k0_off67 k) (k0_off67_inb k)),
    addf (acc.2.2.1) (rowRead M f (k0_off68 k) (k0_off68_inb k)),
    addf (acc.2.2.2.1) (rowRead M f (k0_off69 k) (k0_off69_inb k)),
    addf (acc.2.2.2.2.1) (rowRead M f (k0_off70 k) (k0_off70_inb k)),
    addf (acc.2.2.2.2.2.1) (rowRead M f (k0_off71 k) (k0_off71_inb k)),
    addf (acc.2.2.2.2.2.2.1) (rowRead M f (k0_off72 k) (k0_off72_inb k)),
    addf (acc.2.2.2.2.2.2.2.1) (rowRead M f (k0_off73 k) (k0_off73_inb k)),
    addf (acc.2.2.2.2.2.2.2.2.1) (rowRead M f (k0_off74 k) (k0_off74_inb k)),
    addf (acc.2.2.2.2.2.2.2.2.2.1) (rowRead M f (k0_off75 k) (k0_off75_inb k)),
    addf (acc.2.2.2.2.2.2.2.2.2.2.1) (rowRead M f (k0_off76 k) (k0_off76_inb k)),
    addf (acc.2.2.2.2.2.2.2.2.2.2.2.1) (rowRead M f (k0_off77 k) (k0_off77_inb k)),
    addf (acc.2.2.2.2.2.2.2.2.2.2.2.2.1) (rowRead M f (k0_off78 k) (k0_off78_inb k)),
    addf (acc.2.2.2.2.2.2.2.2.2.2.2.2.2.1) (rowRead M f (k0_off79 k) (k0_off79_inb k)),
    addf (acc.2.2.2.2.2.2.2.2.2.2.2.2.2.2.1) (rowRead M f (k0_off80 k) (k0_off80_inb k)),
    addf (acc.2.2.2.2.2.2.2.2.2.2.2.2.2.2.2.1) (rowRead M f (k0_off81 k) (k0_off81_inb k)),
    addf (acc.2.2.2.2.2.2.2.2.2.2.2.2.2.2.2.2.1) (rowRead M f (k0_off82 k) (k0_off82_inb k)),
    addf (acc.2.2.2.2.2.2.2.2.2.2.2.2.2.2.2.2.2.1) (rowRead M f (k0_off83 k) (k0_off83_inb k)),
    addf (acc.2.2.2.2.2.2.2.2.2.2.2.2.2.2.2.2.2.2.1) (rowRead M f (k0_off84 k) (k0_off84_inb k)),
    addf (acc.2.2.2.2.2.2.2.2.2.2.2.2.2.2.2.2.2.2.2.1) (rowRead M f (k0_off85 k) (k0_off85_inb k)),
    addf (acc.2.2.2.2.2.2.2.2.2.2.2.2.2.2.2.2.2.2.2.2.1) (rowRead M f (k0_off86 k) (k0_off86_inb k)),
    addf (acc.2.2.2.2.2.2.2.2.2.2.2.2.2.2.2.2.2.2.2.2.2.1) (rowRead M f (k0_off87 k) (k0_off87_inb k)),
    addf (acc.2.2.2.2.2.2.2.2.2.2.2.2.2.2.2.2.2.2.2.2.2.2.1) (rowRead M f (k0_off88 k) (k0_off88_inb k)),
    addf (acc.2.2.2.2.2.2.2.2.2.2.2.2.2.2.2.2.2.2.2.2.2.2.2.1) (rowRead M f (k0_off89 k) (k0_off89_inb k)),
    addf (acc.2.2.2.2.2.2.2.2.2.2.2.2.2.2.2.2.2.2.2.2.2.2.2.2.1) (rowRead M f (k0_off90 k) (k0_off90_inb k)),
    addf (acc.2.2.2.2.2.2.2.2.2.2.2.2.2.2.2.2.2.2.2.2.2.2.2.2.2.1) (rowRead M f (k0_off91 k) (k0_off91_inb k)),
    addf (acc.2.2.2.2.2.2.2.2.2.2.2.2.2.2.2.2.2.2.2.2.2.2.2.2.2.2.1) (rowRead M f (k0_off92 k) (k0_off92_inb k)),
    addf (acc.2.2.2.2.2.2.2.2.2.2.2.2.2.2.2.2.2.2.2.2.2.2.2.2.2.2.2.1) (rowRead M f (k0_off93 k) (k0_off93_inb k)),
    addf (acc.2.2.2.2.2.2.2.2.2.2.2.2.2.2.2.2.2.2.2.2.2.2.2.2.2.2.2.2.1) (rowRead M f (k0_off94 k) (k0_off94_inb k)),
    addf (acc.2.2.2.2.2.2.2.2.2.2.2.2.2.2.2.2.2.2.2.2.2.2.2.2.2.2.2.2.2.1) (rowRead M f (k0_off95 k) (k0_off95_inb k)),
    addf (acc.2.2.2.2.2.2.2.2.2.2.2.2.2.2.2.2.2.2.2.2.2.2.2.2.2.2.2.2.2.2.1) (rowRead M f (k0_off96 k) (k0_off96_inb k)),
    addf (acc.2.2.2.2.2.2.2.2.2.2.2.2.2.2.2.2.2.2.2.2.2.2.2.2.2.2.2.2.2.2.2) (rowRead M f (k0_off97 k) (k0_off97_inb k)))

/-- The accumulators before trip k of loop 3, from those it starts with. -/
def rowsFold_t3 (M : Memref sig .scVector .vmem S64x512 .f32) (f : M.view.ty.Contents (Elt F)) : Nat → Acc F → Acc F
  | 0, init => init
  | k + 1, init => if h : k < k0_t3_loop.trips then addRow_t3 M f ⟨k, h⟩ (rowsFold_t3 M f k init) else rowsFold_t3 M f k init

set_option warn.classDefReducibility false in
/-- Loop 3 keeps the buffer it reads and carries the rows added so far. -/
@[sl_loop] def loopVal_t3 (d : Dev nD) (L : grid0.Coords) (v29 : BitVec 32) (v64_0 : FVec F S16 .f32) (v64_1 : FVec F S16 .f32) (v64_2 : FVec F S16 .f32) (v64_3 : FVec F S16 .f32) (v64_4 : FVec F S16 .f32) (v64_5 : FVec F S16 .f32) (v64_6 : FVec F S16 .f32) (v64_7 : FVec F S16 .f32) (v64_8 : FVec F S16 .f32) (v64_9 : FVec F S16 .f32) (v64_10 : FVec F S16 .f32) (v64_11 : FVec F S16 .f32) (v64_12 : FVec F S16 .f32) (v64_13 : FVec F S16 .f32) (v64_14 : FVec F S16 .f32) (v64_15 : FVec F S16 .f32) (v64_16 : FVec F S16 .f32) (v64_17 : FVec F S16 .f32) (v64_18 : FVec F S16 .f32) (v64_19 : FVec F S16 .f32) (v64_20 : FVec F S16 .f32) (v64_21 : FVec F S16 .f32) (v64_22 : FVec F S16 .f32) (v64_23 : FVec F S16 .f32) (v64_24 : FVec F S16 .f32) (v64_25 : FVec F S16 .f32) (v64_26 : FVec F S16 .f32) (v64_27 : FVec F S16 .f32) (v64_28 : FVec F S16 .f32) (v64_29 : FVec F S16 .f32) (v64_30 : FVec F S16 .f32) (v64_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t3_loop.lb k0_t3_loop.ub k0_t3_loop.st k0_t3_ok init
      (k0_t3_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v64_0 v64_1 v64_2 v64_3 v64_4 v64_5 v64_6 v64_7 v64_8 v64_9 v64_10 v64_11 v64_12 v64_13 v64_14 v64_15 v64_16 v64_17 v64_18 v64_19 v64_20 v64_21 v64_22 v64_23 v64_24 v64_25 v64_26 v64_27 v64_28 v64_29 v64_30 v64_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t3 (Memref.whole cc0_scratch0) w k init⌝)
  step k acc := by
    iintro ⟨H, %hacc⟩
    sl_exec
    sl_step
    isplitl [H]; · iexact H
    ipureintro
    show _ = rowsFold_t3 (Memref.whole cc0_scratch0) w (k.val + 1) init
    rw [rowsFold_t3, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t3 (Memref.whole cc0_scratch0) w ⟨k.val, k.isLt⟩ acc
        = addRow_t3 (Memref.whole cc0_scratch0) (View.write (Elt F) (Memref.whole cc0_scratch0 : Memref sig .scVector .vmem S64x512 .f32).view prev w Finset.univ) ⟨k.val, k.isLt⟩ acc from by rw [e]]
    rfl

/-- One trip of loop 4: row k of the buffer added to the 32 accumulators, 16 lanes each. -/
def addRow_t4 (M : Memref sig .scVector .vmem S64x512 .f32) (f : M.view.ty.Contents (Elt F)) (k : Fin k0_t4_loop.trips) (acc : Acc F) : Acc F :=
  (addf (acc.1) (rowRead M f (k0_off99 k) (k0_off99_inb k)),
    addf (acc.2.1) (rowRead M f (k0_off100 k) (k0_off100_inb k)),
    addf (acc.2.2.1) (rowRead M f (k0_off101 k) (k0_off101_inb k)),
    addf (acc.2.2.2.1) (rowRead M f (k0_off102 k) (k0_off102_inb k)),
    addf (acc.2.2.2.2.1) (rowRead M f (k0_off103 k) (k0_off103_inb k)),
    addf (acc.2.2.2.2.2.1) (rowRead M f (k0_off104 k) (k0_off104_inb k)),
    addf (acc.2.2.2.2.2.2.1) (rowRead M f (k0_off105 k) (k0_off105_inb k)),
    addf (acc.2.2.2.2.2.2.2.1) (rowRead M f (k0_off106 k) (k0_off106_inb k)),
    addf (acc.2.2.2.2.2.2.2.2.1) (rowRead M f (k0_off107 k) (k0_off107_inb k)),
    addf (acc.2.2.2.2.2.2.2.2.2.1) (rowRead M f (k0_off108 k) (k0_off108_inb k)),
    addf (acc.2.2.2.2.2.2.2.2.2.2.1) (rowRead M f (k0_off109 k) (k0_off109_inb k)),
    addf (acc.2.2.2.2.2.2.2.2.2.2.2.1) (rowRead M f (k0_off110 k) (k0_off110_inb k)),
    addf (acc.2.2.2.2.2.2.2.2.2.2.2.2.1) (rowRead M f (k0_off111 k) (k0_off111_inb k)),
    addf (acc.2.2.2.2.2.2.2.2.2.2.2.2.2.1) (rowRead M f (k0_off112 k) (k0_off112_inb k)),
    addf (acc.2.2.2.2.2.2.2.2.2.2.2.2.2.2.1) (rowRead M f (k0_off113 k) (k0_off113_inb k)),
    addf (acc.2.2.2.2.2.2.2.2.2.2.2.2.2.2.2.1) (rowRead M f (k0_off114 k) (k0_off114_inb k)),
    addf (acc.2.2.2.2.2.2.2.2.2.2.2.2.2.2.2.2.1) (rowRead M f (k0_off115 k) (k0_off115_inb k)),
    addf (acc.2.2.2.2.2.2.2.2.2.2.2.2.2.2.2.2.2.1) (rowRead M f (k0_off116 k) (k0_off116_inb k)),
    addf (acc.2.2.2.2.2.2.2.2.2.2.2.2.2.2.2.2.2.2.1) (rowRead M f (k0_off117 k) (k0_off117_inb k)),
    addf (acc.2.2.2.2.2.2.2.2.2.2.2.2.2.2.2.2.2.2.2.1) (rowRead M f (k0_off118 k) (k0_off118_inb k)),
    addf (acc.2.2.2.2.2.2.2.2.2.2.2.2.2.2.2.2.2.2.2.2.1) (rowRead M f (k0_off119 k) (k0_off119_inb k)),
    addf (acc.2.2.2.2.2.2.2.2.2.2.2.2.2.2.2.2.2.2.2.2.2.1) (rowRead M f (k0_off120 k) (k0_off120_inb k)),
    addf (acc.2.2.2.2.2.2.2.2.2.2.2.2.2.2.2.2.2.2.2.2.2.2.1) (rowRead M f (k0_off121 k) (k0_off121_inb k)),
    addf (acc.2.2.2.2.2.2.2.2.2.2.2.2.2.2.2.2.2.2.2.2.2.2.2.1) (rowRead M f (k0_off122 k) (k0_off122_inb k)),
    addf (acc.2.2.2.2.2.2.2.2.2.2.2.2.2.2.2.2.2.2.2.2.2.2.2.2.1) (rowRead M f (k0_off123 k) (k0_off123_inb k)),
    addf (acc.2.2.2.2.2.2.2.2.2.2.2.2.2.2.2.2.2.2.2.2.2.2.2.2.2.1) (rowRead M f (k0_off124 k) (k0_off124_inb k)),
    addf (acc.2.2.2.2.2.2.2.2.2.2.2.2.2.2.2.2.2.2.2.2.2.2.2.2.2.2.1) (rowRead M f (k0_off125 k) (k0_off125_inb k)),
    addf (acc.2.2.2.2.2.2.2.2.2.2.2.2.2.2.2.2.2.2.2.2.2.2.2.2.2.2.2.1) (rowRead M f (k0_off126 k) (k0_off126_inb k)),
    addf (acc.2.2.2.2.2.2.2.2.2.2.2.2.2.2.2.2.2.2.2.2.2.2.2.2.2.2.2.2.1) (rowRead M f (k0_off127 k) (k0_off127_inb k)),
    addf (acc.2.2.2.2.2.2.2.2.2.2.2.2.2.2.2.2.2.2.2.2.2.2.2.2.2.2.2.2.2.1) (rowRead M f (k0_off128 k) (k0_off128_inb k)),
    addf (acc.2.2.2.2.2.2.2.2.2.2.2.2.2.2.2.2.2.2.2.2.2.2.2.2.2.2.2.2.2.2.1) (rowRead M f (k0_off129 k) (k0_off129_inb k)),
    addf (acc.2.2.2.2.2.2.2.2.2.2.2.2.2.2.2.2.2.2.2.2.2.2.2.2.2.2.2.2.2.2.2) (rowRead M f (k0_off130 k) (k0_off130_inb k)))

/-- The accumulators before trip k of loop 4, from those it starts with. -/
def rowsFold_t4 (M : Memref sig .scVector .vmem S64x512 .f32) (f : M.view.ty.Contents (Elt F)) : Nat → Acc F → Acc F
  | 0, init => init
  | k + 1, init => if h : k < k0_t4_loop.trips then addRow_t4 M f ⟨k, h⟩ (rowsFold_t4 M f k init) else rowsFold_t4 M f k init

set_option warn.classDefReducibility false in
/-- Loop 4 keeps the buffer it reads and carries the rows added so far. -/
@[sl_loop] def loopVal_t4 (d : Dev nD) (L : grid0.Coords) (v29 : BitVec 32) (v64_0 : FVec F S16 .f32) (v64_1 : FVec F S16 .f32) (v64_2 : FVec F S16 .f32) (v64_3 : FVec F S16 .f32) (v64_4 : FVec F S16 .f32) (v64_5 : FVec F S16 .f32) (v64_6 : FVec F S16 .f32) (v64_7 : FVec F S16 .f32) (v64_8 : FVec F S16 .f32) (v64_9 : FVec F S16 .f32) (v64_10 : FVec F S16 .f32) (v64_11 : FVec F S16 .f32) (v64_12 : FVec F S16 .f32) (v64_13 : FVec F S16 .f32) (v64_14 : FVec F S16 .f32) (v64_15 : FVec F S16 .f32) (v64_16 : FVec F S16 .f32) (v64_17 : FVec F S16 .f32) (v64_18 : FVec F S16 .f32) (v64_19 : FVec F S16 .f32) (v64_20 : FVec F S16 .f32) (v64_21 : FVec F S16 .f32) (v64_22 : FVec F S16 .f32) (v64_23 : FVec F S16 .f32) (v64_24 : FVec F S16 .f32) (v64_25 : FVec F S16 .f32) (v64_26 : FVec F S16 .f32) (v64_27 : FVec F S16 .f32) (v64_28 : FVec F S16 .f32) (v64_29 : FVec F S16 .f32) (v64_30 : FVec F S16 .f32) (v64_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t4_loop.lb k0_t4_loop.ub k0_t4_loop.st k0_t4_ok init
      (k0_t4_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v64_0 v64_1 v64_2 v64_3 v64_4 v64_5 v64_6 v64_7 v64_8 v64_9 v64_10 v64_11 v64_12 v64_13 v64_14 v64_15 v64_16 v64_17 v64_18 v64_19 v64_20 v64_21 v64_22 v64_23 v64_24 v64_25 v64_26 v64_27 v64_28 v64_29 v64_30 v64_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t4 (Memref.whole cc0_scratch1) w k init⌝)
  step k acc := by
    iintro ⟨H, %hacc⟩
    sl_exec
    sl_step
    isplitl [H]; · iexact H
    ipureintro
    show _ = rowsFold_t4 (Memref.whole cc0_scratch1) w (k.val + 1) init
    rw [rowsFold_t4, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t4 (Memref.whole cc0_scratch1) w ⟨k.val, k.isLt⟩ acc
        = addRow_t4 (Memref.whole cc0_scratch1) (View.write (Elt F) (Memref.whole cc0_scratch1 : Memref sig .scVector .vmem S64x512 .f32).view prev w Finset.univ) ⟨k.val, k.isLt⟩ acc from by rw [e]]
    rfl

/-- One trip of loop 5: row k of the buffer added to the 32 accumulators, 16 lanes each. -/
def addRow_t5 (M : Memref sig .scVector .vmem S64x512 .f32) (f : M.view.ty.Contents (Elt F)) (k : Fin k0_t5_loop.trips) (acc : Acc F) : Acc F :=
  (addf (acc.1) (rowRead M f (k0_off132 k) (k0_off132_inb k)),
    addf (acc.2.1) (rowRead M f (k0_off133 k) (k0_off133_inb k)),
    addf (acc.2.2.1) (rowRead M f (k0_off134 k) (k0_off134_inb k)),
    addf (acc.2.2.2.1) (rowRead M f (k0_off135 k) (k0_off135_inb k)),
    addf (acc.2.2.2.2.1) (rowRead M f (k0_off136 k) (k0_off136_inb k)),
    addf (acc.2.2.2.2.2.1) (rowRead M f (k0_off137 k) (k0_off137_inb k)),
    addf (acc.2.2.2.2.2.2.1) (rowRead M f (k0_off138 k) (k0_off138_inb k)),
    addf (acc.2.2.2.2.2.2.2.1) (rowRead M f (k0_off139 k) (k0_off139_inb k)),
    addf (acc.2.2.2.2.2.2.2.2.1) (rowRead M f (k0_off140 k) (k0_off140_inb k)),
    addf (acc.2.2.2.2.2.2.2.2.2.1) (rowRead M f (k0_off141 k) (k0_off141_inb k)),
    addf (acc.2.2.2.2.2.2.2.2.2.2.1) (rowRead M f (k0_off142 k) (k0_off142_inb k)),
    addf (acc.2.2.2.2.2.2.2.2.2.2.2.1) (rowRead M f (k0_off143 k) (k0_off143_inb k)),
    addf (acc.2.2.2.2.2.2.2.2.2.2.2.2.1) (rowRead M f (k0_off144 k) (k0_off144_inb k)),
    addf (acc.2.2.2.2.2.2.2.2.2.2.2.2.2.1) (rowRead M f (k0_off145 k) (k0_off145_inb k)),
    addf (acc.2.2.2.2.2.2.2.2.2.2.2.2.2.2.1) (rowRead M f (k0_off146 k) (k0_off146_inb k)),
    addf (acc.2.2.2.2.2.2.2.2.2.2.2.2.2.2.2.1) (rowRead M f (k0_off147 k) (k0_off147_inb k)),
    addf (acc.2.2.2.2.2.2.2.2.2.2.2.2.2.2.2.2.1) (rowRead M f (k0_off148 k) (k0_off148_inb k)),
    addf (acc.2.2.2.2.2.2.2.2.2.2.2.2.2.2.2.2.2.1) (rowRead M f (k0_off149 k) (k0_off149_inb k)),
    addf (acc.2.2.2.2.2.2.2.2.2.2.2.2.2.2.2.2.2.2.1) (rowRead M f (k0_off150 k) (k0_off150_inb k)),
    addf (acc.2.2.2.2.2.2.2.2.2.2.2.2.2.2.2.2.2.2.2.1) (rowRead M f (k0_off151 k) (k0_off151_inb k)),
    addf (acc.2.2.2.2.2.2.2.2.2.2.2.2.2.2.2.2.2.2.2.2.1) (rowRead M f (k0_off152 k) (k0_off152_inb k)),
    addf (acc.2.2.2.2.2.2.2.2.2.2.2.2.2.2.2.2.2.2.2.2.2.1) (rowRead M f (k0_off153 k) (k0_off153_inb k)),
    addf (acc.2.2.2.2.2.2.2.2.2.2.2.2.2.2.2.2.2.2.2.2.2.2.1) (rowRead M f (k0_off154 k) (k0_off154_inb k)),
    addf (acc.2.2.2.2.2.2.2.2.2.2.2.2.2.2.2.2.2.2.2.2.2.2.2.1) (rowRead M f (k0_off155 k) (k0_off155_inb k)),
    addf (acc.2.2.2.2.2.2.2.2.2.2.2.2.2.2.2.2.2.2.2.2.2.2.2.2.1) (rowRead M f (k0_off156 k) (k0_off156_inb k)),
    addf (acc.2.2.2.2.2.2.2.2.2.2.2.2.2.2.2.2.2.2.2.2.2.2.2.2.2.1) (rowRead M f (k0_off157 k) (k0_off157_inb k)),
    addf (acc.2.2.2.2.2.2.2.2.2.2.2.2.2.2.2.2.2.2.2.2.2.2.2.2.2.2.1) (rowRead M f (k0_off158 k) (k0_off158_inb k)),
    addf (acc.2.2.2.2.2.2.2.2.2.2.2.2.2.2.2.2.2.2.2.2.2.2.2.2.2.2.2.1) (rowRead M f (k0_off159 k) (k0_off159_inb k)),
    addf (acc.2.2.2.2.2.2.2.2.2.2.2.2.2.2.2.2.2.2.2.2.2.2.2.2.2.2.2.2.1) (rowRead M f (k0_off160 k) (k0_off160_inb k)),
    addf (acc.2.2.2.2.2.2.2.2.2.2.2.2.2.2.2.2.2.2.2.2.2.2.2.2.2.2.2.2.2.1) (rowRead M f (k0_off161 k) (k0_off161_inb k)),
    addf (acc.2.2.2.2.2.2.2.2.2.2.2.2.2.2.2.2.2.2.2.2.2.2.2.2.2.2.2.2.2.2.1) (rowRead M f (k0_off162 k) (k0_off162_inb k)),
    addf (acc.2.2.2.2.2.2.2.2.2.2.2.2.2.2.2.2.2.2.2.2.2.2.2.2.2.2.2.2.2.2.2) (rowRead M f (k0_off163 k) (k0_off163_inb k)))

/-- The accumulators before trip k of loop 5, from those it starts with. -/
def rowsFold_t5 (M : Memref sig .scVector .vmem S64x512 .f32) (f : M.view.ty.Contents (Elt F)) : Nat → Acc F → Acc F
  | 0, init => init
  | k + 1, init => if h : k < k0_t5_loop.trips then addRow_t5 M f ⟨k, h⟩ (rowsFold_t5 M f k init) else rowsFold_t5 M f k init

set_option warn.classDefReducibility false in
/-- Loop 5 keeps the buffer it reads and carries the rows added so far. -/
@[sl_loop] def loopVal_t5 (d : Dev nD) (L : grid0.Coords) (v29 : BitVec 32) (v199 : FVec F S16 .f32) (c0_i32_55 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t5_loop.lb k0_t5_loop.ub k0_t5_loop.st k0_t5_ok init
      (k0_t5_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v199 c0_i32_55) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t5 (Memref.whole cc0_scratch0) w k init⌝)
  step k acc := by
    iintro ⟨H, %hacc⟩
    sl_exec
    sl_step
    isplitl [H]; · iexact H
    ipureintro
    show _ = rowsFold_t5 (Memref.whole cc0_scratch0) w (k.val + 1) init
    rw [rowsFold_t5, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t5 (Memref.whole cc0_scratch0) w ⟨k.val, k.isLt⟩ acc
        = addRow_t5 (Memref.whole cc0_scratch0) (View.write (Elt F) (Memref.whole cc0_scratch0 : Memref sig .scVector .vmem S64x512 .f32).view prev w Finset.univ) ⟨k.val, k.isLt⟩ acc from by rw [e]]
    rfl

/-- One trip of loop 6: row k of the buffer added to the 32 accumulators, 16 lanes each. -/
def addRow_t6 (M : Memref sig .scVector .vmem S64x512 .f32) (f : M.view.ty.Contents (Elt F)) (k : Fin k0_t6_loop.trips) (acc : Acc F) : Acc F :=
  (addf (acc.1) (rowRead M f (k0_off164 k) (k0_off164_inb k)),
    addf (acc.2.1) (rowRead M f (k0_off165 k) (k0_off165_inb k)),
    addf (acc.2.2.1) (rowRead M f (k0_off166 k) (k0_off166_inb k)),
    addf (acc.2.2.2.1) (rowRead M f (k0_off167 k) (k0_off167_inb k)),
    addf (acc.2.2.2.2.1) (rowRead M f (k0_off168 k) (k0_off168_inb k)),
    addf (acc.2.2.2.2.2.1) (rowRead M f (k0_off169 k) (k0_off169_inb k)),
    addf (acc.2.2.2.2.2.2.1) (rowRead M f (k0_off170 k) (k0_off170_inb k)),
    addf (acc.2.2.2.2.2.2.2.1) (rowRead M f (k0_off171 k) (k0_off171_inb k)),
    addf (acc.2.2.2.2.2.2.2.2.1) (rowRead M f (k0_off172 k) (k0_off172_inb k)),
    addf (acc.2.2.2.2.2.2.2.2.2.1) (rowRead M f (k0_off173 k) (k0_off173_inb k)),
    addf (acc.2.2.2.2.2.2.2.2.2.2.1) (rowRead M f (k0_off174 k) (k0_off174_inb k)),
    addf (acc.2.2.2.2.2.2.2.2.2.2.2.1) (rowRead M f (k0_off175 k) (k0_off175_inb k)),
    addf (acc.2.2.2.2.2.2.2.2.2.2.2.2.1) (rowRead M f (k0_off176 k) (k0_off176_inb k)),
    addf (acc.2.2.2.2.2.2.2.2.2.2.2.2.2.1) (rowRead M f (k0_off177 k) (k0_off177_inb k)),
    addf (acc.2.2.2.2.2.2.2.2.2.2.2.2.2.2.1) (rowRead M f (k0_off178 k) (k0_off178_inb k)),
    addf (acc.2.2.2.2.2.2.2.2.2.2.2.2.2.2.2.1) (rowRead M f (k0_off179 k) (k0_off179_inb k)),
    addf (acc.2.2.2.2.2.2.2.2.2.2.2.2.2.2.2.2.1) (rowRead M f (k0_off180 k) (k0_off180_inb k)),
    addf (acc.2.2.2.2.2.2.2.2.2.2.2.2.2.2.2.2.2.1) (rowRead M f (k0_off181 k) (k0_off181_inb k)),
    addf (acc.2.2.2.2.2.2.2.2.2.2.2.2.2.2.2.2.2.2.1) (rowRead M f (k0_off182 k) (k0_off182_inb k)),
    addf (acc.2.2.2.2.2.2.2.2.2.2.2.2.2.2.2.2.2.2.2.1) (rowRead M f (k0_off183 k) (k0_off183_inb k)),
    addf (acc.2.2.2.2.2.2.2.2.2.2.2.2.2.2.2.2.2.2.2.2.1) (rowRead M f (k0_off184 k) (k0_off184_inb k)),
    addf (acc.2.2.2.2.2.2.2.2.2.2.2.2.2.2.2.2.2.2.2.2.2.1) (rowRead M f (k0_off185 k) (k0_off185_inb k)),
    addf (acc.2.2.2.2.2.2.2.2.2.2.2.2.2.2.2.2.2.2.2.2.2.2.1) (rowRead M f (k0_off186 k) (k0_off186_inb k)),
    addf (acc.2.2.2.2.2.2.2.2.2.2.2.2.2.2.2.2.2.2.2.2.2.2.2.1) (rowRead M f (k0_off187 k) (k0_off187_inb k)),
    addf (acc.2.2.2.2.2.2.2.2.2.2.2.2.2.2.2.2.2.2.2.2.2.2.2.2.1) (rowRead M f (k0_off188 k) (k0_off188_inb k)),
    addf (acc.2.2.2.2.2.2.2.2.2.2.2.2.2.2.2.2.2.2.2.2.2.2.2.2.2.1) (rowRead M f (k0_off189 k) (k0_off189_inb k)),
    addf (acc.2.2.2.2.2.2.2.2.2.2.2.2.2.2.2.2.2.2.2.2.2.2.2.2.2.2.1) (rowRead M f (k0_off190 k) (k0_off190_inb k)),
    addf (acc.2.2.2.2.2.2.2.2.2.2.2.2.2.2.2.2.2.2.2.2.2.2.2.2.2.2.2.1) (rowRead M f (k0_off191 k) (k0_off191_inb k)),
    addf (acc.2.2.2.2.2.2.2.2.2.2.2.2.2.2.2.2.2.2.2.2.2.2.2.2.2.2.2.2.1) (rowRead M f (k0_off192 k) (k0_off192_inb k)),
    addf (acc.2.2.2.2.2.2.2.2.2.2.2.2.2.2.2.2.2.2.2.2.2.2.2.2.2.2.2.2.2.1) (rowRead M f (k0_off193 k) (k0_off193_inb k)),
    addf (acc.2.2.2.2.2.2.2.2.2.2.2.2.2.2.2.2.2.2.2.2.2.2.2.2.2.2.2.2.2.2.1) (rowRead M f (k0_off194 k) (k0_off194_inb k)),
    addf (acc.2.2.2.2.2.2.2.2.2.2.2.2.2.2.2.2.2.2.2.2.2.2.2.2.2.2.2.2.2.2.2) (rowRead M f (k0_off195 k) (k0_off195_inb k)))

/-- The accumulators before trip k of loop 6, from those it starts with. -/
def rowsFold_t6 (M : Memref sig .scVector .vmem S64x512 .f32) (f : M.view.ty.Contents (Elt F)) : Nat → Acc F → Acc F
  | 0, init => init
  | k + 1, init => if h : k < k0_t6_loop.trips then addRow_t6 M f ⟨k, h⟩ (rowsFold_t6 M f k init) else rowsFold_t6 M f k init

set_option warn.classDefReducibility false in
/-- Loop 6 keeps the buffer it reads and carries the rows added so far. -/
@[sl_loop] def loopVal_t6 (d : Dev nD) (L : grid0.Coords) (v29 : BitVec 32) (v199 : FVec F S16 .f32) (c0_i32_55 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t6_loop.lb k0_t6_loop.ub k0_t6_loop.st k0_t6_ok init
      (k0_t6_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v199 c0_i32_55) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t6 (Memref.whole cc0_scratch1) w k init⌝)
  step k acc := by
    iintro ⟨H, %hacc⟩
    sl_exec
    sl_step
    isplitl [H]; · iexact H
    ipureintro
    show _ = rowsFold_t6 (Memref.whole cc0_scratch1) w (k.val + 1) init
    rw [rowsFold_t6, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t6 (Memref.whole cc0_scratch1) w ⟨k.val, k.isLt⟩ acc
        = addRow_t6 (Memref.whole cc0_scratch1) (View.write (Elt F) (Memref.whole cc0_scratch1 : Memref sig .scVector .vmem S64x512 .f32).view prev w Finset.univ) ⟨k.val, k.isLt⟩ acc from by rw [e]]
    rfl

/-- One trip of loop 7: row k of the buffer added to the 32 accumulators, 16 lanes each. -/
def addRow_t7 (M : Memref sig .scVector .vmem S64x512 .f32) (f : M.view.ty.Contents (Elt F)) (k : Fin k0_t7_loop.trips) (acc : Acc F) : Acc F :=
  (addf (acc.1) (rowRead M f (k0_off196 k) (k0_off196_inb k)),
    addf (acc.2.1) (rowRead M f (k0_off197 k) (k0_off197_inb k)),
    addf (acc.2.2.1) (rowRead M f (k0_off198 k) (k0_off198_inb k)),
    addf (acc.2.2.2.1) (rowRead M f (k0_off199 k) (k0_off199_inb k)),
    addf (acc.2.2.2.2.1) (rowRead M f (k0_off200 k) (k0_off200_inb k)),
    addf (acc.2.2.2.2.2.1) (rowRead M f (k0_off201 k) (k0_off201_inb k)),
    addf (acc.2.2.2.2.2.2.1) (rowRead M f (k0_off202 k) (k0_off202_inb k)),
    addf (acc.2.2.2.2.2.2.2.1) (rowRead M f (k0_off203 k) (k0_off203_inb k)),
    addf (acc.2.2.2.2.2.2.2.2.1) (rowRead M f (k0_off204 k) (k0_off204_inb k)),
    addf (acc.2.2.2.2.2.2.2.2.2.1) (rowRead M f (k0_off205 k) (k0_off205_inb k)),
    addf (acc.2.2.2.2.2.2.2.2.2.2.1) (rowRead M f (k0_off206 k) (k0_off206_inb k)),
    addf (acc.2.2.2.2.2.2.2.2.2.2.2.1) (rowRead M f (k0_off207 k) (k0_off207_inb k)),
    addf (acc.2.2.2.2.2.2.2.2.2.2.2.2.1) (rowRead M f (k0_off208 k) (k0_off208_inb k)),
    addf (acc.2.2.2.2.2.2.2.2.2.2.2.2.2.1) (rowRead M f (k0_off209 k) (k0_off209_inb k)),
    addf (acc.2.2.2.2.2.2.2.2.2.2.2.2.2.2.1) (rowRead M f (k0_off210 k) (k0_off210_inb k)),
    addf (acc.2.2.2.2.2.2.2.2.2.2.2.2.2.2.2.1) (rowRead M f (k0_off211 k) (k0_off211_inb k)),
    addf (acc.2.2.2.2.2.2.2.2.2.2.2.2.2.2.2.2.1) (rowRead M f (k0_off212 k) (k0_off212_inb k)),
    addf (acc.2.2.2.2.2.2.2.2.2.2.2.2.2.2.2.2.2.1) (rowRead M f (k0_off213 k) (k0_off213_inb k)),
    addf (acc.2.2.2.2.2.2.2.2.2.2.2.2.2.2.2.2.2.2.1) (rowRead M f (k0_off214 k) (k0_off214_inb k)),
    addf (acc.2.2.2.2.2.2.2.2.2.2.2.2.2.2.2.2.2.2.2.1) (rowRead M f (k0_off215 k) (k0_off215_inb k)),
    addf (acc.2.2.2.2.2.2.2.2.2.2.2.2.2.2.2.2.2.2.2.2.1) (rowRead M f (k0_off216 k) (k0_off216_inb k)),
    addf (acc.2.2.2.2.2.2.2.2.2.2.2.2.2.2.2.2.2.2.2.2.2.1) (rowRead M f (k0_off217 k) (k0_off217_inb k)),
    addf (acc.2.2.2.2.2.2.2.2.2.2.2.2.2.2.2.2.2.2.2.2.2.2.1) (rowRead M f (k0_off218 k) (k0_off218_inb k)),
    addf (acc.2.2.2.2.2.2.2.2.2.2.2.2.2.2.2.2.2.2.2.2.2.2.2.1) (rowRead M f (k0_off219 k) (k0_off219_inb k)),
    addf (acc.2.2.2.2.2.2.2.2.2.2.2.2.2.2.2.2.2.2.2.2.2.2.2.2.1) (rowRead M f (k0_off220 k) (k0_off220_inb k)),
    addf (acc.2.2.2.2.2.2.2.2.2.2.2.2.2.2.2.2.2.2.2.2.2.2.2.2.2.1) (rowRead M f (k0_off221 k) (k0_off221_inb k)),
    addf (acc.2.2.2.2.2.2.2.2.2.2.2.2.2.2.2.2.2.2.2.2.2.2.2.2.2.2.1) (rowRead M f (k0_off222 k) (k0_off222_inb k)),
    addf (acc.2.2.2.2.2.2.2.2.2.2.2.2.2.2.2.2.2.2.2.2.2.2.2.2.2.2.2.1) (rowRead M f (k0_off223 k) (k0_off223_inb k)),
    addf (acc.2.2.2.2.2.2.2.2.2.2.2.2.2.2.2.2.2.2.2.2.2.2.2.2.2.2.2.2.1) (rowRead M f (k0_off224 k) (k0_off224_inb k)),
    addf (acc.2.2.2.2.2.2.2.2.2.2.2.2.2.2.2.2.2.2.2.2.2.2.2.2.2.2.2.2.2.1) (rowRead M f (k0_off225 k) (k0_off225_inb k)),
    addf (acc.2.2.2.2.2.2.2.2.2.2.2.2.2.2.2.2.2.2.2.2.2.2.2.2.2.2.2.2.2.2.1) (rowRead M f (k0_off226 k) (k0_off226_inb k)),
    addf (acc.2.2.2.2.2.2.2.2.2.2.2.2.2.2.2.2.2.2.2.2.2.2.2.2.2.2.2.2.2.2.2) (rowRead M f (k0_off227 k) (k0_off227_inb k)))

/-- The accumulators before trip k of loop 7, from those it starts with. -/
def rowsFold_t7 (M : Memref sig .scVector .vmem S64x512 .f32) (f : M.view.ty.Contents (Elt F)) : Nat → Acc F → Acc F
  | 0, init => init
  | k + 1, init => if h : k < k0_t7_loop.trips then addRow_t7 M f ⟨k, h⟩ (rowsFold_t7 M f k init) else rowsFold_t7 M f k init

set_option warn.classDefReducibility false in
/-- Loop 7 keeps the buffer it reads and carries the rows added so far. -/
@[sl_loop] def loopVal_t7 (d : Dev nD) (L : grid0.Coords) (v29 : BitVec 32) (v199 : FVec F S16 .f32) (c0_i32_55 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t7_loop.lb k0_t7_loop.ub k0_t7_loop.st k0_t7_ok init
      (k0_t7_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v199 c0_i32_55) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t7 (Memref.whole cc0_scratch0) w k init⌝)
  step k acc := by
    iintro ⟨H, %hacc⟩
    sl_exec
    sl_step
    isplitl [H]; · iexact H
    ipureintro
    show _ = rowsFold_t7 (Memref.whole cc0_scratch0) w (k.val + 1) init
    rw [rowsFold_t7, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t7 (Memref.whole cc0_scratch0) w ⟨k.val, k.isLt⟩ acc
        = addRow_t7 (Memref.whole cc0_scratch0) (View.write (Elt F) (Memref.whole cc0_scratch0 : Memref sig .scVector .vmem S64x512 .f32).view prev w Finset.univ) ⟨k.val, k.isLt⟩ acc from by rw [e]]
    rfl

/-- One trip of loop 8: row k of the buffer added to the 32 accumulators, 16 lanes each. -/
def addRow_t8 (M : Memref sig .scVector .vmem S64x512 .f32) (f : M.view.ty.Contents (Elt F)) (k : Fin k0_t8_loop.trips) (acc : Acc F) : Acc F :=
  (addf (acc.1) (rowRead M f (k0_off229 k) (k0_off229_inb k)),
    addf (acc.2.1) (rowRead M f (k0_off230 k) (k0_off230_inb k)),
    addf (acc.2.2.1) (rowRead M f (k0_off231 k) (k0_off231_inb k)),
    addf (acc.2.2.2.1) (rowRead M f (k0_off232 k) (k0_off232_inb k)),
    addf (acc.2.2.2.2.1) (rowRead M f (k0_off233 k) (k0_off233_inb k)),
    addf (acc.2.2.2.2.2.1) (rowRead M f (k0_off234 k) (k0_off234_inb k)),
    addf (acc.2.2.2.2.2.2.1) (rowRead M f (k0_off235 k) (k0_off235_inb k)),
    addf (acc.2.2.2.2.2.2.2.1) (rowRead M f (k0_off236 k) (k0_off236_inb k)),
    addf (acc.2.2.2.2.2.2.2.2.1) (rowRead M f (k0_off237 k) (k0_off237_inb k)),
    addf (acc.2.2.2.2.2.2.2.2.2.1) (rowRead M f (k0_off238 k) (k0_off238_inb k)),
    addf (acc.2.2.2.2.2.2.2.2.2.2.1) (rowRead M f (k0_off239 k) (k0_off239_inb k)),
    addf (acc.2.2.2.2.2.2.2.2.2.2.2.1) (rowRead M f (k0_off240 k) (k0_off240_inb k)),
    addf (acc.2.2.2.2.2.2.2.2.2.2.2.2.1) (rowRead M f (k0_off241 k) (k0_off241_inb k)),
    addf (acc.2.2.2.2.2.2.2.2.2.2.2.2.2.1) (rowRead M f (k0_off242 k) (k0_off242_inb k)),
    addf (acc.2.2.2.2.2.2.2.2.2.2.2.2.2.2.1) (rowRead M f (k0_off243 k) (k0_off243_inb k)),
    addf (acc.2.2.2.2.2.2.2.2.2.2.2.2.2.2.2.1) (rowRead M f (k0_off244 k) (k0_off244_inb k)),
    addf (acc.2.2.2.2.2.2.2.2.2.2.2.2.2.2.2.2.1) (rowRead M f (k0_off245 k) (k0_off245_inb k)),
    addf (acc.2.2.2.2.2.2.2.2.2.2.2.2.2.2.2.2.2.1) (rowRead M f (k0_off246 k) (k0_off246_inb k)),
    addf (acc.2.2.2.2.2.2.2.2.2.2.2.2.2.2.2.2.2.2.1) (rowRead M f (k0_off247 k) (k0_off247_inb k)),
    addf (acc.2.2.2.2.2.2.2.2.2.2.2.2.2.2.2.2.2.2.2.1) (rowRead M f (k0_off248 k) (k0_off248_inb k)),
    addf (acc.2.2.2.2.2.2.2.2.2.2.2.2.2.2.2.2.2.2.2.2.1) (rowRead M f (k0_off249 k) (k0_off249_inb k)),
    addf (acc.2.2.2.2.2.2.2.2.2.2.2.2.2.2.2.2.2.2.2.2.2.1) (rowRead M f (k0_off250 k) (k0_off250_inb k)),
    addf (acc.2.2.2.2.2.2.2.2.2.2.2.2.2.2.2.2.2.2.2.2.2.2.1) (rowRead M f (k0_off251 k) (k0_off251_inb k)),
    addf (acc.2.2.2.2.2.2.2.2.2.2.2.2.2.2.2.2.2.2.2.2.2.2.2.1) (rowRead M f (k0_off252 k) (k0_off252_inb k)),
    addf (acc.2.2.2.2.2.2.2.2.2.2.2.2.2.2.2.2.2.2.2.2.2.2.2.2.1) (rowRead M f (k0_off253 k) (k0_off253_inb k)),
    addf (acc.2.2.2.2.2.2.2.2.2.2.2.2.2.2.2.2.2.2.2.2.2.2.2.2.2.1) (rowRead M f (k0_off254 k) (k0_off254_inb k)),
    addf (acc.2.2.2.2.2.2.2.2.2.2.2.2.2.2.2.2.2.2.2.2.2.2.2.2.2.2.1) (rowRead M f (k0_off255 k) (k0_off255_inb k)),
    addf (acc.2.2.2.2.2.2.2.2.2.2.2.2.2.2.2.2.2.2.2.2.2.2.2.2.2.2.2.1) (rowRead M f (k0_off256 k) (k0_off256_inb k)),
    addf (acc.2.2.2.2.2.2.2.2.2.2.2.2.2.2.2.2.2.2.2.2.2.2.2.2.2.2.2.2.1) (rowRead M f (k0_off257 k) (k0_off257_inb k)),
    addf (acc.2.2.2.2.2.2.2.2.2.2.2.2.2.2.2.2.2.2.2.2.2.2.2.2.2.2.2.2.2.1) (rowRead M f (k0_off258 k) (k0_off258_inb k)),
    addf (acc.2.2.2.2.2.2.2.2.2.2.2.2.2.2.2.2.2.2.2.2.2.2.2.2.2.2.2.2.2.2.1) (rowRead M f (k0_off259 k) (k0_off259_inb k)),
    addf (acc.2.2.2.2.2.2.2.2.2.2.2.2.2.2.2.2.2.2.2.2.2.2.2.2.2.2.2.2.2.2.2) (rowRead M f (k0_off260 k) (k0_off260_inb k)))

/-- The accumulators before trip k of loop 8, from those it starts with. -/
def rowsFold_t8 (M : Memref sig .scVector .vmem S64x512 .f32) (f : M.view.ty.Contents (Elt F)) : Nat → Acc F → Acc F
  | 0, init => init
  | k + 1, init => if h : k < k0_t8_loop.trips then addRow_t8 M f ⟨k, h⟩ (rowsFold_t8 M f k init) else rowsFold_t8 M f k init

set_option warn.classDefReducibility false in
/-- Loop 8 keeps the buffer it reads and carries the rows added so far. -/
@[sl_loop] def loopVal_t8 (d : Dev nD) (L : grid0.Coords) (v29 : BitVec 32) (v235_0 : FVec F S16 .f32) (v235_1 : FVec F S16 .f32) (v235_2 : FVec F S16 .f32) (v235_3 : FVec F S16 .f32) (v235_4 : FVec F S16 .f32) (v235_5 : FVec F S16 .f32) (v235_6 : FVec F S16 .f32) (v235_7 : FVec F S16 .f32) (v235_8 : FVec F S16 .f32) (v235_9 : FVec F S16 .f32) (v235_10 : FVec F S16 .f32) (v235_11 : FVec F S16 .f32) (v235_12 : FVec F S16 .f32) (v235_13 : FVec F S16 .f32) (v235_14 : FVec F S16 .f32) (v235_15 : FVec F S16 .f32) (v235_16 : FVec F S16 .f32) (v235_17 : FVec F S16 .f32) (v235_18 : FVec F S16 .f32) (v235_19 : FVec F S16 .f32) (v235_20 : FVec F S16 .f32) (v235_21 : FVec F S16 .f32) (v235_22 : FVec F S16 .f32) (v235_23 : FVec F S16 .f32) (v235_24 : FVec F S16 .f32) (v235_25 : FVec F S16 .f32) (v235_26 : FVec F S16 .f32) (v235_27 : FVec F S16 .f32) (v235_28 : FVec F S16 .f32) (v235_29 : FVec F S16 .f32) (v235_30 : FVec F S16 .f32) (v235_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t8_loop.lb k0_t8_loop.ub k0_t8_loop.st k0_t8_ok init
      (k0_t8_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v235_0 v235_1 v235_2 v235_3 v235_4 v235_5 v235_6 v235_7 v235_8 v235_9 v235_10 v235_11 v235_12 v235_13 v235_14 v235_15 v235_16 v235_17 v235_18 v235_19 v235_20 v235_21 v235_22 v235_23 v235_24 v235_25 v235_26 v235_27 v235_28 v235_29 v235_30 v235_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t8 (Memref.whole cc0_scratch1) w k init⌝)
  step k acc := by
    iintro ⟨H, %hacc⟩
    sl_exec
    sl_step
    isplitl [H]; · iexact H
    ipureintro
    show _ = rowsFold_t8 (Memref.whole cc0_scratch1) w (k.val + 1) init
    rw [rowsFold_t8, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t8 (Memref.whole cc0_scratch1) w ⟨k.val, k.isLt⟩ acc
        = addRow_t8 (Memref.whole cc0_scratch1) (View.write (Elt F) (Memref.whole cc0_scratch1 : Memref sig .scVector .vmem S64x512 .f32).view prev w Finset.univ) ⟨k.val, k.isLt⟩ acc from by rw [e]]
    rfl

/-- One trip of loop 9: row k of the buffer added to the 32 accumulators, 16 lanes each. -/
def addRow_t9 (M : Memref sig .scVector .vmem S64x512 .f32) (f : M.view.ty.Contents (Elt F)) (k : Fin k0_t9_loop.trips) (acc : Acc F) : Acc F :=
  (addf (acc.1) (rowRead M f (k0_off261 k) (k0_off261_inb k)),
    addf (acc.2.1) (rowRead M f (k0_off262 k) (k0_off262_inb k)),
    addf (acc.2.2.1) (rowRead M f (k0_off263 k) (k0_off263_inb k)),
    addf (acc.2.2.2.1) (rowRead M f (k0_off264 k) (k0_off264_inb k)),
    addf (acc.2.2.2.2.1) (rowRead M f (k0_off265 k) (k0_off265_inb k)),
    addf (acc.2.2.2.2.2.1) (rowRead M f (k0_off266 k) (k0_off266_inb k)),
    addf (acc.2.2.2.2.2.2.1) (rowRead M f (k0_off267 k) (k0_off267_inb k)),
    addf (acc.2.2.2.2.2.2.2.1) (rowRead M f (k0_off268 k) (k0_off268_inb k)),
    addf (acc.2.2.2.2.2.2.2.2.1) (rowRead M f (k0_off269 k) (k0_off269_inb k)),
    addf (acc.2.2.2.2.2.2.2.2.2.1) (rowRead M f (k0_off270 k) (k0_off270_inb k)),
    addf (acc.2.2.2.2.2.2.2.2.2.2.1) (rowRead M f (k0_off271 k) (k0_off271_inb k)),
    addf (acc.2.2.2.2.2.2.2.2.2.2.2.1) (rowRead M f (k0_off272 k) (k0_off272_inb k)),
    addf (acc.2.2.2.2.2.2.2.2.2.2.2.2.1) (rowRead M f (k0_off273 k) (k0_off273_inb k)),
    addf (acc.2.2.2.2.2.2.2.2.2.2.2.2.2.1) (rowRead M f (k0_off274 k) (k0_off274_inb k)),
    addf (acc.2.2.2.2.2.2.2.2.2.2.2.2.2.2.1) (rowRead M f (k0_off275 k) (k0_off275_inb k)),
    addf (acc.2.2.2.2.2.2.2.2.2.2.2.2.2.2.2.1) (rowRead M f (k0_off276 k) (k0_off276_inb k)),
    addf (acc.2.2.2.2.2.2.2.2.2.2.2.2.2.2.2.2.1) (rowRead M f (k0_off277 k) (k0_off277_inb k)),
    addf (acc.2.2.2.2.2.2.2.2.2.2.2.2.2.2.2.2.2.1) (rowRead M f (k0_off278 k) (k0_off278_inb k)),
    addf (acc.2.2.2.2.2.2.2.2.2.2.2.2.2.2.2.2.2.2.1) (rowRead M f (k0_off279 k) (k0_off279_inb k)),
    addf (acc.2.2.2.2.2.2.2.2.2.2.2.2.2.2.2.2.2.2.2.1) (rowRead M f (k0_off280 k) (k0_off280_inb k)),
    addf (acc.2.2.2.2.2.2.2.2.2.2.2.2.2.2.2.2.2.2.2.2.1) (rowRead M f (k0_off281 k) (k0_off281_inb k)),
    addf (acc.2.2.2.2.2.2.2.2.2.2.2.2.2.2.2.2.2.2.2.2.2.1) (rowRead M f (k0_off282 k) (k0_off282_inb k)),
    addf (acc.2.2.2.2.2.2.2.2.2.2.2.2.2.2.2.2.2.2.2.2.2.2.1) (rowRead M f (k0_off283 k) (k0_off283_inb k)),
    addf (acc.2.2.2.2.2.2.2.2.2.2.2.2.2.2.2.2.2.2.2.2.2.2.2.1) (rowRead M f (k0_off284 k) (k0_off284_inb k)),
    addf (acc.2.2.2.2.2.2.2.2.2.2.2.2.2.2.2.2.2.2.2.2.2.2.2.2.1) (rowRead M f (k0_off285 k) (k0_off285_inb k)),
    addf (acc.2.2.2.2.2.2.2.2.2.2.2.2.2.2.2.2.2.2.2.2.2.2.2.2.2.1) (rowRead M f (k0_off286 k) (k0_off286_inb k)),
    addf (acc.2.2.2.2.2.2.2.2.2.2.2.2.2.2.2.2.2.2.2.2.2.2.2.2.2.2.1) (rowRead M f (k0_off287 k) (k0_off287_inb k)),
    addf (acc.2.2.2.2.2.2.2.2.2.2.2.2.2.2.2.2.2.2.2.2.2.2.2.2.2.2.2.1) (rowRead M f (k0_off288 k) (k0_off288_inb k)),
    addf (acc.2.2.2.2.2.2.2.2.2.2.2.2.2.2.2.2.2.2.2.2.2.2.2.2.2.2.2.2.1) (rowRead M f (k0_off289 k) (k0_off289_inb k)),
    addf (acc.2.2.2.2.2.2.2.2.2.2.2.2.2.2.2.2.2.2.2.2.2.2.2.2.2.2.2.2.2.1) (rowRead M f (k0_off290 k) (k0_off290_inb k)),
    addf (acc.2.2.2.2.2.2.2.2.2.2.2.2.2.2.2.2.2.2.2.2.2.2.2.2.2.2.2.2.2.2.1) (rowRead M f (k0_off291 k) (k0_off291_inb k)),
    addf (acc.2.2.2.2.2.2.2.2.2.2.2.2.2.2.2.2.2.2.2.2.2.2.2.2.2.2.2.2.2.2.2) (rowRead M f (k0_off292 k) (k0_off292_inb k)))

/-- The accumulators before trip k of loop 9, from those it starts with. -/
def rowsFold_t9 (M : Memref sig .scVector .vmem S64x512 .f32) (f : M.view.ty.Contents (Elt F)) : Nat → Acc F → Acc F
  | 0, init => init
  | k + 1, init => if h : k < k0_t9_loop.trips then addRow_t9 M f ⟨k, h⟩ (rowsFold_t9 M f k init) else rowsFold_t9 M f k init

set_option warn.classDefReducibility false in
/-- Loop 9 keeps the buffer it reads and carries the rows added so far. -/
@[sl_loop] def loopVal_t9 (d : Dev nD) (L : grid0.Coords) (v12 : BitVec 32) (v29 : BitVec 32) (v249_30 : FVec F S16 .f32) (v249_31 : FVec F S16 .f32) (v345 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t9_loop.lb k0_t9_loop.ub k0_t9_loop.st k0_t9_ok init
      (k0_t9_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v12 v29 v249_30 v249_31 v345) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t9 (Memref.whole cc0_scratch0) w k init⌝)
  step k acc := by
    iintro ⟨H, %hacc⟩
    sl_exec
    sl_step
    isplitl [H]; · iexact H
    ipureintro
    show _ = rowsFold_t9 (Memref.whole cc0_scratch0) w (k.val + 1) init
    rw [rowsFold_t9, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t9 (Memref.whole cc0_scratch0) w ⟨k.val, k.isLt⟩ acc
        = addRow_t9 (Memref.whole cc0_scratch0) (View.write (Elt F) (Memref.whole cc0_scratch0 : Memref sig .scVector .vmem S64x512 .f32).view prev w Finset.univ) ⟨k.val, k.isLt⟩ acc from by rw [e]]
    rfl

/-- One trip of loop 10: row k of the buffer added to the 32 accumulators, 16 lanes each. -/
def addRow_t10 (M : Memref sig .scVector .vmem S64x512 .f32) (f : M.view.ty.Contents (Elt F)) (k : Fin k0_t10_loop.trips) (acc : Acc F) : Acc F :=
  (addf (acc.1) (rowRead M f (k0_off293 k) (k0_off293_inb k)),
    addf (acc.2.1) (rowRead M f (k0_off294 k) (k0_off294_inb k)),
    addf (acc.2.2.1) (rowRead M f (k0_off295 k) (k0_off295_inb k)),
    addf (acc.2.2.2.1) (rowRead M f (k0_off296 k) (k0_off296_inb k)),
    addf (acc.2.2.2.2.1) (rowRead M f (k0_off297 k) (k0_off297_inb k)),
    addf (acc.2.2.2.2.2.1) (rowRead M f (k0_off298 k) (k0_off298_inb k)),
    addf (acc.2.2.2.2.2.2.1) (rowRead M f (k0_off299 k) (k0_off299_inb k)),
    addf (acc.2.2.2.2.2.2.2.1) (rowRead M f (k0_off300 k) (k0_off300_inb k)),
    addf (acc.2.2.2.2.2.2.2.2.1) (rowRead M f (k0_off301 k) (k0_off301_inb k)),
    addf (acc.2.2.2.2.2.2.2.2.2.1) (rowRead M f (k0_off302 k) (k0_off302_inb k)),
    addf (acc.2.2.2.2.2.2.2.2.2.2.1) (rowRead M f (k0_off303 k) (k0_off303_inb k)),
    addf (acc.2.2.2.2.2.2.2.2.2.2.2.1) (rowRead M f (k0_off304 k) (k0_off304_inb k)),
    addf (acc.2.2.2.2.2.2.2.2.2.2.2.2.1) (rowRead M f (k0_off305 k) (k0_off305_inb k)),
    addf (acc.2.2.2.2.2.2.2.2.2.2.2.2.2.1) (rowRead M f (k0_off306 k) (k0_off306_inb k)),
    addf (acc.2.2.2.2.2.2.2.2.2.2.2.2.2.2.1) (rowRead M f (k0_off307 k) (k0_off307_inb k)),
    addf (acc.2.2.2.2.2.2.2.2.2.2.2.2.2.2.2.1) (rowRead M f (k0_off308 k) (k0_off308_inb k)),
    addf (acc.2.2.2.2.2.2.2.2.2.2.2.2.2.2.2.2.1) (rowRead M f (k0_off309 k) (k0_off309_inb k)),
    addf (acc.2.2.2.2.2.2.2.2.2.2.2.2.2.2.2.2.2.1) (rowRead M f (k0_off310 k) (k0_off310_inb k)),
    addf (acc.2.2.2.2.2.2.2.2.2.2.2.2.2.2.2.2.2.2.1) (rowRead M f (k0_off311 k) (k0_off311_inb k)),
    addf (acc.2.2.2.2.2.2.2.2.2.2.2.2.2.2.2.2.2.2.2.1) (rowRead M f (k0_off312 k) (k0_off312_inb k)),
    addf (acc.2.2.2.2.2.2.2.2.2.2.2.2.2.2.2.2.2.2.2.2.1) (rowRead M f (k0_off313 k) (k0_off313_inb k)),
    addf (acc.2.2.2.2.2.2.2.2.2.2.2.2.2.2.2.2.2.2.2.2.2.1) (rowRead M f (k0_off314 k) (k0_off314_inb k)),
    addf (acc.2.2.2.2.2.2.2.2.2.2.2.2.2.2.2.2.2.2.2.2.2.2.1) (rowRead M f (k0_off315 k) (k0_off315_inb k)),
    addf (acc.2.2.2.2.2.2.2.2.2.2.2.2.2.2.2.2.2.2.2.2.2.2.2.1) (rowRead M f (k0_off316 k) (k0_off316_inb k)),
    addf (acc.2.2.2.2.2.2.2.2.2.2.2.2.2.2.2.2.2.2.2.2.2.2.2.2.1) (rowRead M f (k0_off317 k) (k0_off317_inb k)),
    addf (acc.2.2.2.2.2.2.2.2.2.2.2.2.2.2.2.2.2.2.2.2.2.2.2.2.2.1) (rowRead M f (k0_off318 k) (k0_off318_inb k)),
    addf (acc.2.2.2.2.2.2.2.2.2.2.2.2.2.2.2.2.2.2.2.2.2.2.2.2.2.2.1) (rowRead M f (k0_off319 k) (k0_off319_inb k)),
    addf (acc.2.2.2.2.2.2.2.2.2.2.2.2.2.2.2.2.2.2.2.2.2.2.2.2.2.2.2.1) (rowRead M f (k0_off320 k) (k0_off320_inb k)),
    addf (acc.2.2.2.2.2.2.2.2.2.2.2.2.2.2.2.2.2.2.2.2.2.2.2.2.2.2.2.2.1) (rowRead M f (k0_off321 k) (k0_off321_inb k)),
    addf (acc.2.2.2.2.2.2.2.2.2.2.2.2.2.2.2.2.2.2.2.2.2.2.2.2.2.2.2.2.2.1) (rowRead M f (k0_off322 k) (k0_off322_inb k)),
    addf (acc.2.2.2.2.2.2.2.2.2.2.2.2.2.2.2.2.2.2.2.2.2.2.2.2.2.2.2.2.2.2.1) (rowRead M f (k0_off323 k) (k0_off323_inb k)),
    addf (acc.2.2.2.2.2.2.2.2.2.2.2.2.2.2.2.2.2.2.2.2.2.2.2.2.2.2.2.2.2.2.2) (rowRead M f (k0_off324 k) (k0_off324_inb k)))

/-- The accumulators before trip k of loop 10, from those it starts with. -/
def rowsFold_t10 (M : Memref sig .scVector .vmem S64x512 .f32) (f : M.view.ty.Contents (Elt F)) : Nat → Acc F → Acc F
  | 0, init => init
  | k + 1, init => if h : k < k0_t10_loop.trips then addRow_t10 M f ⟨k, h⟩ (rowsFold_t10 M f k init) else rowsFold_t10 M f k init

set_option warn.classDefReducibility false in
/-- Loop 10 keeps the buffer it reads and carries the rows added so far. -/
@[sl_loop] def loopVal_t10 (d : Dev nD) (L : grid0.Coords) (v29 : BitVec 32) (v364_0 : FVec F S16 .f32) (v364_1 : FVec F S16 .f32) (v364_2 : FVec F S16 .f32) (v364_3 : FVec F S16 .f32) (v364_4 : FVec F S16 .f32) (v364_5 : FVec F S16 .f32) (v364_6 : FVec F S16 .f32) (v364_7 : FVec F S16 .f32) (v364_8 : FVec F S16 .f32) (v364_9 : FVec F S16 .f32) (v364_10 : FVec F S16 .f32) (v364_11 : FVec F S16 .f32) (v364_12 : FVec F S16 .f32) (v364_13 : FVec F S16 .f32) (v364_14 : FVec F S16 .f32) (v364_15 : FVec F S16 .f32) (v364_16 : FVec F S16 .f32) (v364_17 : FVec F S16 .f32) (v364_18 : FVec F S16 .f32) (v364_19 : FVec F S16 .f32) (v364_20 : FVec F S16 .f32) (v364_21 : FVec F S16 .f32) (v364_22 : FVec F S16 .f32) (v364_23 : FVec F S16 .f32) (v364_24 : FVec F S16 .f32) (v364_25 : FVec F S16 .f32) (v364_26 : FVec F S16 .f32) (v364_27 : FVec F S16 .f32) (v364_28 : FVec F S16 .f32) (v364_29 : FVec F S16 .f32) (v364_30 : FVec F S16 .f32) (v364_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t10_loop.lb k0_t10_loop.ub k0_t10_loop.st k0_t10_ok init
      (k0_t10_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v364_0 v364_1 v364_2 v364_3 v364_4 v364_5 v364_6 v364_7 v364_8 v364_9 v364_10 v364_11 v364_12 v364_13 v364_14 v364_15 v364_16 v364_17 v364_18 v364_19 v364_20 v364_21 v364_22 v364_23 v364_24 v364_25 v364_26 v364_27 v364_28 v364_29 v364_30 v364_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t10 (Memref.whole cc0_scratch1) w k init⌝)
  step k acc := by
    iintro ⟨H, %hacc⟩
    sl_exec
    sl_step
    isplitl [H]; · iexact H
    ipureintro
    show _ = rowsFold_t10 (Memref.whole cc0_scratch1) w (k.val + 1) init
    rw [rowsFold_t10, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t10 (Memref.whole cc0_scratch1) w ⟨k.val, k.isLt⟩ acc
        = addRow_t10 (Memref.whole cc0_scratch1) (View.write (Elt F) (Memref.whole cc0_scratch1 : Memref sig .scVector .vmem S64x512 .f32).view prev w Finset.univ) ⟨k.val, k.isLt⟩ acc from by rw [e]]
    rfl

/-- One trip of loop 11: row k of the buffer added to the 32 accumulators, 16 lanes each. -/
def addRow_t11 (M : Memref sig .scVector .vmem S64x512 .f32) (f : M.view.ty.Contents (Elt F)) (k : Fin k0_t11_loop.trips) (acc : Acc F) : Acc F :=
  (addf (acc.1) (rowRead M f (k0_off325 k) (k0_off325_inb k)),
    addf (acc.2.1) (rowRead M f (k0_off326 k) (k0_off326_inb k)),
    addf (acc.2.2.1) (rowRead M f (k0_off327 k) (k0_off327_inb k)),
    addf (acc.2.2.2.1) (rowRead M f (k0_off328 k) (k0_off328_inb k)),
    addf (acc.2.2.2.2.1) (rowRead M f (k0_off329 k) (k0_off329_inb k)),
    addf (acc.2.2.2.2.2.1) (rowRead M f (k0_off330 k) (k0_off330_inb k)),
    addf (acc.2.2.2.2.2.2.1) (rowRead M f (k0_off331 k) (k0_off331_inb k)),
    addf (acc.2.2.2.2.2.2.2.1) (rowRead M f (k0_off332 k) (k0_off332_inb k)),
    addf (acc.2.2.2.2.2.2.2.2.1) (rowRead M f (k0_off333 k) (k0_off333_inb k)),
    addf (acc.2.2.2.2.2.2.2.2.2.1) (rowRead M f (k0_off334 k) (k0_off334_inb k)),
    addf (acc.2.2.2.2.2.2.2.2.2.2.1) (rowRead M f (k0_off335 k) (k0_off335_inb k)),
    addf (acc.2.2.2.2.2.2.2.2.2.2.2.1) (rowRead M f (k0_off336 k) (k0_off336_inb k)),
    addf (acc.2.2.2.2.2.2.2.2.2.2.2.2.1) (rowRead M f (k0_off337 k) (k0_off337_inb k)),
    addf (acc.2.2.2.2.2.2.2.2.2.2.2.2.2.1) (rowRead M f (k0_off338 k) (k0_off338_inb k)),
    addf (acc.2.2.2.2.2.2.2.2.2.2.2.2.2.2.1) (rowRead M f (k0_off339 k) (k0_off339_inb k)),
    addf (acc.2.2.2.2.2.2.2.2.2.2.2.2.2.2.2.1) (rowRead M f (k0_off340 k) (k0_off340_inb k)),
    addf (acc.2.2.2.2.2.2.2.2.2.2.2.2.2.2.2.2.1) (rowRead M f (k0_off341 k) (k0_off341_inb k)),
    addf (acc.2.2.2.2.2.2.2.2.2.2.2.2.2.2.2.2.2.1) (rowRead M f (k0_off342 k) (k0_off342_inb k)),
    addf (acc.2.2.2.2.2.2.2.2.2.2.2.2.2.2.2.2.2.2.1) (rowRead M f (k0_off343 k) (k0_off343_inb k)),
    addf (acc.2.2.2.2.2.2.2.2.2.2.2.2.2.2.2.2.2.2.2.1) (rowRead M f (k0_off344 k) (k0_off344_inb k)),
    addf (acc.2.2.2.2.2.2.2.2.2.2.2.2.2.2.2.2.2.2.2.2.1) (rowRead M f (k0_off345 k) (k0_off345_inb k)),
    addf (acc.2.2.2.2.2.2.2.2.2.2.2.2.2.2.2.2.2.2.2.2.2.1) (rowRead M f (k0_off346 k) (k0_off346_inb k)),
    addf (acc.2.2.2.2.2.2.2.2.2.2.2.2.2.2.2.2.2.2.2.2.2.2.1) (rowRead M f (k0_off347 k) (k0_off347_inb k)),
    addf (acc.2.2.2.2.2.2.2.2.2.2.2.2.2.2.2.2.2.2.2.2.2.2.2.1) (rowRead M f (k0_off348 k) (k0_off348_inb k)),
    addf (acc.2.2.2.2.2.2.2.2.2.2.2.2.2.2.2.2.2.2.2.2.2.2.2.2.1) (rowRead M f (k0_off349 k) (k0_off349_inb k)),
    addf (acc.2.2.2.2.2.2.2.2.2.2.2.2.2.2.2.2.2.2.2.2.2.2.2.2.2.1) (rowRead M f (k0_off350 k) (k0_off350_inb k)),
    addf (acc.2.2.2.2.2.2.2.2.2.2.2.2.2.2.2.2.2.2.2.2.2.2.2.2.2.2.1) (rowRead M f (k0_off351 k) (k0_off351_inb k)),
    addf (acc.2.2.2.2.2.2.2.2.2.2.2.2.2.2.2.2.2.2.2.2.2.2.2.2.2.2.2.1) (rowRead M f (k0_off352 k) (k0_off352_inb k)),
    addf (acc.2.2.2.2.2.2.2.2.2.2.2.2.2.2.2.2.2.2.2.2.2.2.2.2.2.2.2.2.1) (rowRead M f (k0_off353 k) (k0_off353_inb k)),
    addf (acc.2.2.2.2.2.2.2.2.2.2.2.2.2.2.2.2.2.2.2.2.2.2.2.2.2.2.2.2.2.1) (rowRead M f (k0_off354 k) (k0_off354_inb k)),
    addf (acc.2.2.2.2.2.2.2.2.2.2.2.2.2.2.2.2.2.2.2.2.2.2.2.2.2.2.2.2.2.2.1) (rowRead M f (k0_off355 k) (k0_off355_inb k)),
    addf (acc.2.2.2.2.2.2.2.2.2.2.2.2.2.2.2.2.2.2.2.2.2.2.2.2.2.2.2.2.2.2.2) (rowRead M f (k0_off356 k) (k0_off356_inb k)))

/-- The accumulators before trip k of loop 11, from those it starts with. -/
def rowsFold_t11 (M : Memref sig .scVector .vmem S64x512 .f32) (f : M.view.ty.Contents (Elt F)) : Nat → Acc F → Acc F
  | 0, init => init
  | k + 1, init => if h : k < k0_t11_loop.trips then addRow_t11 M f ⟨k, h⟩ (rowsFold_t11 M f k init) else rowsFold_t11 M f k init

set_option warn.classDefReducibility false in
/-- Loop 11 keeps the buffer it reads and carries the rows added so far. -/
@[sl_loop] def loopVal_t11 (d : Dev nD) (L : grid0.Coords) (v29 : BitVec 32) (v364_0 : FVec F S16 .f32) (v364_1 : FVec F S16 .f32) (v364_2 : FVec F S16 .f32) (v364_3 : FVec F S16 .f32) (v364_4 : FVec F S16 .f32) (v364_5 : FVec F S16 .f32) (v364_6 : FVec F S16 .f32) (v364_7 : FVec F S16 .f32) (v364_8 : FVec F S16 .f32) (v364_9 : FVec F S16 .f32) (v364_10 : FVec F S16 .f32) (v364_11 : FVec F S16 .f32) (v364_12 : FVec F S16 .f32) (v364_13 : FVec F S16 .f32) (v364_14 : FVec F S16 .f32) (v364_15 : FVec F S16 .f32) (v364_16 : FVec F S16 .f32) (v364_17 : FVec F S16 .f32) (v364_18 : FVec F S16 .f32) (v364_19 : FVec F S16 .f32) (v364_20 : FVec F S16 .f32) (v364_21 : FVec F S16 .f32) (v364_22 : FVec F S16 .f32) (v364_23 : FVec F S16 .f32) (v364_24 : FVec F S16 .f32) (v364_25 : FVec F S16 .f32) (v364_26 : FVec F S16 .f32) (v364_27 : FVec F S16 .f32) (v364_28 : FVec F S16 .f32) (v364_29 : FVec F S16 .f32) (v364_30 : FVec F S16 .f32) (v364_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t11_loop.lb k0_t11_loop.ub k0_t11_loop.st k0_t11_ok init
      (k0_t11_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v364_0 v364_1 v364_2 v364_3 v364_4 v364_5 v364_6 v364_7 v364_8 v364_9 v364_10 v364_11 v364_12 v364_13 v364_14 v364_15 v364_16 v364_17 v364_18 v364_19 v364_20 v364_21 v364_22 v364_23 v364_24 v364_25 v364_26 v364_27 v364_28 v364_29 v364_30 v364_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t11 (Memref.whole cc0_scratch0) w k init⌝)
  step k acc := by
    iintro ⟨H, %hacc⟩
    sl_exec
    sl_step
    isplitl [H]; · iexact H
    ipureintro
    show _ = rowsFold_t11 (Memref.whole cc0_scratch0) w (k.val + 1) init
    rw [rowsFold_t11, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t11 (Memref.whole cc0_scratch0) w ⟨k.val, k.isLt⟩ acc
        = addRow_t11 (Memref.whole cc0_scratch0) (View.write (Elt F) (Memref.whole cc0_scratch0 : Memref sig .scVector .vmem S64x512 .f32).view prev w Finset.univ) ⟨k.val, k.isLt⟩ acc from by rw [e]]
    rfl

/-- One trip of loop 12: row k of the buffer added to the 32 accumulators, 16 lanes each. -/
def addRow_t12 (M : Memref sig .scVector .vmem S64x512 .f32) (f : M.view.ty.Contents (Elt F)) (k : Fin k0_t12_loop.trips) (acc : Acc F) : Acc F :=
  (addf (acc.1) (rowRead M f (k0_off358 k) (k0_off358_inb k)),
    addf (acc.2.1) (rowRead M f (k0_off359 k) (k0_off359_inb k)),
    addf (acc.2.2.1) (rowRead M f (k0_off360 k) (k0_off360_inb k)),
    addf (acc.2.2.2.1) (rowRead M f (k0_off361 k) (k0_off361_inb k)),
    addf (acc.2.2.2.2.1) (rowRead M f (k0_off362 k) (k0_off362_inb k)),
    addf (acc.2.2.2.2.2.1) (rowRead M f (k0_off363 k) (k0_off363_inb k)),
    addf (acc.2.2.2.2.2.2.1) (rowRead M f (k0_off364 k) (k0_off364_inb k)),
    addf (acc.2.2.2.2.2.2.2.1) (rowRead M f (k0_off365 k) (k0_off365_inb k)),
    addf (acc.2.2.2.2.2.2.2.2.1) (rowRead M f (k0_off366 k) (k0_off366_inb k)),
    addf (acc.2.2.2.2.2.2.2.2.2.1) (rowRead M f (k0_off367 k) (k0_off367_inb k)),
    addf (acc.2.2.2.2.2.2.2.2.2.2.1) (rowRead M f (k0_off368 k) (k0_off368_inb k)),
    addf (acc.2.2.2.2.2.2.2.2.2.2.2.1) (rowRead M f (k0_off369 k) (k0_off369_inb k)),
    addf (acc.2.2.2.2.2.2.2.2.2.2.2.2.1) (rowRead M f (k0_off370 k) (k0_off370_inb k)),
    addf (acc.2.2.2.2.2.2.2.2.2.2.2.2.2.1) (rowRead M f (k0_off371 k) (k0_off371_inb k)),
    addf (acc.2.2.2.2.2.2.2.2.2.2.2.2.2.2.1) (rowRead M f (k0_off372 k) (k0_off372_inb k)),
    addf (acc.2.2.2.2.2.2.2.2.2.2.2.2.2.2.2.1) (rowRead M f (k0_off373 k) (k0_off373_inb k)),
    addf (acc.2.2.2.2.2.2.2.2.2.2.2.2.2.2.2.2.1) (rowRead M f (k0_off374 k) (k0_off374_inb k)),
    addf (acc.2.2.2.2.2.2.2.2.2.2.2.2.2.2.2.2.2.1) (rowRead M f (k0_off375 k) (k0_off375_inb k)),
    addf (acc.2.2.2.2.2.2.2.2.2.2.2.2.2.2.2.2.2.2.1) (rowRead M f (k0_off376 k) (k0_off376_inb k)),
    addf (acc.2.2.2.2.2.2.2.2.2.2.2.2.2.2.2.2.2.2.2.1) (rowRead M f (k0_off377 k) (k0_off377_inb k)),
    addf (acc.2.2.2.2.2.2.2.2.2.2.2.2.2.2.2.2.2.2.2.2.1) (rowRead M f (k0_off378 k) (k0_off378_inb k)),
    addf (acc.2.2.2.2.2.2.2.2.2.2.2.2.2.2.2.2.2.2.2.2.2.1) (rowRead M f (k0_off379 k) (k0_off379_inb k)),
    addf (acc.2.2.2.2.2.2.2.2.2.2.2.2.2.2.2.2.2.2.2.2.2.2.1) (rowRead M f (k0_off380 k) (k0_off380_inb k)),
    addf (acc.2.2.2.2.2.2.2.2.2.2.2.2.2.2.2.2.2.2.2.2.2.2.2.1) (rowRead M f (k0_off381 k) (k0_off381_inb k)),
    addf (acc.2.2.2.2.2.2.2.2.2.2.2.2.2.2.2.2.2.2.2.2.2.2.2.2.1) (rowRead M f (k0_off382 k) (k0_off382_inb k)),
    addf (acc.2.2.2.2.2.2.2.2.2.2.2.2.2.2.2.2.2.2.2.2.2.2.2.2.2.1) (rowRead M f (k0_off383 k) (k0_off383_inb k)),
    addf (acc.2.2.2.2.2.2.2.2.2.2.2.2.2.2.2.2.2.2.2.2.2.2.2.2.2.2.1) (rowRead M f (k0_off384 k) (k0_off384_inb k)),
    addf (acc.2.2.2.2.2.2.2.2.2.2.2.2.2.2.2.2.2.2.2.2.2.2.2.2.2.2.2.1) (rowRead M f (k0_off385 k) (k0_off385_inb k)),
    addf (acc.2.2.2.2.2.2.2.2.2.2.2.2.2.2.2.2.2.2.2.2.2.2.2.2.2.2.2.2.1) (rowRead M f (k0_off386 k) (k0_off386_inb k)),
    addf (acc.2.2.2.2.2.2.2.2.2.2.2.2.2.2.2.2.2.2.2.2.2.2.2.2.2.2.2.2.2.1) (rowRead M f (k0_off387 k) (k0_off387_inb k)),
    addf (acc.2.2.2.2.2.2.2.2.2.2.2.2.2.2.2.2.2.2.2.2.2.2.2.2.2.2.2.2.2.2.1) (rowRead M f (k0_off388 k) (k0_off388_inb k)),
    addf (acc.2.2.2.2.2.2.2.2.2.2.2.2.2.2.2.2.2.2.2.2.2.2.2.2.2.2.2.2.2.2.2) (rowRead M f (k0_off389 k) (k0_off389_inb k)))

/-- The accumulators before trip k of loop 12, from those it starts with. -/
def rowsFold_t12 (M : Memref sig .scVector .vmem S64x512 .f32) (f : M.view.ty.Contents (Elt F)) : Nat → Acc F → Acc F
  | 0, init => init
  | k + 1, init => if h : k < k0_t12_loop.trips then addRow_t12 M f ⟨k, h⟩ (rowsFold_t12 M f k init) else rowsFold_t12 M f k init

set_option warn.classDefReducibility false in
/-- Loop 12 keeps the buffer it reads and carries the rows added so far. -/
@[sl_loop] def loopVal_t12 (d : Dev nD) (L : grid0.Coords) (v29 : BitVec 32) (v364_0 : FVec F S16 .f32) (v364_1 : FVec F S16 .f32) (v364_2 : FVec F S16 .f32) (v364_3 : FVec F S16 .f32) (v364_4 : FVec F S16 .f32) (v364_5 : FVec F S16 .f32) (v364_6 : FVec F S16 .f32) (v364_7 : FVec F S16 .f32) (v364_8 : FVec F S16 .f32) (v364_9 : FVec F S16 .f32) (v364_10 : FVec F S16 .f32) (v364_11 : FVec F S16 .f32) (v364_12 : FVec F S16 .f32) (v364_13 : FVec F S16 .f32) (v364_14 : FVec F S16 .f32) (v364_15 : FVec F S16 .f32) (v364_16 : FVec F S16 .f32) (v364_17 : FVec F S16 .f32) (v364_18 : FVec F S16 .f32) (v364_19 : FVec F S16 .f32) (v364_20 : FVec F S16 .f32) (v364_21 : FVec F S16 .f32) (v364_22 : FVec F S16 .f32) (v364_23 : FVec F S16 .f32) (v364_24 : FVec F S16 .f32) (v364_25 : FVec F S16 .f32) (v364_26 : FVec F S16 .f32) (v364_27 : FVec F S16 .f32) (v364_28 : FVec F S16 .f32) (v364_29 : FVec F S16 .f32) (v364_30 : FVec F S16 .f32) (v364_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t12_loop.lb k0_t12_loop.ub k0_t12_loop.st k0_t12_ok init
      (k0_t12_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v364_0 v364_1 v364_2 v364_3 v364_4 v364_5 v364_6 v364_7 v364_8 v364_9 v364_10 v364_11 v364_12 v364_13 v364_14 v364_15 v364_16 v364_17 v364_18 v364_19 v364_20 v364_21 v364_22 v364_23 v364_24 v364_25 v364_26 v364_27 v364_28 v364_29 v364_30 v364_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t12 (Memref.whole cc0_scratch1) w k init⌝)
  step k acc := by
    iintro ⟨H, %hacc⟩
    sl_exec
    sl_step
    isplitl [H]; · iexact H
    ipureintro
    show _ = rowsFold_t12 (Memref.whole cc0_scratch1) w (k.val + 1) init
    rw [rowsFold_t12, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t12 (Memref.whole cc0_scratch1) w ⟨k.val, k.isLt⟩ acc
        = addRow_t12 (Memref.whole cc0_scratch1) (View.write (Elt F) (Memref.whole cc0_scratch1 : Memref sig .scVector .vmem S64x512 .f32).view prev w Finset.univ) ⟨k.val, k.isLt⟩ acc from by rw [e]]
    rfl

/-- One trip of loop 13: row k of the buffer added to the 32 accumulators, 16 lanes each. -/
def addRow_t13 (M : Memref sig .scVector .vmem S64x512 .f32) (f : M.view.ty.Contents (Elt F)) (k : Fin k0_t13_loop.trips) (acc : Acc F) : Acc F :=
  (addf (acc.1) (rowRead M f (k0_off390 k) (k0_off390_inb k)),
    addf (acc.2.1) (rowRead M f (k0_off391 k) (k0_off391_inb k)),
    addf (acc.2.2.1) (rowRead M f (k0_off392 k) (k0_off392_inb k)),
    addf (acc.2.2.2.1) (rowRead M f (k0_off393 k) (k0_off393_inb k)),
    addf (acc.2.2.2.2.1) (rowRead M f (k0_off394 k) (k0_off394_inb k)),
    addf (acc.2.2.2.2.2.1) (rowRead M f (k0_off395 k) (k0_off395_inb k)),
    addf (acc.2.2.2.2.2.2.1) (rowRead M f (k0_off396 k) (k0_off396_inb k)),
    addf (acc.2.2.2.2.2.2.2.1) (rowRead M f (k0_off397 k) (k0_off397_inb k)),
    addf (acc.2.2.2.2.2.2.2.2.1) (rowRead M f (k0_off398 k) (k0_off398_inb k)),
    addf (acc.2.2.2.2.2.2.2.2.2.1) (rowRead M f (k0_off399 k) (k0_off399_inb k)),
    addf (acc.2.2.2.2.2.2.2.2.2.2.1) (rowRead M f (k0_off400 k) (k0_off400_inb k)),
    addf (acc.2.2.2.2.2.2.2.2.2.2.2.1) (rowRead M f (k0_off401 k) (k0_off401_inb k)),
    addf (acc.2.2.2.2.2.2.2.2.2.2.2.2.1) (rowRead M f (k0_off402 k) (k0_off402_inb k)),
    addf (acc.2.2.2.2.2.2.2.2.2.2.2.2.2.1) (rowRead M f (k0_off403 k) (k0_off403_inb k)),
    addf (acc.2.2.2.2.2.2.2.2.2.2.2.2.2.2.1) (rowRead M f (k0_off404 k) (k0_off404_inb k)),
    addf (acc.2.2.2.2.2.2.2.2.2.2.2.2.2.2.2.1) (rowRead M f (k0_off405 k) (k0_off405_inb k)),
    addf (acc.2.2.2.2.2.2.2.2.2.2.2.2.2.2.2.2.1) (rowRead M f (k0_off406 k) (k0_off406_inb k)),
    addf (acc.2.2.2.2.2.2.2.2.2.2.2.2.2.2.2.2.2.1) (rowRead M f (k0_off407 k) (k0_off407_inb k)),
    addf (acc.2.2.2.2.2.2.2.2.2.2.2.2.2.2.2.2.2.2.1) (rowRead M f (k0_off408 k) (k0_off408_inb k)),
    addf (acc.2.2.2.2.2.2.2.2.2.2.2.2.2.2.2.2.2.2.2.1) (rowRead M f (k0_off409 k) (k0_off409_inb k)),
    addf (acc.2.2.2.2.2.2.2.2.2.2.2.2.2.2.2.2.2.2.2.2.1) (rowRead M f (k0_off410 k) (k0_off410_inb k)),
    addf (acc.2.2.2.2.2.2.2.2.2.2.2.2.2.2.2.2.2.2.2.2.2.1) (rowRead M f (k0_off411 k) (k0_off411_inb k)),
    addf (acc.2.2.2.2.2.2.2.2.2.2.2.2.2.2.2.2.2.2.2.2.2.2.1) (rowRead M f (k0_off412 k) (k0_off412_inb k)),
    addf (acc.2.2.2.2.2.2.2.2.2.2.2.2.2.2.2.2.2.2.2.2.2.2.2.1) (rowRead M f (k0_off413 k) (k0_off413_inb k)),
    addf (acc.2.2.2.2.2.2.2.2.2.2.2.2.2.2.2.2.2.2.2.2.2.2.2.2.1) (rowRead M f (k0_off414 k) (k0_off414_inb k)),
    addf (acc.2.2.2.2.2.2.2.2.2.2.2.2.2.2.2.2.2.2.2.2.2.2.2.2.2.1) (rowRead M f (k0_off415 k) (k0_off415_inb k)),
    addf (acc.2.2.2.2.2.2.2.2.2.2.2.2.2.2.2.2.2.2.2.2.2.2.2.2.2.2.1) (rowRead M f (k0_off416 k) (k0_off416_inb k)),
    addf (acc.2.2.2.2.2.2.2.2.2.2.2.2.2.2.2.2.2.2.2.2.2.2.2.2.2.2.2.1) (rowRead M f (k0_off417 k) (k0_off417_inb k)),
    addf (acc.2.2.2.2.2.2.2.2.2.2.2.2.2.2.2.2.2.2.2.2.2.2.2.2.2.2.2.2.1) (rowRead M f (k0_off418 k) (k0_off418_inb k)),
    addf (acc.2.2.2.2.2.2.2.2.2.2.2.2.2.2.2.2.2.2.2.2.2.2.2.2.2.2.2.2.2.1) (rowRead M f (k0_off419 k) (k0_off419_inb k)),
    addf (acc.2.2.2.2.2.2.2.2.2.2.2.2.2.2.2.2.2.2.2.2.2.2.2.2.2.2.2.2.2.2.1) (rowRead M f (k0_off420 k) (k0_off420_inb k)),
    addf (acc.2.2.2.2.2.2.2.2.2.2.2.2.2.2.2.2.2.2.2.2.2.2.2.2.2.2.2.2.2.2.2) (rowRead M f (k0_off421 k) (k0_off421_inb k)))

/-- The accumulators before trip k of loop 13, from those it starts with. -/
def rowsFold_t13 (M : Memref sig .scVector .vmem S64x512 .f32) (f : M.view.ty.Contents (Elt F)) : Nat → Acc F → Acc F
  | 0, init => init
  | k + 1, init => if h : k < k0_t13_loop.trips then addRow_t13 M f ⟨k, h⟩ (rowsFold_t13 M f k init) else rowsFold_t13 M f k init

set_option warn.classDefReducibility false in
/-- Loop 13 keeps the buffer it reads and carries the rows added so far. -/
@[sl_loop] def loopVal_t13 (d : Dev nD) (L : grid0.Coords) (v29 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t13_loop.lb k0_t13_loop.ub k0_t13_loop.st k0_t13_ok init
      (k0_t13_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t13 (Memref.whole cc0_scratch0) w k init⌝)
  step k acc := by
    iintro ⟨H, %hacc⟩
    sl_exec
    sl_step
    isplitl [H]; · iexact H
    ipureintro
    show _ = rowsFold_t13 (Memref.whole cc0_scratch0) w (k.val + 1) init
    rw [rowsFold_t13, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t13 (Memref.whole cc0_scratch0) w ⟨k.val, k.isLt⟩ acc
        = addRow_t13 (Memref.whole cc0_scratch0) (View.write (Elt F) (Memref.whole cc0_scratch0 : Memref sig .scVector .vmem S64x512 .f32).view prev w Finset.univ) ⟨k.val, k.isLt⟩ acc from by rw [e]]
    rfl

/-- One trip of loop 14: row k of the buffer added to the 32 accumulators, 16 lanes each. -/
def addRow_t14 (M : Memref sig .scVector .vmem S64x512 .f32) (f : M.view.ty.Contents (Elt F)) (k : Fin k0_t14_loop.trips) (acc : Acc F) : Acc F :=
  (addf (acc.1) (rowRead M f (k0_off422 k) (k0_off422_inb k)),
    addf (acc.2.1) (rowRead M f (k0_off423 k) (k0_off423_inb k)),
    addf (acc.2.2.1) (rowRead M f (k0_off424 k) (k0_off424_inb k)),
    addf (acc.2.2.2.1) (rowRead M f (k0_off425 k) (k0_off425_inb k)),
    addf (acc.2.2.2.2.1) (rowRead M f (k0_off426 k) (k0_off426_inb k)),
    addf (acc.2.2.2.2.2.1) (rowRead M f (k0_off427 k) (k0_off427_inb k)),
    addf (acc.2.2.2.2.2.2.1) (rowRead M f (k0_off428 k) (k0_off428_inb k)),
    addf (acc.2.2.2.2.2.2.2.1) (rowRead M f (k0_off429 k) (k0_off429_inb k)),
    addf (acc.2.2.2.2.2.2.2.2.1) (rowRead M f (k0_off430 k) (k0_off430_inb k)),
    addf (acc.2.2.2.2.2.2.2.2.2.1) (rowRead M f (k0_off431 k) (k0_off431_inb k)),
    addf (acc.2.2.2.2.2.2.2.2.2.2.1) (rowRead M f (k0_off432 k) (k0_off432_inb k)),
    addf (acc.2.2.2.2.2.2.2.2.2.2.2.1) (rowRead M f (k0_off433 k) (k0_off433_inb k)),
    addf (acc.2.2.2.2.2.2.2.2.2.2.2.2.1) (rowRead M f (k0_off434 k) (k0_off434_inb k)),
    addf (acc.2.2.2.2.2.2.2.2.2.2.2.2.2.1) (rowRead M f (k0_off435 k) (k0_off435_inb k)),
    addf (acc.2.2.2.2.2.2.2.2.2.2.2.2.2.2.1) (rowRead M f (k0_off436 k) (k0_off436_inb k)),
    addf (acc.2.2.2.2.2.2.2.2.2.2.2.2.2.2.2.1) (rowRead M f (k0_off437 k) (k0_off437_inb k)),
    addf (acc.2.2.2.2.2.2.2.2.2.2.2.2.2.2.2.2.1) (rowRead M f (k0_off438 k) (k0_off438_inb k)),
    addf (acc.2.2.2.2.2.2.2.2.2.2.2.2.2.2.2.2.2.1) (rowRead M f (k0_off439 k) (k0_off439_inb k)),
    addf (acc.2.2.2.2.2.2.2.2.2.2.2.2.2.2.2.2.2.2.1) (rowRead M f (k0_off440 k) (k0_off440_inb k)),
    addf (acc.2.2.2.2.2.2.2.2.2.2.2.2.2.2.2.2.2.2.2.1) (rowRead M f (k0_off441 k) (k0_off441_inb k)),
    addf (acc.2.2.2.2.2.2.2.2.2.2.2.2.2.2.2.2.2.2.2.2.1) (rowRead M f (k0_off442 k) (k0_off442_inb k)),
    addf (acc.2.2.2.2.2.2.2.2.2.2.2.2.2.2.2.2.2.2.2.2.2.1) (rowRead M f (k0_off443 k) (k0_off443_inb k)),
    addf (acc.2.2.2.2.2.2.2.2.2.2.2.2.2.2.2.2.2.2.2.2.2.2.1) (rowRead M f (k0_off444 k) (k0_off444_inb k)),
    addf (acc.2.2.2.2.2.2.2.2.2.2.2.2.2.2.2.2.2.2.2.2.2.2.2.1) (rowRead M f (k0_off445 k) (k0_off445_inb k)),
    addf (acc.2.2.2.2.2.2.2.2.2.2.2.2.2.2.2.2.2.2.2.2.2.2.2.2.1) (rowRead M f (k0_off446 k) (k0_off446_inb k)),
    addf (acc.2.2.2.2.2.2.2.2.2.2.2.2.2.2.2.2.2.2.2.2.2.2.2.2.2.1) (rowRead M f (k0_off447 k) (k0_off447_inb k)),
    addf (acc.2.2.2.2.2.2.2.2.2.2.2.2.2.2.2.2.2.2.2.2.2.2.2.2.2.2.1) (rowRead M f (k0_off448 k) (k0_off448_inb k)),
    addf (acc.2.2.2.2.2.2.2.2.2.2.2.2.2.2.2.2.2.2.2.2.2.2.2.2.2.2.2.1) (rowRead M f (k0_off449 k) (k0_off449_inb k)),
    addf (acc.2.2.2.2.2.2.2.2.2.2.2.2.2.2.2.2.2.2.2.2.2.2.2.2.2.2.2.2.1) (rowRead M f (k0_off450 k) (k0_off450_inb k)),
    addf (acc.2.2.2.2.2.2.2.2.2.2.2.2.2.2.2.2.2.2.2.2.2.2.2.2.2.2.2.2.2.1) (rowRead M f (k0_off451 k) (k0_off451_inb k)),
    addf (acc.2.2.2.2.2.2.2.2.2.2.2.2.2.2.2.2.2.2.2.2.2.2.2.2.2.2.2.2.2.2.1) (rowRead M f (k0_off452 k) (k0_off452_inb k)),
    addf (acc.2.2.2.2.2.2.2.2.2.2.2.2.2.2.2.2.2.2.2.2.2.2.2.2.2.2.2.2.2.2.2) (rowRead M f (k0_off453 k) (k0_off453_inb k)))

/-- The accumulators before trip k of loop 14, from those it starts with. -/
def rowsFold_t14 (M : Memref sig .scVector .vmem S64x512 .f32) (f : M.view.ty.Contents (Elt F)) : Nat → Acc F → Acc F
  | 0, init => init
  | k + 1, init => if h : k < k0_t14_loop.trips then addRow_t14 M f ⟨k, h⟩ (rowsFold_t14 M f k init) else rowsFold_t14 M f k init

set_option warn.classDefReducibility false in
/-- Loop 14 keeps the buffer it reads and carries the rows added so far. -/
@[sl_loop] def loopVal_t14 (d : Dev nD) (L : grid0.Coords) (v29 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t14_loop.lb k0_t14_loop.ub k0_t14_loop.st k0_t14_ok init
      (k0_t14_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t14 (Memref.whole cc0_scratch1) w k init⌝)
  step k acc := by
    iintro ⟨H, %hacc⟩
    sl_exec
    sl_step
    isplitl [H]; · iexact H
    ipureintro
    show _ = rowsFold_t14 (Memref.whole cc0_scratch1) w (k.val + 1) init
    rw [rowsFold_t14, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t14 (Memref.whole cc0_scratch1) w ⟨k.val, k.isLt⟩ acc
        = addRow_t14 (Memref.whole cc0_scratch1) (View.write (Elt F) (Memref.whole cc0_scratch1 : Memref sig .scVector .vmem S64x512 .f32).view prev w Finset.univ) ⟨k.val, k.isLt⟩ acc from by rw [e]]
    rfl

/-- One trip of loop 15: row k of the buffer added to the 32 accumulators, 16 lanes each. -/
def addRow_t15 (M : Memref sig .scVector .vmem S64x512 .f32) (f : M.view.ty.Contents (Elt F)) (k : Fin k0_t15_loop.trips) (acc : Acc F) : Acc F :=
  (addf (acc.1) (rowRead M f (k0_off454 k) (k0_off454_inb k)),
    addf (acc.2.1) (rowRead M f (k0_off455 k) (k0_off455_inb k)),
    addf (acc.2.2.1) (rowRead M f (k0_off456 k) (k0_off456_inb k)),
    addf (acc.2.2.2.1) (rowRead M f (k0_off457 k) (k0_off457_inb k)),
    addf (acc.2.2.2.2.1) (rowRead M f (k0_off458 k) (k0_off458_inb k)),
    addf (acc.2.2.2.2.2.1) (rowRead M f (k0_off459 k) (k0_off459_inb k)),
    addf (acc.2.2.2.2.2.2.1) (rowRead M f (k0_off460 k) (k0_off460_inb k)),
    addf (acc.2.2.2.2.2.2.2.1) (rowRead M f (k0_off461 k) (k0_off461_inb k)),
    addf (acc.2.2.2.2.2.2.2.2.1) (rowRead M f (k0_off462 k) (k0_off462_inb k)),
    addf (acc.2.2.2.2.2.2.2.2.2.1) (rowRead M f (k0_off463 k) (k0_off463_inb k)),
    addf (acc.2.2.2.2.2.2.2.2.2.2.1) (rowRead M f (k0_off464 k) (k0_off464_inb k)),
    addf (acc.2.2.2.2.2.2.2.2.2.2.2.1) (rowRead M f (k0_off465 k) (k0_off465_inb k)),
    addf (acc.2.2.2.2.2.2.2.2.2.2.2.2.1) (rowRead M f (k0_off466 k) (k0_off466_inb k)),
    addf (acc.2.2.2.2.2.2.2.2.2.2.2.2.2.1) (rowRead M f (k0_off467 k) (k0_off467_inb k)),
    addf (acc.2.2.2.2.2.2.2.2.2.2.2.2.2.2.1) (rowRead M f (k0_off468 k) (k0_off468_inb k)),
    addf (acc.2.2.2.2.2.2.2.2.2.2.2.2.2.2.2.1) (rowRead M f (k0_off469 k) (k0_off469_inb k)),
    addf (acc.2.2.2.2.2.2.2.2.2.2.2.2.2.2.2.2.1) (rowRead M f (k0_off470 k) (k0_off470_inb k)),
    addf (acc.2.2.2.2.2.2.2.2.2.2.2.2.2.2.2.2.2.1) (rowRead M f (k0_off471 k) (k0_off471_inb k)),
    addf (acc.2.2.2.2.2.2.2.2.2.2.2.2.2.2.2.2.2.2.1) (rowRead M f (k0_off472 k) (k0_off472_inb k)),
    addf (acc.2.2.2.2.2.2.2.2.2.2.2.2.2.2.2.2.2.2.2.1) (rowRead M f (k0_off473 k) (k0_off473_inb k)),
    addf (acc.2.2.2.2.2.2.2.2.2.2.2.2.2.2.2.2.2.2.2.2.1) (rowRead M f (k0_off474 k) (k0_off474_inb k)),
    addf (acc.2.2.2.2.2.2.2.2.2.2.2.2.2.2.2.2.2.2.2.2.2.1) (rowRead M f (k0_off475 k) (k0_off475_inb k)),
    addf (acc.2.2.2.2.2.2.2.2.2.2.2.2.2.2.2.2.2.2.2.2.2.2.1) (rowRead M f (k0_off476 k) (k0_off476_inb k)),
    addf (acc.2.2.2.2.2.2.2.2.2.2.2.2.2.2.2.2.2.2.2.2.2.2.2.1) (rowRead M f (k0_off477 k) (k0_off477_inb k)),
    addf (acc.2.2.2.2.2.2.2.2.2.2.2.2.2.2.2.2.2.2.2.2.2.2.2.2.1) (rowRead M f (k0_off478 k) (k0_off478_inb k)),
    addf (acc.2.2.2.2.2.2.2.2.2.2.2.2.2.2.2.2.2.2.2.2.2.2.2.2.2.1) (rowRead M f (k0_off479 k) (k0_off479_inb k)),
    addf (acc.2.2.2.2.2.2.2.2.2.2.2.2.2.2.2.2.2.2.2.2.2.2.2.2.2.2.1) (rowRead M f (k0_off480 k) (k0_off480_inb k)),
    addf (acc.2.2.2.2.2.2.2.2.2.2.2.2.2.2.2.2.2.2.2.2.2.2.2.2.2.2.2.1) (rowRead M f (k0_off481 k) (k0_off481_inb k)),
    addf (acc.2.2.2.2.2.2.2.2.2.2.2.2.2.2.2.2.2.2.2.2.2.2.2.2.2.2.2.2.1) (rowRead M f (k0_off482 k) (k0_off482_inb k)),
    addf (acc.2.2.2.2.2.2.2.2.2.2.2.2.2.2.2.2.2.2.2.2.2.2.2.2.2.2.2.2.2.1) (rowRead M f (k0_off483 k) (k0_off483_inb k)),
    addf (acc.2.2.2.2.2.2.2.2.2.2.2.2.2.2.2.2.2.2.2.2.2.2.2.2.2.2.2.2.2.2.1) (rowRead M f (k0_off484 k) (k0_off484_inb k)),
    addf (acc.2.2.2.2.2.2.2.2.2.2.2.2.2.2.2.2.2.2.2.2.2.2.2.2.2.2.2.2.2.2.2) (rowRead M f (k0_off485 k) (k0_off485_inb k)))

/-- The accumulators before trip k of loop 15, from those it starts with. -/
def rowsFold_t15 (M : Memref sig .scVector .vmem S64x512 .f32) (f : M.view.ty.Contents (Elt F)) : Nat → Acc F → Acc F
  | 0, init => init
  | k + 1, init => if h : k < k0_t15_loop.trips then addRow_t15 M f ⟨k, h⟩ (rowsFold_t15 M f k init) else rowsFold_t15 M f k init

set_option warn.classDefReducibility false in
/-- Loop 15 keeps the buffer it reads and carries the rows added so far. -/
@[sl_loop] def loopVal_t15 (d : Dev nD) (L : grid0.Coords) (v29 : BitVec 32) (v535_0 : FVec F S16 .f32) (v535_1 : FVec F S16 .f32) (v535_2 : FVec F S16 .f32) (v535_3 : FVec F S16 .f32) (v535_4 : FVec F S16 .f32) (v535_5 : FVec F S16 .f32) (v535_6 : FVec F S16 .f32) (v535_7 : FVec F S16 .f32) (v535_8 : FVec F S16 .f32) (v535_9 : FVec F S16 .f32) (v535_10 : FVec F S16 .f32) (v535_11 : FVec F S16 .f32) (v535_12 : FVec F S16 .f32) (v535_13 : FVec F S16 .f32) (v535_14 : FVec F S16 .f32) (v535_15 : FVec F S16 .f32) (v535_16 : FVec F S16 .f32) (v535_17 : FVec F S16 .f32) (v535_18 : FVec F S16 .f32) (v535_19 : FVec F S16 .f32) (v535_20 : FVec F S16 .f32) (v535_21 : FVec F S16 .f32) (v535_22 : FVec F S16 .f32) (v535_23 : FVec F S16 .f32) (v535_24 : FVec F S16 .f32) (v535_25 : FVec F S16 .f32) (v535_26 : FVec F S16 .f32) (v535_27 : FVec F S16 .f32) (v535_28 : FVec F S16 .f32) (v535_29 : FVec F S16 .f32) (v535_30 : FVec F S16 .f32) (v535_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t15_loop.lb k0_t15_loop.ub k0_t15_loop.st k0_t15_ok init
      (k0_t15_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v535_0 v535_1 v535_2 v535_3 v535_4 v535_5 v535_6 v535_7 v535_8 v535_9 v535_10 v535_11 v535_12 v535_13 v535_14 v535_15 v535_16 v535_17 v535_18 v535_19 v535_20 v535_21 v535_22 v535_23 v535_24 v535_25 v535_26 v535_27 v535_28 v535_29 v535_30 v535_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t15 (Memref.whole cc0_scratch0) w k init⌝)
  step k acc := by
    iintro ⟨H, %hacc⟩
    sl_exec
    sl_step
    isplitl [H]; · iexact H
    ipureintro
    show _ = rowsFold_t15 (Memref.whole cc0_scratch0) w (k.val + 1) init
    rw [rowsFold_t15, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t15 (Memref.whole cc0_scratch0) w ⟨k.val, k.isLt⟩ acc
        = addRow_t15 (Memref.whole cc0_scratch0) (View.write (Elt F) (Memref.whole cc0_scratch0 : Memref sig .scVector .vmem S64x512 .f32).view prev w Finset.univ) ⟨k.val, k.isLt⟩ acc from by rw [e]]
    rfl

/-- One trip of loop 16: row k of the buffer added to the 32 accumulators, 16 lanes each. -/
def addRow_t16 (M : Memref sig .scVector .vmem S64x512 .f32) (f : M.view.ty.Contents (Elt F)) (k : Fin k0_t16_loop.trips) (acc : Acc F) : Acc F :=
  (addf (acc.1) (rowRead M f (k0_off487 k) (k0_off487_inb k)),
    addf (acc.2.1) (rowRead M f (k0_off488 k) (k0_off488_inb k)),
    addf (acc.2.2.1) (rowRead M f (k0_off489 k) (k0_off489_inb k)),
    addf (acc.2.2.2.1) (rowRead M f (k0_off490 k) (k0_off490_inb k)),
    addf (acc.2.2.2.2.1) (rowRead M f (k0_off491 k) (k0_off491_inb k)),
    addf (acc.2.2.2.2.2.1) (rowRead M f (k0_off492 k) (k0_off492_inb k)),
    addf (acc.2.2.2.2.2.2.1) (rowRead M f (k0_off493 k) (k0_off493_inb k)),
    addf (acc.2.2.2.2.2.2.2.1) (rowRead M f (k0_off494 k) (k0_off494_inb k)),
    addf (acc.2.2.2.2.2.2.2.2.1) (rowRead M f (k0_off495 k) (k0_off495_inb k)),
    addf (acc.2.2.2.2.2.2.2.2.2.1) (rowRead M f (k0_off496 k) (k0_off496_inb k)),
    addf (acc.2.2.2.2.2.2.2.2.2.2.1) (rowRead M f (k0_off497 k) (k0_off497_inb k)),
    addf (acc.2.2.2.2.2.2.2.2.2.2.2.1) (rowRead M f (k0_off498 k) (k0_off498_inb k)),
    addf (acc.2.2.2.2.2.2.2.2.2.2.2.2.1) (rowRead M f (k0_off499 k) (k0_off499_inb k)),
    addf (acc.2.2.2.2.2.2.2.2.2.2.2.2.2.1) (rowRead M f (k0_off500 k) (k0_off500_inb k)),
    addf (acc.2.2.2.2.2.2.2.2.2.2.2.2.2.2.1) (rowRead M f (k0_off501 k) (k0_off501_inb k)),
    addf (acc.2.2.2.2.2.2.2.2.2.2.2.2.2.2.2.1) (rowRead M f (k0_off502 k) (k0_off502_inb k)),
    addf (acc.2.2.2.2.2.2.2.2.2.2.2.2.2.2.2.2.1) (rowRead M f (k0_off503 k) (k0_off503_inb k)),
    addf (acc.2.2.2.2.2.2.2.2.2.2.2.2.2.2.2.2.2.1) (rowRead M f (k0_off504 k) (k0_off504_inb k)),
    addf (acc.2.2.2.2.2.2.2.2.2.2.2.2.2.2.2.2.2.2.1) (rowRead M f (k0_off505 k) (k0_off505_inb k)),
    addf (acc.2.2.2.2.2.2.2.2.2.2.2.2.2.2.2.2.2.2.2.1) (rowRead M f (k0_off506 k) (k0_off506_inb k)),
    addf (acc.2.2.2.2.2.2.2.2.2.2.2.2.2.2.2.2.2.2.2.2.1) (rowRead M f (k0_off507 k) (k0_off507_inb k)),
    addf (acc.2.2.2.2.2.2.2.2.2.2.2.2.2.2.2.2.2.2.2.2.2.1) (rowRead M f (k0_off508 k) (k0_off508_inb k)),
    addf (acc.2.2.2.2.2.2.2.2.2.2.2.2.2.2.2.2.2.2.2.2.2.2.1) (rowRead M f (k0_off509 k) (k0_off509_inb k)),
    addf (acc.2.2.2.2.2.2.2.2.2.2.2.2.2.2.2.2.2.2.2.2.2.2.2.1) (rowRead M f (k0_off510 k) (k0_off510_inb k)),
    addf (acc.2.2.2.2.2.2.2.2.2.2.2.2.2.2.2.2.2.2.2.2.2.2.2.2.1) (rowRead M f (k0_off511 k) (k0_off511_inb k)),
    addf (acc.2.2.2.2.2.2.2.2.2.2.2.2.2.2.2.2.2.2.2.2.2.2.2.2.2.1) (rowRead M f (k0_off512 k) (k0_off512_inb k)),
    addf (acc.2.2.2.2.2.2.2.2.2.2.2.2.2.2.2.2.2.2.2.2.2.2.2.2.2.2.1) (rowRead M f (k0_off513 k) (k0_off513_inb k)),
    addf (acc.2.2.2.2.2.2.2.2.2.2.2.2.2.2.2.2.2.2.2.2.2.2.2.2.2.2.2.1) (rowRead M f (k0_off514 k) (k0_off514_inb k)),
    addf (acc.2.2.2.2.2.2.2.2.2.2.2.2.2.2.2.2.2.2.2.2.2.2.2.2.2.2.2.2.1) (rowRead M f (k0_off515 k) (k0_off515_inb k)),
    addf (acc.2.2.2.2.2.2.2.2.2.2.2.2.2.2.2.2.2.2.2.2.2.2.2.2.2.2.2.2.2.1) (rowRead M f (k0_off516 k) (k0_off516_inb k)),
    addf (acc.2.2.2.2.2.2.2.2.2.2.2.2.2.2.2.2.2.2.2.2.2.2.2.2.2.2.2.2.2.2.1) (rowRead M f (k0_off517 k) (k0_off517_inb k)),
    addf (acc.2.2.2.2.2.2.2.2.2.2.2.2.2.2.2.2.2.2.2.2.2.2.2.2.2.2.2.2.2.2.2) (rowRead M f (k0_off518 k) (k0_off518_inb k)))

/-- The accumulators before trip k of loop 16, from those it starts with. -/
def rowsFold_t16 (M : Memref sig .scVector .vmem S64x512 .f32) (f : M.view.ty.Contents (Elt F)) : Nat → Acc F → Acc F
  | 0, init => init
  | k + 1, init => if h : k < k0_t16_loop.trips then addRow_t16 M f ⟨k, h⟩ (rowsFold_t16 M f k init) else rowsFold_t16 M f k init

set_option warn.classDefReducibility false in
/-- Loop 16 keeps the buffer it reads and carries the rows added so far. -/
@[sl_loop] def loopVal_t16 (d : Dev nD) (L : grid0.Coords) (v29 : BitVec 32) (v535_0 : FVec F S16 .f32) (v535_1 : FVec F S16 .f32) (v535_2 : FVec F S16 .f32) (v535_3 : FVec F S16 .f32) (v535_4 : FVec F S16 .f32) (v535_5 : FVec F S16 .f32) (v535_6 : FVec F S16 .f32) (v535_7 : FVec F S16 .f32) (v535_8 : FVec F S16 .f32) (v535_9 : FVec F S16 .f32) (v535_10 : FVec F S16 .f32) (v535_11 : FVec F S16 .f32) (v535_12 : FVec F S16 .f32) (v535_13 : FVec F S16 .f32) (v535_14 : FVec F S16 .f32) (v535_15 : FVec F S16 .f32) (v535_16 : FVec F S16 .f32) (v535_17 : FVec F S16 .f32) (v535_18 : FVec F S16 .f32) (v535_19 : FVec F S16 .f32) (v535_20 : FVec F S16 .f32) (v535_21 : FVec F S16 .f32) (v535_22 : FVec F S16 .f32) (v535_23 : FVec F S16 .f32) (v535_24 : FVec F S16 .f32) (v535_25 : FVec F S16 .f32) (v535_26 : FVec F S16 .f32) (v535_27 : FVec F S16 .f32) (v535_28 : FVec F S16 .f32) (v535_29 : FVec F S16 .f32) (v535_30 : FVec F S16 .f32) (v535_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t16_loop.lb k0_t16_loop.ub k0_t16_loop.st k0_t16_ok init
      (k0_t16_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v535_0 v535_1 v535_2 v535_3 v535_4 v535_5 v535_6 v535_7 v535_8 v535_9 v535_10 v535_11 v535_12 v535_13 v535_14 v535_15 v535_16 v535_17 v535_18 v535_19 v535_20 v535_21 v535_22 v535_23 v535_24 v535_25 v535_26 v535_27 v535_28 v535_29 v535_30 v535_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t16 (Memref.whole cc0_scratch1) w k init⌝)
  step k acc := by
    iintro ⟨H, %hacc⟩
    sl_exec
    sl_step
    isplitl [H]; · iexact H
    ipureintro
    show _ = rowsFold_t16 (Memref.whole cc0_scratch1) w (k.val + 1) init
    rw [rowsFold_t16, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t16 (Memref.whole cc0_scratch1) w ⟨k.val, k.isLt⟩ acc
        = addRow_t16 (Memref.whole cc0_scratch1) (View.write (Elt F) (Memref.whole cc0_scratch1 : Memref sig .scVector .vmem S64x512 .f32).view prev w Finset.univ) ⟨k.val, k.isLt⟩ acc from by rw [e]]
    rfl

/-- One trip of loop 17: row k of the buffer added to the 32 accumulators, 16 lanes each. -/
def addRow_t17 (M : Memref sig .scVector .vmem S64x512 .f32) (f : M.view.ty.Contents (Elt F)) (k : Fin k0_t17_loop.trips) (acc : Acc F) : Acc F :=
  (addf (acc.1) (rowRead M f (k0_off519 k) (k0_off519_inb k)),
    addf (acc.2.1) (rowRead M f (k0_off520 k) (k0_off520_inb k)),
    addf (acc.2.2.1) (rowRead M f (k0_off521 k) (k0_off521_inb k)),
    addf (acc.2.2.2.1) (rowRead M f (k0_off522 k) (k0_off522_inb k)),
    addf (acc.2.2.2.2.1) (rowRead M f (k0_off523 k) (k0_off523_inb k)),
    addf (acc.2.2.2.2.2.1) (rowRead M f (k0_off524 k) (k0_off524_inb k)),
    addf (acc.2.2.2.2.2.2.1) (rowRead M f (k0_off525 k) (k0_off525_inb k)),
    addf (acc.2.2.2.2.2.2.2.1) (rowRead M f (k0_off526 k) (k0_off526_inb k)),
    addf (acc.2.2.2.2.2.2.2.2.1) (rowRead M f (k0_off527 k) (k0_off527_inb k)),
    addf (acc.2.2.2.2.2.2.2.2.2.1) (rowRead M f (k0_off528 k) (k0_off528_inb k)),
    addf (acc.2.2.2.2.2.2.2.2.2.2.1) (rowRead M f (k0_off529 k) (k0_off529_inb k)),
    addf (acc.2.2.2.2.2.2.2.2.2.2.2.1) (rowRead M f (k0_off530 k) (k0_off530_inb k)),
    addf (acc.2.2.2.2.2.2.2.2.2.2.2.2.1) (rowRead M f (k0_off531 k) (k0_off531_inb k)),
    addf (acc.2.2.2.2.2.2.2.2.2.2.2.2.2.1) (rowRead M f (k0_off532 k) (k0_off532_inb k)),
    addf (acc.2.2.2.2.2.2.2.2.2.2.2.2.2.2.1) (rowRead M f (k0_off533 k) (k0_off533_inb k)),
    addf (acc.2.2.2.2.2.2.2.2.2.2.2.2.2.2.2.1) (rowRead M f (k0_off534 k) (k0_off534_inb k)),
    addf (acc.2.2.2.2.2.2.2.2.2.2.2.2.2.2.2.2.1) (rowRead M f (k0_off535 k) (k0_off535_inb k)),
    addf (acc.2.2.2.2.2.2.2.2.2.2.2.2.2.2.2.2.2.1) (rowRead M f (k0_off536 k) (k0_off536_inb k)),
    addf (acc.2.2.2.2.2.2.2.2.2.2.2.2.2.2.2.2.2.2.1) (rowRead M f (k0_off537 k) (k0_off537_inb k)),
    addf (acc.2.2.2.2.2.2.2.2.2.2.2.2.2.2.2.2.2.2.2.1) (rowRead M f (k0_off538 k) (k0_off538_inb k)),
    addf (acc.2.2.2.2.2.2.2.2.2.2.2.2.2.2.2.2.2.2.2.2.1) (rowRead M f (k0_off539 k) (k0_off539_inb k)),
    addf (acc.2.2.2.2.2.2.2.2.2.2.2.2.2.2.2.2.2.2.2.2.2.1) (rowRead M f (k0_off540 k) (k0_off540_inb k)),
    addf (acc.2.2.2.2.2.2.2.2.2.2.2.2.2.2.2.2.2.2.2.2.2.2.1) (rowRead M f (k0_off541 k) (k0_off541_inb k)),
    addf (acc.2.2.2.2.2.2.2.2.2.2.2.2.2.2.2.2.2.2.2.2.2.2.2.1) (rowRead M f (k0_off542 k) (k0_off542_inb k)),
    addf (acc.2.2.2.2.2.2.2.2.2.2.2.2.2.2.2.2.2.2.2.2.2.2.2.2.1) (rowRead M f (k0_off543 k) (k0_off543_inb k)),
    addf (acc.2.2.2.2.2.2.2.2.2.2.2.2.2.2.2.2.2.2.2.2.2.2.2.2.2.1) (rowRead M f (k0_off544 k) (k0_off544_inb k)),
    addf (acc.2.2.2.2.2.2.2.2.2.2.2.2.2.2.2.2.2.2.2.2.2.2.2.2.2.2.1) (rowRead M f (k0_off545 k) (k0_off545_inb k)),
    addf (acc.2.2.2.2.2.2.2.2.2.2.2.2.2.2.2.2.2.2.2.2.2.2.2.2.2.2.2.1) (rowRead M f (k0_off546 k) (k0_off546_inb k)),
    addf (acc.2.2.2.2.2.2.2.2.2.2.2.2.2.2.2.2.2.2.2.2.2.2.2.2.2.2.2.2.1) (rowRead M f (k0_off547 k) (k0_off547_inb k)),
    addf (acc.2.2.2.2.2.2.2.2.2.2.2.2.2.2.2.2.2.2.2.2.2.2.2.2.2.2.2.2.2.1) (rowRead M f (k0_off548 k) (k0_off548_inb k)),
    addf (acc.2.2.2.2.2.2.2.2.2.2.2.2.2.2.2.2.2.2.2.2.2.2.2.2.2.2.2.2.2.2.1) (rowRead M f (k0_off549 k) (k0_off549_inb k)),
    addf (acc.2.2.2.2.2.2.2.2.2.2.2.2.2.2.2.2.2.2.2.2.2.2.2.2.2.2.2.2.2.2.2) (rowRead M f (k0_off550 k) (k0_off550_inb k)))

/-- The accumulators before trip k of loop 17, from those it starts with. -/
def rowsFold_t17 (M : Memref sig .scVector .vmem S64x512 .f32) (f : M.view.ty.Contents (Elt F)) : Nat → Acc F → Acc F
  | 0, init => init
  | k + 1, init => if h : k < k0_t17_loop.trips then addRow_t17 M f ⟨k, h⟩ (rowsFold_t17 M f k init) else rowsFold_t17 M f k init

set_option warn.classDefReducibility false in
/-- Loop 17 keeps the buffer it reads and carries the rows added so far. -/
@[sl_loop] def loopVal_t17 (d : Dev nD) (L : grid0.Coords) (v12 : BitVec 32) (v29 : BitVec 32) (v563_26 : FVec F S16 .f32) (v563_27 : FVec F S16 .f32) (v563_28 : FVec F S16 .f32) (v563_29 : FVec F S16 .f32) (v563_30 : FVec F S16 .f32) (v563_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t17_loop.lb k0_t17_loop.ub k0_t17_loop.st k0_t17_ok init
      (k0_t17_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v12 v29 v563_26 v563_27 v563_28 v563_29 v563_30 v563_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t17 (Memref.whole cc0_scratch0) w k init⌝)
  step k acc := by
    iintro ⟨H, %hacc⟩
    sl_exec
    sl_step
    isplitl [H]; · iexact H
    ipureintro
    show _ = rowsFold_t17 (Memref.whole cc0_scratch0) w (k.val + 1) init
    rw [rowsFold_t17, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t17 (Memref.whole cc0_scratch0) w ⟨k.val, k.isLt⟩ acc
        = addRow_t17 (Memref.whole cc0_scratch0) (View.write (Elt F) (Memref.whole cc0_scratch0 : Memref sig .scVector .vmem S64x512 .f32).view prev w Finset.univ) ⟨k.val, k.isLt⟩ acc from by rw [e]]
    rfl

/-- One trip of loop 18: row k of the buffer added to the 32 accumulators, 16 lanes each. -/
def addRow_t18 (M : Memref sig .scVector .vmem S64x512 .f32) (f : M.view.ty.Contents (Elt F)) (k : Fin k0_t18_loop.trips) (acc : Acc F) : Acc F :=
  (addf (acc.1) (rowRead M f (k0_off551 k) (k0_off551_inb k)),
    addf (acc.2.1) (rowRead M f (k0_off552 k) (k0_off552_inb k)),
    addf (acc.2.2.1) (rowRead M f (k0_off553 k) (k0_off553_inb k)),
    addf (acc.2.2.2.1) (rowRead M f (k0_off554 k) (k0_off554_inb k)),
    addf (acc.2.2.2.2.1) (rowRead M f (k0_off555 k) (k0_off555_inb k)),
    addf (acc.2.2.2.2.2.1) (rowRead M f (k0_off556 k) (k0_off556_inb k)),
    addf (acc.2.2.2.2.2.2.1) (rowRead M f (k0_off557 k) (k0_off557_inb k)),
    addf (acc.2.2.2.2.2.2.2.1) (rowRead M f (k0_off558 k) (k0_off558_inb k)),
    addf (acc.2.2.2.2.2.2.2.2.1) (rowRead M f (k0_off559 k) (k0_off559_inb k)),
    addf (acc.2.2.2.2.2.2.2.2.2.1) (rowRead M f (k0_off560 k) (k0_off560_inb k)),
    addf (acc.2.2.2.2.2.2.2.2.2.2.1) (rowRead M f (k0_off561 k) (k0_off561_inb k)),
    addf (acc.2.2.2.2.2.2.2.2.2.2.2.1) (rowRead M f (k0_off562 k) (k0_off562_inb k)),
    addf (acc.2.2.2.2.2.2.2.2.2.2.2.2.1) (rowRead M f (k0_off563 k) (k0_off563_inb k)),
    addf (acc.2.2.2.2.2.2.2.2.2.2.2.2.2.1) (rowRead M f (k0_off564 k) (k0_off564_inb k)),
    addf (acc.2.2.2.2.2.2.2.2.2.2.2.2.2.2.1) (rowRead M f (k0_off565 k) (k0_off565_inb k)),
    addf (acc.2.2.2.2.2.2.2.2.2.2.2.2.2.2.2.1) (rowRead M f (k0_off566 k) (k0_off566_inb k)),
    addf (acc.2.2.2.2.2.2.2.2.2.2.2.2.2.2.2.2.1) (rowRead M f (k0_off567 k) (k0_off567_inb k)),
    addf (acc.2.2.2.2.2.2.2.2.2.2.2.2.2.2.2.2.2.1) (rowRead M f (k0_off568 k) (k0_off568_inb k)),
    addf (acc.2.2.2.2.2.2.2.2.2.2.2.2.2.2.2.2.2.2.1) (rowRead M f (k0_off569 k) (k0_off569_inb k)),
    addf (acc.2.2.2.2.2.2.2.2.2.2.2.2.2.2.2.2.2.2.2.1) (rowRead M f (k0_off570 k) (k0_off570_inb k)),
    addf (acc.2.2.2.2.2.2.2.2.2.2.2.2.2.2.2.2.2.2.2.2.1) (rowRead M f (k0_off571 k) (k0_off571_inb k)),
    addf (acc.2.2.2.2.2.2.2.2.2.2.2.2.2.2.2.2.2.2.2.2.2.1) (rowRead M f (k0_off572 k) (k0_off572_inb k)),
    addf (acc.2.2.2.2.2.2.2.2.2.2.2.2.2.2.2.2.2.2.2.2.2.2.1) (rowRead M f (k0_off573 k) (k0_off573_inb k)),
    addf (acc.2.2.2.2.2.2.2.2.2.2.2.2.2.2.2.2.2.2.2.2.2.2.2.1) (rowRead M f (k0_off574 k) (k0_off574_inb k)),
    addf (acc.2.2.2.2.2.2.2.2.2.2.2.2.2.2.2.2.2.2.2.2.2.2.2.2.1) (rowRead M f (k0_off575 k) (k0_off575_inb k)),
    addf (acc.2.2.2.2.2.2.2.2.2.2.2.2.2.2.2.2.2.2.2.2.2.2.2.2.2.1) (rowRead M f (k0_off576 k) (k0_off576_inb k)),
    addf (acc.2.2.2.2.2.2.2.2.2.2.2.2.2.2.2.2.2.2.2.2.2.2.2.2.2.2.1) (rowRead M f (k0_off577 k) (k0_off577_inb k)),
    addf (acc.2.2.2.2.2.2.2.2.2.2.2.2.2.2.2.2.2.2.2.2.2.2.2.2.2.2.2.1) (rowRead M f (k0_off578 k) (k0_off578_inb k)),
    addf (acc.2.2.2.2.2.2.2.2.2.2.2.2.2.2.2.2.2.2.2.2.2.2.2.2.2.2.2.2.1) (rowRead M f (k0_off579 k) (k0_off579_inb k)),
    addf (acc.2.2.2.2.2.2.2.2.2.2.2.2.2.2.2.2.2.2.2.2.2.2.2.2.2.2.2.2.2.1) (rowRead M f (k0_off580 k) (k0_off580_inb k)),
    addf (acc.2.2.2.2.2.2.2.2.2.2.2.2.2.2.2.2.2.2.2.2.2.2.2.2.2.2.2.2.2.2.1) (rowRead M f (k0_off581 k) (k0_off581_inb k)),
    addf (acc.2.2.2.2.2.2.2.2.2.2.2.2.2.2.2.2.2.2.2.2.2.2.2.2.2.2.2.2.2.2.2) (rowRead M f (k0_off582 k) (k0_off582_inb k)))

/-- The accumulators before trip k of loop 18, from those it starts with. -/
def rowsFold_t18 (M : Memref sig .scVector .vmem S64x512 .f32) (f : M.view.ty.Contents (Elt F)) : Nat → Acc F → Acc F
  | 0, init => init
  | k + 1, init => if h : k < k0_t18_loop.trips then addRow_t18 M f ⟨k, h⟩ (rowsFold_t18 M f k init) else rowsFold_t18 M f k init

set_option warn.classDefReducibility false in
/-- Loop 18 keeps the buffer it reads and carries the rows added so far. -/
@[sl_loop] def loopVal_t18 (d : Dev nD) (L : grid0.Coords) (v29 : BitVec 32) (v678_0 : FVec F S16 .f32) (v678_1 : FVec F S16 .f32) (v678_2 : FVec F S16 .f32) (v678_3 : FVec F S16 .f32) (v678_4 : FVec F S16 .f32) (v678_5 : FVec F S16 .f32) (v678_6 : FVec F S16 .f32) (v678_7 : FVec F S16 .f32) (v678_8 : FVec F S16 .f32) (v678_9 : FVec F S16 .f32) (v678_10 : FVec F S16 .f32) (v678_11 : FVec F S16 .f32) (v678_12 : FVec F S16 .f32) (v678_13 : FVec F S16 .f32) (v678_14 : FVec F S16 .f32) (v678_15 : FVec F S16 .f32) (v678_16 : FVec F S16 .f32) (v678_17 : FVec F S16 .f32) (v678_18 : FVec F S16 .f32) (v678_19 : FVec F S16 .f32) (v678_20 : FVec F S16 .f32) (v678_21 : FVec F S16 .f32) (v678_22 : FVec F S16 .f32) (v678_23 : FVec F S16 .f32) (v678_24 : FVec F S16 .f32) (v678_25 : FVec F S16 .f32) (v678_26 : FVec F S16 .f32) (v678_27 : FVec F S16 .f32) (v678_28 : FVec F S16 .f32) (v678_29 : FVec F S16 .f32) (v678_30 : FVec F S16 .f32) (v678_31 : FVec F S16 .f32) (v679 : BitVec 32) (c128_i32_279 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t18_loop.lb k0_t18_loop.ub k0_t18_loop.st k0_t18_ok init
      (k0_t18_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v678_0 v678_1 v678_2 v678_3 v678_4 v678_5 v678_6 v678_7 v678_8 v678_9 v678_10 v678_11 v678_12 v678_13 v678_14 v678_15 v678_16 v678_17 v678_18 v678_19 v678_20 v678_21 v678_22 v678_23 v678_24 v678_25 v678_26 v678_27 v678_28 v678_29 v678_30 v678_31 v679 c128_i32_279) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t18 (Memref.whole cc0_scratch1) w k init⌝)
  step k acc := by
    iintro ⟨H, %hacc⟩
    sl_exec
    sl_step
    isplitl [H]; · iexact H
    ipureintro
    show _ = rowsFold_t18 (Memref.whole cc0_scratch1) w (k.val + 1) init
    rw [rowsFold_t18, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t18 (Memref.whole cc0_scratch1) w ⟨k.val, k.isLt⟩ acc
        = addRow_t18 (Memref.whole cc0_scratch1) (View.write (Elt F) (Memref.whole cc0_scratch1 : Memref sig .scVector .vmem S64x512 .f32).view prev w Finset.univ) ⟨k.val, k.isLt⟩ acc from by rw [e]]
    rfl

/-- One trip of loop 19: row k of the buffer added to the 32 accumulators, 16 lanes each. -/
def addRow_t19 (M : Memref sig .scVector .vmem S64x512 .f32) (f : M.view.ty.Contents (Elt F)) (k : Fin k0_t19_loop.trips) (acc : Acc F) : Acc F :=
  (addf (acc.1) (rowRead M f (k0_off583 k) (k0_off583_inb k)),
    addf (acc.2.1) (rowRead M f (k0_off584 k) (k0_off584_inb k)),
    addf (acc.2.2.1) (rowRead M f (k0_off585 k) (k0_off585_inb k)),
    addf (acc.2.2.2.1) (rowRead M f (k0_off586 k) (k0_off586_inb k)),
    addf (acc.2.2.2.2.1) (rowRead M f (k0_off587 k) (k0_off587_inb k)),
    addf (acc.2.2.2.2.2.1) (rowRead M f (k0_off588 k) (k0_off588_inb k)),
    addf (acc.2.2.2.2.2.2.1) (rowRead M f (k0_off589 k) (k0_off589_inb k)),
    addf (acc.2.2.2.2.2.2.2.1) (rowRead M f (k0_off590 k) (k0_off590_inb k)),
    addf (acc.2.2.2.2.2.2.2.2.1) (rowRead M f (k0_off591 k) (k0_off591_inb k)),
    addf (acc.2.2.2.2.2.2.2.2.2.1) (rowRead M f (k0_off592 k) (k0_off592_inb k)),
    addf (acc.2.2.2.2.2.2.2.2.2.2.1) (rowRead M f (k0_off593 k) (k0_off593_inb k)),
    addf (acc.2.2.2.2.2.2.2.2.2.2.2.1) (rowRead M f (k0_off594 k) (k0_off594_inb k)),
    addf (acc.2.2.2.2.2.2.2.2.2.2.2.2.1) (rowRead M f (k0_off595 k) (k0_off595_inb k)),
    addf (acc.2.2.2.2.2.2.2.2.2.2.2.2.2.1) (rowRead M f (k0_off596 k) (k0_off596_inb k)),
    addf (acc.2.2.2.2.2.2.2.2.2.2.2.2.2.2.1) (rowRead M f (k0_off597 k) (k0_off597_inb k)),
    addf (acc.2.2.2.2.2.2.2.2.2.2.2.2.2.2.2.1) (rowRead M f (k0_off598 k) (k0_off598_inb k)),
    addf (acc.2.2.2.2.2.2.2.2.2.2.2.2.2.2.2.2.1) (rowRead M f (k0_off599 k) (k0_off599_inb k)),
    addf (acc.2.2.2.2.2.2.2.2.2.2.2.2.2.2.2.2.2.1) (rowRead M f (k0_off600 k) (k0_off600_inb k)),
    addf (acc.2.2.2.2.2.2.2.2.2.2.2.2.2.2.2.2.2.2.1) (rowRead M f (k0_off601 k) (k0_off601_inb k)),
    addf (acc.2.2.2.2.2.2.2.2.2.2.2.2.2.2.2.2.2.2.2.1) (rowRead M f (k0_off602 k) (k0_off602_inb k)),
    addf (acc.2.2.2.2.2.2.2.2.2.2.2.2.2.2.2.2.2.2.2.2.1) (rowRead M f (k0_off603 k) (k0_off603_inb k)),
    addf (acc.2.2.2.2.2.2.2.2.2.2.2.2.2.2.2.2.2.2.2.2.2.1) (rowRead M f (k0_off604 k) (k0_off604_inb k)),
    addf (acc.2.2.2.2.2.2.2.2.2.2.2.2.2.2.2.2.2.2.2.2.2.2.1) (rowRead M f (k0_off605 k) (k0_off605_inb k)),
    addf (acc.2.2.2.2.2.2.2.2.2.2.2.2.2.2.2.2.2.2.2.2.2.2.2.1) (rowRead M f (k0_off606 k) (k0_off606_inb k)),
    addf (acc.2.2.2.2.2.2.2.2.2.2.2.2.2.2.2.2.2.2.2.2.2.2.2.2.1) (rowRead M f (k0_off607 k) (k0_off607_inb k)),
    addf (acc.2.2.2.2.2.2.2.2.2.2.2.2.2.2.2.2.2.2.2.2.2.2.2.2.2.1) (rowRead M f (k0_off608 k) (k0_off608_inb k)),
    addf (acc.2.2.2.2.2.2.2.2.2.2.2.2.2.2.2.2.2.2.2.2.2.2.2.2.2.2.1) (rowRead M f (k0_off609 k) (k0_off609_inb k)),
    addf (acc.2.2.2.2.2.2.2.2.2.2.2.2.2.2.2.2.2.2.2.2.2.2.2.2.2.2.2.1) (rowRead M f (k0_off610 k) (k0_off610_inb k)),
    addf (acc.2.2.2.2.2.2.2.2.2.2.2.2.2.2.2.2.2.2.2.2.2.2.2.2.2.2.2.2.1) (rowRead M f (k0_off611 k) (k0_off611_inb k)),
    addf (acc.2.2.2.2.2.2.2.2.2.2.2.2.2.2.2.2.2.2.2.2.2.2.2.2.2.2.2.2.2.1) (rowRead M f (k0_off612 k) (k0_off612_inb k)),
    addf (acc.2.2.2.2.2.2.2.2.2.2.2.2.2.2.2.2.2.2.2.2.2.2.2.2.2.2.2.2.2.2.1) (rowRead M f (k0_off613 k) (k0_off613_inb k)),
    addf (acc.2.2.2.2.2.2.2.2.2.2.2.2.2.2.2.2.2.2.2.2.2.2.2.2.2.2.2.2.2.2.2) (rowRead M f (k0_off614 k) (k0_off614_inb k)))

/-- The accumulators before trip k of loop 19, from those it starts with. -/
def rowsFold_t19 (M : Memref sig .scVector .vmem S64x512 .f32) (f : M.view.ty.Contents (Elt F)) : Nat → Acc F → Acc F
  | 0, init => init
  | k + 1, init => if h : k < k0_t19_loop.trips then addRow_t19 M f ⟨k, h⟩ (rowsFold_t19 M f k init) else rowsFold_t19 M f k init

set_option warn.classDefReducibility false in
/-- Loop 19 keeps the buffer it reads and carries the rows added so far. -/
@[sl_loop] def loopVal_t19 (d : Dev nD) (L : grid0.Coords) (v29 : BitVec 32) (v678_0 : FVec F S16 .f32) (v678_1 : FVec F S16 .f32) (v678_2 : FVec F S16 .f32) (v678_3 : FVec F S16 .f32) (v678_4 : FVec F S16 .f32) (v678_5 : FVec F S16 .f32) (v678_6 : FVec F S16 .f32) (v678_7 : FVec F S16 .f32) (v678_8 : FVec F S16 .f32) (v678_9 : FVec F S16 .f32) (v678_10 : FVec F S16 .f32) (v678_11 : FVec F S16 .f32) (v678_12 : FVec F S16 .f32) (v678_13 : FVec F S16 .f32) (v678_14 : FVec F S16 .f32) (v678_15 : FVec F S16 .f32) (v678_16 : FVec F S16 .f32) (v678_17 : FVec F S16 .f32) (v678_18 : FVec F S16 .f32) (v678_19 : FVec F S16 .f32) (v678_20 : FVec F S16 .f32) (v678_21 : FVec F S16 .f32) (v678_22 : FVec F S16 .f32) (v678_23 : FVec F S16 .f32) (v678_24 : FVec F S16 .f32) (v678_25 : FVec F S16 .f32) (v678_26 : FVec F S16 .f32) (v678_27 : FVec F S16 .f32) (v678_28 : FVec F S16 .f32) (v678_29 : FVec F S16 .f32) (v678_30 : FVec F S16 .f32) (v678_31 : FVec F S16 .f32) (v679 : BitVec 32) (c128_i32_279 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t19_loop.lb k0_t19_loop.ub k0_t19_loop.st k0_t19_ok init
      (k0_t19_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v678_0 v678_1 v678_2 v678_3 v678_4 v678_5 v678_6 v678_7 v678_8 v678_9 v678_10 v678_11 v678_12 v678_13 v678_14 v678_15 v678_16 v678_17 v678_18 v678_19 v678_20 v678_21 v678_22 v678_23 v678_24 v678_25 v678_26 v678_27 v678_28 v678_29 v678_30 v678_31 v679 c128_i32_279) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t19 (Memref.whole cc0_scratch0) w k init⌝)
  step k acc := by
    iintro ⟨H, %hacc⟩
    sl_exec
    sl_step
    isplitl [H]; · iexact H
    ipureintro
    show _ = rowsFold_t19 (Memref.whole cc0_scratch0) w (k.val + 1) init
    rw [rowsFold_t19, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t19 (Memref.whole cc0_scratch0) w ⟨k.val, k.isLt⟩ acc
        = addRow_t19 (Memref.whole cc0_scratch0) (View.write (Elt F) (Memref.whole cc0_scratch0 : Memref sig .scVector .vmem S64x512 .f32).view prev w Finset.univ) ⟨k.val, k.isLt⟩ acc from by rw [e]]
    rfl

/-- One trip of loop 20: row k of the buffer added to the 32 accumulators, 16 lanes each. -/
def addRow_t20 (M : Memref sig .scVector .vmem S64x512 .f32) (f : M.view.ty.Contents (Elt F)) (k : Fin k0_t20_loop.trips) (acc : Acc F) : Acc F :=
  (addf (acc.1) (rowRead M f (k0_off616 k) (k0_off616_inb k)),
    addf (acc.2.1) (rowRead M f (k0_off617 k) (k0_off617_inb k)),
    addf (acc.2.2.1) (rowRead M f (k0_off618 k) (k0_off618_inb k)),
    addf (acc.2.2.2.1) (rowRead M f (k0_off619 k) (k0_off619_inb k)),
    addf (acc.2.2.2.2.1) (rowRead M f (k0_off620 k) (k0_off620_inb k)),
    addf (acc.2.2.2.2.2.1) (rowRead M f (k0_off621 k) (k0_off621_inb k)),
    addf (acc.2.2.2.2.2.2.1) (rowRead M f (k0_off622 k) (k0_off622_inb k)),
    addf (acc.2.2.2.2.2.2.2.1) (rowRead M f (k0_off623 k) (k0_off623_inb k)),
    addf (acc.2.2.2.2.2.2.2.2.1) (rowRead M f (k0_off624 k) (k0_off624_inb k)),
    addf (acc.2.2.2.2.2.2.2.2.2.1) (rowRead M f (k0_off625 k) (k0_off625_inb k)),
    addf (acc.2.2.2.2.2.2.2.2.2.2.1) (rowRead M f (k0_off626 k) (k0_off626_inb k)),
    addf (acc.2.2.2.2.2.2.2.2.2.2.2.1) (rowRead M f (k0_off627 k) (k0_off627_inb k)),
    addf (acc.2.2.2.2.2.2.2.2.2.2.2.2.1) (rowRead M f (k0_off628 k) (k0_off628_inb k)),
    addf (acc.2.2.2.2.2.2.2.2.2.2.2.2.2.1) (rowRead M f (k0_off629 k) (k0_off629_inb k)),
    addf (acc.2.2.2.2.2.2.2.2.2.2.2.2.2.2.1) (rowRead M f (k0_off630 k) (k0_off630_inb k)),
    addf (acc.2.2.2.2.2.2.2.2.2.2.2.2.2.2.2.1) (rowRead M f (k0_off631 k) (k0_off631_inb k)),
    addf (acc.2.2.2.2.2.2.2.2.2.2.2.2.2.2.2.2.1) (rowRead M f (k0_off632 k) (k0_off632_inb k)),
    addf (acc.2.2.2.2.2.2.2.2.2.2.2.2.2.2.2.2.2.1) (rowRead M f (k0_off633 k) (k0_off633_inb k)),
    addf (acc.2.2.2.2.2.2.2.2.2.2.2.2.2.2.2.2.2.2.1) (rowRead M f (k0_off634 k) (k0_off634_inb k)),
    addf (acc.2.2.2.2.2.2.2.2.2.2.2.2.2.2.2.2.2.2.2.1) (rowRead M f (k0_off635 k) (k0_off635_inb k)),
    addf (acc.2.2.2.2.2.2.2.2.2.2.2.2.2.2.2.2.2.2.2.2.1) (rowRead M f (k0_off636 k) (k0_off636_inb k)),
    addf (acc.2.2.2.2.2.2.2.2.2.2.2.2.2.2.2.2.2.2.2.2.2.1) (rowRead M f (k0_off637 k) (k0_off637_inb k)),
    addf (acc.2.2.2.2.2.2.2.2.2.2.2.2.2.2.2.2.2.2.2.2.2.2.1) (rowRead M f (k0_off638 k) (k0_off638_inb k)),
    addf (acc.2.2.2.2.2.2.2.2.2.2.2.2.2.2.2.2.2.2.2.2.2.2.2.1) (rowRead M f (k0_off639 k) (k0_off639_inb k)),
    addf (acc.2.2.2.2.2.2.2.2.2.2.2.2.2.2.2.2.2.2.2.2.2.2.2.2.1) (rowRead M f (k0_off640 k) (k0_off640_inb k)),
    addf (acc.2.2.2.2.2.2.2.2.2.2.2.2.2.2.2.2.2.2.2.2.2.2.2.2.2.1) (rowRead M f (k0_off641 k) (k0_off641_inb k)),
    addf (acc.2.2.2.2.2.2.2.2.2.2.2.2.2.2.2.2.2.2.2.2.2.2.2.2.2.2.1) (rowRead M f (k0_off642 k) (k0_off642_inb k)),
    addf (acc.2.2.2.2.2.2.2.2.2.2.2.2.2.2.2.2.2.2.2.2.2.2.2.2.2.2.2.1) (rowRead M f (k0_off643 k) (k0_off643_inb k)),
    addf (acc.2.2.2.2.2.2.2.2.2.2.2.2.2.2.2.2.2.2.2.2.2.2.2.2.2.2.2.2.1) (rowRead M f (k0_off644 k) (k0_off644_inb k)),
    addf (acc.2.2.2.2.2.2.2.2.2.2.2.2.2.2.2.2.2.2.2.2.2.2.2.2.2.2.2.2.2.1) (rowRead M f (k0_off645 k) (k0_off645_inb k)),
    addf (acc.2.2.2.2.2.2.2.2.2.2.2.2.2.2.2.2.2.2.2.2.2.2.2.2.2.2.2.2.2.2.1) (rowRead M f (k0_off646 k) (k0_off646_inb k)),
    addf (acc.2.2.2.2.2.2.2.2.2.2.2.2.2.2.2.2.2.2.2.2.2.2.2.2.2.2.2.2.2.2.2) (rowRead M f (k0_off647 k) (k0_off647_inb k)))

/-- The accumulators before trip k of loop 20, from those it starts with. -/
def rowsFold_t20 (M : Memref sig .scVector .vmem S64x512 .f32) (f : M.view.ty.Contents (Elt F)) : Nat → Acc F → Acc F
  | 0, init => init
  | k + 1, init => if h : k < k0_t20_loop.trips then addRow_t20 M f ⟨k, h⟩ (rowsFold_t20 M f k init) else rowsFold_t20 M f k init

set_option warn.classDefReducibility false in
/-- Loop 20 keeps the buffer it reads and carries the rows added so far. -/
@[sl_loop] def loopVal_t20 (d : Dev nD) (L : grid0.Coords) (v29 : BitVec 32) (v706_0 : FVec F S16 .f32) (v706_1 : FVec F S16 .f32) (v706_2 : FVec F S16 .f32) (v706_3 : FVec F S16 .f32) (v706_4 : FVec F S16 .f32) (v706_5 : FVec F S16 .f32) (v706_6 : FVec F S16 .f32) (v706_7 : FVec F S16 .f32) (v706_8 : FVec F S16 .f32) (v706_9 : FVec F S16 .f32) (v706_10 : FVec F S16 .f32) (v706_11 : FVec F S16 .f32) (v706_12 : FVec F S16 .f32) (v706_13 : FVec F S16 .f32) (v706_14 : FVec F S16 .f32) (v706_15 : FVec F S16 .f32) (v706_16 : FVec F S16 .f32) (v706_17 : FVec F S16 .f32) (v706_18 : FVec F S16 .f32) (v706_19 : FVec F S16 .f32) (v706_20 : FVec F S16 .f32) (v706_21 : FVec F S16 .f32) (v706_22 : FVec F S16 .f32) (v706_23 : FVec F S16 .f32) (v706_24 : FVec F S16 .f32) (v706_25 : FVec F S16 .f32) (v706_26 : FVec F S16 .f32) (v706_27 : FVec F S16 .f32) (v706_28 : FVec F S16 .f32) (v706_29 : FVec F S16 .f32) (v706_30 : FVec F S16 .f32) (v706_31 : FVec F S16 .f32) (c256_i32_300 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t20_loop.lb k0_t20_loop.ub k0_t20_loop.st k0_t20_ok init
      (k0_t20_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v706_0 v706_1 v706_2 v706_3 v706_4 v706_5 v706_6 v706_7 v706_8 v706_9 v706_10 v706_11 v706_12 v706_13 v706_14 v706_15 v706_16 v706_17 v706_18 v706_19 v706_20 v706_21 v706_22 v706_23 v706_24 v706_25 v706_26 v706_27 v706_28 v706_29 v706_30 v706_31 c256_i32_300) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t20 (Memref.whole cc0_scratch1) w k init⌝)
  step k acc := by
    iintro ⟨H, %hacc⟩
    sl_exec
    sl_step
    isplitl [H]; · iexact H
    ipureintro
    show _ = rowsFold_t20 (Memref.whole cc0_scratch1) w (k.val + 1) init
    rw [rowsFold_t20, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t20 (Memref.whole cc0_scratch1) w ⟨k.val, k.isLt⟩ acc
        = addRow_t20 (Memref.whole cc0_scratch1) (View.write (Elt F) (Memref.whole cc0_scratch1 : Memref sig .scVector .vmem S64x512 .f32).view prev w Finset.univ) ⟨k.val, k.isLt⟩ acc from by rw [e]]
    rfl

/-- One trip of loop 21: row k of the buffer added to the 32 accumulators, 16 lanes each. -/
def addRow_t21 (M : Memref sig .scVector .vmem S64x512 .f32) (f : M.view.ty.Contents (Elt F)) (k : Fin k0_t21_loop.trips) (acc : Acc F) : Acc F :=
  (addf (acc.1) (rowRead M f (k0_off648 k) (k0_off648_inb k)),
    addf (acc.2.1) (rowRead M f (k0_off649 k) (k0_off649_inb k)),
    addf (acc.2.2.1) (rowRead M f (k0_off650 k) (k0_off650_inb k)),
    addf (acc.2.2.2.1) (rowRead M f (k0_off651 k) (k0_off651_inb k)),
    addf (acc.2.2.2.2.1) (rowRead M f (k0_off652 k) (k0_off652_inb k)),
    addf (acc.2.2.2.2.2.1) (rowRead M f (k0_off653 k) (k0_off653_inb k)),
    addf (acc.2.2.2.2.2.2.1) (rowRead M f (k0_off654 k) (k0_off654_inb k)),
    addf (acc.2.2.2.2.2.2.2.1) (rowRead M f (k0_off655 k) (k0_off655_inb k)),
    addf (acc.2.2.2.2.2.2.2.2.1) (rowRead M f (k0_off656 k) (k0_off656_inb k)),
    addf (acc.2.2.2.2.2.2.2.2.2.1) (rowRead M f (k0_off657 k) (k0_off657_inb k)),
    addf (acc.2.2.2.2.2.2.2.2.2.2.1) (rowRead M f (k0_off658 k) (k0_off658_inb k)),
    addf (acc.2.2.2.2.2.2.2.2.2.2.2.1) (rowRead M f (k0_off659 k) (k0_off659_inb k)),
    addf (acc.2.2.2.2.2.2.2.2.2.2.2.2.1) (rowRead M f (k0_off660 k) (k0_off660_inb k)),
    addf (acc.2.2.2.2.2.2.2.2.2.2.2.2.2.1) (rowRead M f (k0_off661 k) (k0_off661_inb k)),
    addf (acc.2.2.2.2.2.2.2.2.2.2.2.2.2.2.1) (rowRead M f (k0_off662 k) (k0_off662_inb k)),
    addf (acc.2.2.2.2.2.2.2.2.2.2.2.2.2.2.2.1) (rowRead M f (k0_off663 k) (k0_off663_inb k)),
    addf (acc.2.2.2.2.2.2.2.2.2.2.2.2.2.2.2.2.1) (rowRead M f (k0_off664 k) (k0_off664_inb k)),
    addf (acc.2.2.2.2.2.2.2.2.2.2.2.2.2.2.2.2.2.1) (rowRead M f (k0_off665 k) (k0_off665_inb k)),
    addf (acc.2.2.2.2.2.2.2.2.2.2.2.2.2.2.2.2.2.2.1) (rowRead M f (k0_off666 k) (k0_off666_inb k)),
    addf (acc.2.2.2.2.2.2.2.2.2.2.2.2.2.2.2.2.2.2.2.1) (rowRead M f (k0_off667 k) (k0_off667_inb k)),
    addf (acc.2.2.2.2.2.2.2.2.2.2.2.2.2.2.2.2.2.2.2.2.1) (rowRead M f (k0_off668 k) (k0_off668_inb k)),
    addf (acc.2.2.2.2.2.2.2.2.2.2.2.2.2.2.2.2.2.2.2.2.2.1) (rowRead M f (k0_off669 k) (k0_off669_inb k)),
    addf (acc.2.2.2.2.2.2.2.2.2.2.2.2.2.2.2.2.2.2.2.2.2.2.1) (rowRead M f (k0_off670 k) (k0_off670_inb k)),
    addf (acc.2.2.2.2.2.2.2.2.2.2.2.2.2.2.2.2.2.2.2.2.2.2.2.1) (rowRead M f (k0_off671 k) (k0_off671_inb k)),
    addf (acc.2.2.2.2.2.2.2.2.2.2.2.2.2.2.2.2.2.2.2.2.2.2.2.2.1) (rowRead M f (k0_off672 k) (k0_off672_inb k)),
    addf (acc.2.2.2.2.2.2.2.2.2.2.2.2.2.2.2.2.2.2.2.2.2.2.2.2.2.1) (rowRead M f (k0_off673 k) (k0_off673_inb k)),
    addf (acc.2.2.2.2.2.2.2.2.2.2.2.2.2.2.2.2.2.2.2.2.2.2.2.2.2.2.1) (rowRead M f (k0_off674 k) (k0_off674_inb k)),
    addf (acc.2.2.2.2.2.2.2.2.2.2.2.2.2.2.2.2.2.2.2.2.2.2.2.2.2.2.2.1) (rowRead M f (k0_off675 k) (k0_off675_inb k)),
    addf (acc.2.2.2.2.2.2.2.2.2.2.2.2.2.2.2.2.2.2.2.2.2.2.2.2.2.2.2.2.1) (rowRead M f (k0_off676 k) (k0_off676_inb k)),
    addf (acc.2.2.2.2.2.2.2.2.2.2.2.2.2.2.2.2.2.2.2.2.2.2.2.2.2.2.2.2.2.1) (rowRead M f (k0_off677 k) (k0_off677_inb k)),
    addf (acc.2.2.2.2.2.2.2.2.2.2.2.2.2.2.2.2.2.2.2.2.2.2.2.2.2.2.2.2.2.2.1) (rowRead M f (k0_off678 k) (k0_off678_inb k)),
    addf (acc.2.2.2.2.2.2.2.2.2.2.2.2.2.2.2.2.2.2.2.2.2.2.2.2.2.2.2.2.2.2.2) (rowRead M f (k0_off679 k) (k0_off679_inb k)))

/-- The accumulators before trip k of loop 21, from those it starts with. -/
def rowsFold_t21 (M : Memref sig .scVector .vmem S64x512 .f32) (f : M.view.ty.Contents (Elt F)) : Nat → Acc F → Acc F
  | 0, init => init
  | k + 1, init => if h : k < k0_t21_loop.trips then addRow_t21 M f ⟨k, h⟩ (rowsFold_t21 M f k init) else rowsFold_t21 M f k init

set_option warn.classDefReducibility false in
/-- Loop 21 keeps the buffer it reads and carries the rows added so far. -/
@[sl_loop] def loopVal_t21 (d : Dev nD) (L : grid0.Coords) (v12 : BitVec 32) (v29 : BitVec 32) (v720_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t21_loop.lb k0_t21_loop.ub k0_t21_loop.st k0_t21_ok init
      (k0_t21_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v12 v29 v720_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t21 (Memref.whole cc0_scratch0) w k init⌝)
  step k acc := by
    iintro ⟨H, %hacc⟩
    sl_exec
    sl_step
    isplitl [H]; · iexact H
    ipureintro
    show _ = rowsFold_t21 (Memref.whole cc0_scratch0) w (k.val + 1) init
    rw [rowsFold_t21, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t21 (Memref.whole cc0_scratch0) w ⟨k.val, k.isLt⟩ acc
        = addRow_t21 (Memref.whole cc0_scratch0) (View.write (Elt F) (Memref.whole cc0_scratch0 : Memref sig .scVector .vmem S64x512 .f32).view prev w Finset.univ) ⟨k.val, k.isLt⟩ acc from by rw [e]]
    rfl

/-- One trip of loop 22: row k of the buffer added to the 32 accumulators, 16 lanes each. -/
def addRow_t22 (M : Memref sig .scVector .vmem S64x512 .f32) (f : M.view.ty.Contents (Elt F)) (k : Fin k0_t22_loop.trips) (acc : Acc F) : Acc F :=
  (addf (acc.1) (rowRead M f (k0_off680 k) (k0_off680_inb k)),
    addf (acc.2.1) (rowRead M f (k0_off681 k) (k0_off681_inb k)),
    addf (acc.2.2.1) (rowRead M f (k0_off682 k) (k0_off682_inb k)),
    addf (acc.2.2.2.1) (rowRead M f (k0_off683 k) (k0_off683_inb k)),
    addf (acc.2.2.2.2.1) (rowRead M f (k0_off684 k) (k0_off684_inb k)),
    addf (acc.2.2.2.2.2.1) (rowRead M f (k0_off685 k) (k0_off685_inb k)),
    addf (acc.2.2.2.2.2.2.1) (rowRead M f (k0_off686 k) (k0_off686_inb k)),
    addf (acc.2.2.2.2.2.2.2.1) (rowRead M f (k0_off687 k) (k0_off687_inb k)),
    addf (acc.2.2.2.2.2.2.2.2.1) (rowRead M f (k0_off688 k) (k0_off688_inb k)),
    addf (acc.2.2.2.2.2.2.2.2.2.1) (rowRead M f (k0_off689 k) (k0_off689_inb k)),
    addf (acc.2.2.2.2.2.2.2.2.2.2.1) (rowRead M f (k0_off690 k) (k0_off690_inb k)),
    addf (acc.2.2.2.2.2.2.2.2.2.2.2.1) (rowRead M f (k0_off691 k) (k0_off691_inb k)),
    addf (acc.2.2.2.2.2.2.2.2.2.2.2.2.1) (rowRead M f (k0_off692 k) (k0_off692_inb k)),
    addf (acc.2.2.2.2.2.2.2.2.2.2.2.2.2.1) (rowRead M f (k0_off693 k) (k0_off693_inb k)),
    addf (acc.2.2.2.2.2.2.2.2.2.2.2.2.2.2.1) (rowRead M f (k0_off694 k) (k0_off694_inb k)),
    addf (acc.2.2.2.2.2.2.2.2.2.2.2.2.2.2.2.1) (rowRead M f (k0_off695 k) (k0_off695_inb k)),
    addf (acc.2.2.2.2.2.2.2.2.2.2.2.2.2.2.2.2.1) (rowRead M f (k0_off696 k) (k0_off696_inb k)),
    addf (acc.2.2.2.2.2.2.2.2.2.2.2.2.2.2.2.2.2.1) (rowRead M f (k0_off697 k) (k0_off697_inb k)),
    addf (acc.2.2.2.2.2.2.2.2.2.2.2.2.2.2.2.2.2.2.1) (rowRead M f (k0_off698 k) (k0_off698_inb k)),
    addf (acc.2.2.2.2.2.2.2.2.2.2.2.2.2.2.2.2.2.2.2.1) (rowRead M f (k0_off699 k) (k0_off699_inb k)),
    addf (acc.2.2.2.2.2.2.2.2.2.2.2.2.2.2.2.2.2.2.2.2.1) (rowRead M f (k0_off700 k) (k0_off700_inb k)),
    addf (acc.2.2.2.2.2.2.2.2.2.2.2.2.2.2.2.2.2.2.2.2.2.1) (rowRead M f (k0_off701 k) (k0_off701_inb k)),
    addf (acc.2.2.2.2.2.2.2.2.2.2.2.2.2.2.2.2.2.2.2.2.2.2.1) (rowRead M f (k0_off702 k) (k0_off702_inb k)),
    addf (acc.2.2.2.2.2.2.2.2.2.2.2.2.2.2.2.2.2.2.2.2.2.2.2.1) (rowRead M f (k0_off703 k) (k0_off703_inb k)),
    addf (acc.2.2.2.2.2.2.2.2.2.2.2.2.2.2.2.2.2.2.2.2.2.2.2.2.1) (rowRead M f (k0_off704 k) (k0_off704_inb k)),
    addf (acc.2.2.2.2.2.2.2.2.2.2.2.2.2.2.2.2.2.2.2.2.2.2.2.2.2.1) (rowRead M f (k0_off705 k) (k0_off705_inb k)),
    addf (acc.2.2.2.2.2.2.2.2.2.2.2.2.2.2.2.2.2.2.2.2.2.2.2.2.2.2.1) (rowRead M f (k0_off706 k) (k0_off706_inb k)),
    addf (acc.2.2.2.2.2.2.2.2.2.2.2.2.2.2.2.2.2.2.2.2.2.2.2.2.2.2.2.1) (rowRead M f (k0_off707 k) (k0_off707_inb k)),
    addf (acc.2.2.2.2.2.2.2.2.2.2.2.2.2.2.2.2.2.2.2.2.2.2.2.2.2.2.2.2.1) (rowRead M f (k0_off708 k) (k0_off708_inb k)),
    addf (acc.2.2.2.2.2.2.2.2.2.2.2.2.2.2.2.2.2.2.2.2.2.2.2.2.2.2.2.2.2.1) (rowRead M f (k0_off709 k) (k0_off709_inb k)),
    addf (acc.2.2.2.2.2.2.2.2.2.2.2.2.2.2.2.2.2.2.2.2.2.2.2.2.2.2.2.2.2.2.1) (rowRead M f (k0_off710 k) (k0_off710_inb k)),
    addf (acc.2.2.2.2.2.2.2.2.2.2.2.2.2.2.2.2.2.2.2.2.2.2.2.2.2.2.2.2.2.2.2) (rowRead M f (k0_off711 k) (k0_off711_inb k)))

/-- The accumulators before trip k of loop 22, from those it starts with. -/
def rowsFold_t22 (M : Memref sig .scVector .vmem S64x512 .f32) (f : M.view.ty.Contents (Elt F)) : Nat → Acc F → Acc F
  | 0, init => init
  | k + 1, init => if h : k < k0_t22_loop.trips then addRow_t22 M f ⟨k, h⟩ (rowsFold_t22 M f k init) else rowsFold_t22 M f k init

set_option warn.classDefReducibility false in
/-- Loop 22 keeps the buffer it reads and carries the rows added so far. -/
@[sl_loop] def loopVal_t22 (d : Dev nD) (L : grid0.Coords) (v12 : BitVec 32) (v29 : BitVec 32) (v720_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t22_loop.lb k0_t22_loop.ub k0_t22_loop.st k0_t22_ok init
      (k0_t22_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v12 v29 v720_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t22 (Memref.whole cc0_scratch1) w k init⌝)
  step k acc := by
    iintro ⟨H, %hacc⟩
    sl_exec
    sl_step
    isplitl [H]; · iexact H
    ipureintro
    show _ = rowsFold_t22 (Memref.whole cc0_scratch1) w (k.val + 1) init
    rw [rowsFold_t22, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t22 (Memref.whole cc0_scratch1) w ⟨k.val, k.isLt⟩ acc
        = addRow_t22 (Memref.whole cc0_scratch1) (View.write (Elt F) (Memref.whole cc0_scratch1 : Memref sig .scVector .vmem S64x512 .f32).view prev w Finset.univ) ⟨k.val, k.isLt⟩ acc from by rw [e]]
    rfl

/-- One trip of loop 23: row k of the buffer added to the 32 accumulators, 16 lanes each. -/
def addRow_t23 (M : Memref sig .scVector .vmem S64x512 .f32) (f : M.view.ty.Contents (Elt F)) (k : Fin k0_t23_loop.trips) (acc : Acc F) : Acc F :=
  (addf (acc.1) (rowRead M f (k0_off712 k) (k0_off712_inb k)),
    addf (acc.2.1) (rowRead M f (k0_off713 k) (k0_off713_inb k)),
    addf (acc.2.2.1) (rowRead M f (k0_off714 k) (k0_off714_inb k)),
    addf (acc.2.2.2.1) (rowRead M f (k0_off715 k) (k0_off715_inb k)),
    addf (acc.2.2.2.2.1) (rowRead M f (k0_off716 k) (k0_off716_inb k)),
    addf (acc.2.2.2.2.2.1) (rowRead M f (k0_off717 k) (k0_off717_inb k)),
    addf (acc.2.2.2.2.2.2.1) (rowRead M f (k0_off718 k) (k0_off718_inb k)),
    addf (acc.2.2.2.2.2.2.2.1) (rowRead M f (k0_off719 k) (k0_off719_inb k)),
    addf (acc.2.2.2.2.2.2.2.2.1) (rowRead M f (k0_off720 k) (k0_off720_inb k)),
    addf (acc.2.2.2.2.2.2.2.2.2.1) (rowRead M f (k0_off721 k) (k0_off721_inb k)),
    addf (acc.2.2.2.2.2.2.2.2.2.2.1) (rowRead M f (k0_off722 k) (k0_off722_inb k)),
    addf (acc.2.2.2.2.2.2.2.2.2.2.2.1) (rowRead M f (k0_off723 k) (k0_off723_inb k)),
    addf (acc.2.2.2.2.2.2.2.2.2.2.2.2.1) (rowRead M f (k0_off724 k) (k0_off724_inb k)),
    addf (acc.2.2.2.2.2.2.2.2.2.2.2.2.2.1) (rowRead M f (k0_off725 k) (k0_off725_inb k)),
    addf (acc.2.2.2.2.2.2.2.2.2.2.2.2.2.2.1) (rowRead M f (k0_off726 k) (k0_off726_inb k)),
    addf (acc.2.2.2.2.2.2.2.2.2.2.2.2.2.2.2.1) (rowRead M f (k0_off727 k) (k0_off727_inb k)),
    addf (acc.2.2.2.2.2.2.2.2.2.2.2.2.2.2.2.2.1) (rowRead M f (k0_off728 k) (k0_off728_inb k)),
    addf (acc.2.2.2.2.2.2.2.2.2.2.2.2.2.2.2.2.2.1) (rowRead M f (k0_off729 k) (k0_off729_inb k)),
    addf (acc.2.2.2.2.2.2.2.2.2.2.2.2.2.2.2.2.2.2.1) (rowRead M f (k0_off730 k) (k0_off730_inb k)),
    addf (acc.2.2.2.2.2.2.2.2.2.2.2.2.2.2.2.2.2.2.2.1) (rowRead M f (k0_off731 k) (k0_off731_inb k)),
    addf (acc.2.2.2.2.2.2.2.2.2.2.2.2.2.2.2.2.2.2.2.2.1) (rowRead M f (k0_off732 k) (k0_off732_inb k)),
    addf (acc.2.2.2.2.2.2.2.2.2.2.2.2.2.2.2.2.2.2.2.2.2.1) (rowRead M f (k0_off733 k) (k0_off733_inb k)),
    addf (acc.2.2.2.2.2.2.2.2.2.2.2.2.2.2.2.2.2.2.2.2.2.2.1) (rowRead M f (k0_off734 k) (k0_off734_inb k)),
    addf (acc.2.2.2.2.2.2.2.2.2.2.2.2.2.2.2.2.2.2.2.2.2.2.2.1) (rowRead M f (k0_off735 k) (k0_off735_inb k)),
    addf (acc.2.2.2.2.2.2.2.2.2.2.2.2.2.2.2.2.2.2.2.2.2.2.2.2.1) (rowRead M f (k0_off736 k) (k0_off736_inb k)),
    addf (acc.2.2.2.2.2.2.2.2.2.2.2.2.2.2.2.2.2.2.2.2.2.2.2.2.2.1) (rowRead M f (k0_off737 k) (k0_off737_inb k)),
    addf (acc.2.2.2.2.2.2.2.2.2.2.2.2.2.2.2.2.2.2.2.2.2.2.2.2.2.2.1) (rowRead M f (k0_off738 k) (k0_off738_inb k)),
    addf (acc.2.2.2.2.2.2.2.2.2.2.2.2.2.2.2.2.2.2.2.2.2.2.2.2.2.2.2.1) (rowRead M f (k0_off739 k) (k0_off739_inb k)),
    addf (acc.2.2.2.2.2.2.2.2.2.2.2.2.2.2.2.2.2.2.2.2.2.2.2.2.2.2.2.2.1) (rowRead M f (k0_off740 k) (k0_off740_inb k)),
    addf (acc.2.2.2.2.2.2.2.2.2.2.2.2.2.2.2.2.2.2.2.2.2.2.2.2.2.2.2.2.2.1) (rowRead M f (k0_off741 k) (k0_off741_inb k)),
    addf (acc.2.2.2.2.2.2.2.2.2.2.2.2.2.2.2.2.2.2.2.2.2.2.2.2.2.2.2.2.2.2.1) (rowRead M f (k0_off742 k) (k0_off742_inb k)),
    addf (acc.2.2.2.2.2.2.2.2.2.2.2.2.2.2.2.2.2.2.2.2.2.2.2.2.2.2.2.2.2.2.2) (rowRead M f (k0_off743 k) (k0_off743_inb k)))

/-- The accumulators before trip k of loop 23, from those it starts with. -/
def rowsFold_t23 (M : Memref sig .scVector .vmem S64x512 .f32) (f : M.view.ty.Contents (Elt F)) : Nat → Acc F → Acc F
  | 0, init => init
  | k + 1, init => if h : k < k0_t23_loop.trips then addRow_t23 M f ⟨k, h⟩ (rowsFold_t23 M f k init) else rowsFold_t23 M f k init

set_option warn.classDefReducibility false in
/-- Loop 23 keeps the buffer it reads and carries the rows added so far. -/
@[sl_loop] def loopVal_t23 (d : Dev nD) (L : grid0.Coords) (v29 : BitVec 32) (v849_0 : FVec F S16 .f32) (v849_1 : FVec F S16 .f32) (v849_2 : FVec F S16 .f32) (v849_3 : FVec F S16 .f32) (v849_4 : FVec F S16 .f32) (v849_5 : FVec F S16 .f32) (v849_6 : FVec F S16 .f32) (v849_7 : FVec F S16 .f32) (v849_8 : FVec F S16 .f32) (v849_9 : FVec F S16 .f32) (v849_10 : FVec F S16 .f32) (v849_11 : FVec F S16 .f32) (v849_12 : FVec F S16 .f32) (v849_13 : FVec F S16 .f32) (v849_14 : FVec F S16 .f32) (v849_15 : FVec F S16 .f32) (v849_16 : FVec F S16 .f32) (v849_17 : FVec F S16 .f32) (v849_18 : FVec F S16 .f32) (v849_19 : FVec F S16 .f32) (v849_20 : FVec F S16 .f32) (v849_21 : FVec F S16 .f32) (v849_22 : FVec F S16 .f32) (v849_23 : FVec F S16 .f32) (v849_24 : FVec F S16 .f32) (v849_25 : FVec F S16 .f32) (v849_26 : FVec F S16 .f32) (v849_27 : FVec F S16 .f32) (v849_28 : FVec F S16 .f32) (v849_29 : FVec F S16 .f32) (v849_30 : FVec F S16 .f32) (v849_31 : FVec F S16 .f32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t23_loop.lb k0_t23_loop.ub k0_t23_loop.st k0_t23_ok init
      (k0_t23_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v849_0 v849_1 v849_2 v849_3 v849_4 v849_5 v849_6 v849_7 v849_8 v849_9 v849_10 v849_11 v849_12 v849_13 v849_14 v849_15 v849_16 v849_17 v849_18 v849_19 v849_20 v849_21 v849_22 v849_23 v849_24 v849_25 v849_26 v849_27 v849_28 v849_29 v849_30 v849_31) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t23 (Memref.whole cc0_scratch0) w k init⌝)
  step k acc := by
    iintro ⟨H, %hacc⟩
    sl_exec
    sl_step
    isplitl [H]; · iexact H
    ipureintro
    show _ = rowsFold_t23 (Memref.whole cc0_scratch0) w (k.val + 1) init
    rw [rowsFold_t23, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t23 (Memref.whole cc0_scratch0) w ⟨k.val, k.isLt⟩ acc
        = addRow_t23 (Memref.whole cc0_scratch0) (View.write (Elt F) (Memref.whole cc0_scratch0 : Memref sig .scVector .vmem S64x512 .f32).view prev w Finset.univ) ⟨k.val, k.isLt⟩ acc from by rw [e]]
    rfl

/-- One trip of loop 24: row k of the buffer added to the 32 accumulators, 16 lanes each. -/
def addRow_t24 (M : Memref sig .scVector .vmem S64x512 .f32) (f : M.view.ty.Contents (Elt F)) (k : Fin k0_t24_loop.trips) (acc : Acc F) : Acc F :=
  (addf (acc.1) (rowRead M f (k0_off745 k) (k0_off745_inb k)),
    addf (acc.2.1) (rowRead M f (k0_off746 k) (k0_off746_inb k)),
    addf (acc.2.2.1) (rowRead M f (k0_off747 k) (k0_off747_inb k)),
    addf (acc.2.2.2.1) (rowRead M f (k0_off748 k) (k0_off748_inb k)),
    addf (acc.2.2.2.2.1) (rowRead M f (k0_off749 k) (k0_off749_inb k)),
    addf (acc.2.2.2.2.2.1) (rowRead M f (k0_off750 k) (k0_off750_inb k)),
    addf (acc.2.2.2.2.2.2.1) (rowRead M f (k0_off751 k) (k0_off751_inb k)),
    addf (acc.2.2.2.2.2.2.2.1) (rowRead M f (k0_off752 k) (k0_off752_inb k)),
    addf (acc.2.2.2.2.2.2.2.2.1) (rowRead M f (k0_off753 k) (k0_off753_inb k)),
    addf (acc.2.2.2.2.2.2.2.2.2.1) (rowRead M f (k0_off754 k) (k0_off754_inb k)),
    addf (acc.2.2.2.2.2.2.2.2.2.2.1) (rowRead M f (k0_off755 k) (k0_off755_inb k)),
    addf (acc.2.2.2.2.2.2.2.2.2.2.2.1) (rowRead M f (k0_off756 k) (k0_off756_inb k)),
    addf (acc.2.2.2.2.2.2.2.2.2.2.2.2.1) (rowRead M f (k0_off757 k) (k0_off757_inb k)),
    addf (acc.2.2.2.2.2.2.2.2.2.2.2.2.2.1) (rowRead M f (k0_off758 k) (k0_off758_inb k)),
    addf (acc.2.2.2.2.2.2.2.2.2.2.2.2.2.2.1) (rowRead M f (k0_off759 k) (k0_off759_inb k)),
    addf (acc.2.2.2.2.2.2.2.2.2.2.2.2.2.2.2.1) (rowRead M f (k0_off760 k) (k0_off760_inb k)),
    addf (acc.2.2.2.2.2.2.2.2.2.2.2.2.2.2.2.2.1) (rowRead M f (k0_off761 k) (k0_off761_inb k)),
    addf (acc.2.2.2.2.2.2.2.2.2.2.2.2.2.2.2.2.2.1) (rowRead M f (k0_off762 k) (k0_off762_inb k)),
    addf (acc.2.2.2.2.2.2.2.2.2.2.2.2.2.2.2.2.2.2.1) (rowRead M f (k0_off763 k) (k0_off763_inb k)),
    addf (acc.2.2.2.2.2.2.2.2.2.2.2.2.2.2.2.2.2.2.2.1) (rowRead M f (k0_off764 k) (k0_off764_inb k)),
    addf (acc.2.2.2.2.2.2.2.2.2.2.2.2.2.2.2.2.2.2.2.2.1) (rowRead M f (k0_off765 k) (k0_off765_inb k)),
    addf (acc.2.2.2.2.2.2.2.2.2.2.2.2.2.2.2.2.2.2.2.2.2.1) (rowRead M f (k0_off766 k) (k0_off766_inb k)),
    addf (acc.2.2.2.2.2.2.2.2.2.2.2.2.2.2.2.2.2.2.2.2.2.2.1) (rowRead M f (k0_off767 k) (k0_off767_inb k)),
    addf (acc.2.2.2.2.2.2.2.2.2.2.2.2.2.2.2.2.2.2.2.2.2.2.2.1) (rowRead M f (k0_off768 k) (k0_off768_inb k)),
    addf (acc.2.2.2.2.2.2.2.2.2.2.2.2.2.2.2.2.2.2.2.2.2.2.2.2.1) (rowRead M f (k0_off769 k) (k0_off769_inb k)),
    addf (acc.2.2.2.2.2.2.2.2.2.2.2.2.2.2.2.2.2.2.2.2.2.2.2.2.2.1) (rowRead M f (k0_off770 k) (k0_off770_inb k)),
    addf (acc.2.2.2.2.2.2.2.2.2.2.2.2.2.2.2.2.2.2.2.2.2.2.2.2.2.2.1) (rowRead M f (k0_off771 k) (k0_off771_inb k)),
    addf (acc.2.2.2.2.2.2.2.2.2.2.2.2.2.2.2.2.2.2.2.2.2.2.2.2.2.2.2.1) (rowRead M f (k0_off772 k) (k0_off772_inb k)),
    addf (acc.2.2.2.2.2.2.2.2.2.2.2.2.2.2.2.2.2.2.2.2.2.2.2.2.2.2.2.2.1) (rowRead M f (k0_off773 k) (k0_off773_inb k)),
    addf (acc.2.2.2.2.2.2.2.2.2.2.2.2.2.2.2.2.2.2.2.2.2.2.2.2.2.2.2.2.2.1) (rowRead M f (k0_off774 k) (k0_off774_inb k)),
    addf (acc.2.2.2.2.2.2.2.2.2.2.2.2.2.2.2.2.2.2.2.2.2.2.2.2.2.2.2.2.2.2.1) (rowRead M f (k0_off775 k) (k0_off775_inb k)),
    addf (acc.2.2.2.2.2.2.2.2.2.2.2.2.2.2.2.2.2.2.2.2.2.2.2.2.2.2.2.2.2.2.2) (rowRead M f (k0_off776 k) (k0_off776_inb k)))

/-- The accumulators before trip k of loop 24, from those it starts with. -/
def rowsFold_t24 (M : Memref sig .scVector .vmem S64x512 .f32) (f : M.view.ty.Contents (Elt F)) : Nat → Acc F → Acc F
  | 0, init => init
  | k + 1, init => if h : k < k0_t24_loop.trips then addRow_t24 M f ⟨k, h⟩ (rowsFold_t24 M f k init) else rowsFold_t24 M f k init

set_option warn.classDefReducibility false in
/-- Loop 24 keeps the buffer it reads and carries the rows added so far. -/
@[sl_loop] def loopVal_t24 (d : Dev nD) (L : grid0.Coords) (v29 : BitVec 32) (v849_0 : FVec F S16 .f32) (v849_1 : FVec F S16 .f32) (v849_2 : FVec F S16 .f32) (v849_3 : FVec F S16 .f32) (v849_4 : FVec F S16 .f32) (v849_5 : FVec F S16 .f32) (v849_6 : FVec F S16 .f32) (v849_7 : FVec F S16 .f32) (v849_8 : FVec F S16 .f32) (v849_9 : FVec F S16 .f32) (v849_10 : FVec F S16 .f32) (v849_11 : FVec F S16 .f32) (v849_12 : FVec F S16 .f32) (v849_13 : FVec F S16 .f32) (v849_14 : FVec F S16 .f32) (v849_15 : FVec F S16 .f32) (v849_16 : FVec F S16 .f32) (v849_17 : FVec F S16 .f32) (v849_18 : FVec F S16 .f32) (v849_19 : FVec F S16 .f32) (v849_20 : FVec F S16 .f32) (v849_21 : FVec F S16 .f32) (v849_22 : FVec F S16 .f32) (v849_23 : FVec F S16 .f32) (v849_24 : FVec F S16 .f32) (v849_25 : FVec F S16 .f32) (v849_26 : FVec F S16 .f32) (v849_27 : FVec F S16 .f32) (v849_28 : FVec F S16 .f32) (v849_29 : FVec F S16 .f32) (v849_30 : FVec F S16 .f32) (v849_31 : FVec F S16 .f32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t24_loop.lb k0_t24_loop.ub k0_t24_loop.st k0_t24_ok init
      (k0_t24_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v849_0 v849_1 v849_2 v849_3 v849_4 v849_5 v849_6 v849_7 v849_8 v849_9 v849_10 v849_11 v849_12 v849_13 v849_14 v849_15 v849_16 v849_17 v849_18 v849_19 v849_20 v849_21 v849_22 v849_23 v849_24 v849_25 v849_26 v849_27 v849_28 v849_29 v849_30 v849_31) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t24 (Memref.whole cc0_scratch1) w k init⌝)
  step k acc := by
    iintro ⟨H, %hacc⟩
    sl_exec
    sl_step
    isplitl [H]; · iexact H
    ipureintro
    show _ = rowsFold_t24 (Memref.whole cc0_scratch1) w (k.val + 1) init
    rw [rowsFold_t24, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t24 (Memref.whole cc0_scratch1) w ⟨k.val, k.isLt⟩ acc
        = addRow_t24 (Memref.whole cc0_scratch1) (View.write (Elt F) (Memref.whole cc0_scratch1 : Memref sig .scVector .vmem S64x512 .f32).view prev w Finset.univ) ⟨k.val, k.isLt⟩ acc from by rw [e]]
    rfl

/-- One trip of loop 25: row k of the buffer added to the 32 accumulators, 16 lanes each. -/
def addRow_t25 (M : Memref sig .scVector .vmem S64x512 .f32) (f : M.view.ty.Contents (Elt F)) (k : Fin k0_t25_loop.trips) (acc : Acc F) : Acc F :=
  (addf (acc.1) (rowRead M f (k0_off777 k) (k0_off777_inb k)),
    addf (acc.2.1) (rowRead M f (k0_off778 k) (k0_off778_inb k)),
    addf (acc.2.2.1) (rowRead M f (k0_off779 k) (k0_off779_inb k)),
    addf (acc.2.2.2.1) (rowRead M f (k0_off780 k) (k0_off780_inb k)),
    addf (acc.2.2.2.2.1) (rowRead M f (k0_off781 k) (k0_off781_inb k)),
    addf (acc.2.2.2.2.2.1) (rowRead M f (k0_off782 k) (k0_off782_inb k)),
    addf (acc.2.2.2.2.2.2.1) (rowRead M f (k0_off783 k) (k0_off783_inb k)),
    addf (acc.2.2.2.2.2.2.2.1) (rowRead M f (k0_off784 k) (k0_off784_inb k)),
    addf (acc.2.2.2.2.2.2.2.2.1) (rowRead M f (k0_off785 k) (k0_off785_inb k)),
    addf (acc.2.2.2.2.2.2.2.2.2.1) (rowRead M f (k0_off786 k) (k0_off786_inb k)),
    addf (acc.2.2.2.2.2.2.2.2.2.2.1) (rowRead M f (k0_off787 k) (k0_off787_inb k)),
    addf (acc.2.2.2.2.2.2.2.2.2.2.2.1) (rowRead M f (k0_off788 k) (k0_off788_inb k)),
    addf (acc.2.2.2.2.2.2.2.2.2.2.2.2.1) (rowRead M f (k0_off789 k) (k0_off789_inb k)),
    addf (acc.2.2.2.2.2.2.2.2.2.2.2.2.2.1) (rowRead M f (k0_off790 k) (k0_off790_inb k)),
    addf (acc.2.2.2.2.2.2.2.2.2.2.2.2.2.2.1) (rowRead M f (k0_off791 k) (k0_off791_inb k)),
    addf (acc.2.2.2.2.2.2.2.2.2.2.2.2.2.2.2.1) (rowRead M f (k0_off792 k) (k0_off792_inb k)),
    addf (acc.2.2.2.2.2.2.2.2.2.2.2.2.2.2.2.2.1) (rowRead M f (k0_off793 k) (k0_off793_inb k)),
    addf (acc.2.2.2.2.2.2.2.2.2.2.2.2.2.2.2.2.2.1) (rowRead M f (k0_off794 k) (k0_off794_inb k)),
    addf (acc.2.2.2.2.2.2.2.2.2.2.2.2.2.2.2.2.2.2.1) (rowRead M f (k0_off795 k) (k0_off795_inb k)),
    addf (acc.2.2.2.2.2.2.2.2.2.2.2.2.2.2.2.2.2.2.2.1) (rowRead M f (k0_off796 k) (k0_off796_inb k)),
    addf (acc.2.2.2.2.2.2.2.2.2.2.2.2.2.2.2.2.2.2.2.2.1) (rowRead M f (k0_off797 k) (k0_off797_inb k)),
    addf (acc.2.2.2.2.2.2.2.2.2.2.2.2.2.2.2.2.2.2.2.2.2.1) (rowRead M f (k0_off798 k) (k0_off798_inb k)),
    addf (acc.2.2.2.2.2.2.2.2.2.2.2.2.2.2.2.2.2.2.2.2.2.2.1) (rowRead M f (k0_off799 k) (k0_off799_inb k)),
    addf (acc.2.2.2.2.2.2.2.2.2.2.2.2.2.2.2.2.2.2.2.2.2.2.2.1) (rowRead M f (k0_off800 k) (k0_off800_inb k)),
    addf (acc.2.2.2.2.2.2.2.2.2.2.2.2.2.2.2.2.2.2.2.2.2.2.2.2.1) (rowRead M f (k0_off801 k) (k0_off801_inb k)),
    addf (acc.2.2.2.2.2.2.2.2.2.2.2.2.2.2.2.2.2.2.2.2.2.2.2.2.2.1) (rowRead M f (k0_off802 k) (k0_off802_inb k)),
    addf (acc.2.2.2.2.2.2.2.2.2.2.2.2.2.2.2.2.2.2.2.2.2.2.2.2.2.2.1) (rowRead M f (k0_off803 k) (k0_off803_inb k)),
    addf (acc.2.2.2.2.2.2.2.2.2.2.2.2.2.2.2.2.2.2.2.2.2.2.2.2.2.2.2.1) (rowRead M f (k0_off804 k) (k0_off804_inb k)),
    addf (acc.2.2.2.2.2.2.2.2.2.2.2.2.2.2.2.2.2.2.2.2.2.2.2.2.2.2.2.2.1) (rowRead M f (k0_off805 k) (k0_off805_inb k)),
    addf (acc.2.2.2.2.2.2.2.2.2.2.2.2.2.2.2.2.2.2.2.2.2.2.2.2.2.2.2.2.2.1) (rowRead M f (k0_off806 k) (k0_off806_inb k)),
    addf (acc.2.2.2.2.2.2.2.2.2.2.2.2.2.2.2.2.2.2.2.2.2.2.2.2.2.2.2.2.2.2.1) (rowRead M f (k0_off807 k) (k0_off807_inb k)),
    addf (acc.2.2.2.2.2.2.2.2.2.2.2.2.2.2.2.2.2.2.2.2.2.2.2.2.2.2.2.2.2.2.2) (rowRead M f (k0_off808 k) (k0_off808_inb k)))

/-- The accumulators before trip k of loop 25, from those it starts with. -/
def rowsFold_t25 (M : Memref sig .scVector .vmem S64x512 .f32) (f : M.view.ty.Contents (Elt F)) : Nat → Acc F → Acc F
  | 0, init => init
  | k + 1, init => if h : k < k0_t25_loop.trips then addRow_t25 M f ⟨k, h⟩ (rowsFold_t25 M f k init) else rowsFold_t25 M f k init

set_option warn.classDefReducibility false in
/-- Loop 25 keeps the buffer it reads and carries the rows added so far. -/
@[sl_loop] def loopVal_t25 (d : Dev nD) (L : grid0.Coords) (v29 : BitVec 32) (v984 : FVec F S16 .f32) (v985 : BitVec 32) (c0_i32_418 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t25_loop.lb k0_t25_loop.ub k0_t25_loop.st k0_t25_ok init
      (k0_t25_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v984 v985 c0_i32_418) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t25 (Memref.whole cc0_scratch0) w k init⌝)
  step k acc := by
    iintro ⟨H, %hacc⟩
    sl_exec
    sl_step
    isplitl [H]; · iexact H
    ipureintro
    show _ = rowsFold_t25 (Memref.whole cc0_scratch0) w (k.val + 1) init
    rw [rowsFold_t25, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t25 (Memref.whole cc0_scratch0) w ⟨k.val, k.isLt⟩ acc
        = addRow_t25 (Memref.whole cc0_scratch0) (View.write (Elt F) (Memref.whole cc0_scratch0 : Memref sig .scVector .vmem S64x512 .f32).view prev w Finset.univ) ⟨k.val, k.isLt⟩ acc from by rw [e]]
    rfl

/-- One trip of loop 26: row k of the buffer added to the 32 accumulators, 16 lanes each. -/
def addRow_t26 (M : Memref sig .scVector .vmem S64x512 .f32) (f : M.view.ty.Contents (Elt F)) (k : Fin k0_t26_loop.trips) (acc : Acc F) : Acc F :=
  (addf (acc.1) (rowRead M f (k0_off809 k) (k0_off809_inb k)),
    addf (acc.2.1) (rowRead M f (k0_off810 k) (k0_off810_inb k)),
    addf (acc.2.2.1) (rowRead M f (k0_off811 k) (k0_off811_inb k)),
    addf (acc.2.2.2.1) (rowRead M f (k0_off812 k) (k0_off812_inb k)),
    addf (acc.2.2.2.2.1) (rowRead M f (k0_off813 k) (k0_off813_inb k)),
    addf (acc.2.2.2.2.2.1) (rowRead M f (k0_off814 k) (k0_off814_inb k)),
    addf (acc.2.2.2.2.2.2.1) (rowRead M f (k0_off815 k) (k0_off815_inb k)),
    addf (acc.2.2.2.2.2.2.2.1) (rowRead M f (k0_off816 k) (k0_off816_inb k)),
    addf (acc.2.2.2.2.2.2.2.2.1) (rowRead M f (k0_off817 k) (k0_off817_inb k)),
    addf (acc.2.2.2.2.2.2.2.2.2.1) (rowRead M f (k0_off818 k) (k0_off818_inb k)),
    addf (acc.2.2.2.2.2.2.2.2.2.2.1) (rowRead M f (k0_off819 k) (k0_off819_inb k)),
    addf (acc.2.2.2.2.2.2.2.2.2.2.2.1) (rowRead M f (k0_off820 k) (k0_off820_inb k)),
    addf (acc.2.2.2.2.2.2.2.2.2.2.2.2.1) (rowRead M f (k0_off821 k) (k0_off821_inb k)),
    addf (acc.2.2.2.2.2.2.2.2.2.2.2.2.2.1) (rowRead M f (k0_off822 k) (k0_off822_inb k)),
    addf (acc.2.2.2.2.2.2.2.2.2.2.2.2.2.2.1) (rowRead M f (k0_off823 k) (k0_off823_inb k)),
    addf (acc.2.2.2.2.2.2.2.2.2.2.2.2.2.2.2.1) (rowRead M f (k0_off824 k) (k0_off824_inb k)),
    addf (acc.2.2.2.2.2.2.2.2.2.2.2.2.2.2.2.2.1) (rowRead M f (k0_off825 k) (k0_off825_inb k)),
    addf (acc.2.2.2.2.2.2.2.2.2.2.2.2.2.2.2.2.2.1) (rowRead M f (k0_off826 k) (k0_off826_inb k)),
    addf (acc.2.2.2.2.2.2.2.2.2.2.2.2.2.2.2.2.2.2.1) (rowRead M f (k0_off827 k) (k0_off827_inb k)),
    addf (acc.2.2.2.2.2.2.2.2.2.2.2.2.2.2.2.2.2.2.2.1) (rowRead M f (k0_off828 k) (k0_off828_inb k)),
    addf (acc.2.2.2.2.2.2.2.2.2.2.2.2.2.2.2.2.2.2.2.2.1) (rowRead M f (k0_off829 k) (k0_off829_inb k)),
    addf (acc.2.2.2.2.2.2.2.2.2.2.2.2.2.2.2.2.2.2.2.2.2.1) (rowRead M f (k0_off830 k) (k0_off830_inb k)),
    addf (acc.2.2.2.2.2.2.2.2.2.2.2.2.2.2.2.2.2.2.2.2.2.2.1) (rowRead M f (k0_off831 k) (k0_off831_inb k)),
    addf (acc.2.2.2.2.2.2.2.2.2.2.2.2.2.2.2.2.2.2.2.2.2.2.2.1) (rowRead M f (k0_off832 k) (k0_off832_inb k)),
    addf (acc.2.2.2.2.2.2.2.2.2.2.2.2.2.2.2.2.2.2.2.2.2.2.2.2.1) (rowRead M f (k0_off833 k) (k0_off833_inb k)),
    addf (acc.2.2.2.2.2.2.2.2.2.2.2.2.2.2.2.2.2.2.2.2.2.2.2.2.2.1) (rowRead M f (k0_off834 k) (k0_off834_inb k)),
    addf (acc.2.2.2.2.2.2.2.2.2.2.2.2.2.2.2.2.2.2.2.2.2.2.2.2.2.2.1) (rowRead M f (k0_off835 k) (k0_off835_inb k)),
    addf (acc.2.2.2.2.2.2.2.2.2.2.2.2.2.2.2.2.2.2.2.2.2.2.2.2.2.2.2.1) (rowRead M f (k0_off836 k) (k0_off836_inb k)),
    addf (acc.2.2.2.2.2.2.2.2.2.2.2.2.2.2.2.2.2.2.2.2.2.2.2.2.2.2.2.2.1) (rowRead M f (k0_off837 k) (k0_off837_inb k)),
    addf (acc.2.2.2.2.2.2.2.2.2.2.2.2.2.2.2.2.2.2.2.2.2.2.2.2.2.2.2.2.2.1) (rowRead M f (k0_off838 k) (k0_off838_inb k)),
    addf (acc.2.2.2.2.2.2.2.2.2.2.2.2.2.2.2.2.2.2.2.2.2.2.2.2.2.2.2.2.2.2.1) (rowRead M f (k0_off839 k) (k0_off839_inb k)),
    addf (acc.2.2.2.2.2.2.2.2.2.2.2.2.2.2.2.2.2.2.2.2.2.2.2.2.2.2.2.2.2.2.2) (rowRead M f (k0_off840 k) (k0_off840_inb k)))

/-- The accumulators before trip k of loop 26, from those it starts with. -/
def rowsFold_t26 (M : Memref sig .scVector .vmem S64x512 .f32) (f : M.view.ty.Contents (Elt F)) : Nat → Acc F → Acc F
  | 0, init => init
  | k + 1, init => if h : k < k0_t26_loop.trips then addRow_t26 M f ⟨k, h⟩ (rowsFold_t26 M f k init) else rowsFold_t26 M f k init

set_option warn.classDefReducibility false in
/-- Loop 26 keeps the buffer it reads and carries the rows added so far. -/
@[sl_loop] def loopVal_t26 (d : Dev nD) (L : grid0.Coords) (v29 : BitVec 32) (v984 : FVec F S16 .f32) (v985 : BitVec 32) (c0_i32_418 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t26_loop.lb k0_t26_loop.ub k0_t26_loop.st k0_t26_ok init
      (k0_t26_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v984 v985 c0_i32_418) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t26 (Memref.whole cc0_scratch1) w k init⌝)
  step k acc := by
    iintro ⟨H, %hacc⟩
    sl_exec
    sl_step
    isplitl [H]; · iexact H
    ipureintro
    show _ = rowsFold_t26 (Memref.whole cc0_scratch1) w (k.val + 1) init
    rw [rowsFold_t26, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t26 (Memref.whole cc0_scratch1) w ⟨k.val, k.isLt⟩ acc
        = addRow_t26 (Memref.whole cc0_scratch1) (View.write (Elt F) (Memref.whole cc0_scratch1 : Memref sig .scVector .vmem S64x512 .f32).view prev w Finset.univ) ⟨k.val, k.isLt⟩ acc from by rw [e]]
    rfl

/-- One trip of loop 27: row k of the buffer added to the 32 accumulators, 16 lanes each. -/
def addRow_t27 (M : Memref sig .scVector .vmem S64x512 .f32) (f : M.view.ty.Contents (Elt F)) (k : Fin k0_t27_loop.trips) (acc : Acc F) : Acc F :=
  (addf (acc.1) (rowRead M f (k0_off841 k) (k0_off841_inb k)),
    addf (acc.2.1) (rowRead M f (k0_off842 k) (k0_off842_inb k)),
    addf (acc.2.2.1) (rowRead M f (k0_off843 k) (k0_off843_inb k)),
    addf (acc.2.2.2.1) (rowRead M f (k0_off844 k) (k0_off844_inb k)),
    addf (acc.2.2.2.2.1) (rowRead M f (k0_off845 k) (k0_off845_inb k)),
    addf (acc.2.2.2.2.2.1) (rowRead M f (k0_off846 k) (k0_off846_inb k)),
    addf (acc.2.2.2.2.2.2.1) (rowRead M f (k0_off847 k) (k0_off847_inb k)),
    addf (acc.2.2.2.2.2.2.2.1) (rowRead M f (k0_off848 k) (k0_off848_inb k)),
    addf (acc.2.2.2.2.2.2.2.2.1) (rowRead M f (k0_off849 k) (k0_off849_inb k)),
    addf (acc.2.2.2.2.2.2.2.2.2.1) (rowRead M f (k0_off850 k) (k0_off850_inb k)),
    addf (acc.2.2.2.2.2.2.2.2.2.2.1) (rowRead M f (k0_off851 k) (k0_off851_inb k)),
    addf (acc.2.2.2.2.2.2.2.2.2.2.2.1) (rowRead M f (k0_off852 k) (k0_off852_inb k)),
    addf (acc.2.2.2.2.2.2.2.2.2.2.2.2.1) (rowRead M f (k0_off853 k) (k0_off853_inb k)),
    addf (acc.2.2.2.2.2.2.2.2.2.2.2.2.2.1) (rowRead M f (k0_off854 k) (k0_off854_inb k)),
    addf (acc.2.2.2.2.2.2.2.2.2.2.2.2.2.2.1) (rowRead M f (k0_off855 k) (k0_off855_inb k)),
    addf (acc.2.2.2.2.2.2.2.2.2.2.2.2.2.2.2.1) (rowRead M f (k0_off856 k) (k0_off856_inb k)),
    addf (acc.2.2.2.2.2.2.2.2.2.2.2.2.2.2.2.2.1) (rowRead M f (k0_off857 k) (k0_off857_inb k)),
    addf (acc.2.2.2.2.2.2.2.2.2.2.2.2.2.2.2.2.2.1) (rowRead M f (k0_off858 k) (k0_off858_inb k)),
    addf (acc.2.2.2.2.2.2.2.2.2.2.2.2.2.2.2.2.2.2.1) (rowRead M f (k0_off859 k) (k0_off859_inb k)),
    addf (acc.2.2.2.2.2.2.2.2.2.2.2.2.2.2.2.2.2.2.2.1) (rowRead M f (k0_off860 k) (k0_off860_inb k)),
    addf (acc.2.2.2.2.2.2.2.2.2.2.2.2.2.2.2.2.2.2.2.2.1) (rowRead M f (k0_off861 k) (k0_off861_inb k)),
    addf (acc.2.2.2.2.2.2.2.2.2.2.2.2.2.2.2.2.2.2.2.2.2.1) (rowRead M f (k0_off862 k) (k0_off862_inb k)),
    addf (acc.2.2.2.2.2.2.2.2.2.2.2.2.2.2.2.2.2.2.2.2.2.2.1) (rowRead M f (k0_off863 k) (k0_off863_inb k)),
    addf (acc.2.2.2.2.2.2.2.2.2.2.2.2.2.2.2.2.2.2.2.2.2.2.2.1) (rowRead M f (k0_off864 k) (k0_off864_inb k)),
    addf (acc.2.2.2.2.2.2.2.2.2.2.2.2.2.2.2.2.2.2.2.2.2.2.2.2.1) (rowRead M f (k0_off865 k) (k0_off865_inb k)),
    addf (acc.2.2.2.2.2.2.2.2.2.2.2.2.2.2.2.2.2.2.2.2.2.2.2.2.2.1) (rowRead M f (k0_off866 k) (k0_off866_inb k)),
    addf (acc.2.2.2.2.2.2.2.2.2.2.2.2.2.2.2.2.2.2.2.2.2.2.2.2.2.2.1) (rowRead M f (k0_off867 k) (k0_off867_inb k)),
    addf (acc.2.2.2.2.2.2.2.2.2.2.2.2.2.2.2.2.2.2.2.2.2.2.2.2.2.2.2.1) (rowRead M f (k0_off868 k) (k0_off868_inb k)),
    addf (acc.2.2.2.2.2.2.2.2.2.2.2.2.2.2.2.2.2.2.2.2.2.2.2.2.2.2.2.2.1) (rowRead M f (k0_off869 k) (k0_off869_inb k)),
    addf (acc.2.2.2.2.2.2.2.2.2.2.2.2.2.2.2.2.2.2.2.2.2.2.2.2.2.2.2.2.2.1) (rowRead M f (k0_off870 k) (k0_off870_inb k)),
    addf (acc.2.2.2.2.2.2.2.2.2.2.2.2.2.2.2.2.2.2.2.2.2.2.2.2.2.2.2.2.2.2.1) (rowRead M f (k0_off871 k) (k0_off871_inb k)),
    addf (acc.2.2.2.2.2.2.2.2.2.2.2.2.2.2.2.2.2.2.2.2.2.2.2.2.2.2.2.2.2.2.2) (rowRead M f (k0_off872 k) (k0_off872_inb k)))

/-- The accumulators before trip k of loop 27, from those it starts with. -/
def rowsFold_t27 (M : Memref sig .scVector .vmem S64x512 .f32) (f : M.view.ty.Contents (Elt F)) : Nat → Acc F → Acc F
  | 0, init => init
  | k + 1, init => if h : k < k0_t27_loop.trips then addRow_t27 M f ⟨k, h⟩ (rowsFold_t27 M f k init) else rowsFold_t27 M f k init

set_option warn.classDefReducibility false in
/-- Loop 27 keeps the buffer it reads and carries the rows added so far. -/
@[sl_loop] def loopVal_t27 (d : Dev nD) (L : grid0.Coords) (v29 : BitVec 32) (v1006_0 : FVec F S16 .f32) (v1006_1 : FVec F S16 .f32) (v1006_2 : FVec F S16 .f32) (v1006_3 : FVec F S16 .f32) (v1006_4 : FVec F S16 .f32) (v1006_5 : FVec F S16 .f32) (v1006_6 : FVec F S16 .f32) (v1006_7 : FVec F S16 .f32) (v1006_8 : FVec F S16 .f32) (v1006_9 : FVec F S16 .f32) (v1006_10 : FVec F S16 .f32) (v1006_11 : FVec F S16 .f32) (v1006_12 : FVec F S16 .f32) (v1006_13 : FVec F S16 .f32) (v1006_14 : FVec F S16 .f32) (v1006_15 : FVec F S16 .f32) (v1006_16 : FVec F S16 .f32) (v1006_17 : FVec F S16 .f32) (v1006_18 : FVec F S16 .f32) (v1006_19 : FVec F S16 .f32) (v1006_20 : FVec F S16 .f32) (v1006_21 : FVec F S16 .f32) (v1006_22 : FVec F S16 .f32) (v1006_23 : FVec F S16 .f32) (v1006_24 : FVec F S16 .f32) (v1006_25 : FVec F S16 .f32) (v1006_26 : FVec F S16 .f32) (v1006_27 : FVec F S16 .f32) (v1006_28 : FVec F S16 .f32) (v1006_29 : FVec F S16 .f32) (v1006_30 : FVec F S16 .f32) (v1006_31 : FVec F S16 .f32) (c0_i32_440 : BitVec 32) (init : Acc F)
    (prev w : Buf (Elt F) ((Memref.whole cc0_scratch0 : Memref sig .scVector .vmem S64x512 .f32).view.loc (thr d L))) :
    LoopInv (M := 𝕄) frame (wpE (defs₀ (F := F)) 𝒱₀ (thr d L) none) Set.univ
      k0_t27_loop.lb k0_t27_loop.ub k0_t27_loop.st k0_t27_ok init
      (k0_t27_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v1006_0 v1006_1 v1006_2 v1006_3 v1006_4 v1006_5 v1006_6 v1006_7 v1006_8 v1006_9 v1006_10 v1006_11 v1006_12 v1006_13 v1006_14 v1006_15 v1006_16 v1006_17 v1006_18 v1006_19 v1006_20 v1006_21 v1006_22 v1006_23 v1006_24 v1006_25 v1006_26 v1006_27 v1006_28 v1006_29 v1006_30 v1006_31 c0_i32_440) where
  inv k acc := iprop(((Memref.whole cc0_scratch0 : Memref sig .scVector .vmem S64x512 .f32).view.loc (thr d L) ↦{fullShare}
      View.write (Elt F) (Memref.whole cc0_scratch0 : Memref sig .scVector .vmem S64x512 .f32).view prev w Finset.univ)
    ∗ ⌜acc = rowsFold_t27 (Memref.whole cc0_scratch0) w k init⌝)
  step k acc := by
    iintro ⟨H, %hacc⟩
    sl_exec
    sl_step
    isplitl [H]; · iexact H
    ipureintro
    show _ = rowsFold_t27 (Memref.whole cc0_scratch0) w (k.val + 1) init
    rw [rowsFold_t27, dif_pos k.isLt, ← hacc]
    -- the buffer holds exactly what the copy delivered
    have e : View.write (Elt F) (Memref.whole cc0_scratch0 : Memref sig .scVector .vmem S64x512 .f32).view prev w Finset.univ = w :=
      View.write_whole_univ _ _ _
    rw [show addRow_t27 (Memref.whole cc0_scratch0) w ⟨k.val, k.isLt⟩ acc
        = addRow_t27 (Memref.whole cc0_scratch0) (View.write (Elt F) (Memref.whole cc0_scratch0 : Memref sig .scVector .vmem S64x512 .f32).view prev w Finset.univ) ⟨k.val, k.isLt⟩ acc from by rw [e]]
    rfl

/-- One trip of loop 28: row k of the buffer added to the 32 accumulators, 16 lanes each. -/
def addRow_t28 (M : Memref sig .scVector .vmem S64x512 .f32) (f : M.view.ty.Contents (Elt F)) (k : Fin k0_t28_loop.trips) (acc : Acc F) : Acc F :=
  (addf (acc.1) (rowRead M f (k0_off873 k) (k0_off873_inb k)),
    addf (acc.2.1) (rowRead M f (k0_off874 k) (k0_off874_inb k)),
    addf (acc.2.2.1) (rowRead M f (k0_off875 k) (k0_off875_inb k)),
    addf (acc.2.2.2.1) (rowRead M f (k0_off876 k) (k0_off876_inb k)),
    addf (acc.2.2.2.2.1) (rowRead M f (k0_off877 k) (k0_off877_inb k)),
    addf (acc.2.2.2.2.2.1) (rowRead M f (k0_off878 k) (k0_off878_inb k)),
    addf (acc.2.2.2.2.2.2.1) (rowRead M f (k0_off879 k) (k0_off879_inb k)),
    addf (acc.2.2.2.2.2.2.2.1) (rowRead M f (k0_off880 k) (k0_off880_inb k)),
    addf (acc.2.2.2.2.2.2.2.2.1) (rowRead M f (k0_off881 k) (k0_off881_inb k)),
    addf (acc.2.2.2.2.2.2.2.2.2.1) (rowRead M f (k0_off882 k) (k0_off882_inb k)),
    addf (acc.2.2.2.2.2.2.2.2.2.2.1) (rowRead M f (k0_off883 k) (k0_off883_inb k)),
    addf (acc.2.2.2.2.2.2.2.2.2.2.2.1) (rowRead M f (k0_off884 k) (k0_off884_inb k)),
    addf (acc.2.2.2.2.2.2.2.2.2.2.2.2.1) (rowRead M f (k0_off885 k) (k0_off885_inb k)),
    addf (acc.2.2.2.2.2.2.2.2.2.2.2.2.2.1) (rowRead M f (k0_off886 k) (k0_off886_inb k)),
    addf (acc.2.2.2.2.2.2.2.2.2.2.2.2.2.2.1) (rowRead M f (k0_off887 k) (k0_off887_inb k)),
    addf (acc.2.2.2.2.2.2.2.2.2.2.2.2.2.2.2.1) (rowRead M f (k0_off888 k) (k0_off888_inb k)),
    addf (acc.2.2.2.2.2.2.2.2.2.2.2.2.2.2.2.2.1) (rowRead M f (k0_off889 k) (k0_off889_inb k)),
    addf (acc.2.2.2.2.2.2.2.2.2.2.2.2.2.2.2.2.2.1) (rowRead M f (k0_off890 k) (k0_off890_inb k)),
    addf (acc.2.2.2.2.2.2.2.2.2.2.2.2.2.2.2.2.2.2.1) (rowRead M f (k0_off891 k) (k0_off891_inb k)),
    addf (acc.2.2.2.2.2.2.2.2.2.2.2.2.2.2.2.2.2.2.2.1) (rowRead M f (k0_off892 k) (k0_off892_inb k)),
    addf (acc.2.2.2.2.2.2.2.2.2.2.2.2.2.2.2.2.2.2.2.2.1) (rowRead M f (k0_off893 k) (k0_off893_inb k)),
    addf (acc.2.2.2.2.2.2.2.2.2.2.2.2.2.2.2.2.2.2.2.2.2.1) (rowRead M f (k0_off894 k) (k0_off894_inb k)),
    addf (acc.2.2.2.2.2.2.2.2.2.2.2.2.2.2.2.2.2.2.2.2.2.2.1) (rowRead M f (k0_off895 k) (k0_off895_inb k)),
    addf (acc.2.2.2.2.2.2.2.2.2.2.2.2.2.2.2.2.2.2.2.2.2.2.2.1) (rowRead M f (k0_off896 k) (k0_off896_inb k)),
    addf (acc.2.2.2.2.2.2.2.2.2.2.2.2.2.2.2.2.2.2.2.2.2.2.2.2.1) (rowRead M f (k0_off897 k) (k0_off897_inb k)),
    addf (acc.2.2.2.2.2.2.2.2.2.2.2.2.2.2.2.2.2.2.2.2.2.2.2.2.2.1) (rowRead M f (k0_off898 k) (k0_off898_inb k)),
    addf (acc.2.2.2.2.2.2.2.2.2.2.2.2.2.2.2.2.2.2.2.2.2.2.2.2.2.2.1) (rowRead M f (k0_off899 k) (k0_off899_inb k)),
    addf (acc.2.2.2.2.2.2.2.2.2.2.2.2.2.2.2.2.2.2.2.2.2.2.2.2.2.2.2.1) (rowRead M f (k0_off900 k) (k0_off900_inb k)),
    addf (acc.2.2.2.2.2.2.2.2.2.2.2.2.2.2.2.2.2.2.2.2.2.2.2.2.2.2.2.2.1) (rowRead M f (k0_off901 k) (k0_off901_inb k)),
    addf (acc.2.2.2.2.2.2.2.2.2.2.2.2.2.2.2.2.2.2.2.2.2.2.2.2.2.2.2.2.2.1) (rowRead M f (k0_off902 k) (k0_off902_inb k)),
    addf (acc.2.2.2.2.2.2.2.2.2.2.2.2.2.2.2.2.2.2.2.2.2.2.2.2.2.2.2.2.2.2.1) (rowRead M f (k0_off903 k) (k0_off903_inb k)),
    addf (acc.2.2.2.2.2.2.2.2.2.2.2.2.2.2.2.2.2.2.2.2.2.2.2.2.2.2.2.2.2.2.2) (rowRead M f (k0_off904 k) (k0_off904_inb k)))

/-- The accumulators before trip k of loop 28, from those it starts with. -/
def rowsFold_t28 (M : Memref sig .scVector .vmem S64x512 .f32) (f : M.view.ty.Contents (Elt F)) : Nat → Acc F → Acc F
  | 0, init => init
  | k + 1, init => if h : k < k0_t28_loop.trips then addRow_t28 M f ⟨k, h⟩ (rowsFold_t28 M f k init) else rowsFold_t28 M f k init

set_option warn.classDefReducibility false in
/-- Loop 28 keeps the buffer it reads and carries the rows added so far. -/
@[sl_loop] def loopVal_t28 (d : Dev nD) (L : grid0.Coords) (v29 : BitVec 32) (v1006_0 : FVec F S16 .f32) (v1006_1 : FVec F S16 .f32) (v1006_2 : FVec F S16 .f32) (v1006_3 : FVec F S16 .f32) (v1006_4 : FVec F S16 .f32) (v1006_5 : FVec F S16 .f32) (v1006_6 : FVec F S16 .f32) (v1006_7 : FVec F S16 .f32) (v1006_8 : FVec F S16 .f32) (v1006_9 : FVec F S16 .f32) (v1006_10 : FVec F S16 .f32) (v1006_11 : FVec F S16 .f32) (v1006_12 : FVec F S16 .f32) (v1006_13 : FVec F S16 .f32) (v1006_14 : FVec F S16 .f32) (v1006_15 : FVec F S16 .f32) (v1006_16 : FVec F S16 .f32) (v1006_17 : FVec F S16 .f32) (v1006_18 : FVec F S16 .f32) (v1006_19 : FVec F S16 .f32) (v1006_20 : FVec F S16 .f32) (v1006_21 : FVec F S16 .f32) (v1006_22 : FVec F S16 .f32) (v1006_23 : FVec F S16 .f32) (v1006_24 : FVec F S16 .f32) (v1006_25 : FVec F S16 .f32) (v1006_26 : FVec F S16 .f32) (v1006_27 : FVec F S16 .f32) (v1006_28 : FVec F S16 .f32) (v1006_29 : FVec F S16 .f32) (v1006_30 : FVec F S16 .f32) (v1006_31 : FVec F S16 .f32) (c0_i32_440 : BitVec 32) (init : Acc F)
    (prev w : Buf (Elt F) ((Memref.whole cc0_scratch1 : Memref sig .scVector .vmem S64x512 .f32).view.loc (thr d L))) :
    LoopInv (M := 𝕄) frame (wpE (defs₀ (F := F)) 𝒱₀ (thr d L) none) Set.univ
      k0_t28_loop.lb k0_t28_loop.ub k0_t28_loop.st k0_t28_ok init
      (k0_t28_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6 v29 v1006_0 v1006_1 v1006_2 v1006_3 v1006_4 v1006_5 v1006_6 v1006_7 v1006_8 v1006_9 v1006_10 v1006_11 v1006_12 v1006_13 v1006_14 v1006_15 v1006_16 v1006_17 v1006_18 v1006_19 v1006_20 v1006_21 v1006_22 v1006_23 v1006_24 v1006_25 v1006_26 v1006_27 v1006_28 v1006_29 v1006_30 v1006_31 c0_i32_440) where
  inv k acc := iprop(((Memref.whole cc0_scratch1 : Memref sig .scVector .vmem S64x512 .f32).view.loc (thr d L) ↦{fullShare}
      View.write (Elt F) (Memref.whole cc0_scratch1 : Memref sig .scVector .vmem S64x512 .f32).view prev w Finset.univ)
    ∗ ⌜acc = rowsFold_t28 (Memref.whole cc0_scratch1) w k init⌝)
  step k acc := by
    iintro ⟨H, %hacc⟩
    sl_exec
    sl_step
    isplitl [H]; · iexact H
    ipureintro
    show _ = rowsFold_t28 (Memref.whole cc0_scratch1) w (k.val + 1) init
    rw [rowsFold_t28, dif_pos k.isLt, ← hacc]
    -- the buffer holds exactly what the copy delivered
    have e : View.write (Elt F) (Memref.whole cc0_scratch1 : Memref sig .scVector .vmem S64x512 .f32).view prev w Finset.univ = w :=
      View.write_whole_univ _ _ _
    rw [show addRow_t28 (Memref.whole cc0_scratch1) w ⟨k.val, k.isLt⟩ acc
        = addRow_t28 (Memref.whole cc0_scratch1) (View.write (Elt F) (Memref.whole cc0_scratch1 : Memref sig .scVector .vmem S64x512 .f32).view prev w Finset.univ) ⟨k.val, k.isLt⟩ acc from by rw [e]]
    rfl

omit [FloatOps F] in
/-- A wait on one of the thread's own semaphores (index none) keeps the record of waits within what the launch allows. -/
theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

/-- The 32 stores of 16 words into the staging scratch, last first, cover its 512 words: a certificate by halving. -/
def cov32 : LoadRect.Cov := .split 0 256 (.split 0 128 (.split 0 64 (.split 0 32 (.split 0 16 (.leaf 31) (.leaf 30)) (.split 0 16 (.leaf 29) (.leaf 28))) (.split 0 32 (.split 0 16 (.leaf 27) (.leaf 26)) (.split 0 16 (.leaf 25) (.leaf 24)))) (.split 0 64 (.split 0 32 (.split 0 16 (.leaf 23) (.leaf 22)) (.split 0 16 (.leaf 21) (.leaf 20))) (.split 0 32 (.split 0 16 (.leaf 19) (.leaf 18)) (.split 0 16 (.leaf 17) (.leaf 16))))) (.split 0 128 (.split 0 64 (.split 0 32 (.split 0 16 (.leaf 15) (.leaf 14)) (.split 0 16 (.leaf 13) (.leaf 12))) (.split 0 32 (.split 0 16 (.leaf 11) (.leaf 10)) (.split 0 16 (.leaf 9) (.leaf 8)))) (.split 0 64 (.split 0 32 (.split 0 16 (.leaf 7) (.leaf 6)) (.split 0 16 (.leaf 5) (.leaf 4))) (.split 0 32 (.split 0 16 (.leaf 3) (.leaf 2)) (.split 0 16 (.leaf 1) (.leaf 0)))))

/-- What a copy out of the staging scratch delivers, as a function of the device, the place and the scores. -/
abbrev ValTy (F : FTy → Type) : Type :=
  (d : Dev nD) → (L : grid0.Coords) → Buf (Elt F) ((Memref.whole main_v0_scv : Memref sig .scVector .hbm S16x2048x2048 .f32).view.loc (thr d L)) → S512.Idx → Elt F .f32

set_option maxRecDepth 65536 in
set_option maxHeartbeats 8000000 in
/-- THE TILE'S BODY with what it leaves: seven delivered vectors, functions of the device, the place and the scores only
    (read off the run), such that from a share of the scores, the seven pieces at any contents, the subcore's own buffers
    and semaphores and what it owes, the body ends with piece k overwritten by the k-th of them, everything else given
    back, and only its own semaphores waited on. -/
def tileRun : { v : ValTy F × ValTy F × ValTy F × ValTy F × ValTy F × ValTy F × ValTy F //
    ∀ (d : Dev nD) (L : grid0.Coords) (O : CellTallies nD τ sig (HIx 1)) (W : Waits sig (HIx 1)) (q : PosShare TreeShare)
      (A : Buf (Elt F) ((Memref.whole main_v0_scv : Memref sig .scVector .hbm S16x2048x2048 .f32).view.loc (thr d L))), (∀ g, O g none = 0) →
    iprop((levAts (K (F := F)).L (K (F := F)).lev : sProp 𝕄) ∗ ((Memref.whole main_v0_scv : Memref sig .scVector .hbm S16x2048x2048 .f32).view.loc (thr d L) ↦{q} A)
        ∗ ((∃ f, ((Memref.whole main_v1_scv : Memref sig .scVector .hbm S114688 .f32).slice (Rect.unit (s := S114688) (k0_off131 L 0#32) S512.size (k0_off131_inb L 0)) (fun _ => rfl)).view.loc (thr d L) ↦[((Memref.whole main_v1_scv : Memref sig .scVector .hbm S114688 .f32).slice (Rect.unit (s := S114688) (k0_off131 L 0#32) S512.size (k0_off131_inb L 0)) (fun _ => rfl)).view.set]{fullShare} f)
          ∗ (∃ f, ((Memref.whole main_v1_scv : Memref sig .scVector .hbm S114688 .f32).slice (Rect.unit (s := S114688) (k0_off131 L 8#32) S512.size (k0_off131_inb L 1)) (fun _ => rfl)).view.loc (thr d L) ↦[((Memref.whole main_v1_scv : Memref sig .scVector .hbm S114688 .f32).slice (Rect.unit (s := S114688) (k0_off131 L 8#32) S512.size (k0_off131_inb L 1)) (fun _ => rfl)).view.set]{fullShare} f)
          ∗ (∃ f, ((Memref.whole main_v1_scv : Memref sig .scVector .hbm S114688 .f32).slice (Rect.unit (s := S114688) (k0_off131 L 16#32) S512.size (k0_off131_inb L 2)) (fun _ => rfl)).view.loc (thr d L) ↦[((Memref.whole main_v1_scv : Memref sig .scVector .hbm S114688 .f32).slice (Rect.unit (s := S114688) (k0_off131 L 16#32) S512.size (k0_off131_inb L 2)) (fun _ => rfl)).view.set]{fullShare} f)
          ∗ (∃ f, ((Memref.whole main_v1_scv : Memref sig .scVector .hbm S114688 .f32).slice (Rect.unit (s := S114688) (k0_off131 L 24#32) S512.size (k0_off131_inb L 3)) (fun _ => rfl)).view.loc (thr d L) ↦[((Memref.whole main_v1_scv : Memref sig .scVector .hbm S114688 .f32).slice (Rect.unit (s := S114688) (k0_off131 L 24#32) S512.size (k0_off131_inb L 3)) (fun _ => rfl)).view.set]{fullShare} f)
          ∗ (∃ f, ((Memref.whole main_v1_scv : Memref sig .scVector .hbm S114688 .f32).slice (Rect.unit (s := S114688) (k0_off131 L 32#32) S512.size (k0_off131_inb L 4)) (fun _ => rfl)).view.loc (thr d L) ↦[((Memref.whole main_v1_scv : Memref sig .scVector .hbm S114688 .f32).slice (Rect.unit (s := S114688) (k0_off131 L 32#32) S512.size (k0_off131_inb L 4)) (fun _ => rfl)).view.set]{fullShare} f)
          ∗ (∃ f, ((Memref.whole main_v1_scv : Memref sig .scVector .hbm S114688 .f32).slice (Rect.unit (s := S114688) (k0_off131 L 40#32) S512.size (k0_off131_inb L 5)) (fun _ => rfl)).view.loc (thr d L) ↦[((Memref.whole main_v1_scv : Memref sig .scVector .hbm S114688 .f32).slice (Rect.unit (s := S114688) (k0_off131 L 40#32) S512.size (k0_off131_inb L 5)) (fun _ => rfl)).view.set]{fullShare} f)
          ∗ (∃ f, ((Memref.whole main_v1_scv : Memref sig .scVector .hbm S114688 .f32).slice (Rect.unit (s := S114688) (k0_off131 L 48#32) S512.size (k0_off131_inb L 6)) (fun _ => rfl)).view.loc (thr d L) ↦[((Memref.whole main_v1_scv : Memref sig .scVector .hbm S114688 .f32).slice (Rect.unit (s := S114688) (k0_off131 L 48#32) S512.size (k0_off131_inb L 6)) (fun _ => rfl)).view.set]{fullShare} f))
        ∗ scopedBufs (thr d L) ∗ scopedSems0 (thr d L) ∗ owes (thr d L) O W)
      ⊢ wp frame (wpE (defs₀ (F := F)) 𝒱₀ (thr d L) none) Set.univ
          (cc0__sc_body (F := F) L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 cc0_scoped1 cc0_scoped2 cc0_scoped3 cc0_scoped4 cc0_scoped5 cc0_scoped6)
          fun _ => iprop(((Memref.whole main_v0_scv : Memref sig .scVector .hbm S16x2048x2048 .f32).view.loc (thr d L) ↦{q} A)
            ∗ ((((Memref.whole main_v1_scv : Memref sig .scVector .hbm S114688 .f32).slice (Rect.unit (s := S114688) (k0_off131 L 0#32) S512.size (k0_off131_inb L 0)) (fun _ => rfl)).view.loc (thr d L) ↦[((Memref.whole main_v1_scv : Memref sig .scVector .hbm S114688 .f32).slice (Rect.unit (s := S114688) (k0_off131 L 0#32) S512.size (k0_off131_inb L 0)) (fun _ => rfl)).view.set]{fullShare} ((Memref.whole main_v1_scv : Memref sig .scVector .hbm S114688 .f32).slice (Rect.unit (s := S114688) (k0_off131 L 0#32) S512.size (k0_off131_inb L 0)) (fun _ => rfl)).view.writes (Elt F) ((Memref.whole main_v1_scv : Memref sig .scVector .hbm S114688 .f32).slice (Rect.unit (s := S114688) (k0_off131 L 0#32) S512.size (k0_off131_inb L 0)) (fun _ => rfl)).view.junk [⟨Rect.whole _, v.1 d L A⟩])
            ∗ (((Memref.whole main_v1_scv : Memref sig .scVector .hbm S114688 .f32).slice (Rect.unit (s := S114688) (k0_off131 L 8#32) S512.size (k0_off131_inb L 1)) (fun _ => rfl)).view.loc (thr d L) ↦[((Memref.whole main_v1_scv : Memref sig .scVector .hbm S114688 .f32).slice (Rect.unit (s := S114688) (k0_off131 L 8#32) S512.size (k0_off131_inb L 1)) (fun _ => rfl)).view.set]{fullShare} ((Memref.whole main_v1_scv : Memref sig .scVector .hbm S114688 .f32).slice (Rect.unit (s := S114688) (k0_off131 L 8#32) S512.size (k0_off131_inb L 1)) (fun _ => rfl)).view.writes (Elt F) ((Memref.whole main_v1_scv : Memref sig .scVector .hbm S114688 .f32).slice (Rect.unit (s := S114688) (k0_off131 L 8#32) S512.size (k0_off131_inb L 1)) (fun _ => rfl)).view.junk [⟨Rect.whole _, v.2.1 d L A⟩])
            ∗ (((Memref.whole main_v1_scv : Memref sig .scVector .hbm S114688 .f32).slice (Rect.unit (s := S114688) (k0_off131 L 16#32) S512.size (k0_off131_inb L 2)) (fun _ => rfl)).view.loc (thr d L) ↦[((Memref.whole main_v1_scv : Memref sig .scVector .hbm S114688 .f32).slice (Rect.unit (s := S114688) (k0_off131 L 16#32) S512.size (k0_off131_inb L 2)) (fun _ => rfl)).view.set]{fullShare} ((Memref.whole main_v1_scv : Memref sig .scVector .hbm S114688 .f32).slice (Rect.unit (s := S114688) (k0_off131 L 16#32) S512.size (k0_off131_inb L 2)) (fun _ => rfl)).view.writes (Elt F) ((Memref.whole main_v1_scv : Memref sig .scVector .hbm S114688 .f32).slice (Rect.unit (s := S114688) (k0_off131 L 16#32) S512.size (k0_off131_inb L 2)) (fun _ => rfl)).view.junk [⟨Rect.whole _, v.2.2.1 d L A⟩])
            ∗ (((Memref.whole main_v1_scv : Memref sig .scVector .hbm S114688 .f32).slice (Rect.unit (s := S114688) (k0_off131 L 24#32) S512.size (k0_off131_inb L 3)) (fun _ => rfl)).view.loc (thr d L) ↦[((Memref.whole main_v1_scv : Memref sig .scVector .hbm S114688 .f32).slice (Rect.unit (s := S114688) (k0_off131 L 24#32) S512.size (k0_off131_inb L 3)) (fun _ => rfl)).view.set]{fullShare} ((Memref.whole main_v1_scv : Memref sig .scVector .hbm S114688 .f32).slice (Rect.unit (s := S114688) (k0_off131 L 24#32) S512.size (k0_off131_inb L 3)) (fun _ => rfl)).view.writes (Elt F) ((Memref.whole main_v1_scv : Memref sig .scVector .hbm S114688 .f32).slice (Rect.unit (s := S114688) (k0_off131 L 24#32) S512.size (k0_off131_inb L 3)) (fun _ => rfl)).view.junk [⟨Rect.whole _, v.2.2.2.1 d L A⟩])
            ∗ (((Memref.whole main_v1_scv : Memref sig .scVector .hbm S114688 .f32).slice (Rect.unit (s := S114688) (k0_off131 L 32#32) S512.size (k0_off131_inb L 4)) (fun _ => rfl)).view.loc (thr d L) ↦[((Memref.whole main_v1_scv : Memref sig .scVector .hbm S114688 .f32).slice (Rect.unit (s := S114688) (k0_off131 L 32#32) S512.size (k0_off131_inb L 4)) (fun _ => rfl)).view.set]{fullShare} ((Memref.whole main_v1_scv : Memref sig .scVector .hbm S114688 .f32).slice (Rect.unit (s := S114688) (k0_off131 L 32#32) S512.size (k0_off131_inb L 4)) (fun _ => rfl)).view.writes (Elt F) ((Memref.whole main_v1_scv : Memref sig .scVector .hbm S114688 .f32).slice (Rect.unit (s := S114688) (k0_off131 L 32#32) S512.size (k0_off131_inb L 4)) (fun _ => rfl)).view.junk [⟨Rect.whole _, v.2.2.2.2.1 d L A⟩])
            ∗ (((Memref.whole main_v1_scv : Memref sig .scVector .hbm S114688 .f32).slice (Rect.unit (s := S114688) (k0_off131 L 40#32) S512.size (k0_off131_inb L 5)) (fun _ => rfl)).view.loc (thr d L) ↦[((Memref.whole main_v1_scv : Memref sig .scVector .hbm S114688 .f32).slice (Rect.unit (s := S114688) (k0_off131 L 40#32) S512.size (k0_off131_inb L 5)) (fun _ => rfl)).view.set]{fullShare} ((Memref.whole main_v1_scv : Memref sig .scVector .hbm S114688 .f32).slice (Rect.unit (s := S114688) (k0_off131 L 40#32) S512.size (k0_off131_inb L 5)) (fun _ => rfl)).view.writes (Elt F) ((Memref.whole main_v1_scv : Memref sig .scVector .hbm S114688 .f32).slice (Rect.unit (s := S114688) (k0_off131 L 40#32) S512.size (k0_off131_inb L 5)) (fun _ => rfl)).view.junk [⟨Rect.whole _, v.2.2.2.2.2.1 d L A⟩])
            ∗ (((Memref.whole main_v1_scv : Memref sig .scVector .hbm S114688 .f32).slice (Rect.unit (s := S114688) (k0_off131 L 48#32) S512.size (k0_off131_inb L 6)) (fun _ => rfl)).view.loc (thr d L) ↦[((Memref.whole main_v1_scv : Memref sig .scVector .hbm S114688 .f32).slice (Rect.unit (s := S114688) (k0_off131 L 48#32) S512.size (k0_off131_inb L 6)) (fun _ => rfl)).view.set]{fullShare} ((Memref.whole main_v1_scv : Memref sig .scVector .hbm S114688 .f32).slice (Rect.unit (s := S114688) (k0_off131 L 48#32) S512.size (k0_off131_inb L 6)) (fun _ => rfl)).view.writes (Elt F) ((Memref.whole main_v1_scv : Memref sig .scVector .hbm S114688 .f32).slice (Rect.unit (s := S114688) (k0_off131 L 48#32) S512.size (k0_off131_inb L 6)) (fun _ => rfl)).view.junk [⟨Rect.whole _, v.2.2.2.2.2.2 d L A⟩]))
            ∗ scopedBufs (thr d L) ∗ scopedSems0 (thr d L) ∗ ∃ W', ⌜∀ p ∈ W', p ∈ W ∨ p.2 = none⌝ ∗ owes (thr d L) O W') } := by
  refine ⟨(?v0, ?v1, ?v2, ?v3, ?v4, ?v5, ?v6), fun d L O W q A hO => ?run⟩
  case run =>
  rw [cc0__sc_body_eq_skeleton]; unfold cc0__sc_body_skel
  rw [(K (F := F)).scopedBufs_V facts d ((L 0).castLE hcore0) ((L 1).castLE hsub0), SparseCore.Cfg.scopedSems0_V (Val := Elt F) d ((L 0).castLE hcore0) ((L 1).castLE hsub0), ownSems0_V, ownBufs_V]
  iintro ⟨#Hlv, HA, ⟨⟨%g0, Hp0⟩, ⟨%g1, Hp1⟩, ⟨%g2, Hp2⟩, ⟨%g3, Hp3⟩, ⟨%g4, Hp4⟩, ⟨%g5, Hp5⟩, ⟨%g6, Hp6⟩⟩,
    ⟨⟨%f0, Hb0⟩, ⟨%f1, Hb1⟩, ⟨%f2, Hb2⟩, Hbufs⟩, ⟨Hs7, Hs8, Hr0, Hr1, Hr2, Hr3, Hr4, Hr5, Hr6, Hsems⟩, HO⟩
  ihave Hmw := ((K (F := F)).mayWaits_none (thr := thr d L) hO) $$ Hlv
  -- two copies read the array at once (one per buffer): a half of the share for each
  ihave HA' := (pointsTo_share (PosShare.mem_left_op_right q)).1 $$ HA
  icases HA' with ⟨HA1, HA2⟩
  sl_exec_parts
  sl_step
  -- the first copy-out read the staging scratch over its first contents: the 32 stores cover it, so over anything
  have hc0 : LoadRect.covChk ((tileRun.sl.Hb2_32 d L A).map Sigma.fst) (LoadRect.whole _) cov32 = true := by
    first | rfl | decide
  have e0 : tileRun.sl.dma64 d L A f2 = tileRun.sl.dma64 d L A (Memref.whole cc0_scratch2 : Memref sig .scVector .vmem S512 .f32).view.junk := by
    delta tileRun.sl.dma64
    rw [Memref.writes_eq_junk_of_covChk (Val := Elt F) (m := (Memref.whole cc0_scratch2 : Memref sig .scVector .vmem S512 .f32))
      (Memref.isWhole_whole _) f2 (tileRun.sl.Hb2_32 d L A) cov32 hc0]
  ihave Hp0' := (Entails.of_eq (congrArg (fun z => (((Memref.whole main_v1_scv : Memref sig .scVector .hbm S114688 .f32).slice (Rect.unit (s := S114688) (k0_off131 L 0#32) S512.size (k0_off131_inb L 0)) (fun _ => rfl)).view.loc (thr d L) ↦[((Memref.whole main_v1_scv : Memref sig .scVector .hbm S114688 .f32).slice (Rect.unit (s := S114688) (k0_off131 L 0#32) S512.size (k0_off131_inb L 0)) (fun _ => rfl)).view.set]{fullShare}
      ((Memref.whole main_v1_scv : Memref sig .scVector .hbm S114688 .f32).slice (Rect.unit (s := S114688) (k0_off131 L 0#32) S512.size (k0_off131_inb L 0)) (fun _ => rfl)).view.writes (Elt F) ((Memref.whole main_v1_scv : Memref sig .scVector .hbm S114688 .f32).slice (Rect.unit (s := S114688) (k0_off131 L 0#32) S512.size (k0_off131_inb L 0)) (fun _ => rfl)).view.junk [⟨Rect.whole _, z⟩] : sProp 𝕄)) e0)) $$ Hp0
  -- the last piece was written over its first contents: the one write covers it
  ihave Hp6' := (Entails.of_eq (Memref.pointsTo_writes_junk_of_covChk (Val := Elt F) (thr d L) ((Memref.whole main_v1_scv : Memref sig .scVector .hbm S114688 .f32).slice (Rect.unit (s := S114688) (k0_off131 L 48#32) S512.size (k0_off131_inb L 6)) (fun _ => rfl)) g6
    [⟨Rect.whole _, tileRun.sl.dma64_6 d L A⟩] fullShare (.leaf 0) (by rfl))) $$ Hp6
  isplitl [HA1 HA2]
  · iapply (pointsTo_share (PosShare.mem_left_op_right q)).2
    isplitl [HA1]; · iexact HA1
    iexact HA2
  isplitl [Hp0' Hp1 Hp2 Hp3 Hp4 Hp5 Hp6']
  · isplitl [Hp0']; · iexact Hp0'
    isplitl [Hp1]; · iexact Hp1
    isplitl [Hp2]; · iexact Hp2
    isplitl [Hp3]; · iexact Hp3
    isplitl [Hp4]; · iexact Hp4
    isplitl [Hp5]; · iexact Hp5
    iexact Hp6'
  isplitl [Hb0 Hb1 Hb2 Hbufs]
  · isplitl [Hb0]; · iexists _; iexact Hb0
    isplitl [Hb1]; · iexists _; iexact Hb1
    isplitl [Hb2]; · iexists _; iexact Hb2
    iexact Hbufs
  isplitl [Hs7 Hs8 Hr0 Hr1 Hr2 Hr3 Hr4 Hr5 Hr6 Hsems]
  · isplitl [Hs7]; · iexact Hs7
    isplitl [Hs8]; · iexact Hs8
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hsems
  iexists _; isplitr
  rotate_left
  · iexact HO
  · ipureintro
    repeat refine waits_insert ?_
    exact fun p hp => .inl hp

open Cert.Kernel.Launch (outPiece pieceSet placeOf aLoc oLoc thrAt bodyAt TileBodySpec blockNo mem_pieceSet)

/-- The k-th delivered vector of the run. -/
def pieceVal (k : Fin 7) : ValTy F :=
  ![(tileRun (F := F)).1.1, (tileRun (F := F)).1.2.1, (tileRun (F := F)).1.2.2.1, (tileRun (F := F)).1.2.2.2.1,
    (tileRun (F := F)).1.2.2.2.2.1, (tileRun (F := F)).1.2.2.2.2.2.1, (tileRun (F := F)).1.2.2.2.2.2.2] k

/-- The place whose tile writes block b of the result (blocks of 512 words; block 32·k + 2·i + c is piece k of core c, subcore i). -/
def placeOfBlk (b : ℕ) : grid0.Coords := placeOf ⟨b % 2, Nat.mod_lt _ (by decide)⟩ ⟨b % 32 / 2, by omega⟩
/-- … and which of its seven pieces the block is. -/
def pieceOfBlk (b : ℕ) : Fin 7 := ⟨b / 32 % 7, Nat.mod_lt _ (by decide)⟩

omit [FloatOps F] in
theorem owner_block : ∀ L : grid0.Coords, ∀ k : Fin 7, placeOfBlk (blockNo L k) = L ∧ pieceOfBlk (blockNo L k) = k := by
  decide +kernel

omit [FloatOps F] in
/-- A word of piece k of the tile at L is owned by that place and that piece. -/
theorem owner_of_mem {L : grid0.Coords} {k : Fin 7} {x : S114688.Idx} (h : x ∈ pieceSet L k) :
    placeOfBlk ((x 0).val / 512) = L ∧ pieceOfBlk ((x 0).val / 512) = k := by
  rw [(mem_pieceSet L k x).1 h]
  exact owner_block L k

/-- THE RESULT ARRAY the tiles leave, word by word: what the copy-out of the piece that owns the word delivered, written
    at the word's place in that piece. -/
def colArrD (d : Dev nD) (Ac : Buf (Elt F) (aLoc d)) : Buf (Elt F) (oLoc d) := fun x =>
  (outPiece (placeOfBlk ((x 0).val / 512)) (pieceOfBlk ((x 0).val / 512))).view.writes (Elt F)
    (outPiece (placeOfBlk ((x 0).val / 512)) (pieceOfBlk ((x 0).val / 512))).view.junk
    [⟨Rect.whole _, pieceVal (pieceOfBlk ((x 0).val / 512)) d (placeOfBlk ((x 0).val / 512)) Ac⟩] x

/-- On a piece the result array is that piece's own write. -/
theorem piece_eq (d : Dev nD) (L : grid0.Coords) (k : Fin 7) (Ac : Buf (Elt F) (aLoc d)) :
    ((outPiece L k).view.loc (thrAt d L) ↦[(outPiece L k).view.set]{fullShare} colArrD d Ac : sProp 𝕄)
      = ((outPiece L k).view.loc (thrAt d L) ↦[(outPiece L k).view.set]{fullShare}
          (outPiece L k).view.writes (Elt F) (outPiece L k).view.junk [⟨Rect.whole _, pieceVal k d L Ac⟩]) :=
  pointsTo_congr fun x hx => by
    obtain ⟨hL, hk⟩ := owner_of_mem (L := L) (k := k) (x := x) hx
    have key : ∀ (L' : grid0.Coords) (k' : Fin 7), L' = L → k' = k →
        (outPiece L' k').view.writes (Elt F) (outPiece L' k').view.junk [⟨Rect.whole _, pieceVal k' d L' Ac⟩] x
          = (outPiece L k).view.writes (Elt F) (outPiece L k).view.junk [⟨Rect.whole _, pieceVal k d L Ac⟩] x := by
      rintro _ _ rfl rfl; rfl
    exact key _ _ hL hk

omit [FloatOps F] in
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- THE TILE'S BODY in the launch's form: every piece ends at the one result array. -/
theorem tile_body (As : (d : Dev nD) → Buf (Elt F) (aLoc d)) :
    TileBodySpec (F := F) As (fun d => colArrD d (As d)) := by
  intro d L O W q hO
  rw [bigSep_fin7, bigSep_fin7]
  refine ((tileRun (F := F)).2 d L O W q (As d) hO).trans (wp_mono _ _ _ fun _ => ?_)
  iintro ⟨HA, ⟨H0, H1, H2, H3, H4, H5, H6⟩, Hrest⟩
  isplitl [HA]; · iexact HA
  isplitl [H0 H1 H2 H3 H4 H5 H6]
  · isplitl [H0]; · rw [piece_eq d L 0 (As d)]; iexact H0
    isplitl [H1]; · rw [piece_eq d L 1 (As d)]; iexact H1
    isplitl [H2]; · rw [piece_eq d L 2 (As d)]; iexact H2
    isplitl [H3]; · rw [piece_eq d L 3 (As d)]; iexact H3
    isplitl [H4]; · rw [piece_eq d L 4 (As d)]; iexact H4
    isplitl [H5]; · rw [piece_eq d L 5 (As d)]; iexact H5
    rw [piece_eq d L 6 (As d)]; iexact H6
  iexact Hrest

end Cert.Kernel.TileValue

end
-- ==== Proof.lean ====
/-
  The certificate of a window-score kernel against its reference.

  Both programs take attention scores attn[0, h, r, c] (16 heads, 2048 rows, 2048 columns) and return out[h, w, ·] for
  30000 window slots: for the 31 live windows w, plane 0 is the sum over the 64 columns 4 + 64·w + j of the column
  sums Σ_r attn[0, h, r, ·], and planes 1 and 2 are the number w; every other entry is one and the same not-a-number
  word, never evaluated. The reference sums the rows, regroups the columns 64 at a time, sums again, and scatters the
  three planes into the not-a-number array. The kernel reshapes the scores to [16, 2048, 2048] and splits the heads:
  heads 9..15 go to 32 vector subcores, each summing the 256 rows of one of 8 bands of a 512-column strip, chunk by
  chunk of 64 rows through two buffers, into 7 pieces of 512 words of a column-sum array; heads 0..8 go to a grid of
  9 × 2 points on the TensorCore that accumulates the column sums over the two halves of the rows and multiplies them
  by the 0/1 window matrix; a last gridless kernel sums the 8 bands, multiplies by the same matrix, stacks the 16 heads,
  pads with the not-a-number word, selects the live windows and writes the three planes, which @main transposes.

  At the ideal instance both are one function of the scores: sums over the extended reals may be regrouped freely
  (addition is commutative and associative there), and a product with the 0/1 matrix is the sum over the columns of
  the window (x·0 = 0 and x·1 = x for every extended real). No input need be finite for that.

  The frames: every weakly fair execution of the TensorCore's @main, the two sequencers and the 32 vector subcores
  terminates without a fault and leaves the three arguments as launched. Each vector subcore only copies between the
  arrays and its own memory and waits for its own copies, one outstanding per semaphore, a buffer read only after its
  copy has landed and refilled only after it was read; the scores are dealt to the subcores as read shares and each
  owns its 7 pieces of the column-sum array; the two TensorCore kernels run as pipeline regions inside the program, each
  entered from the thread state the line before it left. The word-level program is the same text as the idealized one
  (no rewrite applied), so its frame is the same proof read at the word instance.
-/
import proofs.«216449_g46943992545511_cont_8to1_c_491_21_alg».proof.Defs
import proofs.«216449_g46943992545511_cont_8to1_c_491_21_alg».proof.Proof.Gen.Kernel
import proofs.«216449_g46943992545511_cont_8to1_c_491_21_alg».proof.Proof.Gen.KernelIdeal
import proofs.«216449_g46943992545511_cont_8to1_c_491_21_alg».proof.Proof.Gen.ReferenceIdeal
import proofs.«216449_g46943992545511_cont_8to1_c_491_21_alg».proof.Proof.Gen.Pre_finite_inputs
import proofs.«216449_g46943992545511_cont_8to1_c_491_21_alg».proof.Proof.RefClaims
import proofs.«216449_g46943992545511_cont_8to1_c_491_21_alg».proof.Proof.Claims
import proofs.«216449_g46943992545511_cont_8to1_c_491_21_alg».proof.Proof.TileIdeal
import proofs.«216449_g46943992545511_cont_8to1_c_491_21_alg».proof.Proof.Bits.Run
import proofs.«216449_g46943992545511_cont_8to1_c_491_21_alg».proof.Proof.Bits.TileValue

noncomputable section

namespace Cert.Proof

open Idealize.ShloMosaic Idealize.SL.Sem

/-- The program as printed, read at the word instance: the same run, its arguments unchanged. -/
theorem frame_p : Cert.frame_Kernel := fun m ρ _ =>
  (θ_run Cert.Kernel.defs _ _).mono (fun _ h c => (h c).2)
    (Cert.Kernel.Launch.run_read (F := Bits) m ρ (fun d => Cert.Kernel.TileValue.colArrD d (Cert.Kernel.Launch.A m d))
      (Cert.Kernel.TileValue.tile_body _))

/-- The column-sum array's entry for head 9 + k, band b, column c is the sum of the band's 256 rows, four chunks of 64. -/
theorem tile_reading (m : (ℓ : Loc Cert.KernelIdeal.nD Cert.KernelIdeal.τ Cert.KernelIdeal.sig) → Buf (Elt Ideal) ℓ) :
    Cert.KernelIdeal.Claims.TileReading m :=
  fun d k b c => Cert.KernelIdeal.TileIdeal.colArr_ideal d (Cert.KernelIdeal.Launch.A m d) k b c

theorem claim : Cert.Claim :=
  ⟨Cert.Kernel.Gen.facts, Cert.KernelIdeal.Gen.facts, Cert.ReferenceIdeal.Gen.facts, Cert.Pre_finite_inputs.Gen.facts,
    frame_p, Cert.Proof.KernelClaims.frame_pi, Cert.Proof.RefClaims.frame_ri, Cert.Proof.RefClaims.preserves,
    Cert.Proof.KernelClaims.algebraic tile_reading⟩

end Cert.Proof

end
